-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S1600000 : Shape := ⟨1, ![1600000]⟩
abbrev S100000 : Shape := ⟨1, ![100000]⟩
abbrev S78x128 : Shape := ⟨2, ![78, 128]⟩
abbrev S128 : Shape := ⟨1, ![128]⟩
abbrev S4x128x128 : Shape := ⟨3, ![4, 128, 128]⟩
abbrev S4x128 : Shape := ⟨2, ![4, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x408 : Shape := ⟨2, ![256, 408]⟩
abbrev S408 : Shape := ⟨1, ![408]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S78x128 : S_.BroadcastsInDim S78x128 (![] : Fin 0 → Fin S78x128.rank)
  reducesTo_S78x128_S_d0_1 : S78x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x408 : S_.BroadcastsInDim S256x408 (![] : Fin 0 → Fin S256x408.rank)
  reducesTo_S256x408_S_d0_1 : S256x408.ReducesTo [0, 1] S_
  bcast_S_S408 : S_.BroadcastsInDim S408 (![] : Fin 0 → Fin S408.rank)
  reducesTo_S408_S_d0 : S408.ReducesTo [0] S_

variable [Facts]

def fn_part5 {F : FTy → Type} [FloatOps F] (main_arg21 : FVec F S408 .f32) (main_v83 : IVec S_ 1) (main_v84 : FVec F S256x408 .f32) (main_cst_32 : FVec F S_ .f32) : IVec S_ 1 :=
  let main_v85 : FVec F S256x408 .f32 := broadcastInDim S256x408 ![] bcast_S_S256x408 main_cst_32
  let main_v86 : IVec S256x408 1 := cmpf .olt main_v84 main_v85
  let main_c_33 : IVec S_ 1 := constantI S_ 1 1#1
  let main_v87 : IVec S_ 1 := (fun x v => Host.reduce IntOp.andi x v reducesTo_S256x408_S_d0_1 h_S_) main_v86 main_c_33
  let main_v88 : IVec S_ 1 := andi main_v83 main_v87
  let main_v89 : FVec F S408 .f32 := Host.absf main_arg21
  let main_cst_34 : FVec F S_ .f32 := constant S_ .f32 0x7F800000#32
  let main_v90 : FVec F S408 .f32 := broadcastInDim S408 ![] bcast_S_S408 main_cst_34
  let main_v91 : IVec S408 1 := cmpf .olt main_v89 main_v90
  let main_c_35 : IVec S_ 1 := constantI S_ 1 1#1
  let main_v92 : IVec S_ 1 := (fun x v => Host.reduce IntOp.andi x v reducesTo_S408_S_d0 h_S_) main_v91 main_c_35
  let main_v93 : IVec S_ 1 := andi main_v88 main_v92
  main_v93

def fn_part4 {F : FTy → Type} [FloatOps F] (main_arg17 : FVec F S256 .f32) (main_arg18 : FVec F S256 .f32) (main_arg19 : FVec F S256 .f32) (main_arg20 : FVec F S256x408 .f32) (main_arg21 : FVec F S408 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg18
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg19
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x408 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S512 .f32) (main_arg15 : FVec F S512 .f32) (main_arg16 : FVec F S512x256 .f32) (main_arg17 : FVec F S256 .f32) (main_arg18 : FVec F S256 .f32) (main_arg19 : FVec F S256 .f32) (main_arg20 : FVec F S256x408 .f32) (main_arg21 : FVec F S408 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg16
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg17 main_arg18 main_arg19 main_arg20 main_arg21 main_v63 main_v67

def fn_part2 {F : FTy → Type} [FloatOps F] (main_arg10 : FVec F S4x128 .f32) (main_arg11 : FVec F S4x128 .f32) (main_arg12 : FVec F S128x512 .f32) (main_arg13 : FVec F S512 .f32) (main_arg14 : FVec F S512 .f32) (main_arg15 : FVec F S512 .f32) (main_arg16 : FVec F S512x256 .f32) (main_arg17 : FVec F S256 .f32) (main_arg18 : FVec F S256 .f32) (main_arg19 : FVec F S256 .f32) (main_arg20 : FVec F S256x408 .f32) (main_arg21 : FVec F S408 .f32) (main_v33 : IVec S_ 1) : IVec S_ 1 :=
  let main_v34 : FVec F S4x128 .f32 := Host.absf main_arg10
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x512 .f32 := Host.absf main_arg12
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg14 main_arg15 main_arg16 main_arg17 main_arg18 main_arg19 main_arg20 main_arg21 main_v48 main_v49 main_v50

def fn_part1 {F : FTy → Type} [FloatOps F] (main_arg7 : FVec F S128 .f32) (main_arg8 : FVec F S4x128x128 .f32) (main_arg9 : FVec F S4x128 .f32) (main_arg10 : FVec F S4x128 .f32) (main_arg11 : FVec F S4x128 .f32) (main_arg12 : FVec F S128x512 .f32) (main_arg13 : FVec F S512 .f32) (main_arg14 : FVec F S512 .f32) (main_arg15 : FVec F S512 .f32) (main_arg16 : FVec F S512x256 .f32) (main_arg17 : FVec F S256 .f32) (main_arg18 : FVec F S256 .f32) (main_arg19 : FVec F S256 .f32) (main_arg20 : FVec F S256x408 .f32) (main_arg21 : FVec F S408 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg8
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S100000x78 .f32) (main_arg1 : IVec S1600000 32) (main_arg2 : IVec S1600000 32) (main_arg3 : IVec S100000 32) (main_arg4 : FVec F S78x128 .f32) (main_arg5 : FVec F S128 .f32) (main_arg6 : FVec F S128 .f32) (main_arg7 : FVec F S128 .f32) (main_arg8 : FVec F S4x128x128 .f32) (main_arg9 : FVec F S4x128 .f32) (main_arg10 : FVec F S4x128 .f32) (main_arg11 : FVec F S4x128 .f32) (main_arg12 : FVec F S128x512 .f32) (main_arg13 : FVec F S512 .f32) (main_arg14 : FVec F S512 .f32) (main_arg15 : FVec F S512 .f32) (main_arg16 : FVec F S512x256 .f32) (main_arg17 : FVec F S256 .f32) (main_arg18 : FVec F S256 .f32) (main_arg19 : FVec F S256 .f32) (main_arg20 : FVec F S256x408 .f32) (main_arg21 : FVec F S408 .f32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S78x128 .f32 := Host.absf main_arg4
  let main_cst_0 : FVec F S_ .f32 := constant S_ .f32 0x7F800000#32
  let main_v5 : FVec F S78x128 .f32 := broadcastInDim S78x128 ![] bcast_S_S78x128 main_cst_0
  let main_v6 : IVec S78x128 1 := cmpf .olt main_v4 main_v5
  let main_c_1 : IVec S_ 1 := constantI S_ 1 1#1
  let main_v7 : IVec S_ 1 := (fun x v => Host.reduce IntOp.andi x v reducesTo_S78x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S100000x78 : Shape := ⟨2, ![100000, 78]⟩
abbrev S1600000 : Shape := ⟨1, ![1600000]⟩
abbrev S100000 : Shape := ⟨1, ![100000]⟩
abbrev S78x128 : Shape := ⟨2, ![78, 128]⟩
abbrev S128 : Shape := ⟨1, ![128]⟩
abbrev S4x128x128 : Shape := ⟨3, ![4, 128, 128]⟩
abbrev S4x128 : Shape := ⟨2, ![4, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x408 : Shape := ⟨2, ![256, 408]⟩
abbrev S408 : Shape := ⟨1, ![408]⟩
abbrev S_ : Shape := ⟨0, ![]⟩
abbrev S1600000x1 : Shape := ⟨2, ![1600000, 1]⟩
abbrev S1600000x78 : Shape := ⟨2, ![1600000, 78]⟩
abbrev S1x128 : Shape := ⟨2, ![1, 128]⟩
abbrev S100000x128 : Shape := ⟨2, ![100000, 128]⟩
abbrev S10000x78 : Shape := ⟨2, ![10000, 78]⟩
abbrev S10000x128 : Shape := ⟨2, ![10000, 128]⟩
abbrev S1600000x128 : Shape := ⟨2, ![1600000, 128]⟩
abbrev S1x128x128 : Shape := ⟨3, ![1, 128, 128]⟩
abbrev S128x128 : Shape := ⟨2, ![128, 128]⟩
abbrev S2048x128 : Shape := ⟨2, ![2048, 128]⟩
abbrev S100000x1 : Shape := ⟨2, ![100000, 1]⟩
abbrev S1x512 : Shape := ⟨2, ![1, 512]⟩
abbrev S2048x512 : Shape := ⟨2, ![2048, 512]⟩
abbrev S1x256 : Shape := ⟨2, ![1, 256]⟩
abbrev S2048x256 : Shape := ⟨2, ![2048, 256]⟩
abbrev S256x204 : Shape := ⟨2, ![256, 204]⟩
abbrev S204 : Shape := ⟨1, ![204]⟩
abbrev S1x204 : Shape := ⟨2, ![1, 204]⟩
abbrev S2048x204 : Shape := ⟨2, ![2048, 204]⟩

abbrev nBuf : Space → Nat
  | .hbm => 247
  | .vmem => 118
  | .smem => 0
  | _ => 0

abbrev hbmTy0_0 (i : Nat) : BufTy := match i % 128 with
  | 0 => ⟨S100000x78, .f32⟩
  | 1 => ⟨S1600000, .i32⟩
  | 2 => ⟨S1600000, .i32⟩
  | 3 => ⟨S100000, .i32⟩
  | 4 => ⟨S78x128, .f32⟩
  | 5 => ⟨S128, .f32⟩
  | 6 => ⟨S128, .f32⟩
  | 7 => ⟨S128, .f32⟩
  | 8 => ⟨S4x128x128, .f32⟩
  | 9 => ⟨S4x128, .f32⟩
  | 10 => ⟨S4x128, .f32⟩
  | 11 => ⟨S4x128, .f32⟩
  | 12 => ⟨S128x512, .f32⟩
  | 13 => ⟨S512, .f32⟩
  | 14 => ⟨S512, .f32⟩
  | 15 => ⟨S512, .f32⟩
  | 16 => ⟨S512x256, .f32⟩
  | 17 => ⟨S256, .f32⟩
  | 18 => ⟨S256, .f32⟩
  | 19 => ⟨S256, .f32⟩
  | 20 => ⟨S256x408, .f32⟩
  | 21 => ⟨S408, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x78, .f32⟩
  | 31 => ⟨S_, .f32⟩
  | 32 => ⟨S100000x78, .f32⟩
  | 33 => ⟨S1600000x1, .i32⟩
  | 34 => ⟨S100000x78, .f32⟩
  | 35 => ⟨S_, .f32⟩
  | 36 => ⟨S128, .f32⟩
  | 37 => ⟨S128, .f32⟩
  | 38 => ⟨S1x128, .f32⟩
  | 39 => ⟨S100000x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S1x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S_, .f32⟩
  | 110 => ⟨S128, .f32⟩
  | 111 => ⟨S128, .f32⟩
  | 112 => ⟨S1x128, .f32⟩
  | 113 => ⟨S100000x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S128, .f32⟩
  | 126 => ⟨S1x128, .f32⟩
  | 127 => ⟨S128, .f32⟩
  | _ => ⟨S100000x78, .f32⟩

abbrev hbmTy0_1 (i : Nat) : BufTy := match i % 128 with
  | 0 => ⟨S1x128, .f32⟩
  | 1 => ⟨S1x128, .f32⟩
  | 2 => ⟨S100000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S1x128x128, .f32⟩
  | 17 => ⟨S128x128, .f32⟩
  | 18 => ⟨S1x128, .f32⟩
  | 19 => ⟨S128, .f32⟩
  | 20 => ⟨S_, .f32⟩
  | 21 => ⟨S128, .f32⟩
  | 22 => ⟨S128, .f32⟩
  | 23 => ⟨S1x128, .f32⟩
  | 24 => ⟨S100000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S1x128x128, .f32⟩
  | 56 => ⟨S128x128, .f32⟩
  | 57 => ⟨S1x128, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S1x128, .f32⟩
  | 80 => ⟨S100000x128, .f32⟩
  | 81 => ⟨S_, .f32⟩
  | 82 => ⟨S2048x128, .f32⟩
  | 83 => ⟨S100000x1, .i32⟩
  | 84 => ⟨S2048x128, .f32⟩
  | 85 => ⟨S1x512, .f32⟩
  | 86 => ⟨S2048x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S1x512, .f32⟩
  | 96 => ⟨S1x512, .f32⟩
  | 97 => ⟨S1x512, .f32⟩
  | 98 => ⟨S1x512, .f32⟩
  | 99 => ⟨S2048x512, .f32⟩
  | 100 => ⟨S1x256, .f32⟩
  | 101 => ⟨S2048x256, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S2048x256, .f32⟩
  | 115 => ⟨S256x204, .f32⟩
  | 116 => ⟨S204, .f32⟩
  | 117 => ⟨S1x204, .f32⟩
  | 118 => ⟨S2048x204, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | .local _ .vmem, ⟨0, _⟩ => ⟨S10000x78, .f32⟩
  | .local _ .vmem, ⟨1, _⟩ => ⟨S10000x78, .f32⟩
  | .local _ .vmem, ⟨2, _⟩ => ⟨S10000x78, .f32⟩
  | .local _ .vmem, ⟨3, _⟩ => ⟨S10000x78, .f32⟩
  | .local _ .vmem, ⟨4, _⟩ => ⟨S78x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S1x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S128x128, .f32⟩
  | .local _ .vmem, ⟨59, _⟩ => ⟨S1x128, .f32⟩
  | .local _ .vmem, ⟨60, _⟩ => ⟨S10000x128, .f32⟩
  | .local _ .vmem, ⟨61, _⟩ => ⟨S10000x128, .f32⟩
  | .local _ .vmem, ⟨62, _⟩ => ⟨S1x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S10000x128, .f32⟩
  | .local _ .vmem, ⟨75, _⟩ => ⟨S10000x128, .f32⟩
  | .local _ .vmem, ⟨76, _⟩ => ⟨S128x128, .f32⟩
  | .local _ .vmem, ⟨77, _⟩ => ⟨S1x128, .f32⟩
  | .local _ .vmem, ⟨78, _⟩ => ⟨S10000x128, .f32⟩
  | .local _ .vmem, ⟨79, _⟩ => ⟨S10000x128, .f32⟩
  | .local _ .vmem, ⟨80, _⟩ => ⟨S1x128, .f32⟩
  | .local _ .vmem, ⟨81, _⟩ => ⟨S1x128, .f32⟩
  | .local _ .vmem, ⟨82, _⟩ => ⟨S10000x128, .f32⟩
  | .local _ .vmem, ⟨83, _⟩ => ⟨S10000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S10000x128, .f32⟩
  | .local _ .vmem, ⟨89, _⟩ => ⟨S10000x128, .f32⟩
  | .local _ .vmem, ⟨90, _⟩ => ⟨S2048x128, .f32⟩
  | .local _ .vmem, ⟨91, _⟩ => ⟨S128x512, .f32⟩
  | .local _ .vmem, ⟨92, _⟩ => ⟨S1x512, .f32⟩
  | .local _ .vmem, ⟨93, _⟩ => ⟨S2048x512, .f32⟩
  | .local _ .vmem, ⟨94, _⟩ => ⟨S1x512, .f32⟩
  | .local _ .vmem, ⟨95, _⟩ => ⟨S1x512, .f32⟩
  | .local _ .vmem, ⟨96, _⟩ => ⟨S2048x512, .f32⟩
  | .local _ .vmem, ⟨97, _⟩ => ⟨S1x512, .f32⟩
  | .local _ .vmem, ⟨98, _⟩ => ⟨S1x512, .f32⟩
  | .local _ .vmem, ⟨99, _⟩ => ⟨S1x512, .f32⟩
  | .local _ .vmem, ⟨100, _⟩ => ⟨S1x512, .f32⟩
  | .local _ .vmem, ⟨101, _⟩ => ⟨S2048x512, .f32⟩
  | .local _ .vmem, ⟨102, _⟩ => ⟨S2048x512, .f32⟩
  | .local _ .vmem, ⟨103, _⟩ => ⟨S512x256, .f32⟩
  | .local _ .vmem, ⟨104, _⟩ => ⟨S1x256, .f32⟩
  | .local _ .vmem, ⟨105, _⟩ => ⟨S2048x256, .f32⟩
  | .local _ .vmem, ⟨106, _⟩ => ⟨S1x256, .f32⟩
  | .local _ .vmem, ⟨107, _⟩ => ⟨S1x256, .f32⟩
  | .local _ .vmem, ⟨108, _⟩ => ⟨S2048x256, .f32⟩
  | .local _ .vmem, ⟨109, _⟩ => ⟨S1x256, .f32⟩
  | .local _ .vmem, ⟨110, _⟩ => ⟨S1x256, .f32⟩
  | .local _ .vmem, ⟨111, _⟩ => ⟨S1x256, .f32⟩
  | .local _ .vmem, ⟨112, _⟩ => ⟨S1x256, .f32⟩
  | .local _ .vmem, ⟨113, _⟩ => ⟨S2048x256, .f32⟩
  | .local _ .vmem, ⟨114, _⟩ => ⟨S2048x256, .f32⟩
  | .local _ .vmem, ⟨115, _⟩ => ⟨S256x204, .f32⟩
  | .local _ .vmem, ⟨116, _⟩ => ⟨S1x204, .f32⟩
  | .local _ .vmem, ⟨117, _⟩ => ⟨S2048x204, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13_0 : Ref sig .tc := ⟨.hbm, 39, rfl⟩
abbrev main_v13_1 : Ref sig .tc := ⟨.hbm, 40, rfl⟩
abbrev main_v13_2 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40_0 : Ref sig .tc := ⟨.hbm, 74, rfl⟩
abbrev main_v40_1 : Ref sig .tc := ⟨.hbm, 75, rfl⟩
abbrev main_v40_2 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_13 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71_0 : Ref sig .tc := ⟨.hbm, 113, rfl⟩
abbrev main_v71_1 : Ref sig .tc := ⟨.hbm, 114, rfl⟩
abbrev main_v71_2 : Ref sig .tc := ⟨.hbm, 115, rfl⟩
abbrev main_cst_14 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_16 : Ref sig .tc := ⟨.hbm, 131, rfl⟩
abbrev main_v85 : Ref sig .tc := ⟨.hbm, 132, rfl⟩
abbrev main_v86 : Ref sig .tc := ⟨.hbm, 133, rfl⟩
abbrev main_c_17 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_18 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_19 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102_0 : Ref sig .tc := ⟨.hbm, 152, rfl⟩
abbrev main_v102_1 : Ref sig .tc := ⟨.hbm, 153, rfl⟩
abbrev main_v102_2 : Ref sig .tc := ⟨.hbm, 154, rfl⟩
abbrev main_cst_20 : Ref sig .tc := ⟨.hbm, 155, rfl⟩
abbrev main_v103 : Ref sig .tc := ⟨.hbm, 156, rfl⟩
abbrev main_v104 : Ref sig .tc := ⟨.hbm, 157, rfl⟩
abbrev main_cst_21 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_22 : Ref sig .tc := ⟨.hbm, 170, rfl⟩
abbrev main_v116 : Ref sig .tc := ⟨.hbm, 171, rfl⟩
abbrev main_v117 : Ref sig .tc := ⟨.hbm, 172, rfl⟩
abbrev main_c_23 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_24 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_25 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133_0 : Ref sig .tc := ⟨.hbm, 191, rfl⟩
abbrev main_v133_1 : Ref sig .tc := ⟨.hbm, 192, rfl⟩
abbrev main_v133_2 : Ref sig .tc := ⟨.hbm, 193, rfl⟩
abbrev main_cst_26 : Ref sig .tc := ⟨.hbm, 194, rfl⟩
abbrev main_v134 : Ref sig .tc := ⟨.hbm, 195, rfl⟩
abbrev main_v135 : Ref sig .tc := ⟨.hbm, 196, rfl⟩
abbrev main_cst_27 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_28 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151_0 : Ref sig .tc := ⟨.hbm, 214, rfl⟩
abbrev main_v151_1 : Ref sig .tc := ⟨.hbm, 215, rfl⟩
abbrev main_v151_2 : Ref sig .tc := ⟨.hbm, 216, rfl⟩
abbrev main_cst_29 : Ref sig .tc := ⟨.hbm, 217, rfl⟩
abbrev main_v152 : Ref sig .tc := ⟨.hbm, 218, rfl⟩
abbrev main_v153 : Ref sig .tc := ⟨.hbm, 219, rfl⟩
abbrev main_cst_30 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162_0 : Ref sig .tc := ⟨.hbm, 229, rfl⟩
abbrev main_v162_1 : Ref sig .tc := ⟨.hbm, 230, rfl⟩
abbrev main_v162_2 : Ref sig .tc := ⟨.hbm, 231, rfl⟩
abbrev main_cst_31 : Ref sig .tc := ⟨.hbm, 232, rfl⟩
abbrev main_v163 : Ref sig .tc := ⟨.hbm, 233, rfl⟩
abbrev main_v164 : Ref sig .tc := ⟨.hbm, 234, rfl⟩
abbrev main_cst_32 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc6_stg5_0 : Ref sig .tc := ⟨.vmem, 62, rfl⟩
abbrev cc6_stg6_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg4_1 : Ref sig .tc := ⟨.vmem, 79, rfl⟩
abbrev cc8_stg5_0 : Ref sig .tc := ⟨.vmem, 80, rfl⟩
abbrev cc8_stg6_0 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc11_stg0_0 : Ref sig .tc := ⟨.vmem, 96, rfl⟩
abbrev cc11_stg1_0 : Ref sig .tc := ⟨.vmem, 97, rfl⟩
abbrev cc11_stg2_0 : Ref sig .tc := ⟨.vmem, 98, rfl⟩
abbrev cc11_stg3_0 : Ref sig .tc := ⟨.vmem, 99, rfl⟩
abbrev cc11_stg4_0 : Ref sig .tc := ⟨.vmem, 100, rfl⟩
abbrev cc11_stg5_0 : Ref sig .tc := ⟨.vmem, 101, rfl⟩
abbrev cc12_stg0_0 : Ref sig .tc := ⟨.vmem, 102, rfl⟩
abbrev cc12_stg1_0 : Ref sig .tc := ⟨.vmem, 103, rfl⟩
abbrev cc12_stg2_0 : Ref sig .tc := ⟨.vmem, 104, rfl⟩
abbrev cc12_stg3_0 : Ref sig .tc := ⟨.vmem, 105, rfl⟩
abbrev cc12_stg4_0 : Ref sig .tc := ⟨.vmem, 106, rfl⟩
abbrev cc12_stg5_0 : Ref sig .tc := ⟨.vmem, 107, rfl⟩
abbrev cc13_stg0_0 : Ref sig .tc := ⟨.vmem, 108, rfl⟩
abbrev cc13_stg1_0 : Ref sig .tc := ⟨.vmem, 109, rfl⟩
abbrev cc13_stg2_0 : Ref sig .tc := ⟨.vmem, 110, rfl⟩
abbrev cc13_stg3_0 : Ref sig .tc := ⟨.vmem, 111, rfl⟩
abbrev cc13_stg4_0 : Ref sig .tc := ⟨.vmem, 112, rfl⟩
abbrev cc13_stg5_0 : Ref sig .tc := ⟨.vmem, 113, rfl⟩
abbrev cc14_stg0_0 : Ref sig .tc := ⟨.vmem, 114, rfl⟩
abbrev cc14_stg1_0 : Ref sig .tc := ⟨.vmem, 115, rfl⟩
abbrev cc14_stg2_0 : Ref sig .tc := ⟨.vmem, 116, rfl⟩
abbrev cc14_stg3_0 : Ref sig .tc := ⟨.vmem, 117, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc6_sem5_0 : DmaSem sig := 62
abbrev cc6_sem6_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem4_1 : DmaSem sig := 79
abbrev cc8_sem5_0 : DmaSem sig := 80
abbrev cc8_sem6_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95
abbrev cc11_sem0_0 : DmaSem sig := 96
abbrev cc11_sem1_0 : DmaSem sig := 97
abbrev cc11_sem2_0 : DmaSem sig := 98
abbrev cc11_sem3_0 : DmaSem sig := 99
abbrev cc11_sem4_0 : DmaSem sig := 100
abbrev cc11_sem5_0 : DmaSem sig := 101
abbrev cc12_sem0_0 : DmaSem sig := 102
abbrev cc12_sem1_0 : DmaSem sig := 103
abbrev cc12_sem2_0 : DmaSem sig := 104
abbrev cc12_sem3_0 : DmaSem sig := 105
abbrev cc12_sem4_0 : DmaSem sig := 106
abbrev cc12_sem5_0 : DmaSem sig := 107
abbrev cc13_sem0_0 : DmaSem sig := 108
abbrev cc13_sem1_0 : DmaSem sig := 109
abbrev cc13_sem2_0 : DmaSem sig := 110
abbrev cc13_sem3_0 : DmaSem sig := 111
abbrev cc13_sem4_0 : DmaSem sig := 112
abbrev cc13_sem5_0 : DmaSem sig := 113
abbrev cc14_sem0_0 : DmaSem sig := 114
abbrev cc14_sem1_0 : DmaSem sig := 115
abbrev cc14_sem2_0 : DmaSem sig := 116
abbrev cc14_sem3_0 : DmaSem sig := 117

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x78 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S78x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S2048x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S2048x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x512 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S2048x512 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1x512 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S2048x512 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S2048x512 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S512x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S2048x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S2048x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S2048x256 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S2048x256 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S256x204 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x204 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S2048x204 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x78 : S_.BroadcastsInDim S100000x78 (![] : Fin 0 → Fin S100000x78.rank)
  bcast_S_S128 : S_.BroadcastsInDim S128 (![] : Fin 0 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x78_S10000x78_0_0 : ∀ a, (![0, 0] : Fin 2 → Nat) a + S10000x78.size a ≤ S10000x78.size a
  h_S10000x78 : 0 < S10000x78.numel
  shapeCasts_S10000x78_S10000x78 : S10000x78.ShapeCasts S10000x78
  bitsLt_bf16_f32 : FTy.bits .bf16 < FTy.bits .f32
  inb_S78x128_S78x128_0_0 : ∀ a, (![0, 0] : Fin 2 → Nat) a + S78x128.size a ≤ S78x128.size a
  h_S78x128 : 0 < S78x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S2048x128 : S_.BroadcastsInDim S2048x128 (![] : Fin 0 → Fin S2048x128.rank)
  bcast_S100000_S100000x1_0 : S100000.BroadcastsInDim S100000x1 (![0] : Fin 1 → Fin S100000x1.rank)
  shapeCasts_S512_S1x512 : S512.ShapeCasts S1x512
  inb_S1x512_S1x512_0_0 : ∀ a, (![0, 0] : Fin 2 → Nat) a + S1x512.size a ≤ S1x512.size a
  h_S1x512 : 0 < S1x512.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  bcast_S_S1x512 : S_.BroadcastsInDim S1x512 (![] : Fin 0 → Fin S1x512.rank)
  shapeCasts_S2048x512_S2048x512 : S2048x512.ShapeCasts S2048x512
  shapeCasts_S256_S1x256 : S256.ShapeCasts S1x256
  inb_S1x256_S1x256_0_0 : ∀ a, (![0, 0] : Fin 2 → Nat) a + S1x256.size a ≤ S1x256.size a
  h_S1x256 : 0 < S1x256.numel
  inb_S512x256_S512x256_0_0 : ∀ a, (![0, 0] : Fin 2 → Nat) a + S512x256.size a ≤ S512x256.size a
  h_S512x256 : 0 < S512x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  bcast_S_S1x256 : S_.BroadcastsInDim S1x256 (![] : Fin 0 → Fin S1x256.rank)
  shapeCasts_S2048x256_S2048x256 : S2048x256.ShapeCasts S2048x256
  slices_S256x408_S256x204_0_204 : S256x408.Slices ![0, 204] S256x204
  slices_S408_S204_204 : S408.Slices ![204] S204
  shapeCasts_S204_S1x204 : S204.ShapeCasts S1x204
  inb_S256x204_S256x204_0_0 : ∀ a, (![0, 0] : Fin 2 → Nat) a + S256x204.size a ≤ S256x204.size a
  h_S256x204 : 0 < S256x204.numel
  shapeCasts_S256x204_S256x204 : S256x204.ShapeCasts S256x204
  inb_S1x204_S1x204_0_0 : ∀ a, (![0, 0] : Fin 2 → Nat) a + S1x204.size a ≤ S1x204.size a
  h_S1x204 : 0 < S1x204.numel
  shapeCasts_S1x204_S1x204 : S1x204.ShapeCasts S1x204
  broadcasts_S1x204_S2048x204 : S1x204.Broadcasts S2048x204
  inb_S2048x204_S2048x204_0_0 : ∀ a, (![0, 0] : Fin 2 → Nat) a + S2048x204.size a ≤ S2048x204.size a
  h_S2048x204 : 0 < S2048x204.numel
  gather_S100000x78_S1600000x1_S1600000x78_1_0_n_n_0_1_178_wf : GatherDims.WF S100000x78 S1600000x1 S1600000x78 [1] [0] [] [0] [] 1 ![1, 78]
  scatter_S100000x78_S1600000x1_S1600000x78_1_0_0_1_wf : ScatterDims.WF S100000x78 S1600000x1 S1600000x78 [1] [0] [0] 1
  dot_S10000x78_S78x128_S10000x128_1_0_0_1_n_n_wf : DotDims.WF S10000x78 S78x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S2048x128_S100000x1_S100000x128_1_0_0_1_wf : ScatterDims.WF S2048x128 S100000x1 S100000x128 [1] [0] [0] 1
  dot_S2048x128_S128x512_S2048x512_1_0_0_1_n_n_wf : DotDims.WF S2048x128 S128x512 S2048x512 [1] [0] [0] [1] [] []
  dot_S2048x512_S512x256_S2048x256_1_0_0_1_n_n_wf : DotDims.WF S2048x512 S512x256 S2048x256 [1] [0] [0] [1] [] []
  dot_S2048x256_S256x204_S2048x204_1_0_0_1_n_n_wf : DotDims.WF S2048x256 S256x204 S2048x204 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x78.size a ≤ S100000x78.size a
  hwx0_0 : ∀ i : grid0.Coords, EltTy.bits .f32 = 32 ∨ (Rect.block (s := S100000x78) S10000x78.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x78.size a ≤ S100000x78.size a
  hwx0_1 : ∀ i : grid0.Coords, EltTy.bits .f32 = 32 ∨ (Rect.block (s := S100000x78) S10000x78.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S78x128.size a ≤ S78x128.size a
  hwx0_2 : ∀ i : grid0.Coords, EltTy.bits .f32 = 32 ∨ (Rect.block (s := S78x128) S78x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S100000x128.size a
  hwx7_5 : ∀ i : grid7.Coords, EltTy.bits .f32 = 32 ∨ (Rect.block (s := S100000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S100000x128.size a
  hwx8_1 : ∀ i : grid8.Coords, EltTy.bits .f32 = 32 ∨ (Rect.block (s := S100000x128) S10000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x128.size a ≤ S100000x128.size a
  hwx8_4 : ∀ i : grid8.Coords, EltTy.bits .f32 = 32 ∨ (Rect.block (s := S100000x128) S10000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x128.size a ≤ S100000x128.size a
  hwx9_5 : ∀ i : grid9.Coords, EltTy.bits .f32 = 32 ∨ (Rect.block (s := S100000x128) S10000x128.size (cc9_transform_5 i) (hinb9_5 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S2048x128.size a
  hwx10_0 : ∀ i : grid10.Coords, EltTy.bits .f32 = 32 ∨ (Rect.block (s := S2048x128) S2048x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x512.size a ≤ S128x512.size a
  hwx10_1 : ∀ i : grid10.Coords, EltTy.bits .f32 = 32 ∨ (Rect.block (s := S128x512) S128x512.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S2048x512.size a ≤ S2048x512.size a
  hwx10_3 : ∀ i : grid10.Coords, EltTy.bits .f32 = 32 ∨ (Rect.block (s := S2048x512) S2048x512.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x512.size a ≤ S1x512.size a
  hwx10_4 : ∀ i : grid10.Coords, EltTy.bits .f32 = 32 ∨ (Rect.block (s := S1x512) S1x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x512.size a ≤ S1x512.size a
  hwx10_5 : ∀ i : grid10.Coords, EltTy.bits .f32 = 32 ∨ (Rect.block (s := S1x512) S1x512.size (cc10_transform_5 i) (hinb10_5 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S2048x512.size a ≤ S2048x512.size a
  hwx11_0 : ∀ i : grid11.Coords, EltTy.bits .f32 = 32 ∨ (Rect.block (s := S2048x512) S2048x512.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x512.size a ≤ S1x512.size a
  hwx11_1 : ∀ i : grid11.Coords, EltTy.bits .f32 = 32 ∨ (Rect.block (s := S1x512) S1x512.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x512.size a ≤ S1x512.size a
  hwx11_3 : ∀ i : grid11.Coords, EltTy.bits .f32 = 32 ∨ (Rect.block (s := S1x512) S1x512.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x512.size a ≤ S1x512.size a
  hwx11_4 : ∀ i : grid11.Coords, EltTy.bits .f32 = 32 ∨ (Rect.block (s := S1x512) S1x512.size (cc11_transform_4 i) (hinb11_4 i)).WholeWords (EltTy.packing .f32)
  hstage11_5 : ∀ j, (stage11_5 j).IsWhole
  nbuf11_5 : grid11.bufCount reads11_5 false = 1
  hreads11_5 : ∀ i i' : grid11.Coords, (∀ a, reads11_5 a = true → i a = i' a) → cc11_transform_5 i = cc11_transform_5 i'
  hinb11_5 : ∀ (i : grid11.Coords) a, (cc11_transform_5 i a + 1) * S2048x512.size a ≤ S2048x512.size a
  hwx11_5 : ∀ i : grid11.Coords, EltTy.bits .f32 = 32 ∨ (Rect.block (s := S2048x512) S2048x512.size (cc11_transform_5 i) (hinb11_5 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S2048x512.size a ≤ S2048x512.size a
  hwx12_0 : ∀ i : grid12.Coords, EltTy.bits .f32 = 32 ∨ (Rect.block (s := S2048x512) S2048x512.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x256.size a ≤ S512x256.size a
  hwx12_1 : ∀ i : grid12.Coords, EltTy.bits .f32 = 32 ∨ (Rect.block (s := S512x256) S512x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S2048x256.size a ≤ S2048x256.size a
  hwx12_3 : ∀ i : grid12.Coords, EltTy.bits .f32 = 32 ∨ (Rect.block (s := S2048x256) S2048x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S2048x256.size a
  hwx13_0 : ∀ i : grid13.Coords, EltTy.bits .f32 = 32 ∨ (Rect.block (s := S2048x256) S2048x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 false = 1
  hreads13_5 : ∀ i i' : grid13.Coords, (∀ a, reads13_5 a = true → i a = i' a) → cc13_transform_5 i = cc13_transform_5 i'
  hinb13_5 : ∀ (i : grid13.Coords) a, (cc13_transform_5 i a + 1) * S2048x256.size a ≤ S2048x256.size a
  hwx13_5 : ∀ i : grid13.Coords, EltTy.bits .f32 = 32 ∨ (Rect.block (s := S2048x256) S2048x256.size (cc13_transform_5 i) (hinb13_5 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S2048x256.size a ≤ S2048x256.size a
  hwx14_0 : ∀ i : grid14.Coords, EltTy.bits .f32 = 32 ∨ (Rect.block (s := S2048x256) S2048x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x204.size a ≤ S256x204.size a
  hwx14_1 : ∀ i : grid14.Coords, EltTy.bits .f32 = 32 ∨ (Rect.block (s := S256x204) S256x204.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x204.size a ≤ S1x204.size a
  hwx14_2 : ∀ i : grid14.Coords, EltTy.bits .f32 = 32 ∨ (Rect.block (s := S1x204) S1x204.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S2048x204.size a ≤ S2048x204.size a
  hwx14_3 : ∀ i : grid14.Coords, EltTy.bits .f32 = 32 ∨ (Rect.block (s := S2048x204) S2048x204.size (cc14_transform_3 i) (hinb14_3 i)).WholeWords (EltTy.packing .f32)

variable [Facts₀]

def gather_S100000x78_S1600000x1_S1600000x78_1_0_n_n_0_1_178 : GatherDims S100000x78 S1600000x1 S1600000x78 where
  offsetDims := [1]
  collapsedSliceDims := [0]
  operandBatchingDims := []
  startIndicesBatchingDims := []
  startIndexMap := [0]
  indexVectorDim := 1
  sliceSizes := ![1, 78]
  wf := gather_S100000x78_S1600000x1_S1600000x78_1_0_n_n_0_1_178_wf
def scatter_S100000x78_S1600000x1_S1600000x78_1_0_0_1 : ScatterDims S100000x78 S1600000x1 S1600000x78 where
  updateWindowDims := [1]
  insertedWindowDims := [0]
  scatterDimsToOperandDims := [0]
  indexVectorDim := 1
  wf := scatter_S100000x78_S1600000x1_S1600000x78_1_0_0_1_wf
def dot_S10000x78_S78x128_S10000x128_1_0_0_1_n_n : DotDims S10000x78 S78x128 S10000x128 where
  lhsContracting := [1]
  rhsContracting := [0]
  lhsNonContracting := [0]
  rhsNonContracting := [1]
  lhsBatch := []
  rhsBatch := []
  wf := dot_S10000x78_S78x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x204_S2048x204_1_0_0_1_n_n : DotDims S2048x256 S256x204 S2048x204 where
  lhsContracting := [1]
  rhsContracting := [0]
  lhsNonContracting := [0]
  rhsNonContracting := [1]
  lhsBatch := []
  rhsBatch := []
  wf := dot_S2048x256_S256x204_S2048x204_1_0_0_1_n_n_wf

abbrev win0_0 : Pipeline.Window sig grid0 :=
  Pipeline.Window.ofSpec (Memref.whole main_arg0) S10000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x78.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S78x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40_0) S10000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71_0) S10000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v71_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v71_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v84) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v102_0) S10000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v102_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v102_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v102_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v114) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v115) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v125) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v127) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v132) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v133_0) S10000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v133_1) S1x128.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v133_2) S1x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v133_0) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v135) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v139) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v144) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v145) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v146) S10000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v149) S2048x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S128x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v150) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v151_0) S2048x512.size cc10_transform_3 reads10_3 true false 1 stage10_3 sem10_3
    hrank10 hreads10_3 hinb10_3 nbuf10_3 (Memref.isWhole_whole _) hwx10_3 hstage10_3

abbrev win10_4 : Pipeline.Window sig grid10 :=
  Pipeline.Window.ofSpec (Memref.whole main_v151_1) S1x512.size cc10_transform_4 reads10_4 true true 1 stage10_4 sem10_4
    hrank10 hreads10_4 hinb10_4 nbuf10_4 (Memref.isWhole_whole _) hwx10_4 hstage10_4

abbrev win10_5 : Pipeline.Window sig grid10 :=
  Pipeline.Window.ofSpec (Memref.whole main_v151_2) S1x512.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v151_0) S2048x512.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v153) S1x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v157) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v158) S1x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v159) S1x512.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v160) S2048x512.size cc11_transform_5 reads11_5 true false 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v160) S2048x512.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_arg16) S512x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v161) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v162_0) S2048x256.size cc12_transform_3 reads12_3 true false 1 stage12_3 sem12_3
    hrank12 hreads12_3 hinb12_3 nbuf12_3 (Memref.isWhole_whole _) hwx12_3 hstage12_3

abbrev win12_4 : Pipeline.Window sig grid12 :=
  Pipeline.Window.ofSpec (Memref.whole main_v162_1) S1x256.size cc12_transform_4 reads12_4 true true 1 stage12_4 sem12_4
    hrank12 hreads12_4 hinb12_4 nbuf12_4 (Memref.isWhole_whole _) hwx12_4 hstage12_4

abbrev win12_5 : Pipeline.Window sig grid12 :=
  Pipeline.Window.ofSpec (Memref.whole main_v162_2) S1x256.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v162_0) S2048x256.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v164) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v168) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v169) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v170) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v171) S2048x256.size cc13_transform_5 reads13_5 true false 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v171) S2048x256.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v172) S256x204.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v174) S1x204.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v175) S2048x204.size cc14_transform_3 reads14_3 true true 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S100000x78 : Shape := ⟨2, ![100000, 78]⟩
abbrev S1600000 : Shape := ⟨1, ![1600000]⟩
abbrev S100000 : Shape := ⟨1, ![100000]⟩
abbrev S78x128 : Shape := ⟨2, ![78, 128]⟩
abbrev S128 : Shape := ⟨1, ![128]⟩
abbrev S4x128x128 : Shape := ⟨3, ![4, 128, 128]⟩
abbrev S4x128 : Shape := ⟨2, ![4, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x408 : Shape := ⟨2, ![256, 408]⟩
abbrev S408 : Shape := ⟨1, ![408]⟩
abbrev S_ : Shape := ⟨0, ![]⟩
abbrev S1600000x1 : Shape := ⟨2, ![1600000, 1]⟩
abbrev S1600000x78 : Shape := ⟨2, ![1600000, 78]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S2048x128 : Shape := ⟨2, ![2048, 128]⟩
abbrev S100000x1 : Shape := ⟨2, ![100000, 1]⟩
abbrev S2048x512 : Shape := ⟨2, ![2048, 512]⟩
abbrev S1x512 : Shape := ⟨2, ![1, 512]⟩
abbrev S2048x256 : Shape := ⟨2, ![2048, 256]⟩
abbrev S1x256 : Shape := ⟨2, ![1, 256]⟩
abbrev S2048x408 : Shape := ⟨2, ![2048, 408]⟩
abbrev S1x408 : Shape := ⟨2, ![1, 408]⟩
abbrev S2048x204 : Shape := ⟨2, ![2048, 204]⟩

abbrev nBuf : Space → Nat
  | .hbm => 523
  | .vmem => 0
  | .smem => 0
  | _ => 0

abbrev hbmTy0_0 (i : Nat) : BufTy := match i % 128 with
  | 0 => ⟨S100000x78, .f32⟩
  | 1 => ⟨S1600000, .i32⟩
  | 2 => ⟨S1600000, .i32⟩
  | 3 => ⟨S100000, .i32⟩
  | 4 => ⟨S78x128, .f32⟩
  | 5 => ⟨S128, .f32⟩
  | 6 => ⟨S128, .f32⟩
  | 7 => ⟨S128, .f32⟩
  | 8 => ⟨S4x128x128, .f32⟩
  | 9 => ⟨S4x128, .f32⟩
  | 10 => ⟨S4x128, .f32⟩
  | 11 => ⟨S4x128, .f32⟩
  | 12 => ⟨S128x512, .f32⟩
  | 13 => ⟨S512, .f32⟩
  | 14 => ⟨S512, .f32⟩
  | 15 => ⟨S512, .f32⟩
  | 16 => ⟨S512x256, .f32⟩
  | 17 => ⟨S256, .f32⟩
  | 18 => ⟨S256, .f32⟩
  | 19 => ⟨S256, .f32⟩
  | 20 => ⟨S256x408, .f32⟩
  | 21 => ⟨S408, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x78, .f32⟩
  | 31 => ⟨S_, .f32⟩
  | 32 => ⟨S100000x78, .f32⟩
  | 33 => ⟨S1600000x1, .i32⟩
  | 34 => ⟨S100000x78, .f32⟩
  | 35 => ⟨S100000x78, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1x128x128, .f32⟩
  | 93 => ⟨S128x128, .f32⟩
  | 94 => ⟨S1x128, .f32⟩
  | 95 => ⟨S128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S_, .f32⟩
  | 126 => ⟨S128, .f32⟩
  | 127 => ⟨S128, .f32⟩
  | _ => ⟨S100000x78, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S1x128, .f32⟩
  | 45 => ⟨S128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x128, .f32⟩
  | 121 => ⟨S128x128, .f32⟩
  | 122 => ⟨S1x128, .f32⟩
  | 123 => ⟨S128, .f32⟩
  | 124 => ⟨S_, .i32⟩
  | 125 => ⟨S1600000, .i32⟩
  | 126 => ⟨S1600000, .i1⟩
  | 127 => ⟨S_, .i32⟩
  | _ => ⟨S100000x78, .f32⟩

abbrev hbmTy0_2 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S100000x128, .f32⟩
  | 114 => ⟨S100000x128, .f32⟩
  | 115 => ⟨S100000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S100000x78, .f32⟩

abbrev hbmTy0_3 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S2048x128, .f32⟩
  | 22 => ⟨S100000x1, .i32⟩
  | 23 => ⟨S2048x128, .f32⟩
  | 24 => ⟨S2048x512, .f32⟩
  | 25 => ⟨S1x512, .f32⟩
  | 26 => ⟨S2048x512, .f32⟩
  | 27 => ⟨S2048x512, .f32⟩
  | 28 => ⟨S_, .f32⟩
  | 29 => ⟨S512, .f32⟩
  | 30 => ⟨S_, .f32⟩
  | 31 => ⟨S512, .f32⟩
  | 32 => ⟨S512, .f32⟩
  | 33 => ⟨S_, .i32⟩
  | 34 => ⟨S_, .f32⟩
  | 35 => ⟨S512, .f32⟩
  | 36 => ⟨S1x512, .f32⟩
  | 37 => ⟨S_, .f32⟩
  | 38 => ⟨S1x512, .f32⟩
  | 39 => ⟨S1x512, .f32⟩
  | 40 => ⟨S2048x512, .f32⟩
  | 41 => ⟨S2048x512, .f32⟩
  | 42 => ⟨S2048x512, .f32⟩
  | 43 => ⟨S_, .f32⟩
  | 44 => ⟨S_, .f32⟩
  | 45 => ⟨S_, .f32⟩
  | 46 => ⟨S_, .f32⟩
  | 47 => ⟨S512, .f32⟩
  | 48 => ⟨S512, .f32⟩
  | 49 => ⟨S512, .f32⟩
  | 50 => ⟨S_, .f32⟩
  | 51 => ⟨S_, .i1⟩
  | 52 => ⟨S_, .f32⟩
  | 53 => ⟨S_, .f32⟩
  | 54 => ⟨S512, .f32⟩
  | 55 => ⟨S512, .f32⟩
  | 56 => ⟨S1x512, .f32⟩
  | 57 => ⟨S2048x512, .f32⟩
  | 58 => ⟨S2048x512, .f32⟩
  | 59 => ⟨S_, .f32⟩
  | 60 => ⟨S512, .f32⟩
  | 61 => ⟨S512, .f32⟩
  | 62 => ⟨S512, .f32⟩
  | 63 => ⟨S1x512, .f32⟩
  | 64 => ⟨S2048x512, .f32⟩
  | 65 => ⟨S2048x512, .f32⟩
  | 66 => ⟨S1x512, .f32⟩
  | 67 => ⟨S2048x512, .f32⟩
  | 68 => ⟨S2048x512, .f32⟩
  | 69 => ⟨S1x512, .f32⟩
  | 70 => ⟨S2048x512, .f32⟩
  | 71 => ⟨S2048x512, .f32⟩
  | 72 => ⟨S_, .f32⟩
  | 73 => ⟨S2048x512, .f32⟩
  | 74 => ⟨S2048x512, .f32⟩
  | 75 => ⟨S2048x256, .f32⟩
  | 76 => ⟨S1x256, .f32⟩
  | 77 => ⟨S2048x256, .f32⟩
  | 78 => ⟨S2048x256, .f32⟩
  | 79 => ⟨S_, .f32⟩
  | 80 => ⟨S256, .f32⟩
  | 81 => ⟨S_, .f32⟩
  | 82 => ⟨S256, .f32⟩
  | 83 => ⟨S256, .f32⟩
  | 84 => ⟨S_, .i32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S2048x256, .f32⟩
  | 92 => ⟨S2048x256, .f32⟩
  | 93 => ⟨S2048x256, .f32⟩
  | 94 => ⟨S_, .f32⟩
  | 95 => ⟨S_, .f32⟩
  | 96 => ⟨S_, .f32⟩
  | 97 => ⟨S_, .f32⟩
  | 98 => ⟨S256, .f32⟩
  | 99 => ⟨S256, .f32⟩
  | 100 => ⟨S256, .f32⟩
  | 101 => ⟨S_, .f32⟩
  | 102 => ⟨S_, .i1⟩
  | 103 => ⟨S_, .f32⟩
  | 104 => ⟨S_, .f32⟩
  | 105 => ⟨S256, .f32⟩
  | 106 => ⟨S256, .f32⟩
  | 107 => ⟨S1x256, .f32⟩
  | 108 => ⟨S2048x256, .f32⟩
  | 109 => ⟨S2048x256, .f32⟩
  | 110 => ⟨S_, .f32⟩
  | 111 => ⟨S256, .f32⟩
  | 112 => ⟨S256, .f32⟩
  | 113 => ⟨S256, .f32⟩
  | 114 => ⟨S1x256, .f32⟩
  | 115 => ⟨S2048x256, .f32⟩
  | 116 => ⟨S2048x256, .f32⟩
  | 117 => ⟨S1x256, .f32⟩
  | 118 => ⟨S2048x256, .f32⟩
  | 119 => ⟨S2048x256, .f32⟩
  | 120 => ⟨S1x256, .f32⟩
  | 121 => ⟨S2048x256, .f32⟩
  | 122 => ⟨S2048x256, .f32⟩
  | 123 => ⟨S_, .f32⟩
  | 124 => ⟨S2048x256, .f32⟩
  | 125 => ⟨S2048x256, .f32⟩
  | 126 => ⟨S2048x408, .f32⟩
  | 127 => ⟨S1x408, .f32⟩
  | _ => ⟨S100000x78, .f32⟩

abbrev hbmTy0_4 (i : Nat) : BufTy := match i % 128 with
  | 0 => ⟨S2048x408, .f32⟩
  | 1 => ⟨S2048x408, .f32⟩
  | 2 => ⟨S2048x204, .f32⟩
  | 3 => ⟨S2048x204, .f32⟩
  | 4 => ⟨S2048x204, .f32⟩
  | 5 => ⟨S_, .f32⟩
  | 6 => ⟨S2048x204, .f32⟩
  | 7 => ⟨S2048x204, .f32⟩
  | 8 => ⟨S_, .f32⟩
  | 9 => ⟨S2048x204, .f32⟩
  | 10 => ⟨S2048x204, .f32⟩
  | _ => ⟨S100000x78, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call1_cst : Ref sig .tc := ⟨.hbm, 89, rfl⟩
abbrev main_call1_v0 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_5 : Ref sig .tc := ⟨.hbm, 96, rfl⟩
abbrev main_v44 : Ref sig .tc := ⟨.hbm, 97, rfl⟩
abbrev main_v45 : Ref sig .tc := ⟨.hbm, 98, rfl⟩
abbrev main_c_6 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_7 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_8 : Ref sig .tc := ⟨.hbm, 123, rfl⟩
abbrev main_v68 : Ref sig .tc := ⟨.hbm, 124, rfl⟩
abbrev main_cst_9 : Ref sig .tc := ⟨.hbm, 125, rfl⟩
abbrev main_v69 : Ref sig .tc := ⟨.hbm, 126, rfl⟩
abbrev main_v70 : Ref sig .tc := ⟨.hbm, 127, rfl⟩
abbrev main_c_10 : Ref sig .tc := ⟨.hbm, 128, rfl⟩
abbrev main_call2_cst : Ref sig .tc := ⟨.hbm, 129, rfl⟩
abbrev main_call2_v0 : Ref sig .tc := ⟨.hbm, 130, rfl⟩
abbrev main_call2_v1 : Ref sig .tc := ⟨.hbm, 131, rfl⟩
abbrev main_call2_cst_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_v7 : Ref sig .tc := ⟨.hbm, 138, rfl⟩
abbrev main_call2_cst_1 : Ref sig .tc := ⟨.hbm, 139, rfl⟩
abbrev main_call2_v8 : Ref sig .tc := ⟨.hbm, 140, rfl⟩
abbrev main_call2_cst_2 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_cst_3 : Ref sig .tc := ⟨.hbm, 145, rfl⟩
abbrev main_call2_v12 : Ref sig .tc := ⟨.hbm, 146, rfl⟩
abbrev main_call2_cst_4 : Ref sig .tc := ⟨.hbm, 147, rfl⟩
abbrev main_call2_call0_v0 : Ref sig .tc := ⟨.hbm, 148, rfl⟩
abbrev main_call2_call0_v1 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_cst_11 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_call3_cst : Ref sig .tc := ⟨.hbm, 167, rfl⟩
abbrev main_call3_v0 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_c_12 : Ref sig .tc := ⟨.hbm, 174, rfl⟩
abbrev main_v92 : Ref sig .tc := ⟨.hbm, 175, rfl⟩
abbrev main_v93 : Ref sig .tc := ⟨.hbm, 176, rfl⟩
abbrev main_c_13 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_cst_14 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_15 : Ref sig .tc := ⟨.hbm, 201, rfl⟩
abbrev main_v116 : Ref sig .tc := ⟨.hbm, 202, rfl⟩
abbrev main_cst_16 : Ref sig .tc := ⟨.hbm, 203, rfl⟩
abbrev main_v117 : Ref sig .tc := ⟨.hbm, 204, rfl⟩
abbrev main_v118 : Ref sig .tc := ⟨.hbm, 205, rfl⟩
abbrev main_c_17 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_cst_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_cst_1 : Ref sig .tc := ⟨.hbm, 217, rfl⟩
abbrev main_call4_v8 : Ref sig .tc := ⟨.hbm, 218, rfl⟩
abbrev main_call4_cst_2 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_cst_3 : Ref sig .tc := ⟨.hbm, 223, rfl⟩
abbrev main_call4_v12 : Ref sig .tc := ⟨.hbm, 224, rfl⟩
abbrev main_call4_cst_4 : Ref sig .tc := ⟨.hbm, 225, rfl⟩
abbrev main_call4_call0_v0 : Ref sig .tc := ⟨.hbm, 226, rfl⟩
abbrev main_call4_call0_v1 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_cst_18 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_call5_cst : Ref sig .tc := ⟨.hbm, 245, rfl⟩
abbrev main_call5_v0 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_c_19 : Ref sig .tc := ⟨.hbm, 252, rfl⟩
abbrev main_v140 : Ref sig .tc := ⟨.hbm, 253, rfl⟩
abbrev main_v141 : Ref sig .tc := ⟨.hbm, 254, rfl⟩
abbrev main_c_20 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_cst_21 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_cst_22 : Ref sig .tc := ⟨.hbm, 279, rfl⟩
abbrev main_v164 : Ref sig .tc := ⟨.hbm, 280, rfl⟩
abbrev main_cst_23 : Ref sig .tc := ⟨.hbm, 281, rfl⟩
abbrev main_v165 : Ref sig .tc := ⟨.hbm, 282, rfl⟩
abbrev main_v166 : Ref sig .tc := ⟨.hbm, 283, rfl⟩
abbrev main_c_24 : Ref sig .tc := ⟨.hbm, 284, rfl⟩
abbrev main_call6_cst : Ref sig .tc := ⟨.hbm, 285, rfl⟩
abbrev main_call6_v0 : Ref sig .tc := ⟨.hbm, 286, rfl⟩
abbrev main_call6_v1 : Ref sig .tc := ⟨.hbm, 287, rfl⟩
abbrev main_call6_cst_0 : Ref sig .tc := ⟨.hbm, 288, rfl⟩
abbrev main_call6_v2 : Ref sig .tc := ⟨.hbm, 289, rfl⟩
abbrev main_call6_v3 : Ref sig .tc := ⟨.hbm, 290, rfl⟩
abbrev main_call6_v4 : Ref sig .tc := ⟨.hbm, 291, rfl⟩
abbrev main_call6_v5 : Ref sig .tc := ⟨.hbm, 292, rfl⟩
abbrev main_call6_v6 : Ref sig .tc := ⟨.hbm, 293, rfl⟩
abbrev main_call6_v7 : Ref sig .tc := ⟨.hbm, 294, rfl⟩
abbrev main_call6_cst_1 : Ref sig .tc := ⟨.hbm, 295, rfl⟩
abbrev main_call6_v8 : Ref sig .tc := ⟨.hbm, 296, rfl⟩
abbrev main_call6_cst_2 : Ref sig .tc := ⟨.hbm, 297, rfl⟩
abbrev main_call6_v9 : Ref sig .tc := ⟨.hbm, 298, rfl⟩
abbrev main_call6_v10 : Ref sig .tc := ⟨.hbm, 299, rfl⟩
abbrev main_call6_v11 : Ref sig .tc := ⟨.hbm, 300, rfl⟩
abbrev main_call6_cst_3 : Ref sig .tc := ⟨.hbm, 301, rfl⟩
abbrev main_call6_v12 : Ref sig .tc := ⟨.hbm, 302, rfl⟩
abbrev main_call6_cst_4 : Ref sig .tc := ⟨.hbm, 303, rfl⟩
abbrev main_call6_call0_v0 : Ref sig .tc := ⟨.hbm, 304, rfl⟩
abbrev main_call6_call0_v1 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_cst_25 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_call7_cst : Ref sig .tc := ⟨.hbm, 323, rfl⟩
abbrev main_call7_v0 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_c_26 : Ref sig .tc := ⟨.hbm, 330, rfl⟩
abbrev main_v188 : Ref sig .tc := ⟨.hbm, 331, rfl⟩
abbrev main_v189 : Ref sig .tc := ⟨.hbm, 332, rfl⟩
abbrev main_c_27 : Ref sig .tc := ⟨.hbm, 333, rfl⟩
abbrev main_v190 : Ref sig .tc := ⟨.hbm, 334, rfl⟩
abbrev main_v191 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_cst_28 : Ref sig .tc := ⟨.hbm, 339, rfl⟩
abbrev main_v195 : Ref sig .tc := ⟨.hbm, 340, rfl⟩
abbrev main_v196 : Ref sig .tc := ⟨.hbm, 341, rfl⟩
abbrev main_v197 : Ref sig .tc := ⟨.hbm, 342, rfl⟩
abbrev main_v198 : Ref sig .tc := ⟨.hbm, 343, rfl⟩
abbrev main_v199 : Ref sig .tc := ⟨.hbm, 344, rfl⟩
abbrev main_v200 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_v208 : Ref sig .tc := ⟨.hbm, 353, rfl⟩
abbrev main_v209 : Ref sig .tc := ⟨.hbm, 354, rfl⟩
abbrev main_v210 : Ref sig .tc := ⟨.hbm, 355, rfl⟩
abbrev main_v211 : Ref sig .tc := ⟨.hbm, 356, rfl⟩
abbrev main_cst_29 : Ref sig .tc := ⟨.hbm, 357, rfl⟩
abbrev main_v212 : Ref sig .tc := ⟨.hbm, 358, rfl⟩
abbrev main_cst_30 : Ref sig .tc := ⟨.hbm, 359, rfl⟩
abbrev main_v213 : Ref sig .tc := ⟨.hbm, 360, rfl⟩
abbrev main_v214 : Ref sig .tc := ⟨.hbm, 361, rfl⟩
abbrev main_c_31 : Ref sig .tc := ⟨.hbm, 362, rfl⟩
abbrev main_call8_cst : Ref sig .tc := ⟨.hbm, 363, rfl⟩
abbrev main_call8_v0 : Ref sig .tc := ⟨.hbm, 364, rfl⟩
abbrev main_call8_v1 : Ref sig .tc := ⟨.hbm, 365, rfl⟩
abbrev main_call8_cst_0 : Ref sig .tc := ⟨.hbm, 366, rfl⟩
abbrev main_call8_v2 : Ref sig .tc := ⟨.hbm, 367, rfl⟩
abbrev main_call8_v3 : Ref sig .tc := ⟨.hbm, 368, rfl⟩
abbrev main_call8_v4 : Ref sig .tc := ⟨.hbm, 369, rfl⟩
abbrev main_call8_v5 : Ref sig .tc := ⟨.hbm, 370, rfl⟩
abbrev main_call8_v6 : Ref sig .tc := ⟨.hbm, 371, rfl⟩
abbrev main_call8_v7 : Ref sig .tc := ⟨.hbm, 372, rfl⟩
abbrev main_call8_cst_1 : Ref sig .tc := ⟨.hbm, 373, rfl⟩
abbrev main_call8_v8 : Ref sig .tc := ⟨.hbm, 374, rfl⟩
abbrev main_call8_cst_2 : Ref sig .tc := ⟨.hbm, 375, rfl⟩
abbrev main_call8_v9 : Ref sig .tc := ⟨.hbm, 376, rfl⟩
abbrev main_call8_v10 : Ref sig .tc := ⟨.hbm, 377, rfl⟩
abbrev main_call8_v11 : Ref sig .tc := ⟨.hbm, 378, rfl⟩
abbrev main_call8_cst_3 : Ref sig .tc := ⟨.hbm, 379, rfl⟩
abbrev main_call8_v12 : Ref sig .tc := ⟨.hbm, 380, rfl⟩
abbrev main_call8_cst_4 : Ref sig .tc := ⟨.hbm, 381, rfl⟩
abbrev main_call8_call0_v0 : Ref sig .tc := ⟨.hbm, 382, rfl⟩
abbrev main_call8_call0_v1 : Ref sig .tc := ⟨.hbm, 383, rfl⟩
abbrev main_v215 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_cst_32 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_v222 : Ref sig .tc := ⟨.hbm, 392, rfl⟩
abbrev main_v223 : Ref sig .tc := ⟨.hbm, 393, rfl⟩
abbrev main_v224 : Ref sig .tc := ⟨.hbm, 394, rfl⟩
abbrev main_v225 : Ref sig .tc := ⟨.hbm, 395, rfl⟩
abbrev main_v226 : Ref sig .tc := ⟨.hbm, 396, rfl⟩
abbrev main_v227 : Ref sig .tc := ⟨.hbm, 397, rfl⟩
abbrev main_v228 : Ref sig .tc := ⟨.hbm, 398, rfl⟩
abbrev main_v229 : Ref sig .tc := ⟨.hbm, 399, rfl⟩
abbrev main_v230 : Ref sig .tc := ⟨.hbm, 400, rfl⟩
abbrev main_call9_cst : Ref sig .tc := ⟨.hbm, 401, rfl⟩
abbrev main_call9_v0 : Ref sig .tc := ⟨.hbm, 402, rfl⟩
abbrev main_v231 : Ref sig .tc := ⟨.hbm, 403, rfl⟩
abbrev main_cst_33 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_cst_34 : Ref sig .tc := ⟨.hbm, 412, rfl⟩
abbrev main_v239 : Ref sig .tc := ⟨.hbm, 413, rfl⟩
abbrev main_cst_35 : Ref sig .tc := ⟨.hbm, 414, rfl⟩
abbrev main_v240 : Ref sig .tc := ⟨.hbm, 415, rfl⟩
abbrev main_v241 : Ref sig .tc := ⟨.hbm, 416, rfl⟩
abbrev main_c_36 : Ref sig .tc := ⟨.hbm, 417, rfl⟩
abbrev main_call10_cst : Ref sig .tc := ⟨.hbm, 418, rfl⟩
abbrev main_call10_v0 : Ref sig .tc := ⟨.hbm, 419, rfl⟩
abbrev main_call10_v1 : Ref sig .tc := ⟨.hbm, 420, rfl⟩
abbrev main_call10_cst_0 : Ref sig .tc := ⟨.hbm, 421, rfl⟩
abbrev main_call10_v2 : Ref sig .tc := ⟨.hbm, 422, rfl⟩
abbrev main_call10_v3 : Ref sig .tc := ⟨.hbm, 423, rfl⟩
abbrev main_call10_v4 : Ref sig .tc := ⟨.hbm, 424, rfl⟩
abbrev main_call10_v5 : Ref sig .tc := ⟨.hbm, 425, rfl⟩
abbrev main_call10_v6 : Ref sig .tc := ⟨.hbm, 426, rfl⟩
abbrev main_call10_v7 : Ref sig .tc := ⟨.hbm, 427, rfl⟩
abbrev main_call10_cst_1 : Ref sig .tc := ⟨.hbm, 428, rfl⟩
abbrev main_call10_v8 : Ref sig .tc := ⟨.hbm, 429, rfl⟩
abbrev main_call10_cst_2 : Ref sig .tc := ⟨.hbm, 430, rfl⟩
abbrev main_call10_v9 : Ref sig .tc := ⟨.hbm, 431, rfl⟩
abbrev main_call10_v10 : Ref sig .tc := ⟨.hbm, 432, rfl⟩
abbrev main_call10_v11 : Ref sig .tc := ⟨.hbm, 433, rfl⟩
abbrev main_call10_cst_3 : Ref sig .tc := ⟨.hbm, 434, rfl⟩
abbrev main_call10_v12 : Ref sig .tc := ⟨.hbm, 435, rfl⟩
abbrev main_call10_cst_4 : Ref sig .tc := ⟨.hbm, 436, rfl⟩
abbrev main_call10_call0_v0 : Ref sig .tc := ⟨.hbm, 437, rfl⟩
abbrev main_call10_call0_v1 : Ref sig .tc := ⟨.hbm, 438, rfl⟩
abbrev main_v242 : Ref sig .tc := ⟨.hbm, 439, rfl⟩
abbrev main_v243 : Ref sig .tc := ⟨.hbm, 440, rfl⟩
abbrev main_v244 : Ref sig .tc := ⟨.hbm, 441, rfl⟩
abbrev main_v245 : Ref sig .tc := ⟨.hbm, 442, rfl⟩
abbrev main_cst_37 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_v252 : Ref sig .tc := ⟨.hbm, 450, rfl⟩
abbrev main_v253 : Ref sig .tc := ⟨.hbm, 451, rfl⟩
abbrev main_v254 : Ref sig .tc := ⟨.hbm, 452, rfl⟩
abbrev main_v255 : Ref sig .tc := ⟨.hbm, 453, rfl⟩
abbrev main_v256 : Ref sig .tc := ⟨.hbm, 454, rfl⟩
abbrev main_v257 : Ref sig .tc := ⟨.hbm, 455, rfl⟩
abbrev main_call11_cst : Ref sig .tc := ⟨.hbm, 456, rfl⟩
abbrev main_call11_v0 : Ref sig .tc := ⟨.hbm, 457, rfl⟩
abbrev main_v258 : Ref sig .tc := ⟨.hbm, 458, rfl⟩
abbrev main_v259 : Ref sig .tc := ⟨.hbm, 459, rfl⟩
abbrev main_v260 : Ref sig .tc := ⟨.hbm, 460, rfl⟩
abbrev main_v261 : Ref sig .tc := ⟨.hbm, 461, rfl⟩
abbrev main_v262 : Ref sig .tc := ⟨.hbm, 462, rfl⟩
abbrev main_cst_38 : Ref sig .tc := ⟨.hbm, 463, rfl⟩
abbrev main_v263 : Ref sig .tc := ⟨.hbm, 464, rfl⟩
abbrev main_cst_39 : Ref sig .tc := ⟨.hbm, 465, rfl⟩
abbrev main_v264 : Ref sig .tc := ⟨.hbm, 466, rfl⟩
abbrev main_v265 : Ref sig .tc := ⟨.hbm, 467, rfl⟩
abbrev main_c_40 : Ref sig .tc := ⟨.hbm, 468, rfl⟩
abbrev main_call12_cst : Ref sig .tc := ⟨.hbm, 469, rfl⟩
abbrev main_call12_v0 : Ref sig .tc := ⟨.hbm, 470, rfl⟩
abbrev main_call12_v1 : Ref sig .tc := ⟨.hbm, 471, rfl⟩
abbrev main_call12_cst_0 : Ref sig .tc := ⟨.hbm, 472, rfl⟩
abbrev main_call12_v2 : Ref sig .tc := ⟨.hbm, 473, rfl⟩
abbrev main_call12_v3 : Ref sig .tc := ⟨.hbm, 474, rfl⟩
abbrev main_call12_v4 : Ref sig .tc := ⟨.hbm, 475, rfl⟩
abbrev main_call12_v5 : Ref sig .tc := ⟨.hbm, 476, rfl⟩
abbrev main_call12_v6 : Ref sig .tc := ⟨.hbm, 477, rfl⟩
abbrev main_call12_v7 : Ref sig .tc := ⟨.hbm, 478, rfl⟩
abbrev main_call12_cst_1 : Ref sig .tc := ⟨.hbm, 479, rfl⟩
abbrev main_call12_v8 : Ref sig .tc := ⟨.hbm, 480, rfl⟩
abbrev main_call12_cst_2 : Ref sig .tc := ⟨.hbm, 481, rfl⟩
abbrev main_call12_v9 : Ref sig .tc := ⟨.hbm, 482, rfl⟩
abbrev main_call12_v10 : Ref sig .tc := ⟨.hbm, 483, rfl⟩
abbrev main_call12_v11 : Ref sig .tc := ⟨.hbm, 484, rfl⟩
abbrev main_call12_cst_3 : Ref sig .tc := ⟨.hbm, 485, rfl⟩
abbrev main_call12_v12 : Ref sig .tc := ⟨.hbm, 486, rfl⟩
abbrev main_call12_cst_4 : Ref sig .tc := ⟨.hbm, 487, rfl⟩
abbrev main_call12_call0_v0 : Ref sig .tc := ⟨.hbm, 488, rfl⟩
abbrev main_call12_call0_v1 : Ref sig .tc := ⟨.hbm, 489, rfl⟩
abbrev main_v266 : Ref sig .tc := ⟨.hbm, 490, rfl⟩
abbrev main_v267 : Ref sig .tc := ⟨.hbm, 491, rfl⟩
abbrev main_v268 : Ref sig .tc := ⟨.hbm, 492, rfl⟩
abbrev main_v269 : Ref sig .tc := ⟨.hbm, 493, rfl⟩
abbrev main_cst_41 : Ref sig .tc := ⟨.hbm, 494, rfl⟩
abbrev main_v270 : Ref sig .tc := ⟨.hbm, 495, rfl⟩
abbrev main_v271 : Ref sig .tc := ⟨.hbm, 496, rfl⟩
abbrev main_v272 : Ref sig .tc := ⟨.hbm, 497, rfl⟩
abbrev main_v273 : Ref sig .tc := ⟨.hbm, 498, rfl⟩
abbrev main_v274 : Ref sig .tc := ⟨.hbm, 499, rfl⟩
abbrev main_v275 : Ref sig .tc := ⟨.hbm, 500, rfl⟩
abbrev main_v276 : Ref sig .tc := ⟨.hbm, 501, rfl⟩
abbrev main_v277 : Ref sig .tc := ⟨.hbm, 502, rfl⟩
abbrev main_v278 : Ref sig .tc := ⟨.hbm, 503, rfl⟩
abbrev main_v279 : Ref sig .tc := ⟨.hbm, 504, rfl⟩
abbrev main_v280 : Ref sig .tc := ⟨.hbm, 505, rfl⟩
abbrev main_v281 : Ref sig .tc := ⟨.hbm, 506, rfl⟩
abbrev main_call13_cst : Ref sig .tc := ⟨.hbm, 507, rfl⟩
abbrev main_call13_v0 : Ref sig .tc := ⟨.hbm, 508, rfl⟩
abbrev main_v282 : Ref sig .tc := ⟨.hbm, 509, rfl⟩
abbrev main_v283 : Ref sig .tc := ⟨.hbm, 510, rfl⟩
abbrev main_v284 : Ref sig .tc := ⟨.hbm, 511, rfl⟩
abbrev main_v285 : Ref sig .tc := ⟨.hbm, 512, rfl⟩
abbrev main_v286 : Ref sig .tc := ⟨.hbm, 513, rfl⟩
abbrev main_v287 : Ref sig .tc := ⟨.hbm, 514, rfl⟩
abbrev main_v288 : Ref sig .tc := ⟨.hbm, 515, rfl⟩
abbrev main_v289 : Ref sig .tc := ⟨.hbm, 516, rfl⟩
abbrev main_cst_42 : Ref sig .tc := ⟨.hbm, 517, rfl⟩
abbrev main_v290 : Ref sig .tc := ⟨.hbm, 518, rfl⟩
abbrev main_v291 : Ref sig .tc := ⟨.hbm, 519, rfl⟩
abbrev main_cst_43 : Ref sig .tc := ⟨.hbm, 520, rfl⟩
abbrev main_v292 : Ref sig .tc := ⟨.hbm, 521, rfl⟩
abbrev main_v293 : Ref sig .tc := ⟨.hbm, 522, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x78 : S_.BroadcastsInDim S100000x78 (![] : Fin 0 → Fin S100000x78.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  reducesTo_S2048x512_S512_d0 : S2048x512.ReducesTo [0] S512
  bcast_S_S512 : S_.BroadcastsInDim S512 (![] : Fin 0 → Fin S512.rank)
  bcast_S_S1x512 : S_.BroadcastsInDim S1x512 (![] : Fin 0 → Fin S1x512.rank)
  bcast_S_S2048x512 : S_.BroadcastsInDim S2048x512 (![] : Fin 0 → Fin S2048x512.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S256_d0 : S2048x256.ReducesTo [0] S256
  bcast_S_S256 : S_.BroadcastsInDim S256 (![] : Fin 0 → Fin S256.rank)
  bcast_S_S1x256 : S_.BroadcastsInDim S1x256 (![] : Fin 0 → Fin S1x256.rank)
  bcast_S_S2048x256 : S_.BroadcastsInDim S2048x256 (![] : Fin 0 → Fin S2048x256.rank)
  bcast_S408_S1x408_1 : S408.BroadcastsInDim S1x408 (![1] : Fin 1 → Fin S1x408.rank)
  bcast_S1x408_S2048x408_0_1 : S1x408.BroadcastsInDim S2048x408 (![0, 1] : Fin 2 → Fin S2048x408.rank)
  slices_S2048x408_S2048x204_0_204 : S2048x408.Slices ![0, 204] S2048x204
  bcast_S_S2048x204 : S_.BroadcastsInDim S2048x204 (![] : Fin 0 → Fin S2048x204.rank)
  gather_S100000x78_S1600000x1_S1600000x78_1_0_n_n_0_1_178_wf : GatherDims.WF S100000x78 S1600000x1 S1600000x78 [1] [0] [] [0] [] 1 ![1, 78]
  scatter_S100000x78_S1600000x1_S1600000x78_1_0_0_1_wf : ScatterDims.WF S100000x78 S1600000x1 S1600000x78 [1] [0] [0] 1
  dot_S100000x78_S78x128_S100000x128_1_0_0_1_n_n_wf : DotDims.WF S100000x78 S78x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  dot_S2048x128_S128x512_S2048x512_1_0_0_1_n_n_wf : DotDims.WF S2048x128 S128x512 S2048x512 [1] [0] [0] [1] [] []
  dot_S2048x512_S512x256_S2048x256_1_0_0_1_n_n_wf : DotDims.WF S2048x512 S512x256 S2048x256 [1] [0] [0] [1] [] []
  dot_S2048x256_S256x408_S2048x408_1_0_0_1_n_n_wf : DotDims.WF S2048x256 S256x408 S2048x408 [1] [0] [0] [1] [] []

variable [Facts₀]

def gather_S100000x78_S1600000x1_S1600000x78_1_0_n_n_0_1_178 : GatherDims S100000x78 S1600000x1 S1600000x78 where
  offsetDims := [1]
  collapsedSliceDims := [0]
  operandBatchingDims := []
  startIndicesBatchingDims := []
  startIndexMap := [0]
  indexVectorDim := 1
  sliceSizes := ![1, 78]
  wf := gather_S100000x78_S1600000x1_S1600000x78_1_0_n_n_0_1_178_wf
def scatter_S100000x78_S1600000x1_S1600000x78_1_0_0_1 : ScatterDims S100000x78 S1600000x1 S1600000x78 where
  updateWindowDims := [1]
  insertedWindowDims := [0]
  scatterDimsToOperandDims := [0]
  indexVectorDim := 1
  wf := scatter_S100000x78_S1600000x1_S1600000x78_1_0_0_1_wf
def dot_S100000x78_S78x128_S100000x128_1_0_0_1_n_n : DotDims S100000x78 S78x128 S100000x128 where
  lhsContracting := [1]
  rhsContracting := [0]
  lhsNonContracting := [0]
  rhsNonContracting := [1]
  lhsBatch := []
  rhsBatch := []
  wf := dot_S100000x78_S78x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x408_S2048x408_1_0_0_1_n_n : DotDims S2048x256 S256x408 S2048x408 where
  lhsContracting := [1]
  rhsContracting := [0]
  lhsNonContracting := [0]
  rhsNonContracting := [1]
  lhsBatch := []
  rhsBatch := []
  wf := dot_S2048x256_S256x408_S2048x408_1_0_0_1_n_n_wf

class Facts : Prop extends Facts₀ where

variable [Facts]
-- ==== Proof.KRun.lean ====
/-
  The idealized kernel program's run, with the result array named. The launch over the thirty segments of @main (fifteen
  stretches of host operations, fifteen pipelined regions) ends with every unscoped buffer at the contents the fold
  through the segments leaves; read at the result buffer this names the result, and read at the arguments it says they
  end as launched.
-/
import proofs.«132586_j38087769981032_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its result NAMED: every weakly fair execution of @main ends, nothing faulting, with the
    result array at the contents the fold through the thirty segments leaves (`Gen.W30` at the result buffer), and every
    argument array as launched. -/
theorem run_result : θ_run defs (onTc (τ := τ) (main (F := F))) ⟨m, fun _ => 0, ρ⟩ (fun r => ∀ c : Dev nD,
      r.2.mem ((c.tc : Thread nD τ).loc main_v175) = W30 m ρ c (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v175 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c),
       (h c _ (mem_uc main_arg15 (by decide))).trans (W30_main_arg15 m ρ c),
       (h c _ (mem_uc main_arg16 (by decide))).trans (W30_main_arg16 m ρ c),
       (h c _ (mem_uc main_arg17 (by decide))).trans (W30_main_arg17 m ρ c),
       (h c _ (mem_uc main_arg18 (by decide))).trans (W30_main_arg18 m ρ c),
       (h c _ (mem_uc main_arg19 (by decide))).trans (W30_main_arg19 m ρ c),
       (h c _ (mem_uc main_arg20 (by decide))).trans (W30_main_arg20 m ρ c),
       (h c _ (mem_uc main_arg21 (by decide))).trans (W30_main_arg21 m ρ c)⟩)

end Cert.KernelIdeal.KRun

end
-- ==== Proof.RefRunOps.lean ====
/- The reference's @main as lists of host operations: its 501 operations in order, each call's callee written out at the
   call site over that call's record of buffers, cut into 19 consecutive segments (at the ends of the printed windows and of
   each layer's stages), and for each segment the list of buffers its operations write and, operation by operation, the
   builder's fact that it touches TensorCore buffers only. -/
import proofs.«132586_j38087769981032_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0 (in window main_part0): 13 operations. -/
abbrev seg0 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x78_S1600000x1_S1600000x78_1_0_n_n_0_1_178 x i) : (⟨S100000x78, .f32⟩ : BufTy).Contents (Elt F) → (⟨S1600000x1, .i32⟩ : BufTy).Contents (Elt F) → (⟨S1600000x78, .f32⟩ : BufTy).Contents (Elt F)),
    StableHlo.nullary main_cst (constant S_ .f32 0x00000000#32),
    StableHlo.unary main_cst main_v7 (broadcastInDim S100000x78 ![] bcast_S_S100000x78 : (⟨S_, .f32⟩ : BufTy).Contents (Elt F) → (⟨S100000x78, .f32⟩ : BufTy).Contents (Elt F)),
    StableHlo.unary main_arg2 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x78_S1600000x1_S1600000x78_1_0_0_1 x i u) : (⟨S100000x78, .f32⟩ : BufTy).Contents (Elt F) → (⟨S1600000x1, .i32⟩ : BufTy).Contents (Elt F) → (⟨S1600000x78, .f32⟩ : BufTy).Contents (Elt F) → (⟨S100000x78, .f32⟩ : BufTy).Contents (Elt F)) ]

set_option maxRecDepth 8192 in
/-- Each of segment 0's operations touches TensorCore buffers only: the builder's own fact, one per operation in order. -/
theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The buffers segment 0 writes, in order. -/
abbrev W0 : List (Ref sig .tc) :=
  [main_c, main_v0, main_v1, main_c_0, main_v2, main_v3, main_v4, main_v5, main_v6, main_cst, main_v7, main_v8, main_v9]

/-- Segment 1 (in window main_part0): 57 operations. -/
abbrev seg1 : List (HloOp τ sig (Elt F)) :=
  [ StableHlo.binary main_arg0 main_v9 main_v10 (addf : (⟨S100000x78, .f32⟩ : BufTy).Contents (Elt F) → (⟨S100000x78, .f32⟩ : BufTy).Contents (Elt F) → (⟨S100000x78, .f32⟩ : BufTy).Contents (Elt F)),
    StableHlo.binary main_v10 main_arg4 main_v11 ((fun l r => Host.dotGeneral dot_S100000x78_S78x128_S100000x128_1_0_0_1_n_n none l r) : (⟨S100000x78, .f32⟩ : BufTy).Contents (Elt F) → (⟨S78x128, .f32⟩ : BufTy).Contents (Elt F) → (⟨S100000x128, .f32⟩ : BufTy).Contents (Elt F)),
    StableHlo.unary main_arg5 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S100000x128 ![0, 1] bcast_S1x128_S100000x128_0_1 : (⟨S1x128, .f32⟩ : BufTy).Contents (Elt F) → (⟨S100000x128, .f32⟩ : BufTy).Contents (Elt F)),
    StableHlo.binary main_v11 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v15 ((fun l r => Host.dotGeneral dot_S100000x78_S78x128_S100000x128_1_0_0_1_n_n none l r) : (⟨S100000x78, .f32⟩ : BufTy).Contents (Elt F) → (⟨S78x128, .f32⟩ : BufTy).Contents (Elt F) → (⟨S100000x128, .f32⟩ : BufTy).Contents (Elt F)),
    StableHlo.unary main_arg5 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.binary main_v14 main_v18 main_v19 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v19 main_cst_1 main_v20 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v19 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v19 : StableHlo.TRef sig ⟨S100000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v22 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v25 main_v26 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v27 (broadcastInDim S128 ![] bcast_S_S128 : (⟨S_, .f32⟩ : BufTy).Contents (Elt F) → (⟨S128, .f32⟩ : BufTy).Contents (Elt F)),
    StableHlo.binary main_v23 main_v27 main_v28 (addf : (⟨S128, .f32⟩ : BufTy).Contents (Elt F) → (⟨S128, .f32⟩ : BufTy).Contents (Elt F) → (⟨S128, .f32⟩ : BufTy).Contents (Elt F)),
    StableHlo.unary main_v28 main_v29 (Host.rsqrt : (⟨S128, .f32⟩ : BufTy).Contents (Elt F) → (⟨S128, .f32⟩ : BufTy).Contents (Elt F)),
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v31 main_v32 (mulf : (⟨S100000x128, .f32⟩ : BufTy).Contents (Elt F) → (⟨S100000x128, .f32⟩ : BufTy).Contents (Elt F) → (⟨S100000x128, .f32⟩ : BufTy).Contents (Elt F)),
    StableHlo.unary main_arg6 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg7 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v38 : StableHlo.TRef sig ⟨S100000x128, .f32⟩) main_call1.v0 main_call1.v1 maximumf ]

set_option maxRecDepth 8192 in
/-- Each of segment 1's operations touches TensorCore buffers only: the builder's own fact, one per operation in order. -/
theorem seg1_sub : (seg1 : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 1 writes, in order. -/
abbrev W1 : List (Ref sig .tc) :=
  [main_v10, main_v11, main_v12, main_v13, main_v14, main_v15, main_v16, main_v17, main_v18, main_v19, main_cst_1, main_v20, main_cst_2, main_v21, main_v22, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23, main_v24, main_v25, main_v26, main_cst_4, main_v27, main_v28, main_v29, main_v30, main_v31, main_v32, main_v33, main_v34, main_v35, main_v36, main_v37, main_v38, main_call1_cst, main_call1_v0, main_v39]

/-- Segment 2 (in window main_part0): 13 operations. -/
abbrev seg2 : List (HloOp τ sig (Elt F)) :=
  [ StableHlo.unary main_arg8 main_v40 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v40 main_v41 rfl shapeCasts_S1x128x128_S128x128,
    StableHlo.unary main_arg9 main_v42 ((extractStridedSlice S1x128 ![0, 0] · slices_S4x128_S1x128_0_0) : (⟨S4x128, .f32⟩ : BufTy).Contents (Elt F) → (⟨S1x128, .f32⟩ : BufTy).Contents (Elt F)),
    StableHlo.reshape main_v42 main_v43 rfl shapeCasts_S1x128_S128,
    StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_arg1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_arg1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_arg1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v39 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

set_option maxRecDepth 8192 in
/-- Each of segment 2's operations touches TensorCore buffers only: the builder's own fact, one per operation in order. -/
theorem seg2_sub : (seg2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The buffers segment 2 writes, in order. -/
abbrev W2 : List (Ref sig .tc) :=
  [main_v40, main_v41, main_v42, main_v43, main_c_5, main_v44, main_v45, main_c_6, main_v46, main_v47, main_v48, main_v49, main_v50]

/-- Segment 3 (in window main_part1): 4 operations. -/
abbrev seg3 : List (HloOp τ sig (Elt F)) :=
  [ StableHlo.nullary main_cst_7 (constant S_ .f32 0x00000000#32),
    StableHlo.unary main_cst_7 main_v51 (broadcastInDim S100000x128 ![] bcast_S_S100000x128 : (⟨S_, .f32⟩ : BufTy).Contents (Elt F) → (⟨S100000x128, .f32⟩ : BufTy).Contents (Elt F)),
    StableHlo.unary main_arg2 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

set_option maxRecDepth 8192 in
/-- Each of segment 3's operations touches TensorCore buffers only: the builder's own fact, one per operation in order. -/
theorem seg3_sub : (seg3 : List (HloOp τ sig (Elt F))).Forall fun op => op.bufs ⊆ tcRefs τ sig :=
  ⟨nullary_bufs_sub .., unary_bufs_sub .., unary_bufs_sub .., ternary_bufs_sub ..⟩

/-- The buffers segment 3 writes, in order. -/
abbrev W3 : List (Ref sig .tc) :=
  [main_cst_7, main_v51, main_v52, main_v53]

/-- Segment 4 (in window main_part1): 61 operations. -/
abbrev seg4 : List (HloOp τ sig (Elt F)) :=
  [ StableHlo.binary main_v39 main_v53 main_v54 (addf : (⟨S100000x128, .f32⟩ : BufTy).Contents (Elt F) → (⟨S100000x128, .f32⟩ : BufTy).Contents (Elt F) → (⟨S100000x128, .f32⟩ : BufTy).Contents (Elt F)),
    StableHlo.binary main_v54 main_v41 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v43 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.binary main_v39 main_v41 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v43 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.unary main_arg10 main_v64 ((extractStridedSlice S1x128 ![0, 0] · slices_S4x128_S1x128_0_0) : (⟨S4x128, .f32⟩ : BufTy).Contents (Elt F) → (⟨S1x128, .f32⟩ : BufTy).Contents (Elt F)),
    StableHlo.reshape main_v64 main_v65 rfl shapeCasts_S1x128_S128,
    StableHlo.unary main_arg11 main_v66 ((extractStridedSlice S1x128 ![0, 0] · slices_S4x128_S1x128_0_0) : (⟨S4x128, .f32⟩ : BufTy).Contents (Elt F) → (⟨S1x128, .f32⟩ : BufTy).Contents (Elt F)),
    StableHlo.reshape main_v66 main_v67 rfl shapeCasts_S1x128_S128,
    StableHlo.nullary main_cst_8 (constant S_ .f32 0x00000000#32),
    StableHlo.binary main_v63 main_cst_8 main_v68 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of main_v63 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v63 : StableHlo.TRef sig ⟨S100000x128, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v73 main_v74 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_v65 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (mulf : (⟨S100000x128, .f32⟩ : BufTy).Contents (Elt F) → (⟨S100000x128, .f32⟩ : BufTy).Contents (Elt F) → (⟨S100000x128, .f32⟩ : BufTy).Contents (Elt F)),
    StableHlo.unary main_v67 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v86 : StableHlo.TRef sig ⟨S100000x128, .f32⟩) main_call3.v0 main_call3.v1 maximumf ]

set_option maxRecDepth 8192 in
/-- Each of segment 4's operations touches TensorCore buffers only: the builder's own fact, one per operation in order. -/
theorem seg4_sub : (seg4 : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 4 writes, in order. -/
abbrev W4 : List (Ref sig .tc) :=
  [main_v54, main_v55, main_v56, main_v57, main_v58, main_v59, main_v60, main_v61, main_v62, main_v63, main_v64, main_v65, main_v66, main_v67, main_cst_8, main_v68, main_cst_9, main_v69, main_v70, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v71, main_v72, main_v73, main_v74, main_cst_11, main_v75, main_v76, main_v77, main_v78, main_v79, main_v80, main_v81, main_v82, main_v83, main_v84, main_v85, main_v86, main_call3_cst, main_call3_v0, main_v87]

/-- Segment 5 (in window main_part1): 17 operations. -/
abbrev seg5 : List (HloOp τ sig (Elt F)) :=
  [ StableHlo.unary main_arg8 main_v88 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v88 main_v89 rfl shapeCasts_S1x128x128_S128x128,
    StableHlo.unary main_arg9 main_v90 ((extractStridedSlice S1x128 ![1, 0] · slices_S4x128_S1x128_1_0) : (⟨S4x128, .f32⟩ : BufTy).Contents (Elt F) → (⟨S1x128, .f32⟩ : BufTy).Contents (Elt F)),
    StableHlo.reshape main_v90 main_v91 rfl shapeCasts_S1x128_S128,
    StableHlo.nullary main_c_12 (constantI S_ 32 0#32),
    StableHlo.unary main_c_12 main_v92 (broadcastInDim S1600000 ![] bcast_S_S1600000 : (⟨S_, .i32⟩ : BufTy).Contents (Elt F) → (⟨S1600000, .i32⟩ : BufTy).Contents (Elt F)),
    StableHlo.binary main_arg1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v94 (broadcastInDim S1600000 ![] bcast_S_S1600000 : (⟨S_, .i32⟩ : BufTy).Contents (Elt F) → (⟨S1600000, .i32⟩ : BufTy).Contents (Elt F)),
    StableHlo.binary main_arg1 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_arg1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v87 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v99 (broadcastInDim S100000x128 ![] bcast_S_S100000x128 : (⟨S_, .f32⟩ : BufTy).Contents (Elt F) → (⟨S100000x128, .f32⟩ : BufTy).Contents (Elt F)),
    StableHlo.unary main_arg2 main_v100 (broadcastInDim S1600000x1 ![0] bcast_S1600000_S1600000x1_0 : (⟨S1600000, .i32⟩ : BufTy).Contents (Elt F) → (⟨S1600000x1, .i32⟩ : BufTy).Contents (Elt F)),
    StableHlo.ternary main_v99 main_v100 main_v98 main_v101 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

set_option maxRecDepth 8192 in
/-- Each of segment 5's operations touches TensorCore buffers only: the builder's own fact, one per operation in order. -/
theorem seg5_sub : (seg5 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The buffers segment 5 writes, in order. -/
abbrev W5 : List (Ref sig .tc) :=
  [main_v88, main_v89, main_v90, main_v91, main_c_12, main_v92, main_v93, main_c_13, main_v94, main_v95, main_v96, main_v97, main_v98, main_cst_14, main_v99, main_v100, main_v101]

/-- Segment 6 (in window main_part1): 1 operations. -/
abbrev seg6 : List (HloOp τ sig (Elt F)) :=
  [ StableHlo.binary main_v87 main_v101 main_v102 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- Each of segment 6's operations touches TensorCore buffers only: the builder's own fact, one per operation in order. -/
theorem seg6_sub : (seg6 : List (HloOp τ sig (Elt F))).Forall fun op => op.bufs ⊆ tcRefs τ sig :=
  binary_bufs_sub ..

/-- The buffers segment 6 writes, in order. -/
abbrev W6 : List (Ref sig .tc) :=
  [main_v102]

/-- Segment 7 (in window main_part2): 60 operations. -/
abbrev seg7 : List (HloOp τ sig (Elt F)) :=
  [ StableHlo.binary main_v102 main_v89 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v91 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v105 main_v106 (addf : (⟨S100000x128, .f32⟩ : BufTy).Contents (Elt F) → (⟨S100000x128, .f32⟩ : BufTy).Contents (Elt F) → (⟨S100000x128, .f32⟩ : BufTy).Contents (Elt F)),
    StableHlo.binary main_v87 main_v89 main_v107 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v91 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v109 main_v110 (addf : (⟨S100000x128, .f32⟩ : BufTy).Contents (Elt F) → (⟨S100000x128, .f32⟩ : BufTy).Contents (Elt F) → (⟨S100000x128, .f32⟩ : BufTy).Contents (Elt F)),
    StableHlo.binary main_v106 main_v110 main_v111 (addf : (⟨S100000x128, .f32⟩ : BufTy).Contents (Elt F) → (⟨S100000x128, .f32⟩ : BufTy).Contents (Elt F) → (⟨S100000x128, .f32⟩ : BufTy).Contents (Elt F)),
    StableHlo.unary main_arg10 main_v112 ((extractStridedSlice S1x128 ![1, 0] · slices_S4x128_S1x128_1_0) : (⟨S4x128, .f32⟩ : BufTy).Contents (Elt F) → (⟨S1x128, .f32⟩ : BufTy).Contents (Elt F)),
    StableHlo.reshape main_v112 main_v113 rfl shapeCasts_S1x128_S128,
    StableHlo.unary main_arg11 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128,
    StableHlo.nullary main_cst_15 (constant S_ .f32 0x00000000#32),
    StableHlo.binary main_v111 main_cst_15 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (StableHlo.TRef.of main_v111 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (StableHlo.TRef.of main_v111 : StableHlo.TRef sig ⟨S100000x128, .f32⟩) main_call4.v4 main_call4.v5 subf,
    StableHlo.TRef.binary main_call4.v5 main_call4.v5 main_call4.v6 mulf,
    StableHlo.TRef.unary (StableHlo.TRef.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v121 main_v122 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v123 (broadcastInDim S128 ![] bcast_S_S128 : (⟨S_, .f32⟩ : BufTy).Contents (Elt F) → (⟨S128, .f32⟩ : BufTy).Contents (Elt F)),
    StableHlo.binary main_v119 main_v123 main_v124 (addf : (⟨S128, .f32⟩ : BufTy).Contents (Elt F) → (⟨S128, .f32⟩ : BufTy).Contents (Elt F) → (⟨S128, .f32⟩ : BufTy).Contents (Elt F)),
    StableHlo.unary main_v124 main_v125 (Host.rsqrt : (⟨S128, .f32⟩ : BufTy).Contents (Elt F) → (⟨S128, .f32⟩ : BufTy).Contents (Elt F)),
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v127 main_v128 (mulf : (⟨S100000x128, .f32⟩ : BufTy).Contents (Elt F) → (⟨S100000x128, .f32⟩ : BufTy).Contents (Elt F) → (⟨S100000x128, .f32⟩ : BufTy).Contents (Elt F)),
    StableHlo.unary main_v113 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v130 main_v131 (mulf : (⟨S100000x128, .f32⟩ : BufTy).Contents (Elt F) → (⟨S100000x128, .f32⟩ : BufTy).Contents (Elt F) → (⟨S100000x128, .f32⟩ : BufTy).Contents (Elt F)),
    StableHlo.unary main_v115 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of main_v134 : StableHlo.TRef sig ⟨S100000x128, .f32⟩) main_call5.v0 main_call5.v1 maximumf ]

set_option maxRecDepth 8192 in
/-- Each of segment 7's operations touches TensorCore buffers only: the builder's own fact, one per operation in order. -/
theorem seg7_sub : (seg7 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 7 writes, in order. -/
abbrev W7 : List (Ref sig .tc) :=
  [main_v103, main_v104, main_v105, main_v106, main_v107, main_v108, main_v109, main_v110, main_v111, main_v112, main_v113, main_v114, main_v115, main_cst_15, main_v116, main_cst_16, main_v117, main_v118, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v119, main_v120, main_v121, main_v122, main_cst_18, main_v123, main_v124, main_v125, main_v126, main_v127, main_v128, main_v129, main_v130, main_v131, main_v132, main_v133, main_v134, main_call5_cst, main_call5_v0, main_v135]

/-- Segment 8 (in window main_part2): 17 operations. -/
abbrev seg8 : List (HloOp τ sig (Elt F)) :=
  [ StableHlo.unary main_arg8 main_v136 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v136 main_v137 rfl shapeCasts_S1x128x128_S128x128,
    StableHlo.unary main_arg9 main_v138 ((extractStridedSlice S1x128 ![2, 0] · slices_S4x128_S1x128_2_0) : (⟨S4x128, .f32⟩ : BufTy).Contents (Elt F) → (⟨S1x128, .f32⟩ : BufTy).Contents (Elt F)),
    StableHlo.reshape main_v138 main_v139 rfl shapeCasts_S1x128_S128,
    StableHlo.nullary main_c_19 (constantI S_ 32 0#32),
    StableHlo.unary main_c_19 main_v140 (broadcastInDim S1600000 ![] bcast_S_S1600000 : (⟨S_, .i32⟩ : BufTy).Contents (Elt F) → (⟨S1600000, .i32⟩ : BufTy).Contents (Elt F)),
    StableHlo.binary main_arg1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v142 (broadcastInDim S1600000 ![] bcast_S_S1600000 : (⟨S_, .i32⟩ : BufTy).Contents (Elt F) → (⟨S1600000, .i32⟩ : BufTy).Contents (Elt F)),
    StableHlo.binary main_arg1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_arg1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v135 main_v145 main_v146 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v147 (broadcastInDim S100000x128 ![] bcast_S_S100000x128 : (⟨S_, .f32⟩ : BufTy).Contents (Elt F) → (⟨S100000x128, .f32⟩ : BufTy).Contents (Elt F)),
    StableHlo.unary main_arg2 main_v148 (broadcastInDim S1600000x1 ![0] bcast_S1600000_S1600000x1_0 : (⟨S1600000, .i32⟩ : BufTy).Contents (Elt F) → (⟨S1600000x1, .i32⟩ : BufTy).Contents (Elt F)),
    StableHlo.ternary main_v147 main_v148 main_v146 main_v149 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

set_option maxRecDepth 8192 in
/-- Each of segment 8's operations touches TensorCore buffers only: the builder's own fact, one per operation in order. -/
theorem seg8_sub : (seg8 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The buffers segment 8 writes, in order. -/
abbrev W8 : List (Ref sig .tc) :=
  [main_v136, main_v137, main_v138, main_v139, main_c_19, main_v140, main_v141, main_c_20, main_v142, main_v143, main_v144, main_v145, main_v146, main_cst_21, main_v147, main_v148, main_v149]

/-- Segment 9 (in window main_part2): 6 operations. -/
abbrev seg9 : List (HloOp τ sig (Elt F)) :=
  [ StableHlo.binary main_v135 main_v149 main_v150 (addf : (⟨S100000x128, .f32⟩ : BufTy).Contents (Elt F) → (⟨S100000x128, .f32⟩ : BufTy).Contents (Elt F) → (⟨S100000x128, .f32⟩ : BufTy).Contents (Elt F)),
    StableHlo.binary main_v150 main_v137 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v139 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v153 main_v154 (addf : (⟨S100000x128, .f32⟩ : BufTy).Contents (Elt F) → (⟨S100000x128, .f32⟩ : BufTy).Contents (Elt F) → (⟨S100000x128, .f32⟩ : BufTy).Contents (Elt F)),
    StableHlo.binary main_v135 main_v137 main_v155 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

set_option maxRecDepth 8192 in
/-- Each of segment 9's operations touches TensorCore buffers only: the builder's own fact, one per operation in order. -/
theorem seg9_sub : (seg9 : List (HloOp τ sig (Elt F))).Forall fun op => op.bufs ⊆ tcRefs τ sig :=
  ⟨binary_bufs_sub .., binary_bufs_sub .., unary_bufs_sub .., unary_bufs_sub .., binary_bufs_sub .., binary_bufs_sub ..⟩

/-- The buffers segment 9 writes, in order. -/
abbrev W9 : List (Ref sig .tc) :=
  [main_v150, main_v151, main_v152, main_v153, main_v154, main_v155]

/-- Segment 10 (in window main_part3): 55 operations. -/
abbrev seg10 : List (HloOp τ sig (Elt F)) :=
  [ StableHlo.unary main_v139 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v157 main_v158 (addf : (⟨S100000x128, .f32⟩ : BufTy).Contents (Elt F) → (⟨S100000x128, .f32⟩ : BufTy).Contents (Elt F) → (⟨S100000x128, .f32⟩ : BufTy).Contents (Elt F)),
    StableHlo.binary main_v154 main_v158 main_v159 (addf : (⟨S100000x128, .f32⟩ : BufTy).Contents (Elt F) → (⟨S100000x128, .f32⟩ : BufTy).Contents (Elt F) → (⟨S100000x128, .f32⟩ : BufTy).Contents (Elt F)),
    StableHlo.unary main_arg10 main_v160 ((extractStridedSlice S1x128 ![2, 0] · slices_S4x128_S1x128_2_0) : (⟨S4x128, .f32⟩ : BufTy).Contents (Elt F) → (⟨S1x128, .f32⟩ : BufTy).Contents (Elt F)),
    StableHlo.reshape main_v160 main_v161 rfl shapeCasts_S1x128_S128,
    StableHlo.unary main_arg11 main_v162 ((extractStridedSlice S1x128 ![2, 0] · slices_S4x128_S1x128_2_0) : (⟨S4x128, .f32⟩ : BufTy).Contents (Elt F) → (⟨S1x128, .f32⟩ : BufTy).Contents (Elt F)),
    StableHlo.reshape main_v162 main_v163 rfl shapeCasts_S1x128_S128,
    StableHlo.nullary main_cst_22 (constant S_ .f32 0x00000000#32),
    StableHlo.binary main_v159 main_cst_22 main_v164 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v165 (broadcastInDim S128 ![] bcast_S_S128 : (⟨S_, .f32⟩ : BufTy).Contents (Elt F) → (⟨S128, .f32⟩ : BufTy).Contents (Elt F)),
    StableHlo.binary main_v164 main_v165 main_v166 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (StableHlo.TRef.of main_v159 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (StableHlo.TRef.of main_v159 : StableHlo.TRef sig ⟨S100000x128, .f32⟩) main_call6.v4 main_call6.v5 subf,
    StableHlo.TRef.binary main_call6.v5 main_call6.v5 main_call6.v6 mulf,
    StableHlo.TRef.unary (StableHlo.TRef.of main_c_24 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v166 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v159 main_v169 main_v170 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v171 (broadcastInDim S128 ![] bcast_S_S128 : (⟨S_, .f32⟩ : BufTy).Contents (Elt F) → (⟨S128, .f32⟩ : BufTy).Contents (Elt F)),
    StableHlo.binary main_v167 main_v171 main_v172 (addf : (⟨S128, .f32⟩ : BufTy).Contents (Elt F) → (⟨S128, .f32⟩ : BufTy).Contents (Elt F) → (⟨S128, .f32⟩ : BufTy).Contents (Elt F)),
    StableHlo.unary main_v172 main_v173 (Host.rsqrt : (⟨S128, .f32⟩ : BufTy).Contents (Elt F) → (⟨S128, .f32⟩ : BufTy).Contents (Elt F)),
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v170 main_v175 main_v176 (mulf : (⟨S100000x128, .f32⟩ : BufTy).Contents (Elt F) → (⟨S100000x128, .f32⟩ : BufTy).Contents (Elt F) → (⟨S100000x128, .f32⟩ : BufTy).Contents (Elt F)),
    StableHlo.unary main_v161 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v176 main_v178 main_v179 (mulf : (⟨S100000x128, .f32⟩ : BufTy).Contents (Elt F) → (⟨S100000x128, .f32⟩ : BufTy).Contents (Elt F) → (⟨S100000x128, .f32⟩ : BufTy).Contents (Elt F)),
    StableHlo.unary main_v163 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S100000x128 ![0, 1] bcast_S1x128_S100000x128_0_1 : (⟨S1x128, .f32⟩ : BufTy).Contents (Elt F) → (⟨S100000x128, .f32⟩ : BufTy).Contents (Elt F)),
    StableHlo.binary main_v179 main_v181 main_v182 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (StableHlo.TRef.of main_v182 : StableHlo.TRef sig ⟨S100000x128, .f32⟩) main_call7.v0 main_call7.v1 maximumf ]

set_option maxRecDepth 8192 in
/-- Each of segment 10's operations touches TensorCore buffers only: the builder's own fact, one per operation in order. -/
theorem seg10_sub : (seg10 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 10 writes, in order. -/
abbrev W10 : List (Ref sig .tc) :=
  [main_v156, main_v157, main_v158, main_v159, main_v160, main_v161, main_v162, main_v163, main_cst_22, main_v164, main_cst_23, main_v165, main_v166, main_c_24, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v167, main_v168, main_v169, main_v170, main_cst_25, main_v171, main_v172, main_v173, main_v174, main_v175, main_v176, main_v177, main_v178, main_v179, main_v180, main_v181, main_v182, main_call7_cst, main_call7_v0, main_v183]

/-- Segment 11 (in window main_part3): 17 operations. -/
abbrev seg11 : List (HloOp τ sig (Elt F)) :=
  [ StableHlo.unary main_arg8 main_v184 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v184 main_v185 rfl shapeCasts_S1x128x128_S128x128,
    StableHlo.unary main_arg9 main_v186 ((extractStridedSlice S1x128 ![3, 0] · slices_S4x128_S1x128_3_0) : (⟨S4x128, .f32⟩ : BufTy).Contents (Elt F) → (⟨S1x128, .f32⟩ : BufTy).Contents (Elt F)),
    StableHlo.reshape main_v186 main_v187 rfl shapeCasts_S1x128_S128,
    StableHlo.nullary main_c_26 (constantI S_ 32 0#32),
    StableHlo.unary main_c_26 main_v188 (broadcastInDim S1600000 ![] bcast_S_S1600000 : (⟨S_, .i32⟩ : BufTy).Contents (Elt F) → (⟨S1600000, .i32⟩ : BufTy).Contents (Elt F)),
    StableHlo.binary main_arg1 main_v188 main_v189 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v190 (broadcastInDim S1600000 ![] bcast_S_S1600000 : (⟨S_, .i32⟩ : BufTy).Contents (Elt F) → (⟨S1600000, .i32⟩ : BufTy).Contents (Elt F)),
    StableHlo.binary main_arg1 main_v190 main_v191 (addi : (⟨S1600000, .i32⟩ : BufTy).Contents (Elt F) → (⟨S1600000, .i32⟩ : BufTy).Contents (Elt F) → (⟨S1600000, .i32⟩ : BufTy).Contents (Elt F)),
    StableHlo.ternary main_v189 main_v191 main_arg1 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v192 main_v193 (broadcastInDim S1600000x1 ![0] bcast_S1600000_S1600000x1_0 : (⟨S1600000, .i32⟩ : BufTy).Contents (Elt F) → (⟨S1600000x1, .i32⟩ : BufTy).Contents (Elt F)),
    StableHlo.binary main_v183 main_v193 main_v194 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_28 (constant S_ .f32 0x00000000#32),
    StableHlo.unary main_cst_28 main_v195 (broadcastInDim S100000x128 ![] bcast_S_S100000x128 : (⟨S_, .f32⟩ : BufTy).Contents (Elt F) → (⟨S100000x128, .f32⟩ : BufTy).Contents (Elt F)),
    StableHlo.unary main_arg2 main_v196 (broadcastInDim S1600000x1 ![0] bcast_S1600000_S1600000x1_0 : (⟨S1600000, .i32⟩ : BufTy).Contents (Elt F) → (⟨S1600000x1, .i32⟩ : BufTy).Contents (Elt F)),
    StableHlo.ternary main_v195 main_v196 main_v194 main_v197 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

set_option maxRecDepth 8192 in
/-- Each of segment 11's operations touches TensorCore buffers only: the builder's own fact, one per operation in order. -/
theorem seg11_sub : (seg11 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The buffers segment 11 writes, in order. -/
abbrev W11 : List (Ref sig .tc) :=
  [main_v184, main_v185, main_v186, main_v187, main_c_26, main_v188, main_v189, main_c_27, main_v190, main_v191, main_v192, main_v193, main_v194, main_cst_28, main_v195, main_v196, main_v197]

/-- Segment 12 (in window main_part3): 11 operations. -/
abbrev seg12 : List (HloOp τ sig (Elt F)) :=
  [ StableHlo.binary main_v183 main_v197 main_v198 (addf : (⟨S100000x128, .f32⟩ : BufTy).Contents (Elt F) → (⟨S100000x128, .f32⟩ : BufTy).Contents (Elt F) → (⟨S100000x128, .f32⟩ : BufTy).Contents (Elt F)),
    StableHlo.binary main_v198 main_v185 main_v199 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v187 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (addf : (⟨S100000x128, .f32⟩ : BufTy).Contents (Elt F) → (⟨S100000x128, .f32⟩ : BufTy).Contents (Elt F) → (⟨S100000x128, .f32⟩ : BufTy).Contents (Elt F)),
    StableHlo.binary main_v183 main_v185 main_v203 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v187 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v205 main_v206 (addf : (⟨S100000x128, .f32⟩ : BufTy).Contents (Elt F) → (⟨S100000x128, .f32⟩ : BufTy).Contents (Elt F) → (⟨S100000x128, .f32⟩ : BufTy).Contents (Elt F)),
    StableHlo.binary main_v202 main_v206 main_v207 (addf : (⟨S100000x128, .f32⟩ : BufTy).Contents (Elt F) → (⟨S100000x128, .f32⟩ : BufTy).Contents (Elt F) → (⟨S100000x128, .f32⟩ : BufTy).Contents (Elt F)),
    StableHlo.unary main_arg10 main_v208 ((extractStridedSlice S1x128 ![3, 0] · slices_S4x128_S1x128_3_0) : (⟨S4x128, .f32⟩ : BufTy).Contents (Elt F) → (⟨S1x128, .f32⟩ : BufTy).Contents (Elt F)) ]

set_option maxRecDepth 8192 in
/-- Each of segment 12's operations touches TensorCore buffers only: the builder's own fact, one per operation in order. -/
theorem seg12_sub : (seg12 : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., binary_bufs_sub .., unary_bufs_sub ..⟩

/-- The buffers segment 12 writes, in order. -/
abbrev W12 : List (Ref sig .tc) :=
  [main_v198, main_v199, main_v200, main_v201, main_v202, main_v203, main_v204, main_v205, main_v206, main_v207, main_v208]

/-- Segment 13 (in window main_part4): 50 operations. -/
abbrev seg13 : List (HloOp τ sig (Elt F)) :=
  [ StableHlo.reshape main_v208 main_v209 rfl shapeCasts_S1x128_S128,
    StableHlo.unary main_arg11 main_v210 ((extractStridedSlice S1x128 ![3, 0] · slices_S4x128_S1x128_3_0) : (⟨S4x128, .f32⟩ : BufTy).Contents (Elt F) → (⟨S1x128, .f32⟩ : BufTy).Contents (Elt F)),
    StableHlo.reshape main_v210 main_v211 rfl shapeCasts_S1x128_S128,
    StableHlo.nullary main_cst_29 (constant S_ .f32 0x00000000#32),
    StableHlo.binary main_v207 main_cst_29 main_v212 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v213 (broadcastInDim S128 ![] bcast_S_S128 : (⟨S_, .f32⟩ : BufTy).Contents (Elt F) → (⟨S128, .f32⟩ : BufTy).Contents (Elt F)),
    StableHlo.binary main_v212 main_v213 main_v214 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call8.cst (constant S_ .f32 0x00000000#32),
    StableHlo.TRef.binary (StableHlo.TRef.of main_v207 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (StableHlo.TRef.of main_v207 : StableHlo.TRef sig ⟨S100000x128, .f32⟩) main_call8.v4 main_call8.v5 subf,
    StableHlo.TRef.binary main_call8.v5 main_call8.v5 main_call8.v6 mulf,
    StableHlo.TRef.unary (StableHlo.TRef.of main_c_31 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v214 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v217 main_v218 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v219 (broadcastInDim S128 ![] bcast_S_S128 : (⟨S_, .f32⟩ : BufTy).Contents (Elt F) → (⟨S128, .f32⟩ : BufTy).Contents (Elt F)),
    StableHlo.binary main_v215 main_v219 main_v220 (addf : (⟨S128, .f32⟩ : BufTy).Contents (Elt F) → (⟨S128, .f32⟩ : BufTy).Contents (Elt F) → (⟨S128, .f32⟩ : BufTy).Contents (Elt F)),
    StableHlo.unary main_v220 main_v221 (Host.rsqrt : (⟨S128, .f32⟩ : BufTy).Contents (Elt F) → (⟨S128, .f32⟩ : BufTy).Contents (Elt F)),
    StableHlo.unary main_v221 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S100000x128 ![0, 1] bcast_S1x128_S100000x128_0_1 : (⟨S1x128, .f32⟩ : BufTy).Contents (Elt F) → (⟨S100000x128, .f32⟩ : BufTy).Contents (Elt F)),
    StableHlo.binary main_v218 main_v223 main_v224 (mulf : (⟨S100000x128, .f32⟩ : BufTy).Contents (Elt F) → (⟨S100000x128, .f32⟩ : BufTy).Contents (Elt F) → (⟨S100000x128, .f32⟩ : BufTy).Contents (Elt F)),
    StableHlo.unary main_v209 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S100000x128 ![0, 1] bcast_S1x128_S100000x128_0_1 : (⟨S1x128, .f32⟩ : BufTy).Contents (Elt F) → (⟨S100000x128, .f32⟩ : BufTy).Contents (Elt F)),
    StableHlo.binary main_v224 main_v226 main_v227 (mulf : (⟨S100000x128, .f32⟩ : BufTy).Contents (Elt F) → (⟨S100000x128, .f32⟩ : BufTy).Contents (Elt F) → (⟨S100000x128, .f32⟩ : BufTy).Contents (Elt F)),
    StableHlo.unary main_v211 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v229 main_v230 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (StableHlo.TRef.of main_v230 : StableHlo.TRef sig ⟨S100000x128, .f32⟩) main_call9.v0 main_call9.v1 maximumf ]

set_option maxRecDepth 8192 in
/-- Each of segment 13's operations touches TensorCore buffers only: the builder's own fact, one per operation in order. -/
theorem seg13_sub : (seg13 : List (HloOp τ sig (Elt F))).Forall fun op => op.bufs ⊆ tcRefs τ sig :=
  ⟨reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 13 writes, in order. -/
abbrev W13 : List (Ref sig .tc) :=
  [main_v209, main_v210, main_v211, main_cst_29, main_v212, main_cst_30, main_v213, main_v214, main_c_31, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v215, main_v216, main_v217, main_v218, main_cst_32, main_v219, main_v220, main_v221, main_v222, main_v223, main_v224, main_v225, main_v226, main_v227, main_v228, main_v229, main_v230, main_call9_cst, main_call9_v0, main_v231]

/-- Segment 14 (in window main_part4): 4 operations. -/
abbrev seg14 : List (HloOp τ sig (Elt F)) :=
  [ StableHlo.nullary main_cst_33 (constant S_ .f32 0x00000000#32),
    StableHlo.unary main_cst_33 main_v232 (broadcastInDim S2048x128 ![] bcast_S_S2048x128 : (⟨S_, .f32⟩ : BufTy).Contents (Elt F) → (⟨S2048x128, .f32⟩ : BufTy).Contents (Elt F)),
    StableHlo.unary main_arg3 main_v233 (broadcastInDim S100000x1 ![0] bcast_S100000_S100000x1_0 : (⟨S100000, .i32⟩ : BufTy).Contents (Elt F) → (⟨S100000x1, .i32⟩ : BufTy).Contents (Elt F)),
    StableHlo.ternary main_v232 main_v233 main_v231 main_v234 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)) ]

set_option maxRecDepth 8192 in
/-- Each of segment 14's operations touches TensorCore buffers only: the builder's own fact, one per operation in order. -/
theorem seg14_sub : (seg14 : List (HloOp τ sig (Elt F))).Forall fun op => op.bufs ⊆ tcRefs τ sig :=
  ⟨nullary_bufs_sub .., unary_bufs_sub .., unary_bufs_sub .., ternary_bufs_sub ..⟩

/-- The buffers segment 14 writes, in order. -/
abbrev W14 : List (Ref sig .tc) :=
  [main_cst_33, main_v232, main_v233, main_v234]

/-- Segment 15 (in window main_part4): 51 operations. -/
abbrev seg15 : List (HloOp τ sig (Elt F)) :=
  [ StableHlo.binary main_v234 main_arg12 main_v235 ((fun l r => Host.dotGeneral dot_S2048x128_S128x512_S2048x512_1_0_0_1_n_n none l r) : (⟨S2048x128, .f32⟩ : BufTy).Contents (Elt F) → (⟨S128x512, .f32⟩ : BufTy).Contents (Elt F) → (⟨S2048x512, .f32⟩ : BufTy).Contents (Elt F)),
    StableHlo.unary main_arg13 main_v236 (broadcastInDim S1x512 ![1] bcast_S512_S1x512_1 : (⟨S512, .f32⟩ : BufTy).Contents (Elt F) → (⟨S1x512, .f32⟩ : BufTy).Contents (Elt F)),
    StableHlo.unary main_v236 main_v237 (broadcastInDim S2048x512 ![0, 1] bcast_S1x512_S2048x512_0_1 : (⟨S1x512, .f32⟩ : BufTy).Contents (Elt F) → (⟨S2048x512, .f32⟩ : BufTy).Contents (Elt F)),
    StableHlo.binary main_v235 main_v237 main_v238 (addf : (⟨S2048x512, .f32⟩ : BufTy).Contents (Elt F) → (⟨S2048x512, .f32⟩ : BufTy).Contents (Elt F) → (⟨S2048x512, .f32⟩ : BufTy).Contents (Elt F)),
    StableHlo.nullary main_cst_34 (constant S_ .f32 0x00000000#32),
    StableHlo.binary main_v238 main_cst_34 main_v239 ((fun x v => Host.reduceAdd x v reducesTo_S2048x512_S512_d0 h_S_) : (⟨S2048x512, .f32⟩ : BufTy).Contents (Elt F) → (⟨S_, .f32⟩ : BufTy).Contents (Elt F) → (⟨S512, .f32⟩ : BufTy).Contents (Elt F)),
    StableHlo.nullary main_cst_35 (constant S_ .f32 0x45000000#32),
    StableHlo.unary main_cst_35 main_v240 (broadcastInDim S512 ![] bcast_S_S512 : (⟨S_, .f32⟩ : BufTy).Contents (Elt F) → (⟨S512, .f32⟩ : BufTy).Contents (Elt F)),
    StableHlo.binary main_v239 main_v240 main_v241 (Host.divf : (⟨S512, .f32⟩ : BufTy).Contents (Elt F) → (⟨S512, .f32⟩ : BufTy).Contents (Elt F) → (⟨S512, .f32⟩ : BufTy).Contents (Elt F)),
    StableHlo.nullary main_c_36 (constantI S_ 32 0#32),
    StableHlo.TRef.nullary main_call10.cst (constant S_ .f32 0x00000000#32),
    StableHlo.TRef.binary (StableHlo.TRef.of main_v238 : StableHlo.TRef sig ⟨S2048x512, .f32⟩) main_call10.cst main_call10.v0 (fun x v => Host.reduceAdd x v reducesTo_S2048x512_S512_d0 h_S_),
    StableHlo.TRef.unary main_call10.v0 main_call10.v1 (broadcastInDim S1x512 ![1] bcast_S512_S1x512_1),
    StableHlo.TRef.nullary main_call10.cst_0 (constant S_ .f32 0x45000000#32),
    StableHlo.TRef.unary main_call10.cst_0 main_call10.v2 (broadcastInDim S1x512 ![] bcast_S_S1x512),
    StableHlo.TRef.binary main_call10.v1 main_call10.v2 main_call10.v3 Host.divf,
    StableHlo.TRef.unary main_call10.v3 main_call10.v4 (broadcastInDim S2048x512 ![0, 1] bcast_S1x512_S2048x512_0_1),
    StableHlo.TRef.binary (StableHlo.TRef.of main_v238 : StableHlo.TRef sig ⟨S2048x512, .f32⟩) main_call10.v4 main_call10.v5 subf,
    StableHlo.TRef.binary main_call10.v5 main_call10.v5 main_call10.v6 mulf,
    StableHlo.TRef.unary (StableHlo.TRef.of main_c_36 : StableHlo.TRef sig ⟨S_, .i32⟩) main_call10.v7 (sitofp .f32),
    StableHlo.TRef.nullary main_call10.cst_1 (constant S_ .f32 0x45000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S2048x512_S512_d0 h_S_),
    StableHlo.TRef.unary main_call10.v8 main_call10.v10 (broadcastInDim S512 ![] bcast_S_S512),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S512 ![] bcast_S_S512),
    StableHlo.TRef.ternary main_call10.v12 main_call10.v11 main_call10.call0.v1 main_call10.call0.v2 (fun p a b => select (broadcastInDim S512 ![] bcast_S_S512 p) a b),
    StableHlo.unary main_v241 main_v243 (broadcastInDim S1x512 ![1] bcast_S512_S1x512_1 : (⟨S512, .f32⟩ : BufTy).Contents (Elt F) → (⟨S1x512, .f32⟩ : BufTy).Contents (Elt F)),
    StableHlo.unary main_v243 main_v244 (broadcastInDim S2048x512 ![0, 1] bcast_S1x512_S2048x512_0_1 : (⟨S1x512, .f32⟩ : BufTy).Contents (Elt F) → (⟨S2048x512, .f32⟩ : BufTy).Contents (Elt F)),
    StableHlo.binary main_v238 main_v244 main_v245 (subf : (⟨S2048x512, .f32⟩ : BufTy).Contents (Elt F) → (⟨S2048x512, .f32⟩ : BufTy).Contents (Elt F) → (⟨S2048x512, .f32⟩ : BufTy).Contents (Elt F)),
    StableHlo.nullary main_cst_37 (constant S_ .f32 0x3727C5AC#32),
    StableHlo.unary main_cst_37 main_v246 (broadcastInDim S512 ![] bcast_S_S512 : (⟨S_, .f32⟩ : BufTy).Contents (Elt F) → (⟨S512, .f32⟩ : BufTy).Contents (Elt F)),
    StableHlo.binary main_v242 main_v246 main_v247 (addf : (⟨S512, .f32⟩ : BufTy).Contents (Elt F) → (⟨S512, .f32⟩ : BufTy).Contents (Elt F) → (⟨S512, .f32⟩ : BufTy).Contents (Elt F)),
    StableHlo.unary main_v247 main_v248 (Host.rsqrt : (⟨S512, .f32⟩ : BufTy).Contents (Elt F) → (⟨S512, .f32⟩ : BufTy).Contents (Elt F)),
    StableHlo.unary main_v248 main_v249 (broadcastInDim S1x512 ![1] bcast_S512_S1x512_1 : (⟨S512, .f32⟩ : BufTy).Contents (Elt F) → (⟨S1x512, .f32⟩ : BufTy).Contents (Elt F)),
    StableHlo.unary main_v249 main_v250 (broadcastInDim S2048x512 ![0, 1] bcast_S1x512_S2048x512_0_1 : (⟨S1x512, .f32⟩ : BufTy).Contents (Elt F) → (⟨S2048x512, .f32⟩ : BufTy).Contents (Elt F)),
    StableHlo.binary main_v245 main_v250 main_v251 (mulf : (⟨S2048x512, .f32⟩ : BufTy).Contents (Elt F) → (⟨S2048x512, .f32⟩ : BufTy).Contents (Elt F) → (⟨S2048x512, .f32⟩ : BufTy).Contents (Elt F)),
    StableHlo.unary main_arg14 main_v252 (broadcastInDim S1x512 ![1] bcast_S512_S1x512_1 : (⟨S512, .f32⟩ : BufTy).Contents (Elt F) → (⟨S1x512, .f32⟩ : BufTy).Contents (Elt F)),
    StableHlo.unary main_v252 main_v253 (broadcastInDim S2048x512 ![0, 1] bcast_S1x512_S2048x512_0_1 : (⟨S1x512, .f32⟩ : BufTy).Contents (Elt F) → (⟨S2048x512, .f32⟩ : BufTy).Contents (Elt F)),
    StableHlo.binary main_v251 main_v253 main_v254 (mulf : (⟨S2048x512, .f32⟩ : BufTy).Contents (Elt F) → (⟨S2048x512, .f32⟩ : BufTy).Contents (Elt F) → (⟨S2048x512, .f32⟩ : BufTy).Contents (Elt F)),
    StableHlo.unary main_arg15 main_v255 (broadcastInDim S1x512 ![1] bcast_S512_S1x512_1 : (⟨S512, .f32⟩ : BufTy).Contents (Elt F) → (⟨S1x512, .f32⟩ : BufTy).Contents (Elt F)),
    StableHlo.unary main_v255 main_v256 (broadcastInDim S2048x512 ![0, 1] bcast_S1x512_S2048x512_0_1 : (⟨S1x512, .f32⟩ : BufTy).Contents (Elt F) → (⟨S2048x512, .f32⟩ : BufTy).Contents (Elt F)),
    StableHlo.binary main_v254 main_v256 main_v257 (addf : (⟨S2048x512, .f32⟩ : BufTy).Contents (Elt F) → (⟨S2048x512, .f32⟩ : BufTy).Contents (Elt F) → (⟨S2048x512, .f32⟩ : BufTy).Contents (Elt F)),
    StableHlo.TRef.nullary main_call11.cst (constant S_ .f32 0x00000000#32),
    StableHlo.TRef.unary main_call11.cst main_call11.v0 (broadcastInDim S2048x512 ![] bcast_S_S2048x512),
    StableHlo.TRef.binary (StableHlo.TRef.of main_v257 : StableHlo.TRef sig ⟨S2048x512, .f32⟩) main_call11.v0 main_call11.v1 maximumf ]

set_option maxRecDepth 8192 in
/-- Each of segment 15's operations touches TensorCore buffers only: the builder's own fact, one per operation in order. -/
theorem seg15_sub : (seg15 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 15 writes, in order. -/
abbrev W15 : List (Ref sig .tc) :=
  [main_v235, main_v236, main_v237, main_v238, main_cst_34, main_v239, main_cst_35, main_v240, main_v241, main_c_36, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v242, main_v243, main_v244, main_v245, main_cst_37, main_v246, main_v247, main_v248, main_v249, main_v250, main_v251, main_v252, main_v253, main_v254, main_v255, main_v256, main_v257, main_call11_cst, main_call11_v0, main_v258]

/-- Segment 16 (in window main_part4): 1 operations. -/
abbrev seg16 : List (HloOp τ sig (Elt F)) :=
  [ StableHlo.binary main_v258 main_arg16 main_v259 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)) ]

set_option maxRecDepth 8192 in
/-- Each of segment 16's operations touches TensorCore buffers only: the builder's own fact, one per operation in order. -/
theorem seg16_sub : (seg16 : List (HloOp τ sig (Elt F))).Forall fun op => op.bufs ⊆ tcRefs τ sig :=
  binary_bufs_sub ..

/-- The buffers segment 16 writes, in order. -/
abbrev W16 : List (Ref sig .tc) :=
  [main_v259]

/-- Segment 17 (in window main_part5): 50 operations. -/
abbrev seg17 : List (HloOp τ sig (Elt F)) :=
  [ StableHlo.unary main_arg17 main_v260 (broadcastInDim S1x256 ![1] bcast_S256_S1x256_1 : (⟨S256, .f32⟩ : BufTy).Contents (Elt F) → (⟨S1x256, .f32⟩ : BufTy).Contents (Elt F)),
    StableHlo.unary main_v260 main_v261 (broadcastInDim S2048x256 ![0, 1] bcast_S1x256_S2048x256_0_1 : (⟨S1x256, .f32⟩ : BufTy).Contents (Elt F) → (⟨S2048x256, .f32⟩ : BufTy).Contents (Elt F)),
    StableHlo.binary main_v259 main_v261 main_v262 (addf : (⟨S2048x256, .f32⟩ : BufTy).Contents (Elt F) → (⟨S2048x256, .f32⟩ : BufTy).Contents (Elt F) → (⟨S2048x256, .f32⟩ : BufTy).Contents (Elt F)),
    StableHlo.nullary main_cst_38 (constant S_ .f32 0x00000000#32),
    StableHlo.binary main_v262 main_cst_38 main_v263 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_39 (constant S_ .f32 0x45000000#32),
    StableHlo.unary main_cst_39 main_v264 (broadcastInDim S256 ![] bcast_S_S256 : (⟨S_, .f32⟩ : BufTy).Contents (Elt F) → (⟨S256, .f32⟩ : BufTy).Contents (Elt F)),
    StableHlo.binary main_v263 main_v264 main_v265 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call12.cst (constant S_ .f32 0x00000000#32),
    StableHlo.TRef.binary (StableHlo.TRef.of main_v262 : StableHlo.TRef sig ⟨S2048x256, .f32⟩) main_call12.cst main_call12.v0 (fun x v => Host.reduceAdd x v reducesTo_S2048x256_S256_d0 h_S_),
    StableHlo.TRef.unary main_call12.v0 main_call12.v1 (broadcastInDim S1x256 ![1] bcast_S256_S1x256_1),
    StableHlo.TRef.nullary main_call12.cst_0 (constant S_ .f32 0x45000000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S2048x256 ![0, 1] bcast_S1x256_S2048x256_0_1),
    StableHlo.TRef.binary (StableHlo.TRef.of main_v262 : StableHlo.TRef sig ⟨S2048x256, .f32⟩) main_call12.v4 main_call12.v5 subf,
    StableHlo.TRef.binary main_call12.v5 main_call12.v5 main_call12.v6 mulf,
    StableHlo.TRef.unary (StableHlo.TRef.of main_c_40 : StableHlo.TRef sig ⟨S_, .i32⟩) main_call12.v7 (sitofp .f32),
    StableHlo.TRef.nullary main_call12.cst_1 (constant S_ .f32 0x45000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S2048x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_v265 main_v267 (broadcastInDim S1x256 ![1] bcast_S256_S1x256_1 : (⟨S256, .f32⟩ : BufTy).Contents (Elt F) → (⟨S1x256, .f32⟩ : BufTy).Contents (Elt F)),
    StableHlo.unary main_v267 main_v268 (broadcastInDim S2048x256 ![0, 1] bcast_S1x256_S2048x256_0_1 : (⟨S1x256, .f32⟩ : BufTy).Contents (Elt F) → (⟨S2048x256, .f32⟩ : BufTy).Contents (Elt F)),
    StableHlo.binary main_v262 main_v268 main_v269 (subf : (⟨S2048x256, .f32⟩ : BufTy).Contents (Elt F) → (⟨S2048x256, .f32⟩ : BufTy).Contents (Elt F) → (⟨S2048x256, .f32⟩ : BufTy).Contents (Elt F)),
    StableHlo.nullary main_cst_41 (constant S_ .f32 0x3727C5AC#32),
    StableHlo.unary main_cst_41 main_v270 (broadcastInDim S256 ![] bcast_S_S256 : (⟨S_, .f32⟩ : BufTy).Contents (Elt F) → (⟨S256, .f32⟩ : BufTy).Contents (Elt F)),
    StableHlo.binary main_v266 main_v270 main_v271 (addf : (⟨S256, .f32⟩ : BufTy).Contents (Elt F) → (⟨S256, .f32⟩ : BufTy).Contents (Elt F) → (⟨S256, .f32⟩ : BufTy).Contents (Elt F)),
    StableHlo.unary main_v271 main_v272 (Host.rsqrt : (⟨S256, .f32⟩ : BufTy).Contents (Elt F) → (⟨S256, .f32⟩ : BufTy).Contents (Elt F)),
    StableHlo.unary main_v272 main_v273 (broadcastInDim S1x256 ![1] bcast_S256_S1x256_1 : (⟨S256, .f32⟩ : BufTy).Contents (Elt F) → (⟨S1x256, .f32⟩ : BufTy).Contents (Elt F)),
    StableHlo.unary main_v273 main_v274 (broadcastInDim S2048x256 ![0, 1] bcast_S1x256_S2048x256_0_1 : (⟨S1x256, .f32⟩ : BufTy).Contents (Elt F) → (⟨S2048x256, .f32⟩ : BufTy).Contents (Elt F)),
    StableHlo.binary main_v269 main_v274 main_v275 (mulf : (⟨S2048x256, .f32⟩ : BufTy).Contents (Elt F) → (⟨S2048x256, .f32⟩ : BufTy).Contents (Elt F) → (⟨S2048x256, .f32⟩ : BufTy).Contents (Elt F)),
    StableHlo.unary main_arg18 main_v276 (broadcastInDim S1x256 ![1] bcast_S256_S1x256_1 : (⟨S256, .f32⟩ : BufTy).Contents (Elt F) → (⟨S1x256, .f32⟩ : BufTy).Contents (Elt F)),
    StableHlo.unary main_v276 main_v277 (broadcastInDim S2048x256 ![0, 1] bcast_S1x256_S2048x256_0_1 : (⟨S1x256, .f32⟩ : BufTy).Contents (Elt F) → (⟨S2048x256, .f32⟩ : BufTy).Contents (Elt F)),
    StableHlo.binary main_v275 main_v277 main_v278 (mulf : (⟨S2048x256, .f32⟩ : BufTy).Contents (Elt F) → (⟨S2048x256, .f32⟩ : BufTy).Contents (Elt F) → (⟨S2048x256, .f32⟩ : BufTy).Contents (Elt F)),
    StableHlo.unary main_arg19 main_v279 (broadcastInDim S1x256 ![1] bcast_S256_S1x256_1 : (⟨S256, .f32⟩ : BufTy).Contents (Elt F) → (⟨S1x256, .f32⟩ : BufTy).Contents (Elt F)),
    StableHlo.unary main_v279 main_v280 (broadcastInDim S2048x256 ![0, 1] bcast_S1x256_S2048x256_0_1 : (⟨S1x256, .f32⟩ : BufTy).Contents (Elt F) → (⟨S2048x256, .f32⟩ : BufTy).Contents (Elt F)),
    StableHlo.binary main_v278 main_v280 main_v281 (addf : (⟨S2048x256, .f32⟩ : BufTy).Contents (Elt F) → (⟨S2048x256, .f32⟩ : BufTy).Contents (Elt F) → (⟨S2048x256, .f32⟩ : BufTy).Contents (Elt F)),
    StableHlo.TRef.nullary main_call13.cst (constant S_ .f32 0x00000000#32),
    StableHlo.TRef.unary main_call13.cst main_call13.v0 (broadcastInDim S2048x256 ![] bcast_S_S2048x256),
    StableHlo.TRef.binary (StableHlo.TRef.of main_v281 : StableHlo.TRef sig ⟨S2048x256, .f32⟩) main_call13.v0 main_call13.v1 maximumf ]

set_option maxRecDepth 8192 in
/-- Each of segment 17's operations touches TensorCore buffers only: the builder's own fact, one per operation in order. -/
theorem seg17_sub : (seg17 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 17 writes, in order. -/
abbrev W17 : List (Ref sig .tc) :=
  [main_v260, main_v261, main_v262, main_cst_38, main_v263, main_cst_39, main_v264, main_v265, main_c_40, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v266, main_v267, main_v268, main_v269, main_cst_41, main_v270, main_v271, main_v272, main_v273, main_v274, main_v275, main_v276, main_v277, main_v278, main_v279, main_v280, main_v281, main_call13_cst, main_call13_v0, main_v282]

/-- Segment 18 (in window main_part5): 13 operations. -/
abbrev seg18 : List (HloOp τ sig (Elt F)) :=
  [ StableHlo.binary main_v282 main_arg20 main_v283 ((fun l r => Host.dotGeneral dot_S2048x256_S256x408_S2048x408_1_0_0_1_n_n none l r) : (⟨S2048x256, .f32⟩ : BufTy).Contents (Elt F) → (⟨S256x408, .f32⟩ : BufTy).Contents (Elt F) → (⟨S2048x408, .f32⟩ : BufTy).Contents (Elt F)),
    StableHlo.unary main_arg21 main_v284 (broadcastInDim S1x408 ![1] bcast_S408_S1x408_1 : (⟨S408, .f32⟩ : BufTy).Contents (Elt F) → (⟨S1x408, .f32⟩ : BufTy).Contents (Elt F)),
    StableHlo.unary main_v284 main_v285 (broadcastInDim S2048x408 ![0, 1] bcast_S1x408_S2048x408_0_1 : (⟨S1x408, .f32⟩ : BufTy).Contents (Elt F) → (⟨S2048x408, .f32⟩ : BufTy).Contents (Elt F)),
    StableHlo.binary main_v283 main_v285 main_v286 (addf : (⟨S2048x408, .f32⟩ : BufTy).Contents (Elt F) → (⟨S2048x408, .f32⟩ : BufTy).Contents (Elt F) → (⟨S2048x408, .f32⟩ : BufTy).Contents (Elt F)),
    StableHlo.unary main_v286 main_v287 ((extractStridedSlice S2048x204 ![0, 204] · slices_S2048x408_S2048x204_0_204) : (⟨S2048x408, .f32⟩ : BufTy).Contents (Elt F) → (⟨S2048x204, .f32⟩ : BufTy).Contents (Elt F)),
    StableHlo.unary main_v287 main_v288 (Host.negf : (⟨S2048x204, .f32⟩ : BufTy).Contents (Elt F) → (⟨S2048x204, .f32⟩ : BufTy).Contents (Elt F)),
    StableHlo.unary main_v288 main_v289 (Host.exp : (⟨S2048x204, .f32⟩ : BufTy).Contents (Elt F) → (⟨S2048x204, .f32⟩ : BufTy).Contents (Elt F)),
    StableHlo.nullary main_cst_42 (constant S_ .f32 0x3F800000#32),
    StableHlo.unary main_cst_42 main_v290 (broadcastInDim S2048x204 ![] bcast_S_S2048x204 : (⟨S_, .f32⟩ : BufTy).Contents (Elt F) → (⟨S2048x204, .f32⟩ : BufTy).Contents (Elt F)),
    StableHlo.binary main_v290 main_v289 main_v291 (addf : (⟨S2048x204, .f32⟩ : BufTy).Contents (Elt F) → (⟨S2048x204, .f32⟩ : BufTy).Contents (Elt F) → (⟨S2048x204, .f32⟩ : BufTy).Contents (Elt F)),
    StableHlo.nullary main_cst_43 (constant S_ .f32 0x3F800000#32),
    StableHlo.unary main_cst_43 main_v292 (broadcastInDim S2048x204 ![] bcast_S_S2048x204 : (⟨S_, .f32⟩ : BufTy).Contents (Elt F) → (⟨S2048x204, .f32⟩ : BufTy).Contents (Elt F)),
    StableHlo.binary main_v292 main_v291 main_v293 (Host.divf : (⟨S2048x204, .f32⟩ : BufTy).Contents (Elt F) → (⟨S2048x204, .f32⟩ : BufTy).Contents (Elt F) → (⟨S2048x204, .f32⟩ : BufTy).Contents (Elt F)) ]

set_option maxRecDepth 8192 in
/-- Each of segment 18's operations touches TensorCore buffers only: the builder's own fact, one per operation in order. -/
theorem seg18_sub : (seg18 : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub ..⟩

/-- The buffers segment 18 writes, in order. -/
abbrev W18 : List (Ref sig .tc) :=
  [main_v283, main_v284, main_v285, main_v286, main_v287, main_v288, main_v289, main_cst_42, main_v290, main_v291, main_cst_43, main_v292, main_v293]

end Cert.ReferenceIdeal.RefRun

end
-- ==== Proof.RefRun.lean ====
/-
  The reference's run. Its @main is a straight line of host operations once the functions it calls (the variance, the
  select inside it, the rectifier) are written out at their call sites; `seq ops` is that line, and every weakly fair
  execution of @main ends with each buffer at the fold `after ops` of the operations over the launch contents.
  The line is kept as nineteen consecutive segments (RefRunOps): a buffer is written by exactly one operation, so what a
  buffer holds at the end is what the segment that writes it left there, computed from what the segments before it left
  in the buffers it reads. `keep` and `stage` say exactly that, for any cut of the line into a prefix, a middle and a rest.
-/
import proofs.«132586_j38087769981032_1_alg».proof.Proof.RefRunOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations -/

/-- The segments in order. -/
abbrev segs : List (List (HloOp τ sig (Elt F))) :=
  [seg0, seg1, seg2, seg3, seg4, seg5, seg6, seg7, seg8, seg9, seg10, seg11, seg12, seg13, seg14, seg15, seg16, seg17, seg18]

/-- What each segment writes, in the same order. -/
abbrev Ws : List (List (Ref sig .tc)) :=
  [W0, W1, W2, W3, W4, W5, W6, W7, W8, W9, W10, W11, W12, W13, W14, W15, W16, W17, W18]

/-- @main's operations, in order. -/
abbrev ops : List (HloOp τ sig (Elt F)) := (segs (F := F)).flatten

/-- The printed windows of @main, as runs of segments. -/
abbrev opsW0 : List (HloOp τ sig (Elt F)) := seg0 ++ (seg1 ++ (seg2))
abbrev opsW1 : List (HloOp τ sig (Elt F)) := seg3 ++ (seg4 ++ (seg5 ++ (seg6)))
abbrev opsW2 : List (HloOp τ sig (Elt F)) := seg7 ++ (seg8 ++ (seg9))
abbrev opsW3 : List (HloOp τ sig (Elt F)) := seg10 ++ (seg11 ++ (seg12))
abbrev opsW4 : List (HloOp τ sig (Elt F)) := seg13 ++ (seg14 ++ (seg15 ++ (seg16)))
abbrev opsW5 : List (HloOp τ sig (Elt F)) := seg17 ++ (seg18)

set_option maxRecDepth 65536 in
theorem main_part0_eq (c : Dev nD) : main_part0 (F := F) c = seq opsW0 := rfl
set_option maxRecDepth 65536 in
theorem main_part1_eq (c : Dev nD) : main_part1 (F := F) c = seq opsW1 := rfl
set_option maxRecDepth 65536 in
theorem main_part2_eq (c : Dev nD) : main_part2 (F := F) c = seq opsW2 := rfl
set_option maxRecDepth 65536 in
theorem main_part3_eq (c : Dev nD) : main_part3 (F := F) c = seq opsW3 := rfl
set_option maxRecDepth 65536 in
theorem main_part4_eq (c : Dev nD) : main_part4 (F := F) c = seq opsW4 := rfl
set_option maxRecDepth 65536 in
theorem main_part5_eq (c : Dev nD) : main_part5 (F := F) c = seq opsW5 := rfl

/-- The whole line is the windows one after the other. -/
theorem ops_eq : (ops : List (HloOp τ sig (Elt F))) = opsW0 ++ (opsW1 ++ (opsW2 ++ (opsW3 ++ (opsW4 ++ opsW5)))) := by
  simp only [ops, segs, opsW0, opsW1, opsW2, opsW3, opsW4, opsW5, List.flatten_cons, List.flatten_nil, List.append_nil, List.append_assoc]

/-- @main is that line: each window is its segments (the calls' bodies unfolding at their call sites), and the windows run in order. -/
theorem main_eq (c : Dev nD) : main (F := F) c = seq ops := by
  rw [ops_eq]
  simp only [seq_append, ← main_part0_eq c, ← main_part1_eq c, ← main_part2_eq c, ← main_part3_eq c, ← main_part4_eq c, ← main_part5_eq c]
  rfl

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

universe u

/-- What holds of every member of each of several lists holds of every member of their concatenation. -/
theorem forall_flatten {α : Type u} {p : α → Prop} {ls : List (List α)} (h : ls.Forall fun l => l.Forall p) :
    ls.flatten.Forall p :=
  List.forall_iff_forall_mem.mpr fun a ha => by
    obtain ⟨l, hl, hal⟩ := List.mem_flatten.mp ha
    exact List.forall_iff_forall_mem.mp (List.forall_iff_forall_mem.mp h l hl) a hal

theorem ops_sub : (ops : List (HloOp τ sig (Elt F))).Forall fun op => op.bufs ⊆ tcRefs τ sig :=
  forall_flatten ⟨seg0_sub, seg1_sub, seg2_sub, seg3_sub, seg4_sub, seg5_sub, seg6_sub, seg7_sub, seg8_sub, seg9_sub, seg10_sub, seg11_sub, seg12_sub, seg13_sub, seg14_sub, seg15_sub, seg16_sub, seg17_sub, seg18_sub⟩

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Which segment writes which buffer -/

/-- Every buffer the line writes is among `W`. -/
def WritesIn (l : List (HloOp τ sig (Elt F))) (W : List (Ref sig .tc)) : Prop :=
  l.Forall fun op => op.writes ⊆ (W.map (Proc.devRef (τ := τ) .tc)).toFinset

theorem writesIn_append {l₁ l₂ : List (HloOp τ sig (Elt F))} {W₁ W₂ : List (Ref sig .tc)}
    (h₁ : WritesIn l₁ W₁) (h₂ : WritesIn l₂ W₂) : WritesIn (l₁ ++ l₂) (W₁ ++ W₂) :=
  List.forall_iff_forall_mem.mpr fun op hop => by
    rcases List.mem_append.mp hop with h | h
    · exact (List.forall_iff_forall_mem.mp h₁ op h).trans fun b hb => by
        rw [List.mem_toFinset, List.map_append, List.mem_append]; exact Or.inl (List.mem_toFinset.mp hb)
    · exact (List.forall_iff_forall_mem.mp h₂ op h).trans fun b hb => by
        rw [List.mem_toFinset, List.map_append, List.mem_append]; exact Or.inr (List.mem_toFinset.mp hb)

theorem writesIn_flatten : ∀ {ls : List (List (HloOp τ sig (Elt F)))} {Vs : List (List (Ref sig .tc))},
    List.Forall₂ WritesIn ls Vs → WritesIn ls.flatten Vs.flatten
  | _, _, .nil => trivial
  | _, _, .cons h hs => by
    rw [List.flatten_cons, List.flatten_cons]
    exact writesIn_append h (writesIn_flatten hs)

/-- A literal line writes the listed buffers: each operation's result buffer is in the list, by inspection. -/
local macro "writes_line" s:ident : tactic =>
  `(tactic| (simp only [WritesIn, $s:ident, List.Forall, nullary_writes, unary_writes, binary_writes, ternary_writes, reshape_writes,
               Finset.singleton_subset_iff, List.mem_toFinset]
             and_intros <;> exact List.mem_map_of_mem (by decide)))

theorem seg0_writes : WritesIn (F := F) seg0 W0 := by writes_line seg0
theorem seg1_writes : WritesIn (F := F) seg1 W1 := by writes_line seg1
theorem seg2_writes : WritesIn (F := F) seg2 W2 := by writes_line seg2
theorem seg3_writes : WritesIn (F := F) seg3 W3 := by writes_line seg3
theorem seg4_writes : WritesIn (F := F) seg4 W4 := by writes_line seg4
theorem seg5_writes : WritesIn (F := F) seg5 W5 := by writes_line seg5
theorem seg6_writes : WritesIn (F := F) seg6 W6 := by writes_line seg6
theorem seg7_writes : WritesIn (F := F) seg7 W7 := by writes_line seg7
theorem seg8_writes : WritesIn (F := F) seg8 W8 := by writes_line seg8
theorem seg9_writes : WritesIn (F := F) seg9 W9 := by writes_line seg9
theorem seg10_writes : WritesIn (F := F) seg10 W10 := by writes_line seg10
theorem seg11_writes : WritesIn (F := F) seg11 W11 := by writes_line seg11
theorem seg12_writes : WritesIn (F := F) seg12 W12 := by writes_line seg12
theorem seg13_writes : WritesIn (F := F) seg13 W13 := by writes_line seg13
theorem seg14_writes : WritesIn (F := F) seg14 W14 := by writes_line seg14
theorem seg15_writes : WritesIn (F := F) seg15 W15 := by writes_line seg15
theorem seg16_writes : WritesIn (F := F) seg16 W16 := by writes_line seg16
theorem seg17_writes : WritesIn (F := F) seg17 W17 := by writes_line seg17
theorem seg18_writes : WritesIn (F := F) seg18 W18 := by writes_line seg18

theorem segs_writes : List.Forall₂ (WritesIn (F := F)) segs Ws :=
  .cons seg0_writes (.cons seg1_writes (.cons seg2_writes (.cons seg3_writes (.cons seg4_writes (.cons seg5_writes (.cons seg6_writes (.cons seg7_writes (.cons seg8_writes (.cons seg9_writes (.cons seg10_writes (.cons seg11_writes (.cons seg12_writes (.cons seg13_writes (.cons seg14_writes (.cons seg15_writes (.cons seg16_writes (.cons seg17_writes (.cons seg18_writes (.nil)))))))))))))))))))

/-- Cut the line after its first `j` segments and again `n` segments later. A buffer that the rest of the line does not
    write holds at the end what the middle `n` segments leave in it, run from what the first `j` left. -/
theorem stage (j n : ℕ) (V : Valuation τ sig (Elt F)) (r : Ref sig .tc) (hr : r ∉ ((Ws.drop j).drop n).flatten) :
    after ops V (Proc.devRef .tc r)
      = after (((segs (F := F)).drop j).take n).flatten (after ((segs (F := F)).take j).flatten V) (Proc.devRef .tc r) := by
  have e : (ops : List (HloOp τ sig (Elt F)))
      = ((segs (F := F)).take j).flatten ++ ((((segs (F := F)).drop j).take n).flatten ++ (((segs (F := F)).drop j).drop n).flatten) := by
    rw [← List.flatten_append, List.take_append_drop, ← List.flatten_append, List.take_append_drop]
  rw [e, after_append, after_append]
  exact after_of_writes_sub _ _ (writesIn_flatten (List.forall₂_drop n (List.forall₂_drop j segs_writes))) hr

/-- A buffer that no segment from the `j`-th on writes holds at the end what the first `j` segments left in it. -/
theorem keep (j : ℕ) (V : Valuation τ sig (Elt F)) (r : Ref sig .tc) (hr : r ∉ (Ws.drop j).flatten) :
    after ops V (Proc.devRef .tc r) = after ((segs (F := F)).take j).flatten V (Proc.devRef .tc r) :=
  stage j 0 V r hr

/-! ## The arguments are never written -/

theorem arg0_eq (V : Valuation τ sig (Elt F)) : after ops V (main_arg0 : DevRef τ sig) = V (main_arg0 : DevRef τ sig) := keep 0 V main_arg0 (by decide)
theorem arg1_eq (V : Valuation τ sig (Elt F)) : after ops V (main_arg1 : DevRef τ sig) = V (main_arg1 : DevRef τ sig) := keep 0 V main_arg1 (by decide)
theorem arg2_eq (V : Valuation τ sig (Elt F)) : after ops V (main_arg2 : DevRef τ sig) = V (main_arg2 : DevRef τ sig) := keep 0 V main_arg2 (by decide)
theorem arg3_eq (V : Valuation τ sig (Elt F)) : after ops V (main_arg3 : DevRef τ sig) = V (main_arg3 : DevRef τ sig) := keep 0 V main_arg3 (by decide)
theorem arg4_eq (V : Valuation τ sig (Elt F)) : after ops V (main_arg4 : DevRef τ sig) = V (main_arg4 : DevRef τ sig) := keep 0 V main_arg4 (by decide)
theorem arg5_eq (V : Valuation τ sig (Elt F)) : after ops V (main_arg5 : DevRef τ sig) = V (main_arg5 : DevRef τ sig) := keep 0 V main_arg5 (by decide)
theorem arg6_eq (V : Valuation τ sig (Elt F)) : after ops V (main_arg6 : DevRef τ sig) = V (main_arg6 : DevRef τ sig) := keep 0 V main_arg6 (by decide)
theorem arg7_eq (V : Valuation τ sig (Elt F)) : after ops V (main_arg7 : DevRef τ sig) = V (main_arg7 : DevRef τ sig) := keep 0 V main_arg7 (by decide)
theorem arg8_eq (V : Valuation τ sig (Elt F)) : after ops V (main_arg8 : DevRef τ sig) = V (main_arg8 : DevRef τ sig) := keep 0 V main_arg8 (by decide)
theorem arg9_eq (V : Valuation τ sig (Elt F)) : after ops V (main_arg9 : DevRef τ sig) = V (main_arg9 : DevRef τ sig) := keep 0 V main_arg9 (by decide)
theorem arg10_eq (V : Valuation τ sig (Elt F)) : after ops V (main_arg10 : DevRef τ sig) = V (main_arg10 : DevRef τ sig) := keep 0 V main_arg10 (by decide)
theorem arg11_eq (V : Valuation τ sig (Elt F)) : after ops V (main_arg11 : DevRef τ sig) = V (main_arg11 : DevRef τ sig) := keep 0 V main_arg11 (by decide)
theorem arg12_eq (V : Valuation τ sig (Elt F)) : after ops V (main_arg12 : DevRef τ sig) = V (main_arg12 : DevRef τ sig) := keep 0 V main_arg12 (by decide)
theorem arg13_eq (V : Valuation τ sig (Elt F)) : after ops V (main_arg13 : DevRef τ sig) = V (main_arg13 : DevRef τ sig) := keep 0 V main_arg13 (by decide)
theorem arg14_eq (V : Valuation τ sig (Elt F)) : after ops V (main_arg14 : DevRef τ sig) = V (main_arg14 : DevRef τ sig) := keep 0 V main_arg14 (by decide)
theorem arg15_eq (V : Valuation τ sig (Elt F)) : after ops V (main_arg15 : DevRef τ sig) = V (main_arg15 : DevRef τ sig) := keep 0 V main_arg15 (by decide)
theorem arg16_eq (V : Valuation τ sig (Elt F)) : after ops V (main_arg16 : DevRef τ sig) = V (main_arg16 : DevRef τ sig) := keep 0 V main_arg16 (by decide)
theorem arg17_eq (V : Valuation τ sig (Elt F)) : after ops V (main_arg17 : DevRef τ sig) = V (main_arg17 : DevRef τ sig) := keep 0 V main_arg17 (by decide)
theorem arg18_eq (V : Valuation τ sig (Elt F)) : after ops V (main_arg18 : DevRef τ sig) = V (main_arg18 : DevRef τ sig) := keep 0 V main_arg18 (by decide)
theorem arg19_eq (V : Valuation τ sig (Elt F)) : after ops V (main_arg19 : DevRef τ sig) = V (main_arg19 : DevRef τ sig) := keep 0 V main_arg19 (by decide)
theorem arg20_eq (V : Valuation τ sig (Elt F)) : after ops V (main_arg20 : DevRef τ sig) = V (main_arg20 : DevRef τ sig) := keep 0 V main_arg20 (by decide)
theorem arg21_eq (V : Valuation τ sig (Elt F)) : after ops V (main_arg21 : DevRef τ sig) = V (main_arg21 : DevRef τ sig) := keep 0 V main_arg21 (by decide)

end Cert.ReferenceIdeal.RefRun

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.KGinLin.lean ====
/-
  One entry of an aggregation layer's affine map, and two facts about sums that every layer uses.

  For inputs x and a of R rows and K columns, a weight w of K rows and 128 columns and a bias b, entry (r, q) of
  (2·x + a)·w + b  is  lin x a w b r q = (∑ k, (2·x(r,k) + a(r,k))·w(k,q)) + b(0,q).  The factor 2 is kept as the
  word 0x40000000 read as an extended real (`two`).  A column sum of a block of 10000 rows is a sum over Fin 10000, and
  ten consecutive block sums of 10000 terms are one sum over 100000 terms — on the extended reals addition is
  commutative and associative, so the regrouping needs no finiteness.
-/
import proofs.«132586_j38087769981032_1_alg».proof.Proof.LibPlainDot
import proofs.«132586_j38087769981032_1_alg».proof.Proof.LibRealSums
import Idealize.ShloMosaic.PureOps.Ideal.Laws
import Idealize.ShloMosaic.Lib.ValueIdx

noncomputable section

namespace Cert.KernelIdeal.KGin

open Idealize.ShloMosaic Idealize.ShloMosaic.ValueIdx
open Cert.Lib.PlainDot
open scoped BigOperators

/-- The word 0x40000000 read as an extended real. -/
abbrev two : EReal := Ideal.ofBits .f32 0x40000000#32

/-- One entry of the affine map: row r of (2·x + a) against column q of w, plus the bias at q. -/
def lin {R K : ℕ} (x a : (⟨2, ![R, K]⟩ : Shape).Idx → EReal) (w : (⟨2, ![K, 128]⟩ : Shape).Idx → EReal)
    (b : (⟨2, ![1, 128]⟩ : Shape).Idx → EReal) (r : Fin R) (q : Fin 128) : EReal :=
  (∑ k : Fin K, (two * x (ix2 r k) + a (ix2 r k)) * w (ix2 k q)) + b (ix2 0 q)

/-- The entry depends only on row p of the two inputs, column q of the weight and the bias at q. -/
theorem lin_congr {R R' K : ℕ} (x a : (⟨2, ![R, K]⟩ : Shape).Idx → EReal) (x' a' : (⟨2, ![R', K]⟩ : Shape).Idx → EReal)
    (w w' : (⟨2, ![K, 128]⟩ : Shape).Idx → EReal) (b b' : (⟨2, ![1, 128]⟩ : Shape).Idx → EReal)
    (p : Fin R) (r : Fin R') (q : Fin 128)
    (hx : ∀ k, x (ix2 p k) = x' (ix2 r k)) (ha : ∀ k, a (ix2 p k) = a' (ix2 r k))
    (hw : ∀ k, w (ix2 k q) = w' (ix2 k q)) (hb : b (ix2 0 q) = b' (ix2 0 q)) :
    lin x a w b p q = lin x' a' w' b' r q := by
  unfold lin
  rw [hb]
  exact congrArg (· + b' (ix2 0 q)) (Finset.sum_congr rfl fun k _ => by rw [hx k, ha k, hw k])

/-- The operand indices of a plain matrix product at output index (p, q) and contraction position k. -/
theorem rowIdx_ix2 {R K C : ℕ} (p : Fin R) (q : Fin C) (k : Fin K) : rowIdx (ix2 p q) k = ix2 p k :=
  funext fun a => by match a with | ⟨0, _⟩ => rfl | ⟨1, _⟩ => rfl
theorem colIdx_ix2 {R K C : ℕ} (p : Fin R) (q : Fin C) (k : Fin K) : colIdx (ix2 p q) k = ix2 k q :=
  funext fun a => by match a with | ⟨0, _⟩ => rfl | ⟨1, _⟩ => rfl

/-- A column sum of a block of 10000 rows. -/
theorem colsum_apply (src : FVec Ideal ⟨2, ![10000, 128]⟩ .f32) (h : (⟨2, ![10000, 128]⟩ : Shape).Reduces [0] ⟨1, ![128]⟩)
    (hφ : FKind.Formats .f32) (hacc : (0x00000000#32 : BitVec 32) = FKind.add.neutral .f32 hφ) (q : Fin 128) :
    multiReduction .add [0] ⟨1, ![128]⟩ src 0x00000000#32 h hφ hacc (ix1 q) = ∑ k : Fin 10000, src (ix2 k q) := by
  refine (Ideal.multiReduction_add_single src 0x00000000#32 h hφ hacc (ix1 q)).trans ?_
  show (∑ k : Fin 10000, src (h.lift (ix1 q) k)) = _
  refine Finset.sum_congr rfl fun k _ => congrArg src ?_
  funext c
  apply Fin.ext
  match c with
  | ⟨0, _⟩ => rfl
  | ⟨1, _⟩ => rfl

/-- Ten consecutive block sums of 10000 terms are one sum over 100000 terms. -/
theorem sum_blocks (f : ℕ → EReal) :
    ∑ j ∈ Finset.range 10, ∑ i ∈ Finset.range 10000, f (j * 10000 + i) = ∑ r : Fin 100000, f r.val := by
  rw [← Cert.Lib.RealSums.sum_range_mul 10 10000 f]
  exact (Fin.sum_univ_eq_sum_range f 100000).symm

end Cert.KernelIdeal.KGin

end
-- ==== Proof.KGin0.lean ====
/-
  The value of the linear map of one aggregation layer, with its column statistics.

  Over N = 100000 rows cut into ten blocks of 10000, each grid point forms, for its block of the two inputs x and a
  (the features and their neighbourhood sums), the rows  y = (2·x + a)·w + b  of the [100000,128] output, and adds the
  block's column sums of y and of y·y into two [1,128] accumulators that the first point zeroes.  Read at the extended
  reals this file shows, for the arrays as the region finds them:

    * every entry (r, q) of the first output is  lin x a w b r q = (∑ k, (2·x(r,k) + a(r,k))·w(k,q)) + b(0,q);
    * entry (0, q) of the second output is the sum over ALL 100000 rows r of lin x a w b r q;
    * entry (0, q) of the third output is the sum over all rows of lin x a w b r q · lin x a w b r q.

  The factor 2 is kept as the word 0x40000000 read as an extended real (`two`); it is never evaluated.  The matrix
  product into a zero accumulator is the plain sum over k; the change of float format before it is the identity.
  The accumulators are sums of ten block sums; on the extended reals addition is commutative and associative, so
  regrouping them into one sum over all rows needs no finiteness.  A row past the last is given the value 0 only so that
  rows can be numbered by natural numbers in the induction over the grid points; the final statements range over Fin 100000.
-/
import proofs.«132586_j38087769981032_1_alg».proof.Proof.Gen.KernelIdeal.Frame
import proofs.«132586_j38087769981032_1_alg».proof.Proof.KGinLin
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

set_option maxRecDepth 16384

noncomputable section

namespace Cert.KernelIdeal.KGin0

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.PlainDot Cert.KernelIdeal.KGin
open scoped BigOperators

/-! ## The arithmetic of one block, entry by entry -/

/-- The block of y the body stores, at row p and column q of the block. -/
theorem pay3_apply (v3 v6 : Vec Ideal S10000x78 .f32) (v10 : Vec Ideal S78x128 .f32) (v13 : Vec Ideal S1x128 .f32)
    (p : Fin 10000) (q : Fin 128) :
    k0_pay3 (F := Ideal) v3 v6 v10 v13 (ix2 p q) = lin v3 v6 v10 v13 p q := by
  unfold k0_pay3 lin
  refine (addf_apply _ _ _).trans (congrArg₂ (· + ·) ?_ ?_)
  · refine (matmul_zero_apply _ rfl none _ _ (ix2 p q)).trans ?_
    unfold mm
    refine Finset.sum_congr rfl fun k _ => ?_
    rw [rowIdx_ix2, colIdx_ix2, shapeCast_self]
    rfl
  · refine (broadcastTo_1b_ab_apply _ _ p q).trans ?_
    rw [shapeCast_self]

/-- The first accumulator's new contents: what it held plus the block's column sum of y. -/
theorem pay4_apply (v3 v6 : Vec Ideal S10000x78 .f32) (v10 : Vec Ideal S78x128 .f32) (v13 v18 : Vec Ideal S1x128 .f32)
    (u : Fin 1) (q : Fin 128) :
    k0_pay4 (F := Ideal) v3 v6 v10 v13 v18 (ix2 u q)
      = v18 (ix2 u q) + ∑ p : Fin 10000, k0_pay3 (F := Ideal) v3 v6 v10 v13 (ix2 p q) := by
  unfold k0_pay4
  refine (addf_apply _ _ _).trans (congrArg₂ (· + ·) (congrFun (shapeCast_self v18 _) _) ?_)
  refine (shapeCast_a_1a_apply _ _ u q).trans ?_
  exact colsum_apply _ _ _ _ q

/-- The second accumulator's new contents: what it held plus the block's column sum of y·y. -/
theorem pay5_apply (v3 v6 : Vec Ideal S10000x78 .f32) (v10 : Vec Ideal S78x128 .f32) (v13 v24 : Vec Ideal S1x128 .f32)
    (u : Fin 1) (q : Fin 128) :
    k0_pay5 (F := Ideal) v3 v6 v10 v13 v24 (ix2 u q)
      = v24 (ix2 u q) + ∑ p : Fin 10000, k0_pay3 (F := Ideal) v3 v6 v10 v13 (ix2 p q) * k0_pay3 (F := Ideal) v3 v6 v10 v13 (ix2 p q) := by
  unfold k0_pay5
  refine (addf_apply _ _ _).trans (congrArg₂ (· + ·) (congrFun (shapeCast_self v24 _) _) ?_)
  refine (shapeCast_a_1a_apply _ _ u q).trans ?_
  refine (colsum_apply _ _ _ _ q).trans ?_
  rfl

/-- The first point's reset stores the zero word. -/
theorem pay1_apply (j : S1x128.Idx) : k0_pay1 (F := Ideal) j = 0 := Ideal.ofBits_zero_f32
theorem pay2_apply (j : S1x128.Idx) : k0_pay2 (F := Ideal) j = 0 := Ideal.ofBits_zero_f32

/-! ## What the body leaves in each output's buffer, case by case -/

section Pieces

variable {F : FTy → Type} [FloatOps F]

theorem hz : (![0, 0] : Fin 2 → Nat) = fun _ => 0 := funext fun a => by fin_cases a <;> rfl

/-- At the first point the block of y is the one store's payload of the loaded blocks. -/
theorem out_A_4 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x78 .f32) (x2 : Vec F S78x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  try sl_unfold_words
  rw [View.canon_unit_zero hz]
  simp only [View.readAt_eq_ld, h1.read_unread, h2.read_unread, h3.read_unread, h4.read_unread,
    View.ld_unit_zero (S := S10000x78) hz, View.ld_unit_zero (S := S78x128) hz, View.ld_unit_zero (S := S1x128) hz]

/-- At the first point the first accumulator is reset to the zero block and the block's column sum added to it. -/
theorem out_A_5 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x78 .f32) (x2 : Vec F S78x128 .f32) (x3 : Vec F S1x128 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x78) hz, View.ld_unit_zero (S := S78x128) hz, View.ld_unit_zero (S := S1x128) hz]

/-- At the first point the second accumulator likewise. -/
theorem out_A_6 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x78 .f32) (x2 : Vec F S78x128 .f32) (x3 : Vec F S1x128 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x78) hz, View.ld_unit_zero (S := S78x128) hz, View.ld_unit_zero (S := S1x128) hz]

/-- At a later point the block of y is again the one store's payload. -/
theorem out_B_4 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x78 .f32) (x2 : Vec F S78x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S10000x78) hz, View.ld_unit_zero (S := S78x128) hz, View.ld_unit_zero (S := S1x128) hz]

/-- At a later point the first accumulator adds the block's column sum to what the point before left. -/
theorem out_B_5 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x78 .f32) (x2 : Vec F S78x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S10000x78) hz, View.ld_unit_zero (S := S78x128) hz, View.ld_unit_zero (S := S1x128) hz]

/-- At a later point the second accumulator likewise. -/
theorem out_B_6 (c : Dev nD) (i : grid0.Coords) (a1 : Memref sig .tc .vmem S10000x78 .f32) (h1 : a1.IsWhole) (a2 : Memref sig .tc .vmem S10000x78 .f32) (h2 : a2.IsWhole) (a3 : Memref sig .tc .vmem S78x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x78 .f32) (x2 : Vec F S78x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S10000x78) hz, View.ld_unit_zero (S := S78x128) hz, View.ld_unit_zero (S := S1x128) hz]

end Pieces

/-! ## The blocks are rows of the arrays -/

variable (V : (c : Dev nD) → (b : Ref sig .tc) → Buf (Elt Ideal) ((c : Thread nD τ).loc b))

/-- The two inputs, the weight and the bias as the region finds them. -/
abbrev xArr (c : Dev nD) : (⟨2, ![100000, 78]⟩ : Shape).Idx → EReal := V c (Pipeline.arrRef spec0 0)
abbrev aArr (c : Dev nD) : (⟨2, ![100000, 78]⟩ : Shape).Idx → EReal := V c (Pipeline.arrRef spec0 1)
abbrev wArr (c : Dev nD) : (⟨2, ![78, 128]⟩ : Shape).Idx → EReal := V c (Pipeline.arrRef spec0 2)
abbrev bArr (c : Dev nD) : (⟨2, ![1, 128]⟩ : Shape).Idx → EReal := V c (Pipeline.arrRef spec0 3)

/-- The four input blocks at point t. -/
abbrev B0 (c : Dev nD) (t : Fin cfg0.N) : Vec Ideal S10000x78 .f32 := iblk0 V c 0 t
abbrev B1 (c : Dev nD) (t : Fin cfg0.N) : Vec Ideal S10000x78 .f32 := iblk0 V c 1 t
abbrev B2 (c : Dev nD) (t : Fin cfg0.N) : Vec Ideal S78x128 .f32 := iblk0 V c 2 t
abbrev B3 (c : Dev nD) (t : Fin cfg0.N) : Vec Ideal S1x128 .f32 := iblk0 V c 3 t

/-- The windows' block indices over the grid: the row-blocked windows move with the point, the others stay at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row p of the first input's block at point t is row 10000·t + p of the array. -/
theorem blk_0 (c : Dev nD) (t : Fin cfg0.N) (p : Fin 10000) (k : Fin 78) (r : Fin 100000) (hr : r.val = t.val * 10000 + p.val) :
    B0 V c t (ix2 p k) = xArr V c (ix2 r k) := by
  obtain ⟨e0, e1, -⟩ := idx_facts t
  unfold B0 iblk0
  rw [View.read_apply]
  show V c (Pipeline.arrRef spec0 0) _ = V c (Pipeline.arrRef spec0 0) _
  congr 1
  funext a
  apply Fin.ext
  match a with
  | ⟨0, _⟩ => show win0_0.index t 0 * 10000 + 1 * p.val = r.val; rw [e0, hr]; omega
  | ⟨1, _⟩ => show win0_0.index t 1 * 78 + 1 * k.val = k.val; rw [e1]; omega

/-- The same for the second input. -/
theorem blk_1 (c : Dev nD) (t : Fin cfg0.N) (p : Fin 10000) (k : Fin 78) (r : Fin 100000) (hr : r.val = t.val * 10000 + p.val) :
    B1 V c t (ix2 p k) = aArr V c (ix2 r k) := by
  obtain ⟨-, -, e0, e1, -⟩ := idx_facts t
  unfold B1 iblk0
  rw [View.read_apply]
  show V c (Pipeline.arrRef spec0 1) _ = V c (Pipeline.arrRef spec0 1) _
  congr 1
  funext a
  apply Fin.ext
  match a with
  | ⟨0, _⟩ => show win0_1.index t 0 * 10000 + 1 * p.val = r.val; rw [e0, hr]; omega
  | ⟨1, _⟩ => show win0_1.index t 1 * 78 + 1 * k.val = k.val; rw [e1]; omega

/-- The weight's one block is the whole weight. -/
theorem blk_2 (c : Dev nD) (t : Fin cfg0.N) (j : S78x128.Idx) : B2 V c t j = wArr V c j := by
  obtain ⟨-, -, -, -, e0, e1, -⟩ := idx_facts t
  unfold B2 iblk0
  rw [View.read_apply]
  show V c (Pipeline.arrRef spec0 2) _ = V c (Pipeline.arrRef spec0 2) _
  congr 1
  funext a
  apply Fin.ext
  match a with
  | ⟨0, _⟩ => show win0_2.index t 0 * 78 + 1 * (j 0).val = (j 0).val; rw [e0]; omega
  | ⟨1, _⟩ => show win0_2.index t 1 * 128 + 1 * (j 1).val = (j 1).val; rw [e1]; omega

/-- The bias's one block is the whole bias. -/
theorem blk_3 (c : Dev nD) (t : Fin cfg0.N) (j : S1x128.Idx) : B3 V c t j = bArr V c j := by
  obtain ⟨-, -, -, -, -, -, e0, e1, -⟩ := idx_facts t
  unfold B3 iblk0
  rw [View.read_apply]
  show V c (Pipeline.arrRef spec0 3) _ = V c (Pipeline.arrRef spec0 3) _
  congr 1
  funext a
  apply Fin.ext
  match a with
  | ⟨0, _⟩ => show win0_3.index t 0 * 1 + 1 * (j 0).val = (j 0).val; rw [e0]; omega
  | ⟨1, _⟩ => show win0_3.index t 1 * 128 + 1 * (j 1).val = (j 1).val; rw [e1]; omega

/-! ## The rows of y, numbered by natural numbers -/

/-- Entry (r, q) of y over the arrays as the region finds them. -/
abbrev Y (c : Dev nD) (r : Fin 100000) (q : Fin 128) : EReal := lin (xArr V c) (aArr V c) (wArr V c) (bArr V c) r q

/-- The same over a natural row number, 0 past the last row. -/
def Yn (c : Dev nD) (q : Fin 128) (i : ℕ) : EReal := if h : i < 100000 then Y V c ⟨i, h⟩ q else 0

theorem Yn_val (c : Dev nD) (q : Fin 128) (r : Fin 100000) : Yn V c q r.val = Y V c r q := by
  unfold Yn; rw [dif_pos r.isLt]

/-- Row p of the block of y at point t is row 10000·t + p of y. -/
theorem pay3_blocks (c : Dev nD) (t : Fin cfg0.N) (p : Fin 10000) (q : Fin 128) :
    k0_pay3 (F := Ideal) (B0 V c t) (B1 V c t) (B2 V c t) (B3 V c t) (ix2 p q) = Yn V c q (t.val * 10000 + p.val) := by
  have hN : t.val < 10 := lt_of_lt_of_eq t.isLt (show cfg0.N = 10 from N_0)
  have hr : t.val * 10000 + p.val < 100000 := by have := p.isLt; omega
  refine (pay3_apply (B0 V c t) (B1 V c t) (B2 V c t) (B3 V c t) p q).trans ?_
  unfold Yn
  rw [dif_pos hr]
  exact lin_congr (B0 V c t) (B1 V c t) (xArr V c) (aArr V c) (B2 V c t) (wArr V c) (B3 V c t) (bArr V c) p ⟨_, hr⟩ q
    (fun k => blk_0 V c t p k ⟨_, hr⟩ rfl) (fun k => blk_1 V c t p k ⟨_, hr⟩ rfl) (fun k => blk_2 V c t (ix2 k q)) (blk_3 V c t (ix2 0 q))

/-- The same at any index of the block. -/
theorem pay3_blocks_idx (c : Dev nD) (t : Fin cfg0.N) (j : S10000x128.Idx) :
    k0_pay3 (F := Ideal) (B0 V c t) (B1 V c t) (B2 V c t) (B3 V c t) j = Yn V c ⟨(j 1).val, idx2_lt1 j⟩ (t.val * 10000 + (j 0).val) := by
  obtain ⟨p, q, rfl⟩ : ∃ (p : Fin 10000) (q : Fin 128), j = ix2 p q := ⟨j 0, j 1, eq_ix2 j⟩
  exact pay3_blocks V c t p q

/-- The column sum of block j of y, and of its squares. -/
def colsum (c : Dev nD) (q : Fin 128) (j : ℕ) : EReal := ∑ i ∈ Finset.range 10000, Yn V c q (j * 10000 + i)
def colsumsq (c : Dev nD) (q : Fin 128) (j : ℕ) : EReal := ∑ i ∈ Finset.range 10000, Yn V c q (j * 10000 + i) * Yn V c q (j * 10000 + i)

theorem blocksum (c : Dev nD) (t : Fin cfg0.N) (q : Fin 128) :
    ∑ p : Fin 10000, k0_pay3 (F := Ideal) (B0 V c t) (B1 V c t) (B2 V c t) (B3 V c t) (ix2 p q) = colsum V c q t.val :=
  (Finset.sum_congr rfl fun p _ => pay3_blocks V c t p q).trans
    (Fin.sum_univ_eq_sum_range (fun i => Yn V c q (t.val * 10000 + i)) 10000)

theorem blocksumsq (c : Dev nD) (t : Fin cfg0.N) (q : Fin 128) :
    ∑ p : Fin 10000, k0_pay3 (F := Ideal) (B0 V c t) (B1 V c t) (B2 V c t) (B3 V c t) (ix2 p q) * k0_pay3 (F := Ideal) (B0 V c t) (B1 V c t) (B2 V c t) (B3 V c t) (ix2 p q)
      = colsumsq V c q t.val :=
  (Finset.sum_congr rfl fun p _ => by
      show _ * _ = Yn V c q (t.val * 10000 + p.val) * Yn V c q (t.val * 10000 + p.val)
      rw [pay3_blocks V c t p q]).trans
    (Fin.sum_univ_eq_sum_range (fun i => Yn V c q (t.val * 10000 + i) * Yn V c q (t.val * 10000 + i)) 10000)

/-! ## The outputs' buffers after each point -/

/-- After every point the first output's buffer holds the point's block of y. -/
theorem outs4 (c : Dev nD) (t : Fin cfg0.N) :
    (outsAt0 V c t.val t.isLt).1 = k0_pay3 (F := Ideal) (B0 V c t) (B1 V c t) (B2 V c t) (B3 V c t) := by
  by_cases h0 : t.val % 10 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (B0 V c t) (B1 V c t) (B2 V c t) (B3 V c t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (B0 V c t) (B1 V c t) (B2 V c t) (B3 V c t)
      (outsAt0 V c (t.val - 1) (Nat.lt_of_le_of_lt (Nat.sub_le _ _) t.isLt)).2.1 (outsAt0 V c (t.val - 1) (Nat.lt_of_le_of_lt (Nat.sub_le _ _) t.isLt)).2.2

/-- After point n the first accumulator holds the column sums of blocks 0 … n of y, added up. -/
theorem acc5 (c : Dev nD) : ∀ (n : ℕ) (h : n < cfg0.N) (u : Fin 1) (q : Fin 128),
    (outsAt0 V c n h).2.1 (ix2 u q) = ∑ j ∈ Finset.range (n + 1), colsum V c q j
  | 0, h, u, q => by
    rw [show outsAt0 V c 0 h = _ from outsAt0_A V c ⟨0, h⟩ rfl]
    dsimp only
    refine (congrFun (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (B0 V c ⟨0, h⟩) (B1 V c ⟨0, h⟩) (B2 V c ⟨0, h⟩) (B3 V c ⟨0, h⟩)) (ix2 u q)).trans ?_
    refine (pay4_apply (B0 V c ⟨0, h⟩) (B1 V c ⟨0, h⟩) (B2 V c ⟨0, h⟩) (B3 V c ⟨0, h⟩) (k0_pay1 (F := Ideal)) u q).trans ?_
    rw [pay1_apply, zero_add]
    exact (blocksum V c ⟨0, h⟩ q).trans (Finset.sum_range_one (fun j => colsum V c q j)).symm
  | n + 1, h, u, q => by
    have hN : cfg0.N = 10 := N_0
    have hB : ¬(⟨n + 1, h⟩ : Fin cfg0.N).val % 10 = 0 := by dsimp only; omega
    rw [show outsAt0 V c (n + 1) h = _ from outsAt0_B V c ⟨n + 1, h⟩ hB]
    dsimp only
    refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun h' => hB ((hcond0_0 ⟨n + 1, h⟩).mp h')) (B0 V c ⟨n + 1, h⟩) (B1 V c ⟨n + 1, h⟩) (B2 V c ⟨n + 1, h⟩) (B3 V c ⟨n + 1, h⟩) (outsAt0 V c n (Nat.lt_of_succ_lt h)).2.1 (outsAt0 V c n (Nat.lt_of_succ_lt h)).2.2) (ix2 u q)).trans ?_
    refine (pay4_apply (B0 V c ⟨n + 1, h⟩) (B1 V c ⟨n + 1, h⟩) (B2 V c ⟨n + 1, h⟩) (B3 V c ⟨n + 1, h⟩) (outsAt0 V c n (Nat.lt_of_succ_lt h)).2.1 u q).trans ?_
    refine (congrArg₂ (· + ·) (acc5 c n (Nat.lt_of_succ_lt h) u q) (blocksum V c ⟨n + 1, h⟩ q)).trans ?_
    exact (Finset.sum_range_succ (fun j => colsum V c q j) (n + 1)).symm

/-- After point n the second accumulator holds the column sums of the squares of blocks 0 … n, added up. -/
theorem acc6 (c : Dev nD) : ∀ (n : ℕ) (h : n < cfg0.N) (u : Fin 1) (q : Fin 128),
    (outsAt0 V c n h).2.2 (ix2 u q) = ∑ j ∈ Finset.range (n + 1), colsumsq V c q j
  | 0, h, u, q => by
    rw [show outsAt0 V c 0 h = _ from outsAt0_A V c ⟨0, h⟩ rfl]
    dsimp only
    refine (congrFun (out_A_6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (B0 V c ⟨0, h⟩) (B1 V c ⟨0, h⟩) (B2 V c ⟨0, h⟩) (B3 V c ⟨0, h⟩)) (ix2 u q)).trans ?_
    refine (pay5_apply (B0 V c ⟨0, h⟩) (B1 V c ⟨0, h⟩) (B2 V c ⟨0, h⟩) (B3 V c ⟨0, h⟩) (k0_pay2 (F := Ideal)) u q).trans ?_
    rw [pay2_apply, zero_add]
    exact (blocksumsq V c ⟨0, h⟩ q).trans (Finset.sum_range_one (fun j => colsumsq V c q j)).symm
  | n + 1, h, u, q => by
    have hN : cfg0.N = 10 := N_0
    have hB : ¬(⟨n + 1, h⟩ : Fin cfg0.N).val % 10 = 0 := by dsimp only; omega
    rw [show outsAt0 V c (n + 1) h = _ from outsAt0_B V c ⟨n + 1, h⟩ hB]
    dsimp only
    refine (congrFun (out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun h' => hB ((hcond0_0 ⟨n + 1, h⟩).mp h')) (B0 V c ⟨n + 1, h⟩) (B1 V c ⟨n + 1, h⟩) (B2 V c ⟨n + 1, h⟩) (B3 V c ⟨n + 1, h⟩) (outsAt0 V c n (Nat.lt_of_succ_lt h)).2.1 (outsAt0 V c n (Nat.lt_of_succ_lt h)).2.2) (ix2 u q)).trans ?_
    refine (pay5_apply (B0 V c ⟨n + 1, h⟩) (B1 V c ⟨n + 1, h⟩) (B2 V c ⟨n + 1, h⟩) (B3 V c ⟨n + 1, h⟩) (outsAt0 V c n (Nat.lt_of_succ_lt h)).2.2 u q).trans ?_
    refine (congrArg₂ (· + ·) (acc6 c n (Nat.lt_of_succ_lt h) u q) (blocksumsq V c ⟨n + 1, h⟩ q)).trans ?_
    exact (Finset.sum_range_succ (fun j => colsumsq V c q j) (n + 1)).symm

/-! ## The arrays after the run -/

/-- What the first output array ends holding: y, row by row. -/
def G4 (c : Dev nD) : Vec Ideal S100000x128 .f32 := fun i => Yn V c ⟨(i 1).val, idx2_lt1 i⟩ (i 0).val

theorem G4_apply (c : Dev nD) (i : S100000x128.Idx) (q : Fin 128) (n : ℕ) (h1 : (i 1).val = q.val) (h0 : (i 0).val = n) :
    G4 V c i = Yn V c q n := by
  unfold G4
  rw [h0]
  exact congrArg (fun q' => Yn V c q' n) (Fin.ext h1)

/-- What each accumulator array ends holding: the ten block sums added up. -/
def G5 (c : Dev nD) : Vec Ideal S1x128 .f32 := fun i => ∑ j ∈ Finset.range 10, colsum V c ⟨(i 1).val, idx2_lt1 i⟩ j
def G6 (c : Dev nD) : Vec Ideal S1x128 .f32 := fun i => ∑ j ∈ Finset.range 10, colsumsq V c ⟨(i 1).val, idx2_lt1 i⟩ j

/-- Every point writes back its block of y: block t of the rows of y. -/
theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, outs4 V c t]
  obtain ⟨-, -, -, -, -, -, -, -, e0, e1, -⟩ := idx_facts t
  funext j
  refine (pay3_blocks_idx V c t _).trans ?_
  rw [View.read_apply]
  show _ = G4 V c (((cfg0.win 4).blk t).view.emb j)
  refine (G4_apply V c (((cfg0.win 4).blk t).view.emb j) _ _ ?_ ?_).symm
  · show win0_4.index t (1 : Fin 2) * 128 + 1 * (j 1).val = (j 1).val; rw [e1]; omega
  · show win0_4.index t (0 : Fin 2) * 10000 + 1 * (j 0).val = t.val * 10000 + (j 0).val; rw [e0]; omega

/-- An index of the first output array is in point t's block iff its coordinates are in the block's ranges. -/
theorem mem_blk4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v13_0).slice (win0_4.rect t)).set ↔ _
  rw [View.set_slice_whole, Rect.mem_set_unit]
  exact Iff.rfl

/-- Row r lies in the block of point r / 10000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_4 _, ?_⟩
  rw [mem_blk4]
  obtain ⟨-, -, -, -, -, -, -, -, e0, e1, -⟩ := idx_facts ⟨(i 0).val / 10000, by rw [hN]; omega⟩
  intro a
  match a with
  | ⟨0, _⟩ => show win0_4.index _ (0 : Fin 2) * 10000 ≤ (i 0).val ∧ (i 0).val < win0_4.index _ (0 : Fin 2) * 10000 + 10000; rw [e0]; dsimp only; omega
  | ⟨1, _⟩ => show win0_4.index _ (1 : Fin 2) * 128 ≤ (i 1).val ∧ (i 1).val < win0_4.index _ (1 : Fin 2) * 128 + 128; rw [e1]; omega

/-- The first output array after the run. -/
theorem final4 (c : Dev nD) : (dat0 V c).arrAt 4 cfg0.N = G4 V c :=
  (dat0 V c).arrAt_eq_of_cover 4 (G4 V c) (fun t _ => flushed4 V c t) cover4

/-- The accumulators are written back once, after the last point, whole. -/
theorem flushed5 (c : Dev nD) (t : Fin cfg0.N) (hf : (cfg0.win 5).flush t = true) :
    (dat0 V c).flushed 5 t = ((cfg0.win 5).blk t).view.read (Elt Ideal) (G5 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  have hG : (outsAt0 V c t0_9.val t0_9.isLt).2.1 = G5 V c := by
    funext j
    obtain ⟨u, q, rfl⟩ : ∃ (u : Fin 1) (q : Fin 128), j = ix2 u q := ⟨j 0, j 1, eq_ix2 j⟩
    exact acc5 V c 9 _ u q
  rw [hG]
  obtain ⟨-, -, -, -, -, -, -, -, -, -, e0, e1, -⟩ := idx_facts t0_9
  have hz' : (fun a => win0_5.index t0_9 a * main_v13_1.ty.shape.size a) = fun _ => 0 := funext fun a => by
    match a with
    | ⟨0, _⟩ => show win0_5.index t0_9 0 * 1 = 0; rw [e0]
    | ⟨1, _⟩ => show win0_5.index t0_9 1 * 128 = 0; rw [e1]
  exact (Memref.read_access_unit_zero (Elt Ideal) main_v13_1 hz' (fun a => by rw [congrFun hz' a]; simp) (G5 V c)).symm

theorem flushed6 (c : Dev nD) (t : Fin cfg0.N) (hf : (cfg0.win 6).flush t = true) :
    (dat0 V c).flushed 6 t = ((cfg0.win 6).blk t).view.read (Elt Ideal) (G6 V c) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6]
  have hG : (outsAt0 V c t0_9.val t0_9.isLt).2.2 = G6 V c := by
    funext j
    obtain ⟨u, q, rfl⟩ : ∃ (u : Fin 1) (q : Fin 128), j = ix2 u q := ⟨j 0, j 1, eq_ix2 j⟩
    exact acc6 V c 9 _ u q
  rw [hG]
  obtain ⟨-, -, -, -, -, -, -, -, -, -, -, -, e0, e1⟩ := idx_facts t0_9
  have hz' : (fun a => win0_6.index t0_9 a * main_v13_2.ty.shape.size a) = fun _ => 0 := funext fun a => by
    match a with
    | ⟨0, _⟩ => show win0_6.index t0_9 0 * 1 = 0; rw [e0]
    | ⟨1, _⟩ => show win0_6.index t0_9 1 * 128 = 0; rw [e1]
  exact (Memref.read_access_unit_zero (Elt Ideal) main_v13_2 hz' (fun a => by rw [congrFun hz' a]; simp) (G6 V c)).symm

/-- The last point's block of an accumulator array is the whole array. -/
theorem cover5 (i : S1x128.Idx) : ∃ t : Fin cfg0.N, (cfg0.win 5).flush t = true ∧ i ∈ ((cfg0.win 5).blk t).view.set := by
  refine ⟨t0_9, (flush0_5 t0_9).mpr rfl, ?_⟩
  show i ∈ ((View.whole main_v13_1).slice (win0_5.rect t0_9)).set
  rw [View.set_slice_whole, Rect.mem_set_unit]
  have h0 : (i 0 : Nat) < 1 := (i 0).isLt
  have h1 : (i 1 : Nat) < 128 := (i 1).isLt
  obtain ⟨-, -, -, -, -, -, -, -, -, -, e0, e1, -⟩ := idx_facts t0_9
  intro a
  match a with
  | ⟨0, _⟩ => show win0_5.index t0_9 0 * 1 ≤ (i 0 : Nat) ∧ (i 0 : Nat) < win0_5.index t0_9 0 * 1 + 1; rw [e0]; omega
  | ⟨1, _⟩ => show win0_5.index t0_9 1 * 128 ≤ (i 1 : Nat) ∧ (i 1 : Nat) < win0_5.index t0_9 1 * 128 + 128; rw [e1]; omega

theorem cover6 (i : S1x128.Idx) : ∃ t : Fin cfg0.N, (cfg0.win 6).flush t = true ∧ i ∈ ((cfg0.win 6).blk t).view.set := by
  refine ⟨t0_9, (flush0_6 t0_9).mpr rfl, ?_⟩
  show i ∈ ((View.whole main_v13_2).slice (win0_6.rect t0_9)).set
  rw [View.set_slice_whole, Rect.mem_set_unit]
  have h0 : (i 0 : Nat) < 1 := (i 0).isLt
  have h1 : (i 1 : Nat) < 128 := (i 1).isLt
  obtain ⟨-, -, -, -, -, -, -, -, -, -, -, -, e0, e1⟩ := idx_facts t0_9
  intro a
  match a with
  | ⟨0, _⟩ => show win0_6.index t0_9 0 * 1 ≤ (i 0 : Nat) ∧ (i 0 : Nat) < win0_6.index t0_9 0 * 1 + 1; rw [e0]; omega
  | ⟨1, _⟩ => show win0_6.index t0_9 1 * 128 ≤ (i 1 : Nat) ∧ (i 1 : Nat) < win0_6.index t0_9 1 * 128 + 128; rw [e1]; omega

theorem final5 (c : Dev nD) : (dat0 V c).arrAt 5 cfg0.N = G5 V c :=
  (dat0 V c).arrAt_eq_of_cover 5 (G5 V c) (flushed5 V c) cover5
theorem final6 (c : Dev nD) : (dat0 V c).arrAt 6 cfg0.N = G6 V c :=
  (dat0 V c).arrAt_eq_of_cover 6 (G6 V c) (flushed6 V c) cover6

/-! ## The three results -/

/-- Every entry of the first output array is the affine map's entry. -/
theorem valueY (c : Dev nD) (r : Fin 100000) (q : Fin 128) :
    ((dat0 V c).arrAt 4 cfg0.N : S100000x128.Idx → Ideal .f32) (ix2 r q)
      = lin (R := 100000) (K := 78) (V c (Pipeline.arrRef spec0 0)) (V c (Pipeline.arrRef spec0 1)) (V c (Pipeline.arrRef spec0 2)) (V c (Pipeline.arrRef spec0 3)) r q := by
  rw [final4 V c]
  exact (G4_apply V c (ix2 r q) q r.val rfl rfl).trans (Yn_val V c q r)

/-- Every entry of the second output array is the column sum of y over all 100000 rows. -/
theorem valueS (c : Dev nD) (q : Fin 128) :
    ((dat0 V c).arrAt 5 cfg0.N : S1x128.Idx → Ideal .f32) (ix2 (0 : Fin 1) q)
      = ∑ r : Fin 100000, lin (R := 100000) (K := 78) (V c (Pipeline.arrRef spec0 0)) (V c (Pipeline.arrRef spec0 1)) (V c (Pipeline.arrRef spec0 2)) (V c (Pipeline.arrRef spec0 3)) r q := by
  rw [final5 V c]
  show ∑ j ∈ Finset.range 10, colsum V c q j = _
  unfold colsum
  rw [sum_blocks (Yn V c q)]
  exact Finset.sum_congr rfl fun r _ => Yn_val V c q r

/-- Every entry of the third output array is the column sum of y·y over all 100000 rows. -/
theorem valueSS (c : Dev nD) (q : Fin 128) :
    ((dat0 V c).arrAt 6 cfg0.N : S1x128.Idx → Ideal .f32) (ix2 (0 : Fin 1) q)
      = ∑ r : Fin 100000, lin (R := 100000) (K := 78) (V c (Pipeline.arrRef spec0 0)) (V c (Pipeline.arrRef spec0 1)) (V c (Pipeline.arrRef spec0 2)) (V c (Pipeline.arrRef spec0 3)) r q * lin (R := 100000) (K := 78) (V c (Pipeline.arrRef spec0 0)) (V c (Pipeline.arrRef spec0 1)) (V c (Pipeline.arrRef spec0 2)) (V c (Pipeline.arrRef spec0 3)) r q := by
  rw [final6 V c]
  show ∑ j ∈ Finset.range 10, colsumsq V c q j = _
  unfold colsumsq
  rw [sum_blocks (fun i => Yn V c q i * Yn V c q i)]
  exact Finset.sum_congr rfl fun r _ => by
    show Yn V c q r.val * Yn V c q r.val = _
    rw [Yn_val V c q r]

end Cert.KernelIdeal.KGin0

end
-- ==== Proof.KBnSpec.lean ====
/- Batch normalisation followed by ReLU at one entry of a [R,C] array, at the extended reals: the specification the seven
   normalisation regions of the idealized kernel program are read against.

       bnAt y mean var gamma beta r q = max (((y (r, q) − mean q) · rsqrt (var q + eps)) · gamma q + beta q) 0,

   with the four statistics and parameters given as [1,C] rows, eps the single-precision word 0x3727C5AC (about 1e-5)
   and 0 the single-precision zero word; both are kept as words, never evaluated. -/
import Idealize.ShloMosaic.Lib.ValueIdx

noncomputable section

namespace Cert.KernelIdeal.KBn

open Idealize.ShloMosaic Idealize.ShloMosaic.ValueIdx

/-- Entry (r, q) of the normalised, scaled, shifted and clamped array. -/
def bnAt {R C : Nat} (y : (⟨2, ![R, C]⟩ : Shape).Idx → Elt Ideal .f32)
    (mean var gamma beta : (⟨2, ![1, C]⟩ : Shape).Idx → Elt Ideal .f32) (r : Fin R) (q : Fin C) : Elt Ideal .f32 :=
  max (((y (ix2 r q) - mean (ix2 (0 : Fin 1) q)) * Ideal.rsqrt (var (ix2 (0 : Fin 1) q) + Ideal.ofBits .f32 0x3727C5AC#32))
        * gamma (ix2 (0 : Fin 1) q) + beta (ix2 (0 : Fin 1) q)) (Ideal.ofBits .f32 0x00000000#32)

end Cert.KernelIdeal.KBn
end
-- ==== Proof.KBn1.lean ====
/- The value of batch normalisation followed by ReLU, region 1 of the idealized kernel program, read at the extended reals.

   The region takes a [100000,128] array y and four [1,128] rows (mean, var, gamma, beta) and writes a [100000,128] array,
   in 10 row blocks of 10000 rows each: block t is rows 10000·t … 10000·t + 9999. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn1

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x128 .f32) (v5 : Vec Ideal S10000x128 .f32) (v7 v13 v17 : Vec Ideal S1x128 .f32)
    (r : Fin 10000) (q : Fin 128) :
    k1_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k1_pay1
  simp only [shapeCast_self, maximumf_apply, addf_apply, mulf_apply, subf_apply, broadcast_apply, broadcastTo_1b_ab_apply]
  rfl

/-! ## The whole array as one function of the five input arrays -/

/-- The column of an index of the [100000,128] array, as a number below 128. -/
def col (i : S100000x128.Idx) : Fin 128 := ⟨(i 1).val, idx2_lt1 i⟩

/-- Normalise, scale, shift, clamp at zero: entry `i` from `y` at `i` and the four rows at `i`'s column. -/
def G (y : S100000x128.Idx → Elt Ideal .f32) (mean var gamma beta : S1x128.Idx → Elt Ideal .f32) :
    S100000x128.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S100000x128.Idx → Elt Ideal .f32) (mean var gamma beta : S1x128.Idx → Elt Ideal .f32)
    (r : Fin 100000) (q : Fin 128) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S10000x128 .f32) (x1 x2 x3 x4 : Vec Ideal S1x128 .f32)
    (y : S100000x128.Idx → Elt Ideal .f32) (mean var gamma beta : S1x128.Idx → Elt Ideal .f32)
    (emb : S10000x128.Idx → S100000x128.Idx)
    (hc : ∀ (p : Fin 10000) (q : Fin 128), col (emb (ix2 p q)) = q)
    (e0 : ∀ (p : Fin 10000) (q : Fin 128), x0 (ix2 p q) = y (emb (ix2 p q)))
    (e1 : ∀ q : Fin 128, x1 (ix2 (0 : Fin 1) q) = mean (ix2 (0 : Fin 1) q))
    (e2 : ∀ q : Fin 128, x2 (ix2 (0 : Fin 1) q) = var (ix2 (0 : Fin 1) q))
    (e3 : ∀ q : Fin 128, x3 (ix2 (0 : Fin 1) q) = gamma (ix2 (0 : Fin 1) q))
    (e4 : ∀ q : Fin 128, x4 (ix2 (0 : Fin 1) q) = beta (ix2 (0 : Fin 1) q)) :
    out1_5 (F := Ideal) x0 x1 x2 x3 x4 = fun j => G y mean var gamma beta (emb j) := by
  unfold out1_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of y's block at point `t` is y at row 10000·t + p, column q. -/
theorem yblk_apply (c : Dev nD) (t : Fin cfg1.N) (p : Fin 10000) (q : Fin 128) (i : S100000x128.Idx)
    (h0 : (i 0).val = t.val * 10000 + p.val) (h1 : (i 1).val = q.val) :
    (iblk1 V c 0 t : Vec Ideal S10000x128 .f32) (ix2 p q) = (V c (Pipeline.arrRef spec1 0) : S100000x128.Idx → Elt Ideal .f32) i := by
  obtain ⟨e0, e1, -⟩ := idx_facts t
  have he : (((cfg1.win 0).blk t).view.emb (ix2 p q) : S100000x128.Idx) = i := by
    funext a
    apply Fin.ext
    match a with
    | ⟨0, _⟩ => show win1_0.index t (0 : Fin 2) * 10000 + 1 * p.val = (i 0).val; rw [e0, h0]; omega
    | ⟨1, _⟩ => show win1_0.index t (1 : Fin 2) * 128 + 1 * q.val = (i 1).val; rw [e1, h1]; omega
  exact congrArg (V c (Pipeline.arrRef spec1 0) : S100000x128.Idx → Elt Ideal .f32) he

/-- Column q of the mean row's block at any point is column q of the mean row: the block is the whole row. -/
theorem row1_apply (c : Dev nD) (t : Fin cfg1.N) (q : Fin 128) :
    (iblk1 V c 1 t : Vec Ideal S1x128 .f32) (ix2 (0 : Fin 1) q)
      = (V c (Pipeline.arrRef spec1 1) : S1x128.Idx → Elt Ideal .f32) (ix2 (0 : Fin 1) q) := by
  obtain ⟨-, -, e0, e1, -⟩ := idx_facts t
  have he : (((cfg1.win 1).blk t).view.emb (ix2 (0 : Fin 1) q) : S1x128.Idx) = ix2 (0 : Fin 1) q := by
    funext a
    apply Fin.ext
    match a with
    | ⟨0, _⟩ => show win1_1.index t (0 : Fin 2) * 1 + 1 * (0 : Fin 1).val = (0 : Fin 1).val; rw [e0]; omega
    | ⟨1, _⟩ => show win1_1.index t (1 : Fin 2) * 128 + 1 * q.val = q.val; rw [e1]; omega
  exact congrArg (V c (Pipeline.arrRef spec1 1) : S1x128.Idx → Elt Ideal .f32) he

/-- Column q of the variance row's block at any point is column q of the variance row: the block is the whole row. -/
theorem row2_apply (c : Dev nD) (t : Fin cfg1.N) (q : Fin 128) :
    (iblk1 V c 2 t : Vec Ideal S1x128 .f32) (ix2 (0 : Fin 1) q)
      = (V c (Pipeline.arrRef spec1 2) : S1x128.Idx → Elt Ideal .f32) (ix2 (0 : Fin 1) q) := by
  obtain ⟨-, -, -, -, e0, e1, -⟩ := idx_facts t
  have he : (((cfg1.win 2).blk t).view.emb (ix2 (0 : Fin 1) q) : S1x128.Idx) = ix2 (0 : Fin 1) q := by
    funext a
    apply Fin.ext
    match a with
    | ⟨0, _⟩ => show win1_2.index t (0 : Fin 2) * 1 + 1 * (0 : Fin 1).val = (0 : Fin 1).val; rw [e0]; omega
    | ⟨1, _⟩ => show win1_2.index t (1 : Fin 2) * 128 + 1 * q.val = q.val; rw [e1]; omega
  exact congrArg (V c (Pipeline.arrRef spec1 2) : S1x128.Idx → Elt Ideal .f32) he

/-- Column q of the scale row's block at any point is column q of the scale row: the block is the whole row. -/
theorem row3_apply (c : Dev nD) (t : Fin cfg1.N) (q : Fin 128) :
    (iblk1 V c 3 t : Vec Ideal S1x128 .f32) (ix2 (0 : Fin 1) q)
      = (V c (Pipeline.arrRef spec1 3) : S1x128.Idx → Elt Ideal .f32) (ix2 (0 : Fin 1) q) := by
  obtain ⟨-, -, -, -, -, -, e0, e1, -⟩ := idx_facts t
  have he : (((cfg1.win 3).blk t).view.emb (ix2 (0 : Fin 1) q) : S1x128.Idx) = ix2 (0 : Fin 1) q := by
    funext a
    apply Fin.ext
    match a with
    | ⟨0, _⟩ => show win1_3.index t (0 : Fin 2) * 1 + 1 * (0 : Fin 1).val = (0 : Fin 1).val; rw [e0]; omega
    | ⟨1, _⟩ => show win1_3.index t (1 : Fin 2) * 128 + 1 * q.val = q.val; rw [e1]; omega
  exact congrArg (V c (Pipeline.arrRef spec1 3) : S1x128.Idx → Elt Ideal .f32) he

/-- Column q of the shift row's block at any point is column q of the shift row: the block is the whole row. -/
theorem row4_apply (c : Dev nD) (t : Fin cfg1.N) (q : Fin 128) :
    (iblk1 V c 4 t : Vec Ideal S1x128 .f32) (ix2 (0 : Fin 1) q)
      = (V c (Pipeline.arrRef spec1 4) : S1x128.Idx → Elt Ideal .f32) (ix2 (0 : Fin 1) q) := by
  obtain ⟨-, -, -, -, -, -, -, -, e0, e1, -⟩ := idx_facts t
  have he : (((cfg1.win 4).blk t).view.emb (ix2 (0 : Fin 1) q) : S1x128.Idx) = ix2 (0 : Fin 1) q := by
    funext a
    apply Fin.ext
    match a with
    | ⟨0, _⟩ => show win1_4.index t (0 : Fin 2) * 1 + 1 * (0 : Fin 1).val = (0 : Fin 1).val; rw [e0]; omega
    | ⟨1, _⟩ => show win1_4.index t (1 : Fin 2) * 128 + 1 * q.val = q.val; rw [e1]; omega
  exact congrArg (V c (Pipeline.arrRef spec1 4) : S1x128.Idx → Elt Ideal .f32) he

/-- Entry (p, q) of the result's block at point `t` sits in row 10000·t + p of the array … -/
theorem oblk_row (t : Fin cfg1.N) (p : Fin 10000) (q : Fin 128) :
    ((((cfg1.win 5).blk t).view.emb (ix2 p q) : S100000x128.Idx) 0).val = t.val * 10000 + p.val := by
  obtain ⟨-, -, -, -, -, -, -, -, -, -, e0, -⟩ := idx_facts t
  show win1_5.index t (0 : Fin 2) * 10000 + 1 * p.val = _
  rw [e0]; omega

/-- … and in column q. -/
theorem oblk_col (t : Fin cfg1.N) (p : Fin 10000) (q : Fin 128) :
    ((((cfg1.win 5).blk t).view.emb (ix2 p q) : S100000x128.Idx) 1).val = q.val := by
  obtain ⟨-, -, -, -, -, -, -, -, -, -, -, e1⟩ := idx_facts t
  show win1_5.index t (1 : Fin 2) * 128 + 1 * q.val = _
  rw [e1]; omega

/-! ## From the blocks to the array -/

set_option maxHeartbeats 1000000 in
/-- What point `t` writes back is block `t` of `G` of the five arrays as the region finds them. -/
theorem flushed_eq (c : Dev nD) (t : Fin cfg1.N) :
    (dat1 V c).flushed 5 t = ((cfg1.win 5).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  exact out_fun (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4))
    (((cfg1.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v22).slice (win1_5.rect t)).set ↔ _
  rw [View.set_slice_whole, Rect.mem_set_unit]
  exact Iff.rfl

/-- Every entry is written: row r is in the block of point r / 10000. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 128 ≤ (i 1).val ∧ (i 1).val < win1_5.index t (1 : Fin 2) * 128 + 128
    rw [e1]; omega

/-- The result array after the region is `G` of the five arrays the region was entered with. -/
theorem final (c : Dev nD) :
    (dat1 V c).arrAt 5 cfg1.N
      = G (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) cover

/-- The result array after the region, entry by entry: the specification's `bnAt` of the five arrays at (r, q). -/
theorem value (c : Dev nD) (r : Fin 100000) (q : Fin 128) :
    ((dat1 V c).arrAt 5 cfg1.N : S100000x128.Idx → Elt Ideal .f32) (ix2 r q)
      = bnAt (R := 100000) (C := 128) (V c (Pipeline.arrRef spec1 0)) (V c (Pipeline.arrRef spec1 1))
          (V c (Pipeline.arrRef spec1 2)) (V c (Pipeline.arrRef spec1 3)) (V c (Pipeline.arrRef spec1 4)) r q := by
  rw [final V c]
  exact G_apply _ _ _ _ _ r q

end Cert.KernelIdeal.KBn1
end
-- ==== Proof.KHostA.lean ====
/-
  The host operations between the regions of the idealized kernel program, read at an index: the stretches before the batch-norm regions of GIN layers 1, 2 and 3.

  Every statement is generic in the valuation `W` of the buffers when the stretch starts: it says what the stretch
  leaves, at a column `q`, in each buffer the next region reads, as extended-real arithmetic over `W`'s entries.
  The count (100000 nodes, or 2048 graphs) stays the float word it is printed as; nothing is evaluated.
-/
import proofs.«132586_j38087769981032_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-! ## The stretch before the batch-norm region of GIN layer 1

The column sums `s` and the column sums of squares `t` of the layer's pre-activation are divided by the row count
`n` (kept as its float word): the mean is `s / n` and the variance `t / n - (s / n) * (s / n)`. The scale and the shift
are the argument vectors seen as one-row matrices. -/

/-- The mean: the column sum over the row count. -/
theorem host1_mean_at (q : Fin 128) :
    (StableHlo.after (hostOps1 (F := Ideal)) W (Proc.devRef .tc main_v15) : FVec Ideal S1x128 .f32) (ix2 (0 : Fin 1) q)
      = Ideal.div ((W (Proc.devRef .tc main_v13_1) : FVec Ideal S1x128 .f32) (ix2 (0 : Fin 1) q)) (Ideal.ofBits .f32 0x47C35000#32) := by
  have e : (StableHlo.after (hostOps1 (F := Ideal)) W (Proc.devRef .tc main_v15) : FVec Ideal S1x128 .f32)
      = Host.divf (W (Proc.devRef .tc main_v13_1)) (broadcastInDim S1x128 ![] bcast_S_S1x128 (constant (F := Ideal) S_ .f32 0x47C35000#32)) := by
    after_results
  rw [e]
  rfl

/-- The variance: the mean of the squares less the square of the mean. -/
theorem host1_var_at (q : Fin 128) :
    (StableHlo.after (hostOps1 (F := Ideal)) W (Proc.devRef .tc main_v19) : FVec Ideal S1x128 .f32) (ix2 (0 : Fin 1) q)
      = Ideal.div ((W (Proc.devRef .tc main_v13_2) : FVec Ideal S1x128 .f32) (ix2 (0 : Fin 1) q)) (Ideal.ofBits .f32 0x47C35000#32)
        - Ideal.div ((W (Proc.devRef .tc main_v13_1) : FVec Ideal S1x128 .f32) (ix2 (0 : Fin 1) q)) (Ideal.ofBits .f32 0x47C35000#32)
          * Ideal.div ((W (Proc.devRef .tc main_v13_1) : FVec Ideal S1x128 .f32) (ix2 (0 : Fin 1) q)) (Ideal.ofBits .f32 0x47C35000#32) := by
  have e : (StableHlo.after (hostOps1 (F := Ideal)) W (Proc.devRef .tc main_v19) : FVec Ideal S1x128 .f32)
      = subf (Host.divf (W (Proc.devRef .tc main_v13_2)) (broadcastInDim S1x128 ![] bcast_S_S1x128 (constant (F := Ideal) S_ .f32 0x47C35000#32)))
          (mulf (Host.divf (W (Proc.devRef .tc main_v13_1)) (broadcastInDim S1x128 ![] bcast_S_S1x128 (constant (F := Ideal) S_ .f32 0x47C35000#32)))
            (Host.divf (W (Proc.devRef .tc main_v13_1)) (broadcastInDim S1x128 ![] bcast_S_S1x128 (constant (F := Ideal) S_ .f32 0x47C35000#32)))) := by
    after_results
  rw [e]
  rfl

/-- The scale: the argument vector's entry. -/
theorem host1_gamma_at (q : Fin 128) :
    (StableHlo.after (hostOps1 (F := Ideal)) W (Proc.devRef .tc main_v20) : FVec Ideal S1x128 .f32) (ix2 (0 : Fin 1) q)
      = (W (Proc.devRef .tc main_arg6) : FVec Ideal S128 .f32) (ix1 q) := by
  have e : (StableHlo.after (hostOps1 (F := Ideal)) W (Proc.devRef .tc main_v20) : FVec Ideal S1x128 .f32)
      = shapeCast S1x128 (W (Proc.devRef .tc main_arg6) : FVec Ideal S128 .f32) shapeCasts_S128_S1x128 := by
    after_results
    rfl
  rw [e]
  exact shapeCast_a_1a_apply _ _ _ _

/-- The shift: the argument vector's entry. -/
theorem host1_beta_at (q : Fin 128) :
    (StableHlo.after (hostOps1 (F := Ideal)) W (Proc.devRef .tc main_v21) : FVec Ideal S1x128 .f32) (ix2 (0 : Fin 1) q)
      = (W (Proc.devRef .tc main_arg7) : FVec Ideal S128 .f32) (ix1 q) := by
  have e : (StableHlo.after (hostOps1 (F := Ideal)) W (Proc.devRef .tc main_v21) : FVec Ideal S1x128 .f32)
      = shapeCast S1x128 (W (Proc.devRef .tc main_arg7) : FVec Ideal S128 .f32) shapeCasts_S128_S1x128 := by
    after_results
    rfl
  rw [e]
  exact shapeCast_a_1a_apply _ _ _ _

/-- The stretch does not write the pre-activation. -/
theorem host1_keep_y :
    StableHlo.after (hostOps1 (F := Ideal)) W (Proc.devRef .tc main_v13_0) = W (Proc.devRef .tc main_v13_0) :=
  StableHlo.after_of_forall_not_mem (b := Proc.devRef .tc main_v13_0) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the batch-norm region of GIN layer 2

The column sums `s` and the column sums of squares `t` of the layer's pre-activation are divided by the row count
`n` (kept as its float word): the mean is `s / n` and the variance `t / n - (s / n) * (s / n)`. The scale and the shift
are row 0 of the stacked argument matrices, seen as one-row matrices. -/

/-- The mean: the column sum over the row count. -/
theorem host3_mean_at (q : Fin 128) :
    (StableHlo.after (hostOps3 (F := Ideal)) W (Proc.devRef .tc main_v42) : FVec Ideal S1x128 .f32) (ix2 (0 : Fin 1) q)
      = Ideal.div ((W (Proc.devRef .tc main_v40_1) : FVec Ideal S1x128 .f32) (ix2 (0 : Fin 1) q)) (Ideal.ofBits .f32 0x47C35000#32) := by
  have e : (StableHlo.after (hostOps3 (F := Ideal)) W (Proc.devRef .tc main_v42) : FVec Ideal S1x128 .f32)
      = Host.divf (W (Proc.devRef .tc main_v40_1)) (broadcastInDim S1x128 ![] bcast_S_S1x128 (constant (F := Ideal) S_ .f32 0x47C35000#32)) := by
    after_results
  rw [e]
  rfl

/-- The variance: the mean of the squares less the square of the mean. -/
theorem host3_var_at (q : Fin 128) :
    (StableHlo.after (hostOps3 (F := Ideal)) W (Proc.devRef .tc main_v46) : FVec Ideal S1x128 .f32) (ix2 (0 : Fin 1) q)
      = Ideal.div ((W (Proc.devRef .tc main_v40_2) : FVec Ideal S1x128 .f32) (ix2 (0 : Fin 1) q)) (Ideal.ofBits .f32 0x47C35000#32)
        - Ideal.div ((W (Proc.devRef .tc main_v40_1) : FVec Ideal S1x128 .f32) (ix2 (0 : Fin 1) q)) (Ideal.ofBits .f32 0x47C35000#32)
          * Ideal.div ((W (Proc.devRef .tc main_v40_1) : FVec Ideal S1x128 .f32) (ix2 (0 : Fin 1) q)) (Ideal.ofBits .f32 0x47C35000#32) := by
  have e : (StableHlo.after (hostOps3 (F := Ideal)) W (Proc.devRef .tc main_v46) : FVec Ideal S1x128 .f32)
      = subf (Host.divf (W (Proc.devRef .tc main_v40_2)) (broadcastInDim S1x128 ![] bcast_S_S1x128 (constant (F := Ideal) S_ .f32 0x47C35000#32)))
          (mulf (Host.divf (W (Proc.devRef .tc main_v40_1)) (broadcastInDim S1x128 ![] bcast_S_S1x128 (constant (F := Ideal) S_ .f32 0x47C35000#32)))
            (Host.divf (W (Proc.devRef .tc main_v40_1)) (broadcastInDim S1x128 ![] bcast_S_S1x128 (constant (F := Ideal) S_ .f32 0x47C35000#32)))) := by
    after_results
  rw [e]
  rfl

/-- The scale: row 0 of the stacked argument. -/
theorem host3_gamma_at (q : Fin 128) :
    (StableHlo.after (hostOps3 (F := Ideal)) W (Proc.devRef .tc main_v51) : FVec Ideal S1x128 .f32) (ix2 (0 : Fin 1) q)
      = (W (Proc.devRef .tc main_arg10) : FVec Ideal S4x128 .f32) (ix2 (0 : Fin 4) q) := by
  have e : (StableHlo.after (hostOps3 (F := Ideal)) W (Proc.devRef .tc main_v51) : FVec Ideal S1x128 .f32)
      = shapeCast S1x128 (shapeCast S128 (extractStridedSlice S1x128 ![0, 0] (W (Proc.devRef .tc main_arg10) : FVec Ideal S4x128 .f32) slices_S4x128_S1x128_0_0)
          shapeCasts_S1x128_S128) shapeCasts_S128_S1x128 := by
    after_results
    rfl
  rw [e]
  exact (shapeCast_a_1a_apply _ _ _ _).trans ((shapeCast_1a_a_apply _ _ _).trans
    (slice2_axis0_apply 0 _ _ (0 : Fin 1) q (0 : Fin 4) rfl))

/-- The shift: row 0 of the stacked argument. -/
theorem host3_beta_at (q : Fin 128) :
    (StableHlo.after (hostOps3 (F := Ideal)) W (Proc.devRef .tc main_v52) : FVec Ideal S1x128 .f32) (ix2 (0 : Fin 1) q)
      = (W (Proc.devRef .tc main_arg11) : FVec Ideal S4x128 .f32) (ix2 (0 : Fin 4) q) := by
  have e : (StableHlo.after (hostOps3 (F := Ideal)) W (Proc.devRef .tc main_v52) : FVec Ideal S1x128 .f32)
      = shapeCast S1x128 (shapeCast S128 (extractStridedSlice S1x128 ![0, 0] (W (Proc.devRef .tc main_arg11) : FVec Ideal S4x128 .f32) slices_S4x128_S1x128_0_0)
          shapeCasts_S1x128_S128) shapeCasts_S128_S1x128 := by
    after_results
    rfl
  rw [e]
  exact (shapeCast_a_1a_apply _ _ _ _).trans ((shapeCast_1a_a_apply _ _ _).trans
    (slice2_axis0_apply 0 _ _ (0 : Fin 1) q (0 : Fin 4) rfl))

/-- The stretch does not write the pre-activation. -/
theorem host3_keep_y :
    StableHlo.after (hostOps3 (F := Ideal)) W (Proc.devRef .tc main_v40_0) = W (Proc.devRef .tc main_v40_0) :=
  StableHlo.after_of_forall_not_mem (b := Proc.devRef .tc main_v40_0) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the batch-norm region of GIN layer 3

The column sums `s` and the column sums of squares `t` of the layer's pre-activation are divided by the row count
`n` (kept as its float word): the mean is `s / n` and the variance `t / n - (s / n) * (s / n)`. The scale and the shift
are row 1 of the stacked argument matrices, seen as one-row matrices. -/

/-- The mean: the column sum over the row count. -/
theorem host5_mean_at (q : Fin 128) :
    (StableHlo.after (hostOps5 (F := Ideal)) W (Proc.devRef .tc main_v73) : FVec Ideal S1x128 .f32) (ix2 (0 : Fin 1) q)
      = Ideal.div ((W (Proc.devRef .tc main_v71_1) : FVec Ideal S1x128 .f32) (ix2 (0 : Fin 1) q)) (Ideal.ofBits .f32 0x47C35000#32) := by
  have e : (StableHlo.after (hostOps5 (F := Ideal)) W (Proc.devRef .tc main_v73) : FVec Ideal S1x128 .f32)
      = Host.divf (W (Proc.devRef .tc main_v71_1)) (broadcastInDim S1x128 ![] bcast_S_S1x128 (constant (F := Ideal) S_ .f32 0x47C35000#32)) := by
    after_results
  rw [e]
  rfl

/-- The variance: the mean of the squares less the square of the mean. -/
theorem host5_var_at (q : Fin 128) :
    (StableHlo.after (hostOps5 (F := Ideal)) W (Proc.devRef .tc main_v77) : FVec Ideal S1x128 .f32) (ix2 (0 : Fin 1) q)
      = Ideal.div ((W (Proc.devRef .tc main_v71_2) : FVec Ideal S1x128 .f32) (ix2 (0 : Fin 1) q)) (Ideal.ofBits .f32 0x47C35000#32)
        - Ideal.div ((W (Proc.devRef .tc main_v71_1) : FVec Ideal S1x128 .f32) (ix2 (0 : Fin 1) q)) (Ideal.ofBits .f32 0x47C35000#32)
          * Ideal.div ((W (Proc.devRef .tc main_v71_1) : FVec Ideal S1x128 .f32) (ix2 (0 : Fin 1) q)) (Ideal.ofBits .f32 0x47C35000#32) := by
  have e : (StableHlo.after (hostOps5 (F := Ideal)) W (Proc.devRef .tc main_v77) : FVec Ideal S1x128 .f32)
      = subf (Host.divf (W (Proc.devRef .tc main_v71_2)) (broadcastInDim S1x128 ![] bcast_S_S1x128 (constant (F := Ideal) S_ .f32 0x47C35000#32)))
          (mulf (Host.divf (W (Proc.devRef .tc main_v71_1)) (broadcastInDim S1x128 ![] bcast_S_S1x128 (constant (F := Ideal) S_ .f32 0x47C35000#32)))
            (Host.divf (W (Proc.devRef .tc main_v71_1)) (broadcastInDim S1x128 ![] bcast_S_S1x128 (constant (F := Ideal) S_ .f32 0x47C35000#32)))) := by
    after_results
  rw [e]
  rfl

/-- The scale: row 1 of the stacked argument. -/
theorem host5_gamma_at (q : Fin 128) :
    (StableHlo.after (hostOps5 (F := Ideal)) W (Proc.devRef .tc main_v82) : FVec Ideal S1x128 .f32) (ix2 (0 : Fin 1) q)
      = (W (Proc.devRef .tc main_arg10) : FVec Ideal S4x128 .f32) (ix2 (1 : Fin 4) q) := by
  have e : (StableHlo.after (hostOps5 (F := Ideal)) W (Proc.devRef .tc main_v82) : FVec Ideal S1x128 .f32)
      = shapeCast S1x128 (shapeCast S128 (extractStridedSlice S1x128 ![1, 0] (W (Proc.devRef .tc main_arg10) : FVec Ideal S4x128 .f32) slices_S4x128_S1x128_1_0)
          shapeCasts_S1x128_S128) shapeCasts_S128_S1x128 := by
    after_results
    rfl
  rw [e]
  exact (shapeCast_a_1a_apply _ _ _ _).trans ((shapeCast_1a_a_apply _ _ _).trans
    (slice2_axis0_apply 1 _ _ (0 : Fin 1) q (1 : Fin 4) rfl))

/-- The shift: row 1 of the stacked argument. -/
theorem host5_beta_at (q : Fin 128) :
    (StableHlo.after (hostOps5 (F := Ideal)) W (Proc.devRef .tc main_v83) : FVec Ideal S1x128 .f32) (ix2 (0 : Fin 1) q)
      = (W (Proc.devRef .tc main_arg11) : FVec Ideal S4x128 .f32) (ix2 (1 : Fin 4) q) := by
  have e : (StableHlo.after (hostOps5 (F := Ideal)) W (Proc.devRef .tc main_v83) : FVec Ideal S1x128 .f32)
      = shapeCast S1x128 (shapeCast S128 (extractStridedSlice S1x128 ![1, 0] (W (Proc.devRef .tc main_arg11) : FVec Ideal S4x128 .f32) slices_S4x128_S1x128_1_0)
          shapeCasts_S1x128_S128) shapeCasts_S128_S1x128 := by
    after_results
    rfl
  rw [e]
  exact (shapeCast_a_1a_apply _ _ _ _).trans ((shapeCast_1a_a_apply _ _ _).trans
    (slice2_axis0_apply 1 _ _ (0 : Fin 1) q (1 : Fin 4) rfl))

/-- The stretch does not write the pre-activation. -/
theorem host5_keep_y :
    StableHlo.after (hostOps5 (F := Ideal)) W (Proc.devRef .tc main_v71_0) = W (Proc.devRef .tc main_v71_0) :=
  StableHlo.after_of_forall_not_mem (b := Proc.devRef .tc main_v71_0) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KHostD.lean ====
/-
  The host operations between the regions of the idealized kernel program, read at an index: the stretches before the matmul regions of GIN layers 1 and 2, and the neighbour sum itself.

  Every statement is generic in the valuation `W` of the buffers when the stretch starts. Before a GIN layer's matmul
  region the host forms the neighbour sum of the layer's input over the edge list (kept as ONE closed function of the
  input and the two edge-index vectors: the gather and the scatter-add are never opened), takes the layer's slab of
  the stacked weights, and doubles the layer's bias row, the factor two staying the float word it is printed as.
-/
import proofs.«132586_j38087769981032_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-- The neighbour sum of a `[100000, 78]` feature matrix over the edge list: a source index below zero is wrapped by
adding the node count, the source rows are gathered edge by edge, and each gathered row is added into the row of an
all-zero matrix named by the edge's destination. The gather and the scatter-add stay closed operations here. -/
def aggOf78 (x : FVec Ideal S100000x78 .f32) (src dst : IVec S1600000 32) : FVec Ideal S100000x78 .f32 :=
  Host.scatterAdd scatter_S100000x78_S1600000x1_S1600000x78_1_0_0_1
    (broadcastInDim S100000x78 ![] bcast_S_S100000x78 (constant (F := Ideal) S_ .f32 0x00000000#32))
    (broadcastInDim S1600000x1 ![0] bcast_S1600000_S1600000x1_0 dst)
    (Host.gather gather_S100000x78_S1600000x1_S1600000x78_1_0_n_n_0_1_178 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The neighbour sum of a `[100000, 128]` feature matrix over the edge list: a source index below zero is wrapped by
adding the node count, the source rows are gathered edge by edge, and each gathered row is added into the row of an
all-zero matrix named by the edge's destination. The gather and the scatter-add stay closed operations here. -/
def aggOf128 (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-! ## The stretch before the matmul region of GIN layer 1 -/

/-- The aggregate buffer holds the neighbour sum of the layer's input over the edge list. -/
theorem host0_agg_eq :
    (StableHlo.after (hostOps0 (F := Ideal)) W (Proc.devRef .tc main_v9) : FVec Ideal S100000x78 .f32)
      = aggOf78 (W (Proc.devRef .tc main_arg0) : FVec Ideal S100000x78 .f32) (W (Proc.devRef .tc main_arg1)) (W (Proc.devRef .tc main_arg2)) := by
  unfold aggOf78
  after_results_simp

/-- The doubled bias: twice the argument vector's entry. -/
theorem host0_b2_at (q : Fin 128) :
    (StableHlo.after (hostOps0 (F := Ideal)) W (Proc.devRef .tc main_v12) : FVec Ideal S1x128 .f32) (ix2 (0 : Fin 1) q)
      = (Ideal.ofBits .f32 0x40000000#32) * (W (Proc.devRef .tc main_arg5) : FVec Ideal S128 .f32) (ix1 q) := by
  have e : (StableHlo.after (hostOps0 (F := Ideal)) W (Proc.devRef .tc main_v12) : FVec Ideal S1x128 .f32)
      = shapeCast S1x128 (mulf (broadcastInDim S128 ![] bcast_S_S128 (constant (F := Ideal) S_ .f32 0x40000000#32))
          (W (Proc.devRef .tc main_arg5) : FVec Ideal S128 .f32)) shapeCasts_S128_S1x128 := by
    after_results
    rfl
  rw [e]
  exact (shapeCast_a_1a_apply _ _ _ _).trans rfl

/-- The stretch does not write the layer's input. -/
theorem host0_keep_x :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The stretch does not write the layer's weights. -/
theorem host0_keep_w :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the matmul region of GIN layer 2 -/

/-- The aggregate buffer holds the neighbour sum of the layer's input over the edge list. -/
theorem host2_agg_eq :
    (StableHlo.after (hostOps2 (F := Ideal)) W (Proc.devRef .tc main_v32) : FVec Ideal S100000x128 .f32)
      = aggOf128 (W (Proc.devRef .tc main_v22) : FVec Ideal S100000x128 .f32) (W (Proc.devRef .tc main_arg1)) (W (Proc.devRef .tc main_arg2)) := by
  unfold aggOf128
  after_results_simp

/-- The weights: slab 0 of the stacked weight argument. -/
theorem host2_w_at (k q : Fin 128) :
    (StableHlo.after (hostOps2 (F := Ideal)) W (Proc.devRef .tc main_v34) : FVec Ideal S128x128 .f32) (ix2 k q)
      = (W (Proc.devRef .tc main_arg8) : FVec Ideal S4x128x128 .f32) (ix3 (0 : Fin 4) k q) := by
  have e : (StableHlo.after (hostOps2 (F := Ideal)) W (Proc.devRef .tc main_v34) : FVec Ideal S128x128 .f32)
      = shapeCast S128x128 (extractStridedSlice S1x128x128 ![0, 0, 0] (W (Proc.devRef .tc main_arg8) : FVec Ideal S4x128x128 .f32)
          slices_S4x128x128_S1x128x128_0_0_0) shapeCasts_S1x128x128_S128x128 := by
    after_results
    rfl
  rw [e]
  exact (shapeCast_1ab_ab_apply _ _ _ _).trans
    (extractStridedSlice_apply _ _ _ _ _ (fun ax => by
      match ax with
      | ⟨0, _⟩ => rfl
      | ⟨1, _⟩ => exact (Nat.zero_add _).symm
      | ⟨2, _⟩ => exact (Nat.zero_add _).symm))

/-- The doubled bias: twice row 0 of the stacked bias argument. -/
theorem host2_b2_at (q : Fin 128) :
    (StableHlo.after (hostOps2 (F := Ideal)) W (Proc.devRef .tc main_v39) : FVec Ideal S1x128 .f32) (ix2 (0 : Fin 1) q)
      = (Ideal.ofBits .f32 0x40000000#32) * (W (Proc.devRef .tc main_arg9) : FVec Ideal S4x128 .f32) (ix2 (0 : Fin 4) q) := by
  have e : (StableHlo.after (hostOps2 (F := Ideal)) W (Proc.devRef .tc main_v39) : FVec Ideal S1x128 .f32)
      = shapeCast S1x128 (mulf (broadcastInDim S128 ![] bcast_S_S128 (constant (F := Ideal) S_ .f32 0x40000000#32))
          (shapeCast S128 (extractStridedSlice S1x128 ![0, 0] (W (Proc.devRef .tc main_arg9) : FVec Ideal S4x128 .f32) slices_S4x128_S1x128_0_0)
            shapeCasts_S1x128_S128)) shapeCasts_S128_S1x128 := by
    after_results
    rfl
  rw [e]
  refine (shapeCast_a_1a_apply _ _ _ _).trans ?_
  show (Ideal.ofBits .f32 0x40000000#32) * _ = _
  exact congrArg ((Ideal.ofBits .f32 0x40000000#32) * ·) ((shapeCast_1a_a_apply _ _ _).trans
    (slice2_axis0_apply 0 _ _ (0 : Fin 1) q (0 : Fin 4) rfl))

/-- The stretch does not write the layer's input. -/
theorem host2_keep_x :
    StableHlo.after (hostOps2 (F := Ideal)) W (Proc.devRef .tc main_v22) = W (Proc.devRef .tc main_v22) :=
  StableHlo.after_of_forall_not_mem (b := Proc.devRef .tc main_v22) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KArgs.lean ====
/- Every argument array as each segment boundary finds it is the array as launched: a stretch of host operations
   writes only its own results, and a region writes only its output windows, so no segment touches an argument. One fact
   per argument and boundary, each from the one before it, up to the last boundary at which the argument is read. -/
import proofs.«132586_j38087769981032_1_alg».proof.Proof.Gen.KernelIdeal.Frame

set_option maxRecDepth 16384

noncomputable section

namespace Cert.KernelIdeal.KArgs

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it found it. -/
macro "host_keep" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Argument 0 -/
theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (by host_keep hostOps0 : W1 m ρ c (Proc.devRef .tc main_arg0) = W0 m ρ c (Proc.devRef .tc main_arg0)).trans (W0_arg0 m ρ c)

/-! ## Argument 1 -/
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (by host_keep hostOps0 : W1 m ρ c (Proc.devRef .tc main_arg1) = W0 m ρ c (Proc.devRef .tc main_arg1)).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (by host_keep hostOps1 : W3 m ρ c (Proc.devRef .tc main_arg1) = W2 m ρ c (Proc.devRef .tc main_arg1)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (by host_keep hostOps2 : W5 m ρ c (Proc.devRef .tc main_arg1) = W4 m ρ c (Proc.devRef .tc main_arg1)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (by host_keep hostOps3 : W7 m ρ c (Proc.devRef .tc main_arg1) = W6 m ρ c (Proc.devRef .tc main_arg1)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (by host_keep hostOps4 : W9 m ρ c (Proc.devRef .tc main_arg1) = W8 m ρ c (Proc.devRef .tc main_arg1)).trans (W8_arg1 m ρ c)
theorem W10_arg1 (c : Dev nD) : W10 m ρ c (Proc.devRef .tc main_arg1) = m ((c : Thread nD τ).loc main_arg1) :=
  (W10_of_ne m ρ c main_arg1 (by decide)).trans (W9_arg1 m ρ c)
theorem W11_arg1 (c : Dev nD) : W11 m ρ c (Proc.devRef .tc main_arg1) = m ((c : Thread nD τ).loc main_arg1) :=
  (by host_keep hostOps5 : W11 m ρ c (Proc.devRef .tc main_arg1) = W10 m ρ c (Proc.devRef .tc main_arg1)).trans (W10_arg1 m ρ c)
theorem W12_arg1 (c : Dev nD) : W12 m ρ c (Proc.devRef .tc main_arg1) = m ((c : Thread nD τ).loc main_arg1) :=
  (W12_of_ne m ρ c main_arg1 (by decide)).trans (W11_arg1 m ρ c)
theorem W13_arg1 (c : Dev nD) : W13 m ρ c (Proc.devRef .tc main_arg1) = m ((c : Thread nD τ).loc main_arg1) :=
  (by host_keep hostOps6 : W13 m ρ c (Proc.devRef .tc main_arg1) = W12 m ρ c (Proc.devRef .tc main_arg1)).trans (W12_arg1 m ρ c)
theorem W14_arg1 (c : Dev nD) : W14 m ρ c (Proc.devRef .tc main_arg1) = m ((c : Thread nD τ).loc main_arg1) :=
  (W14_of_ne m ρ c main_arg1 (by decide)).trans (W13_arg1 m ρ c)
theorem W15_arg1 (c : Dev nD) : W15 m ρ c (Proc.devRef .tc main_arg1) = m ((c : Thread nD τ).loc main_arg1) :=
  (by host_keep hostOps7 : W15 m ρ c (Proc.devRef .tc main_arg1) = W14 m ρ c (Proc.devRef .tc main_arg1)).trans (W14_arg1 m ρ c)
theorem W16_arg1 (c : Dev nD) : W16 m ρ c (Proc.devRef .tc main_arg1) = m ((c : Thread nD τ).loc main_arg1) :=
  (W16_of_ne m ρ c main_arg1 (by decide)).trans (W15_arg1 m ρ c)

/-! ## Argument 2 -/
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (by host_keep hostOps0 : W1 m ρ c (Proc.devRef .tc main_arg2) = W0 m ρ c (Proc.devRef .tc main_arg2)).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (by host_keep hostOps1 : W3 m ρ c (Proc.devRef .tc main_arg2) = W2 m ρ c (Proc.devRef .tc main_arg2)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (by host_keep hostOps2 : W5 m ρ c (Proc.devRef .tc main_arg2) = W4 m ρ c (Proc.devRef .tc main_arg2)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (by host_keep hostOps3 : W7 m ρ c (Proc.devRef .tc main_arg2) = W6 m ρ c (Proc.devRef .tc main_arg2)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (by host_keep hostOps4 : W9 m ρ c (Proc.devRef .tc main_arg2) = W8 m ρ c (Proc.devRef .tc main_arg2)).trans (W8_arg2 m ρ c)
theorem W10_arg2 (c : Dev nD) : W10 m ρ c (Proc.devRef .tc main_arg2) = m ((c : Thread nD τ).loc main_arg2) :=
  (W10_of_ne m ρ c main_arg2 (by decide)).trans (W9_arg2 m ρ c)
theorem W11_arg2 (c : Dev nD) : W11 m ρ c (Proc.devRef .tc main_arg2) = m ((c : Thread nD τ).loc main_arg2) :=
  (by host_keep hostOps5 : W11 m ρ c (Proc.devRef .tc main_arg2) = W10 m ρ c (Proc.devRef .tc main_arg2)).trans (W10_arg2 m ρ c)
theorem W12_arg2 (c : Dev nD) : W12 m ρ c (Proc.devRef .tc main_arg2) = m ((c : Thread nD τ).loc main_arg2) :=
  (W12_of_ne m ρ c main_arg2 (by decide)).trans (W11_arg2 m ρ c)
theorem W13_arg2 (c : Dev nD) : W13 m ρ c (Proc.devRef .tc main_arg2) = m ((c : Thread nD τ).loc main_arg2) :=
  (by host_keep hostOps6 : W13 m ρ c (Proc.devRef .tc main_arg2) = W12 m ρ c (Proc.devRef .tc main_arg2)).trans (W12_arg2 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W15_arg2 (c : Dev nD) : W15 m ρ c (Proc.devRef .tc main_arg2) = m ((c : Thread nD τ).loc main_arg2) :=
  (by host_keep hostOps7 : W15 m ρ c (Proc.devRef .tc main_arg2) = W14 m ρ c (Proc.devRef .tc main_arg2)).trans (W14_arg2 m ρ c)
theorem W16_arg2 (c : Dev nD) : W16 m ρ c (Proc.devRef .tc main_arg2) = m ((c : Thread nD τ).loc main_arg2) :=
  (W16_of_ne m ρ c main_arg2 (by decide)).trans (W15_arg2 m ρ c)

/-! ## Argument 3 -/
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (by host_keep hostOps0 : W1 m ρ c (Proc.devRef .tc main_arg3) = W0 m ρ c (Proc.devRef .tc main_arg3)).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (by host_keep hostOps1 : W3 m ρ c (Proc.devRef .tc main_arg3) = W2 m ρ c (Proc.devRef .tc main_arg3)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (by host_keep hostOps2 : W5 m ρ c (Proc.devRef .tc main_arg3) = W4 m ρ c (Proc.devRef .tc main_arg3)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (by host_keep hostOps3 : W7 m ρ c (Proc.devRef .tc main_arg3) = W6 m ρ c (Proc.devRef .tc main_arg3)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (by host_keep hostOps4 : W9 m ρ c (Proc.devRef .tc main_arg3) = W8 m ρ c (Proc.devRef .tc main_arg3)).trans (W8_arg3 m ρ c)
theorem W10_arg3 (c : Dev nD) : W10 m ρ c (Proc.devRef .tc main_arg3) = m ((c : Thread nD τ).loc main_arg3) :=
  (W10_of_ne m ρ c main_arg3 (by decide)).trans (W9_arg3 m ρ c)
theorem W11_arg3 (c : Dev nD) : W11 m ρ c (Proc.devRef .tc main_arg3) = m ((c : Thread nD τ).loc main_arg3) :=
  (by host_keep hostOps5 : W11 m ρ c (Proc.devRef .tc main_arg3) = W10 m ρ c (Proc.devRef .tc main_arg3)).trans (W10_arg3 m ρ c)
theorem W12_arg3 (c : Dev nD) : W12 m ρ c (Proc.devRef .tc main_arg3) = m ((c : Thread nD τ).loc main_arg3) :=
  (W12_of_ne m ρ c main_arg3 (by decide)).trans (W11_arg3 m ρ c)
theorem W13_arg3 (c : Dev nD) : W13 m ρ c (Proc.devRef .tc main_arg3) = m ((c : Thread nD τ).loc main_arg3) :=
  (by host_keep hostOps6 : W13 m ρ c (Proc.devRef .tc main_arg3) = W12 m ρ c (Proc.devRef .tc main_arg3)).trans (W12_arg3 m ρ c)
theorem W14_arg3 (c : Dev nD) : W14 m ρ c (Proc.devRef .tc main_arg3) = m ((c : Thread nD τ).loc main_arg3) :=
  (W14_of_ne m ρ c main_arg3 (by decide)).trans (W13_arg3 m ρ c)
theorem W15_arg3 (c : Dev nD) : W15 m ρ c (Proc.devRef .tc main_arg3) = m ((c : Thread nD τ).loc main_arg3) :=
  (by host_keep hostOps7 : W15 m ρ c (Proc.devRef .tc main_arg3) = W14 m ρ c (Proc.devRef .tc main_arg3)).trans (W14_arg3 m ρ c)
theorem W16_arg3 (c : Dev nD) : W16 m ρ c (Proc.devRef .tc main_arg3) = m ((c : Thread nD τ).loc main_arg3) :=
  (W16_of_ne m ρ c main_arg3 (by decide)).trans (W15_arg3 m ρ c)
theorem W17_arg3 (c : Dev nD) : W17 m ρ c (Proc.devRef .tc main_arg3) = m ((c : Thread nD τ).loc main_arg3) :=
  (by host_keep hostOps8 : W17 m ρ c (Proc.devRef .tc main_arg3) = W16 m ρ c (Proc.devRef .tc main_arg3)).trans (W16_arg3 m ρ c)
theorem W18_arg3 (c : Dev nD) : W18 m ρ c (Proc.devRef .tc main_arg3) = m ((c : Thread nD τ).loc main_arg3) :=
  (W18_of_ne m ρ c main_arg3 (by decide)).trans (W17_arg3 m ρ c)
theorem W19_arg3 (c : Dev nD) : W19 m ρ c (Proc.devRef .tc main_arg3) = m ((c : Thread nD τ).loc main_arg3) :=
  (by host_keep hostOps9 : W19 m ρ c (Proc.devRef .tc main_arg3) = W18 m ρ c (Proc.devRef .tc main_arg3)).trans (W18_arg3 m ρ c)
theorem W20_arg3 (c : Dev nD) : W20 m ρ c (Proc.devRef .tc main_arg3) = m ((c : Thread nD τ).loc main_arg3) :=
  (W20_of_ne m ρ c main_arg3 (by decide)).trans (W19_arg3 m ρ c)

/-! ## Argument 4 -/
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (by host_keep hostOps0 : W1 m ρ c (Proc.devRef .tc main_arg4) = W0 m ρ c (Proc.devRef .tc main_arg4)).trans (W0_arg4 m ρ c)

/-! ## Argument 6 -/
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (by host_keep hostOps0 : W1 m ρ c (Proc.devRef .tc main_arg6) = W0 m ρ c (Proc.devRef .tc main_arg6)).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Argument 7 -/
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (by host_keep hostOps0 : W1 m ρ c (Proc.devRef .tc main_arg7) = W0 m ρ c (Proc.devRef .tc main_arg7)).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## Argument 8 -/
theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (by host_keep hostOps0 : W1 m ρ c (Proc.devRef .tc main_arg8) = W0 m ρ c (Proc.devRef .tc main_arg8)).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (by host_keep hostOps1 : W3 m ρ c (Proc.devRef .tc main_arg8) = W2 m ρ c (Proc.devRef .tc main_arg8)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (by host_keep hostOps2 : W5 m ρ c (Proc.devRef .tc main_arg8) = W4 m ρ c (Proc.devRef .tc main_arg8)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (by host_keep hostOps3 : W7 m ρ c (Proc.devRef .tc main_arg8) = W6 m ρ c (Proc.devRef .tc main_arg8)).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (by host_keep hostOps4 : W9 m ρ c (Proc.devRef .tc main_arg8) = W8 m ρ c (Proc.devRef .tc main_arg8)).trans (W8_arg8 m ρ c)
theorem W10_arg8 (c : Dev nD) : W10 m ρ c (Proc.devRef .tc main_arg8) = m ((c : Thread nD τ).loc main_arg8) :=
  (W10_of_ne m ρ c main_arg8 (by decide)).trans (W9_arg8 m ρ c)
theorem W11_arg8 (c : Dev nD) : W11 m ρ c (Proc.devRef .tc main_arg8) = m ((c : Thread nD τ).loc main_arg8) :=
  (by host_keep hostOps5 : W11 m ρ c (Proc.devRef .tc main_arg8) = W10 m ρ c (Proc.devRef .tc main_arg8)).trans (W10_arg8 m ρ c)
theorem W12_arg8 (c : Dev nD) : W12 m ρ c (Proc.devRef .tc main_arg8) = m ((c : Thread nD τ).loc main_arg8) :=
  (W12_of_ne m ρ c main_arg8 (by decide)).trans (W11_arg8 m ρ c)
theorem W13_arg8 (c : Dev nD) : W13 m ρ c (Proc.devRef .tc main_arg8) = m ((c : Thread nD τ).loc main_arg8) :=
  (by host_keep hostOps6 : W13 m ρ c (Proc.devRef .tc main_arg8) = W12 m ρ c (Proc.devRef .tc main_arg8)).trans (W12_arg8 m ρ c)
theorem W14_arg8 (c : Dev nD) : W14 m ρ c (Proc.devRef .tc main_arg8) = m ((c : Thread nD τ).loc main_arg8) :=
  (W14_of_ne m ρ c main_arg8 (by decide)).trans (W13_arg8 m ρ c)
theorem W15_arg8 (c : Dev nD) : W15 m ρ c (Proc.devRef .tc main_arg8) = m ((c : Thread nD τ).loc main_arg8) :=
  (by host_keep hostOps7 : W15 m ρ c (Proc.devRef .tc main_arg8) = W14 m ρ c (Proc.devRef .tc main_arg8)).trans (W14_arg8 m ρ c)
theorem W16_arg8 (c : Dev nD) : W16 m ρ c (Proc.devRef .tc main_arg8) = m ((c : Thread nD τ).loc main_arg8) :=
  (W16_of_ne m ρ c main_arg8 (by decide)).trans (W15_arg8 m ρ c)

/-! ## Argument 9 -/
theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) :=
  (by host_keep hostOps0 : W1 m ρ c (Proc.devRef .tc main_arg9) = W0 m ρ c (Proc.devRef .tc main_arg9)).trans (W0_arg9 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (by host_keep hostOps1 : W3 m ρ c (Proc.devRef .tc main_arg9) = W2 m ρ c (Proc.devRef .tc main_arg9)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (by host_keep hostOps2 : W5 m ρ c (Proc.devRef .tc main_arg9) = W4 m ρ c (Proc.devRef .tc main_arg9)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (by host_keep hostOps3 : W7 m ρ c (Proc.devRef .tc main_arg9) = W6 m ρ c (Proc.devRef .tc main_arg9)).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (by host_keep hostOps4 : W9 m ρ c (Proc.devRef .tc main_arg9) = W8 m ρ c (Proc.devRef .tc main_arg9)).trans (W8_arg9 m ρ c)
theorem W10_arg9 (c : Dev nD) : W10 m ρ c (Proc.devRef .tc main_arg9) = m ((c : Thread nD τ).loc main_arg9) :=
  (W10_of_ne m ρ c main_arg9 (by decide)).trans (W9_arg9 m ρ c)
theorem W11_arg9 (c : Dev nD) : W11 m ρ c (Proc.devRef .tc main_arg9) = m ((c : Thread nD τ).loc main_arg9) :=
  (by host_keep hostOps5 : W11 m ρ c (Proc.devRef .tc main_arg9) = W10 m ρ c (Proc.devRef .tc main_arg9)).trans (W10_arg9 m ρ c)
theorem W12_arg9 (c : Dev nD) : W12 m ρ c (Proc.devRef .tc main_arg9) = m ((c : Thread nD τ).loc main_arg9) :=
  (W12_of_ne m ρ c main_arg9 (by decide)).trans (W11_arg9 m ρ c)
theorem W13_arg9 (c : Dev nD) : W13 m ρ c (Proc.devRef .tc main_arg9) = m ((c : Thread nD τ).loc main_arg9) :=
  (by host_keep hostOps6 : W13 m ρ c (Proc.devRef .tc main_arg9) = W12 m ρ c (Proc.devRef .tc main_arg9)).trans (W12_arg9 m ρ c)
theorem W14_arg9 (c : Dev nD) : W14 m ρ c (Proc.devRef .tc main_arg9) = m ((c : Thread nD τ).loc main_arg9) :=
  (W14_of_ne m ρ c main_arg9 (by decide)).trans (W13_arg9 m ρ c)
theorem W15_arg9 (c : Dev nD) : W15 m ρ c (Proc.devRef .tc main_arg9) = m ((c : Thread nD τ).loc main_arg9) :=
  (by host_keep hostOps7 : W15 m ρ c (Proc.devRef .tc main_arg9) = W14 m ρ c (Proc.devRef .tc main_arg9)).trans (W14_arg9 m ρ c)
theorem W16_arg9 (c : Dev nD) : W16 m ρ c (Proc.devRef .tc main_arg9) = m ((c : Thread nD τ).loc main_arg9) :=
  (W16_of_ne m ρ c main_arg9 (by decide)).trans (W15_arg9 m ρ c)

/-! ## Argument 10 -/
theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) :=
  (by host_keep hostOps0 : W1 m ρ c (Proc.devRef .tc main_arg10) = W0 m ρ c (Proc.devRef .tc main_arg10)).trans (W0_arg10 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (by host_keep hostOps1 : W3 m ρ c (Proc.devRef .tc main_arg10) = W2 m ρ c (Proc.devRef .tc main_arg10)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (by host_keep hostOps2 : W5 m ρ c (Proc.devRef .tc main_arg10) = W4 m ρ c (Proc.devRef .tc main_arg10)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (by host_keep hostOps3 : W7 m ρ c (Proc.devRef .tc main_arg10) = W6 m ρ c (Proc.devRef .tc main_arg10)).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (by host_keep hostOps4 : W9 m ρ c (Proc.devRef .tc main_arg10) = W8 m ρ c (Proc.devRef .tc main_arg10)).trans (W8_arg10 m ρ c)
theorem W10_arg10 (c : Dev nD) : W10 m ρ c (Proc.devRef .tc main_arg10) = m ((c : Thread nD τ).loc main_arg10) :=
  (W10_of_ne m ρ c main_arg10 (by decide)).trans (W9_arg10 m ρ c)
theorem W11_arg10 (c : Dev nD) : W11 m ρ c (Proc.devRef .tc main_arg10) = m ((c : Thread nD τ).loc main_arg10) :=
  (by host_keep hostOps5 : W11 m ρ c (Proc.devRef .tc main_arg10) = W10 m ρ c (Proc.devRef .tc main_arg10)).trans (W10_arg10 m ρ c)
theorem W12_arg10 (c : Dev nD) : W12 m ρ c (Proc.devRef .tc main_arg10) = m ((c : Thread nD τ).loc main_arg10) :=
  (W12_of_ne m ρ c main_arg10 (by decide)).trans (W11_arg10 m ρ c)
theorem W13_arg10 (c : Dev nD) : W13 m ρ c (Proc.devRef .tc main_arg10) = m ((c : Thread nD τ).loc main_arg10) :=
  (by host_keep hostOps6 : W13 m ρ c (Proc.devRef .tc main_arg10) = W12 m ρ c (Proc.devRef .tc main_arg10)).trans (W12_arg10 m ρ c)
theorem W14_arg10 (c : Dev nD) : W14 m ρ c (Proc.devRef .tc main_arg10) = m ((c : Thread nD τ).loc main_arg10) :=
  (W14_of_ne m ρ c main_arg10 (by decide)).trans (W13_arg10 m ρ c)
theorem W15_arg10 (c : Dev nD) : W15 m ρ c (Proc.devRef .tc main_arg10) = m ((c : Thread nD τ).loc main_arg10) :=
  (by host_keep hostOps7 : W15 m ρ c (Proc.devRef .tc main_arg10) = W14 m ρ c (Proc.devRef .tc main_arg10)).trans (W14_arg10 m ρ c)
theorem W16_arg10 (c : Dev nD) : W16 m ρ c (Proc.devRef .tc main_arg10) = m ((c : Thread nD τ).loc main_arg10) :=
  (W16_of_ne m ρ c main_arg10 (by decide)).trans (W15_arg10 m ρ c)
theorem W17_arg10 (c : Dev nD) : W17 m ρ c (Proc.devRef .tc main_arg10) = m ((c : Thread nD τ).loc main_arg10) :=
  (by host_keep hostOps8 : W17 m ρ c (Proc.devRef .tc main_arg10) = W16 m ρ c (Proc.devRef .tc main_arg10)).trans (W16_arg10 m ρ c)
theorem W18_arg10 (c : Dev nD) : W18 m ρ c (Proc.devRef .tc main_arg10) = m ((c : Thread nD τ).loc main_arg10) :=
  (W18_of_ne m ρ c main_arg10 (by decide)).trans (W17_arg10 m ρ c)

/-! ## Argument 11 -/
theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) :=
  (by host_keep hostOps0 : W1 m ρ c (Proc.devRef .tc main_arg11) = W0 m ρ c (Proc.devRef .tc main_arg11)).trans (W0_arg11 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (by host_keep hostOps1 : W3 m ρ c (Proc.devRef .tc main_arg11) = W2 m ρ c (Proc.devRef .tc main_arg11)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) :=
  (by host_keep hostOps2 : W5 m ρ c (Proc.devRef .tc main_arg11) = W4 m ρ c (Proc.devRef .tc main_arg11)).trans (W4_arg11 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W7_arg11 (c : Dev nD) : W7 m ρ c (Proc.devRef .tc main_arg11) = m ((c : Thread nD τ).loc main_arg11) :=
  (by host_keep hostOps3 : W7 m ρ c (Proc.devRef .tc main_arg11) = W6 m ρ c (Proc.devRef .tc main_arg11)).trans (W6_arg11 m ρ c)
theorem W8_arg11 (c : Dev nD) : W8 m ρ c (Proc.devRef .tc main_arg11) = m ((c : Thread nD τ).loc main_arg11) :=
  (W8_of_ne m ρ c main_arg11 (by decide)).trans (W7_arg11 m ρ c)
theorem W9_arg11 (c : Dev nD) : W9 m ρ c (Proc.devRef .tc main_arg11) = m ((c : Thread nD τ).loc main_arg11) :=
  (by host_keep hostOps4 : W9 m ρ c (Proc.devRef .tc main_arg11) = W8 m ρ c (Proc.devRef .tc main_arg11)).trans (W8_arg11 m ρ c)
theorem W10_arg11 (c : Dev nD) : W10 m ρ c (Proc.devRef .tc main_arg11) = m ((c : Thread nD τ).loc main_arg11) :=
  (W10_of_ne m ρ c main_arg11 (by decide)).trans (W9_arg11 m ρ c)
theorem W11_arg11 (c : Dev nD) : W11 m ρ c (Proc.devRef .tc main_arg11) = m ((c : Thread nD τ).loc main_arg11) :=
  (by host_keep hostOps5 : W11 m ρ c (Proc.devRef .tc main_arg11) = W10 m ρ c (Proc.devRef .tc main_arg11)).trans (W10_arg11 m ρ c)
theorem W12_arg11 (c : Dev nD) : W12 m ρ c (Proc.devRef .tc main_arg11) = m ((c : Thread nD τ).loc main_arg11) :=
  (W12_of_ne m ρ c main_arg11 (by decide)).trans (W11_arg11 m ρ c)
theorem W13_arg11 (c : Dev nD) : W13 m ρ c (Proc.devRef .tc main_arg11) = m ((c : Thread nD τ).loc main_arg11) :=
  (by host_keep hostOps6 : W13 m ρ c (Proc.devRef .tc main_arg11) = W12 m ρ c (Proc.devRef .tc main_arg11)).trans (W12_arg11 m ρ c)
theorem W14_arg11 (c : Dev nD) : W14 m ρ c (Proc.devRef .tc main_arg11) = m ((c : Thread nD τ).loc main_arg11) :=
  (W14_of_ne m ρ c main_arg11 (by decide)).trans (W13_arg11 m ρ c)
theorem W15_arg11 (c : Dev nD) : W15 m ρ c (Proc.devRef .tc main_arg11) = m ((c : Thread nD τ).loc main_arg11) :=
  (by host_keep hostOps7 : W15 m ρ c (Proc.devRef .tc main_arg11) = W14 m ρ c (Proc.devRef .tc main_arg11)).trans (W14_arg11 m ρ c)
theorem W16_arg11 (c : Dev nD) : W16 m ρ c (Proc.devRef .tc main_arg11) = m ((c : Thread nD τ).loc main_arg11) :=
  (W16_of_ne m ρ c main_arg11 (by decide)).trans (W15_arg11 m ρ c)
theorem W17_arg11 (c : Dev nD) : W17 m ρ c (Proc.devRef .tc main_arg11) = m ((c : Thread nD τ).loc main_arg11) :=
  (by host_keep hostOps8 : W17 m ρ c (Proc.devRef .tc main_arg11) = W16 m ρ c (Proc.devRef .tc main_arg11)).trans (W16_arg11 m ρ c)
theorem W18_arg11 (c : Dev nD) : W18 m ρ c (Proc.devRef .tc main_arg11) = m ((c : Thread nD τ).loc main_arg11) :=
  (W18_of_ne m ρ c main_arg11 (by decide)).trans (W17_arg11 m ρ c)

/-! ## Argument 12 -/
theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) :=
  (by host_keep hostOps0 : W1 m ρ c (Proc.devRef .tc main_arg12) = W0 m ρ c (Proc.devRef .tc main_arg12)).trans (W0_arg12 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (by host_keep hostOps1 : W3 m ρ c (Proc.devRef .tc main_arg12) = W2 m ρ c (Proc.devRef .tc main_arg12)).trans (W2_arg12 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) :=
  (by host_keep hostOps2 : W5 m ρ c (Proc.devRef .tc main_arg12) = W4 m ρ c (Proc.devRef .tc main_arg12)).trans (W4_arg12 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W7_arg12 (c : Dev nD) : W7 m ρ c (Proc.devRef .tc main_arg12) = m ((c : Thread nD τ).loc main_arg12) :=
  (by host_keep hostOps3 : W7 m ρ c (Proc.devRef .tc main_arg12) = W6 m ρ c (Proc.devRef .tc main_arg12)).trans (W6_arg12 m ρ c)
theorem W8_arg12 (c : Dev nD) : W8 m ρ c (Proc.devRef .tc main_arg12) = m ((c : Thread nD τ).loc main_arg12) :=
  (W8_of_ne m ρ c main_arg12 (by decide)).trans (W7_arg12 m ρ c)
theorem W9_arg12 (c : Dev nD) : W9 m ρ c (Proc.devRef .tc main_arg12) = m ((c : Thread nD τ).loc main_arg12) :=
  (by host_keep hostOps4 : W9 m ρ c (Proc.devRef .tc main_arg12) = W8 m ρ c (Proc.devRef .tc main_arg12)).trans (W8_arg12 m ρ c)
theorem W10_arg12 (c : Dev nD) : W10 m ρ c (Proc.devRef .tc main_arg12) = m ((c : Thread nD τ).loc main_arg12) :=
  (W10_of_ne m ρ c main_arg12 (by decide)).trans (W9_arg12 m ρ c)
theorem W11_arg12 (c : Dev nD) : W11 m ρ c (Proc.devRef .tc main_arg12) = m ((c : Thread nD τ).loc main_arg12) :=
  (by host_keep hostOps5 : W11 m ρ c (Proc.devRef .tc main_arg12) = W10 m ρ c (Proc.devRef .tc main_arg12)).trans (W10_arg12 m ρ c)
theorem W12_arg12 (c : Dev nD) : W12 m ρ c (Proc.devRef .tc main_arg12) = m ((c : Thread nD τ).loc main_arg12) :=
  (W12_of_ne m ρ c main_arg12 (by decide)).trans (W11_arg12 m ρ c)
theorem W13_arg12 (c : Dev nD) : W13 m ρ c (Proc.devRef .tc main_arg12) = m ((c : Thread nD τ).loc main_arg12) :=
  (by host_keep hostOps6 : W13 m ρ c (Proc.devRef .tc main_arg12) = W12 m ρ c (Proc.devRef .tc main_arg12)).trans (W12_arg12 m ρ c)
theorem W14_arg12 (c : Dev nD) : W14 m ρ c (Proc.devRef .tc main_arg12) = m ((c : Thread nD τ).loc main_arg12) :=
  (W14_of_ne m ρ c main_arg12 (by decide)).trans (W13_arg12 m ρ c)
theorem W15_arg12 (c : Dev nD) : W15 m ρ c (Proc.devRef .tc main_arg12) = m ((c : Thread nD τ).loc main_arg12) :=
  (by host_keep hostOps7 : W15 m ρ c (Proc.devRef .tc main_arg12) = W14 m ρ c (Proc.devRef .tc main_arg12)).trans (W14_arg12 m ρ c)
theorem W16_arg12 (c : Dev nD) : W16 m ρ c (Proc.devRef .tc main_arg12) = m ((c : Thread nD τ).loc main_arg12) :=
  (W16_of_ne m ρ c main_arg12 (by decide)).trans (W15_arg12 m ρ c)
theorem W17_arg12 (c : Dev nD) : W17 m ρ c (Proc.devRef .tc main_arg12) = m ((c : Thread nD τ).loc main_arg12) :=
  (by host_keep hostOps8 : W17 m ρ c (Proc.devRef .tc main_arg12) = W16 m ρ c (Proc.devRef .tc main_arg12)).trans (W16_arg12 m ρ c)
theorem W18_arg12 (c : Dev nD) : W18 m ρ c (Proc.devRef .tc main_arg12) = m ((c : Thread nD τ).loc main_arg12) :=
  (W18_of_ne m ρ c main_arg12 (by decide)).trans (W17_arg12 m ρ c)
theorem W19_arg12 (c : Dev nD) : W19 m ρ c (Proc.devRef .tc main_arg12) = m ((c : Thread nD τ).loc main_arg12) :=
  (by host_keep hostOps9 : W19 m ρ c (Proc.devRef .tc main_arg12) = W18 m ρ c (Proc.devRef .tc main_arg12)).trans (W18_arg12 m ρ c)
theorem W20_arg12 (c : Dev nD) : W20 m ρ c (Proc.devRef .tc main_arg12) = m ((c : Thread nD τ).loc main_arg12) :=
  (W20_of_ne m ρ c main_arg12 (by decide)).trans (W19_arg12 m ρ c)
theorem W21_arg12 (c : Dev nD) : W21 m ρ c (Proc.devRef .tc main_arg12) = m ((c : Thread nD τ).loc main_arg12) :=
  (by host_keep hostOps10 : W21 m ρ c (Proc.devRef .tc main_arg12) = W20 m ρ c (Proc.devRef .tc main_arg12)).trans (W20_arg12 m ρ c)

/-! ## Argument 13 -/
theorem W0_arg13 (c : Dev nD) : W0 m ρ c (Proc.devRef .tc main_arg13) = m ((c : Thread nD τ).loc main_arg13) := rfl
theorem W1_arg13 (c : Dev nD) : W1 m ρ c (Proc.devRef .tc main_arg13) = m ((c : Thread nD τ).loc main_arg13) :=
  (by host_keep hostOps0 : W1 m ρ c (Proc.devRef .tc main_arg13) = W0 m ρ c (Proc.devRef .tc main_arg13)).trans (W0_arg13 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (by host_keep hostOps1 : W3 m ρ c (Proc.devRef .tc main_arg13) = W2 m ρ c (Proc.devRef .tc main_arg13)).trans (W2_arg13 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W5_arg13 (c : Dev nD) : W5 m ρ c (Proc.devRef .tc main_arg13) = m ((c : Thread nD τ).loc main_arg13) :=
  (by host_keep hostOps2 : W5 m ρ c (Proc.devRef .tc main_arg13) = W4 m ρ c (Proc.devRef .tc main_arg13)).trans (W4_arg13 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W7_arg13 (c : Dev nD) : W7 m ρ c (Proc.devRef .tc main_arg13) = m ((c : Thread nD τ).loc main_arg13) :=
  (by host_keep hostOps3 : W7 m ρ c (Proc.devRef .tc main_arg13) = W6 m ρ c (Proc.devRef .tc main_arg13)).trans (W6_arg13 m ρ c)
theorem W8_arg13 (c : Dev nD) : W8 m ρ c (Proc.devRef .tc main_arg13) = m ((c : Thread nD τ).loc main_arg13) :=
  (W8_of_ne m ρ c main_arg13 (by decide)).trans (W7_arg13 m ρ c)
theorem W9_arg13 (c : Dev nD) : W9 m ρ c (Proc.devRef .tc main_arg13) = m ((c : Thread nD τ).loc main_arg13) :=
  (by host_keep hostOps4 : W9 m ρ c (Proc.devRef .tc main_arg13) = W8 m ρ c (Proc.devRef .tc main_arg13)).trans (W8_arg13 m ρ c)
theorem W10_arg13 (c : Dev nD) : W10 m ρ c (Proc.devRef .tc main_arg13) = m ((c : Thread nD τ).loc main_arg13) :=
  (W10_of_ne m ρ c main_arg13 (by decide)).trans (W9_arg13 m ρ c)
theorem W11_arg13 (c : Dev nD) : W11 m ρ c (Proc.devRef .tc main_arg13) = m ((c : Thread nD τ).loc main_arg13) :=
  (by host_keep hostOps5 : W11 m ρ c (Proc.devRef .tc main_arg13) = W10 m ρ c (Proc.devRef .tc main_arg13)).trans (W10_arg13 m ρ c)
theorem W12_arg13 (c : Dev nD) : W12 m ρ c (Proc.devRef .tc main_arg13) = m ((c : Thread nD τ).loc main_arg13) :=
  (W12_of_ne m ρ c main_arg13 (by decide)).trans (W11_arg13 m ρ c)
theorem W13_arg13 (c : Dev nD) : W13 m ρ c (Proc.devRef .tc main_arg13) = m ((c : Thread nD τ).loc main_arg13) :=
  (by host_keep hostOps6 : W13 m ρ c (Proc.devRef .tc main_arg13) = W12 m ρ c (Proc.devRef .tc main_arg13)).trans (W12_arg13 m ρ c)
theorem W14_arg13 (c : Dev nD) : W14 m ρ c (Proc.devRef .tc main_arg13) = m ((c : Thread nD τ).loc main_arg13) :=
  (W14_of_ne m ρ c main_arg13 (by decide)).trans (W13_arg13 m ρ c)
theorem W15_arg13 (c : Dev nD) : W15 m ρ c (Proc.devRef .tc main_arg13) = m ((c : Thread nD τ).loc main_arg13) :=
  (by host_keep hostOps7 : W15 m ρ c (Proc.devRef .tc main_arg13) = W14 m ρ c (Proc.devRef .tc main_arg13)).trans (W14_arg13 m ρ c)
theorem W16_arg13 (c : Dev nD) : W16 m ρ c (Proc.devRef .tc main_arg13) = m ((c : Thread nD τ).loc main_arg13) :=
  (W16_of_ne m ρ c main_arg13 (by decide)).trans (W15_arg13 m ρ c)
theorem W17_arg13 (c : Dev nD) : W17 m ρ c (Proc.devRef .tc main_arg13) = m ((c : Thread nD τ).loc main_arg13) :=
  (by host_keep hostOps8 : W17 m ρ c (Proc.devRef .tc main_arg13) = W16 m ρ c (Proc.devRef .tc main_arg13)).trans (W16_arg13 m ρ c)
theorem W18_arg13 (c : Dev nD) : W18 m ρ c (Proc.devRef .tc main_arg13) = m ((c : Thread nD τ).loc main_arg13) :=
  (W18_of_ne m ρ c main_arg13 (by decide)).trans (W17_arg13 m ρ c)
theorem W19_arg13 (c : Dev nD) : W19 m ρ c (Proc.devRef .tc main_arg13) = m ((c : Thread nD τ).loc main_arg13) :=
  (by host_keep hostOps9 : W19 m ρ c (Proc.devRef .tc main_arg13) = W18 m ρ c (Proc.devRef .tc main_arg13)).trans (W18_arg13 m ρ c)
theorem W20_arg13 (c : Dev nD) : W20 m ρ c (Proc.devRef .tc main_arg13) = m ((c : Thread nD τ).loc main_arg13) :=
  (W20_of_ne m ρ c main_arg13 (by decide)).trans (W19_arg13 m ρ c)

/-! ## Argument 14 -/
theorem W0_arg14 (c : Dev nD) : W0 m ρ c (Proc.devRef .tc main_arg14) = m ((c : Thread nD τ).loc main_arg14) := rfl
theorem W1_arg14 (c : Dev nD) : W1 m ρ c (Proc.devRef .tc main_arg14) = m ((c : Thread nD τ).loc main_arg14) :=
  (by host_keep hostOps0 : W1 m ρ c (Proc.devRef .tc main_arg14) = W0 m ρ c (Proc.devRef .tc main_arg14)).trans (W0_arg14 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (by host_keep hostOps1 : W3 m ρ c (Proc.devRef .tc main_arg14) = W2 m ρ c (Proc.devRef .tc main_arg14)).trans (W2_arg14 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W5_arg14 (c : Dev nD) : W5 m ρ c (Proc.devRef .tc main_arg14) = m ((c : Thread nD τ).loc main_arg14) :=
  (by host_keep hostOps2 : W5 m ρ c (Proc.devRef .tc main_arg14) = W4 m ρ c (Proc.devRef .tc main_arg14)).trans (W4_arg14 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W7_arg14 (c : Dev nD) : W7 m ρ c (Proc.devRef .tc main_arg14) = m ((c : Thread nD τ).loc main_arg14) :=
  (by host_keep hostOps3 : W7 m ρ c (Proc.devRef .tc main_arg14) = W6 m ρ c (Proc.devRef .tc main_arg14)).trans (W6_arg14 m ρ c)
theorem W8_arg14 (c : Dev nD) : W8 m ρ c (Proc.devRef .tc main_arg14) = m ((c : Thread nD τ).loc main_arg14) :=
  (W8_of_ne m ρ c main_arg14 (by decide)).trans (W7_arg14 m ρ c)
theorem W9_arg14 (c : Dev nD) : W9 m ρ c (Proc.devRef .tc main_arg14) = m ((c : Thread nD τ).loc main_arg14) :=
  (by host_keep hostOps4 : W9 m ρ c (Proc.devRef .tc main_arg14) = W8 m ρ c (Proc.devRef .tc main_arg14)).trans (W8_arg14 m ρ c)
theorem W10_arg14 (c : Dev nD) : W10 m ρ c (Proc.devRef .tc main_arg14) = m ((c : Thread nD τ).loc main_arg14) :=
  (W10_of_ne m ρ c main_arg14 (by decide)).trans (W9_arg14 m ρ c)
theorem W11_arg14 (c : Dev nD) : W11 m ρ c (Proc.devRef .tc main_arg14) = m ((c : Thread nD τ).loc main_arg14) :=
  (by host_keep hostOps5 : W11 m ρ c (Proc.devRef .tc main_arg14) = W10 m ρ c (Proc.devRef .tc main_arg14)).trans (W10_arg14 m ρ c)
theorem W12_arg14 (c : Dev nD) : W12 m ρ c (Proc.devRef .tc main_arg14) = m ((c : Thread nD τ).loc main_arg14) :=
  (W12_of_ne m ρ c main_arg14 (by decide)).trans (W11_arg14 m ρ c)
theorem W13_arg14 (c : Dev nD) : W13 m ρ c (Proc.devRef .tc main_arg14) = m ((c : Thread nD τ).loc main_arg14) :=
  (by host_keep hostOps6 : W13 m ρ c (Proc.devRef .tc main_arg14) = W12 m ρ c (Proc.devRef .tc main_arg14)).trans (W12_arg14 m ρ c)
theorem W14_arg14 (c : Dev nD) : W14 m ρ c (Proc.devRef .tc main_arg14) = m ((c : Thread nD τ).loc main_arg14) :=
  (W14_of_ne m ρ c main_arg14 (by decide)).trans (W13_arg14 m ρ c)
theorem W15_arg14 (c : Dev nD) : W15 m ρ c (Proc.devRef .tc main_arg14) = m ((c : Thread nD τ).loc main_arg14) :=
  (by host_keep hostOps7 : W15 m ρ c (Proc.devRef .tc main_arg14) = W14 m ρ c (Proc.devRef .tc main_arg14)).trans (W14_arg14 m ρ c)
theorem W16_arg14 (c : Dev nD) : W16 m ρ c (Proc.devRef .tc main_arg14) = m ((c : Thread nD τ).loc main_arg14) :=
  (W16_of_ne m ρ c main_arg14 (by decide)).trans (W15_arg14 m ρ c)
theorem W17_arg14 (c : Dev nD) : W17 m ρ c (Proc.devRef .tc main_arg14) = m ((c : Thread nD τ).loc main_arg14) :=
  (by host_keep hostOps8 : W17 m ρ c (Proc.devRef .tc main_arg14) = W16 m ρ c (Proc.devRef .tc main_arg14)).trans (W16_arg14 m ρ c)
theorem W18_arg14 (c : Dev nD) : W18 m ρ c (Proc.devRef .tc main_arg14) = m ((c : Thread nD τ).loc main_arg14) :=
  (W18_of_ne m ρ c main_arg14 (by decide)).trans (W17_arg14 m ρ c)
theorem W19_arg14 (c : Dev nD) : W19 m ρ c (Proc.devRef .tc main_arg14) = m ((c : Thread nD τ).loc main_arg14) :=
  (by host_keep hostOps9 : W19 m ρ c (Proc.devRef .tc main_arg14) = W18 m ρ c (Proc.devRef .tc main_arg14)).trans (W18_arg14 m ρ c)
theorem W20_arg14 (c : Dev nD) : W20 m ρ c (Proc.devRef .tc main_arg14) = m ((c : Thread nD τ).loc main_arg14) :=
  (W20_of_ne m ρ c main_arg14 (by decide)).trans (W19_arg14 m ρ c)
theorem W21_arg14 (c : Dev nD) : W21 m ρ c (Proc.devRef .tc main_arg14) = m ((c : Thread nD τ).loc main_arg14) :=
  (by host_keep hostOps10 : W21 m ρ c (Proc.devRef .tc main_arg14) = W20 m ρ c (Proc.devRef .tc main_arg14)).trans (W20_arg14 m ρ c)
theorem W22_arg14 (c : Dev nD) : W22 m ρ c (Proc.devRef .tc main_arg14) = m ((c : Thread nD τ).loc main_arg14) :=
  (W22_of_ne m ρ c main_arg14 (by decide)).trans (W21_arg14 m ρ c)

/-! ## Argument 15 -/
theorem W0_arg15 (c : Dev nD) : W0 m ρ c (Proc.devRef .tc main_arg15) = m ((c : Thread nD τ).loc main_arg15) := rfl
theorem W1_arg15 (c : Dev nD) : W1 m ρ c (Proc.devRef .tc main_arg15) = m ((c : Thread nD τ).loc main_arg15) :=
  (by host_keep hostOps0 : W1 m ρ c (Proc.devRef .tc main_arg15) = W0 m ρ c (Proc.devRef .tc main_arg15)).trans (W0_arg15 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (by host_keep hostOps1 : W3 m ρ c (Proc.devRef .tc main_arg15) = W2 m ρ c (Proc.devRef .tc main_arg15)).trans (W2_arg15 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W5_arg15 (c : Dev nD) : W5 m ρ c (Proc.devRef .tc main_arg15) = m ((c : Thread nD τ).loc main_arg15) :=
  (by host_keep hostOps2 : W5 m ρ c (Proc.devRef .tc main_arg15) = W4 m ρ c (Proc.devRef .tc main_arg15)).trans (W4_arg15 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W7_arg15 (c : Dev nD) : W7 m ρ c (Proc.devRef .tc main_arg15) = m ((c : Thread nD τ).loc main_arg15) :=
  (by host_keep hostOps3 : W7 m ρ c (Proc.devRef .tc main_arg15) = W6 m ρ c (Proc.devRef .tc main_arg15)).trans (W6_arg15 m ρ c)
theorem W8_arg15 (c : Dev nD) : W8 m ρ c (Proc.devRef .tc main_arg15) = m ((c : Thread nD τ).loc main_arg15) :=
  (W8_of_ne m ρ c main_arg15 (by decide)).trans (W7_arg15 m ρ c)
theorem W9_arg15 (c : Dev nD) : W9 m ρ c (Proc.devRef .tc main_arg15) = m ((c : Thread nD τ).loc main_arg15) :=
  (by host_keep hostOps4 : W9 m ρ c (Proc.devRef .tc main_arg15) = W8 m ρ c (Proc.devRef .tc main_arg15)).trans (W8_arg15 m ρ c)
theorem W10_arg15 (c : Dev nD) : W10 m ρ c (Proc.devRef .tc main_arg15) = m ((c : Thread nD τ).loc main_arg15) :=
  (W10_of_ne m ρ c main_arg15 (by decide)).trans (W9_arg15 m ρ c)
theorem W11_arg15 (c : Dev nD) : W11 m ρ c (Proc.devRef .tc main_arg15) = m ((c : Thread nD τ).loc main_arg15) :=
  (by host_keep hostOps5 : W11 m ρ c (Proc.devRef .tc main_arg15) = W10 m ρ c (Proc.devRef .tc main_arg15)).trans (W10_arg15 m ρ c)
theorem W12_arg15 (c : Dev nD) : W12 m ρ c (Proc.devRef .tc main_arg15) = m ((c : Thread nD τ).loc main_arg15) :=
  (W12_of_ne m ρ c main_arg15 (by decide)).trans (W11_arg15 m ρ c)
theorem W13_arg15 (c : Dev nD) : W13 m ρ c (Proc.devRef .tc main_arg15) = m ((c : Thread nD τ).loc main_arg15) :=
  (by host_keep hostOps6 : W13 m ρ c (Proc.devRef .tc main_arg15) = W12 m ρ c (Proc.devRef .tc main_arg15)).trans (W12_arg15 m ρ c)
theorem W14_arg15 (c : Dev nD) : W14 m ρ c (Proc.devRef .tc main_arg15) = m ((c : Thread nD τ).loc main_arg15) :=
  (W14_of_ne m ρ c main_arg15 (by decide)).trans (W13_arg15 m ρ c)
theorem W15_arg15 (c : Dev nD) : W15 m ρ c (Proc.devRef .tc main_arg15) = m ((c : Thread nD τ).loc main_arg15) :=
  (by host_keep hostOps7 : W15 m ρ c (Proc.devRef .tc main_arg15) = W14 m ρ c (Proc.devRef .tc main_arg15)).trans (W14_arg15 m ρ c)
theorem W16_arg15 (c : Dev nD) : W16 m ρ c (Proc.devRef .tc main_arg15) = m ((c : Thread nD τ).loc main_arg15) :=
  (W16_of_ne m ρ c main_arg15 (by decide)).trans (W15_arg15 m ρ c)
theorem W17_arg15 (c : Dev nD) : W17 m ρ c (Proc.devRef .tc main_arg15) = m ((c : Thread nD τ).loc main_arg15) :=
  (by host_keep hostOps8 : W17 m ρ c (Proc.devRef .tc main_arg15) = W16 m ρ c (Proc.devRef .tc main_arg15)).trans (W16_arg15 m ρ c)
theorem W18_arg15 (c : Dev nD) : W18 m ρ c (Proc.devRef .tc main_arg15) = m ((c : Thread nD τ).loc main_arg15) :=
  (W18_of_ne m ρ c main_arg15 (by decide)).trans (W17_arg15 m ρ c)
theorem W19_arg15 (c : Dev nD) : W19 m ρ c (Proc.devRef .tc main_arg15) = m ((c : Thread nD τ).loc main_arg15) :=
  (by host_keep hostOps9 : W19 m ρ c (Proc.devRef .tc main_arg15) = W18 m ρ c (Proc.devRef .tc main_arg15)).trans (W18_arg15 m ρ c)
theorem W20_arg15 (c : Dev nD) : W20 m ρ c (Proc.devRef .tc main_arg15) = m ((c : Thread nD τ).loc main_arg15) :=
  (W20_of_ne m ρ c main_arg15 (by decide)).trans (W19_arg15 m ρ c)
theorem W21_arg15 (c : Dev nD) : W21 m ρ c (Proc.devRef .tc main_arg15) = m ((c : Thread nD τ).loc main_arg15) :=
  (by host_keep hostOps10 : W21 m ρ c (Proc.devRef .tc main_arg15) = W20 m ρ c (Proc.devRef .tc main_arg15)).trans (W20_arg15 m ρ c)
theorem W22_arg15 (c : Dev nD) : W22 m ρ c (Proc.devRef .tc main_arg15) = m ((c : Thread nD τ).loc main_arg15) :=
  (W22_of_ne m ρ c main_arg15 (by decide)).trans (W21_arg15 m ρ c)

/-! ## Argument 16 -/
theorem W0_arg16 (c : Dev nD) : W0 m ρ c (Proc.devRef .tc main_arg16) = m ((c : Thread nD τ).loc main_arg16) := rfl
theorem W1_arg16 (c : Dev nD) : W1 m ρ c (Proc.devRef .tc main_arg16) = m ((c : Thread nD τ).loc main_arg16) :=
  (by host_keep hostOps0 : W1 m ρ c (Proc.devRef .tc main_arg16) = W0 m ρ c (Proc.devRef .tc main_arg16)).trans (W0_arg16 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (by host_keep hostOps1 : W3 m ρ c (Proc.devRef .tc main_arg16) = W2 m ρ c (Proc.devRef .tc main_arg16)).trans (W2_arg16 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W5_arg16 (c : Dev nD) : W5 m ρ c (Proc.devRef .tc main_arg16) = m ((c : Thread nD τ).loc main_arg16) :=
  (by host_keep hostOps2 : W5 m ρ c (Proc.devRef .tc main_arg16) = W4 m ρ c (Proc.devRef .tc main_arg16)).trans (W4_arg16 m ρ c)
theorem W6_arg16 (c : Dev nD) : W6 m ρ c (Proc.devRef .tc main_arg16) = m ((c : Thread nD τ).loc main_arg16) :=
  (W6_of_ne m ρ c main_arg16 (by decide)).trans (W5_arg16 m ρ c)
theorem W7_arg16 (c : Dev nD) : W7 m ρ c (Proc.devRef .tc main_arg16) = m ((c : Thread nD τ).loc main_arg16) :=
  (by host_keep hostOps3 : W7 m ρ c (Proc.devRef .tc main_arg16) = W6 m ρ c (Proc.devRef .tc main_arg16)).trans (W6_arg16 m ρ c)
theorem W8_arg16 (c : Dev nD) : W8 m ρ c (Proc.devRef .tc main_arg16) = m ((c : Thread nD τ).loc main_arg16) :=
  (W8_of_ne m ρ c main_arg16 (by decide)).trans (W7_arg16 m ρ c)
theorem W9_arg16 (c : Dev nD) : W9 m ρ c (Proc.devRef .tc main_arg16) = m ((c : Thread nD τ).loc main_arg16) :=
  (by host_keep hostOps4 : W9 m ρ c (Proc.devRef .tc main_arg16) = W8 m ρ c (Proc.devRef .tc main_arg16)).trans (W8_arg16 m ρ c)
theorem W10_arg16 (c : Dev nD) : W10 m ρ c (Proc.devRef .tc main_arg16) = m ((c : Thread nD τ).loc main_arg16) :=
  (W10_of_ne m ρ c main_arg16 (by decide)).trans (W9_arg16 m ρ c)
theorem W11_arg16 (c : Dev nD) : W11 m ρ c (Proc.devRef .tc main_arg16) = m ((c : Thread nD τ).loc main_arg16) :=
  (by host_keep hostOps5 : W11 m ρ c (Proc.devRef .tc main_arg16) = W10 m ρ c (Proc.devRef .tc main_arg16)).trans (W10_arg16 m ρ c)
theorem W12_arg16 (c : Dev nD) : W12 m ρ c (Proc.devRef .tc main_arg16) = m ((c : Thread nD τ).loc main_arg16) :=
  (W12_of_ne m ρ c main_arg16 (by decide)).trans (W11_arg16 m ρ c)
theorem W13_arg16 (c : Dev nD) : W13 m ρ c (Proc.devRef .tc main_arg16) = m ((c : Thread nD τ).loc main_arg16) :=
  (by host_keep hostOps6 : W13 m ρ c (Proc.devRef .tc main_arg16) = W12 m ρ c (Proc.devRef .tc main_arg16)).trans (W12_arg16 m ρ c)
theorem W14_arg16 (c : Dev nD) : W14 m ρ c (Proc.devRef .tc main_arg16) = m ((c : Thread nD τ).loc main_arg16) :=
  (W14_of_ne m ρ c main_arg16 (by decide)).trans (W13_arg16 m ρ c)
theorem W15_arg16 (c : Dev nD) : W15 m ρ c (Proc.devRef .tc main_arg16) = m ((c : Thread nD τ).loc main_arg16) :=
  (by host_keep hostOps7 : W15 m ρ c (Proc.devRef .tc main_arg16) = W14 m ρ c (Proc.devRef .tc main_arg16)).trans (W14_arg16 m ρ c)
theorem W16_arg16 (c : Dev nD) : W16 m ρ c (Proc.devRef .tc main_arg16) = m ((c : Thread nD τ).loc main_arg16) :=
  (W16_of_ne m ρ c main_arg16 (by decide)).trans (W15_arg16 m ρ c)
theorem W17_arg16 (c : Dev nD) : W17 m ρ c (Proc.devRef .tc main_arg16) = m ((c : Thread nD τ).loc main_arg16) :=
  (by host_keep hostOps8 : W17 m ρ c (Proc.devRef .tc main_arg16) = W16 m ρ c (Proc.devRef .tc main_arg16)).trans (W16_arg16 m ρ c)
theorem W18_arg16 (c : Dev nD) : W18 m ρ c (Proc.devRef .tc main_arg16) = m ((c : Thread nD τ).loc main_arg16) :=
  (W18_of_ne m ρ c main_arg16 (by decide)).trans (W17_arg16 m ρ c)
theorem W19_arg16 (c : Dev nD) : W19 m ρ c (Proc.devRef .tc main_arg16) = m ((c : Thread nD τ).loc main_arg16) :=
  (by host_keep hostOps9 : W19 m ρ c (Proc.devRef .tc main_arg16) = W18 m ρ c (Proc.devRef .tc main_arg16)).trans (W18_arg16 m ρ c)
theorem W20_arg16 (c : Dev nD) : W20 m ρ c (Proc.devRef .tc main_arg16) = m ((c : Thread nD τ).loc main_arg16) :=
  (W20_of_ne m ρ c main_arg16 (by decide)).trans (W19_arg16 m ρ c)
theorem W21_arg16 (c : Dev nD) : W21 m ρ c (Proc.devRef .tc main_arg16) = m ((c : Thread nD τ).loc main_arg16) :=
  (by host_keep hostOps10 : W21 m ρ c (Proc.devRef .tc main_arg16) = W20 m ρ c (Proc.devRef .tc main_arg16)).trans (W20_arg16 m ρ c)
theorem W22_arg16 (c : Dev nD) : W22 m ρ c (Proc.devRef .tc main_arg16) = m ((c : Thread nD τ).loc main_arg16) :=
  (W22_of_ne m ρ c main_arg16 (by decide)).trans (W21_arg16 m ρ c)
theorem W23_arg16 (c : Dev nD) : W23 m ρ c (Proc.devRef .tc main_arg16) = m ((c : Thread nD τ).loc main_arg16) :=
  (by host_keep hostOps11 : W23 m ρ c (Proc.devRef .tc main_arg16) = W22 m ρ c (Proc.devRef .tc main_arg16)).trans (W22_arg16 m ρ c)
theorem W24_arg16 (c : Dev nD) : W24 m ρ c (Proc.devRef .tc main_arg16) = m ((c : Thread nD τ).loc main_arg16) :=
  (W24_of_ne m ρ c main_arg16 (by decide)).trans (W23_arg16 m ρ c)
theorem W25_arg16 (c : Dev nD) : W25 m ρ c (Proc.devRef .tc main_arg16) = m ((c : Thread nD τ).loc main_arg16) :=
  (by host_keep hostOps12 : W25 m ρ c (Proc.devRef .tc main_arg16) = W24 m ρ c (Proc.devRef .tc main_arg16)).trans (W24_arg16 m ρ c)

/-! ## Argument 17 -/
theorem W0_arg17 (c : Dev nD) : W0 m ρ c (Proc.devRef .tc main_arg17) = m ((c : Thread nD τ).loc main_arg17) := rfl
theorem W1_arg17 (c : Dev nD) : W1 m ρ c (Proc.devRef .tc main_arg17) = m ((c : Thread nD τ).loc main_arg17) :=
  (by host_keep hostOps0 : W1 m ρ c (Proc.devRef .tc main_arg17) = W0 m ρ c (Proc.devRef .tc main_arg17)).trans (W0_arg17 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) :=
  (by host_keep hostOps1 : W3 m ρ c (Proc.devRef .tc main_arg17) = W2 m ρ c (Proc.devRef .tc main_arg17)).trans (W2_arg17 m ρ c)
theorem W4_arg17 (c : Dev nD) : W4 m ρ c (Proc.devRef .tc main_arg17) = m ((c : Thread nD τ).loc main_arg17) :=
  (W4_of_ne m ρ c main_arg17 (by decide)).trans (W3_arg17 m ρ c)
theorem W5_arg17 (c : Dev nD) : W5 m ρ c (Proc.devRef .tc main_arg17) = m ((c : Thread nD τ).loc main_arg17) :=
  (by host_keep hostOps2 : W5 m ρ c (Proc.devRef .tc main_arg17) = W4 m ρ c (Proc.devRef .tc main_arg17)).trans (W4_arg17 m ρ c)
theorem W6_arg17 (c : Dev nD) : W6 m ρ c (Proc.devRef .tc main_arg17) = m ((c : Thread nD τ).loc main_arg17) :=
  (W6_of_ne m ρ c main_arg17 (by decide)).trans (W5_arg17 m ρ c)
theorem W7_arg17 (c : Dev nD) : W7 m ρ c (Proc.devRef .tc main_arg17) = m ((c : Thread nD τ).loc main_arg17) :=
  (by host_keep hostOps3 : W7 m ρ c (Proc.devRef .tc main_arg17) = W6 m ρ c (Proc.devRef .tc main_arg17)).trans (W6_arg17 m ρ c)
theorem W8_arg17 (c : Dev nD) : W8 m ρ c (Proc.devRef .tc main_arg17) = m ((c : Thread nD τ).loc main_arg17) :=
  (W8_of_ne m ρ c main_arg17 (by decide)).trans (W7_arg17 m ρ c)
theorem W9_arg17 (c : Dev nD) : W9 m ρ c (Proc.devRef .tc main_arg17) = m ((c : Thread nD τ).loc main_arg17) :=
  (by host_keep hostOps4 : W9 m ρ c (Proc.devRef .tc main_arg17) = W8 m ρ c (Proc.devRef .tc main_arg17)).trans (W8_arg17 m ρ c)
theorem W10_arg17 (c : Dev nD) : W10 m ρ c (Proc.devRef .tc main_arg17) = m ((c : Thread nD τ).loc main_arg17) :=
  (W10_of_ne m ρ c main_arg17 (by decide)).trans (W9_arg17 m ρ c)
theorem W11_arg17 (c : Dev nD) : W11 m ρ c (Proc.devRef .tc main_arg17) = m ((c : Thread nD τ).loc main_arg17) :=
  (by host_keep hostOps5 : W11 m ρ c (Proc.devRef .tc main_arg17) = W10 m ρ c (Proc.devRef .tc main_arg17)).trans (W10_arg17 m ρ c)
theorem W12_arg17 (c : Dev nD) : W12 m ρ c (Proc.devRef .tc main_arg17) = m ((c : Thread nD τ).loc main_arg17) :=
  (W12_of_ne m ρ c main_arg17 (by decide)).trans (W11_arg17 m ρ c)
theorem W13_arg17 (c : Dev nD) : W13 m ρ c (Proc.devRef .tc main_arg17) = m ((c : Thread nD τ).loc main_arg17) :=
  (by host_keep hostOps6 : W13 m ρ c (Proc.devRef .tc main_arg17) = W12 m ρ c (Proc.devRef .tc main_arg17)).trans (W12_arg17 m ρ c)
theorem W14_arg17 (c : Dev nD) : W14 m ρ c (Proc.devRef .tc main_arg17) = m ((c : Thread nD τ).loc main_arg17) :=
  (W14_of_ne m ρ c main_arg17 (by decide)).trans (W13_arg17 m ρ c)
theorem W15_arg17 (c : Dev nD) : W15 m ρ c (Proc.devRef .tc main_arg17) = m ((c : Thread nD τ).loc main_arg17) :=
  (by host_keep hostOps7 : W15 m ρ c (Proc.devRef .tc main_arg17) = W14 m ρ c (Proc.devRef .tc main_arg17)).trans (W14_arg17 m ρ c)
theorem W16_arg17 (c : Dev nD) : W16 m ρ c (Proc.devRef .tc main_arg17) = m ((c : Thread nD τ).loc main_arg17) :=
  (W16_of_ne m ρ c main_arg17 (by decide)).trans (W15_arg17 m ρ c)
theorem W17_arg17 (c : Dev nD) : W17 m ρ c (Proc.devRef .tc main_arg17) = m ((c : Thread nD τ).loc main_arg17) :=
  (by host_keep hostOps8 : W17 m ρ c (Proc.devRef .tc main_arg17) = W16 m ρ c (Proc.devRef .tc main_arg17)).trans (W16_arg17 m ρ c)
theorem W18_arg17 (c : Dev nD) : W18 m ρ c (Proc.devRef .tc main_arg17) = m ((c : Thread nD τ).loc main_arg17) :=
  (W18_of_ne m ρ c main_arg17 (by decide)).trans (W17_arg17 m ρ c)
theorem W19_arg17 (c : Dev nD) : W19 m ρ c (Proc.devRef .tc main_arg17) = m ((c : Thread nD τ).loc main_arg17) :=
  (by host_keep hostOps9 : W19 m ρ c (Proc.devRef .tc main_arg17) = W18 m ρ c (Proc.devRef .tc main_arg17)).trans (W18_arg17 m ρ c)
theorem W20_arg17 (c : Dev nD) : W20 m ρ c (Proc.devRef .tc main_arg17) = m ((c : Thread nD τ).loc main_arg17) :=
  (W20_of_ne m ρ c main_arg17 (by decide)).trans (W19_arg17 m ρ c)
theorem W21_arg17 (c : Dev nD) : W21 m ρ c (Proc.devRef .tc main_arg17) = m ((c : Thread nD τ).loc main_arg17) :=
  (by host_keep hostOps10 : W21 m ρ c (Proc.devRef .tc main_arg17) = W20 m ρ c (Proc.devRef .tc main_arg17)).trans (W20_arg17 m ρ c)
theorem W22_arg17 (c : Dev nD) : W22 m ρ c (Proc.devRef .tc main_arg17) = m ((c : Thread nD τ).loc main_arg17) :=
  (W22_of_ne m ρ c main_arg17 (by decide)).trans (W21_arg17 m ρ c)
theorem W23_arg17 (c : Dev nD) : W23 m ρ c (Proc.devRef .tc main_arg17) = m ((c : Thread nD τ).loc main_arg17) :=
  (by host_keep hostOps11 : W23 m ρ c (Proc.devRef .tc main_arg17) = W22 m ρ c (Proc.devRef .tc main_arg17)).trans (W22_arg17 m ρ c)
theorem W24_arg17 (c : Dev nD) : W24 m ρ c (Proc.devRef .tc main_arg17) = m ((c : Thread nD τ).loc main_arg17) :=
  (W24_of_ne m ρ c main_arg17 (by decide)).trans (W23_arg17 m ρ c)

/-! ## Argument 18 -/
theorem W0_arg18 (c : Dev nD) : W0 m ρ c (Proc.devRef .tc main_arg18) = m ((c : Thread nD τ).loc main_arg18) := rfl
theorem W1_arg18 (c : Dev nD) : W1 m ρ c (Proc.devRef .tc main_arg18) = m ((c : Thread nD τ).loc main_arg18) :=
  (by host_keep hostOps0 : W1 m ρ c (Proc.devRef .tc main_arg18) = W0 m ρ c (Proc.devRef .tc main_arg18)).trans (W0_arg18 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) :=
  (by host_keep hostOps1 : W3 m ρ c (Proc.devRef .tc main_arg18) = W2 m ρ c (Proc.devRef .tc main_arg18)).trans (W2_arg18 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W5_arg18 (c : Dev nD) : W5 m ρ c (Proc.devRef .tc main_arg18) = m ((c : Thread nD τ).loc main_arg18) :=
  (by host_keep hostOps2 : W5 m ρ c (Proc.devRef .tc main_arg18) = W4 m ρ c (Proc.devRef .tc main_arg18)).trans (W4_arg18 m ρ c)
theorem W6_arg18 (c : Dev nD) : W6 m ρ c (Proc.devRef .tc main_arg18) = m ((c : Thread nD τ).loc main_arg18) :=
  (W6_of_ne m ρ c main_arg18 (by decide)).trans (W5_arg18 m ρ c)
theorem W7_arg18 (c : Dev nD) : W7 m ρ c (Proc.devRef .tc main_arg18) = m ((c : Thread nD τ).loc main_arg18) :=
  (by host_keep hostOps3 : W7 m ρ c (Proc.devRef .tc main_arg18) = W6 m ρ c (Proc.devRef .tc main_arg18)).trans (W6_arg18 m ρ c)
theorem W8_arg18 (c : Dev nD) : W8 m ρ c (Proc.devRef .tc main_arg18) = m ((c : Thread nD τ).loc main_arg18) :=
  (W8_of_ne m ρ c main_arg18 (by decide)).trans (W7_arg18 m ρ c)
theorem W9_arg18 (c : Dev nD) : W9 m ρ c (Proc.devRef .tc main_arg18) = m ((c : Thread nD τ).loc main_arg18) :=
  (by host_keep hostOps4 : W9 m ρ c (Proc.devRef .tc main_arg18) = W8 m ρ c (Proc.devRef .tc main_arg18)).trans (W8_arg18 m ρ c)
theorem W10_arg18 (c : Dev nD) : W10 m ρ c (Proc.devRef .tc main_arg18) = m ((c : Thread nD τ).loc main_arg18) :=
  (W10_of_ne m ρ c main_arg18 (by decide)).trans (W9_arg18 m ρ c)
theorem W11_arg18 (c : Dev nD) : W11 m ρ c (Proc.devRef .tc main_arg18) = m ((c : Thread nD τ).loc main_arg18) :=
  (by host_keep hostOps5 : W11 m ρ c (Proc.devRef .tc main_arg18) = W10 m ρ c (Proc.devRef .tc main_arg18)).trans (W10_arg18 m ρ c)
theorem W12_arg18 (c : Dev nD) : W12 m ρ c (Proc.devRef .tc main_arg18) = m ((c : Thread nD τ).loc main_arg18) :=
  (W12_of_ne m ρ c main_arg18 (by decide)).trans (W11_arg18 m ρ c)
theorem W13_arg18 (c : Dev nD) : W13 m ρ c (Proc.devRef .tc main_arg18) = m ((c : Thread nD τ).loc main_arg18) :=
  (by host_keep hostOps6 : W13 m ρ c (Proc.devRef .tc main_arg18) = W12 m ρ c (Proc.devRef .tc main_arg18)).trans (W12_arg18 m ρ c)
theorem W14_arg18 (c : Dev nD) : W14 m ρ c (Proc.devRef .tc main_arg18) = m ((c : Thread nD τ).loc main_arg18) :=
  (W14_of_ne m ρ c main_arg18 (by decide)).trans (W13_arg18 m ρ c)
theorem W15_arg18 (c : Dev nD) : W15 m ρ c (Proc.devRef .tc main_arg18) = m ((c : Thread nD τ).loc main_arg18) :=
  (by host_keep hostOps7 : W15 m ρ c (Proc.devRef .tc main_arg18) = W14 m ρ c (Proc.devRef .tc main_arg18)).trans (W14_arg18 m ρ c)
theorem W16_arg18 (c : Dev nD) : W16 m ρ c (Proc.devRef .tc main_arg18) = m ((c : Thread nD τ).loc main_arg18) :=
  (W16_of_ne m ρ c main_arg18 (by decide)).trans (W15_arg18 m ρ c)
theorem W17_arg18 (c : Dev nD) : W17 m ρ c (Proc.devRef .tc main_arg18) = m ((c : Thread nD τ).loc main_arg18) :=
  (by host_keep hostOps8 : W17 m ρ c (Proc.devRef .tc main_arg18) = W16 m ρ c (Proc.devRef .tc main_arg18)).trans (W16_arg18 m ρ c)
theorem W18_arg18 (c : Dev nD) : W18 m ρ c (Proc.devRef .tc main_arg18) = m ((c : Thread nD τ).loc main_arg18) :=
  (W18_of_ne m ρ c main_arg18 (by decide)).trans (W17_arg18 m ρ c)
theorem W19_arg18 (c : Dev nD) : W19 m ρ c (Proc.devRef .tc main_arg18) = m ((c : Thread nD τ).loc main_arg18) :=
  (by host_keep hostOps9 : W19 m ρ c (Proc.devRef .tc main_arg18) = W18 m ρ c (Proc.devRef .tc main_arg18)).trans (W18_arg18 m ρ c)
theorem W20_arg18 (c : Dev nD) : W20 m ρ c (Proc.devRef .tc main_arg18) = m ((c : Thread nD τ).loc main_arg18) :=
  (W20_of_ne m ρ c main_arg18 (by decide)).trans (W19_arg18 m ρ c)
theorem W21_arg18 (c : Dev nD) : W21 m ρ c (Proc.devRef .tc main_arg18) = m ((c : Thread nD τ).loc main_arg18) :=
  (by host_keep hostOps10 : W21 m ρ c (Proc.devRef .tc main_arg18) = W20 m ρ c (Proc.devRef .tc main_arg18)).trans (W20_arg18 m ρ c)
theorem W22_arg18 (c : Dev nD) : W22 m ρ c (Proc.devRef .tc main_arg18) = m ((c : Thread nD τ).loc main_arg18) :=
  (W22_of_ne m ρ c main_arg18 (by decide)).trans (W21_arg18 m ρ c)
theorem W23_arg18 (c : Dev nD) : W23 m ρ c (Proc.devRef .tc main_arg18) = m ((c : Thread nD τ).loc main_arg18) :=
  (by host_keep hostOps11 : W23 m ρ c (Proc.devRef .tc main_arg18) = W22 m ρ c (Proc.devRef .tc main_arg18)).trans (W22_arg18 m ρ c)
theorem W24_arg18 (c : Dev nD) : W24 m ρ c (Proc.devRef .tc main_arg18) = m ((c : Thread nD τ).loc main_arg18) :=
  (W24_of_ne m ρ c main_arg18 (by decide)).trans (W23_arg18 m ρ c)
theorem W25_arg18 (c : Dev nD) : W25 m ρ c (Proc.devRef .tc main_arg18) = m ((c : Thread nD τ).loc main_arg18) :=
  (by host_keep hostOps12 : W25 m ρ c (Proc.devRef .tc main_arg18) = W24 m ρ c (Proc.devRef .tc main_arg18)).trans (W24_arg18 m ρ c)
theorem W26_arg18 (c : Dev nD) : W26 m ρ c (Proc.devRef .tc main_arg18) = m ((c : Thread nD τ).loc main_arg18) :=
  (W26_of_ne m ρ c main_arg18 (by decide)).trans (W25_arg18 m ρ c)

/-! ## Argument 19 -/
theorem W0_arg19 (c : Dev nD) : W0 m ρ c (Proc.devRef .tc main_arg19) = m ((c : Thread nD τ).loc main_arg19) := rfl
theorem W1_arg19 (c : Dev nD) : W1 m ρ c (Proc.devRef .tc main_arg19) = m ((c : Thread nD τ).loc main_arg19) :=
  (by host_keep hostOps0 : W1 m ρ c (Proc.devRef .tc main_arg19) = W0 m ρ c (Proc.devRef .tc main_arg19)).trans (W0_arg19 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) :=
  (by host_keep hostOps1 : W3 m ρ c (Proc.devRef .tc main_arg19) = W2 m ρ c (Proc.devRef .tc main_arg19)).trans (W2_arg19 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W5_arg19 (c : Dev nD) : W5 m ρ c (Proc.devRef .tc main_arg19) = m ((c : Thread nD τ).loc main_arg19) :=
  (by host_keep hostOps2 : W5 m ρ c (Proc.devRef .tc main_arg19) = W4 m ρ c (Proc.devRef .tc main_arg19)).trans (W4_arg19 m ρ c)
theorem W6_arg19 (c : Dev nD) : W6 m ρ c (Proc.devRef .tc main_arg19) = m ((c : Thread nD τ).loc main_arg19) :=
  (W6_of_ne m ρ c main_arg19 (by decide)).trans (W5_arg19 m ρ c)
theorem W7_arg19 (c : Dev nD) : W7 m ρ c (Proc.devRef .tc main_arg19) = m ((c : Thread nD τ).loc main_arg19) :=
  (by host_keep hostOps3 : W7 m ρ c (Proc.devRef .tc main_arg19) = W6 m ρ c (Proc.devRef .tc main_arg19)).trans (W6_arg19 m ρ c)
theorem W8_arg19 (c : Dev nD) : W8 m ρ c (Proc.devRef .tc main_arg19) = m ((c : Thread nD τ).loc main_arg19) :=
  (W8_of_ne m ρ c main_arg19 (by decide)).trans (W7_arg19 m ρ c)
theorem W9_arg19 (c : Dev nD) : W9 m ρ c (Proc.devRef .tc main_arg19) = m ((c : Thread nD τ).loc main_arg19) :=
  (by host_keep hostOps4 : W9 m ρ c (Proc.devRef .tc main_arg19) = W8 m ρ c (Proc.devRef .tc main_arg19)).trans (W8_arg19 m ρ c)
theorem W10_arg19 (c : Dev nD) : W10 m ρ c (Proc.devRef .tc main_arg19) = m ((c : Thread nD τ).loc main_arg19) :=
  (W10_of_ne m ρ c main_arg19 (by decide)).trans (W9_arg19 m ρ c)
theorem W11_arg19 (c : Dev nD) : W11 m ρ c (Proc.devRef .tc main_arg19) = m ((c : Thread nD τ).loc main_arg19) :=
  (by host_keep hostOps5 : W11 m ρ c (Proc.devRef .tc main_arg19) = W10 m ρ c (Proc.devRef .tc main_arg19)).trans (W10_arg19 m ρ c)
theorem W12_arg19 (c : Dev nD) : W12 m ρ c (Proc.devRef .tc main_arg19) = m ((c : Thread nD τ).loc main_arg19) :=
  (W12_of_ne m ρ c main_arg19 (by decide)).trans (W11_arg19 m ρ c)
theorem W13_arg19 (c : Dev nD) : W13 m ρ c (Proc.devRef .tc main_arg19) = m ((c : Thread nD τ).loc main_arg19) :=
  (by host_keep hostOps6 : W13 m ρ c (Proc.devRef .tc main_arg19) = W12 m ρ c (Proc.devRef .tc main_arg19)).trans (W12_arg19 m ρ c)
theorem W14_arg19 (c : Dev nD) : W14 m ρ c (Proc.devRef .tc main_arg19) = m ((c : Thread nD τ).loc main_arg19) :=
  (W14_of_ne m ρ c main_arg19 (by decide)).trans (W13_arg19 m ρ c)
theorem W15_arg19 (c : Dev nD) : W15 m ρ c (Proc.devRef .tc main_arg19) = m ((c : Thread nD τ).loc main_arg19) :=
  (by host_keep hostOps7 : W15 m ρ c (Proc.devRef .tc main_arg19) = W14 m ρ c (Proc.devRef .tc main_arg19)).trans (W14_arg19 m ρ c)
theorem W16_arg19 (c : Dev nD) : W16 m ρ c (Proc.devRef .tc main_arg19) = m ((c : Thread nD τ).loc main_arg19) :=
  (W16_of_ne m ρ c main_arg19 (by decide)).trans (W15_arg19 m ρ c)
theorem W17_arg19 (c : Dev nD) : W17 m ρ c (Proc.devRef .tc main_arg19) = m ((c : Thread nD τ).loc main_arg19) :=
  (by host_keep hostOps8 : W17 m ρ c (Proc.devRef .tc main_arg19) = W16 m ρ c (Proc.devRef .tc main_arg19)).trans (W16_arg19 m ρ c)
theorem W18_arg19 (c : Dev nD) : W18 m ρ c (Proc.devRef .tc main_arg19) = m ((c : Thread nD τ).loc main_arg19) :=
  (W18_of_ne m ρ c main_arg19 (by decide)).trans (W17_arg19 m ρ c)
theorem W19_arg19 (c : Dev nD) : W19 m ρ c (Proc.devRef .tc main_arg19) = m ((c : Thread nD τ).loc main_arg19) :=
  (by host_keep hostOps9 : W19 m ρ c (Proc.devRef .tc main_arg19) = W18 m ρ c (Proc.devRef .tc main_arg19)).trans (W18_arg19 m ρ c)
theorem W20_arg19 (c : Dev nD) : W20 m ρ c (Proc.devRef .tc main_arg19) = m ((c : Thread nD τ).loc main_arg19) :=
  (W20_of_ne m ρ c main_arg19 (by decide)).trans (W19_arg19 m ρ c)
theorem W21_arg19 (c : Dev nD) : W21 m ρ c (Proc.devRef .tc main_arg19) = m ((c : Thread nD τ).loc main_arg19) :=
  (by host_keep hostOps10 : W21 m ρ c (Proc.devRef .tc main_arg19) = W20 m ρ c (Proc.devRef .tc main_arg19)).trans (W20_arg19 m ρ c)
theorem W22_arg19 (c : Dev nD) : W22 m ρ c (Proc.devRef .tc main_arg19) = m ((c : Thread nD τ).loc main_arg19) :=
  (W22_of_ne m ρ c main_arg19 (by decide)).trans (W21_arg19 m ρ c)
theorem W23_arg19 (c : Dev nD) : W23 m ρ c (Proc.devRef .tc main_arg19) = m ((c : Thread nD τ).loc main_arg19) :=
  (by host_keep hostOps11 : W23 m ρ c (Proc.devRef .tc main_arg19) = W22 m ρ c (Proc.devRef .tc main_arg19)).trans (W22_arg19 m ρ c)
theorem W24_arg19 (c : Dev nD) : W24 m ρ c (Proc.devRef .tc main_arg19) = m ((c : Thread nD τ).loc main_arg19) :=
  (W24_of_ne m ρ c main_arg19 (by decide)).trans (W23_arg19 m ρ c)
theorem W25_arg19 (c : Dev nD) : W25 m ρ c (Proc.devRef .tc main_arg19) = m ((c : Thread nD τ).loc main_arg19) :=
  (by host_keep hostOps12 : W25 m ρ c (Proc.devRef .tc main_arg19) = W24 m ρ c (Proc.devRef .tc main_arg19)).trans (W24_arg19 m ρ c)
theorem W26_arg19 (c : Dev nD) : W26 m ρ c (Proc.devRef .tc main_arg19) = m ((c : Thread nD τ).loc main_arg19) :=
  (W26_of_ne m ρ c main_arg19 (by decide)).trans (W25_arg19 m ρ c)

/-! ## Argument 20 -/
theorem W0_arg20 (c : Dev nD) : W0 m ρ c (Proc.devRef .tc main_arg20) = m ((c : Thread nD τ).loc main_arg20) := rfl
theorem W1_arg20 (c : Dev nD) : W1 m ρ c (Proc.devRef .tc main_arg20) = m ((c : Thread nD τ).loc main_arg20) :=
  (by host_keep hostOps0 : W1 m ρ c (Proc.devRef .tc main_arg20) = W0 m ρ c (Proc.devRef .tc main_arg20)).trans (W0_arg20 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W3_arg20 (c : Dev nD) : W3 m ρ c (Proc.devRef .tc main_arg20) = m ((c : Thread nD τ).loc main_arg20) :=
  (by host_keep hostOps1 : W3 m ρ c (Proc.devRef .tc main_arg20) = W2 m ρ c (Proc.devRef .tc main_arg20)).trans (W2_arg20 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W5_arg20 (c : Dev nD) : W5 m ρ c (Proc.devRef .tc main_arg20) = m ((c : Thread nD τ).loc main_arg20) :=
  (by host_keep hostOps2 : W5 m ρ c (Proc.devRef .tc main_arg20) = W4 m ρ c (Proc.devRef .tc main_arg20)).trans (W4_arg20 m ρ c)
theorem W6_arg20 (c : Dev nD) : W6 m ρ c (Proc.devRef .tc main_arg20) = m ((c : Thread nD τ).loc main_arg20) :=
  (W6_of_ne m ρ c main_arg20 (by decide)).trans (W5_arg20 m ρ c)
theorem W7_arg20 (c : Dev nD) : W7 m ρ c (Proc.devRef .tc main_arg20) = m ((c : Thread nD τ).loc main_arg20) :=
  (by host_keep hostOps3 : W7 m ρ c (Proc.devRef .tc main_arg20) = W6 m ρ c (Proc.devRef .tc main_arg20)).trans (W6_arg20 m ρ c)
theorem W8_arg20 (c : Dev nD) : W8 m ρ c (Proc.devRef .tc main_arg20) = m ((c : Thread nD τ).loc main_arg20) :=
  (W8_of_ne m ρ c main_arg20 (by decide)).trans (W7_arg20 m ρ c)
theorem W9_arg20 (c : Dev nD) : W9 m ρ c (Proc.devRef .tc main_arg20) = m ((c : Thread nD τ).loc main_arg20) :=
  (by host_keep hostOps4 : W9 m ρ c (Proc.devRef .tc main_arg20) = W8 m ρ c (Proc.devRef .tc main_arg20)).trans (W8_arg20 m ρ c)
theorem W10_arg20 (c : Dev nD) : W10 m ρ c (Proc.devRef .tc main_arg20) = m ((c : Thread nD τ).loc main_arg20) :=
  (W10_of_ne m ρ c main_arg20 (by decide)).trans (W9_arg20 m ρ c)
theorem W11_arg20 (c : Dev nD) : W11 m ρ c (Proc.devRef .tc main_arg20) = m ((c : Thread nD τ).loc main_arg20) :=
  (by host_keep hostOps5 : W11 m ρ c (Proc.devRef .tc main_arg20) = W10 m ρ c (Proc.devRef .tc main_arg20)).trans (W10_arg20 m ρ c)
theorem W12_arg20 (c : Dev nD) : W12 m ρ c (Proc.devRef .tc main_arg20) = m ((c : Thread nD τ).loc main_arg20) :=
  (W12_of_ne m ρ c main_arg20 (by decide)).trans (W11_arg20 m ρ c)
theorem W13_arg20 (c : Dev nD) : W13 m ρ c (Proc.devRef .tc main_arg20) = m ((c : Thread nD τ).loc main_arg20) :=
  (by host_keep hostOps6 : W13 m ρ c (Proc.devRef .tc main_arg20) = W12 m ρ c (Proc.devRef .tc main_arg20)).trans (W12_arg20 m ρ c)
theorem W14_arg20 (c : Dev nD) : W14 m ρ c (Proc.devRef .tc main_arg20) = m ((c : Thread nD τ).loc main_arg20) :=
  (W14_of_ne m ρ c main_arg20 (by decide)).trans (W13_arg20 m ρ c)
theorem W15_arg20 (c : Dev nD) : W15 m ρ c (Proc.devRef .tc main_arg20) = m ((c : Thread nD τ).loc main_arg20) :=
  (by host_keep hostOps7 : W15 m ρ c (Proc.devRef .tc main_arg20) = W14 m ρ c (Proc.devRef .tc main_arg20)).trans (W14_arg20 m ρ c)
theorem W16_arg20 (c : Dev nD) : W16 m ρ c (Proc.devRef .tc main_arg20) = m ((c : Thread nD τ).loc main_arg20) :=
  (W16_of_ne m ρ c main_arg20 (by decide)).trans (W15_arg20 m ρ c)
theorem W17_arg20 (c : Dev nD) : W17 m ρ c (Proc.devRef .tc main_arg20) = m ((c : Thread nD τ).loc main_arg20) :=
  (by host_keep hostOps8 : W17 m ρ c (Proc.devRef .tc main_arg20) = W16 m ρ c (Proc.devRef .tc main_arg20)).trans (W16_arg20 m ρ c)
theorem W18_arg20 (c : Dev nD) : W18 m ρ c (Proc.devRef .tc main_arg20) = m ((c : Thread nD τ).loc main_arg20) :=
  (W18_of_ne m ρ c main_arg20 (by decide)).trans (W17_arg20 m ρ c)
theorem W19_arg20 (c : Dev nD) : W19 m ρ c (Proc.devRef .tc main_arg20) = m ((c : Thread nD τ).loc main_arg20) :=
  (by host_keep hostOps9 : W19 m ρ c (Proc.devRef .tc main_arg20) = W18 m ρ c (Proc.devRef .tc main_arg20)).trans (W18_arg20 m ρ c)
theorem W20_arg20 (c : Dev nD) : W20 m ρ c (Proc.devRef .tc main_arg20) = m ((c : Thread nD τ).loc main_arg20) :=
  (W20_of_ne m ρ c main_arg20 (by decide)).trans (W19_arg20 m ρ c)
theorem W21_arg20 (c : Dev nD) : W21 m ρ c (Proc.devRef .tc main_arg20) = m ((c : Thread nD τ).loc main_arg20) :=
  (by host_keep hostOps10 : W21 m ρ c (Proc.devRef .tc main_arg20) = W20 m ρ c (Proc.devRef .tc main_arg20)).trans (W20_arg20 m ρ c)
theorem W22_arg20 (c : Dev nD) : W22 m ρ c (Proc.devRef .tc main_arg20) = m ((c : Thread nD τ).loc main_arg20) :=
  (W22_of_ne m ρ c main_arg20 (by decide)).trans (W21_arg20 m ρ c)
theorem W23_arg20 (c : Dev nD) : W23 m ρ c (Proc.devRef .tc main_arg20) = m ((c : Thread nD τ).loc main_arg20) :=
  (by host_keep hostOps11 : W23 m ρ c (Proc.devRef .tc main_arg20) = W22 m ρ c (Proc.devRef .tc main_arg20)).trans (W22_arg20 m ρ c)
theorem W24_arg20 (c : Dev nD) : W24 m ρ c (Proc.devRef .tc main_arg20) = m ((c : Thread nD τ).loc main_arg20) :=
  (W24_of_ne m ρ c main_arg20 (by decide)).trans (W23_arg20 m ρ c)
theorem W25_arg20 (c : Dev nD) : W25 m ρ c (Proc.devRef .tc main_arg20) = m ((c : Thread nD τ).loc main_arg20) :=
  (by host_keep hostOps12 : W25 m ρ c (Proc.devRef .tc main_arg20) = W24 m ρ c (Proc.devRef .tc main_arg20)).trans (W24_arg20 m ρ c)
theorem W26_arg20 (c : Dev nD) : W26 m ρ c (Proc.devRef .tc main_arg20) = m ((c : Thread nD τ).loc main_arg20) :=
  (W26_of_ne m ρ c main_arg20 (by decide)).trans (W25_arg20 m ρ c)
theorem W27_arg20 (c : Dev nD) : W27 m ρ c (Proc.devRef .tc main_arg20) = m ((c : Thread nD τ).loc main_arg20) :=
  (by host_keep hostOps13 : W27 m ρ c (Proc.devRef .tc main_arg20) = W26 m ρ c (Proc.devRef .tc main_arg20)).trans (W26_arg20 m ρ c)
theorem W28_arg20 (c : Dev nD) : W28 m ρ c (Proc.devRef .tc main_arg20) = m ((c : Thread nD τ).loc main_arg20) :=
  (W28_of_ne m ρ c main_arg20 (by decide)).trans (W27_arg20 m ρ c)

/-! ## Argument 21 -/
theorem W0_arg21 (c : Dev nD) : W0 m ρ c (Proc.devRef .tc main_arg21) = m ((c : Thread nD τ).loc main_arg21) := rfl
theorem W1_arg21 (c : Dev nD) : W1 m ρ c (Proc.devRef .tc main_arg21) = m ((c : Thread nD τ).loc main_arg21) :=
  (by host_keep hostOps0 : W1 m ρ c (Proc.devRef .tc main_arg21) = W0 m ρ c (Proc.devRef .tc main_arg21)).trans (W0_arg21 m ρ c)
theorem W2_arg21 (c : Dev nD) : W2 m ρ c (Proc.devRef .tc main_arg21) = m ((c : Thread nD τ).loc main_arg21) :=
  (W2_of_ne m ρ c main_arg21 (by decide)).trans (W1_arg21 m ρ c)
theorem W3_arg21 (c : Dev nD) : W3 m ρ c (Proc.devRef .tc main_arg21) = m ((c : Thread nD τ).loc main_arg21) :=
  (by host_keep hostOps1 : W3 m ρ c (Proc.devRef .tc main_arg21) = W2 m ρ c (Proc.devRef .tc main_arg21)).trans (W2_arg21 m ρ c)
theorem W4_arg21 (c : Dev nD) : W4 m ρ c (Proc.devRef .tc main_arg21) = m ((c : Thread nD τ).loc main_arg21) :=
  (W4_of_ne m ρ c main_arg21 (by decide)).trans (W3_arg21 m ρ c)
theorem W5_arg21 (c : Dev nD) : W5 m ρ c (Proc.devRef .tc main_arg21) = m ((c : Thread nD τ).loc main_arg21) :=
  (by host_keep hostOps2 : W5 m ρ c (Proc.devRef .tc main_arg21) = W4 m ρ c (Proc.devRef .tc main_arg21)).trans (W4_arg21 m ρ c)
theorem W6_arg21 (c : Dev nD) : W6 m ρ c (Proc.devRef .tc main_arg21) = m ((c : Thread nD τ).loc main_arg21) :=
  (W6_of_ne m ρ c main_arg21 (by decide)).trans (W5_arg21 m ρ c)
theorem W7_arg21 (c : Dev nD) : W7 m ρ c (Proc.devRef .tc main_arg21) = m ((c : Thread nD τ).loc main_arg21) :=
  (by host_keep hostOps3 : W7 m ρ c (Proc.devRef .tc main_arg21) = W6 m ρ c (Proc.devRef .tc main_arg21)).trans (W6_arg21 m ρ c)
theorem W8_arg21 (c : Dev nD) : W8 m ρ c (Proc.devRef .tc main_arg21) = m ((c : Thread nD τ).loc main_arg21) :=
  (W8_of_ne m ρ c main_arg21 (by decide)).trans (W7_arg21 m ρ c)
theorem W9_arg21 (c : Dev nD) : W9 m ρ c (Proc.devRef .tc main_arg21) = m ((c : Thread nD τ).loc main_arg21) :=
  (by host_keep hostOps4 : W9 m ρ c (Proc.devRef .tc main_arg21) = W8 m ρ c (Proc.devRef .tc main_arg21)).trans (W8_arg21 m ρ c)
theorem W10_arg21 (c : Dev nD) : W10 m ρ c (Proc.devRef .tc main_arg21) = m ((c : Thread nD τ).loc main_arg21) :=
  (W10_of_ne m ρ c main_arg21 (by decide)).trans (W9_arg21 m ρ c)
theorem W11_arg21 (c : Dev nD) : W11 m ρ c (Proc.devRef .tc main_arg21) = m ((c : Thread nD τ).loc main_arg21) :=
  (by host_keep hostOps5 : W11 m ρ c (Proc.devRef .tc main_arg21) = W10 m ρ c (Proc.devRef .tc main_arg21)).trans (W10_arg21 m ρ c)
theorem W12_arg21 (c : Dev nD) : W12 m ρ c (Proc.devRef .tc main_arg21) = m ((c : Thread nD τ).loc main_arg21) :=
  (W12_of_ne m ρ c main_arg21 (by decide)).trans (W11_arg21 m ρ c)
theorem W13_arg21 (c : Dev nD) : W13 m ρ c (Proc.devRef .tc main_arg21) = m ((c : Thread nD τ).loc main_arg21) :=
  (by host_keep hostOps6 : W13 m ρ c (Proc.devRef .tc main_arg21) = W12 m ρ c (Proc.devRef .tc main_arg21)).trans (W12_arg21 m ρ c)
theorem W14_arg21 (c : Dev nD) : W14 m ρ c (Proc.devRef .tc main_arg21) = m ((c : Thread nD τ).loc main_arg21) :=
  (W14_of_ne m ρ c main_arg21 (by decide)).trans (W13_arg21 m ρ c)
theorem W15_arg21 (c : Dev nD) : W15 m ρ c (Proc.devRef .tc main_arg21) = m ((c : Thread nD τ).loc main_arg21) :=
  (by host_keep hostOps7 : W15 m ρ c (Proc.devRef .tc main_arg21) = W14 m ρ c (Proc.devRef .tc main_arg21)).trans (W14_arg21 m ρ c)
theorem W16_arg21 (c : Dev nD) : W16 m ρ c (Proc.devRef .tc main_arg21) = m ((c : Thread nD τ).loc main_arg21) :=
  (W16_of_ne m ρ c main_arg21 (by decide)).trans (W15_arg21 m ρ c)
theorem W17_arg21 (c : Dev nD) : W17 m ρ c (Proc.devRef .tc main_arg21) = m ((c : Thread nD τ).loc main_arg21) :=
  (by host_keep hostOps8 : W17 m ρ c (Proc.devRef .tc main_arg21) = W16 m ρ c (Proc.devRef .tc main_arg21)).trans (W16_arg21 m ρ c)
theorem W18_arg21 (c : Dev nD) : W18 m ρ c (Proc.devRef .tc main_arg21) = m ((c : Thread nD τ).loc main_arg21) :=
  (W18_of_ne m ρ c main_arg21 (by decide)).trans (W17_arg21 m ρ c)
theorem W19_arg21 (c : Dev nD) : W19 m ρ c (Proc.devRef .tc main_arg21) = m ((c : Thread nD τ).loc main_arg21) :=
  (by host_keep hostOps9 : W19 m ρ c (Proc.devRef .tc main_arg21) = W18 m ρ c (Proc.devRef .tc main_arg21)).trans (W18_arg21 m ρ c)
theorem W20_arg21 (c : Dev nD) : W20 m ρ c (Proc.devRef .tc main_arg21) = m ((c : Thread nD τ).loc main_arg21) :=
  (W20_of_ne m ρ c main_arg21 (by decide)).trans (W19_arg21 m ρ c)
theorem W21_arg21 (c : Dev nD) : W21 m ρ c (Proc.devRef .tc main_arg21) = m ((c : Thread nD τ).loc main_arg21) :=
  (by host_keep hostOps10 : W21 m ρ c (Proc.devRef .tc main_arg21) = W20 m ρ c (Proc.devRef .tc main_arg21)).trans (W20_arg21 m ρ c)
theorem W22_arg21 (c : Dev nD) : W22 m ρ c (Proc.devRef .tc main_arg21) = m ((c : Thread nD τ).loc main_arg21) :=
  (W22_of_ne m ρ c main_arg21 (by decide)).trans (W21_arg21 m ρ c)
theorem W23_arg21 (c : Dev nD) : W23 m ρ c (Proc.devRef .tc main_arg21) = m ((c : Thread nD τ).loc main_arg21) :=
  (by host_keep hostOps11 : W23 m ρ c (Proc.devRef .tc main_arg21) = W22 m ρ c (Proc.devRef .tc main_arg21)).trans (W22_arg21 m ρ c)
theorem W24_arg21 (c : Dev nD) : W24 m ρ c (Proc.devRef .tc main_arg21) = m ((c : Thread nD τ).loc main_arg21) :=
  (W24_of_ne m ρ c main_arg21 (by decide)).trans (W23_arg21 m ρ c)
theorem W25_arg21 (c : Dev nD) : W25 m ρ c (Proc.devRef .tc main_arg21) = m ((c : Thread nD τ).loc main_arg21) :=
  (by host_keep hostOps12 : W25 m ρ c (Proc.devRef .tc main_arg21) = W24 m ρ c (Proc.devRef .tc main_arg21)).trans (W24_arg21 m ρ c)
theorem W26_arg21 (c : Dev nD) : W26 m ρ c (Proc.devRef .tc main_arg21) = m ((c : Thread nD τ).loc main_arg21) :=
  (W26_of_ne m ρ c main_arg21 (by decide)).trans (W25_arg21 m ρ c)
theorem W27_arg21 (c : Dev nD) : W27 m ρ c (Proc.devRef .tc main_arg21) = m ((c : Thread nD τ).loc main_arg21) :=
  (by host_keep hostOps13 : W27 m ρ c (Proc.devRef .tc main_arg21) = W26 m ρ c (Proc.devRef .tc main_arg21)).trans (W26_arg21 m ρ c)
theorem W28_arg21 (c : Dev nD) : W28 m ρ c (Proc.devRef .tc main_arg21) = m ((c : Thread nD τ).loc main_arg21) :=
  (W28_of_ne m ρ c main_arg21 (by decide)).trans (W27_arg21 m ρ c)

end Cert.KernelIdeal.KArgs

end
-- ==== Proof.LibChebAlgebra.lean ====
/-
  One propagation step of the normalised graph Laplacian, computed in two ways, over the extended reals.

  A graph has N nodes and E edges. Edge e carries a source word and a destination word, read as
  integers σs e and σd e, and the row numbers gs e, gd e of the rows that are fetched for it. With the
  inverse square-root degrees dinv and the node features h, both real-valued, one side gathers
  dinv (gs e) · h (gs e) along every edge that lands on node n, subtracts (number of self-loops at n)
  · dinv n · h n, and multiplies the difference by -dinv n; the other side sums, over the edges that
  land on n, the products (-dinv (gs e)) · [e is no self-loop] · dinv (gd e) · h (gs e). A self-loop at n
  contributes exactly dinv n · h n to the gathered sum, and the self-loops at n are exactly the edges the
  count counts, so the difference is the sum over the edges that are no self-loops; distributing the
  factor -dinv n over that sum gives the other side. Distributing a factor over a sum is valid on the
  extended reals only when the entries are real numbers, so every statement here carries that
  hypothesis, and the file also collects the closure rules "a real combination of reals is real" that
  discharge it: sums, products, differences, maxima, quotients by a non-zero real, inverse square roots
  of positive reals, the inverse square-root degree, and a layer-normalised row. Last, a sum over 3·d
  indices splits into three sums over d indices (a contraction against three stacked blocks).
-/
import Mathlib.Data.EReal.Operations
import Mathlib.Algebra.BigOperators.Intervals
import Mathlib.Algebra.BigOperators.Fin
import Mathlib.Tactic.Ring
import Idealize.ShloMosaic.PureOps.Ideal

namespace Cert.Lib.Cheb

open Finset
open Idealize.ShloMosaic

/-- An extended real is REAL when it is the image of a real number. -/
def IsReal (x : EReal) : Prop := ∃ r : ℝ, x = (r : EReal)

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The image of a real chosen by a condition is the image chosen by the same condition. -/
theorem coe_ite (p : Prop) [Decidable p] (a b : ℝ) :
    ((if p then a else b : ℝ) : EReal) = if p then (a : EReal) else (b : EReal) := by
  split <;> rfl

/-- The two forms of the propagation step agree over the reals: termwise, a self-loop landing on n
    cancels against its share of the count, and every other edge landing on n contributes
    -dinv n · dinv (gs e) · h (gs e). -/
theorem prop_eq_real {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (d : Fin N → ℝ) (H : Fin N → Fin D → ℝ) (n : Fin N) (j : Fin D) :
    ((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j))
      = (0 + ∑ e : Fin E, if σd e = (n.val : ℤ) then
            ((((-1 : ℝ) * d (gs e)) * (if same e then (0 : ℝ) else 1)) * d (gd e)) * H (gs e) j else 0)
        + 0 * H n j := by
  rw [zero_add, zero_add, zero_add, zero_mul, add_zero, Finset.sum_mul, ← Finset.sum_sub_distrib,
    Finset.mul_sum]
  refine Finset.sum_congr rfl fun e _ => ?_
  by_cases h2 : same e
  · obtain ⟨hσ, hg⟩ := hsame e h2
    by_cases h1 : σd e = (n.val : ℤ)
    · have hgd : gd e = n := hd e n h1
      have hgs : gs e = n := hg.trans hgd
      rw [hσ, if_pos h1, if_pos h1, if_pos h2, if_pos h1, if_pos h2, hgs]
      ring
    · rw [hσ, if_neg h1, if_neg h1, if_neg h1]
      ring
  · by_cases h1 : σd e = (n.val : ℤ)
    · have hgd : gd e = n := hd e n h1
      rw [if_pos h1, if_neg h2, if_pos h1, if_neg h2, hgd, ite_self]
      ring
    · rw [if_neg h1, if_neg h2, if_neg h1, ite_self]
      ring

/-- The kernel-side form of the propagation step is the image of the same expression over the reals. -/
theorem lhs_coe {N E D : ℕ} (σs σd : Fin E → ℤ) (gs : Fin E → Fin N) (same : Fin E → Prop)
    [DecidablePred same] (d : Fin N → ℝ) (H : Fin N → Fin D → ℝ) (n : Fin N) (j : Fin D) :
    ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = ((((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j)) : ℝ) : EReal) := by
  simp only [coe_sum, coe_ite, EReal.coe_add, EReal.coe_sub, EReal.coe_mul, EReal.coe_neg,
    EReal.coe_zero, EReal.coe_one]

/-- The reference-side form of the propagation step is the image of the same expression over the reals. -/
theorem rhs_coe {N E D : ℕ} (σd : Fin E → ℤ) (gs gd : Fin E → Fin N) (same : Fin E → Prop)
    [DecidablePred same] (d : Fin N → ℝ) (H : Fin N → Fin D → ℝ) (n : Fin N) (j : Fin D) :
    (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
      = (((0 + ∑ e : Fin E, if σd e = (n.val : ℤ) then
            ((((-1 : ℝ) * d (gs e)) * (if same e then (0 : ℝ) else 1)) * d (gd e)) * H (gs e) j else 0)
        + 0 * H n j : ℝ) : EReal) := by
  simp only [coe_sum, coe_ite, EReal.coe_add, EReal.coe_mul, EReal.coe_neg, EReal.coe_zero,
    EReal.coe_one]

/-- C1. One propagation step of the normalised Laplacian: the gathered sum minus the self-loop count
    times the node's own term, scaled by -dinv n, equals the sum over the edges landing on n of
    (-dinv (gs e)) · [no self-loop] · dinv (gd e) · h (gs e). The entries are real, so both sides are
    images of real expressions, which agree termwise. -/
theorem prop_eq {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (dinv : Fin N → EReal) (hdinv : ∀ n, IsReal (dinv n))
    (h : Fin N → Fin D → EReal) (hh : ∀ n j, IsReal (h n j)) (n : Fin N) (j : Fin D) :
    ((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))
      = (0 + ∑ e : Fin E, if σd e = (n.val : ℤ) then
            ((((-1 : EReal) * dinv (gs e)) * (if same e then (0 : EReal) else 1)) * dinv (gd e))
              * h (gs e) j else 0)
        + 0 * h n j := by
  choose d hd' using hdinv
  choose H hH using hh
  obtain rfl : dinv = fun n => (d n : EReal) := funext hd'
  obtain rfl : h = fun n j => (H n j : EReal) := funext fun n => funext fun j => hH n j
  show ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
  rw [lhs_coe, rhs_coe, prop_eq_real σs σd gs gd same hsame hd d H n j]

/-- C1'. The kernel-side form of the propagation step is real when its entries are. -/
theorem prop_real {N E D : ℕ} (σs σd : Fin E → ℤ) (gs : Fin E → Fin N) (same : Fin E → Prop)
    [DecidablePred same]
    (dinv : Fin N → EReal) (hdinv : ∀ n, IsReal (dinv n))
    (h : Fin N → Fin D → EReal) (hh : ∀ n j, IsReal (h n j)) (n : Fin N) (j : Fin D) :
    IsReal (((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))) := by
  choose d hd' using hdinv
  choose H hH using hh
  obtain rfl : dinv = fun n => (d n : EReal) := funext hd'
  obtain rfl : h = fun n j => (H n j : EReal) := funext fun n => funext fun j => hH n j
  exact ⟨_, lhs_coe σs σd gs same d H n j⟩

end Cert.Lib.Cheb
-- ==== Proof.LibChebReal.lean ====
/-
  Which extended reals stay real, and how a stacked contraction splits.

  The extended reals are the reals with two infinities added; a value is REAL when it is the image of a
  real number. Sums, differences, products, negations, maxima and conditional choices of reals are
  real, and so is a finite sum of reals. A quotient by a non-zero real is the product with its
  reciprocal, hence real; the inverse square root of a positive real r is 1/√r, hence real. From these:
  the inverse square-root degree "rsqrt (max deg c) when deg > 0, else 0" is real for a real degree and
  a positive real floor c; the mean of a real row over a non-zero real count is real; its variance over
  a positive count is real and non-negative (a sum of squares of reals times a positive reciprocal), so
  adding a positive ε gives a positive real, whose inverse square root is real; therefore every entry
  of the layer-normalised, scaled, shifted and rectified row is real. Last, a sum over the first 3·d
  naturals is the sum of three sums over d naturals (the contraction of a row against three blocks
  stacked on top of each other), also in the form indexed by Fin.
-/
import Mathlib.Data.EReal.Operations
import Mathlib.Algebra.BigOperators.Intervals
import Mathlib.Algebra.BigOperators.Fin
import Mathlib.Algebra.Order.BigOperators.Group.Finset
import Mathlib.Tactic.Ring
import Idealize.ShloMosaic.PureOps.Ideal
import proofs.«132586_j38087769981032_1_alg».proof.Proof.LibChebAlgebra

namespace Cert.Lib.Cheb

open Finset
open Idealize.ShloMosaic

/-! ## C2: closure of the reals under the operations -/

/-- The image of a real number is real. -/
protected theorem IsReal.coe (r : ℝ) : IsReal (r : EReal) := ⟨r, rfl⟩

/-- Zero is real. -/
protected theorem IsReal.zero : IsReal (0 : EReal) := ⟨0, EReal.coe_zero.symm⟩

/-- One is real. -/
protected theorem IsReal.one : IsReal (1 : EReal) := ⟨1, EReal.coe_one.symm⟩

/-- A sum of two reals is real. -/
protected theorem IsReal.add {x y : EReal} (hx : IsReal x) (hy : IsReal y) : IsReal (x + y) := by
  obtain ⟨r, rfl⟩ := hx; obtain ⟨q, rfl⟩ := hy; exact ⟨r + q, (EReal.coe_add r q).symm⟩

/-- A difference of two reals is real. -/
protected theorem IsReal.sub {x y : EReal} (hx : IsReal x) (hy : IsReal y) : IsReal (x - y) := by
  obtain ⟨r, rfl⟩ := hx; obtain ⟨q, rfl⟩ := hy; exact ⟨r - q, (EReal.coe_sub r q).symm⟩

/-- A product of two reals is real. -/
protected theorem IsReal.mul {x y : EReal} (hx : IsReal x) (hy : IsReal y) : IsReal (x * y) := by
  obtain ⟨r, rfl⟩ := hx; obtain ⟨q, rfl⟩ := hy; exact ⟨r * q, (EReal.coe_mul r q).symm⟩

/-- The negative of a real is real. -/
protected theorem IsReal.neg {x : EReal} (hx : IsReal x) : IsReal (-x) := by
  obtain ⟨r, rfl⟩ := hx; exact ⟨-r, (EReal.coe_neg r).symm⟩

/-- The larger of two reals is real. -/
protected theorem IsReal.max {x y : EReal} (hx : IsReal x) (hy : IsReal y) : IsReal (max x y) := by
  obtain ⟨r, rfl⟩ := hx; obtain ⟨q, rfl⟩ := hy
  exact ⟨max r q, (EReal.coe_strictMono.monotone.map_max).symm⟩

/-- A choice between two reals is real. -/
protected theorem IsReal.ite {p : Prop} [Decidable p] {x y : EReal} (hx : IsReal x) (hy : IsReal y) :
    IsReal (if p then x else y) := by
  split
  · exact hx
  · exact hy

/-- A finite sum of reals is real. -/
protected theorem IsReal.sum {ι : Type*} (s : Finset ι) (f : ι → EReal) (hf : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact (hf a (Finset.mem_insert_self a s)).add (ih fun i hi => hf i (Finset.mem_insert_of_mem hi))

/-- A sum of reals over a whole finite index type is real. -/
protected theorem IsReal.sum_univ {ι : Type*} [Fintype ι] (f : ι → EReal) (hf : ∀ i, IsReal (f i)) :
    IsReal (∑ i, f i) :=
  IsReal.sum _ _ fun i _ => hf i

/-- Zero plus a sum of reals over a whole finite index type is real. -/
protected theorem IsReal.zero_add_sum {ι : Type*} [Fintype ι] (f : ι → EReal) (hf : ∀ i, IsReal (f i)) :
    IsReal (0 + ∑ i, f i) :=
  IsReal.zero.add (IsReal.sum_univ f hf)

/-- Zero plus the sum of the selected entries (the others replaced by zero) is real when the selected
    entries are. -/
protected theorem IsReal.zero_add_sum_ite {ι : Type*} [Fintype ι] (p : ι → Prop) [DecidablePred p]
    (f : ι → EReal) (hf : ∀ i, p i → IsReal (f i)) :
    IsReal (0 + ∑ i, if p i then f i else 0) :=
  IsReal.zero.add (IsReal.sum_univ _ fun i => by
    by_cases hp : p i
    · rw [if_pos hp]; exact hf i hp
    · rw [if_neg hp]; exact IsReal.zero)

/-- The quotient of a real by a non-zero real is real: it is the product with the reciprocal. -/
protected theorem IsReal.div {x y : EReal} (hx : IsReal x) (hy : IsReal y) (hy0 : y ≠ 0) :
    IsReal (Ideal.div x y) := by
  obtain ⟨r, rfl⟩ := hx; obtain ⟨q, rfl⟩ := hy
  have hq : q ≠ 0 := fun h => hy0 (by rw [h, EReal.coe_zero])
  exact ⟨r * (1 / q), by rw [Ideal.div_coe hq, EReal.coe_mul]⟩

/-- The inverse square root of a positive real r is the real 1/√r. -/
protected theorem IsReal.rsqrt {x : EReal} (hx : IsReal x) (hpos : 0 < x) : IsReal (Ideal.rsqrt x) := by
  obtain ⟨r, rfl⟩ := hx
  have hr : 0 < r := EReal.coe_pos.mp hpos
  exact ⟨(Real.sqrt r)⁻¹, by rw [Ideal.rsqrt_coe, if_neg (not_lt.mpr hr.le), if_neg hr.ne']⟩

/-! ## C3: the inverse square-root degree -/

/-- C3. For a real degree and a positive real floor c, "rsqrt (max deg c) when deg > 0, else 0" is
    real: max deg c ≥ c > 0. -/
theorem dinv_real (deg c : EReal) (hdeg : IsReal deg) (hc : IsReal c) (hcpos : 0 < c) :
    IsReal (if 0 < deg then Ideal.rsqrt (max deg c) else 0) :=
  IsReal.ite (IsReal.rsqrt (hdeg.max hc) (lt_max_of_lt_right hcpos)) IsReal.zero

/-! ## C4: a layer-normalised row -/

/-- The mean of a real row over a non-zero real count is real. -/
theorem mean_real {D : ℕ} (a : Fin D → EReal) (ha : ∀ k, IsReal (a k)) (dn : EReal) (hdn : IsReal dn)
    (hdn0 : dn ≠ 0) : IsReal (Ideal.div (0 + ∑ k, a k) dn) :=
  IsReal.div (IsReal.zero_add_sum a ha) hdn hdn0

/-- The mean squared deviation of a real row from a real centre, over a positive real count, is a
    non-negative real: a sum of squares times a positive reciprocal. -/
theorem var_real_nonneg {D : ℕ} (a : Fin D → EReal) (ha : ∀ k, IsReal (a k)) (mu dn : EReal)
    (hmu : IsReal mu) (hdn : IsReal dn) (hdnpos : 0 < dn) :
    ∃ v : ℝ, 0 ≤ v ∧ Ideal.div (0 + ∑ k, (a k - mu) * (a k - mu)) dn = (v : EReal) := by
  choose a' ha' using ha
  obtain ⟨m, rfl⟩ := hmu
  obtain ⟨q, rfl⟩ := hdn
  have hq : 0 < q := EReal.coe_pos.mp hdnpos
  have hsum : (0 + ∑ k, (a k - (m : EReal)) * (a k - (m : EReal)))
      = ((∑ k, (a' k - m) * (a' k - m) : ℝ) : EReal) := by
    rw [zero_add, coe_sum]
    exact Finset.sum_congr rfl fun k _ => by rw [ha' k, ← EReal.coe_sub, ← EReal.coe_mul]
  refine ⟨(∑ k, (a' k - m) * (a' k - m)) * (1 / q), ?_, ?_⟩
  · exact mul_nonneg (Finset.sum_nonneg fun k _ => mul_self_nonneg _) (one_div_pos.mpr hq).le
  · rw [hsum, Ideal.div_coe hq.ne', EReal.coe_mul]

/-- The inverse square root of "variance plus a positive real ε" is real, the variance being the mean
    squared deviation of a real row from a real centre over a positive real count. -/
theorem rsqrt_var_real {D : ℕ} (a : Fin D → EReal) (ha : ∀ k, IsReal (a k)) (mu dn eps : EReal)
    (hmu : IsReal mu) (hdn : IsReal dn) (hdnpos : 0 < dn) (heps : IsReal eps) (hepspos : 0 < eps) :
    IsReal (Ideal.rsqrt (Ideal.div (0 + ∑ k, (a k - mu) * (a k - mu)) dn + eps)) := by
  obtain ⟨v, hv0, hv⟩ := var_real_nonneg a ha mu dn hmu hdn hdnpos
  obtain ⟨ε, rfl⟩ := heps
  have hε : 0 < ε := EReal.coe_pos.mp hepspos
  rw [hv, ← EReal.coe_add]
  exact IsReal.rsqrt (IsReal.coe _) (EReal.coe_pos.mpr (add_pos_of_nonneg_of_pos hv0 hε))

/-- C4. Every entry of a layer-normalised row is real: with mu the mean and var the mean squared
    deviation of the real row a over the positive real count dn, and a positive real ε,
    max ((a j - mu) · rsqrt (var + ε) · g j + bt j) 0 is real for real scale g and shift bt. The mean
    and the variance enter as named values together with their defining equations. -/
theorem layernorm_real {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (mu var : EReal) (hmu : mu = Ideal.div (0 + ∑ k, a k) dn)
    (hvar : var = Ideal.div (0 + ∑ k, (a k - mu) * (a k - mu)) dn) (j : Fin D) :
    IsReal (max (((a j - mu) * Ideal.rsqrt (var + eps)) * g j + bt j) 0) := by
  have hmuR : IsReal mu := by rw [hmu]; exact mean_real a ha dn hdn hdnpos.ne'
  have hrs : IsReal (Ideal.rsqrt (var + eps)) := by
    rw [hvar]; exact rsqrt_var_real a ha mu dn eps hmuR hdn hdnpos heps hepspos
  exact (((((ha j).sub hmuR).mul hrs).mul (hg j)).add (hbt j)).max IsReal.zero

/-- C4, with the mean and the variance written out. -/
theorem layernorm_real' {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (j : Fin D) :
    IsReal (max (((a j - Ideal.div (0 + ∑ k, a k) dn)
        * Ideal.rsqrt (Ideal.div (0 + ∑ k, (a k - Ideal.div (0 + ∑ k, a k) dn)
            * (a k - Ideal.div (0 + ∑ k, a k) dn)) dn + eps)) * g j + bt j) 0) :=
  layernorm_real a g bt ha hg hbt dn eps hdn hdnpos heps hepspos _ _ rfl rfl j

/-! ## C5: a contraction against three stacked blocks -/

/-- C5. A sum over the first 3·d naturals is the sum over the first d, plus the sum over the next d,
    plus the sum over the last d. -/
theorem sum_three {M : Type*} [AddCommMonoid M] (d : ℕ) (f : ℕ → M) :
    ∑ k ∈ Finset.range (3 * d), f k
      = (∑ k ∈ Finset.range d, f k + ∑ k ∈ Finset.range d, f (d + k))
        + ∑ k ∈ Finset.range d, f (2 * d + k) := by
  have h3 : 3 * d = d + d + d := by ring
  rw [h3, Finset.sum_range_add, Finset.sum_range_add, two_mul]

/-- C5 indexed by Fin: a sum over Fin (3·d) of a function of the underlying natural splits into three
    sums over Fin d. -/
theorem sum_three_fin {M : Type*} [AddCommMonoid M] (d : ℕ) (f : ℕ → M) :
    ∑ k : Fin (3 * d), f k.val
      = (∑ k : Fin d, f k.val + ∑ k : Fin d, f (d + k.val)) + ∑ k : Fin d, f (2 * d + k.val) := by
  have h1 : ∑ k : Fin (3 * d), f k.val = ∑ k ∈ Finset.range (3 * d), f k :=
    Fin.sum_univ_eq_sum_range f (3 * d)
  have h2 : ∑ k : Fin d, f k.val = ∑ k ∈ Finset.range d, f k := Fin.sum_univ_eq_sum_range f d
  have h3 : ∑ k : Fin d, f (d + k.val) = ∑ k ∈ Finset.range d, f (d + k) :=
    Fin.sum_univ_eq_sum_range (fun k => f (d + k)) d
  have h4 : ∑ k : Fin d, f (2 * d + k.val) = ∑ k ∈ Finset.range d, f (2 * d + k) :=
    Fin.sum_univ_eq_sum_range (fun k => f (2 * d + k)) d
  rw [h1, h2, h3, h4]
  exact sum_three d f

end Cert.Lib.Cheb
-- ==== Proof.GinLaws.lean ====
/-
  The two laws that join the fused graph layer to the plain one, on the extended reals, for entries known to be real.

  A graph layer applies one affine map x ↦ x·W + b to a row and to the row plus its neighbours' sum, and adds the two
  results; fused, it applies the map's linear part once to twice the row plus the neighbours' sum and adds twice the
  bias. On real entries the two are equal by distributivity (which fails at the infinities, hence the hypothesis).

  A batch normalisation needs the variance of a column: the mean of the squared deviations from the mean, or the mean of
  the squares less the square of the mean. On real entries over a count that is the number of rows the two are equal;
  the variance is a non-negative real, so adding a positive ε gives a positive real whose inverse square root is real,
  and the normalised, scaled, shifted and rectified entry is real.
-/
import proofs.«132586_j38087769981032_1_alg».proof.Proof.LibChebReal

namespace Cert.GinLaws

open Finset Idealize.ShloMosaic Cert.Lib.Cheb

/-- The image of a finite sum of reals is the sum of the images. -/
theorem coe_sum' {ι : Type*} (s : Finset ι) (f : ι → ℝ) : ((∑ i ∈ s, f i : ℝ) : EReal) = ∑ i ∈ s, (f i : EReal) :=
  Cert.Lib.Cheb.coe_sum s f

/-- Real entries of a family, chosen at once. -/
theorem choose_real {ι : Type*} {f : ι → EReal} (h : ∀ i, IsReal (f i)) : ∃ g : ι → ℝ, ∀ i, f i = (g i : EReal) :=
  ⟨fun i => (h i).choose, fun i => (h i).choose_spec⟩

/-- THE FUSED LAYER IS THE PLAIN ONE. For a real row x, a real neighbours' sum a, real weights w and a real bias b:
    Σ (2·x + a)·w + 2·b = (Σ (x + a)·w + b) + (Σ x·w + b). -/
theorem fused_eq_plain {K : ℕ} (x a w : Fin K → EReal) (b : EReal) (hx : ∀ k, IsReal (x k)) (ha : ∀ k, IsReal (a k))
    (hw : ∀ k, IsReal (w k)) (hb : IsReal b) :
    (∑ k, ((2 : EReal) * x k + a k) * w k) + (2 : EReal) * b
      = ((∑ k, (x k + a k) * w k) + b) + ((∑ k, x k * w k) + b) := by
  obtain ⟨x', hx'⟩ := choose_real hx
  obtain ⟨a', ha'⟩ := choose_real ha
  obtain ⟨w', hw'⟩ := choose_real hw
  obtain ⟨b', rfl⟩ := hb
  have h2 : (2 : EReal) = ((2 : ℝ) : EReal) := by norm_cast
  simp only [hx', ha', hw', h2, ← EReal.coe_mul, ← EReal.coe_add, ← coe_sum']
  congr 1
  simp only [add_mul, Finset.sum_add_distrib, mul_assoc, ← Finset.mul_sum]
  ring

/-- The fused layer's entry is real. -/
theorem fused_real {K : ℕ} (x a w : Fin K → EReal) (b : EReal) (hx : ∀ k, IsReal (x k)) (ha : ∀ k, IsReal (a k))
    (hw : ∀ k, IsReal (w k)) (hb : IsReal b) :
    IsReal ((∑ k, ((2 : EReal) * x k + a k) * w k) + (2 : EReal) * b) :=
  (IsReal.sum_univ _ fun k => (((IsReal.coe 2).mul (hx k)).add (ha k)).mul (hw k)).add
    ((show IsReal (2 : EReal) from ⟨2, by norm_cast⟩).mul hb)

/-- THE VARIANCE TWO WAYS, over the reals: with S the sum and Q the sum of squares of N numbers, N > 0,
    Q/N − (S/N)² = (Σ (y − S/N)²)/N. -/
theorem var_two_ways_real {N : ℕ} (hN : 0 < N) (y : Fin N → ℝ) :
    (∑ r, y r * y r) * (1 / (N : ℝ)) - ((∑ r, y r) * (1 / (N : ℝ))) * ((∑ r, y r) * (1 / (N : ℝ)))
      = (∑ r, (y r - (∑ r, y r) * (1 / (N : ℝ))) * (y r - (∑ r, y r) * (1 / (N : ℝ)))) * (1 / (N : ℝ)) := by
  have hN' : (N : ℝ) ≠ 0 := Nat.cast_ne_zero.mpr hN.ne'
  have e : ∀ μ : ℝ, ∑ r, (y r - μ) * (y r - μ) = (∑ r, y r * y r) - 2 * μ * (∑ r, y r) + (N : ℝ) * (μ * μ) := by
    intro μ
    have h : ∀ r, (y r - μ) * (y r - μ) = y r * y r - 2 * μ * y r + μ * μ := fun r => by ring
    simp only [h, Finset.sum_add_distrib, Finset.sum_sub_distrib, ← Finset.mul_sum, Finset.sum_const, Finset.card_univ,
      Fintype.card_fin, nsmul_eq_mul]
    ring
  rw [e]
  generalize (∑ r, y r) = S
  generalize (∑ r, y r * y r) = Q
  field_simp
  ring

/-- The mean of the squared deviations is a non-negative real. -/
theorem dev_nonneg {N : ℕ} (y : Fin N → ℝ) (μ : ℝ) : 0 ≤ (∑ r, (y r - μ) * (y r - μ)) * (1 / (N : ℝ)) :=
  mul_nonneg (Finset.sum_nonneg fun r _ => mul_self_nonneg _) (by positivity)

/-- On real entries the two ways of writing a column's variance agree: the mean of the squares less the square of the mean
    (the sums as they stand) is the mean of the squared deviations from the mean (each sum started from zero), over a count
    that is the number of rows. -/
theorem var_two_ways {N : ℕ} (hN : 0 < N) (y : Fin N → EReal) (hy : ∀ r, IsReal (y r)) (n : EReal)
    (hn : n = ((N : ℝ) : EReal)) :
    Ideal.div (∑ r, y r * y r) n - Ideal.div (∑ r, y r) n * Ideal.div (∑ r, y r) n
      = Ideal.div (0 + ∑ r, (y r - Ideal.div (0 + ∑ r, y r) n) * (y r - Ideal.div (0 + ∑ r, y r) n)) n := by
  obtain ⟨y', hy'⟩ := choose_real hy
  have hN' : (N : ℝ) ≠ 0 := Nat.cast_ne_zero.mpr hN.ne'
  subst hn
  simp only [hy', zero_add, ← EReal.coe_mul, ← coe_sum', Ideal.div_coe hN', ← EReal.coe_sub]
  rw [var_two_ways_real hN y']

/-- The mean of a real column over the number of its rows, the sum as it stands or started from zero. -/
theorem mean_eq {N : ℕ} (y : Fin N → EReal) (n : EReal) : Ideal.div (∑ r, y r) n = Ideal.div (0 + ∑ r, y r) n := by
  rw [zero_add]

/-- THE NORMALISED ENTRY TWO WAYS. For a real column y over N > 0 rows, the count n = N, a positive real ε, a real scale g and
    shift bt: the entry normalised with the variance "mean of squares less squared mean" is the entry normalised with the
    variance "mean of squared deviations", and it is real. -/
theorem bn_entry {N : ℕ} (hN : 0 < N) (y : Fin N → EReal) (hy : ∀ r, IsReal (y r)) (n eps g bt : EReal)
    (hn : n = ((N : ℝ) : EReal)) (heps : ∃ e : ℝ, 0 < e ∧ eps = (e : EReal)) (hg : IsReal g) (hbt : IsReal bt) (j : Fin N) :
    max (((y j - Ideal.div (∑ r, y r) n)
        * Ideal.rsqrt ((Ideal.div (∑ r, y r * y r) n - Ideal.div (∑ r, y r) n * Ideal.div (∑ r, y r) n) + eps)) * g + bt) 0
      = max (((y j - Ideal.div (0 + ∑ r, y r) n)
        * Ideal.rsqrt (Ideal.div (0 + ∑ r, (y r - Ideal.div (0 + ∑ r, y r) n) * (y r - Ideal.div (0 + ∑ r, y r) n)) n + eps)) * g + bt) 0
    ∧ IsReal (max (((y j - Ideal.div (0 + ∑ r, y r) n)
        * Ideal.rsqrt (Ideal.div (0 + ∑ r, (y r - Ideal.div (0 + ∑ r, y r) n) * (y r - Ideal.div (0 + ∑ r, y r) n)) n + eps)) * g + bt) 0) := by
  refine ⟨by rw [var_two_ways hN y hy n hn, mean_eq y n], ?_⟩
  obtain ⟨e, he, rfl⟩ := heps
  have hnR : IsReal n := ⟨N, hn⟩
  have hnpos : 0 < n := by rw [hn]; exact EReal.coe_pos.mpr (Nat.cast_pos.mpr hN)
  exact layernorm_real' y (fun _ => g) (fun _ => bt) hy (fun _ => hg) (fun _ => hbt) n (e : EReal) hnR hnpos
    (IsReal.coe e) (EReal.coe_pos.mpr he) j

end Cert.GinLaws
-- ==== Proof.GinSpec.lean ====
/-
  One graph layer followed by a batch normalisation and a rectifier, written two ways on the extended reals, and the
  theorem that the two agree on real data.

  A node array x has N rows; a is the array of neighbours' sums, w the weights, b the bias. The FUSED affine stage is
  (2·x + a)·w + b₂ with b₂ = 2·b; the PLAIN one is ((x + a)·w + b) + (x·w + b). A column's mean is its sum over the
  number of rows; its variance is either the mean of the squares less the squared mean (sums as they stand), or the mean
  of the squared deviations (each sum started from zero). The normalised, scaled, shifted and rectified entry is
  max (((y − mean)·rsqrt (var + ε))·γ + β) 0. On real data the fused stage is the plain one (distributivity), the two
  variances agree, and every entry stays real, so the layer's output computed either way is one real array.
-/
import proofs.«132586_j38087769981032_1_alg».proof.Proof.GinLaws

noncomputable section

namespace Cert.GinSpec

open Finset Idealize.ShloMosaic Cert.Lib.Cheb Cert.GinLaws

variable {N K C : ℕ}

/-- The fused affine stage: (two·x + a)·w + b₂. -/
def linK (two : EReal) (x a : Fin N → Fin K → EReal) (w : Fin K → Fin C → EReal) (b2 : Fin C → EReal) :
    Fin N → Fin C → EReal := fun r q => (∑ k, (two * x r k + a r k) * w k q) + b2 q

/-- The plain affine stage: ((x + a)·w + b) + (x·w + b). -/
def linR (x a : Fin N → Fin K → EReal) (w : Fin K → Fin C → EReal) (b : Fin C → EReal) :
    Fin N → Fin C → EReal := fun r q => ((∑ k, (x r k + a r k) * w k q) + b q) + ((∑ k, x r k * w k q) + b q)

/-- A dense stage x·w + b (no neighbours). -/
def dense (x : Fin N → Fin K → EReal) (w : Fin K → Fin C → EReal) (b : Fin C → EReal) :
    Fin N → Fin C → EReal := fun r q => (∑ k, x r k * w k q) + b q

/-- A column's mean, the sum as it stands. -/
def meanK (n : EReal) (y : Fin N → Fin C → EReal) : Fin C → EReal := fun q => Ideal.div (∑ r, y r q) n
/-- A column's variance as the mean of the squares less the squared mean. -/
def varK (n : EReal) (y : Fin N → Fin C → EReal) : Fin C → EReal :=
  fun q => Ideal.div (∑ r, y r q * y r q) n - Ideal.div (∑ r, y r q) n * Ideal.div (∑ r, y r q) n
/-- A column's mean, the sum started from zero. -/
def meanR (n : EReal) (y : Fin N → Fin C → EReal) : Fin C → EReal := fun q => Ideal.div (0 + ∑ r, y r q) n
/-- A column's variance as the mean of the squared deviations from the mean. -/
def varR (n : EReal) (y : Fin N → Fin C → EReal) : Fin C → EReal :=
  fun q => Ideal.div (0 + ∑ r, (y r q - meanR n y q) * (y r q - meanR n y q)) n

/-- The normalised, scaled, shifted and rectified entry. -/
def bnrelu (eps : EReal) (y : Fin N → Fin C → EReal) (mean var g bt : Fin C → EReal) : Fin N → Fin C → EReal :=
  fun r q => max (((y r q - mean q) * Ideal.rsqrt (var q + eps)) * g q + bt q) 0

/-- Every entry of a matrix is real. -/
def Real2 {A B : ℕ} (x : Fin A → Fin B → EReal) : Prop := ∀ i j, IsReal (x i j)
/-- Every entry of a vector is real. -/
def Real1 {A : ℕ} (x : Fin A → EReal) : Prop := ∀ i, IsReal (x i)

/-- On real data the fused affine stage with doubled bias is the plain one. -/
theorem linK_eq_linR (x a : Fin N → Fin K → EReal) (w : Fin K → Fin C → EReal) (b : Fin C → EReal)
    (hx : Real2 x) (ha : Real2 a) (hw : Real2 w) (hb : Real1 b) :
    linK (2 : EReal) x a w (fun q => (2 : EReal) * b q) = linR x a w b := by
  funext r q
  exact fused_eq_plain (x r) (a r) (fun k => w k q) (b q) (hx r) (ha r) (fun k => hw k q) (hb q)

/-- The plain affine stage of real data is real. -/
theorem linR_real (x a : Fin N → Fin K → EReal) (w : Fin K → Fin C → EReal) (b : Fin C → EReal)
    (hx : Real2 x) (ha : Real2 a) (hw : Real2 w) (hb : Real1 b) : Real2 (linR x a w b) := fun r q =>
  ((IsReal.sum_univ _ fun k => ((hx r k).add (ha r k)).mul (hw k q)).add (hb q)).add
    ((IsReal.sum_univ _ fun k => (hx r k).mul (hw k q)).add (hb q))

/-- A dense stage of real data is real. -/
theorem dense_real (x : Fin N → Fin K → EReal) (w : Fin K → Fin C → EReal) (b : Fin C → EReal)
    (hx : Real2 x) (hw : Real2 w) (hb : Real1 b) : Real2 (dense x w b) := fun r q =>
  (IsReal.sum_univ _ fun k => (hx r k).mul (hw k q)).add (hb q)

/-- THE NORMALISATION TWO WAYS: for a real array y over N > 0 rows, the count n = N, a positive real ε and real scale and
    shift, normalising with (meanK, varK) is normalising with (meanR, varR), and the result is real. -/
theorem bnrelu_two_ways (hN : 0 < N) (y : Fin N → Fin C → EReal) (hy : Real2 y) (n eps : EReal) (g bt : Fin C → EReal)
    (hn : n = ((N : ℝ) : EReal)) (heps : ∃ e : ℝ, 0 < e ∧ eps = (e : EReal)) (hg : Real1 g) (hbt : Real1 bt) :
    bnrelu eps y (meanK n y) (varK n y) g bt = bnrelu eps y (meanR n y) (varR n y) g bt
      ∧ Real2 (bnrelu eps y (meanR n y) (varR n y) g bt) := by
  refine ⟨?_, fun r q => ?_⟩
  · funext r q
    exact (bn_entry hN (fun r => y r q) (fun r => hy r q) n eps (g q) (bt q) hn heps (hg q) (hbt q) r).1
  · exact (bn_entry hN (fun r => y r q) (fun r => hy r q) n eps (g q) (bt q) hn heps (hg q) (hbt q) r).2

/-- ONE GRAPH LAYER, FUSED OR PLAIN. For real node data x, real neighbours' sums a, real weights, bias, scale and shift,
    N > 0 rows, the count n = N, the doubling constant two = 2 and a positive real ε: the fused stage normalised with
    (meanK, varK) is the plain stage normalised with (meanR, varR), and the layer's output is real. -/
theorem gin_layer (hN : 0 < N) (x a : Fin N → Fin K → EReal) (w : Fin K → Fin C → EReal) (b g bt : Fin C → EReal)
    (n eps two : EReal) (htwo : two = (2 : EReal)) (hn : n = ((N : ℝ) : EReal)) (heps : ∃ e : ℝ, 0 < e ∧ eps = (e : EReal))
    (hx : Real2 x) (ha : Real2 a) (hw : Real2 w) (hb : Real1 b) (hg : Real1 g) (hbt : Real1 bt) :
    bnrelu eps (linK two x a w (fun q => two * b q)) (meanK n (linK two x a w (fun q => two * b q)))
        (varK n (linK two x a w (fun q => two * b q))) g bt
      = bnrelu eps (linR x a w b) (meanR n (linR x a w b)) (varR n (linR x a w b)) g bt
    ∧ Real2 (bnrelu eps (linR x a w b) (meanR n (linR x a w b)) (varR n (linR x a w b)) g bt) := by
  subst htwo
  rw [linK_eq_linR x a w b hx ha hw hb]
  exact bnrelu_two_ways hN (linR x a w b) (linR_real x a w b hx ha hw hb) n eps g bt hn heps hg hbt

/-- ONE DENSE LAYER: the same affine stage on both sides, normalised with (meanK, varK) or with (meanR, varR). -/
theorem dense_layer (hN : 0 < N) (x : Fin N → Fin K → EReal) (w : Fin K → Fin C → EReal) (b g bt : Fin C → EReal)
    (n eps : EReal) (hn : n = ((N : ℝ) : EReal)) (heps : ∃ e : ℝ, 0 < e ∧ eps = (e : EReal))
    (hx : Real2 x) (hw : Real2 w) (hb : Real1 b) (hg : Real1 g) (hbt : Real1 bt) :
    bnrelu eps (dense x w b) (meanK n (dense x w b)) (varK n (dense x w b)) g bt
      = bnrelu eps (dense x w b) (meanR n (dense x w b)) (varR n (dense x w b)) g bt
    ∧ Real2 (bnrelu eps (dense x w b) (meanR n (dense x w b)) (varR n (dense x w b)) g bt) :=
  bnrelu_two_ways hN (dense x w b) (dense_real x w b hx hw hb) n eps g bt hn heps hg hbt

end Cert.GinSpec

end
-- ==== Proof.Words.lean ====
/-
  Reading arrays by coordinates, and the float words the two programs share, at their exact values.

  An entry of a float array read through a function with a plain extended-real result can be used in arithmetic directly.
  The words: 2.0 is the real 2, 100000.0 the real 100000, 2048.0 the real 2048, the word for 1e-5 some positive real, and
  the zero word is 0.
-/
import Idealize.ShloMosaic.PureOps.Ideal
import Idealize.ShloMosaic.PureOps.Ideal.Laws
import Idealize.ShloMosaic.Lib.ValueIdx
import Mathlib.Data.EReal.Operations
import Mathlib.Tactic.NormNum

noncomputable section

namespace Cert.Words

open Idealize.ShloMosaic Idealize.ShloMosaic.ValueIdx

/-- An entry of a rank-2 float array, by its two coordinates. -/
def rd2 {R C : ℕ} (x : FVec Ideal ⟨2, ![R, C]⟩ .f32) (r : Fin R) (q : Fin C) : EReal := x (ix2 r q)
/-- An entry of a float vector. -/
def rd1 {C : ℕ} (x : FVec Ideal ⟨1, ![C]⟩ .f32) (q : Fin C) : EReal := x (ix1 q)
/-- An entry of a rank-3 float array, by its three coordinates. -/
def rd3 {A R C : ℕ} (x : FVec Ideal ⟨3, ![A, R, C]⟩ .f32) (a : Fin A) (r : Fin R) (q : Fin C) : EReal := x (ix3 a r q)

/-- The word 2.0. -/
abbrev twoW : EReal := Ideal.ofBits .f32 0x40000000#32
/-- The word 100000.0. -/
abbrev nW : EReal := Ideal.ofBits .f32 0x47C35000#32
/-- The word 2048.0. -/
abbrev gW : EReal := Ideal.ofBits .f32 0x45000000#32
/-- The word for the normalisation's ε. -/
abbrev epsW : EReal := Ideal.ofBits .f32 0x3727C5AC#32

theorem twoW_eq : twoW = (2 : EReal) := by
  have h : twoW = ((2 : ℝ) : EReal) := by
    simp [Ideal.ofBits, Ideal.ieee]
    rw [← EReal.coe_mul]
    norm_num
  rw [h]; norm_cast

theorem nW_eq : nW = ((100000 : ℝ) : EReal) := by
  simp [Ideal.ofBits, Ideal.ieee]
  rw [← EReal.coe_mul]
  norm_num

theorem gW_eq : gW = ((2048 : ℝ) : EReal) := by
  simp [Ideal.ofBits, Ideal.ieee]
  rw [← EReal.coe_mul]
  norm_num

theorem epsW_pos : ∃ e : ℝ, 0 < e ∧ epsW = (e : EReal) := by
  refine ⟨_, ?_, by simp [Ideal.ofBits, Ideal.ieee]; rfl⟩
  positivity

theorem nW_eq' : nW = (((100000 : ℕ) : ℝ) : EReal) := by rw [nW_eq]; norm_num
theorem gW_eq' : gW = (((2048 : ℕ) : ℝ) : EReal) := by rw [gW_eq]; norm_num

end Cert.Words

end
-- ==== Proof.KChainA.lean ====
/-
  The kernel program's first layer read at an index. Region 0 leaves the fused affine stage of the node features and their
  neighbours' sums, with its column sums and column sums of squares; the host divides the sums by the row count and forms
  the variance; region 1 normalises, scales, shifts and rectifies. Read back through the first four segments, the layer's
  output is the specification's normalised fused stage of the argument arrays as launched.
-/
import proofs.«132586_j38087769981032_1_alg».proof.Proof.Gen.KernelIdeal.Frame
import proofs.«132586_j38087769981032_1_alg».proof.Proof.KGin0
import proofs.«132586_j38087769981032_1_alg».proof.Proof.KBn1
import proofs.«132586_j38087769981032_1_alg».proof.Proof.KHostA
import proofs.«132586_j38087769981032_1_alg».proof.Proof.KHostD
import proofs.«132586_j38087769981032_1_alg».proof.Proof.KArgs
import proofs.«132586_j38087769981032_1_alg».proof.Proof.GinSpec
import proofs.«132586_j38087769981032_1_alg».proof.Proof.Words

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-- The node features as launched. -/
abbrev a0 : FVec Ideal S100000x78 .f32 := m ((c : Thread nD τ).loc main_arg0)
/-- The edges' source nodes. -/
abbrev a1 : IVec S1600000 32 := m ((c : Thread nD τ).loc main_arg1)
/-- The edges' destination nodes. -/
abbrev a2 : IVec S1600000 32 := m ((c : Thread nD τ).loc main_arg2)
/-- The first layer's weights, bias, scale and shift. -/
abbrev a4 : FVec Ideal S78x128 .f32 := m ((c : Thread nD τ).loc main_arg4)
abbrev a5 : FVec Ideal S128 .f32 := m ((c : Thread nD τ).loc main_arg5)
abbrev a6 : FVec Ideal S128 .f32 := m ((c : Thread nD τ).loc main_arg6)
abbrev a7 : FVec Ideal S128 .f32 := m ((c : Thread nD τ).loc main_arg7)

/-- The stacked weights, biases, scales and shifts of layers 2 to 5. -/
abbrev a8 : FVec Ideal S4x128x128 .f32 := m ((c : Thread nD τ).loc main_arg8)
abbrev a9 : FVec Ideal S4x128 .f32 := m ((c : Thread nD τ).loc main_arg9)
abbrev a10 : FVec Ideal S4x128 .f32 := m ((c : Thread nD τ).loc main_arg10)
abbrev a11 : FVec Ideal S4x128 .f32 := m ((c : Thread nD τ).loc main_arg11)
/-- The nodes' graph numbers. -/
abbrev a3 : IVec S100000 32 := m ((c : Thread nD τ).loc main_arg3)
/-- The two dense layers' and the last layer's weights, biases, scales and shifts. -/
abbrev a12 : FVec Ideal S128x512 .f32 := m ((c : Thread nD τ).loc main_arg12)
abbrev a13 : FVec Ideal S512 .f32 := m ((c : Thread nD τ).loc main_arg13)
abbrev a14 : FVec Ideal S512 .f32 := m ((c : Thread nD τ).loc main_arg14)
abbrev a15 : FVec Ideal S512 .f32 := m ((c : Thread nD τ).loc main_arg15)
abbrev a16 : FVec Ideal S512x256 .f32 := m ((c : Thread nD τ).loc main_arg16)
abbrev a17 : FVec Ideal S256 .f32 := m ((c : Thread nD τ).loc main_arg17)
abbrev a18 : FVec Ideal S256 .f32 := m ((c : Thread nD τ).loc main_arg18)
abbrev a19 : FVec Ideal S256 .f32 := m ((c : Thread nD τ).loc main_arg19)
abbrev a20 : FVec Ideal S256x408 .f32 := m ((c : Thread nD τ).loc main_arg20)
abbrev a21 : FVec Ideal S408 .f32 := m ((c : Thread nD τ).loc main_arg21)

/-- The first layer's fused affine stage, of the arguments. -/
def y1 : Fin 100000 → Fin 128 → EReal :=
  linK twoW (rd2 (R := 100000) (C := 78) (a0 m c)) (rd2 (R := 100000) (C := 78) (KHost.aggOf78 (a0 m c) (a1 m c) (a2 m c)))
    (rd2 (R := 78) (C := 128) (a4 m c)) (fun q => twoW * rd1 (C := 128) (a5 m c) q)

/-- The first layer's output array. -/
def x1 : FVec Ideal S100000x128 .f32 := W4 m ρ c (Proc.devRef .tc main_v22)

/-- Region 0's inputs as it finds them are the arguments and the host's neighbours' sum and doubled bias. -/
theorem in0_x : (V1 m ρ c (Pipeline.arrRef spec0 0) : FVec Ideal S100000x78 .f32) = a0 m c := KArgs.W1_arg0 m ρ c
theorem in0_w : (V1 m ρ c (Pipeline.arrRef spec0 2) : FVec Ideal S78x128 .f32) = a4 m c := KArgs.W1_arg4 m ρ c
theorem in0_a : (V1 m ρ c (Pipeline.arrRef spec0 1) : FVec Ideal S100000x78 .f32) = KHost.aggOf78 (a0 m c) (a1 m c) (a2 m c) :=
  KHost.host0_agg_eq (W0 m ρ c)
theorem in0_b (q : Fin 128) : (V1 m ρ c (Pipeline.arrRef spec0 3) : FVec Ideal S1x128 .f32) (ix2 (0 : Fin 1) q) = twoW * rd1 (C := 128) (a5 m c) q :=
  KHost.host0_b2_at (W0 m ρ c) q

/-- Region 0's first output is the fused affine stage. -/
theorem y1_at (r : Fin 100000) (q : Fin 128) :
    rd2 (R := 100000) (C := 128) (W2 m ρ c (Proc.devRef .tc main_v13_0)) r q = y1 m c r q := by
  have e0 : (W2 m ρ c (Proc.devRef .tc main_v13_0) : FVec Ideal S100000x128 .f32) = (dat0 (V1 m ρ) c).arrAt 4 cfg0.N := W2_arr m ρ c 4
  show (W2 m ρ c (Proc.devRef .tc main_v13_0) : FVec Ideal S100000x128 .f32) (ix2 r q) = _
  rw [e0, KGin0.valueY (V1 m ρ) c r q, in0_x m ρ c, in0_a m ρ c, in0_w m ρ c]
  unfold KGin.lin y1 linK rd2
  rw [in0_b m ρ c q]

/-- Region 0's second output is the fused stage's column sums. -/
theorem s1_at (q : Fin 128) :
    rd2 (R := 1) (C := 128) (W2 m ρ c (Proc.devRef .tc main_v13_1)) 0 q = ∑ r : Fin 100000, y1 m c r q := by
  have e0 : (W2 m ρ c (Proc.devRef .tc main_v13_1) : FVec Ideal S1x128 .f32) = (dat0 (V1 m ρ) c).arrAt 5 cfg0.N := W2_arr m ρ c 5
  unfold rd2
  rw [e0, KGin0.valueS (V1 m ρ) c q, in0_x m ρ c, in0_a m ρ c, in0_w m ρ c]
  refine Finset.sum_congr rfl fun r _ => ?_
  unfold KGin.lin y1 linK rd2
  rw [in0_b m ρ c q]

/-- Region 0's third output is the fused stage's column sums of squares. -/
theorem ss1_at (q : Fin 128) :
    rd2 (R := 1) (C := 128) (W2 m ρ c (Proc.devRef .tc main_v13_2)) 0 q = ∑ r : Fin 100000, y1 m c r q * y1 m c r q := by
  have e0 : (W2 m ρ c (Proc.devRef .tc main_v13_2) : FVec Ideal S1x128 .f32) = (dat0 (V1 m ρ) c).arrAt 6 cfg0.N := W2_arr m ρ c 6
  unfold rd2
  rw [e0, KGin0.valueSS (V1 m ρ) c q, in0_x m ρ c, in0_a m ρ c, in0_w m ρ c]
  refine Finset.sum_congr rfl fun r _ => ?_
  unfold KGin.lin y1 linK rd2
  rw [in0_b m ρ c q]

/-- THE FIRST LAYER of the kernel program: its output is the normalised fused stage of the arguments, with the mean and
    the variance taken from the column sums as they stand. -/
theorem layer1 (r : Fin 100000) (q : Fin 128) :
    rd2 (R := 100000) (C := 128) (x1 m ρ c) r q
      = bnrelu epsW (y1 m c) (meanK nW (y1 m c)) (varK nW (y1 m c)) (rd1 (C := 128) (a6 m c)) (rd1 (C := 128) (a7 m c)) r q := by
  have e0 : (W4 m ρ c (Proc.devRef .tc main_v22) : FVec Ideal S100000x128 .f32) = (dat1 (V3 m ρ) c).arrAt 5 cfg1.N := W4_arr m ρ c 5
  show (W4 m ρ c (Proc.devRef .tc main_v22) : FVec Ideal S100000x128 .f32) (ix2 r q) = _
  rw [e0, KBn1.value (V3 m ρ) c r q]
  have hy : (V3 m ρ c (Pipeline.arrRef spec1 0) : FVec Ideal S100000x128 .f32) (ix2 r q) = y1 m c r q :=
    (congrFun (KHost.host1_keep_y (W2 m ρ c)) _).trans (y1_at m ρ c r q)
  have hm : (V3 m ρ c (Pipeline.arrRef spec1 1) : FVec Ideal S1x128 .f32) (ix2 (0 : Fin 1) q) = meanK nW (y1 m c) q :=
    (KHost.host1_mean_at (W2 m ρ c) q).trans (congrArg (fun s : EReal => Ideal.div s nW) (s1_at m ρ c q))
  have hv : (V3 m ρ c (Pipeline.arrRef spec1 2) : FVec Ideal S1x128 .f32) (ix2 (0 : Fin 1) q) = varK nW (y1 m c) q :=
    (KHost.host1_var_at (W2 m ρ c) q).trans (congrArg₂ (fun s t : EReal => Ideal.div t nW - Ideal.div s nW * Ideal.div s nW)
      (s1_at m ρ c q) (ss1_at m ρ c q))
  have hg : (V3 m ρ c (Pipeline.arrRef spec1 3) : FVec Ideal S1x128 .f32) (ix2 (0 : Fin 1) q) = rd1 (C := 128) (a6 m c) q :=
    (KHost.host1_gamma_at (W2 m ρ c) q).trans (congrFun (KArgs.W2_arg6 m ρ c) _)
  have hb : (V3 m ρ c (Pipeline.arrRef spec1 4) : FVec Ideal S1x128 .f32) (ix2 (0 : Fin 1) q) = rd1 (C := 128) (a7 m c) q :=
    (KHost.host1_beta_at (W2 m ρ c) q).trans (congrFun (KArgs.W2_arg7 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.KGin2.lean ====
/-
  The value of the linear map of one aggregation layer, with its column statistics.

  Over N = 100000 rows cut into ten blocks of 10000, each grid point forms, for its block of the two inputs x and a
  (the features and their neighbourhood sums), the rows  y = (2·x + a)·w + b  of the [100000,128] output, and adds the
  block's column sums of y and of y·y into two [1,128] accumulators that the first point zeroes.  Read at the extended
  reals this file shows, for the arrays as the region finds them:

    * every entry (r, q) of the first output is  lin x a w b r q = (∑ k, (2·x(r,k) + a(r,k))·w(k,q)) + b(0,q);
    * entry (0, q) of the second output is the sum over ALL 100000 rows r of lin x a w b r q;
    * entry (0, q) of the third output is the sum over all rows of lin x a w b r q · lin x a w b r q.

  The factor 2 is kept as the word 0x40000000 read as an extended real (`two`); it is never evaluated.  The matrix
  product into a zero accumulator is the plain sum over k; the change of float format before it is the identity.
  The accumulators are sums of ten block sums; on the extended reals addition is commutative and associative, so
  regrouping them into one sum over all rows needs no finiteness.  A row past the last is given the value 0 only so that
  rows can be numbered by natural numbers in the induction over the grid points; the final statements range over Fin 100000.
-/
import proofs.«132586_j38087769981032_1_alg».proof.Proof.Gen.KernelIdeal.Frame
import proofs.«132586_j38087769981032_1_alg».proof.Proof.KGinLin
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

set_option maxRecDepth 16384

noncomputable section

namespace Cert.KernelIdeal.KGin2

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.PlainDot Cert.KernelIdeal.KGin
open scoped BigOperators

/-! ## The arithmetic of one block, entry by entry -/

/-- The block of y the body stores, at row p and column q of the block. -/
theorem pay3_apply (v3 v6 : Vec Ideal S10000x128 .f32) (v10 : Vec Ideal S128x128 .f32) (v13 : Vec Ideal S1x128 .f32)
    (p : Fin 10000) (q : Fin 128) :
    k2_pay3 (F := Ideal) v3 v6 v10 v13 (ix2 p q) = lin v3 v6 v10 v13 p q := by
  unfold k2_pay3 lin
  refine (addf_apply _ _ _).trans (congrArg₂ (· + ·) ?_ ?_)
  · refine (matmul_zero_apply _ rfl none _ _ (ix2 p q)).trans ?_
    unfold mm
    refine Finset.sum_congr rfl fun k _ => ?_
    rw [rowIdx_ix2, colIdx_ix2, shapeCast_self, shapeCast_self, shapeCast_self]
    rfl
  · refine (broadcastTo_1b_ab_apply _ _ p q).trans ?_
    rw [shapeCast_self]

/-- The first accumulator's new contents: what it held plus the block's column sum of y. -/
theorem pay4_apply (v3 v6 : Vec Ideal S10000x128 .f32) (v10 : Vec Ideal S128x128 .f32) (v13 v18 : Vec Ideal S1x128 .f32)
    (u : Fin 1) (q : Fin 128) :
    k2_pay4 (F := Ideal) v3 v6 v10 v13 v18 (ix2 u q)
      = v18 (ix2 u q) + ∑ p : Fin 10000, k2_pay3 (F := Ideal) v3 v6 v10 v13 (ix2 p q) := by
  unfold k2_pay4
  refine (addf_apply _ _ _).trans (congrArg₂ (· + ·) (congrFun (shapeCast_self v18 _) _) ?_)
  refine (shapeCast_a_1a_apply _ _ u q).trans ?_
  exact colsum_apply _ _ _ _ q

/-- The second accumulator's new contents: what it held plus the block's column sum of y·y. -/
theorem pay5_apply (v3 v6 : Vec Ideal S10000x128 .f32) (v10 : Vec Ideal S128x128 .f32) (v13 v24 : Vec Ideal S1x128 .f32)
    (u : Fin 1) (q : Fin 128) :
    k2_pay5 (F := Ideal) v3 v6 v10 v13 v24 (ix2 u q)
      = v24 (ix2 u q) + ∑ p : Fin 10000, k2_pay3 (F := Ideal) v3 v6 v10 v13 (ix2 p q) * k2_pay3 (F := Ideal) v3 v6 v10 v13 (ix2 p q) := by
  unfold k2_pay5
  refine (addf_apply _ _ _).trans (congrArg₂ (· + ·) (congrFun (shapeCast_self v24 _) _) ?_)
  refine (shapeCast_a_1a_apply _ _ u q).trans ?_
  refine (colsum_apply _ _ _ _ q).trans ?_
  rfl

/-- The first point's reset stores the zero word. -/
theorem pay1_apply (j : S1x128.Idx) : k2_pay1 (F := Ideal) j = 0 := Ideal.ofBits_zero_f32
theorem pay2_apply (j : S1x128.Idx) : k2_pay2 (F := Ideal) j = 0 := Ideal.ofBits_zero_f32

/-! ## What the body leaves in each output's buffer, case by case -/

section Pieces

variable {F : FTy → Type} [FloatOps F]

theorem hz : (![0, 0] : Fin 2 → Nat) = fun _ => 0 := funext fun a => by fin_cases a <;> rfl

/-- At the first point the block of y is the one store's payload of the loaded blocks. -/
theorem out_A_4 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S10000x128 .f32) (x2 : Vec F S128x128 .f32) (x3 : Vec F S1x128 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  try sl_unfold_words
  rw [View.canon_unit_zero hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the first accumulator is reset to the zero block and the block's column sum added to it. -/
theorem out_A_5 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S10000x128 .f32) (x2 : Vec F S128x128 .f32) (x3 : Vec F S1x128 .f32) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the second accumulator likewise. -/
theorem out_A_6 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S10000x128 .f32) (x2 : Vec F S128x128 .f32) (x3 : Vec F S1x128 .f32) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At a later point the block of y is again the one store's payload. -/
theorem out_B_4 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S10000x128 .f32) (x2 : Vec F S128x128 .f32) (x3 : Vec F S1x128 .f32) (xo5 xo6 : Vec F S1x128 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the first accumulator adds the block's column sum to what the point before left. -/
theorem out_B_5 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S10000x128 .f32) (x2 : Vec F S128x128 .f32) (x3 : Vec F S1x128 .f32) (xo5 xo6 : Vec F S1x128 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the second accumulator likewise. -/
theorem out_B_6 (c : Dev nD) (i : grid2.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S10000x128 .f32) (x2 : Vec F S128x128 .f32) (x3 : Vec F S1x128 .f32) (xo5 xo6 : Vec F S1x128 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

end Pieces

/-! ## The blocks are rows of the arrays -/

variable (V : (c : Dev nD) → (b : Ref sig .tc) → Buf (Elt Ideal) ((c : Thread nD τ).loc b))

/-- The two inputs, the weight and the bias as the region finds them. -/
abbrev xArr (c : Dev nD) : (⟨2, ![100000, 128]⟩ : Shape).Idx → EReal := V c (Pipeline.arrRef spec2 0)
abbrev aArr (c : Dev nD) : (⟨2, ![100000, 128]⟩ : Shape).Idx → EReal := V c (Pipeline.arrRef spec2 1)
abbrev wArr (c : Dev nD) : (⟨2, ![128, 128]⟩ : Shape).Idx → EReal := V c (Pipeline.arrRef spec2 2)
abbrev bArr (c : Dev nD) : (⟨2, ![1, 128]⟩ : Shape).Idx → EReal := V c (Pipeline.arrRef spec2 3)

/-- The four input blocks at point t. -/
abbrev B0 (c : Dev nD) (t : Fin cfg2.N) : Vec Ideal S10000x128 .f32 := iblk2 V c 0 t
abbrev B1 (c : Dev nD) (t : Fin cfg2.N) : Vec Ideal S10000x128 .f32 := iblk2 V c 1 t
abbrev B2 (c : Dev nD) (t : Fin cfg2.N) : Vec Ideal S128x128 .f32 := iblk2 V c 2 t
abbrev B3 (c : Dev nD) (t : Fin cfg2.N) : Vec Ideal S1x128 .f32 := iblk2 V c 3 t

/-- The windows' block indices over the grid: the row-blocked windows move with the point, the others stay at 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row p of the first input's block at point t is row 10000·t + p of the array. -/
theorem blk_0 (c : Dev nD) (t : Fin cfg2.N) (p : Fin 10000) (k : Fin 128) (r : Fin 100000) (hr : r.val = t.val * 10000 + p.val) :
    B0 V c t (ix2 p k) = xArr V c (ix2 r k) := by
  obtain ⟨e0, e1, -⟩ := idx_facts t
  unfold B0 iblk2
  rw [View.read_apply]
  show V c (Pipeline.arrRef spec2 0) _ = V c (Pipeline.arrRef spec2 0) _
  congr 1
  funext a
  apply Fin.ext
  match a with
  | ⟨0, _⟩ => show win2_0.index t 0 * 10000 + 1 * p.val = r.val; rw [e0, hr]; omega
  | ⟨1, _⟩ => show win2_0.index t 1 * 128 + 1 * k.val = k.val; rw [e1]; omega

/-- The same for the second input. -/
theorem blk_1 (c : Dev nD) (t : Fin cfg2.N) (p : Fin 10000) (k : Fin 128) (r : Fin 100000) (hr : r.val = t.val * 10000 + p.val) :
    B1 V c t (ix2 p k) = aArr V c (ix2 r k) := by
  obtain ⟨-, -, e0, e1, -⟩ := idx_facts t
  unfold B1 iblk2
  rw [View.read_apply]
  show V c (Pipeline.arrRef spec2 1) _ = V c (Pipeline.arrRef spec2 1) _
  congr 1
  funext a
  apply Fin.ext
  match a with
  | ⟨0, _⟩ => show win2_1.index t 0 * 10000 + 1 * p.val = r.val; rw [e0, hr]; omega
  | ⟨1, _⟩ => show win2_1.index t 1 * 128 + 1 * k.val = k.val; rw [e1]; omega

/-- The weight's one block is the whole weight. -/
theorem blk_2 (c : Dev nD) (t : Fin cfg2.N) (j : S128x128.Idx) : B2 V c t j = wArr V c j := by
  obtain ⟨-, -, -, -, e0, e1, -⟩ := idx_facts t
  unfold B2 iblk2
  rw [View.read_apply]
  show V c (Pipeline.arrRef spec2 2) _ = V c (Pipeline.arrRef spec2 2) _
  congr 1
  funext a
  apply Fin.ext
  match a with
  | ⟨0, _⟩ => show win2_2.index t 0 * 128 + 1 * (j 0).val = (j 0).val; rw [e0]; omega
  | ⟨1, _⟩ => show win2_2.index t 1 * 128 + 1 * (j 1).val = (j 1).val; rw [e1]; omega

/-- The bias's one block is the whole bias. -/
theorem blk_3 (c : Dev nD) (t : Fin cfg2.N) (j : S1x128.Idx) : B3 V c t j = bArr V c j := by
  obtain ⟨-, -, -, -, -, -, e0, e1, -⟩ := idx_facts t
  unfold B3 iblk2
  rw [View.read_apply]
  show V c (Pipeline.arrRef spec2 3) _ = V c (Pipeline.arrRef spec2 3) _
  congr 1
  funext a
  apply Fin.ext
  match a with
  | ⟨0, _⟩ => show win2_3.index t 0 * 1 + 1 * (j 0).val = (j 0).val; rw [e0]; omega
  | ⟨1, _⟩ => show win2_3.index t 1 * 128 + 1 * (j 1).val = (j 1).val; rw [e1]; omega

/-! ## The rows of y, numbered by natural numbers -/

/-- Entry (r, q) of y over the arrays as the region finds them. -/
abbrev Y (c : Dev nD) (r : Fin 100000) (q : Fin 128) : EReal := lin (xArr V c) (aArr V c) (wArr V c) (bArr V c) r q

/-- The same over a natural row number, 0 past the last row. -/
def Yn (c : Dev nD) (q : Fin 128) (i : ℕ) : EReal := if h : i < 100000 then Y V c ⟨i, h⟩ q else 0

theorem Yn_val (c : Dev nD) (q : Fin 128) (r : Fin 100000) : Yn V c q r.val = Y V c r q := by
  unfold Yn; rw [dif_pos r.isLt]

/-- Row p of the block of y at point t is row 10000·t + p of y. -/
theorem pay3_blocks (c : Dev nD) (t : Fin cfg2.N) (p : Fin 10000) (q : Fin 128) :
    k2_pay3 (F := Ideal) (B0 V c t) (B1 V c t) (B2 V c t) (B3 V c t) (ix2 p q) = Yn V c q (t.val * 10000 + p.val) := by
  have hN : t.val < 10 := lt_of_lt_of_eq t.isLt (show cfg2.N = 10 from N_2)
  have hr : t.val * 10000 + p.val < 100000 := by have := p.isLt; omega
  refine (pay3_apply (B0 V c t) (B1 V c t) (B2 V c t) (B3 V c t) p q).trans ?_
  unfold Yn
  rw [dif_pos hr]
  exact lin_congr (B0 V c t) (B1 V c t) (xArr V c) (aArr V c) (B2 V c t) (wArr V c) (B3 V c t) (bArr V c) p ⟨_, hr⟩ q
    (fun k => blk_0 V c t p k ⟨_, hr⟩ rfl) (fun k => blk_1 V c t p k ⟨_, hr⟩ rfl) (fun k => blk_2 V c t (ix2 k q)) (blk_3 V c t (ix2 0 q))

/-- The same at any index of the block. -/
theorem pay3_blocks_idx (c : Dev nD) (t : Fin cfg2.N) (j : S10000x128.Idx) :
    k2_pay3 (F := Ideal) (B0 V c t) (B1 V c t) (B2 V c t) (B3 V c t) j = Yn V c ⟨(j 1).val, idx2_lt1 j⟩ (t.val * 10000 + (j 0).val) := by
  obtain ⟨p, q, rfl⟩ : ∃ (p : Fin 10000) (q : Fin 128), j = ix2 p q := ⟨j 0, j 1, eq_ix2 j⟩
  exact pay3_blocks V c t p q

/-- The column sum of block j of y, and of its squares. -/
def colsum (c : Dev nD) (q : Fin 128) (j : ℕ) : EReal := ∑ i ∈ Finset.range 10000, Yn V c q (j * 10000 + i)
def colsumsq (c : Dev nD) (q : Fin 128) (j : ℕ) : EReal := ∑ i ∈ Finset.range 10000, Yn V c q (j * 10000 + i) * Yn V c q (j * 10000 + i)

theorem blocksum (c : Dev nD) (t : Fin cfg2.N) (q : Fin 128) :
    ∑ p : Fin 10000, k2_pay3 (F := Ideal) (B0 V c t) (B1 V c t) (B2 V c t) (B3 V c t) (ix2 p q) = colsum V c q t.val :=
  (Finset.sum_congr rfl fun p _ => pay3_blocks V c t p q).trans
    (Fin.sum_univ_eq_sum_range (fun i => Yn V c q (t.val * 10000 + i)) 10000)

theorem blocksumsq (c : Dev nD) (t : Fin cfg2.N) (q : Fin 128) :
    ∑ p : Fin 10000, k2_pay3 (F := Ideal) (B0 V c t) (B1 V c t) (B2 V c t) (B3 V c t) (ix2 p q) * k2_pay3 (F := Ideal) (B0 V c t) (B1 V c t) (B2 V c t) (B3 V c t) (ix2 p q)
      = colsumsq V c q t.val :=
  (Finset.sum_congr rfl fun p _ => by
      show _ * _ = Yn V c q (t.val * 10000 + p.val) * Yn V c q (t.val * 10000 + p.val)
      rw [pay3_blocks V c t p q]).trans
    (Fin.sum_univ_eq_sum_range (fun i => Yn V c q (t.val * 10000 + i) * Yn V c q (t.val * 10000 + i)) 10000)

/-! ## The outputs' buffers after each point -/

/-- After every point the first output's buffer holds the point's block of y. -/
theorem outs4 (c : Dev nD) (t : Fin cfg2.N) :
    (outsAt2 V c t.val t.isLt).1 = k2_pay3 (F := Ideal) (B0 V c t) (B1 V c t) (B2 V c t) (B3 V c t) := by
  by_cases h0 : t.val % 10 = 0
  · rw [outsAt2_A V c t h0]
    dsimp only
    exact out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (B0 V c t) (B1 V c t) (B2 V c t) (B3 V c t)
  · rw [outsAt2_B V c t h0]
    dsimp only
    exact out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (B0 V c t) (B1 V c t) (B2 V c t) (B3 V c t)
      (outsAt2 V c (t.val - 1) (Nat.lt_of_le_of_lt (Nat.sub_le _ _) t.isLt)).2.1 (outsAt2 V c (t.val - 1) (Nat.lt_of_le_of_lt (Nat.sub_le _ _) t.isLt)).2.2

/-- After point n the first accumulator holds the column sums of blocks 0 … n of y, added up. -/
theorem acc5 (c : Dev nD) : ∀ (n : ℕ) (h : n < cfg2.N) (u : Fin 1) (q : Fin 128),
    (outsAt2 V c n h).2.1 (ix2 u q) = ∑ j ∈ Finset.range (n + 1), colsum V c q j
  | 0, h, u, q => by
    rw [show outsAt2 V c 0 h = _ from outsAt2_A V c ⟨0, h⟩ rfl]
    dsimp only
    refine (congrFun (out_A_5 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr rfl) (B0 V c ⟨0, h⟩) (B1 V c ⟨0, h⟩) (B2 V c ⟨0, h⟩) (B3 V c ⟨0, h⟩)) (ix2 u q)).trans ?_
    refine (pay4_apply (B0 V c ⟨0, h⟩) (B1 V c ⟨0, h⟩) (B2 V c ⟨0, h⟩) (B3 V c ⟨0, h⟩) (k2_pay1 (F := Ideal)) u q).trans ?_
    rw [pay1_apply, zero_add]
    exact (blocksum V c ⟨0, h⟩ q).trans (Finset.sum_range_one (fun j => colsum V c q j)).symm
  | n + 1, h, u, q => by
    have hN : cfg2.N = 10 := N_2
    have hB : ¬(⟨n + 1, h⟩ : Fin cfg2.N).val % 10 = 0 := by dsimp only; omega
    rw [show outsAt2 V c (n + 1) h = _ from outsAt2_B V c ⟨n + 1, h⟩ hB]
    dsimp only
    refine (congrFun (out_B_5 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun h' => hB ((hcond2_0 ⟨n + 1, h⟩).mp h')) (B0 V c ⟨n + 1, h⟩) (B1 V c ⟨n + 1, h⟩) (B2 V c ⟨n + 1, h⟩) (B3 V c ⟨n + 1, h⟩) (outsAt2 V c n (Nat.lt_of_succ_lt h)).2.1 (outsAt2 V c n (Nat.lt_of_succ_lt h)).2.2) (ix2 u q)).trans ?_
    refine (pay4_apply (B0 V c ⟨n + 1, h⟩) (B1 V c ⟨n + 1, h⟩) (B2 V c ⟨n + 1, h⟩) (B3 V c ⟨n + 1, h⟩) (outsAt2 V c n (Nat.lt_of_succ_lt h)).2.1 u q).trans ?_
    refine (congrArg₂ (· + ·) (acc5 c n (Nat.lt_of_succ_lt h) u q) (blocksum V c ⟨n + 1, h⟩ q)).trans ?_
    exact (Finset.sum_range_succ (fun j => colsum V c q j) (n + 1)).symm

/-- After point n the second accumulator holds the column sums of the squares of blocks 0 … n, added up. -/
theorem acc6 (c : Dev nD) : ∀ (n : ℕ) (h : n < cfg2.N) (u : Fin 1) (q : Fin 128),
    (outsAt2 V c n h).2.2 (ix2 u q) = ∑ j ∈ Finset.range (n + 1), colsumsq V c q j
  | 0, h, u, q => by
    rw [show outsAt2 V c 0 h = _ from outsAt2_A V c ⟨0, h⟩ rfl]
    dsimp only
    refine (congrFun (out_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr rfl) (B0 V c ⟨0, h⟩) (B1 V c ⟨0, h⟩) (B2 V c ⟨0, h⟩) (B3 V c ⟨0, h⟩)) (ix2 u q)).trans ?_
    refine (pay5_apply (B0 V c ⟨0, h⟩) (B1 V c ⟨0, h⟩) (B2 V c ⟨0, h⟩) (B3 V c ⟨0, h⟩) (k2_pay2 (F := Ideal)) u q).trans ?_
    rw [pay2_apply, zero_add]
    exact (blocksumsq V c ⟨0, h⟩ q).trans (Finset.sum_range_one (fun j => colsumsq V c q j)).symm
  | n + 1, h, u, q => by
    have hN : cfg2.N = 10 := N_2
    have hB : ¬(⟨n + 1, h⟩ : Fin cfg2.N).val % 10 = 0 := by dsimp only; omega
    rw [show outsAt2 V c (n + 1) h = _ from outsAt2_B V c ⟨n + 1, h⟩ hB]
    dsimp only
    refine (congrFun (out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun h' => hB ((hcond2_0 ⟨n + 1, h⟩).mp h')) (B0 V c ⟨n + 1, h⟩) (B1 V c ⟨n + 1, h⟩) (B2 V c ⟨n + 1, h⟩) (B3 V c ⟨n + 1, h⟩) (outsAt2 V c n (Nat.lt_of_succ_lt h)).2.1 (outsAt2 V c n (Nat.lt_of_succ_lt h)).2.2) (ix2 u q)).trans ?_
    refine (pay5_apply (B0 V c ⟨n + 1, h⟩) (B1 V c ⟨n + 1, h⟩) (B2 V c ⟨n + 1, h⟩) (B3 V c ⟨n + 1, h⟩) (outsAt2 V c n (Nat.lt_of_succ_lt h)).2.2 u q).trans ?_
    refine (congrArg₂ (· + ·) (acc6 c n (Nat.lt_of_succ_lt h) u q) (blocksumsq V c ⟨n + 1, h⟩ q)).trans ?_
    exact (Finset.sum_range_succ (fun j => colsumsq V c q j) (n + 1)).symm

/-! ## The arrays after the run -/

/-- What the first output array ends holding: y, row by row. -/
def G4 (c : Dev nD) : Vec Ideal S100000x128 .f32 := fun i => Yn V c ⟨(i 1).val, idx2_lt1 i⟩ (i 0).val

theorem G4_apply (c : Dev nD) (i : S100000x128.Idx) (q : Fin 128) (n : ℕ) (h1 : (i 1).val = q.val) (h0 : (i 0).val = n) :
    G4 V c i = Yn V c q n := by
  unfold G4
  rw [h0]
  exact congrArg (fun q' => Yn V c q' n) (Fin.ext h1)

/-- What each accumulator array ends holding: the ten block sums added up. -/
def G5 (c : Dev nD) : Vec Ideal S1x128 .f32 := fun i => ∑ j ∈ Finset.range 10, colsum V c ⟨(i 1).val, idx2_lt1 i⟩ j
def G6 (c : Dev nD) : Vec Ideal S1x128 .f32 := fun i => ∑ j ∈ Finset.range 10, colsumsq V c ⟨(i 1).val, idx2_lt1 i⟩ j

/-- Every point writes back its block of y: block t of the rows of y. -/
theorem flushed4 (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4, outs4 V c t]
  obtain ⟨-, -, -, -, -, -, -, -, e0, e1, -⟩ := idx_facts t
  funext j
  refine (pay3_blocks_idx V c t _).trans ?_
  rw [View.read_apply]
  show _ = G4 V c (((cfg2.win 4).blk t).view.emb j)
  refine (G4_apply V c (((cfg2.win 4).blk t).view.emb j) _ _ ?_ ?_).symm
  · show win2_4.index t (1 : Fin 2) * 128 + 1 * (j 1).val = (j 1).val; rw [e1]; omega
  · show win2_4.index t (0 : Fin 2) * 10000 + 1 * (j 0).val = t.val * 10000 + (j 0).val; rw [e0]; omega

/-- An index of the first output array is in point t's block iff its coordinates are in the block's ranges. -/
theorem mem_blk4 (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v40_0).slice (win2_4.rect t)).set ↔ _
  rw [View.set_slice_whole, Rect.mem_set_unit]
  exact Iff.rfl

/-- Row r lies in the block of point r / 10000. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_4 _, ?_⟩
  rw [mem_blk4]
  obtain ⟨-, -, -, -, -, -, -, -, e0, e1, -⟩ := idx_facts ⟨(i 0).val / 10000, by rw [hN]; omega⟩
  intro a
  match a with
  | ⟨0, _⟩ => show win2_4.index _ (0 : Fin 2) * 10000 ≤ (i 0).val ∧ (i 0).val < win2_4.index _ (0 : Fin 2) * 10000 + 10000; rw [e0]; dsimp only; omega
  | ⟨1, _⟩ => show win2_4.index _ (1 : Fin 2) * 128 ≤ (i 1).val ∧ (i 1).val < win2_4.index _ (1 : Fin 2) * 128 + 128; rw [e1]; omega

/-- The first output array after the run. -/
theorem final4 (c : Dev nD) : (dat2 V c).arrAt 4 cfg2.N = G4 V c :=
  (dat2 V c).arrAt_eq_of_cover 4 (G4 V c) (fun t _ => flushed4 V c t) cover4

/-- The accumulators are written back once, after the last point, whole. -/
theorem flushed5 (c : Dev nD) (t : Fin cfg2.N) (hf : (cfg2.win 5).flush t = true) :
    (dat2 V c).flushed 5 t = ((cfg2.win 5).blk t).view.read (Elt Ideal) (G5 V c) := by
  have hN : cfg2.N = 10 := N_2
  have h9 : t.val = 9 := by have := (flush2_5 t).mp hf; have := t.isLt; omega
  obtain rfl : t = t2_9 := Fin.ext h9
  show (cfg2.win 5).cut (grid2.coords t2_9) ((dat2 V c).after 5 t2_9) = _
  rw [after2_5]
  have hG : (outsAt2 V c t2_9.val t2_9.isLt).2.1 = G5 V c := by
    funext j
    obtain ⟨u, q, rfl⟩ : ∃ (u : Fin 1) (q : Fin 128), j = ix2 u q := ⟨j 0, j 1, eq_ix2 j⟩
    exact acc5 V c 9 _ u q
  rw [hG]
  obtain ⟨-, -, -, -, -, -, -, -, -, -, e0, e1, -⟩ := idx_facts t2_9
  have hz' : (fun a => win2_5.index t2_9 a * main_v40_1.ty.shape.size a) = fun _ => 0 := funext fun a => by
    match a with
    | ⟨0, _⟩ => show win2_5.index t2_9 0 * 1 = 0; rw [e0]
    | ⟨1, _⟩ => show win2_5.index t2_9 1 * 128 = 0; rw [e1]
  exact (Memref.read_access_unit_zero (Elt Ideal) main_v40_1 hz' (fun a => by rw [congrFun hz' a]; simp) (G5 V c)).symm

theorem flushed6 (c : Dev nD) (t : Fin cfg2.N) (hf : (cfg2.win 6).flush t = true) :
    (dat2 V c).flushed 6 t = ((cfg2.win 6).blk t).view.read (Elt Ideal) (G6 V c) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6]
  have hG : (outsAt2 V c t2_9.val t2_9.isLt).2.2 = G6 V c := by
    funext j
    obtain ⟨u, q, rfl⟩ : ∃ (u : Fin 1) (q : Fin 128), j = ix2 u q := ⟨j 0, j 1, eq_ix2 j⟩
    exact acc6 V c 9 _ u q
  rw [hG]
  obtain ⟨-, -, -, -, -, -, -, -, -, -, -, -, e0, e1⟩ := idx_facts t2_9
  have hz' : (fun a => win2_6.index t2_9 a * main_v40_2.ty.shape.size a) = fun _ => 0 := funext fun a => by
    match a with
    | ⟨0, _⟩ => show win2_6.index t2_9 0 * 1 = 0; rw [e0]
    | ⟨1, _⟩ => show win2_6.index t2_9 1 * 128 = 0; rw [e1]
  exact (Memref.read_access_unit_zero (Elt Ideal) main_v40_2 hz' (fun a => by rw [congrFun hz' a]; simp) (G6 V c)).symm

/-- The last point's block of an accumulator array is the whole array. -/
theorem cover5 (i : S1x128.Idx) : ∃ t : Fin cfg2.N, (cfg2.win 5).flush t = true ∧ i ∈ ((cfg2.win 5).blk t).view.set := by
  refine ⟨t2_9, (flush2_5 t2_9).mpr rfl, ?_⟩
  show i ∈ ((View.whole main_v40_1).slice (win2_5.rect t2_9)).set
  rw [View.set_slice_whole, Rect.mem_set_unit]
  have h0 : (i 0 : Nat) < 1 := (i 0).isLt
  have h1 : (i 1 : Nat) < 128 := (i 1).isLt
  obtain ⟨-, -, -, -, -, -, -, -, -, -, e0, e1, -⟩ := idx_facts t2_9
  intro a
  match a with
  | ⟨0, _⟩ => show win2_5.index t2_9 0 * 1 ≤ (i 0 : Nat) ∧ (i 0 : Nat) < win2_5.index t2_9 0 * 1 + 1; rw [e0]; omega
  | ⟨1, _⟩ => show win2_5.index t2_9 1 * 128 ≤ (i 1 : Nat) ∧ (i 1 : Nat) < win2_5.index t2_9 1 * 128 + 128; rw [e1]; omega

theorem cover6 (i : S1x128.Idx) : ∃ t : Fin cfg2.N, (cfg2.win 6).flush t = true ∧ i ∈ ((cfg2.win 6).blk t).view.set := by
  refine ⟨t2_9, (flush2_6 t2_9).mpr rfl, ?_⟩
  show i ∈ ((View.whole main_v40_2).slice (win2_6.rect t2_9)).set
  rw [View.set_slice_whole, Rect.mem_set_unit]
  have h0 : (i 0 : Nat) < 1 := (i 0).isLt
  have h1 : (i 1 : Nat) < 128 := (i 1).isLt
  obtain ⟨-, -, -, -, -, -, -, -, -, -, -, -, e0, e1⟩ := idx_facts t2_9
  intro a
  match a with
  | ⟨0, _⟩ => show win2_6.index t2_9 0 * 1 ≤ (i 0 : Nat) ∧ (i 0 : Nat) < win2_6.index t2_9 0 * 1 + 1; rw [e0]; omega
  | ⟨1, _⟩ => show win2_6.index t2_9 1 * 128 ≤ (i 1 : Nat) ∧ (i 1 : Nat) < win2_6.index t2_9 1 * 128 + 128; rw [e1]; omega

theorem final5 (c : Dev nD) : (dat2 V c).arrAt 5 cfg2.N = G5 V c :=
  (dat2 V c).arrAt_eq_of_cover 5 (G5 V c) (flushed5 V c) cover5
theorem final6 (c : Dev nD) : (dat2 V c).arrAt 6 cfg2.N = G6 V c :=
  (dat2 V c).arrAt_eq_of_cover 6 (G6 V c) (flushed6 V c) cover6

/-! ## The three results -/

/-- Every entry of the first output array is the affine map's entry. -/
theorem valueY (c : Dev nD) (r : Fin 100000) (q : Fin 128) :
    ((dat2 V c).arrAt 4 cfg2.N : S100000x128.Idx → Ideal .f32) (ix2 r q)
      = lin (R := 100000) (K := 128) (V c (Pipeline.arrRef spec2 0)) (V c (Pipeline.arrRef spec2 1)) (V c (Pipeline.arrRef spec2 2)) (V c (Pipeline.arrRef spec2 3)) r q := by
  rw [final4 V c]
  exact (G4_apply V c (ix2 r q) q r.val rfl rfl).trans (Yn_val V c q r)

/-- Every entry of the second output array is the column sum of y over all 100000 rows. -/
theorem valueS (c : Dev nD) (q : Fin 128) :
    ((dat2 V c).arrAt 5 cfg2.N : S1x128.Idx → Ideal .f32) (ix2 (0 : Fin 1) q)
      = ∑ r : Fin 100000, lin (R := 100000) (K := 128) (V c (Pipeline.arrRef spec2 0)) (V c (Pipeline.arrRef spec2 1)) (V c (Pipeline.arrRef spec2 2)) (V c (Pipeline.arrRef spec2 3)) r q := by
  rw [final5 V c]
  show ∑ j ∈ Finset.range 10, colsum V c q j = _
  unfold colsum
  rw [sum_blocks (Yn V c q)]
  exact Finset.sum_congr rfl fun r _ => Yn_val V c q r

/-- Every entry of the third output array is the column sum of y·y over all 100000 rows. -/
theorem valueSS (c : Dev nD) (q : Fin 128) :
    ((dat2 V c).arrAt 6 cfg2.N : S1x128.Idx → Ideal .f32) (ix2 (0 : Fin 1) q)
      = ∑ r : Fin 100000, lin (R := 100000) (K := 128) (V c (Pipeline.arrRef spec2 0)) (V c (Pipeline.arrRef spec2 1)) (V c (Pipeline.arrRef spec2 2)) (V c (Pipeline.arrRef spec2 3)) r q * lin (R := 100000) (K := 128) (V c (Pipeline.arrRef spec2 0)) (V c (Pipeline.arrRef spec2 1)) (V c (Pipeline.arrRef spec2 2)) (V c (Pipeline.arrRef spec2 3)) r q := by
  rw [final6 V c]
  show ∑ j ∈ Finset.range 10, colsumsq V c q j = _
  unfold colsumsq
  rw [sum_blocks (fun i => Yn V c q i * Yn V c q i)]
  exact Finset.sum_congr rfl fun r _ => by
    show Yn V c q r.val * Yn V c q r.val = _
    rw [Yn_val V c q r]

end Cert.KernelIdeal.KGin2

end
-- ==== Proof.KBn3.lean ====
/- The value of batch normalisation followed by ReLU, region 3 of the idealized kernel program, read at the extended reals.

   The region takes a [100000,128] array y and four [1,128] rows (mean, var, gamma, beta) and writes a [100000,128] array,
   in 10 row blocks of 10000 rows each: block t is rows 10000·t … 10000·t + 9999. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn3

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x128 .f32) (v5 : Vec Ideal S10000x128 .f32) (v7 v13 v17 : Vec Ideal S1x128 .f32)
    (r : Fin 10000) (q : Fin 128) :
    k3_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k3_pay1
  simp only [shapeCast_self, maximumf_apply, addf_apply, mulf_apply, subf_apply, broadcast_apply, broadcastTo_1b_ab_apply]
  rfl

/-! ## The whole array as one function of the five input arrays -/

/-- The column of an index of the [100000,128] array, as a number below 128. -/
def col (i : S100000x128.Idx) : Fin 128 := ⟨(i 1).val, idx2_lt1 i⟩

/-- Normalise, scale, shift, clamp at zero: entry `i` from `y` at `i` and the four rows at `i`'s column. -/
def G (y : S100000x128.Idx → Elt Ideal .f32) (mean var gamma beta : S1x128.Idx → Elt Ideal .f32) :
    S100000x128.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S100000x128.Idx → Elt Ideal .f32) (mean var gamma beta : S1x128.Idx → Elt Ideal .f32)
    (r : Fin 100000) (q : Fin 128) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S10000x128 .f32) (x1 x2 x3 x4 : Vec Ideal S1x128 .f32)
    (y : S100000x128.Idx → Elt Ideal .f32) (mean var gamma beta : S1x128.Idx → Elt Ideal .f32)
    (emb : S10000x128.Idx → S100000x128.Idx)
    (hc : ∀ (p : Fin 10000) (q : Fin 128), col (emb (ix2 p q)) = q)
    (e0 : ∀ (p : Fin 10000) (q : Fin 128), x0 (ix2 p q) = y (emb (ix2 p q)))
    (e1 : ∀ q : Fin 128, x1 (ix2 (0 : Fin 1) q) = mean (ix2 (0 : Fin 1) q))
    (e2 : ∀ q : Fin 128, x2 (ix2 (0 : Fin 1) q) = var (ix2 (0 : Fin 1) q))
    (e3 : ∀ q : Fin 128, x3 (ix2 (0 : Fin 1) q) = gamma (ix2 (0 : Fin 1) q))
    (e4 : ∀ q : Fin 128, x4 (ix2 (0 : Fin 1) q) = beta (ix2 (0 : Fin 1) q)) :
    out3_5 (F := Ideal) x0 x1 x2 x3 x4 = fun j => G y mean var gamma beta (emb j) := by
  unfold out3_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of y's block at point `t` is y at row 10000·t + p, column q. -/
theorem yblk_apply (c : Dev nD) (t : Fin cfg3.N) (p : Fin 10000) (q : Fin 128) (i : S100000x128.Idx)
    (h0 : (i 0).val = t.val * 10000 + p.val) (h1 : (i 1).val = q.val) :
    (iblk3 V c 0 t : Vec Ideal S10000x128 .f32) (ix2 p q) = (V c (Pipeline.arrRef spec3 0) : S100000x128.Idx → Elt Ideal .f32) i := by
  obtain ⟨e0, e1, -⟩ := idx_facts t
  have he : (((cfg3.win 0).blk t).view.emb (ix2 p q) : S100000x128.Idx) = i := by
    funext a
    apply Fin.ext
    match a with
    | ⟨0, _⟩ => show win3_0.index t (0 : Fin 2) * 10000 + 1 * p.val = (i 0).val; rw [e0, h0]; omega
    | ⟨1, _⟩ => show win3_0.index t (1 : Fin 2) * 128 + 1 * q.val = (i 1).val; rw [e1, h1]; omega
  exact congrArg (V c (Pipeline.arrRef spec3 0) : S100000x128.Idx → Elt Ideal .f32) he

/-- Column q of the mean row's block at any point is column q of the mean row: the block is the whole row. -/
theorem row1_apply (c : Dev nD) (t : Fin cfg3.N) (q : Fin 128) :
    (iblk3 V c 1 t : Vec Ideal S1x128 .f32) (ix2 (0 : Fin 1) q)
      = (V c (Pipeline.arrRef spec3 1) : S1x128.Idx → Elt Ideal .f32) (ix2 (0 : Fin 1) q) := by
  obtain ⟨-, -, e0, e1, -⟩ := idx_facts t
  have he : (((cfg3.win 1).blk t).view.emb (ix2 (0 : Fin 1) q) : S1x128.Idx) = ix2 (0 : Fin 1) q := by
    funext a
    apply Fin.ext
    match a with
    | ⟨0, _⟩ => show win3_1.index t (0 : Fin 2) * 1 + 1 * (0 : Fin 1).val = (0 : Fin 1).val; rw [e0]; omega
    | ⟨1, _⟩ => show win3_1.index t (1 : Fin 2) * 128 + 1 * q.val = q.val; rw [e1]; omega
  exact congrArg (V c (Pipeline.arrRef spec3 1) : S1x128.Idx → Elt Ideal .f32) he

/-- Column q of the variance row's block at any point is column q of the variance row: the block is the whole row. -/
theorem row2_apply (c : Dev nD) (t : Fin cfg3.N) (q : Fin 128) :
    (iblk3 V c 2 t : Vec Ideal S1x128 .f32) (ix2 (0 : Fin 1) q)
      = (V c (Pipeline.arrRef spec3 2) : S1x128.Idx → Elt Ideal .f32) (ix2 (0 : Fin 1) q) := by
  obtain ⟨-, -, -, -, e0, e1, -⟩ := idx_facts t
  have he : (((cfg3.win 2).blk t).view.emb (ix2 (0 : Fin 1) q) : S1x128.Idx) = ix2 (0 : Fin 1) q := by
    funext a
    apply Fin.ext
    match a with
    | ⟨0, _⟩ => show win3_2.index t (0 : Fin 2) * 1 + 1 * (0 : Fin 1).val = (0 : Fin 1).val; rw [e0]; omega
    | ⟨1, _⟩ => show win3_2.index t (1 : Fin 2) * 128 + 1 * q.val = q.val; rw [e1]; omega
  exact congrArg (V c (Pipeline.arrRef spec3 2) : S1x128.Idx → Elt Ideal .f32) he

/-- Column q of the scale row's block at any point is column q of the scale row: the block is the whole row. -/
theorem row3_apply (c : Dev nD) (t : Fin cfg3.N) (q : Fin 128) :
    (iblk3 V c 3 t : Vec Ideal S1x128 .f32) (ix2 (0 : Fin 1) q)
      = (V c (Pipeline.arrRef spec3 3) : S1x128.Idx → Elt Ideal .f32) (ix2 (0 : Fin 1) q) := by
  obtain ⟨-, -, -, -, -, -, e0, e1, -⟩ := idx_facts t
  have he : (((cfg3.win 3).blk t).view.emb (ix2 (0 : Fin 1) q) : S1x128.Idx) = ix2 (0 : Fin 1) q := by
    funext a
    apply Fin.ext
    match a with
    | ⟨0, _⟩ => show win3_3.index t (0 : Fin 2) * 1 + 1 * (0 : Fin 1).val = (0 : Fin 1).val; rw [e0]; omega
    | ⟨1, _⟩ => show win3_3.index t (1 : Fin 2) * 128 + 1 * q.val = q.val; rw [e1]; omega
  exact congrArg (V c (Pipeline.arrRef spec3 3) : S1x128.Idx → Elt Ideal .f32) he

/-- Column q of the shift row's block at any point is column q of the shift row: the block is the whole row. -/
theorem row4_apply (c : Dev nD) (t : Fin cfg3.N) (q : Fin 128) :
    (iblk3 V c 4 t : Vec Ideal S1x128 .f32) (ix2 (0 : Fin 1) q)
      = (V c (Pipeline.arrRef spec3 4) : S1x128.Idx → Elt Ideal .f32) (ix2 (0 : Fin 1) q) := by
  obtain ⟨-, -, -, -, -, -, -, -, e0, e1, -⟩ := idx_facts t
  have he : (((cfg3.win 4).blk t).view.emb (ix2 (0 : Fin 1) q) : S1x128.Idx) = ix2 (0 : Fin 1) q := by
    funext a
    apply Fin.ext
    match a with
    | ⟨0, _⟩ => show win3_4.index t (0 : Fin 2) * 1 + 1 * (0 : Fin 1).val = (0 : Fin 1).val; rw [e0]; omega
    | ⟨1, _⟩ => show win3_4.index t (1 : Fin 2) * 128 + 1 * q.val = q.val; rw [e1]; omega
  exact congrArg (V c (Pipeline.arrRef spec3 4) : S1x128.Idx → Elt Ideal .f32) he

/-- Entry (p, q) of the result's block at point `t` sits in row 10000·t + p of the array … -/
theorem oblk_row (t : Fin cfg3.N) (p : Fin 10000) (q : Fin 128) :
    ((((cfg3.win 5).blk t).view.emb (ix2 p q) : S100000x128.Idx) 0).val = t.val * 10000 + p.val := by
  obtain ⟨-, -, -, -, -, -, -, -, -, -, e0, -⟩ := idx_facts t
  show win3_5.index t (0 : Fin 2) * 10000 + 1 * p.val = _
  rw [e0]; omega

/-- … and in column q. -/
theorem oblk_col (t : Fin cfg3.N) (p : Fin 10000) (q : Fin 128) :
    ((((cfg3.win 5).blk t).view.emb (ix2 p q) : S100000x128.Idx) 1).val = q.val := by
  obtain ⟨-, -, -, -, -, -, -, -, -, -, -, e1⟩ := idx_facts t
  show win3_5.index t (1 : Fin 2) * 128 + 1 * q.val = _
  rw [e1]; omega

/-! ## From the blocks to the array -/

set_option maxHeartbeats 1000000 in
/-- What point `t` writes back is block `t` of `G` of the five arrays as the region finds them. -/
theorem flushed_eq (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  exact out_fun (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4))
    (((cfg3.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v53).slice (win3_5.rect t)).set ↔ _
  rw [View.set_slice_whole, Rect.mem_set_unit]
  exact Iff.rfl

/-- Every entry is written: row r is in the block of point r / 10000. -/
theorem cover (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 10000 :=
    ⟨⟨(i 0).val / 10000, by rw [show cfg3.N = 10 from N_3]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 128 ≤ (i 1).val ∧ (i 1).val < win3_5.index t (1 : Fin 2) * 128 + 128
    rw [e1]; omega

/-- The result array after the region is `G` of the five arrays the region was entered with. -/
theorem final (c : Dev nD) :
    (dat3 V c).arrAt 5 cfg3.N
      = G (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed_eq V c t) cover

/-- The result array after the region, entry by entry: the specification's `bnAt` of the five arrays at (r, q). -/
theorem value (c : Dev nD) (r : Fin 100000) (q : Fin 128) :
    ((dat3 V c).arrAt 5 cfg3.N : S100000x128.Idx → Elt Ideal .f32) (ix2 r q)
      = bnAt (R := 100000) (C := 128) (V c (Pipeline.arrRef spec3 0)) (V c (Pipeline.arrRef spec3 1))
          (V c (Pipeline.arrRef spec3 2)) (V c (Pipeline.arrRef spec3 3)) (V c (Pipeline.arrRef spec3 4)) r q := by
  rw [final V c]
  exact G_apply _ _ _ _ _ r q

end Cert.KernelIdeal.KBn3
end
-- ==== Proof.KChainB.lean ====
/-
  The kernel program's layer 2 read at an index: region 2 leaves the fused affine stage of layer 1's output and its
  neighbours' sums (with slab 0 of the stacked weights and row 0 of the stacked biases), its column sums and column sums of
  squares; the host forms mean and variance; region 3 normalises with row 0 of the stacked scales and shifts and rectifies.
-/
import proofs.«132586_j38087769981032_1_alg».proof.Proof.KChainA
import proofs.«132586_j38087769981032_1_alg».proof.Proof.KGin2
import proofs.«132586_j38087769981032_1_alg».proof.Proof.KBn3
import proofs.«132586_j38087769981032_1_alg».proof.Proof.KHostD
import proofs.«132586_j38087769981032_1_alg».proof.Proof.KHostA

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-! ## Layer 2: regions 2 and 3 -/

/-- Layer 2's fused affine stage, of layer 1's output and the arguments. -/
def y2 : Fin 100000 → Fin 128 → EReal :=
  linK twoW (rd2 (R := 100000) (C := 128) (x1 m ρ c)) (rd2 (R := 100000) (C := 128) (KHost.aggOf128 (x1 m ρ c) (a1 m c) (a2 m c)))
    (fun k q => rd3 (A := 4) (R := 128) (C := 128) (a8 m c) 0 k q) (fun q => twoW * rd2 (R := 4) (C := 128) (a9 m c) 0 q)

/-- Layer 2's output array. -/
def x2 : FVec Ideal S100000x128 .f32 := W8 m ρ c (Proc.devRef .tc main_v53)

theorem in2_x : (V5 m ρ c (Pipeline.arrRef spec2 0) : FVec Ideal S100000x128 .f32) = x1 m ρ c :=
  KHost.host2_keep_x (W4 m ρ c)
theorem in2_a : (V5 m ρ c (Pipeline.arrRef spec2 1) : FVec Ideal S100000x128 .f32) = KHost.aggOf128 (x1 m ρ c) (a1 m c) (a2 m c) := by
  have h := KHost.host2_agg_eq (W4 m ρ c)
  rw [KArgs.W4_arg1 m ρ c, KArgs.W4_arg2 m ρ c] at h
  exact h
theorem in2_w (k q : Fin 128) : (V5 m ρ c (Pipeline.arrRef spec2 2) : FVec Ideal S128x128 .f32) (ix2 k q) = rd3 (A := 4) (R := 128) (C := 128) (a8 m c) 0 k q :=
  (KHost.host2_w_at (W4 m ρ c) k q).trans (congrFun (KArgs.W4_arg8 m ρ c) _)
theorem in2_b (q : Fin 128) : (V5 m ρ c (Pipeline.arrRef spec2 3) : FVec Ideal S1x128 .f32) (ix2 (0 : Fin 1) q) = twoW * rd2 (R := 4) (C := 128) (a9 m c) 0 q :=
  (KHost.host2_b2_at (W4 m ρ c) q).trans (congrArg (fun v : EReal => twoW * v) (congrFun (KArgs.W4_arg9 m ρ c) _))

/-- The fused stage of region 2's inputs, entry by entry, is layer 2's. -/
theorem lin2_eq (r : Fin 100000) (q : Fin 128) :
    KGin.lin (V5 m ρ c (Pipeline.arrRef spec2 0)) (V5 m ρ c (Pipeline.arrRef spec2 1)) (V5 m ρ c (Pipeline.arrRef spec2 2))
      (V5 m ρ c (Pipeline.arrRef spec2 3)) r q = y2 m ρ c r q := by
  rw [in2_x m ρ c, in2_a m ρ c]
  unfold KGin.lin y2 linK rd2
  rw [in2_b m ρ c q]
  exact congrArg (fun v : EReal => v + twoW * rd2 (R := 4) (C := 128) (a9 m c) 0 q)
    (Finset.sum_congr rfl fun k _ => congrArg (fun w : EReal => (twoW * (x1 m ρ c) (ix2 r k) + (KHost.aggOf128 (x1 m ρ c) (a1 m c) (a2 m c)) (ix2 r k)) * w) (in2_w m ρ c k q))

theorem y2_at (r : Fin 100000) (q : Fin 128) :
    rd2 (R := 100000) (C := 128) (W6 m ρ c (Proc.devRef .tc main_v40_0)) r q = y2 m ρ c r q := by
  have e0 : (W6 m ρ c (Proc.devRef .tc main_v40_0) : FVec Ideal S100000x128 .f32) = (dat2 (V5 m ρ) c).arrAt 4 cfg2.N := W6_arr m ρ c 4
  show (W6 m ρ c (Proc.devRef .tc main_v40_0) : FVec Ideal S100000x128 .f32) (ix2 r q) = _
  rw [e0, KGin2.valueY (V5 m ρ) c r q]
  exact lin2_eq m ρ c r q

theorem s2_at (q : Fin 128) :
    rd2 (R := 1) (C := 128) (W6 m ρ c (Proc.devRef .tc main_v40_1)) 0 q = ∑ r : Fin 100000, y2 m ρ c r q := by
  have e0 : (W6 m ρ c (Proc.devRef .tc main_v40_1) : FVec Ideal S1x128 .f32) = (dat2 (V5 m ρ) c).arrAt 5 cfg2.N := W6_arr m ρ c 5
  unfold rd2
  rw [e0, KGin2.valueS (V5 m ρ) c q]
  exact Finset.sum_congr rfl fun r _ => lin2_eq m ρ c r q

theorem ss2_at (q : Fin 128) :
    rd2 (R := 1) (C := 128) (W6 m ρ c (Proc.devRef .tc main_v40_2)) 0 q = ∑ r : Fin 100000, y2 m ρ c r q * y2 m ρ c r q := by
  have e0 : (W6 m ρ c (Proc.devRef .tc main_v40_2) : FVec Ideal S1x128 .f32) = (dat2 (V5 m ρ) c).arrAt 6 cfg2.N := W6_arr m ρ c 6
  unfold rd2
  rw [e0, KGin2.valueSS (V5 m ρ) c q]
  exact Finset.sum_congr rfl fun r _ => by rw [lin2_eq m ρ c r q]

/-- LAYER 2 of the kernel program. -/
theorem layer2 (r : Fin 100000) (q : Fin 128) :
    rd2 (R := 100000) (C := 128) (x2 m ρ c) r q
      = bnrelu epsW (y2 m ρ c) (meanK nW (y2 m ρ c)) (varK nW (y2 m ρ c))
          (fun q => rd2 (R := 4) (C := 128) (a10 m c) 0 q) (fun q => rd2 (R := 4) (C := 128) (a11 m c) 0 q) r q := by
  have e0 : (W8 m ρ c (Proc.devRef .tc main_v53) : FVec Ideal S100000x128 .f32) = (dat3 (V7 m ρ) c).arrAt 5 cfg3.N := W8_arr m ρ c 5
  show (W8 m ρ c (Proc.devRef .tc main_v53) : FVec Ideal S100000x128 .f32) (ix2 r q) = _
  rw [e0, KBn3.value (V7 m ρ) c r q]
  have hy : (V7 m ρ c (Pipeline.arrRef spec3 0) : FVec Ideal S100000x128 .f32) (ix2 r q) = y2 m ρ c r q :=
    (congrFun (KHost.host3_keep_y (W6 m ρ c)) _).trans (y2_at m ρ c r q)
  have hm : (V7 m ρ c (Pipeline.arrRef spec3 1) : FVec Ideal S1x128 .f32) (ix2 (0 : Fin 1) q) = meanK nW (y2 m ρ c) q :=
    (KHost.host3_mean_at (W6 m ρ c) q).trans (congrArg (fun s : EReal => Ideal.div s nW) (s2_at m ρ c q))
  have hv : (V7 m ρ c (Pipeline.arrRef spec3 2) : FVec Ideal S1x128 .f32) (ix2 (0 : Fin 1) q) = varK nW (y2 m ρ c) q :=
    (KHost.host3_var_at (W6 m ρ c) q).trans (congrArg₂ (fun s t : EReal => Ideal.div t nW - Ideal.div s nW * Ideal.div s nW)
      (s2_at m ρ c q) (ss2_at m ρ c q))
  have hg : (V7 m ρ c (Pipeline.arrRef spec3 3) : FVec Ideal S1x128 .f32) (ix2 (0 : Fin 1) q) = rd2 (R := 4) (C := 128) (a10 m c) 0 q :=
    (KHost.host3_gamma_at (W6 m ρ c) q).trans (congrFun (KArgs.W6_arg10 m ρ c) _)
  have hb : (V7 m ρ c (Pipeline.arrRef spec3 4) : FVec Ideal S1x128 .f32) (ix2 (0 : Fin 1) q) = rd2 (R := 4) (C := 128) (a11 m c) 0 q :=
    (KHost.host3_beta_at (W6 m ρ c) q).trans (congrFun (KArgs.W6_arg11 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.KGin4.lean ====
/-
  The value of the linear map of one aggregation layer, with its column statistics.

  Over N = 100000 rows cut into ten blocks of 10000, each grid point forms, for its block of the two inputs x and a
  (the features and their neighbourhood sums), the rows  y = (2·x + a)·w + b  of the [100000,128] output, and adds the
  block's column sums of y and of y·y into two [1,128] accumulators that the first point zeroes.  Read at the extended
  reals this file shows, for the arrays as the region finds them:

    * every entry (r, q) of the first output is  lin x a w b r q = (∑ k, (2·x(r,k) + a(r,k))·w(k,q)) + b(0,q);
    * entry (0, q) of the second output is the sum over ALL 100000 rows r of lin x a w b r q;
    * entry (0, q) of the third output is the sum over all rows of lin x a w b r q · lin x a w b r q.

  The factor 2 is kept as the word 0x40000000 read as an extended real (`two`); it is never evaluated.  The matrix
  product into a zero accumulator is the plain sum over k; the change of float format before it is the identity.
  The accumulators are sums of ten block sums; on the extended reals addition is commutative and associative, so
  regrouping them into one sum over all rows needs no finiteness.  A row past the last is given the value 0 only so that
  rows can be numbered by natural numbers in the induction over the grid points; the final statements range over Fin 100000.
-/
import proofs.«132586_j38087769981032_1_alg».proof.Proof.Gen.KernelIdeal.Frame
import proofs.«132586_j38087769981032_1_alg».proof.Proof.KGinLin
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

set_option maxRecDepth 16384

noncomputable section

namespace Cert.KernelIdeal.KGin4

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.PlainDot Cert.KernelIdeal.KGin
open scoped BigOperators

/-! ## The arithmetic of one block, entry by entry -/

/-- The block of y the body stores, at row p and column q of the block. -/
theorem pay3_apply (v3 v6 : Vec Ideal S10000x128 .f32) (v10 : Vec Ideal S128x128 .f32) (v13 : Vec Ideal S1x128 .f32)
    (p : Fin 10000) (q : Fin 128) :
    k4_pay3 (F := Ideal) v3 v6 v10 v13 (ix2 p q) = lin v3 v6 v10 v13 p q := by
  unfold k4_pay3 lin
  refine (addf_apply _ _ _).trans (congrArg₂ (· + ·) ?_ ?_)
  · refine (matmul_zero_apply _ rfl none _ _ (ix2 p q)).trans ?_
    unfold mm
    refine Finset.sum_congr rfl fun k _ => ?_
    rw [rowIdx_ix2, colIdx_ix2, shapeCast_self, shapeCast_self, shapeCast_self]
    rfl
  · refine (broadcastTo_1b_ab_apply _ _ p q).trans ?_
    rw [shapeCast_self]

/-- The first accumulator's new contents: what it held plus the block's column sum of y. -/
theorem pay4_apply (v3 v6 : Vec Ideal S10000x128 .f32) (v10 : Vec Ideal S128x128 .f32) (v13 v18 : Vec Ideal S1x128 .f32)
    (u : Fin 1) (q : Fin 128) :
    k4_pay4 (F := Ideal) v3 v6 v10 v13 v18 (ix2 u q)
      = v18 (ix2 u q) + ∑ p : Fin 10000, k4_pay3 (F := Ideal) v3 v6 v10 v13 (ix2 p q) := by
  unfold k4_pay4
  refine (addf_apply _ _ _).trans (congrArg₂ (· + ·) (congrFun (shapeCast_self v18 _) _) ?_)
  refine (shapeCast_a_1a_apply _ _ u q).trans ?_
  exact colsum_apply _ _ _ _ q

/-- The second accumulator's new contents: what it held plus the block's column sum of y·y. -/
theorem pay5_apply (v3 v6 : Vec Ideal S10000x128 .f32) (v10 : Vec Ideal S128x128 .f32) (v13 v24 : Vec Ideal S1x128 .f32)
    (u : Fin 1) (q : Fin 128) :
    k4_pay5 (F := Ideal) v3 v6 v10 v13 v24 (ix2 u q)
      = v24 (ix2 u q) + ∑ p : Fin 10000, k4_pay3 (F := Ideal) v3 v6 v10 v13 (ix2 p q) * k4_pay3 (F := Ideal) v3 v6 v10 v13 (ix2 p q) := by
  unfold k4_pay5
  refine (addf_apply _ _ _).trans (congrArg₂ (· + ·) (congrFun (shapeCast_self v24 _) _) ?_)
  refine (shapeCast_a_1a_apply _ _ u q).trans ?_
  refine (colsum_apply _ _ _ _ q).trans ?_
  rfl

/-- The first point's reset stores the zero word. -/
theorem pay1_apply (j : S1x128.Idx) : k4_pay1 (F := Ideal) j = 0 := Ideal.ofBits_zero_f32
theorem pay2_apply (j : S1x128.Idx) : k4_pay2 (F := Ideal) j = 0 := Ideal.ofBits_zero_f32

/-! ## What the body leaves in each output's buffer, case by case -/

section Pieces

variable {F : FTy → Type} [FloatOps F]

theorem hz : (![0, 0] : Fin 2 → Nat) = fun _ => 0 := funext fun a => by fin_cases a <;> rfl

/-- At the first point the block of y is the one store's payload of the loaded blocks. -/
theorem out_A_4 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S10000x128 .f32) (x2 : Vec F S128x128 .f32) (x3 : Vec F S1x128 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  try sl_unfold_words
  rw [View.canon_unit_zero hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the first accumulator is reset to the zero block and the block's column sum added to it. -/
theorem out_A_5 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S10000x128 .f32) (x2 : Vec F S128x128 .f32) (x3 : Vec F S1x128 .f32) :
    out4_A_5 c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the second accumulator likewise. -/
theorem out_A_6 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S10000x128 .f32) (x2 : Vec F S128x128 .f32) (x3 : Vec F S1x128 .f32) :
    out4_A_6 c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At a later point the block of y is again the one store's payload. -/
theorem out_B_4 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S10000x128 .f32) (x2 : Vec F S128x128 .f32) (x3 : Vec F S1x128 .f32) (xo5 xo6 : Vec F S1x128 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the first accumulator adds the block's column sum to what the point before left. -/
theorem out_B_5 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S10000x128 .f32) (x2 : Vec F S128x128 .f32) (x3 : Vec F S1x128 .f32) (xo5 xo6 : Vec F S1x128 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the second accumulator likewise. -/
theorem out_B_6 (c : Dev nD) (i : grid4.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S10000x128 .f32) (x2 : Vec F S128x128 .f32) (x3 : Vec F S1x128 .f32) (xo5 xo6 : Vec F S1x128 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

end Pieces

/-! ## The blocks are rows of the arrays -/

variable (V : (c : Dev nD) → (b : Ref sig .tc) → Buf (Elt Ideal) ((c : Thread nD τ).loc b))

/-- The two inputs, the weight and the bias as the region finds them. -/
abbrev xArr (c : Dev nD) : (⟨2, ![100000, 128]⟩ : Shape).Idx → EReal := V c (Pipeline.arrRef spec4 0)
abbrev aArr (c : Dev nD) : (⟨2, ![100000, 128]⟩ : Shape).Idx → EReal := V c (Pipeline.arrRef spec4 1)
abbrev wArr (c : Dev nD) : (⟨2, ![128, 128]⟩ : Shape).Idx → EReal := V c (Pipeline.arrRef spec4 2)
abbrev bArr (c : Dev nD) : (⟨2, ![1, 128]⟩ : Shape).Idx → EReal := V c (Pipeline.arrRef spec4 3)

/-- The four input blocks at point t. -/
abbrev B0 (c : Dev nD) (t : Fin cfg4.N) : Vec Ideal S10000x128 .f32 := iblk4 V c 0 t
abbrev B1 (c : Dev nD) (t : Fin cfg4.N) : Vec Ideal S10000x128 .f32 := iblk4 V c 1 t
abbrev B2 (c : Dev nD) (t : Fin cfg4.N) : Vec Ideal S128x128 .f32 := iblk4 V c 2 t
abbrev B3 (c : Dev nD) (t : Fin cfg4.N) : Vec Ideal S1x128 .f32 := iblk4 V c 3 t

/-- The windows' block indices over the grid: the row-blocked windows move with the point, the others stay at 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row p of the first input's block at point t is row 10000·t + p of the array. -/
theorem blk_0 (c : Dev nD) (t : Fin cfg4.N) (p : Fin 10000) (k : Fin 128) (r : Fin 100000) (hr : r.val = t.val * 10000 + p.val) :
    B0 V c t (ix2 p k) = xArr V c (ix2 r k) := by
  obtain ⟨e0, e1, -⟩ := idx_facts t
  unfold B0 iblk4
  rw [View.read_apply]
  show V c (Pipeline.arrRef spec4 0) _ = V c (Pipeline.arrRef spec4 0) _
  congr 1
  funext a
  apply Fin.ext
  match a with
  | ⟨0, _⟩ => show win4_0.index t 0 * 10000 + 1 * p.val = r.val; rw [e0, hr]; omega
  | ⟨1, _⟩ => show win4_0.index t 1 * 128 + 1 * k.val = k.val; rw [e1]; omega

/-- The same for the second input. -/
theorem blk_1 (c : Dev nD) (t : Fin cfg4.N) (p : Fin 10000) (k : Fin 128) (r : Fin 100000) (hr : r.val = t.val * 10000 + p.val) :
    B1 V c t (ix2 p k) = aArr V c (ix2 r k) := by
  obtain ⟨-, -, e0, e1, -⟩ := idx_facts t
  unfold B1 iblk4
  rw [View.read_apply]
  show V c (Pipeline.arrRef spec4 1) _ = V c (Pipeline.arrRef spec4 1) _
  congr 1
  funext a
  apply Fin.ext
  match a with
  | ⟨0, _⟩ => show win4_1.index t 0 * 10000 + 1 * p.val = r.val; rw [e0, hr]; omega
  | ⟨1, _⟩ => show win4_1.index t 1 * 128 + 1 * k.val = k.val; rw [e1]; omega

/-- The weight's one block is the whole weight. -/
theorem blk_2 (c : Dev nD) (t : Fin cfg4.N) (j : S128x128.Idx) : B2 V c t j = wArr V c j := by
  obtain ⟨-, -, -, -, e0, e1, -⟩ := idx_facts t
  unfold B2 iblk4
  rw [View.read_apply]
  show V c (Pipeline.arrRef spec4 2) _ = V c (Pipeline.arrRef spec4 2) _
  congr 1
  funext a
  apply Fin.ext
  match a with
  | ⟨0, _⟩ => show win4_2.index t 0 * 128 + 1 * (j 0).val = (j 0).val; rw [e0]; omega
  | ⟨1, _⟩ => show win4_2.index t 1 * 128 + 1 * (j 1).val = (j 1).val; rw [e1]; omega

/-- The bias's one block is the whole bias. -/
theorem blk_3 (c : Dev nD) (t : Fin cfg4.N) (j : S1x128.Idx) : B3 V c t j = bArr V c j := by
  obtain ⟨-, -, -, -, -, -, e0, e1, -⟩ := idx_facts t
  unfold B3 iblk4
  rw [View.read_apply]
  show V c (Pipeline.arrRef spec4 3) _ = V c (Pipeline.arrRef spec4 3) _
  congr 1
  funext a
  apply Fin.ext
  match a with
  | ⟨0, _⟩ => show win4_3.index t 0 * 1 + 1 * (j 0).val = (j 0).val; rw [e0]; omega
  | ⟨1, _⟩ => show win4_3.index t 1 * 128 + 1 * (j 1).val = (j 1).val; rw [e1]; omega

/-! ## The rows of y, numbered by natural numbers -/

/-- Entry (r, q) of y over the arrays as the region finds them. -/
abbrev Y (c : Dev nD) (r : Fin 100000) (q : Fin 128) : EReal := lin (xArr V c) (aArr V c) (wArr V c) (bArr V c) r q

/-- The same over a natural row number, 0 past the last row. -/
def Yn (c : Dev nD) (q : Fin 128) (i : ℕ) : EReal := if h : i < 100000 then Y V c ⟨i, h⟩ q else 0

theorem Yn_val (c : Dev nD) (q : Fin 128) (r : Fin 100000) : Yn V c q r.val = Y V c r q := by
  unfold Yn; rw [dif_pos r.isLt]

/-- Row p of the block of y at point t is row 10000·t + p of y. -/
theorem pay3_blocks (c : Dev nD) (t : Fin cfg4.N) (p : Fin 10000) (q : Fin 128) :
    k4_pay3 (F := Ideal) (B0 V c t) (B1 V c t) (B2 V c t) (B3 V c t) (ix2 p q) = Yn V c q (t.val * 10000 + p.val) := by
  have hN : t.val < 10 := lt_of_lt_of_eq t.isLt (show cfg4.N = 10 from N_4)
  have hr : t.val * 10000 + p.val < 100000 := by have := p.isLt; omega
  refine (pay3_apply (B0 V c t) (B1 V c t) (B2 V c t) (B3 V c t) p q).trans ?_
  unfold Yn
  rw [dif_pos hr]
  exact lin_congr (B0 V c t) (B1 V c t) (xArr V c) (aArr V c) (B2 V c t) (wArr V c) (B3 V c t) (bArr V c) p ⟨_, hr⟩ q
    (fun k => blk_0 V c t p k ⟨_, hr⟩ rfl) (fun k => blk_1 V c t p k ⟨_, hr⟩ rfl) (fun k => blk_2 V c t (ix2 k q)) (blk_3 V c t (ix2 0 q))

/-- The same at any index of the block. -/
theorem pay3_blocks_idx (c : Dev nD) (t : Fin cfg4.N) (j : S10000x128.Idx) :
    k4_pay3 (F := Ideal) (B0 V c t) (B1 V c t) (B2 V c t) (B3 V c t) j = Yn V c ⟨(j 1).val, idx2_lt1 j⟩ (t.val * 10000 + (j 0).val) := by
  obtain ⟨p, q, rfl⟩ : ∃ (p : Fin 10000) (q : Fin 128), j = ix2 p q := ⟨j 0, j 1, eq_ix2 j⟩
  exact pay3_blocks V c t p q

/-- The column sum of block j of y, and of its squares. -/
def colsum (c : Dev nD) (q : Fin 128) (j : ℕ) : EReal := ∑ i ∈ Finset.range 10000, Yn V c q (j * 10000 + i)
def colsumsq (c : Dev nD) (q : Fin 128) (j : ℕ) : EReal := ∑ i ∈ Finset.range 10000, Yn V c q (j * 10000 + i) * Yn V c q (j * 10000 + i)

theorem blocksum (c : Dev nD) (t : Fin cfg4.N) (q : Fin 128) :
    ∑ p : Fin 10000, k4_pay3 (F := Ideal) (B0 V c t) (B1 V c t) (B2 V c t) (B3 V c t) (ix2 p q) = colsum V c q t.val :=
  (Finset.sum_congr rfl fun p _ => pay3_blocks V c t p q).trans
    (Fin.sum_univ_eq_sum_range (fun i => Yn V c q (t.val * 10000 + i)) 10000)

theorem blocksumsq (c : Dev nD) (t : Fin cfg4.N) (q : Fin 128) :
    ∑ p : Fin 10000, k4_pay3 (F := Ideal) (B0 V c t) (B1 V c t) (B2 V c t) (B3 V c t) (ix2 p q) * k4_pay3 (F := Ideal) (B0 V c t) (B1 V c t) (B2 V c t) (B3 V c t) (ix2 p q)
      = colsumsq V c q t.val :=
  (Finset.sum_congr rfl fun p _ => by
      show _ * _ = Yn V c q (t.val * 10000 + p.val) * Yn V c q (t.val * 10000 + p.val)
      rw [pay3_blocks V c t p q]).trans
    (Fin.sum_univ_eq_sum_range (fun i => Yn V c q (t.val * 10000 + i) * Yn V c q (t.val * 10000 + i)) 10000)

/-! ## The outputs' buffers after each point -/

/-- After every point the first output's buffer holds the point's block of y. -/
theorem outs4 (c : Dev nD) (t : Fin cfg4.N) :
    (outsAt4 V c t.val t.isLt).1 = k4_pay3 (F := Ideal) (B0 V c t) (B1 V c t) (B2 V c t) (B3 V c t) := by
  by_cases h0 : t.val % 10 = 0
  · rw [outsAt4_A V c t h0]
    dsimp only
    exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (B0 V c t) (B1 V c t) (B2 V c t) (B3 V c t)
  · rw [outsAt4_B V c t h0]
    dsimp only
    exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (B0 V c t) (B1 V c t) (B2 V c t) (B3 V c t)
      (outsAt4 V c (t.val - 1) (Nat.lt_of_le_of_lt (Nat.sub_le _ _) t.isLt)).2.1 (outsAt4 V c (t.val - 1) (Nat.lt_of_le_of_lt (Nat.sub_le _ _) t.isLt)).2.2

/-- After point n the first accumulator holds the column sums of blocks 0 … n of y, added up. -/
theorem acc5 (c : Dev nD) : ∀ (n : ℕ) (h : n < cfg4.N) (u : Fin 1) (q : Fin 128),
    (outsAt4 V c n h).2.1 (ix2 u q) = ∑ j ∈ Finset.range (n + 1), colsum V c q j
  | 0, h, u, q => by
    rw [show outsAt4 V c 0 h = _ from outsAt4_A V c ⟨0, h⟩ rfl]
    dsimp only
    refine (congrFun (out_A_5 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) ((hcond4_0 ⟨0, h⟩).mpr rfl) (B0 V c ⟨0, h⟩) (B1 V c ⟨0, h⟩) (B2 V c ⟨0, h⟩) (B3 V c ⟨0, h⟩)) (ix2 u q)).trans ?_
    refine (pay4_apply (B0 V c ⟨0, h⟩) (B1 V c ⟨0, h⟩) (B2 V c ⟨0, h⟩) (B3 V c ⟨0, h⟩) (k4_pay1 (F := Ideal)) u q).trans ?_
    rw [pay1_apply, zero_add]
    exact (blocksum V c ⟨0, h⟩ q).trans (Finset.sum_range_one (fun j => colsum V c q j)).symm
  | n + 1, h, u, q => by
    have hN : cfg4.N = 10 := N_4
    have hB : ¬(⟨n + 1, h⟩ : Fin cfg4.N).val % 10 = 0 := by dsimp only; omega
    rw [show outsAt4 V c (n + 1) h = _ from outsAt4_B V c ⟨n + 1, h⟩ hB]
    dsimp only
    refine (congrFun (out_B_5 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (fun h' => hB ((hcond4_0 ⟨n + 1, h⟩).mp h')) (B0 V c ⟨n + 1, h⟩) (B1 V c ⟨n + 1, h⟩) (B2 V c ⟨n + 1, h⟩) (B3 V c ⟨n + 1, h⟩) (outsAt4 V c n (Nat.lt_of_succ_lt h)).2.1 (outsAt4 V c n (Nat.lt_of_succ_lt h)).2.2) (ix2 u q)).trans ?_
    refine (pay4_apply (B0 V c ⟨n + 1, h⟩) (B1 V c ⟨n + 1, h⟩) (B2 V c ⟨n + 1, h⟩) (B3 V c ⟨n + 1, h⟩) (outsAt4 V c n (Nat.lt_of_succ_lt h)).2.1 u q).trans ?_
    refine (congrArg₂ (· + ·) (acc5 c n (Nat.lt_of_succ_lt h) u q) (blocksum V c ⟨n + 1, h⟩ q)).trans ?_
    exact (Finset.sum_range_succ (fun j => colsum V c q j) (n + 1)).symm

/-- After point n the second accumulator holds the column sums of the squares of blocks 0 … n, added up. -/
theorem acc6 (c : Dev nD) : ∀ (n : ℕ) (h : n < cfg4.N) (u : Fin 1) (q : Fin 128),
    (outsAt4 V c n h).2.2 (ix2 u q) = ∑ j ∈ Finset.range (n + 1), colsumsq V c q j
  | 0, h, u, q => by
    rw [show outsAt4 V c 0 h = _ from outsAt4_A V c ⟨0, h⟩ rfl]
    dsimp only
    refine (congrFun (out_A_6 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) ((hcond4_0 ⟨0, h⟩).mpr rfl) (B0 V c ⟨0, h⟩) (B1 V c ⟨0, h⟩) (B2 V c ⟨0, h⟩) (B3 V c ⟨0, h⟩)) (ix2 u q)).trans ?_
    refine (pay5_apply (B0 V c ⟨0, h⟩) (B1 V c ⟨0, h⟩) (B2 V c ⟨0, h⟩) (B3 V c ⟨0, h⟩) (k4_pay2 (F := Ideal)) u q).trans ?_
    rw [pay2_apply, zero_add]
    exact (blocksumsq V c ⟨0, h⟩ q).trans (Finset.sum_range_one (fun j => colsumsq V c q j)).symm
  | n + 1, h, u, q => by
    have hN : cfg4.N = 10 := N_4
    have hB : ¬(⟨n + 1, h⟩ : Fin cfg4.N).val % 10 = 0 := by dsimp only; omega
    rw [show outsAt4 V c (n + 1) h = _ from outsAt4_B V c ⟨n + 1, h⟩ hB]
    dsimp only
    refine (congrFun (out_B_6 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (fun h' => hB ((hcond4_0 ⟨n + 1, h⟩).mp h')) (B0 V c ⟨n + 1, h⟩) (B1 V c ⟨n + 1, h⟩) (B2 V c ⟨n + 1, h⟩) (B3 V c ⟨n + 1, h⟩) (outsAt4 V c n (Nat.lt_of_succ_lt h)).2.1 (outsAt4 V c n (Nat.lt_of_succ_lt h)).2.2) (ix2 u q)).trans ?_
    refine (pay5_apply (B0 V c ⟨n + 1, h⟩) (B1 V c ⟨n + 1, h⟩) (B2 V c ⟨n + 1, h⟩) (B3 V c ⟨n + 1, h⟩) (outsAt4 V c n (Nat.lt_of_succ_lt h)).2.2 u q).trans ?_
    refine (congrArg₂ (· + ·) (acc6 c n (Nat.lt_of_succ_lt h) u q) (blocksumsq V c ⟨n + 1, h⟩ q)).trans ?_
    exact (Finset.sum_range_succ (fun j => colsumsq V c q j) (n + 1)).symm

/-! ## The arrays after the run -/

/-- What the first output array ends holding: y, row by row. -/
def G4 (c : Dev nD) : Vec Ideal S100000x128 .f32 := fun i => Yn V c ⟨(i 1).val, idx2_lt1 i⟩ (i 0).val

theorem G4_apply (c : Dev nD) (i : S100000x128.Idx) (q : Fin 128) (n : ℕ) (h1 : (i 1).val = q.val) (h0 : (i 0).val = n) :
    G4 V c i = Yn V c q n := by
  unfold G4
  rw [h0]
  exact congrArg (fun q' => Yn V c q' n) (Fin.ext h1)

/-- What each accumulator array ends holding: the ten block sums added up. -/
def G5 (c : Dev nD) : Vec Ideal S1x128 .f32 := fun i => ∑ j ∈ Finset.range 10, colsum V c ⟨(i 1).val, idx2_lt1 i⟩ j
def G6 (c : Dev nD) : Vec Ideal S1x128 .f32 := fun i => ∑ j ∈ Finset.range 10, colsumsq V c ⟨(i 1).val, idx2_lt1 i⟩ j

/-- Every point writes back its block of y: block t of the rows of y. -/
theorem flushed4 (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4, outs4 V c t]
  obtain ⟨-, -, -, -, -, -, -, -, e0, e1, -⟩ := idx_facts t
  funext j
  refine (pay3_blocks_idx V c t _).trans ?_
  rw [View.read_apply]
  show _ = G4 V c (((cfg4.win 4).blk t).view.emb j)
  refine (G4_apply V c (((cfg4.win 4).blk t).view.emb j) _ _ ?_ ?_).symm
  · show win4_4.index t (1 : Fin 2) * 128 + 1 * (j 1).val = (j 1).val; rw [e1]; omega
  · show win4_4.index t (0 : Fin 2) * 10000 + 1 * (j 0).val = t.val * 10000 + (j 0).val; rw [e0]; omega

/-- An index of the first output array is in point t's block iff its coordinates are in the block's ranges. -/
theorem mem_blk4 (t : Fin cfg4.N) (i : S100000x128.Idx) :
    i ∈ ((cfg4.win 4).blk t).view.set ↔ ∀ a : Fin 2, win4_4.index t a * S10000x128.size a ≤ (i a).val ∧ (i a).val < win4_4.index t a * S10000x128.size a + S10000x128.size a := by
  show i ∈ ((View.whole main_v71_0).slice (win4_4.rect t)).set ↔ _
  rw [View.set_slice_whole, Rect.mem_set_unit]
  exact Iff.rfl

/-- Row r lies in the block of point r / 10000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 10 := N_4
  refine ⟨⟨(i 0).val / 10000, by rw [hN]; omega⟩, flush4_4 _, ?_⟩
  rw [mem_blk4]
  obtain ⟨-, -, -, -, -, -, -, -, e0, e1, -⟩ := idx_facts ⟨(i 0).val / 10000, by rw [hN]; omega⟩
  intro a
  match a with
  | ⟨0, _⟩ => show win4_4.index _ (0 : Fin 2) * 10000 ≤ (i 0).val ∧ (i 0).val < win4_4.index _ (0 : Fin 2) * 10000 + 10000; rw [e0]; dsimp only; omega
  | ⟨1, _⟩ => show win4_4.index _ (1 : Fin 2) * 128 ≤ (i 1).val ∧ (i 1).val < win4_4.index _ (1 : Fin 2) * 128 + 128; rw [e1]; omega

/-- The first output array after the run. -/
theorem final4 (c : Dev nD) : (dat4 V c).arrAt 4 cfg4.N = G4 V c :=
  (dat4 V c).arrAt_eq_of_cover 4 (G4 V c) (fun t _ => flushed4 V c t) cover4

/-- The accumulators are written back once, after the last point, whole. -/
theorem flushed5 (c : Dev nD) (t : Fin cfg4.N) (hf : (cfg4.win 5).flush t = true) :
    (dat4 V c).flushed 5 t = ((cfg4.win 5).blk t).view.read (Elt Ideal) (G5 V c) := by
  have hN : cfg4.N = 10 := N_4
  have h9 : t.val = 9 := by have := (flush4_5 t).mp hf; have := t.isLt; omega
  obtain rfl : t = t4_9 := Fin.ext h9
  show (cfg4.win 5).cut (grid4.coords t4_9) ((dat4 V c).after 5 t4_9) = _
  rw [after4_5]
  have hG : (outsAt4 V c t4_9.val t4_9.isLt).2.1 = G5 V c := by
    funext j
    obtain ⟨u, q, rfl⟩ : ∃ (u : Fin 1) (q : Fin 128), j = ix2 u q := ⟨j 0, j 1, eq_ix2 j⟩
    exact acc5 V c 9 _ u q
  rw [hG]
  obtain ⟨-, -, -, -, -, -, -, -, -, -, e0, e1, -⟩ := idx_facts t4_9
  have hz' : (fun a => win4_5.index t4_9 a * main_v71_1.ty.shape.size a) = fun _ => 0 := funext fun a => by
    match a with
    | ⟨0, _⟩ => show win4_5.index t4_9 0 * 1 = 0; rw [e0]
    | ⟨1, _⟩ => show win4_5.index t4_9 1 * 128 = 0; rw [e1]
  exact (Memref.read_access_unit_zero (Elt Ideal) main_v71_1 hz' (fun a => by rw [congrFun hz' a]; simp) (G5 V c)).symm

theorem flushed6 (c : Dev nD) (t : Fin cfg4.N) (hf : (cfg4.win 6).flush t = true) :
    (dat4 V c).flushed 6 t = ((cfg4.win 6).blk t).view.read (Elt Ideal) (G6 V c) := by
  have hN : cfg4.N = 10 := N_4
  have h9 : t.val = 9 := by have := (flush4_6 t).mp hf; have := t.isLt; omega
  obtain rfl : t = t4_9 := Fin.ext h9
  show (cfg4.win 6).cut (grid4.coords t4_9) ((dat4 V c).after 6 t4_9) = _
  rw [after4_6]
  have hG : (outsAt4 V c t4_9.val t4_9.isLt).2.2 = G6 V c := by
    funext j
    obtain ⟨u, q, rfl⟩ : ∃ (u : Fin 1) (q : Fin 128), j = ix2 u q := ⟨j 0, j 1, eq_ix2 j⟩
    exact acc6 V c 9 _ u q
  rw [hG]
  obtain ⟨-, -, -, -, -, -, -, -, -, -, -, -, e0, e1⟩ := idx_facts t4_9
  have hz' : (fun a => win4_6.index t4_9 a * main_v71_2.ty.shape.size a) = fun _ => 0 := funext fun a => by
    match a with
    | ⟨0, _⟩ => show win4_6.index t4_9 0 * 1 = 0; rw [e0]
    | ⟨1, _⟩ => show win4_6.index t4_9 1 * 128 = 0; rw [e1]
  exact (Memref.read_access_unit_zero (Elt Ideal) main_v71_2 hz' (fun a => by rw [congrFun hz' a]; simp) (G6 V c)).symm

/-- The last point's block of an accumulator array is the whole array. -/
theorem cover5 (i : S1x128.Idx) : ∃ t : Fin cfg4.N, (cfg4.win 5).flush t = true ∧ i ∈ ((cfg4.win 5).blk t).view.set := by
  refine ⟨t4_9, (flush4_5 t4_9).mpr rfl, ?_⟩
  show i ∈ ((View.whole main_v71_1).slice (win4_5.rect t4_9)).set
  rw [View.set_slice_whole, Rect.mem_set_unit]
  have h0 : (i 0 : Nat) < 1 := (i 0).isLt
  have h1 : (i 1 : Nat) < 128 := (i 1).isLt
  obtain ⟨-, -, -, -, -, -, -, -, -, -, e0, e1, -⟩ := idx_facts t4_9
  intro a
  match a with
  | ⟨0, _⟩ => show win4_5.index t4_9 0 * 1 ≤ (i 0 : Nat) ∧ (i 0 : Nat) < win4_5.index t4_9 0 * 1 + 1; rw [e0]; omega
  | ⟨1, _⟩ => show win4_5.index t4_9 1 * 128 ≤ (i 1 : Nat) ∧ (i 1 : Nat) < win4_5.index t4_9 1 * 128 + 128; rw [e1]; omega

theorem cover6 (i : S1x128.Idx) : ∃ t : Fin cfg4.N, (cfg4.win 6).flush t = true ∧ i ∈ ((cfg4.win 6).blk t).view.set := by
  refine ⟨t4_9, (flush4_6 t4_9).mpr rfl, ?_⟩
  show i ∈ ((View.whole main_v71_2).slice (win4_6.rect t4_9)).set
  rw [View.set_slice_whole, Rect.mem_set_unit]
  have h0 : (i 0 : Nat) < 1 := (i 0).isLt
  have h1 : (i 1 : Nat) < 128 := (i 1).isLt
  obtain ⟨-, -, -, -, -, -, -, -, -, -, -, -, e0, e1⟩ := idx_facts t4_9
  intro a
  match a with
  | ⟨0, _⟩ => show win4_6.index t4_9 0 * 1 ≤ (i 0 : Nat) ∧ (i 0 : Nat) < win4_6.index t4_9 0 * 1 + 1; rw [e0]; omega
  | ⟨1, _⟩ => show win4_6.index t4_9 1 * 128 ≤ (i 1 : Nat) ∧ (i 1 : Nat) < win4_6.index t4_9 1 * 128 + 128; rw [e1]; omega

theorem final5 (c : Dev nD) : (dat4 V c).arrAt 5 cfg4.N = G5 V c :=
  (dat4 V c).arrAt_eq_of_cover 5 (G5 V c) (flushed5 V c) cover5
theorem final6 (c : Dev nD) : (dat4 V c).arrAt 6 cfg4.N = G6 V c :=
  (dat4 V c).arrAt_eq_of_cover 6 (G6 V c) (flushed6 V c) cover6

/-! ## The three results -/

/-- Every entry of the first output array is the affine map's entry. -/
theorem valueY (c : Dev nD) (r : Fin 100000) (q : Fin 128) :
    ((dat4 V c).arrAt 4 cfg4.N : S100000x128.Idx → Ideal .f32) (ix2 r q)
      = lin (R := 100000) (K := 128) (V c (Pipeline.arrRef spec4 0)) (V c (Pipeline.arrRef spec4 1)) (V c (Pipeline.arrRef spec4 2)) (V c (Pipeline.arrRef spec4 3)) r q := by
  rw [final4 V c]
  exact (G4_apply V c (ix2 r q) q r.val rfl rfl).trans (Yn_val V c q r)

/-- Every entry of the second output array is the column sum of y over all 100000 rows. -/
theorem valueS (c : Dev nD) (q : Fin 128) :
    ((dat4 V c).arrAt 5 cfg4.N : S1x128.Idx → Ideal .f32) (ix2 (0 : Fin 1) q)
      = ∑ r : Fin 100000, lin (R := 100000) (K := 128) (V c (Pipeline.arrRef spec4 0)) (V c (Pipeline.arrRef spec4 1)) (V c (Pipeline.arrRef spec4 2)) (V c (Pipeline.arrRef spec4 3)) r q := by
  rw [final5 V c]
  show ∑ j ∈ Finset.range 10, colsum V c q j = _
  unfold colsum
  rw [sum_blocks (Yn V c q)]
  exact Finset.sum_congr rfl fun r _ => Yn_val V c q r

/-- Every entry of the third output array is the column sum of y·y over all 100000 rows. -/
theorem valueSS (c : Dev nD) (q : Fin 128) :
    ((dat4 V c).arrAt 6 cfg4.N : S1x128.Idx → Ideal .f32) (ix2 (0 : Fin 1) q)
      = ∑ r : Fin 100000, lin (R := 100000) (K := 128) (V c (Pipeline.arrRef spec4 0)) (V c (Pipeline.arrRef spec4 1)) (V c (Pipeline.arrRef spec4 2)) (V c (Pipeline.arrRef spec4 3)) r q * lin (R := 100000) (K := 128) (V c (Pipeline.arrRef spec4 0)) (V c (Pipeline.arrRef spec4 1)) (V c (Pipeline.arrRef spec4 2)) (V c (Pipeline.arrRef spec4 3)) r q := by
  rw [final6 V c]
  show ∑ j ∈ Finset.range 10, colsumsq V c q j = _
  unfold colsumsq
  rw [sum_blocks (fun i => Yn V c q i * Yn V c q i)]
  exact Finset.sum_congr rfl fun r _ => by
    show Yn V c q r.val * Yn V c q r.val = _
    rw [Yn_val V c q r]

end Cert.KernelIdeal.KGin4

end
-- ==== Proof.KBn5.lean ====
/- The value of batch normalisation followed by ReLU, region 5 of the idealized kernel program, read at the extended reals.

   The region takes a [100000,128] array y and four [1,128] rows (mean, var, gamma, beta) and writes a [100000,128] array,
   in 10 row blocks of 10000 rows each: block t is rows 10000·t … 10000·t + 9999. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn5

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x128 .f32) (v5 : Vec Ideal S10000x128 .f32) (v7 v13 v17 : Vec Ideal S1x128 .f32)
    (r : Fin 10000) (q : Fin 128) :
    k5_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k5_pay1
  simp only [shapeCast_self, maximumf_apply, addf_apply, mulf_apply, subf_apply, broadcast_apply, broadcastTo_1b_ab_apply]
  rfl

/-! ## The whole array as one function of the five input arrays -/

/-- The column of an index of the [100000,128] array, as a number below 128. -/
def col (i : S100000x128.Idx) : Fin 128 := ⟨(i 1).val, idx2_lt1 i⟩

/-- Normalise, scale, shift, clamp at zero: entry `i` from `y` at `i` and the four rows at `i`'s column. -/
def G (y : S100000x128.Idx → Elt Ideal .f32) (mean var gamma beta : S1x128.Idx → Elt Ideal .f32) :
    S100000x128.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S100000x128.Idx → Elt Ideal .f32) (mean var gamma beta : S1x128.Idx → Elt Ideal .f32)
    (r : Fin 100000) (q : Fin 128) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S10000x128 .f32) (x1 x2 x3 x4 : Vec Ideal S1x128 .f32)
    (y : S100000x128.Idx → Elt Ideal .f32) (mean var gamma beta : S1x128.Idx → Elt Ideal .f32)
    (emb : S10000x128.Idx → S100000x128.Idx)
    (hc : ∀ (p : Fin 10000) (q : Fin 128), col (emb (ix2 p q)) = q)
    (e0 : ∀ (p : Fin 10000) (q : Fin 128), x0 (ix2 p q) = y (emb (ix2 p q)))
    (e1 : ∀ q : Fin 128, x1 (ix2 (0 : Fin 1) q) = mean (ix2 (0 : Fin 1) q))
    (e2 : ∀ q : Fin 128, x2 (ix2 (0 : Fin 1) q) = var (ix2 (0 : Fin 1) q))
    (e3 : ∀ q : Fin 128, x3 (ix2 (0 : Fin 1) q) = gamma (ix2 (0 : Fin 1) q))
    (e4 : ∀ q : Fin 128, x4 (ix2 (0 : Fin 1) q) = beta (ix2 (0 : Fin 1) q)) :
    out5_5 (F := Ideal) x0 x1 x2 x3 x4 = fun j => G y mean var gamma beta (emb j) := by
  unfold out5_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, q) of y's block at point `t` is y at row 10000·t + p, column q. -/
theorem yblk_apply (c : Dev nD) (t : Fin cfg5.N) (p : Fin 10000) (q : Fin 128) (i : S100000x128.Idx)
    (h0 : (i 0).val = t.val * 10000 + p.val) (h1 : (i 1).val = q.val) :
    (iblk5 V c 0 t : Vec Ideal S10000x128 .f32) (ix2 p q) = (V c (Pipeline.arrRef spec5 0) : S100000x128.Idx → Elt Ideal .f32) i := by
  obtain ⟨e0, e1, -⟩ := idx_facts t
  have he : (((cfg5.win 0).blk t).view.emb (ix2 p q) : S100000x128.Idx) = i := by
    funext a
    apply Fin.ext
    match a with
    | ⟨0, _⟩ => show win5_0.index t (0 : Fin 2) * 10000 + 1 * p.val = (i 0).val; rw [e0, h0]; omega
    | ⟨1, _⟩ => show win5_0.index t (1 : Fin 2) * 128 + 1 * q.val = (i 1).val; rw [e1, h1]; omega
  exact congrArg (V c (Pipeline.arrRef spec5 0) : S100000x128.Idx → Elt Ideal .f32) he

/-- Column q of the mean row's block at any point is column q of the mean row: the block is the whole row. -/
theorem row1_apply (c : Dev nD) (t : Fin cfg5.N) (q : Fin 128) :
    (iblk5 V c 1 t : Vec Ideal S1x128 .f32) (ix2 (0 : Fin 1) q)
      = (V c (Pipeline.arrRef spec5 1) : S1x128.Idx → Elt Ideal .f32) (ix2 (0 : Fin 1) q) := by
  obtain ⟨-, -, e0, e1, -⟩ := idx_facts t
  have he : (((cfg5.win 1).blk t).view.emb (ix2 (0 : Fin 1) q) : S1x128.Idx) = ix2 (0 : Fin 1) q := by
    funext a
    apply Fin.ext
    match a with
    | ⟨0, _⟩ => show win5_1.index t (0 : Fin 2) * 1 + 1 * (0 : Fin 1).val = (0 : Fin 1).val; rw [e0]; omega
    | ⟨1, _⟩ => show win5_1.index t (1 : Fin 2) * 128 + 1 * q.val = q.val; rw [e1]; omega
  exact congrArg (V c (Pipeline.arrRef spec5 1) : S1x128.Idx → Elt Ideal .f32) he

/-- Column q of the variance row's block at any point is column q of the variance row: the block is the whole row. -/
theorem row2_apply (c : Dev nD) (t : Fin cfg5.N) (q : Fin 128) :
    (iblk5 V c 2 t : Vec Ideal S1x128 .f32) (ix2 (0 : Fin 1) q)
      = (V c (Pipeline.arrRef spec5 2) : S1x128.Idx → Elt Ideal .f32) (ix2 (0 : Fin 1) q) := by
  obtain ⟨-, -, -, -, e0, e1, -⟩ := idx_facts t
  have he : (((cfg5.win 2).blk t).view.emb (ix2 (0 : Fin 1) q) : S1x128.Idx) = ix2 (0 : Fin 1) q := by
    funext a
    apply Fin.ext
    match a with
    | ⟨0, _⟩ => show win5_2.index t (0 : Fin 2) * 1 + 1 * (0 : Fin 1).val = (0 : Fin 1).val; rw [e0]; omega
    | ⟨1, _⟩ => show win5_2.index t (1 : Fin 2) * 128 + 1 * q.val = q.val; rw [e1]; omega
  exact congrArg (V c (Pipeline.arrRef spec5 2) : S1x128.Idx → Elt Ideal .f32) he

/-- Column q of the scale row's block at any point is column q of the scale row: the block is the whole row. -/
theorem row3_apply (c : Dev nD) (t : Fin cfg5.N) (q : Fin 128) :
    (iblk5 V c 3 t : Vec Ideal S1x128 .f32) (ix2 (0 : Fin 1) q)
      = (V c (Pipeline.arrRef spec5 3) : S1x128.Idx → Elt Ideal .f32) (ix2 (0 : Fin 1) q) := by
  obtain ⟨-, -, -, -, -, -, e0, e1, -⟩ := idx_facts t
  have he : (((cfg5.win 3).blk t).view.emb (ix2 (0 : Fin 1) q) : S1x128.Idx) = ix2 (0 : Fin 1) q := by
    funext a
    apply Fin.ext
    match a with
    | ⟨0, _⟩ => show win5_3.index t (0 : Fin 2) * 1 + 1 * (0 : Fin 1).val = (0 : Fin 1).val; rw [e0]; omega
    | ⟨1, _⟩ => show win5_3.index t (1 : Fin 2) * 128 + 1 * q.val = q.val; rw [e1]; omega
  exact congrArg (V c (Pipeline.arrRef spec5 3) : S1x128.Idx → Elt Ideal .f32) he

/-- Column q of the shift row's block at any point is column q of the shift row: the block is the whole row. -/
theorem row4_apply (c : Dev nD) (t : Fin cfg5.N) (q : Fin 128) :
    (iblk5 V c 4 t : Vec Ideal S1x128 .f32) (ix2 (0 : Fin 1) q)
      = (V c (Pipeline.arrRef spec5 4) : S1x128.Idx → Elt Ideal .f32) (ix2 (0 : Fin 1) q) := by
  obtain ⟨-, -, -, -, -, -, -, -, e0, e1, -⟩ := idx_facts t
  have he : (((cfg5.win 4).blk t).view.emb (ix2 (0 : Fin 1) q) : S1x128.Idx) = ix2 (0 : Fin 1) q := by
    funext a
    apply Fin.ext
    match a with
    | ⟨0, _⟩ => show win5_4.index t (0 : Fin 2) * 1 + 1 * (0 : Fin 1).val = (0 : Fin 1).val; rw [e0]; omega
    | ⟨1, _⟩ => show win5_4.index t (1 : Fin 2) * 128 + 1 * q.val = q.val; rw [e1]; omega
  exact congrArg (V c (Pipeline.arrRef spec5 4) : S1x128.Idx → Elt Ideal .f32) he

/-- Entry (p, q) of the result's block at point `t` sits in row 10000·t + p of the array … -/
theorem oblk_row (t : Fin cfg5.N) (p : Fin 10000) (q : Fin 128) :
    ((((cfg5.win 5).blk t).view.emb (ix2 p q) : S100000x128.Idx) 0).val = t.val * 10000 + p.val := by
  obtain ⟨-, -, -, -, -, -, -, -, -, -, e0, -⟩ := idx_facts t
  show win5_5.index t (0 : Fin 2) * 10000 + 1 * p.val = _
  rw [e0]; omega

/-- … and in column q. -/
theorem oblk_col (t : Fin cfg5.N) (p : Fin 10000) (q : Fin 128) :
    ((((cfg5.win 5).blk t).view.emb (ix2 p q) : S100000x128.Idx) 1).val = q.val := by
  obtain ⟨-, -, -, -, -, -, -, -, -, -, -, e1⟩ := idx_facts t
  show win5_5.index t (1 : Fin 2) * 128 + 1 * q.val = _
  rw [e1]; omega

/-! ## From the blocks to the array -/

set_option maxHeartbeats 1000000 in
/-- What point `t` writes back is block `t` of `G` of the five arrays as the region finds them. -/
theorem flushed_eq (c : Dev nD) (t : Fin cfg5.N) :
    (dat5 V c).flushed 5 t = ((cfg5.win 5).blk t).view.read (Elt Ideal)
      (G (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  exact out_fun (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4))
    (((cfg5.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v84).slice (win5_5.rect t)).set ↔ _
  rw [View.set_slice_whole, Rect.mem_set_unit]
  exact Iff.rfl

/-- Every entry is written: row r is in the block of point r / 10000. -/
theorem cover (i : S100000x128.Idx) : ∃ t : Fin cfg5.N, (cfg5.win 5).flush t = true ∧ i ∈ ((cfg5.win 5).blk t).view.set := by
  have hi0 : (i 0).val < 100000 := idx2_lt0 i
  have hi1 : (i 1).val < 128 := idx2_lt1 i
  obtain ⟨t, ht⟩ : ∃ t : Fin cfg5.N, t.val = (i 0).val / 10000 :=
    ⟨⟨(i 0).val / 10000, by rw [show cfg5.N = 10 from N_5]; omega⟩, rfl⟩
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 10000 ≤ (i 0).val ∧ (i 0).val < win5_5.index t (0 : Fin 2) * 10000 + 10000
    rw [e0, ht]; omega
  | ⟨1, _⟩ =>
    show win5_5.index t (1 : Fin 2) * 128 ≤ (i 1).val ∧ (i 1).val < win5_5.index t (1 : Fin 2) * 128 + 128
    rw [e1]; omega

/-- The result array after the region is `G` of the five arrays the region was entered with. -/
theorem final (c : Dev nD) :
    (dat5 V c).arrAt 5 cfg5.N
      = G (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed_eq V c t) cover

/-- The result array after the region, entry by entry: the specification's `bnAt` of the five arrays at (r, q). -/
theorem value (c : Dev nD) (r : Fin 100000) (q : Fin 128) :
    ((dat5 V c).arrAt 5 cfg5.N : S100000x128.Idx → Elt Ideal .f32) (ix2 r q)
      = bnAt (R := 100000) (C := 128) (V c (Pipeline.arrRef spec5 0)) (V c (Pipeline.arrRef spec5 1))
          (V c (Pipeline.arrRef spec5 2)) (V c (Pipeline.arrRef spec5 3)) (V c (Pipeline.arrRef spec5 4)) r q := by
  rw [final V c]
  exact G_apply _ _ _ _ _ r q

end Cert.KernelIdeal.KBn5
end
-- ==== Proof.KHostF.lean ====
/-
  The host operations between the regions of the idealized kernel program, read at an index: the stretches before the matmul regions of GIN layers 3, 4 and 5.

  Every statement is generic in the valuation `W` of the buffers when the stretch starts. Before a GIN layer's matmul
  region the host forms the neighbour sum of the layer's input over the edge list (kept as ONE closed function of the
  input and the two edge-index vectors: the gather and the scatter-add are never opened), takes the layer's slab of
  the stacked weights, and doubles the layer's bias row, the factor two staying the float word it is printed as.
-/
import proofs.«132586_j38087769981032_1_alg».proof.Proof.Gen.KernelIdeal.Launch
import proofs.«132586_j38087769981032_1_alg».proof.Proof.KHostD
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-! ## The stretch before the matmul region of GIN layer 3 -/

/-- The aggregate buffer holds the neighbour sum of the layer's input over the edge list. -/
theorem host4_agg_eq :
    (StableHlo.after (hostOps4 (F := Ideal)) W (Proc.devRef .tc main_v63) : FVec Ideal S100000x128 .f32)
      = aggOf128 (W (Proc.devRef .tc main_v53) : FVec Ideal S100000x128 .f32) (W (Proc.devRef .tc main_arg1)) (W (Proc.devRef .tc main_arg2)) := by
  unfold aggOf128
  after_results_simp

/-- The weights: slab 1 of the stacked weight argument. -/
theorem host4_w_at (k q : Fin 128) :
    (StableHlo.after (hostOps4 (F := Ideal)) W (Proc.devRef .tc main_v65) : FVec Ideal S128x128 .f32) (ix2 k q)
      = (W (Proc.devRef .tc main_arg8) : FVec Ideal S4x128x128 .f32) (ix3 (1 : Fin 4) k q) := by
  have e : (StableHlo.after (hostOps4 (F := Ideal)) W (Proc.devRef .tc main_v65) : FVec Ideal S128x128 .f32)
      = shapeCast S128x128 (extractStridedSlice S1x128x128 ![1, 0, 0] (W (Proc.devRef .tc main_arg8) : FVec Ideal S4x128x128 .f32)
          slices_S4x128x128_S1x128x128_1_0_0) shapeCasts_S1x128x128_S128x128 := by
    after_results
    rfl
  rw [e]
  exact (shapeCast_1ab_ab_apply _ _ _ _).trans
    (extractStridedSlice_apply _ _ _ _ _ (fun ax => by
      match ax with
      | ⟨0, _⟩ => rfl
      | ⟨1, _⟩ => exact (Nat.zero_add _).symm
      | ⟨2, _⟩ => exact (Nat.zero_add _).symm))

/-- The doubled bias: twice row 1 of the stacked bias argument. -/
theorem host4_b2_at (q : Fin 128) :
    (StableHlo.after (hostOps4 (F := Ideal)) W (Proc.devRef .tc main_v70) : FVec Ideal S1x128 .f32) (ix2 (0 : Fin 1) q)
      = (Ideal.ofBits .f32 0x40000000#32) * (W (Proc.devRef .tc main_arg9) : FVec Ideal S4x128 .f32) (ix2 (1 : Fin 4) q) := by
  have e : (StableHlo.after (hostOps4 (F := Ideal)) W (Proc.devRef .tc main_v70) : FVec Ideal S1x128 .f32)
      = shapeCast S1x128 (mulf (broadcastInDim S128 ![] bcast_S_S128 (constant (F := Ideal) S_ .f32 0x40000000#32))
          (shapeCast S128 (extractStridedSlice S1x128 ![1, 0] (W (Proc.devRef .tc main_arg9) : FVec Ideal S4x128 .f32) slices_S4x128_S1x128_1_0)
            shapeCasts_S1x128_S128)) shapeCasts_S128_S1x128 := by
    after_results
    rfl
  rw [e]
  refine (shapeCast_a_1a_apply _ _ _ _).trans ?_
  show (Ideal.ofBits .f32 0x40000000#32) * _ = _
  exact congrArg ((Ideal.ofBits .f32 0x40000000#32) * ·) ((shapeCast_1a_a_apply _ _ _).trans
    (slice2_axis0_apply 1 _ _ (0 : Fin 1) q (1 : Fin 4) rfl))

/-- The stretch does not write the layer's input. -/
theorem host4_keep_x :
    StableHlo.after (hostOps4 (F := Ideal)) W (Proc.devRef .tc main_v53) = W (Proc.devRef .tc main_v53) :=
  StableHlo.after_of_forall_not_mem (b := Proc.devRef .tc main_v53) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the matmul region of GIN layer 4 -/

/-- The aggregate buffer holds the neighbour sum of the layer's input over the edge list. -/
theorem host6_agg_eq :
    (StableHlo.after (hostOps6 (F := Ideal)) W (Proc.devRef .tc main_v94) : FVec Ideal S100000x128 .f32)
      = aggOf128 (W (Proc.devRef .tc main_v84) : FVec Ideal S100000x128 .f32) (W (Proc.devRef .tc main_arg1)) (W (Proc.devRef .tc main_arg2)) := by
  unfold aggOf128
  after_results_simp

/-- The weights: slab 2 of the stacked weight argument. -/
theorem host6_w_at (k q : Fin 128) :
    (StableHlo.after (hostOps6 (F := Ideal)) W (Proc.devRef .tc main_v96) : FVec Ideal S128x128 .f32) (ix2 k q)
      = (W (Proc.devRef .tc main_arg8) : FVec Ideal S4x128x128 .f32) (ix3 (2 : Fin 4) k q) := by
  have e : (StableHlo.after (hostOps6 (F := Ideal)) W (Proc.devRef .tc main_v96) : FVec Ideal S128x128 .f32)
      = shapeCast S128x128 (extractStridedSlice S1x128x128 ![2, 0, 0] (W (Proc.devRef .tc main_arg8) : FVec Ideal S4x128x128 .f32)
          slices_S4x128x128_S1x128x128_2_0_0) shapeCasts_S1x128x128_S128x128 := by
    after_results
    rfl
  rw [e]
  exact (shapeCast_1ab_ab_apply _ _ _ _).trans
    (extractStridedSlice_apply _ _ _ _ _ (fun ax => by
      match ax with
      | ⟨0, _⟩ => rfl
      | ⟨1, _⟩ => exact (Nat.zero_add _).symm
      | ⟨2, _⟩ => exact (Nat.zero_add _).symm))

/-- The doubled bias: twice row 2 of the stacked bias argument. -/
theorem host6_b2_at (q : Fin 128) :
    (StableHlo.after (hostOps6 (F := Ideal)) W (Proc.devRef .tc main_v101) : FVec Ideal S1x128 .f32) (ix2 (0 : Fin 1) q)
      = (Ideal.ofBits .f32 0x40000000#32) * (W (Proc.devRef .tc main_arg9) : FVec Ideal S4x128 .f32) (ix2 (2 : Fin 4) q) := by
  have e : (StableHlo.after (hostOps6 (F := Ideal)) W (Proc.devRef .tc main_v101) : FVec Ideal S1x128 .f32)
      = shapeCast S1x128 (mulf (broadcastInDim S128 ![] bcast_S_S128 (constant (F := Ideal) S_ .f32 0x40000000#32))
          (shapeCast S128 (extractStridedSlice S1x128 ![2, 0] (W (Proc.devRef .tc main_arg9) : FVec Ideal S4x128 .f32) slices_S4x128_S1x128_2_0)
            shapeCasts_S1x128_S128)) shapeCasts_S128_S1x128 := by
    after_results
    rfl
  rw [e]
  refine (shapeCast_a_1a_apply _ _ _ _).trans ?_
  show (Ideal.ofBits .f32 0x40000000#32) * _ = _
  exact congrArg ((Ideal.ofBits .f32 0x40000000#32) * ·) ((shapeCast_1a_a_apply _ _ _).trans
    (slice2_axis0_apply 2 _ _ (0 : Fin 1) q (2 : Fin 4) rfl))

/-- The stretch does not write the layer's input. -/
theorem host6_keep_x :
    StableHlo.after (hostOps6 (F := Ideal)) W (Proc.devRef .tc main_v84) = W (Proc.devRef .tc main_v84) :=
  StableHlo.after_of_forall_not_mem (b := Proc.devRef .tc main_v84) _ _ (List.forall_iff_forall_mem.mp (by
    simp only [hostOps6, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the matmul region of GIN layer 5 -/

/-- The aggregate buffer holds the neighbour sum of the layer's input over the edge list. -/
theorem host8_agg_eq :
    (StableHlo.after (hostOps8 (F := Ideal)) W (Proc.devRef .tc main_v125) : FVec Ideal S100000x128 .f32)
      = aggOf128 (W (Proc.devRef .tc main_v115) : FVec Ideal S100000x128 .f32) (W (Proc.devRef .tc main_arg1)) (W (Proc.devRef .tc main_arg2)) := by
  unfold aggOf128
  after_results_simp

/-- The weights: slab 3 of the stacked weight argument. -/
theorem host8_w_at (k q : Fin 128) :
    (StableHlo.after (hostOps8 (F := Ideal)) W (Proc.devRef .tc main_v127) : FVec Ideal S128x128 .f32) (ix2 k q)
      = (W (Proc.devRef .tc main_arg8) : FVec Ideal S4x128x128 .f32) (ix3 (3 : Fin 4) k q) := by
  have e : (StableHlo.after (hostOps8 (F := Ideal)) W (Proc.devRef .tc main_v127) : FVec Ideal S128x128 .f32)
      = shapeCast S128x128 (extractStridedSlice S1x128x128 ![3, 0, 0] (W (Proc.devRef .tc main_arg8) : FVec Ideal S4x128x128 .f32)
          slices_S4x128x128_S1x128x128_3_0_0) shapeCasts_S1x128x128_S128x128 := by
    after_results
    rfl
  rw [e]
  exact (shapeCast_1ab_ab_apply _ _ _ _).trans
    (extractStridedSlice_apply _ _ _ _ _ (fun ax => by
      match ax with
      | ⟨0, _⟩ => rfl
      | ⟨1, _⟩ => exact (Nat.zero_add _).symm
      | ⟨2, _⟩ => exact (Nat.zero_add _).symm))

/-- The doubled bias: twice row 3 of the stacked bias argument. -/
theorem host8_b2_at (q : Fin 128) :
    (StableHlo.after (hostOps8 (F := Ideal)) W (Proc.devRef .tc main_v132) : FVec Ideal S1x128 .f32) (ix2 (0 : Fin 1) q)
      = (Ideal.ofBits .f32 0x40000000#32) * (W (Proc.devRef .tc main_arg9) : FVec Ideal S4x128 .f32) (ix2 (3 : Fin 4) q) := by
  have e : (StableHlo.after (hostOps8 (F := Ideal)) W (Proc.devRef .tc main_v132) : FVec Ideal S1x128 .f32)
      = shapeCast S1x128 (mulf (broadcastInDim S128 ![] bcast_S_S128 (constant (F := Ideal) S_ .f32 0x40000000#32))
          (shapeCast S128 (extractStridedSlice S1x128 ![3, 0] (W (Proc.devRef .tc main_arg9) : FVec Ideal S4x128 .f32) slices_S4x128_S1x128_3_0)
            shapeCasts_S1x128_S128)) shapeCasts_S128_S1x128 := by
    after_results
    rfl
  rw [e]
  refine (shapeCast_a_1a_apply _ _ _ _).trans ?_
  show (Ideal.ofBits .f32 0x40000000#32) * _ = _
  exact congrArg ((Ideal.ofBits .f32 0x40000000#32) * ·) ((shapeCast_1a_a_apply _ _ _).trans
    (slice2_axis0_apply 3 _ _ (0 : Fin 1) q (3 : Fin 4) rfl))

/-- The stretch does not write the layer's input. -/
theorem host8_keep_x :
    StableHlo.after (hostOps8 (F := Ideal)) W (Proc.devRef .tc main_v115) = W (Proc.devRef .tc main_v115) :=
  StableHlo.after_of_forall_not_mem (b := Proc.devRef .tc main_v115) _ _ (List.forall_iff_forall_mem.mp (by
    simp only [hostOps8, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KChainC.lean ====
/-
  The kernel program's layer 3 read at an index: region 4 leaves the fused affine stage of layer 2's output and its
  neighbours' sums (with slab 1 of the stacked weights and row 1 of the stacked biases), its column sums and column sums of
  squares; the host forms mean and variance; region 5 normalises with row 1 of the stacked scales and shifts and rectifies.
-/
import proofs.«132586_j38087769981032_1_alg».proof.Proof.KChainB
import proofs.«132586_j38087769981032_1_alg».proof.Proof.KGin4
import proofs.«132586_j38087769981032_1_alg».proof.Proof.KBn5
import proofs.«132586_j38087769981032_1_alg».proof.Proof.KHostF
import proofs.«132586_j38087769981032_1_alg».proof.Proof.KHostA

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-! ## Layer 3: regions 4 and 5 -/

/-- Layer 3's fused affine stage, of layer 2's output and the arguments. -/
def y3 : Fin 100000 → Fin 128 → EReal :=
  linK twoW (rd2 (R := 100000) (C := 128) (x2 m ρ c)) (rd2 (R := 100000) (C := 128) (KHost.aggOf128 (x2 m ρ c) (a1 m c) (a2 m c)))
    (fun k q => rd3 (A := 4) (R := 128) (C := 128) (a8 m c) 1 k q) (fun q => twoW * rd2 (R := 4) (C := 128) (a9 m c) 1 q)

/-- Layer 3's output array. -/
def x3 : FVec Ideal S100000x128 .f32 := W12 m ρ c (Proc.devRef .tc main_v84)

theorem in4_x : (V9 m ρ c (Pipeline.arrRef spec4 0) : FVec Ideal S100000x128 .f32) = x2 m ρ c :=
  KHost.host4_keep_x (W8 m ρ c)
theorem in4_a : (V9 m ρ c (Pipeline.arrRef spec4 1) : FVec Ideal S100000x128 .f32) = KHost.aggOf128 (x2 m ρ c) (a1 m c) (a2 m c) := by
  have h := KHost.host4_agg_eq (W8 m ρ c)
  rw [KArgs.W8_arg1 m ρ c, KArgs.W8_arg2 m ρ c] at h
  exact h
theorem in4_w (k q : Fin 128) : (V9 m ρ c (Pipeline.arrRef spec4 2) : FVec Ideal S128x128 .f32) (ix2 k q) = rd3 (A := 4) (R := 128) (C := 128) (a8 m c) 1 k q :=
  (KHost.host4_w_at (W8 m ρ c) k q).trans (congrFun (KArgs.W8_arg8 m ρ c) _)
theorem in4_b (q : Fin 128) : (V9 m ρ c (Pipeline.arrRef spec4 3) : FVec Ideal S1x128 .f32) (ix2 (0 : Fin 1) q) = twoW * rd2 (R := 4) (C := 128) (a9 m c) 1 q :=
  (KHost.host4_b2_at (W8 m ρ c) q).trans (congrArg (fun v : EReal => twoW * v) (congrFun (KArgs.W8_arg9 m ρ c) _))

/-- The fused stage of region 4's inputs, entry by entry, is layer 3's. -/
theorem lin4_eq (r : Fin 100000) (q : Fin 128) :
    KGin.lin (V9 m ρ c (Pipeline.arrRef spec4 0)) (V9 m ρ c (Pipeline.arrRef spec4 1)) (V9 m ρ c (Pipeline.arrRef spec4 2))
      (V9 m ρ c (Pipeline.arrRef spec4 3)) r q = y3 m ρ c r q := by
  rw [in4_x m ρ c, in4_a m ρ c]
  unfold KGin.lin y3 linK rd2
  rw [in4_b m ρ c q]
  exact congrArg (fun v : EReal => v + twoW * rd2 (R := 4) (C := 128) (a9 m c) 1 q)
    (Finset.sum_congr rfl fun k _ => congrArg (fun w : EReal => (twoW * (x2 m ρ c) (ix2 r k) + (KHost.aggOf128 (x2 m ρ c) (a1 m c) (a2 m c)) (ix2 r k)) * w) (in4_w m ρ c k q))

theorem y3_at (r : Fin 100000) (q : Fin 128) :
    rd2 (R := 100000) (C := 128) (W10 m ρ c (Proc.devRef .tc main_v71_0)) r q = y3 m ρ c r q := by
  have e0 : (W10 m ρ c (Proc.devRef .tc main_v71_0) : FVec Ideal S100000x128 .f32) = (dat4 (V9 m ρ) c).arrAt 4 cfg4.N := W10_arr m ρ c 4
  show (W10 m ρ c (Proc.devRef .tc main_v71_0) : FVec Ideal S100000x128 .f32) (ix2 r q) = _
  rw [e0, KGin4.valueY (V9 m ρ) c r q]
  exact lin4_eq m ρ c r q

theorem s3_at (q : Fin 128) :
    rd2 (R := 1) (C := 128) (W10 m ρ c (Proc.devRef .tc main_v71_1)) 0 q = ∑ r : Fin 100000, y3 m ρ c r q := by
  have e0 : (W10 m ρ c (Proc.devRef .tc main_v71_1) : FVec Ideal S1x128 .f32) = (dat4 (V9 m ρ) c).arrAt 5 cfg4.N := W10_arr m ρ c 5
  unfold rd2
  rw [e0, KGin4.valueS (V9 m ρ) c q]
  exact Finset.sum_congr rfl fun r _ => lin4_eq m ρ c r q

theorem ss3_at (q : Fin 128) :
    rd2 (R := 1) (C := 128) (W10 m ρ c (Proc.devRef .tc main_v71_2)) 0 q = ∑ r : Fin 100000, y3 m ρ c r q * y3 m ρ c r q := by
  have e0 : (W10 m ρ c (Proc.devRef .tc main_v71_2) : FVec Ideal S1x128 .f32) = (dat4 (V9 m ρ) c).arrAt 6 cfg4.N := W10_arr m ρ c 6
  unfold rd2
  rw [e0, KGin4.valueSS (V9 m ρ) c q]
  exact Finset.sum_congr rfl fun r _ => by rw [lin4_eq m ρ c r q]

/-- LAYER 3 of the kernel program. -/
theorem layer3 (r : Fin 100000) (q : Fin 128) :
    rd2 (R := 100000) (C := 128) (x3 m ρ c) r q
      = bnrelu epsW (y3 m ρ c) (meanK nW (y3 m ρ c)) (varK nW (y3 m ρ c))
          (fun q => rd2 (R := 4) (C := 128) (a10 m c) 1 q) (fun q => rd2 (R := 4) (C := 128) (a11 m c) 1 q) r q := by
  have e0 : (W12 m ρ c (Proc.devRef .tc main_v84) : FVec Ideal S100000x128 .f32) = (dat5 (V11 m ρ) c).arrAt 5 cfg5.N := W12_arr m ρ c 5
  show (W12 m ρ c (Proc.devRef .tc main_v84) : FVec Ideal S100000x128 .f32) (ix2 r q) = _
  rw [e0, KBn5.value (V11 m ρ) c r q]
  have hy : (V11 m ρ c (Pipeline.arrRef spec5 0) : FVec Ideal S100000x128 .f32) (ix2 r q) = y3 m ρ c r q :=
    (congrFun (KHost.host5_keep_y (W10 m ρ c)) _).trans (y3_at m ρ c r q)
  have hm : (V11 m ρ c (Pipeline.arrRef spec5 1) : FVec Ideal S1x128 .f32) (ix2 (0 : Fin 1) q) = meanK nW (y3 m ρ c) q :=
    (KHost.host5_mean_at (W10 m ρ c) q).trans (congrArg (fun s : EReal => Ideal.div s nW) (s3_at m ρ c q))
  have hv : (V11 m ρ c (Pipeline.arrRef spec5 2) : FVec Ideal S1x128 .f32) (ix2 (0 : Fin 1) q) = varK nW (y3 m ρ c) q :=
    (KHost.host5_var_at (W10 m ρ c) q).trans (congrArg₂ (fun s t : EReal => Ideal.div t nW - Ideal.div s nW * Ideal.div s nW)
      (s3_at m ρ c q) (ss3_at m ρ c q))
  have hg : (V11 m ρ c (Pipeline.arrRef spec5 3) : FVec Ideal S1x128 .f32) (ix2 (0 : Fin 1) q) = rd2 (R := 4) (C := 128) (a10 m c) 1 q :=
    (KHost.host5_gamma_at (W10 m ρ c) q).trans (congrFun (KArgs.W10_arg10 m ρ c) _)
  have hb : (V11 m ρ c (Pipeline.arrRef spec5 4) : FVec Ideal S1x128 .f32) (ix2 (0 : Fin 1) q) = rd2 (R := 4) (C := 128) (a11 m c) 1 q :=
    (KHost.host5_beta_at (W10 m ρ c) q).trans (congrFun (KArgs.W10_arg11 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.KGin6.lean ====
/-
  The value of the linear map of one aggregation layer, with its column statistics.

  Over N = 100000 rows cut into ten blocks of 10000, each grid point forms, for its block of the two inputs x and a
  (the features and their neighbourhood sums), the rows  y = (2·x + a)·w + b  of the [100000,128] output, and adds the
  block's column sums of y and of y·y into two [1,128] accumulators that the first point zeroes.  Read at the extended
  reals this file shows, for the arrays as the region finds them:

    * every entry (r, q) of the first output is  lin x a w b r q = (∑ k, (2·x(r,k) + a(r,k))·w(k,q)) + b(0,q);
    * entry (0, q) of the second output is the sum over ALL 100000 rows r of lin x a w b r q;
    * entry (0, q) of the third output is the sum over all rows of lin x a w b r q · lin x a w b r q.

  The factor 2 is kept as the word 0x40000000 read as an extended real (`two`); it is never evaluated.  The matrix
  product into a zero accumulator is the plain sum over k; the change of float format before it is the identity.
  The accumulators are sums of ten block sums; on the extended reals addition is commutative and associative, so
  regrouping them into one sum over all rows needs no finiteness.  A row past the last is given the value 0 only so that
  rows can be numbered by natural numbers in the induction over the grid points; the final statements range over Fin 100000.
-/
import proofs.«132586_j38087769981032_1_alg».proof.Proof.Gen.KernelIdeal.Frame
import proofs.«132586_j38087769981032_1_alg».proof.Proof.KGinLin
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

set_option maxRecDepth 16384

noncomputable section

namespace Cert.KernelIdeal.KGin6

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.PlainDot Cert.KernelIdeal.KGin
open scoped BigOperators

/-! ## The arithmetic of one block, entry by entry -/

/-- The block of y the body stores, at row p and column q of the block. -/
theorem pay3_apply (v3 v6 : Vec Ideal S10000x128 .f32) (v10 : Vec Ideal S128x128 .f32) (v13 : Vec Ideal S1x128 .f32)
    (p : Fin 10000) (q : Fin 128) :
    k6_pay3 (F := Ideal) v3 v6 v10 v13 (ix2 p q) = lin v3 v6 v10 v13 p q := by
  unfold k6_pay3 lin
  refine (addf_apply _ _ _).trans (congrArg₂ (· + ·) ?_ ?_)
  · refine (matmul_zero_apply _ rfl none _ _ (ix2 p q)).trans ?_
    unfold mm
    refine Finset.sum_congr rfl fun k _ => ?_
    rw [rowIdx_ix2, colIdx_ix2, shapeCast_self, shapeCast_self, shapeCast_self]
    rfl
  · refine (broadcastTo_1b_ab_apply _ _ p q).trans ?_
    rw [shapeCast_self]

/-- The first accumulator's new contents: what it held plus the block's column sum of y. -/
theorem pay4_apply (v3 v6 : Vec Ideal S10000x128 .f32) (v10 : Vec Ideal S128x128 .f32) (v13 v18 : Vec Ideal S1x128 .f32)
    (u : Fin 1) (q : Fin 128) :
    k6_pay4 (F := Ideal) v3 v6 v10 v13 v18 (ix2 u q)
      = v18 (ix2 u q) + ∑ p : Fin 10000, k6_pay3 (F := Ideal) v3 v6 v10 v13 (ix2 p q) := by
  unfold k6_pay4
  refine (addf_apply _ _ _).trans (congrArg₂ (· + ·) (congrFun (shapeCast_self v18 _) _) ?_)
  refine (shapeCast_a_1a_apply _ _ u q).trans ?_
  exact colsum_apply _ _ _ _ q

/-- The second accumulator's new contents: what it held plus the block's column sum of y·y. -/
theorem pay5_apply (v3 v6 : Vec Ideal S10000x128 .f32) (v10 : Vec Ideal S128x128 .f32) (v13 v24 : Vec Ideal S1x128 .f32)
    (u : Fin 1) (q : Fin 128) :
    k6_pay5 (F := Ideal) v3 v6 v10 v13 v24 (ix2 u q)
      = v24 (ix2 u q) + ∑ p : Fin 10000, k6_pay3 (F := Ideal) v3 v6 v10 v13 (ix2 p q) * k6_pay3 (F := Ideal) v3 v6 v10 v13 (ix2 p q) := by
  unfold k6_pay5
  refine (addf_apply _ _ _).trans (congrArg₂ (· + ·) (congrFun (shapeCast_self v24 _) _) ?_)
  refine (shapeCast_a_1a_apply _ _ u q).trans ?_
  refine (colsum_apply _ _ _ _ q).trans ?_
  rfl

/-- The first point's reset stores the zero word. -/
theorem pay1_apply (j : S1x128.Idx) : k6_pay1 (F := Ideal) j = 0 := Ideal.ofBits_zero_f32
theorem pay2_apply (j : S1x128.Idx) : k6_pay2 (F := Ideal) j = 0 := Ideal.ofBits_zero_f32

/-! ## What the body leaves in each output's buffer, case by case -/

section Pieces

variable {F : FTy → Type} [FloatOps F]

theorem hz : (![0, 0] : Fin 2 → Nat) = fun _ => 0 := funext fun a => by fin_cases a <;> rfl

/-- At the first point the block of y is the one store's payload of the loaded blocks. -/
theorem out_A_4 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S10000x128 .f32) (x2 : Vec F S128x128 .f32) (x3 : Vec F S1x128 .f32) :
    out6_A_4 c i a1 h1 a2 h2 a3 h3 a4 h4 a5 h5 a6 h6 a7 h7 hc x0 x1 x2 x3 = k6_pay3 x0 x1 x2 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  try sl_unfold_words
  rw [View.canon_unit_zero hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the first accumulator is reset to the zero block and the block's column sum added to it. -/
theorem out_A_5 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S10000x128 .f32) (x2 : Vec F S128x128 .f32) (x3 : Vec F S1x128 .f32) :
    out6_A_5 c i a1 h1 a2 h2 a3 h3 a4 h4 a5 h5 a6 h6 a7 h7 hc x0 x1 x2 x3 = k6_pay4 x0 x1 x2 x3 k6_pay1 := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the second accumulator likewise. -/
theorem out_A_6 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S10000x128 .f32) (x2 : Vec F S128x128 .f32) (x3 : Vec F S1x128 .f32) :
    out6_A_6 c i a1 h1 a2 h2 a3 h3 a4 h4 a5 h5 a6 h6 a7 h7 hc x0 x1 x2 x3 = k6_pay5 x0 x1 x2 x3 k6_pay2 := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At a later point the block of y is again the one store's payload. -/
theorem out_B_4 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S10000x128 .f32) (x2 : Vec F S128x128 .f32) (x3 : Vec F S1x128 .f32) (xo5 xo6 : Vec F S1x128 .f32) :
    out6_B_4 c i a1 h1 a2 h2 a3 h3 a4 h4 a5 h5 a6 h6 a7 h7 hc x0 x1 x2 x3 xo5 xo6 = k6_pay3 x0 x1 x2 x3 := by
  unfold out6_B_4
  rw [View.read_writes_eq_canon _ _ _ (cover6_B_4 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the first accumulator adds the block's column sum to what the point before left. -/
theorem out_B_5 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S10000x128 .f32) (x2 : Vec F S128x128 .f32) (x3 : Vec F S1x128 .f32) (xo5 xo6 : Vec F S1x128 .f32) :
    out6_B_5 c i a1 h1 a2 h2 a3 h3 a4 h4 a5 h5 a6 h6 a7 h7 hc x0 x1 x2 x3 xo5 xo6 = k6_pay4 x0 x1 x2 x3 xo5 := by
  unfold out6_B_5
  rw [View.read_writes_eq_canon _ _ _ (cover6_B_5 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the second accumulator likewise. -/
theorem out_B_6 (c : Dev nD) (i : grid6.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S10000x128 .f32) (x2 : Vec F S128x128 .f32) (x3 : Vec F S1x128 .f32) (xo5 xo6 : Vec F S1x128 .f32) :
    out6_B_6 c i a1 h1 a2 h2 a3 h3 a4 h4 a5 h5 a6 h6 a7 h7 hc x0 x1 x2 x3 xo5 xo6 = k6_pay5 x0 x1 x2 x3 xo6 := by
  unfold out6_B_6
  rw [View.read_writes_eq_canon _ _ _ (cover6_B_6 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

end Pieces

/-! ## The blocks are rows of the arrays -/

variable (V : (c : Dev nD) → (b : Ref sig .tc) → Buf (Elt Ideal) ((c : Thread nD τ).loc b))

/-- The two inputs, the weight and the bias as the region finds them. -/
abbrev xArr (c : Dev nD) : (⟨2, ![100000, 128]⟩ : Shape).Idx → EReal := V c (Pipeline.arrRef spec6 0)
abbrev aArr (c : Dev nD) : (⟨2, ![100000, 128]⟩ : Shape).Idx → EReal := V c (Pipeline.arrRef spec6 1)
abbrev wArr (c : Dev nD) : (⟨2, ![128, 128]⟩ : Shape).Idx → EReal := V c (Pipeline.arrRef spec6 2)
abbrev bArr (c : Dev nD) : (⟨2, ![1, 128]⟩ : Shape).Idx → EReal := V c (Pipeline.arrRef spec6 3)

/-- The four input blocks at point t. -/
abbrev B0 (c : Dev nD) (t : Fin cfg6.N) : Vec Ideal S10000x128 .f32 := iblk6 V c 0 t
abbrev B1 (c : Dev nD) (t : Fin cfg6.N) : Vec Ideal S10000x128 .f32 := iblk6 V c 1 t
abbrev B2 (c : Dev nD) (t : Fin cfg6.N) : Vec Ideal S128x128 .f32 := iblk6 V c 2 t
abbrev B3 (c : Dev nD) (t : Fin cfg6.N) : Vec Ideal S1x128 .f32 := iblk6 V c 3 t

/-- The windows' block indices over the grid: the row-blocked windows move with the point, the others stay at 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Row p of the first input's block at point t is row 10000·t + p of the array. -/
theorem blk_0 (c : Dev nD) (t : Fin cfg6.N) (p : Fin 10000) (k : Fin 128) (r : Fin 100000) (hr : r.val = t.val * 10000 + p.val) :
    B0 V c t (ix2 p k) = xArr V c (ix2 r k) := by
  obtain ⟨e0, e1, -⟩ := idx_facts t
  unfold B0 iblk6
  rw [View.read_apply]
  show V c (Pipeline.arrRef spec6 0) _ = V c (Pipeline.arrRef spec6 0) _
  congr 1
  funext a
  apply Fin.ext
  match a with
  | ⟨0, _⟩ => show win6_0.index t 0 * 10000 + 1 * p.val = r.val; rw [e0, hr]; omega
  | ⟨1, _⟩ => show win6_0.index t 1 * 128 + 1 * k.val = k.val; rw [e1]; omega

/-- The same for the second input. -/
theorem blk_1 (c : Dev nD) (t : Fin cfg6.N) (p : Fin 10000) (k : Fin 128) (r : Fin 100000) (hr : r.val = t.val * 10000 + p.val) :
    B1 V c t (ix2 p k) = aArr V c (ix2 r k) := by
  obtain ⟨-, -, e0, e1, -⟩ := idx_facts t
  unfold B1 iblk6
  rw [View.read_apply]
  show V c (Pipeline.arrRef spec6 1) _ = V c (Pipeline.arrRef spec6 1) _
  congr 1
  funext a
  apply Fin.ext
  match a with
  | ⟨0, _⟩ => show win6_1.index t 0 * 10000 + 1 * p.val = r.val; rw [e0, hr]; omega
  | ⟨1, _⟩ => show win6_1.index t 1 * 128 + 1 * k.val = k.val; rw [e1]; omega

/-- The weight's one block is the whole weight. -/
theorem blk_2 (c : Dev nD) (t : Fin cfg6.N) (j : S128x128.Idx) : B2 V c t j = wArr V c j := by
  obtain ⟨-, -, -, -, e0, e1, -⟩ := idx_facts t
  unfold B2 iblk6
  rw [View.read_apply]
  show V c (Pipeline.arrRef spec6 2) _ = V c (Pipeline.arrRef spec6 2) _
  congr 1
  funext a
  apply Fin.ext
  match a with
  | ⟨0, _⟩ => show win6_2.index t 0 * 128 + 1 * (j 0).val = (j 0).val; rw [e0]; omega
  | ⟨1, _⟩ => show win6_2.index t 1 * 128 + 1 * (j 1).val = (j 1).val; rw [e1]; omega

/-- The bias's one block is the whole bias. -/
theorem blk_3 (c : Dev nD) (t : Fin cfg6.N) (j : S1x128.Idx) : B3 V c t j = bArr V c j := by
  obtain ⟨-, -, -, -, -, -, e0, e1, -⟩ := idx_facts t
  unfold B3 iblk6
  rw [View.read_apply]
  show V c (Pipeline.arrRef spec6 3) _ = V c (Pipeline.arrRef spec6 3) _
  congr 1
  funext a
  apply Fin.ext
  match a with
  | ⟨0, _⟩ => show win6_3.index t 0 * 1 + 1 * (j 0).val = (j 0).val; rw [e0]; omega
  | ⟨1, _⟩ => show win6_3.index t 1 * 128 + 1 * (j 1).val = (j 1).val; rw [e1]; omega

/-! ## The rows of y, numbered by natural numbers -/

/-- Entry (r, q) of y over the arrays as the region finds them. -/
abbrev Y (c : Dev nD) (r : Fin 100000) (q : Fin 128) : EReal := lin (xArr V c) (aArr V c) (wArr V c) (bArr V c) r q

/-- The same over a natural row number, 0 past the last row. -/
def Yn (c : Dev nD) (q : Fin 128) (i : ℕ) : EReal := if h : i < 100000 then Y V c ⟨i, h⟩ q else 0

theorem Yn_val (c : Dev nD) (q : Fin 128) (r : Fin 100000) : Yn V c q r.val = Y V c r q := by
  unfold Yn; rw [dif_pos r.isLt]

/-- Row p of the block of y at point t is row 10000·t + p of y. -/
theorem pay3_blocks (c : Dev nD) (t : Fin cfg6.N) (p : Fin 10000) (q : Fin 128) :
    k6_pay3 (F := Ideal) (B0 V c t) (B1 V c t) (B2 V c t) (B3 V c t) (ix2 p q) = Yn V c q (t.val * 10000 + p.val) := by
  have hN : t.val < 10 := lt_of_lt_of_eq t.isLt (show cfg6.N = 10 from N_6)
  have hr : t.val * 10000 + p.val < 100000 := by have := p.isLt; omega
  refine (pay3_apply (B0 V c t) (B1 V c t) (B2 V c t) (B3 V c t) p q).trans ?_
  unfold Yn
  rw [dif_pos hr]
  exact lin_congr (B0 V c t) (B1 V c t) (xArr V c) (aArr V c) (B2 V c t) (wArr V c) (B3 V c t) (bArr V c) p ⟨_, hr⟩ q
    (fun k => blk_0 V c t p k ⟨_, hr⟩ rfl) (fun k => blk_1 V c t p k ⟨_, hr⟩ rfl) (fun k => blk_2 V c t (ix2 k q)) (blk_3 V c t (ix2 0 q))

/-- The same at any index of the block. -/
theorem pay3_blocks_idx (c : Dev nD) (t : Fin cfg6.N) (j : S10000x128.Idx) :
    k6_pay3 (F := Ideal) (B0 V c t) (B1 V c t) (B2 V c t) (B3 V c t) j = Yn V c ⟨(j 1).val, idx2_lt1 j⟩ (t.val * 10000 + (j 0).val) := by
  obtain ⟨p, q, rfl⟩ : ∃ (p : Fin 10000) (q : Fin 128), j = ix2 p q := ⟨j 0, j 1, eq_ix2 j⟩
  exact pay3_blocks V c t p q

/-- The column sum of block j of y, and of its squares. -/
def colsum (c : Dev nD) (q : Fin 128) (j : ℕ) : EReal := ∑ i ∈ Finset.range 10000, Yn V c q (j * 10000 + i)
def colsumsq (c : Dev nD) (q : Fin 128) (j : ℕ) : EReal := ∑ i ∈ Finset.range 10000, Yn V c q (j * 10000 + i) * Yn V c q (j * 10000 + i)

theorem blocksum (c : Dev nD) (t : Fin cfg6.N) (q : Fin 128) :
    ∑ p : Fin 10000, k6_pay3 (F := Ideal) (B0 V c t) (B1 V c t) (B2 V c t) (B3 V c t) (ix2 p q) = colsum V c q t.val :=
  (Finset.sum_congr rfl fun p _ => pay3_blocks V c t p q).trans
    (Fin.sum_univ_eq_sum_range (fun i => Yn V c q (t.val * 10000 + i)) 10000)

theorem blocksumsq (c : Dev nD) (t : Fin cfg6.N) (q : Fin 128) :
    ∑ p : Fin 10000, k6_pay3 (F := Ideal) (B0 V c t) (B1 V c t) (B2 V c t) (B3 V c t) (ix2 p q) * k6_pay3 (F := Ideal) (B0 V c t) (B1 V c t) (B2 V c t) (B3 V c t) (ix2 p q)
      = colsumsq V c q t.val :=
  (Finset.sum_congr rfl fun p _ => by
      show _ * _ = Yn V c q (t.val * 10000 + p.val) * Yn V c q (t.val * 10000 + p.val)
      rw [pay3_blocks V c t p q]).trans
    (Fin.sum_univ_eq_sum_range (fun i => Yn V c q (t.val * 10000 + i) * Yn V c q (t.val * 10000 + i)) 10000)

/-! ## The outputs' buffers after each point -/

/-- After every point the first output's buffer holds the point's block of y. -/
theorem outs4 (c : Dev nD) (t : Fin cfg6.N) :
    (outsAt6 V c t.val t.isLt).1 = k6_pay3 (F := Ideal) (B0 V c t) (B1 V c t) (B2 V c t) (B3 V c t) := by
  by_cases h0 : t.val % 10 = 0
  · rw [outsAt6_A V c t h0]
    dsimp only
    exact out_A_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (B0 V c t) (B1 V c t) (B2 V c t) (B3 V c t)
  · rw [outsAt6_B V c t h0]
    dsimp only
    exact out_B_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (B0 V c t) (B1 V c t) (B2 V c t) (B3 V c t)
      (outsAt6 V c (t.val - 1) (Nat.lt_of_le_of_lt (Nat.sub_le _ _) t.isLt)).2.1 (outsAt6 V c (t.val - 1) (Nat.lt_of_le_of_lt (Nat.sub_le _ _) t.isLt)).2.2

/-- After point n the first accumulator holds the column sums of blocks 0 … n of y, added up. -/
theorem acc5 (c : Dev nD) : ∀ (n : ℕ) (h : n < cfg6.N) (u : Fin 1) (q : Fin 128),
    (outsAt6 V c n h).2.1 (ix2 u q) = ∑ j ∈ Finset.range (n + 1), colsum V c q j
  | 0, h, u, q => by
    rw [show outsAt6 V c 0 h = _ from outsAt6_A V c ⟨0, h⟩ rfl]
    dsimp only
    refine (congrFun (out_A_5 (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) ((hcond6_0 ⟨0, h⟩).mpr rfl) (B0 V c ⟨0, h⟩) (B1 V c ⟨0, h⟩) (B2 V c ⟨0, h⟩) (B3 V c ⟨0, h⟩)) (ix2 u q)).trans ?_
    refine (pay4_apply (B0 V c ⟨0, h⟩) (B1 V c ⟨0, h⟩) (B2 V c ⟨0, h⟩) (B3 V c ⟨0, h⟩) (k6_pay1 (F := Ideal)) u q).trans ?_
    rw [pay1_apply, zero_add]
    exact (blocksum V c ⟨0, h⟩ q).trans (Finset.sum_range_one (fun j => colsum V c q j)).symm
  | n + 1, h, u, q => by
    have hN : cfg6.N = 10 := N_6
    have hB : ¬(⟨n + 1, h⟩ : Fin cfg6.N).val % 10 = 0 := by dsimp only; omega
    rw [show outsAt6 V c (n + 1) h = _ from outsAt6_B V c ⟨n + 1, h⟩ hB]
    dsimp only
    refine (congrFun (out_B_5 (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (fun h' => hB ((hcond6_0 ⟨n + 1, h⟩).mp h')) (B0 V c ⟨n + 1, h⟩) (B1 V c ⟨n + 1, h⟩) (B2 V c ⟨n + 1, h⟩) (B3 V c ⟨n + 1, h⟩) (outsAt6 V c n (Nat.lt_of_succ_lt h)).2.1 (outsAt6 V c n (Nat.lt_of_succ_lt h)).2.2) (ix2 u q)).trans ?_
    refine (pay4_apply (B0 V c ⟨n + 1, h⟩) (B1 V c ⟨n + 1, h⟩) (B2 V c ⟨n + 1, h⟩) (B3 V c ⟨n + 1, h⟩) (outsAt6 V c n (Nat.lt_of_succ_lt h)).2.1 u q).trans ?_
    refine (congrArg₂ (· + ·) (acc5 c n (Nat.lt_of_succ_lt h) u q) (blocksum V c ⟨n + 1, h⟩ q)).trans ?_
    exact (Finset.sum_range_succ (fun j => colsum V c q j) (n + 1)).symm

/-- After point n the second accumulator holds the column sums of the squares of blocks 0 … n, added up. -/
theorem acc6 (c : Dev nD) : ∀ (n : ℕ) (h : n < cfg6.N) (u : Fin 1) (q : Fin 128),
    (outsAt6 V c n h).2.2 (ix2 u q) = ∑ j ∈ Finset.range (n + 1), colsumsq V c q j
  | 0, h, u, q => by
    rw [show outsAt6 V c 0 h = _ from outsAt6_A V c ⟨0, h⟩ rfl]
    dsimp only
    refine (congrFun (out_A_6 (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) ((hcond6_0 ⟨0, h⟩).mpr rfl) (B0 V c ⟨0, h⟩) (B1 V c ⟨0, h⟩) (B2 V c ⟨0, h⟩) (B3 V c ⟨0, h⟩)) (ix2 u q)).trans ?_
    refine (pay5_apply (B0 V c ⟨0, h⟩) (B1 V c ⟨0, h⟩) (B2 V c ⟨0, h⟩) (B3 V c ⟨0, h⟩) (k6_pay2 (F := Ideal)) u q).trans ?_
    rw [pay2_apply, zero_add]
    exact (blocksumsq V c ⟨0, h⟩ q).trans (Finset.sum_range_one (fun j => colsumsq V c q j)).symm
  | n + 1, h, u, q => by
    have hN : cfg6.N = 10 := N_6
    have hB : ¬(⟨n + 1, h⟩ : Fin cfg6.N).val % 10 = 0 := by dsimp only; omega
    rw [show outsAt6 V c (n + 1) h = _ from outsAt6_B V c ⟨n + 1, h⟩ hB]
    dsimp only
    refine (congrFun (out_B_6 (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (fun h' => hB ((hcond6_0 ⟨n + 1, h⟩).mp h')) (B0 V c ⟨n + 1, h⟩) (B1 V c ⟨n + 1, h⟩) (B2 V c ⟨n + 1, h⟩) (B3 V c ⟨n + 1, h⟩) (outsAt6 V c n (Nat.lt_of_succ_lt h)).2.1 (outsAt6 V c n (Nat.lt_of_succ_lt h)).2.2) (ix2 u q)).trans ?_
    refine (pay5_apply (B0 V c ⟨n + 1, h⟩) (B1 V c ⟨n + 1, h⟩) (B2 V c ⟨n + 1, h⟩) (B3 V c ⟨n + 1, h⟩) (outsAt6 V c n (Nat.lt_of_succ_lt h)).2.2 u q).trans ?_
    refine (congrArg₂ (· + ·) (acc6 c n (Nat.lt_of_succ_lt h) u q) (blocksumsq V c ⟨n + 1, h⟩ q)).trans ?_
    exact (Finset.sum_range_succ (fun j => colsumsq V c q j) (n + 1)).symm

/-! ## The arrays after the run -/

/-- What the first output array ends holding: y, row by row. -/
def G4 (c : Dev nD) : Vec Ideal S100000x128 .f32 := fun i => Yn V c ⟨(i 1).val, idx2_lt1 i⟩ (i 0).val

theorem G4_apply (c : Dev nD) (i : S100000x128.Idx) (q : Fin 128) (n : ℕ) (h1 : (i 1).val = q.val) (h0 : (i 0).val = n) :
    G4 V c i = Yn V c q n := by
  unfold G4
  rw [h0]
  exact congrArg (fun q' => Yn V c q' n) (Fin.ext h1)

/-- What each accumulator array ends holding: the ten block sums added up. -/
def G5 (c : Dev nD) : Vec Ideal S1x128 .f32 := fun i => ∑ j ∈ Finset.range 10, colsum V c ⟨(i 1).val, idx2_lt1 i⟩ j
def G6 (c : Dev nD) : Vec Ideal S1x128 .f32 := fun i => ∑ j ∈ Finset.range 10, colsumsq V c ⟨(i 1).val, idx2_lt1 i⟩ j

/-- Every point writes back its block of y: block t of the rows of y. -/
theorem flushed4 (c : Dev nD) (t : Fin cfg6.N) :
    (dat6 V c).flushed 4 t = ((cfg6.win 4).blk t).view.read (Elt Ideal) (G4 V c) := by
  show (cfg6.win 4).cut (grid6.coords t) ((dat6 V c).after 4 t) = _
  rw [after6_4, outs4 V c t]
  obtain ⟨-, -, -, -, -, -, -, -, e0, e1, -⟩ := idx_facts t
  funext j
  refine (pay3_blocks_idx V c t _).trans ?_
  rw [View.read_apply]
  show _ = G4 V c (((cfg6.win 4).blk t).view.emb j)
  refine (G4_apply V c (((cfg6.win 4).blk t).view.emb j) _ _ ?_ ?_).symm
  · show win6_4.index t (1 : Fin 2) * 128 + 1 * (j 1).val = (j 1).val; rw [e1]; omega
  · show win6_4.index t (0 : Fin 2) * 10000 + 1 * (j 0).val = t.val * 10000 + (j 0).val; rw [e0]; omega

/-- An index of the first output array is in point t's block iff its coordinates are in the block's ranges. -/
theorem mem_blk4 (t : Fin cfg6.N) (i : S100000x128.Idx) :
    i ∈ ((cfg6.win 4).blk t).view.set ↔ ∀ a : Fin 2, win6_4.index t a * S10000x128.size a ≤ (i a).val ∧ (i a).val < win6_4.index t a * S10000x128.size a + S10000x128.size a := by
  show i ∈ ((View.whole main_v102_0).slice (win6_4.rect t)).set ↔ _
  rw [View.set_slice_whole, Rect.mem_set_unit]
  exact Iff.rfl

/-- Row r lies in the block of point r / 10000. -/
theorem cover4 (i : S100000x128.Idx) : ∃ t : Fin cfg6.N, (cfg6.win 4).flush t = true ∧ i ∈ ((cfg6.win 4).blk t).view.set := by
  have hi0 : (i 0).val < 100000 := (i 0).isLt
  have hi1 : (i 1).val < 128 := (i 1).isLt
  have hN : cfg6.N = 10 := N_6
  refine ⟨⟨(i 0).val / 10000, by rw [hN]; omega⟩, flush6_4 _, ?_⟩
  rw [mem_blk4]
  obtain ⟨-, -, -, -, -, -, -, -, e0, e1, -⟩ := idx_facts ⟨(i 0).val / 10000, by rw [hN]; omega⟩
  intro a
  match a with
  | ⟨0, _⟩ => show win6_4.index _ (0 : Fin 2) * 10000 ≤ (i 0).val ∧ (i 0).val < win6_4.index _ (0 : Fin 2) * 10000 + 10000; rw [e0]; dsimp only; omega
  | ⟨1, _⟩ => show win6_4.index _ (1 : Fin 2) * 128 ≤ (i 1).val ∧ (i 1).val < win6_4.index _ (1 : Fin 2) * 128 + 128; rw [e1]; omega

/-- The first output array after the run. -/
theorem final4 (c : Dev nD) : (dat6 V c).arrAt 4 cfg6.N = G4 V c :=
  (dat6 V c).arrAt_eq_of_cover 4 (G4 V c) (fun t _ => flushed4 V c t) cover4

/-- The accumulators are written back once, after the last point, whole. -/
theorem flushed5 (c : Dev nD) (t : Fin cfg6.N) (hf : (cfg6.win 5).flush t = true) :
    (dat6 V c).flushed 5 t = ((cfg6.win 5).blk t).view.read (Elt Ideal) (G5 V c) := by
  have hN : cfg6.N = 10 := N_6
  have h9 : t.val = 9 := by have := (flush6_5 t).mp hf; have := t.isLt; omega
  obtain rfl : t = t6_9 := Fin.ext h9
  show (cfg6.win 5).cut (grid6.coords t6_9) ((dat6 V c).after 5 t6_9) = _
  rw [after6_5]
  have hG : (outsAt6 V c t6_9.val t6_9.isLt).2.1 = G5 V c := by
    funext j
    obtain ⟨u, q, rfl⟩ : ∃ (u : Fin 1) (q : Fin 128), j = ix2 u q := ⟨j 0, j 1, eq_ix2 j⟩
    exact acc5 V c 9 _ u q
  rw [hG]
  obtain ⟨-, -, -, -, -, -, -, -, -, -, e0, e1, -⟩ := idx_facts t6_9
  have hz' : (fun a => win6_5.index t6_9 a * main_v102_1.ty.shape.size a) = fun _ => 0 := funext fun a => by
    match a with
    | ⟨0, _⟩ => show win6_5.index t6_9 0 * 1 = 0; rw [e0]
    | ⟨1, _⟩ => show win6_5.index t6_9 1 * 128 = 0; rw [e1]
  exact (Memref.read_access_unit_zero (Elt Ideal) main_v102_1 hz' (fun a => by rw [congrFun hz' a]; simp) (G5 V c)).symm

theorem flushed6 (c : Dev nD) (t : Fin cfg6.N) (hf : (cfg6.win 6).flush t = true) :
    (dat6 V c).flushed 6 t = ((cfg6.win 6).blk t).view.read (Elt Ideal) (G6 V c) := by
  have hN : cfg6.N = 10 := N_6
  have h9 : t.val = 9 := by have := (flush6_6 t).mp hf; have := t.isLt; omega
  obtain rfl : t = t6_9 := Fin.ext h9
  show (cfg6.win 6).cut (grid6.coords t6_9) ((dat6 V c).after 6 t6_9) = _
  rw [after6_6]
  have hG : (outsAt6 V c t6_9.val t6_9.isLt).2.2 = G6 V c := by
    funext j
    obtain ⟨u, q, rfl⟩ : ∃ (u : Fin 1) (q : Fin 128), j = ix2 u q := ⟨j 0, j 1, eq_ix2 j⟩
    exact acc6 V c 9 _ u q
  rw [hG]
  obtain ⟨-, -, -, -, -, -, -, -, -, -, -, -, e0, e1⟩ := idx_facts t6_9
  have hz' : (fun a => win6_6.index t6_9 a * main_v102_2.ty.shape.size a) = fun _ => 0 := funext fun a => by
    match a with
    | ⟨0, _⟩ => show win6_6.index t6_9 0 * 1 = 0; rw [e0]
    | ⟨1, _⟩ => show win6_6.index t6_9 1 * 128 = 0; rw [e1]
  exact (Memref.read_access_unit_zero (Elt Ideal) main_v102_2 hz' (fun a => by rw [congrFun hz' a]; simp) (G6 V c)).symm

/-- The last point's block of an accumulator array is the whole array. -/
theorem cover5 (i : S1x128.Idx) : ∃ t : Fin cfg6.N, (cfg6.win 5).flush t = true ∧ i ∈ ((cfg6.win 5).blk t).view.set := by
  refine ⟨t6_9, (flush6_5 t6_9).mpr rfl, ?_⟩
  show i ∈ ((View.whole main_v102_1).slice (win6_5.rect t6_9)).set
  rw [View.set_slice_whole, Rect.mem_set_unit]
  have h0 : (i 0 : Nat) < 1 := (i 0).isLt
  have h1 : (i 1 : Nat) < 128 := (i 1).isLt
  obtain ⟨-, -, -, -, -, -, -, -, -, -, e0, e1, -⟩ := idx_facts t6_9
  intro a
  match a with
  | ⟨0, _⟩ => show win6_5.index t6_9 0 * 1 ≤ (i 0 : Nat) ∧ (i 0 : Nat) < win6_5.index t6_9 0 * 1 + 1; rw [e0]; omega
  | ⟨1, _⟩ => show win6_5.index t6_9 1 * 128 ≤ (i 1 : Nat) ∧ (i 1 : Nat) < win6_5.index t6_9 1 * 128 + 128; rw [e1]; omega

theorem cover6 (i : S1x128.Idx) : ∃ t : Fin cfg6.N, (cfg6.win 6).flush t = true ∧ i ∈ ((cfg6.win 6).blk t).view.set := by
  refine ⟨t6_9, (flush6_6 t6_9).mpr rfl, ?_⟩
  show i ∈ ((View.whole main_v102_2).slice (win6_6.rect t6_9)).set
  rw [View.set_slice_whole, Rect.mem_set_unit]
  have h0 : (i 0 : Nat) < 1 := (i 0).isLt
  have h1 : (i 1 : Nat) < 128 := (i 1).isLt
  obtain ⟨-, -, -, -, -, -, -, -, -, -, -, -, e0, e1⟩ := idx_facts t6_9
  intro a
  match a with
  | ⟨0, _⟩ => show win6_6.index t6_9 0 * 1 ≤ (i 0 : Nat) ∧ (i 0 : Nat) < win6_6.index t6_9 0 * 1 + 1; rw [e0]; omega
  | ⟨1, _⟩ => show win6_6.index t6_9 1 * 128 ≤ (i 1 : Nat) ∧ (i 1 : Nat) < win6_6.index t6_9 1 * 128 + 128; rw [e1]; omega

theorem final5 (c : Dev nD) : (dat6 V c).arrAt 5 cfg6.N = G5 V c :=
  (dat6 V c).arrAt_eq_of_cover 5 (G5 V c) (flushed5 V c) cover5
theorem final6 (c : Dev nD) : (dat6 V c).arrAt 6 cfg6.N = G6 V c :=
  (dat6 V c).arrAt_eq_of_cover 6 (G6 V c) (flushed6 V c) cover6

/-! ## The three results -/

/-- Every entry of the first output array is the affine map's entry. -/
theorem valueY (c : Dev nD) (r : Fin 100000) (q : Fin 128) :
    ((dat6 V c).arrAt 4 cfg6.N : S100000x128.Idx → Ideal .f32) (ix2 r q)
      = lin (R := 100000) (K := 128) (V c (Pipeline.arrRef spec6 0)) (V c (Pipeline.arrRef spec6 1)) (V c (Pipeline.arrRef spec6 2)) (V c (Pipeline.arrRef spec6 3)) r q := by
  rw [final4 V c]
  exact (G4_apply V c (ix2 r q) q r.val rfl rfl).trans (Yn_val V c q r)

/-- Every entry of the second output array is the column sum of y over all 100000 rows. -/
theorem valueS (c : Dev nD) (q : Fin 128) :
    ((dat6 V c).arrAt 5 cfg6.N : S1x128.Idx → Ideal .f32) (ix2 (0 : Fin 1) q)
      = ∑ r : Fin 100000, lin (R := 100000) (K := 128) (V c (Pipeline.arrRef spec6 0)) (V c (Pipeline.arrRef spec6 1)) (V c (Pipeline.arrRef spec6 2)) (V c (Pipeline.arrRef spec6 3)) r q := by
  rw [final5 V c]
  show ∑ j ∈ Finset.range 10, colsum V c q j = _
  unfold colsum
  rw [sum_blocks (Yn V c q)]
  exact Finset.sum_congr rfl fun r _ => Yn_val V c q r

/-- Every entry of the third output array is the column sum of y·y over all 100000 rows. -/
theorem valueSS (c : Dev nD) (q : Fin 128) :
    ((dat6 V c).arrAt 6 cfg6.N : S1x128.Idx → Ideal .f32) (ix2 (0 : Fin 1) q)
      = ∑ r : Fin 100000, lin (R := 100000) (K := 128) (V c (Pipeline.arrRef spec6 0)) (V c (Pipeline.arrRef spec6 1)) (V c (Pipeline.arrRef spec6 2)) (V c (Pipeline.arrRef spec6 3)) r q * lin (R := 100000) (K := 128) (V c (Pipeline.arrRef spec6 0)) (V c (Pipeline.arrRef spec6 1)) (V c (Pipeline.arrRef spec6 2)) (V c (Pipeline.arrRef spec6 3)) r q := by
  rw [final6 V c]
  show ∑ j ∈ Finset.range 10, colsumsq V c q j = _
  unfold colsumsq
  rw [sum_blocks (fun i => Yn V c q i * Yn V c q i)]
  exact Finset.sum_congr rfl fun r _ => by
    show Yn V c q r.val * Yn V c q r.val = _
    rw [Yn_val V c q r]

end Cert.KernelIdeal.KGin6

end
-- ==== Proof.KBn7.lean ====
/- The value of batch normalisation followed by ReLU, region 7 of the idealized kernel program, read at the extended reals.

   The region takes a [100000,128] array y and four [1,128] rows (mean, var, gamma, beta) and writes a [100000,128] array,
   in 10 row blocks of 10000 rows each: block t is rows 10000·t … 10000·t + 9999. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn7

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x128 .f32) (v5 : Vec Ideal S10000x128 .f32) (v7 v13 v17 : Vec Ideal S1x128 .f32)
    (r : Fin 10000) (q : Fin 128) :
    k7_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k7_pay1
  simp only [shapeCast_self, maximumf_apply, addf_apply, mulf_apply, subf_apply, broadcast_apply, broadcastTo_1b_ab_apply]
  rfl

/-! ## The whole array as one function of the five input arrays -/

/-- The column of an index of the [100000,128] array, as a number below 128. -/
def col (i : S100000x128.Idx) : Fin 128 := ⟨(i 1).val, idx2_lt1 i⟩

/-- Normalise, scale, shift, clamp at zero: entry `i` from `y` at `i` and the four rows at `i`'s column. -/
def G (y : S100000x128.Idx → Elt Ideal .f32) (mean var gamma beta : S1x128.Idx → Elt Ideal .f32) :
    S100000x128.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S100000x128.Idx → Elt Ideal .f32) (mean var gamma beta : S1x128.Idx → Elt Ideal .f32)
    (r : Fin 100000) (q : Fin 128) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S10000x128 .f32) (x1 x2 x3 x4 : Vec Ideal S1x128 .f32)
    (y : S100000x128.Idx → Elt Ideal .f32) (mean var gamma beta : S1x128.Idx → Elt Ideal .f32)
    (emb : S10000x128.Idx → S100000x128.Idx)
    (hc : ∀ (p : Fin 10000) (q : Fin 128), col (emb (ix2 p q)) = q)
    (e0 : ∀ (p : Fin 10000) (q : Fin 128), x0 (ix2 p q) = y (emb (ix2 p q)))
    (e1 : ∀ q : Fin 128, x1 (ix2 (0 : Fin 1) q) = mean (ix2 (0 : Fin 1) q))
    (e2 : ∀ q : Fin 128, x2 (ix2 (0 : Fin 1) q) = var (ix2 (0 : Fin 1) q))
    (e3 : ∀ q : Fin 128, x3 (ix2 (0 : Fin 1) q) = gamma (ix2 (0 : Fin 1) q))
    (e4 : ∀ q : Fin 128, x4 (ix2 (0 : Fin 1) q) = beta (ix2 (0 : Fin 1) q)) :
    out7_5 (F := Ideal) x0 x1 x2 x3 x4 = fun j => G y mean var gamma beta (emb j) := by
  unfold out7_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Entry (p, q) of y's block at point `t` is y at row 10000·t + p, column q. -/
theorem yblk_apply (c : Dev nD) (t : Fin cfg7.N) (p : Fin 10000) (q : Fin 128) (i : S100000x128.Idx)
    (h0 : (i 0).val = t.val * 10000 + p.val) (h1 : (i 1).val = q.val) :
    (iblk7 V c 0 t : Vec Ideal S10000x128 .f32) (ix2 p q) = (V c (Pipeline.arrRef spec7 0) : S100000x128.Idx → Elt Ideal .f32) i := by
  obtain ⟨e0, e1, -⟩ := idx_facts t
  have he : (((cfg7.win 0).blk t).view.emb (ix2 p q) : S100000x128.Idx) = i := by
    funext a
    apply Fin.ext
    match a with
    | ⟨0, _⟩ => show win7_0.index t (0 : Fin 2) * 10000 + 1 * p.val = (i 0).val; rw [e0, h0]; omega
    | ⟨1, _⟩ => show win7_0.index t (1 : Fin 2) * 128 + 1 * q.val = (i 1).val; rw [e1, h1]; omega
  exact congrArg (V c (Pipeline.arrRef spec7 0) : S100000x128.Idx → Elt Ideal .f32) he

/-- Column q of the mean row's block at any point is column q of the mean row: the block is the whole row. -/
theorem row1_apply (c : Dev nD) (t : Fin cfg7.N) (q : Fin 128) :
    (iblk7 V c 1 t : Vec Ideal S1x128 .f32) (ix2 (0 : Fin 1) q)
      = (V c (Pipeline.arrRef spec7 1) : S1x128.Idx → Elt Ideal .f32) (ix2 (0 : Fin 1) q) := by
  obtain ⟨-, -, e0, e1, -⟩ := idx_facts t
  have he : (((cfg7.win 1).blk t).view.emb (ix2 (0 : Fin 1) q) : S1x128.Idx) = ix2 (0 : Fin 1) q := by
    funext a
    apply Fin.ext
    match a with
    | ⟨0, _⟩ => show win7_1.index t (0 : Fin 2) * 1 + 1 * (0 : Fin 1).val = (0 : Fin 1).val; rw [e0]; omega
    | ⟨1, _⟩ => show win7_1.index t (1 : Fin 2) * 128 + 1 * q.val = q.val; rw [e1]; omega
  exact congrArg (V c (Pipeline.arrRef spec7 1) : S1x128.Idx → Elt Ideal .f32) he

/-- Column q of the variance row's block at any point is column q of the variance row: the block is the whole row. -/
theorem row2_apply (c : Dev nD) (t : Fin cfg7.N) (q : Fin 128) :
    (iblk7 V c 2 t : Vec Ideal S1x128 .f32) (ix2 (0 : Fin 1) q)
      = (V c (Pipeline.arrRef spec7 2) : S1x128.Idx → Elt Ideal .f32) (ix2 (0 : Fin 1) q) := by
  obtain ⟨-, -, -, -, e0, e1, -⟩ := idx_facts t
  have he : (((cfg7.win 2).blk t).view.emb (ix2 (0 : Fin 1) q) : S1x128.Idx) = ix2 (0 : Fin 1) q := by
    funext a
    apply Fin.ext
    match a with
    | ⟨0, _⟩ => show win7_2.index t (0 : Fin 2) * 1 + 1 * (0 : Fin 1).val = (0 : Fin 1).val; rw [e0]; omega
    | ⟨1, _⟩ => show win7_2.index t (1 : Fin 2) * 128 + 1 * q.val = q.val; rw [e1]; omega
  exact congrArg (V c (Pipeline.arrRef spec7 2) : S1x128.Idx → Elt Ideal .f32) he

/-- Column q of the scale row's block at any point is column q of the scale row: the block is the whole row. -/
theorem row3_apply (c : Dev nD) (t : Fin cfg7.N) (q : Fin 128) :
    (iblk7 V c 3 t : Vec Ideal S1x128 .f32) (ix2 (0 : Fin 1) q)
      = (V c (Pipeline.arrRef spec7 3) : S1x128.Idx → Elt Ideal .f32) (ix2 (0 : Fin 1) q) := by
  obtain ⟨-, -, -, -, -, -, e0, e1, -⟩ := idx_facts t
  have he : (((cfg7.win 3).blk t).view.emb (ix2 (0 : Fin 1) q) : S1x128.Idx) = ix2 (0 : Fin 1) q := by
    funext a
    apply Fin.ext
    match a with
    | ⟨0, _⟩ => show win7_3.index t (0 : Fin 2) * 1 + 1 * (0 : Fin 1).val = (0 : Fin 1).val; rw [e0]; omega
    | ⟨1, _⟩ => show win7_3.index t (1 : Fin 2) * 128 + 1 * q.val = q.val; rw [e1]; omega
  exact congrArg (V c (Pipeline.arrRef spec7 3) : S1x128.Idx → Elt Ideal .f32) he

/-- Column q of the shift row's block at any point is column q of the shift row: the block is the whole row. -/
theorem row4_apply (c : Dev nD) (t : Fin cfg7.N) (q : Fin 128) :
    (iblk7 V c 4 t : Vec Ideal S1x128 .f32) (ix2 (0 : Fin 1) q)
      = (V c (Pipeline.arrRef spec7 4) : S1x128.Idx → Elt Ideal .f32) (ix2 (0 : Fin 1) q) := by
  obtain ⟨-, -, -, -, -, -, -, -, e0, e1, -⟩ := idx_facts t
  have he : (((cfg7.win 4).blk t).view.emb (ix2 (0 : Fin 1) q) : S1x128.Idx) = ix2 (0 : Fin 1) q := by
    funext a
    apply Fin.ext
    match a with
    | ⟨0, _⟩ => show win7_4.index t (0 : Fin 2) * 1 + 1 * (0 : Fin 1).val = (0 : Fin 1).val; rw [e0]; omega
    | ⟨1, _⟩ => show win7_4.index t (1 : Fin 2) * 128 + 1 * q.val = q.val; rw [e1]; omega
  exact congrArg (V c (Pipeline.arrRef spec7 4) : S1x128.Idx → Elt Ideal .f32) he

/-- Entry (p, q) of the result's block at point `t` sits in row 10000·t + p of the array … -/
theorem oblk_row (t : Fin cfg7.N) (p : Fin 10000) (q : Fin 128) :
    ((((cfg7.win 5).blk t).view.emb (ix2 p q) : S100000x128.Idx) 0).val = t.val * 10000 + p.val := by
  obtain ⟨-, -, -, -, -, -, -, -, -, -, e0, -⟩ := idx_facts t
  show win7_5.index t (0 : Fin 2) * 10000 + 1 * p.val = _
  rw [e0]; omega

/-- … and in column q. -/
theorem oblk_col (t : Fin cfg7.N) (p : Fin 10000) (q : Fin 128) :
    ((((cfg7.win 5).blk t).view.emb (ix2 p q) : S100000x128.Idx) 1).val = q.val := by
  obtain ⟨-, -, -, -, -, -, -, -, -, -, -, e1⟩ := idx_facts t
  show win7_5.index t (1 : Fin 2) * 128 + 1 * q.val = _
  rw [e1]; omega

/-! ## From the blocks to the array -/

set_option maxHeartbeats 1000000 in
/-- What point `t` writes back is block `t` of `G` of the five arrays as the region finds them. -/
theorem flushed_eq (c : Dev nD) (t : Fin cfg7.N) :
    (dat7 V c).flushed 5 t = ((cfg7.win 5).blk t).view.read (Elt Ideal)
      (G (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  exact out_fun (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    (((cfg7.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg7.N) (i : S100000x128.Idx) :
    i ∈ ((cfg7.win 5).blk t).view.set ↔ ∀ a : Fin 2, win7_5.index t a * S10000x128.size a ≤ (i a).val ∧ (i a).val < win7_5.index t a * S10000x128.size a + S10000x128.size a := by
  show i ∈ ((View.whole main_v115).slice (win7_5.rect t)).set ↔ _
  rw [View.set_slice_whole, Rect.mem_set_unit]
  exact Iff.rfl

/-- Every entry is written: row r is in the block of point r / 10000. -/
theorem cover (i : S100000x128.Idx) : ∃ t : Fin cfg7.N, (cfg7.win 5).flush t = true ∧ i ∈ ((cfg7.win 5).blk t).view.set := by
  have hi0 : (i 0).val < 100000 := idx2_lt0 i
  have hi1 : (i 1).val < 128 := idx2_lt1 i
  obtain ⟨t, ht⟩ : ∃ t : Fin cfg7.N, t.val = (i 0).val / 10000 :=
    ⟨⟨(i 0).val / 10000, by rw [show cfg7.N = 10 from N_7]; omega⟩, rfl⟩
  obtain ⟨-, -, -, -, -, -, -, -, -, -, e0, e1⟩ := idx_facts t
  refine ⟨t, flush7_5 t, ?_⟩
  rw [mem_blk]
  intro a
  match a with
  | ⟨0, _⟩ =>
    show win7_5.index t (0 : Fin 2) * 10000 ≤ (i 0).val ∧ (i 0).val < win7_5.index t (0 : Fin 2) * 10000 + 10000
    rw [e0, ht]; omega
  | ⟨1, _⟩ =>
    show win7_5.index t (1 : Fin 2) * 128 ≤ (i 1).val ∧ (i 1).val < win7_5.index t (1 : Fin 2) * 128 + 128
    rw [e1]; omega

/-- The result array after the region is `G` of the five arrays the region was entered with. -/
theorem final (c : Dev nD) :
    (dat7 V c).arrAt 5 cfg7.N
      = G (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 _ (fun t _ => flushed_eq V c t) cover

/-- The result array after the region, entry by entry: the specification's `bnAt` of the five arrays at (r, q). -/
theorem value (c : Dev nD) (r : Fin 100000) (q : Fin 128) :
    ((dat7 V c).arrAt 5 cfg7.N : S100000x128.Idx → Elt Ideal .f32) (ix2 r q)
      = bnAt (R := 100000) (C := 128) (V c (Pipeline.arrRef spec7 0)) (V c (Pipeline.arrRef spec7 1))
          (V c (Pipeline.arrRef spec7 2)) (V c (Pipeline.arrRef spec7 3)) (V c (Pipeline.arrRef spec7 4)) r q := by
  rw [final V c]
  exact G_apply _ _ _ _ _ r q

end Cert.KernelIdeal.KBn7
end
-- ==== Proof.KHostB.lean ====
/-
  The host operations between the regions of the idealized kernel program, read at an index: the stretches before the batch-norm regions of GIN layers 4 and 5.

  Every statement is generic in the valuation `W` of the buffers when the stretch starts: it says what the stretch
  leaves, at a column `q`, in each buffer the next region reads, as extended-real arithmetic over `W`'s entries.
  The count (100000 nodes, or 2048 graphs) stays the float word it is printed as; nothing is evaluated.
-/
import proofs.«132586_j38087769981032_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-! ## The stretch before the batch-norm region of GIN layer 4

The column sums `s` and the column sums of squares `t` of the layer's pre-activation are divided by the row count
`n` (kept as its float word): the mean is `s / n` and the variance `t / n - (s / n) * (s / n)`. The scale and the shift
are row 2 of the stacked argument matrices, seen as one-row matrices. -/

/-- The mean: the column sum over the row count. -/
theorem host7_mean_at (q : Fin 128) :
    (StableHlo.after (hostOps7 (F := Ideal)) W (Proc.devRef .tc main_v104) : FVec Ideal S1x128 .f32) (ix2 (0 : Fin 1) q)
      = Ideal.div ((W (Proc.devRef .tc main_v102_1) : FVec Ideal S1x128 .f32) (ix2 (0 : Fin 1) q)) (Ideal.ofBits .f32 0x47C35000#32) := by
  have e : (StableHlo.after (hostOps7 (F := Ideal)) W (Proc.devRef .tc main_v104) : FVec Ideal S1x128 .f32)
      = Host.divf (W (Proc.devRef .tc main_v102_1)) (broadcastInDim S1x128 ![] bcast_S_S1x128 (constant (F := Ideal) S_ .f32 0x47C35000#32)) := by
    after_results
  rw [e]
  rfl

/-- The variance: the mean of the squares less the square of the mean. -/
theorem host7_var_at (q : Fin 128) :
    (StableHlo.after (hostOps7 (F := Ideal)) W (Proc.devRef .tc main_v108) : FVec Ideal S1x128 .f32) (ix2 (0 : Fin 1) q)
      = Ideal.div ((W (Proc.devRef .tc main_v102_2) : FVec Ideal S1x128 .f32) (ix2 (0 : Fin 1) q)) (Ideal.ofBits .f32 0x47C35000#32)
        - Ideal.div ((W (Proc.devRef .tc main_v102_1) : FVec Ideal S1x128 .f32) (ix2 (0 : Fin 1) q)) (Ideal.ofBits .f32 0x47C35000#32)
          * Ideal.div ((W (Proc.devRef .tc main_v102_1) : FVec Ideal S1x128 .f32) (ix2 (0 : Fin 1) q)) (Ideal.ofBits .f32 0x47C35000#32) := by
  have e : (StableHlo.after (hostOps7 (F := Ideal)) W (Proc.devRef .tc main_v108) : FVec Ideal S1x128 .f32)
      = subf (Host.divf (W (Proc.devRef .tc main_v102_2)) (broadcastInDim S1x128 ![] bcast_S_S1x128 (constant (F := Ideal) S_ .f32 0x47C35000#32)))
          (mulf (Host.divf (W (Proc.devRef .tc main_v102_1)) (broadcastInDim S1x128 ![] bcast_S_S1x128 (constant (F := Ideal) S_ .f32 0x47C35000#32)))
            (Host.divf (W (Proc.devRef .tc main_v102_1)) (broadcastInDim S1x128 ![] bcast_S_S1x128 (constant (F := Ideal) S_ .f32 0x47C35000#32)))) := by
    after_results
  rw [e]
  rfl

/-- The scale: row 2 of the stacked argument. -/
theorem host7_gamma_at (q : Fin 128) :
    (StableHlo.after (hostOps7 (F := Ideal)) W (Proc.devRef .tc main_v113) : FVec Ideal S1x128 .f32) (ix2 (0 : Fin 1) q)
      = (W (Proc.devRef .tc main_arg10) : FVec Ideal S4x128 .f32) (ix2 (2 : Fin 4) q) := by
  have e : (StableHlo.after (hostOps7 (F := Ideal)) W (Proc.devRef .tc main_v113) : FVec Ideal S1x128 .f32)
      = shapeCast S1x128 (shapeCast S128 (extractStridedSlice S1x128 ![2, 0] (W (Proc.devRef .tc main_arg10) : FVec Ideal S4x128 .f32) slices_S4x128_S1x128_2_0)
          shapeCasts_S1x128_S128) shapeCasts_S128_S1x128 := by
    after_results
    rfl
  rw [e]
  exact (shapeCast_a_1a_apply _ _ _ _).trans ((shapeCast_1a_a_apply _ _ _).trans
    (slice2_axis0_apply 2 _ _ (0 : Fin 1) q (2 : Fin 4) rfl))

/-- The shift: row 2 of the stacked argument. -/
theorem host7_beta_at (q : Fin 128) :
    (StableHlo.after (hostOps7 (F := Ideal)) W (Proc.devRef .tc main_v114) : FVec Ideal S1x128 .f32) (ix2 (0 : Fin 1) q)
      = (W (Proc.devRef .tc main_arg11) : FVec Ideal S4x128 .f32) (ix2 (2 : Fin 4) q) := by
  have e : (StableHlo.after (hostOps7 (F := Ideal)) W (Proc.devRef .tc main_v114) : FVec Ideal S1x128 .f32)
      = shapeCast S1x128 (shapeCast S128 (extractStridedSlice S1x128 ![2, 0] (W (Proc.devRef .tc main_arg11) : FVec Ideal S4x128 .f32) slices_S4x128_S1x128_2_0)
          shapeCasts_S1x128_S128) shapeCasts_S128_S1x128 := by
    after_results
    rfl
  rw [e]
  exact (shapeCast_a_1a_apply _ _ _ _).trans ((shapeCast_1a_a_apply _ _ _).trans
    (slice2_axis0_apply 2 _ _ (0 : Fin 1) q (2 : Fin 4) rfl))

/-- The stretch does not write the pre-activation. -/
theorem host7_keep_y :
    StableHlo.after (hostOps7 (F := Ideal)) W (Proc.devRef .tc main_v102_0) = W (Proc.devRef .tc main_v102_0) :=
  StableHlo.after_of_forall_not_mem (b := Proc.devRef .tc main_v102_0) _ _ (List.forall_iff_forall_mem.mp (by
    simp only [hostOps7, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the batch-norm region of GIN layer 5

The column sums `s` and the column sums of squares `t` of the layer's pre-activation are divided by the row count
`n` (kept as its float word): the mean is `s / n` and the variance `t / n - (s / n) * (s / n)`. The scale and the shift
are row 3 of the stacked argument matrices, seen as one-row matrices. -/

/-- The mean: the column sum over the row count. -/
theorem host9_mean_at (q : Fin 128) :
    (StableHlo.after (hostOps9 (F := Ideal)) W (Proc.devRef .tc main_v135) : FVec Ideal S1x128 .f32) (ix2 (0 : Fin 1) q)
      = Ideal.div ((W (Proc.devRef .tc main_v133_1) : FVec Ideal S1x128 .f32) (ix2 (0 : Fin 1) q)) (Ideal.ofBits .f32 0x47C35000#32) := by
  have e : (StableHlo.after (hostOps9 (F := Ideal)) W (Proc.devRef .tc main_v135) : FVec Ideal S1x128 .f32)
      = Host.divf (W (Proc.devRef .tc main_v133_1)) (broadcastInDim S1x128 ![] bcast_S_S1x128 (constant (F := Ideal) S_ .f32 0x47C35000#32)) := by
    after_results
  rw [e]
  rfl

/-- The variance: the mean of the squares less the square of the mean. -/
theorem host9_var_at (q : Fin 128) :
    (StableHlo.after (hostOps9 (F := Ideal)) W (Proc.devRef .tc main_v139) : FVec Ideal S1x128 .f32) (ix2 (0 : Fin 1) q)
      = Ideal.div ((W (Proc.devRef .tc main_v133_2) : FVec Ideal S1x128 .f32) (ix2 (0 : Fin 1) q)) (Ideal.ofBits .f32 0x47C35000#32)
        - Ideal.div ((W (Proc.devRef .tc main_v133_1) : FVec Ideal S1x128 .f32) (ix2 (0 : Fin 1) q)) (Ideal.ofBits .f32 0x47C35000#32)
          * Ideal.div ((W (Proc.devRef .tc main_v133_1) : FVec Ideal S1x128 .f32) (ix2 (0 : Fin 1) q)) (Ideal.ofBits .f32 0x47C35000#32) := by
  have e : (StableHlo.after (hostOps9 (F := Ideal)) W (Proc.devRef .tc main_v139) : FVec Ideal S1x128 .f32)
      = subf (Host.divf (W (Proc.devRef .tc main_v133_2)) (broadcastInDim S1x128 ![] bcast_S_S1x128 (constant (F := Ideal) S_ .f32 0x47C35000#32)))
          (mulf (Host.divf (W (Proc.devRef .tc main_v133_1)) (broadcastInDim S1x128 ![] bcast_S_S1x128 (constant (F := Ideal) S_ .f32 0x47C35000#32)))
            (Host.divf (W (Proc.devRef .tc main_v133_1)) (broadcastInDim S1x128 ![] bcast_S_S1x128 (constant (F := Ideal) S_ .f32 0x47C35000#32)))) := by
    after_results
  rw [e]
  rfl

/-- The scale: row 3 of the stacked argument. -/
theorem host9_gamma_at (q : Fin 128) :
    (StableHlo.after (hostOps9 (F := Ideal)) W (Proc.devRef .tc main_v144) : FVec Ideal S1x128 .f32) (ix2 (0 : Fin 1) q)
      = (W (Proc.devRef .tc main_arg10) : FVec Ideal S4x128 .f32) (ix2 (3 : Fin 4) q) := by
  have e : (StableHlo.after (hostOps9 (F := Ideal)) W (Proc.devRef .tc main_v144) : FVec Ideal S1x128 .f32)
      = shapeCast S1x128 (shapeCast S128 (extractStridedSlice S1x128 ![3, 0] (W (Proc.devRef .tc main_arg10) : FVec Ideal S4x128 .f32) slices_S4x128_S1x128_3_0)
          shapeCasts_S1x128_S128) shapeCasts_S128_S1x128 := by
    after_results
    rfl
  rw [e]
  exact (shapeCast_a_1a_apply _ _ _ _).trans ((shapeCast_1a_a_apply _ _ _).trans
    (slice2_axis0_apply 3 _ _ (0 : Fin 1) q (3 : Fin 4) rfl))

/-- The shift: row 3 of the stacked argument. -/
theorem host9_beta_at (q : Fin 128) :
    (StableHlo.after (hostOps9 (F := Ideal)) W (Proc.devRef .tc main_v145) : FVec Ideal S1x128 .f32) (ix2 (0 : Fin 1) q)
      = (W (Proc.devRef .tc main_arg11) : FVec Ideal S4x128 .f32) (ix2 (3 : Fin 4) q) := by
  have e : (StableHlo.after (hostOps9 (F := Ideal)) W (Proc.devRef .tc main_v145) : FVec Ideal S1x128 .f32)
      = shapeCast S1x128 (shapeCast S128 (extractStridedSlice S1x128 ![3, 0] (W (Proc.devRef .tc main_arg11) : FVec Ideal S4x128 .f32) slices_S4x128_S1x128_3_0)
          shapeCasts_S1x128_S128) shapeCasts_S128_S1x128 := by
    after_results
    rfl
  rw [e]
  exact (shapeCast_a_1a_apply _ _ _ _).trans ((shapeCast_1a_a_apply _ _ _).trans
    (slice2_axis0_apply 3 _ _ (0 : Fin 1) q (3 : Fin 4) rfl))

/-- The stretch does not write the pre-activation. -/
theorem host9_keep_y :
    StableHlo.after (hostOps9 (F := Ideal)) W (Proc.devRef .tc main_v133_0) = W (Proc.devRef .tc main_v133_0) :=
  StableHlo.after_of_forall_not_mem (b := Proc.devRef .tc main_v133_0) _ _ (List.forall_iff_forall_mem.mp (by
    simp only [hostOps9, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KChainD.lean ====
/-
  The kernel program's layer 4 read at an index: region 6 leaves the fused affine stage of layer 3's output and its
  neighbours' sums (with slab 2 of the stacked weights and row 2 of the stacked biases), its column sums and column sums of
  squares; the host forms mean and variance; region 7 normalises with row 2 of the stacked scales and shifts and rectifies.
-/
import proofs.«132586_j38087769981032_1_alg».proof.Proof.KChainC
import proofs.«132586_j38087769981032_1_alg».proof.Proof.KGin6
import proofs.«132586_j38087769981032_1_alg».proof.Proof.KBn7
import proofs.«132586_j38087769981032_1_alg».proof.Proof.KHostF
import proofs.«132586_j38087769981032_1_alg».proof.Proof.KHostB

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-! ## Layer 4: regions 6 and 7 -/

/-- Layer 4's fused affine stage, of layer 3's output and the arguments. -/
def y4 : Fin 100000 → Fin 128 → EReal :=
  linK twoW (rd2 (R := 100000) (C := 128) (x3 m ρ c)) (rd2 (R := 100000) (C := 128) (KHost.aggOf128 (x3 m ρ c) (a1 m c) (a2 m c)))
    (fun k q => rd3 (A := 4) (R := 128) (C := 128) (a8 m c) 2 k q) (fun q => twoW * rd2 (R := 4) (C := 128) (a9 m c) 2 q)

/-- Layer 4's output array. -/
def x4 : FVec Ideal S100000x128 .f32 := W16 m ρ c (Proc.devRef .tc main_v115)

theorem in6_x : (V13 m ρ c (Pipeline.arrRef spec6 0) : FVec Ideal S100000x128 .f32) = x3 m ρ c :=
  KHost.host6_keep_x (W12 m ρ c)
theorem in6_a : (V13 m ρ c (Pipeline.arrRef spec6 1) : FVec Ideal S100000x128 .f32) = KHost.aggOf128 (x3 m ρ c) (a1 m c) (a2 m c) := by
  have h := KHost.host6_agg_eq (W12 m ρ c)
  rw [KArgs.W12_arg1 m ρ c, KArgs.W12_arg2 m ρ c] at h
  exact h
theorem in6_w (k q : Fin 128) : (V13 m ρ c (Pipeline.arrRef spec6 2) : FVec Ideal S128x128 .f32) (ix2 k q) = rd3 (A := 4) (R := 128) (C := 128) (a8 m c) 2 k q :=
  (KHost.host6_w_at (W12 m ρ c) k q).trans (congrFun (KArgs.W12_arg8 m ρ c) _)
theorem in6_b (q : Fin 128) : (V13 m ρ c (Pipeline.arrRef spec6 3) : FVec Ideal S1x128 .f32) (ix2 (0 : Fin 1) q) = twoW * rd2 (R := 4) (C := 128) (a9 m c) 2 q :=
  (KHost.host6_b2_at (W12 m ρ c) q).trans (congrArg (fun v : EReal => twoW * v) (congrFun (KArgs.W12_arg9 m ρ c) _))

/-- The fused stage of region 6's inputs, entry by entry, is layer 4's. -/
theorem lin6_eq (r : Fin 100000) (q : Fin 128) :
    KGin.lin (V13 m ρ c (Pipeline.arrRef spec6 0)) (V13 m ρ c (Pipeline.arrRef spec6 1)) (V13 m ρ c (Pipeline.arrRef spec6 2))
      (V13 m ρ c (Pipeline.arrRef spec6 3)) r q = y4 m ρ c r q := by
  rw [in6_x m ρ c, in6_a m ρ c]
  unfold KGin.lin y4 linK rd2
  rw [in6_b m ρ c q]
  exact congrArg (fun v : EReal => v + twoW * rd2 (R := 4) (C := 128) (a9 m c) 2 q)
    (Finset.sum_congr rfl fun k _ => congrArg (fun w : EReal => (twoW * (x3 m ρ c) (ix2 r k) + (KHost.aggOf128 (x3 m ρ c) (a1 m c) (a2 m c)) (ix2 r k)) * w) (in6_w m ρ c k q))

theorem y4_at (r : Fin 100000) (q : Fin 128) :
    rd2 (R := 100000) (C := 128) (W14 m ρ c (Proc.devRef .tc main_v102_0)) r q = y4 m ρ c r q := by
  have e0 : (W14 m ρ c (Proc.devRef .tc main_v102_0) : FVec Ideal S100000x128 .f32) = (dat6 (V13 m ρ) c).arrAt 4 cfg6.N := W14_arr m ρ c 4
  show (W14 m ρ c (Proc.devRef .tc main_v102_0) : FVec Ideal S100000x128 .f32) (ix2 r q) = _
  rw [e0, KGin6.valueY (V13 m ρ) c r q]
  exact lin6_eq m ρ c r q

theorem s4_at (q : Fin 128) :
    rd2 (R := 1) (C := 128) (W14 m ρ c (Proc.devRef .tc main_v102_1)) 0 q = ∑ r : Fin 100000, y4 m ρ c r q := by
  have e0 : (W14 m ρ c (Proc.devRef .tc main_v102_1) : FVec Ideal S1x128 .f32) = (dat6 (V13 m ρ) c).arrAt 5 cfg6.N := W14_arr m ρ c 5
  unfold rd2
  rw [e0, KGin6.valueS (V13 m ρ) c q]
  exact Finset.sum_congr rfl fun r _ => lin6_eq m ρ c r q

theorem ss4_at (q : Fin 128) :
    rd2 (R := 1) (C := 128) (W14 m ρ c (Proc.devRef .tc main_v102_2)) 0 q = ∑ r : Fin 100000, y4 m ρ c r q * y4 m ρ c r q := by
  have e0 : (W14 m ρ c (Proc.devRef .tc main_v102_2) : FVec Ideal S1x128 .f32) = (dat6 (V13 m ρ) c).arrAt 6 cfg6.N := W14_arr m ρ c 6
  unfold rd2
  rw [e0, KGin6.valueSS (V13 m ρ) c q]
  exact Finset.sum_congr rfl fun r _ => by rw [lin6_eq m ρ c r q]

/-- LAYER 4 of the kernel program. -/
theorem layer4 (r : Fin 100000) (q : Fin 128) :
    rd2 (R := 100000) (C := 128) (x4 m ρ c) r q
      = bnrelu epsW (y4 m ρ c) (meanK nW (y4 m ρ c)) (varK nW (y4 m ρ c))
          (fun q => rd2 (R := 4) (C := 128) (a10 m c) 2 q) (fun q => rd2 (R := 4) (C := 128) (a11 m c) 2 q) r q := by
  have e0 : (W16 m ρ c (Proc.devRef .tc main_v115) : FVec Ideal S100000x128 .f32) = (dat7 (V15 m ρ) c).arrAt 5 cfg7.N := W16_arr m ρ c 5
  show (W16 m ρ c (Proc.devRef .tc main_v115) : FVec Ideal S100000x128 .f32) (ix2 r q) = _
  rw [e0, KBn7.value (V15 m ρ) c r q]
  have hy : (V15 m ρ c (Pipeline.arrRef spec7 0) : FVec Ideal S100000x128 .f32) (ix2 r q) = y4 m ρ c r q :=
    (congrFun (KHost.host7_keep_y (W14 m ρ c)) _).trans (y4_at m ρ c r q)
  have hm : (V15 m ρ c (Pipeline.arrRef spec7 1) : FVec Ideal S1x128 .f32) (ix2 (0 : Fin 1) q) = meanK nW (y4 m ρ c) q :=
    (KHost.host7_mean_at (W14 m ρ c) q).trans (congrArg (fun s : EReal => Ideal.div s nW) (s4_at m ρ c q))
  have hv : (V15 m ρ c (Pipeline.arrRef spec7 2) : FVec Ideal S1x128 .f32) (ix2 (0 : Fin 1) q) = varK nW (y4 m ρ c) q :=
    (KHost.host7_var_at (W14 m ρ c) q).trans (congrArg₂ (fun s t : EReal => Ideal.div t nW - Ideal.div s nW * Ideal.div s nW)
      (s4_at m ρ c q) (ss4_at m ρ c q))
  have hg : (V15 m ρ c (Pipeline.arrRef spec7 3) : FVec Ideal S1x128 .f32) (ix2 (0 : Fin 1) q) = rd2 (R := 4) (C := 128) (a10 m c) 2 q :=
    (KHost.host7_gamma_at (W14 m ρ c) q).trans (congrFun (KArgs.W14_arg10 m ρ c) _)
  have hb : (V15 m ρ c (Pipeline.arrRef spec7 4) : FVec Ideal S1x128 .f32) (ix2 (0 : Fin 1) q) = rd2 (R := 4) (C := 128) (a11 m c) 2 q :=
    (KHost.host7_beta_at (W14 m ρ c) q).trans (congrFun (KArgs.W14_arg11 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.KGin8.lean ====
/-
  The value of the linear map of one aggregation layer, with its column statistics.

  Over N = 100000 rows cut into ten blocks of 10000, each grid point forms, for its block of the two inputs x and a
  (the features and their neighbourhood sums), the rows  y = (2·x + a)·w + b  of the [100000,128] output, and adds the
  block's column sums of y and of y·y into two [1,128] accumulators that the first point zeroes.  Read at the extended
  reals this file shows, for the arrays as the region finds them:

    * every entry (r, q) of the first output is  lin x a w b r q = (∑ k, (2·x(r,k) + a(r,k))·w(k,q)) + b(0,q);
    * entry (0, q) of the second output is the sum over ALL 100000 rows r of lin x a w b r q;
    * entry (0, q) of the third output is the sum over all rows of lin x a w b r q · lin x a w b r q.

  The factor 2 is kept as the word 0x40000000 read as an extended real (`two`); it is never evaluated.  The matrix
  product into a zero accumulator is the plain sum over k; the change of float format before it is the identity.
  The accumulators are sums of ten block sums; on the extended reals addition is commutative and associative, so
  regrouping them into one sum over all rows needs no finiteness.  A row past the last is given the value 0 only so that
  rows can be numbered by natural numbers in the induction over the grid points; the final statements range over Fin 100000.
-/
import proofs.«132586_j38087769981032_1_alg».proof.Proof.Gen.KernelIdeal.Frame
import proofs.«132586_j38087769981032_1_alg».proof.Proof.KGinLin
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Tactic

set_option maxRecDepth 16384

noncomputable section

namespace Cert.KernelIdeal.KGin8

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.PlainDot Cert.KernelIdeal.KGin
open scoped BigOperators

/-! ## The arithmetic of one block, entry by entry -/

/-- The block of y the body stores, at row p and column q of the block. -/
theorem pay3_apply (v3 v6 : Vec Ideal S10000x128 .f32) (v10 : Vec Ideal S128x128 .f32) (v13 : Vec Ideal S1x128 .f32)
    (p : Fin 10000) (q : Fin 128) :
    k8_pay3 (F := Ideal) v3 v6 v10 v13 (ix2 p q) = lin v3 v6 v10 v13 p q := by
  unfold k8_pay3 lin
  refine (addf_apply _ _ _).trans (congrArg₂ (· + ·) ?_ ?_)
  · refine (matmul_zero_apply _ rfl none _ _ (ix2 p q)).trans ?_
    unfold mm
    refine Finset.sum_congr rfl fun k _ => ?_
    rw [rowIdx_ix2, colIdx_ix2, shapeCast_self, shapeCast_self, shapeCast_self]
    rfl
  · refine (broadcastTo_1b_ab_apply _ _ p q).trans ?_
    rw [shapeCast_self]

/-- The first accumulator's new contents: what it held plus the block's column sum of y. -/
theorem pay4_apply (v3 v6 : Vec Ideal S10000x128 .f32) (v10 : Vec Ideal S128x128 .f32) (v13 v18 : Vec Ideal S1x128 .f32)
    (u : Fin 1) (q : Fin 128) :
    k8_pay4 (F := Ideal) v3 v6 v10 v13 v18 (ix2 u q)
      = v18 (ix2 u q) + ∑ p : Fin 10000, k8_pay3 (F := Ideal) v3 v6 v10 v13 (ix2 p q) := by
  unfold k8_pay4
  refine (addf_apply _ _ _).trans (congrArg₂ (· + ·) (congrFun (shapeCast_self v18 _) _) ?_)
  refine (shapeCast_a_1a_apply _ _ u q).trans ?_
  exact colsum_apply _ _ _ _ q

/-- The second accumulator's new contents: what it held plus the block's column sum of y·y. -/
theorem pay5_apply (v3 v6 : Vec Ideal S10000x128 .f32) (v10 : Vec Ideal S128x128 .f32) (v13 v24 : Vec Ideal S1x128 .f32)
    (u : Fin 1) (q : Fin 128) :
    k8_pay5 (F := Ideal) v3 v6 v10 v13 v24 (ix2 u q)
      = v24 (ix2 u q) + ∑ p : Fin 10000, k8_pay3 (F := Ideal) v3 v6 v10 v13 (ix2 p q) * k8_pay3 (F := Ideal) v3 v6 v10 v13 (ix2 p q) := by
  unfold k8_pay5
  refine (addf_apply _ _ _).trans (congrArg₂ (· + ·) (congrFun (shapeCast_self v24 _) _) ?_)
  refine (shapeCast_a_1a_apply _ _ u q).trans ?_
  refine (colsum_apply _ _ _ _ q).trans ?_
  rfl

/-- The first point's reset stores the zero word. -/
theorem pay1_apply (j : S1x128.Idx) : k8_pay1 (F := Ideal) j = 0 := Ideal.ofBits_zero_f32
theorem pay2_apply (j : S1x128.Idx) : k8_pay2 (F := Ideal) j = 0 := Ideal.ofBits_zero_f32

/-! ## What the body leaves in each output's buffer, case by case -/

section Pieces

variable {F : FTy → Type} [FloatOps F]

theorem hz : (![0, 0] : Fin 2 → Nat) = fun _ => 0 := funext fun a => by fin_cases a <;> rfl

/-- At the first point the block of y is the one store's payload of the loaded blocks. -/
theorem out_A_4 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond8_0 i) (x0 x1 : Vec F S10000x128 .f32) (x2 : Vec F S128x128 .f32) (x3 : Vec F S1x128 .f32) :
    out8_A_4 c i a1 h1 a2 h2 a3 h3 a4 h4 a5 h5 a6 h6 a7 h7 hc x0 x1 x2 x3 = k8_pay3 x0 x1 x2 x3 := by
  unfold out8_A_4
  rw [View.read_writes_eq_canon _ _ _ (cover8_A_4 c i a1 h1 a2 h2 a3 h3 a4 h4 a5 h5 a6 h6 a7 h7 hc x0 x1 x2 x3)]
  unfold kernelRun8_A
  dsimp only
  try sl_unfold_words
  rw [View.canon_unit_zero hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the first accumulator is reset to the zero block and the block's column sum added to it. -/
theorem out_A_5 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond8_0 i) (x0 x1 : Vec F S10000x128 .f32) (x2 : Vec F S128x128 .f32) (x3 : Vec F S1x128 .f32) :
    out8_A_5 c i a1 h1 a2 h2 a3 h3 a4 h4 a5 h5 a6 h6 a7 h7 hc x0 x1 x2 x3 = k8_pay4 x0 x1 x2 x3 k8_pay1 := by
  unfold out8_A_5
  rw [View.read_writes_eq_canon _ _ _ (cover8_A_5 c i a1 h1 a2 h2 a3 h3 a4 h4 a5 h5 a6 h6 a7 h7 hc x0 x1 x2 x3)]
  unfold kernelRun8_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At the first point the second accumulator likewise. -/
theorem out_A_6 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond8_0 i) (x0 x1 : Vec F S10000x128 .f32) (x2 : Vec F S128x128 .f32) (x3 : Vec F S1x128 .f32) :
    out8_A_6 c i a1 h1 a2 h2 a3 h3 a4 h4 a5 h5 a6 h6 a7 h7 hc x0 x1 x2 x3 = k8_pay5 x0 x1 x2 x3 k8_pay2 := by
  unfold out8_A_6
  rw [View.read_writes_eq_canon _ _ _ (cover8_A_6 c i a1 h1 a2 h2 a3 h3 a4 h4 a5 h5 a6 h6 a7 h7 hc x0 x1 x2 x3)]
  unfold kernelRun8_A
  dsimp only
  try sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S10000x128) hz, View.ld_unit_zero (S := S128x128) hz, View.ld_unit_zero (S := S1x128) hz]

/-- At a later point the block of y is again the one store's payload. -/
theorem out_B_4 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond8_0 i) (x0 x1 : Vec F S10000x128 .f32) (x2 : Vec F S128x128 .f32) (x3 : Vec F S1x128 .f32) (xo5 xo6 : Vec F S1x128 .f32) :
    out8_B_4 c i a1 h1 a2 h2 a3 h3 a4 h4 a5 h5 a6 h6 a7 h7 hc x0 x1 x2 x3 xo5 xo6 = k8_pay3 x0 x1 x2 x3 := by
  unfold out8_B_4
  rw [View.read_writes_eq_canon _ _ _ (cover8_B_4 c i a1 h1 a2 h2 a3 h3 a4 h4 a5 h5 a6 h6 a7 h7 hc x0 x1 x2 x3 xo5 xo6)]
  unfold kernelRun8_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the first accumulator adds the block's column sum to what the point before left. -/
theorem out_B_5 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond8_0 i) (x0 x1 : Vec F S10000x128 .f32) (x2 : Vec F S128x128 .f32) (x3 : Vec F S1x128 .f32) (xo5 xo6 : Vec F S1x128 .f32) :
    out8_B_5 c i a1 h1 a2 h2 a3 h3 a4 h4 a5 h5 a6 h6 a7 h7 hc x0 x1 x2 x3 xo5 xo6 = k8_pay4 x0 x1 x2 x3 xo5 := by
  unfold out8_B_5
  rw [View.read_writes_eq_canon _ _ _ (cover8_B_5 c i a1 h1 a2 h2 a3 h3 a4 h4 a5 h5 a6 h6 a7 h7 hc x0 x1 x2 x3 xo5 xo6)]
  unfold kernelRun8_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- At a later point the second accumulator likewise. -/
theorem out_B_6 (c : Dev nD) (i : grid8.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond8_0 i) (x0 x1 : Vec F S10000x128 .f32) (x2 : Vec F S128x128 .f32) (x3 : Vec F S1x128 .f32) (xo5 xo6 : Vec F S1x128 .f32) :
    out8_B_6 c i a1 h1 a2 h2 a3 h3 a4 h4 a5 h5 a6 h6 a7 h7 hc x0 x1 x2 x3 xo5 xo6 = k8_pay5 x0 x1 x2 x3 xo6 := by
  unfold out8_B_6
  rw [View.read_writes_eq_canon _ _ _ (cover8_B_6 c i a1 h1 a2 h2 a3 h3 a4 h4 a5 h5 a6 h6 a7 h7 hc x0 x1 x2 x3 xo5 xo6)]
  unfold kernelRun8_B
  dsimp only
  try sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

end Pieces

/-! ## The blocks are rows of the arrays -/

variable (V : (c : Dev nD) → (b : Ref sig .tc) → Buf (Elt Ideal) ((c : Thread nD τ).loc b))

/-- The two inputs, the weight and the bias as the region finds them. -/
abbrev xArr (c : Dev nD) : (⟨2, ![100000, 128]⟩ : Shape).Idx → EReal := V c (Pipeline.arrRef spec8 0)
abbrev aArr (c : Dev nD) : (⟨2, ![100000, 128]⟩ : Shape).Idx → EReal := V c (Pipeline.arrRef spec8 1)
abbrev wArr (c : Dev nD) : (⟨2, ![128, 128]⟩ : Shape).Idx → EReal := V c (Pipeline.arrRef spec8 2)
abbrev bArr (c : Dev nD) : (⟨2, ![1, 128]⟩ : Shape).Idx → EReal := V c (Pipeline.arrRef spec8 3)

/-- The four input blocks at point t. -/
abbrev B0 (c : Dev nD) (t : Fin cfg8.N) : Vec Ideal S10000x128 .f32 := iblk8 V c 0 t
abbrev B1 (c : Dev nD) (t : Fin cfg8.N) : Vec Ideal S10000x128 .f32 := iblk8 V c 1 t
abbrev B2 (c : Dev nD) (t : Fin cfg8.N) : Vec Ideal S128x128 .f32 := iblk8 V c 2 t
abbrev B3 (c : Dev nD) (t : Fin cfg8.N) : Vec Ideal S1x128 .f32 := iblk8 V c 3 t

/-- The windows' block indices over the grid: the row-blocked windows move with the point, the others stay at 0. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- Row p of the first input's block at point t is row 10000·t + p of the array. -/
theorem blk_0 (c : Dev nD) (t : Fin cfg8.N) (p : Fin 10000) (k : Fin 128) (r : Fin 100000) (hr : r.val = t.val * 10000 + p.val) :
    B0 V c t (ix2 p k) = xArr V c (ix2 r k) := by
  obtain ⟨e0, e1, -⟩ := idx_facts t
  unfold B0 iblk8
  rw [View.read_apply]
  show V c (Pipeline.arrRef spec8 0) _ = V c (Pipeline.arrRef spec8 0) _
  congr 1
  funext a
  apply Fin.ext
  match a with
  | ⟨0, _⟩ => show win8_0.index t 0 * 10000 + 1 * p.val = r.val; rw [e0, hr]; omega
  | ⟨1, _⟩ => show win8_0.index t 1 * 128 + 1 * k.val = k.val; rw [e1]; omega

/-- The same for the second input. -/
theorem blk_1 (c : Dev nD) (t : Fin cfg8.N) (p : Fin 10000) (k : Fin 128) (r : Fin 100000) (hr : r.val = t.val * 10000 + p.val) :
    B1 V c t (ix2 p k) = aArr V c (ix2 r k) := by
  obtain ⟨-, -, e0, e1, -⟩ := idx_facts t
  unfold B1 iblk8
  rw [View.read_apply]
  show V c (Pipeline.arrRef spec8 1) _ = V c (Pipeline.arrRef spec8 1) _
  congr 1
  funext a
  apply Fin.ext
  match a with
  | ⟨0, _⟩ => show win8_1.index t 0 * 10000 + 1 * p.val = r.val; rw [e0, hr]; omega
  | ⟨1, _⟩ => show win8_1.index t 1 * 128 + 1 * k.val = k.val; rw [e1]; omega

/-- The weight's one block is the whole weight. -/
theorem blk_2 (c : Dev nD) (t : Fin cfg8.N) (j : S128x128.Idx) : B2 V c t j = wArr V c j := by
  obtain ⟨-, -, -, -, e0, e1, -⟩ := idx_facts t
  unfold B2 iblk8
  rw [View.read_apply]
  show V c (Pipeline.arrRef spec8 2) _ = V c (Pipeline.arrRef spec8 2) _
  congr 1
  funext a
  apply Fin.ext
  match a with
  | ⟨0, _⟩ => show win8_2.index t 0 * 128 + 1 * (j 0).val = (j 0).val; rw [e0]; omega
  | ⟨1, _⟩ => show win8_2.index t 1 * 128 + 1 * (j 1).val = (j 1).val; rw [e1]; omega

/-- The bias's one block is the whole bias. -/
theorem blk_3 (c : Dev nD) (t : Fin cfg8.N) (j : S1x128.Idx) : B3 V c t j = bArr V c j := by
  obtain ⟨-, -, -, -, -, -, e0, e1, -⟩ := idx_facts t
  unfold B3 iblk8
  rw [View.read_apply]
  show V c (Pipeline.arrRef spec8 3) _ = V c (Pipeline.arrRef spec8 3) _
  congr 1
  funext a
  apply Fin.ext
  match a with
  | ⟨0, _⟩ => show win8_3.index t 0 * 1 + 1 * (j 0).val = (j 0).val; rw [e0]; omega
  | ⟨1, _⟩ => show win8_3.index t 1 * 128 + 1 * (j 1).val = (j 1).val; rw [e1]; omega

/-! ## The rows of y, numbered by natural numbers -/

/-- Entry (r, q) of y over the arrays as the region finds them. -/
abbrev Y (c : Dev nD) (r : Fin 100000) (q : Fin 128) : EReal := lin (xArr V c) (aArr V c) (wArr V c) (bArr V c) r q

/-- The same over a natural row number, 0 past the last row. -/
def Yn (c : Dev nD) (q : Fin 128) (i : ℕ) : EReal := if h : i < 100000 then Y V c ⟨i, h⟩ q else 0

theorem Yn_val (c : Dev nD) (q : Fin 128) (r : Fin 100000) : Yn V c q r.val = Y V c r q := by
  unfold Yn; rw [dif_pos r.isLt]

/-- Row p of the block of y at point t is row 10000·t + p of y. -/
theorem pay3_blocks (c : Dev nD) (t : Fin cfg8.N) (p : Fin 10000) (q : Fin 128) :
    k8_pay3 (F := Ideal) (B0 V c t) (B1 V c t) (B2 V c t) (B3 V c t) (ix2 p q) = Yn V c q (t.val * 10000 + p.val) := by
  have hN : t.val < 10 := lt_of_lt_of_eq t.isLt (show cfg8.N = 10 from N_8)
  have hr : t.val * 10000 + p.val < 100000 := by have := p.isLt; omega
  refine (pay3_apply (B0 V c t) (B1 V c t) (B2 V c t) (B3 V c t) p q).trans ?_
  unfold Yn
  rw [dif_pos hr]
  exact lin_congr (B0 V c t) (B1 V c t) (xArr V c) (aArr V c) (B2 V c t) (wArr V c) (B3 V c t) (bArr V c) p ⟨_, hr⟩ q
    (fun k => blk_0 V c t p k ⟨_, hr⟩ rfl) (fun k => blk_1 V c t p k ⟨_, hr⟩ rfl) (fun k => blk_2 V c t (ix2 k q)) (blk_3 V c t (ix2 0 q))

/-- The same at any index of the block. -/
theorem pay3_blocks_idx (c : Dev nD) (t : Fin cfg8.N) (j : S10000x128.Idx) :
    k8_pay3 (F := Ideal) (B0 V c t) (B1 V c t) (B2 V c t) (B3 V c t) j = Yn V c ⟨(j 1).val, idx2_lt1 j⟩ (t.val * 10000 + (j 0).val) := by
  obtain ⟨p, q, rfl⟩ : ∃ (p : Fin 10000) (q : Fin 128), j = ix2 p q := ⟨j 0, j 1, eq_ix2 j⟩
  exact pay3_blocks V c t p q

/-- The column sum of block j of y, and of its squares. -/
def colsum (c : Dev nD) (q : Fin 128) (j : ℕ) : EReal := ∑ i ∈ Finset.range 10000, Yn V c q (j * 10000 + i)
def colsumsq (c : Dev nD) (q : Fin 128) (j : ℕ) : EReal := ∑ i ∈ Finset.range 10000, Yn V c q (j * 10000 + i) * Yn V c q (j * 10000 + i)

theorem blocksum (c : Dev nD) (t : Fin cfg8.N) (q : Fin 128) :
    ∑ p : Fin 10000, k8_pay3 (F := Ideal) (B0 V c t) (B1 V c t) (B2 V c t) (B3 V c t) (ix2 p q) = colsum V c q t.val :=
  (Finset.sum_congr rfl fun p _ => pay3_blocks V c t p q).trans
    (Fin.sum_univ_eq_sum_range (fun i => Yn V c q (t.val * 10000 + i)) 10000)

theorem blocksumsq (c : Dev nD) (t : Fin cfg8.N) (q : Fin 128) :
    ∑ p : Fin 10000, k8_pay3 (F := Ideal) (B0 V c t) (B1 V c t) (B2 V c t) (B3 V c t) (ix2 p q) * k8_pay3 (F := Ideal) (B0 V c t) (B1 V c t) (B2 V c t) (B3 V c t) (ix2 p q)
      = colsumsq V c q t.val :=
  (Finset.sum_congr rfl fun p _ => by
      show _ * _ = Yn V c q (t.val * 10000 + p.val) * Yn V c q (t.val * 10000 + p.val)
      rw [pay3_blocks V c t p q]).trans
    (Fin.sum_univ_eq_sum_range (fun i => Yn V c q (t.val * 10000 + i) * Yn V c q (t.val * 10000 + i)) 10000)

/-! ## The outputs' buffers after each point -/

/-- After every point the first output's buffer holds the point's block of y. -/
theorem outs4 (c : Dev nD) (t : Fin cfg8.N) :
    (outsAt8 V c t.val t.isLt).1 = k8_pay3 (F := Ideal) (B0 V c t) (B1 V c t) (B2 V c t) (B3 V c t) := by
  by_cases h0 : t.val % 10 = 0
  · rw [outsAt8_A V c t h0]
    dsimp only
    exact out_A_4 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (B0 V c t) (B1 V c t) (B2 V c t) (B3 V c t)
  · rw [outsAt8_B V c t h0]
    dsimp only
    exact out_B_4 (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (B0 V c t) (B1 V c t) (B2 V c t) (B3 V c t)
      (outsAt8 V c (t.val - 1) (Nat.lt_of_le_of_lt (Nat.sub_le _ _) t.isLt)).2.1 (outsAt8 V c (t.val - 1) (Nat.lt_of_le_of_lt (Nat.sub_le _ _) t.isLt)).2.2

/-- After point n the first accumulator holds the column sums of blocks 0 … n of y, added up. -/
theorem acc5 (c : Dev nD) : ∀ (n : ℕ) (h : n < cfg8.N) (u : Fin 1) (q : Fin 128),
    (outsAt8 V c n h).2.1 (ix2 u q) = ∑ j ∈ Finset.range (n + 1), colsum V c q j
  | 0, h, u, q => by
    rw [show outsAt8 V c 0 h = _ from outsAt8_A V c ⟨0, h⟩ rfl]
    dsimp only
    refine (congrFun (out_A_5 (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) (ms8_5 ⟨0, h⟩) (hs8_5 ⟨0, h⟩) (ms8_6 ⟨0, h⟩) (hs8_6 ⟨0, h⟩) ((hcond8_0 ⟨0, h⟩).mpr rfl) (B0 V c ⟨0, h⟩) (B1 V c ⟨0, h⟩) (B2 V c ⟨0, h⟩) (B3 V c ⟨0, h⟩)) (ix2 u q)).trans ?_
    refine (pay4_apply (B0 V c ⟨0, h⟩) (B1 V c ⟨0, h⟩) (B2 V c ⟨0, h⟩) (B3 V c ⟨0, h⟩) (k8_pay1 (F := Ideal)) u q).trans ?_
    rw [pay1_apply, zero_add]
    exact (blocksum V c ⟨0, h⟩ q).trans (Finset.sum_range_one (fun j => colsum V c q j)).symm
  | n + 1, h, u, q => by
    have hN : cfg8.N = 10 := N_8
    have hB : ¬(⟨n + 1, h⟩ : Fin cfg8.N).val % 10 = 0 := by dsimp only; omega
    rw [show outsAt8 V c (n + 1) h = _ from outsAt8_B V c ⟨n + 1, h⟩ hB]
    dsimp only
    refine (congrFun (out_B_5 (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (ms8_5 ⟨n + 1, h⟩) (hs8_5 ⟨n + 1, h⟩) (ms8_6 ⟨n + 1, h⟩) (hs8_6 ⟨n + 1, h⟩) (fun h' => hB ((hcond8_0 ⟨n + 1, h⟩).mp h')) (B0 V c ⟨n + 1, h⟩) (B1 V c ⟨n + 1, h⟩) (B2 V c ⟨n + 1, h⟩) (B3 V c ⟨n + 1, h⟩) (outsAt8 V c n (Nat.lt_of_succ_lt h)).2.1 (outsAt8 V c n (Nat.lt_of_succ_lt h)).2.2) (ix2 u q)).trans ?_
    refine (pay4_apply (B0 V c ⟨n + 1, h⟩) (B1 V c ⟨n + 1, h⟩) (B2 V c ⟨n + 1, h⟩) (B3 V c ⟨n + 1, h⟩) (outsAt8 V c n (Nat.lt_of_succ_lt h)).2.1 u q).trans ?_
    refine (congrArg₂ (· + ·) (acc5 c n (Nat.lt_of_succ_lt h) u q) (blocksum V c ⟨n + 1, h⟩ q)).trans ?_
    exact (Finset.sum_range_succ (fun j => colsum V c q j) (n + 1)).symm

/-- After point n the second accumulator holds the column sums of the squares of blocks 0 … n, added up. -/
theorem acc6 (c : Dev nD) : ∀ (n : ℕ) (h : n < cfg8.N) (u : Fin 1) (q : Fin 128),
    (outsAt8 V c n h).2.2 (ix2 u q) = ∑ j ∈ Finset.range (n + 1), colsumsq V c q j
  | 0, h, u, q => by
    rw [show outsAt8 V c 0 h = _ from outsAt8_A V c ⟨0, h⟩ rfl]
    dsimp only
    refine (congrFun (out_A_6 (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) (ms8_5 ⟨0, h⟩) (hs8_5 ⟨0, h⟩) (ms8_6 ⟨0, h⟩) (hs8_6 ⟨0, h⟩) ((hcond8_0 ⟨0, h⟩).mpr rfl) (B0 V c ⟨0, h⟩) (B1 V c ⟨0, h⟩) (B2 V c ⟨0, h⟩) (B3 V c ⟨0, h⟩)) (ix2 u q)).trans ?_
    refine (pay5_apply (B0 V c ⟨0, h⟩) (B1 V c ⟨0, h⟩) (B2 V c ⟨0, h⟩) (B3 V c ⟨0, h⟩) (k8_pay2 (F := Ideal)) u q).trans ?_
    rw [pay2_apply, zero_add]
    exact (blocksumsq V c ⟨0, h⟩ q).trans (Finset.sum_range_one (fun j => colsumsq V c q j)).symm
  | n + 1, h, u, q => by
    have hN : cfg8.N = 10 := N_8
    have hB : ¬(⟨n + 1, h⟩ : Fin cfg8.N).val % 10 = 0 := by dsimp only; omega
    rw [show outsAt8 V c (n + 1) h = _ from outsAt8_B V c ⟨n + 1, h⟩ hB]
    dsimp only
    refine (congrFun (out_B_6 (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (ms8_5 ⟨n + 1, h⟩) (hs8_5 ⟨n + 1, h⟩) (ms8_6 ⟨n + 1, h⟩) (hs8_6 ⟨n + 1, h⟩) (fun h' => hB ((hcond8_0 ⟨n + 1, h⟩).mp h')) (B0 V c ⟨n + 1, h⟩) (B1 V c ⟨n + 1, h⟩) (B2 V c ⟨n + 1, h⟩) (B3 V c ⟨n + 1, h⟩) (outsAt8 V c n (Nat.lt_of_succ_lt h)).2.1 (outsAt8 V c n (Nat.lt_of_succ_lt h)).2.2) (ix2 u q)).trans ?_
    refine (pay5_apply (B0 V c ⟨n + 1, h⟩) (B1 V c ⟨n + 1, h⟩) (B2 V c ⟨n + 1, h⟩) (B3 V c ⟨n + 1, h⟩) (outsAt8 V c n (Nat.lt_of_succ_lt h)).2.2 u q).trans ?_
    refine (congrArg₂ (· + ·) (acc6 c n (Nat.lt_of_succ_lt h) u q) (blocksumsq V c ⟨n + 1, h⟩ q)).trans ?_
    exact (Finset.sum_range_succ (fun j => colsumsq V c q j) (n + 1)).symm

/-! ## The arrays after the run -/

/-- What the first output array ends holding: y, row by row. -/
def G4 (c : Dev nD) : Vec Ideal S100000x128 .f32 := fun i => Yn V c ⟨(i 1).val, idx2_lt1 i⟩ (i 0).val

theorem G4_apply (c : Dev nD) (i : S100000x128.Idx) (q : Fin 128) (n : ℕ) (h1 : (i 1).val = q.val) (h0 : (i 0).val = n) :
    G4 V c i = Yn V c q n := by
  unfold G4
  rw [h0]
  exact congrArg (fun q' => Yn V c q' n) (Fin.ext h1)

/-- What each accumulator array ends holding: the ten block sums added up. -/
def G5 (c : Dev nD) : Vec Ideal S1x128 .f32 := fun i => ∑ j ∈ Finset.range 10, colsum V c ⟨(i 1).val, idx2_lt1 i⟩ j
def G6 (c : Dev nD) : Vec Ideal S1x128 .f32 := fun i => ∑ j ∈ Finset.range 10, colsumsq V c ⟨(i 1).val, idx2_lt1 i⟩ j

/-- Every point writes back its block of y: block t of the rows of y. -/
theorem flushed4 (c : Dev nD) (t : Fin cfg8.N) :
    (dat8 V c).flushed 4 t = ((cfg8.win 4).blk t).view.read (Elt Ideal) (G4 V c) := by
  show (cfg8.win 4).cut (grid8.coords t) ((dat8 V c).after 4 t) = _
  rw [after8_4, outs4 V c t]
  obtain ⟨-, -, -, -, -, -, -, -, e0, e1, -⟩ := idx_facts t
  funext j
  refine (pay3_blocks_idx V c t _).trans ?_
  rw [View.read_apply]
  show _ = G4 V c (((cfg8.win 4).blk t).view.emb j)
  refine (G4_apply V c (((cfg8.win 4).blk t).view.emb j) _ _ ?_ ?_).symm
  · show win8_4.index t (1 : Fin 2) * 128 + 1 * (j 1).val = (j 1).val; rw [e1]; omega
  · show win8_4.index t (0 : Fin 2) * 10000 + 1 * (j 0).val = t.val * 10000 + (j 0).val; rw [e0]; omega

/-- An index of the first output array is in point t's block iff its coordinates are in the block's ranges. -/
theorem mem_blk4 (t : Fin cfg8.N) (i : S100000x128.Idx) :
    i ∈ ((cfg8.win 4).blk t).view.set ↔ ∀ a : Fin 2, win8_4.index t a * S10000x128.size a ≤ (i a).val ∧ (i a).val < win8_4.index t a * S10000x128.size a + S10000x128.size a := by
  show i ∈ ((View.whole main_v133_0).slice (win8_4.rect t)).set ↔ _
  rw [View.set_slice_whole, Rect.mem_set_unit]
  exact Iff.rfl

/-- Row r lies in the block of point r / 10000. -/
theorem cover4 (i : S100000x128.Idx) : ∃ t : Fin cfg8.N, (cfg8.win 4).flush t = true ∧ i ∈ ((cfg8.win 4).blk t).view.set := by
  have hi0 : (i 0).val < 100000 := (i 0).isLt
  have hi1 : (i 1).val < 128 := (i 1).isLt
  have hN : cfg8.N = 10 := N_8
  refine ⟨⟨(i 0).val / 10000, by rw [hN]; omega⟩, flush8_4 _, ?_⟩
  rw [mem_blk4]
  obtain ⟨-, -, -, -, -, -, -, -, e0, e1, -⟩ := idx_facts ⟨(i 0).val / 10000, by rw [hN]; omega⟩
  intro a
  match a with
  | ⟨0, _⟩ => show win8_4.index _ (0 : Fin 2) * 10000 ≤ (i 0).val ∧ (i 0).val < win8_4.index _ (0 : Fin 2) * 10000 + 10000; rw [e0]; dsimp only; omega
  | ⟨1, _⟩ => show win8_4.index _ (1 : Fin 2) * 128 ≤ (i 1).val ∧ (i 1).val < win8_4.index _ (1 : Fin 2) * 128 + 128; rw [e1]; omega

/-- The first output array after the run. -/
theorem final4 (c : Dev nD) : (dat8 V c).arrAt 4 cfg8.N = G4 V c :=
  (dat8 V c).arrAt_eq_of_cover 4 (G4 V c) (fun t _ => flushed4 V c t) cover4

/-- The accumulators are written back once, after the last point, whole. -/
theorem flushed5 (c : Dev nD) (t : Fin cfg8.N) (hf : (cfg8.win 5).flush t = true) :
    (dat8 V c).flushed 5 t = ((cfg8.win 5).blk t).view.read (Elt Ideal) (G5 V c) := by
  have hN : cfg8.N = 10 := N_8
  have h9 : t.val = 9 := by have := (flush8_5 t).mp hf; have := t.isLt; omega
  obtain rfl : t = t8_9 := Fin.ext h9
  show (cfg8.win 5).cut (grid8.coords t8_9) ((dat8 V c).after 5 t8_9) = _
  rw [after8_5]
  have hG : (outsAt8 V c t8_9.val t8_9.isLt).2.1 = G5 V c := by
    funext j
    obtain ⟨u, q, rfl⟩ : ∃ (u : Fin 1) (q : Fin 128), j = ix2 u q := ⟨j 0, j 1, eq_ix2 j⟩
    exact acc5 V c 9 _ u q
  rw [hG]
  obtain ⟨-, -, -, -, -, -, -, -, -, -, e0, e1, -⟩ := idx_facts t8_9
  have hz' : (fun a => win8_5.index t8_9 a * main_v133_1.ty.shape.size a) = fun _ => 0 := funext fun a => by
    match a with
    | ⟨0, _⟩ => show win8_5.index t8_9 0 * 1 = 0; rw [e0]
    | ⟨1, _⟩ => show win8_5.index t8_9 1 * 128 = 0; rw [e1]
  exact (Memref.read_access_unit_zero (Elt Ideal) main_v133_1 hz' (fun a => by rw [congrFun hz' a]; simp) (G5 V c)).symm

theorem flushed6 (c : Dev nD) (t : Fin cfg8.N) (hf : (cfg8.win 6).flush t = true) :
    (dat8 V c).flushed 6 t = ((cfg8.win 6).blk t).view.read (Elt Ideal) (G6 V c) := by
  have hN : cfg8.N = 10 := N_8
  have h9 : t.val = 9 := by have := (flush8_6 t).mp hf; have := t.isLt; omega
  obtain rfl : t = t8_9 := Fin.ext h9
  show (cfg8.win 6).cut (grid8.coords t8_9) ((dat8 V c).after 6 t8_9) = _
  rw [after8_6]
  have hG : (outsAt8 V c t8_9.val t8_9.isLt).2.2 = G6 V c := by
    funext j
    obtain ⟨u, q, rfl⟩ : ∃ (u : Fin 1) (q : Fin 128), j = ix2 u q := ⟨j 0, j 1, eq_ix2 j⟩
    exact acc6 V c 9 _ u q
  rw [hG]
  obtain ⟨-, -, -, -, -, -, -, -, -, -, -, -, e0, e1⟩ := idx_facts t8_9
  have hz' : (fun a => win8_6.index t8_9 a * main_v133_2.ty.shape.size a) = fun _ => 0 := funext fun a => by
    match a with
    | ⟨0, _⟩ => show win8_6.index t8_9 0 * 1 = 0; rw [e0]
    | ⟨1, _⟩ => show win8_6.index t8_9 1 * 128 = 0; rw [e1]
  exact (Memref.read_access_unit_zero (Elt Ideal) main_v133_2 hz' (fun a => by rw [congrFun hz' a]; simp) (G6 V c)).symm

/-- The last point's block of an accumulator array is the whole array. -/
theorem cover5 (i : S1x128.Idx) : ∃ t : Fin cfg8.N, (cfg8.win 5).flush t = true ∧ i ∈ ((cfg8.win 5).blk t).view.set := by
  refine ⟨t8_9, (flush8_5 t8_9).mpr rfl, ?_⟩
  show i ∈ ((View.whole main_v133_1).slice (win8_5.rect t8_9)).set
  rw [View.set_slice_whole, Rect.mem_set_unit]
  have h0 : (i 0 : Nat) < 1 := (i 0).isLt
  have h1 : (i 1 : Nat) < 128 := (i 1).isLt
  obtain ⟨-, -, -, -, -, -, -, -, -, -, e0, e1, -⟩ := idx_facts t8_9
  intro a
  match a with
  | ⟨0, _⟩ => show win8_5.index t8_9 0 * 1 ≤ (i 0 : Nat) ∧ (i 0 : Nat) < win8_5.index t8_9 0 * 1 + 1; rw [e0]; omega
  | ⟨1, _⟩ => show win8_5.index t8_9 1 * 128 ≤ (i 1 : Nat) ∧ (i 1 : Nat) < win8_5.index t8_9 1 * 128 + 128; rw [e1]; omega

theorem cover6 (i : S1x128.Idx) : ∃ t : Fin cfg8.N, (cfg8.win 6).flush t = true ∧ i ∈ ((cfg8.win 6).blk t).view.set := by
  refine ⟨t8_9, (flush8_6 t8_9).mpr rfl, ?_⟩
  show i ∈ ((View.whole main_v133_2).slice (win8_6.rect t8_9)).set
  rw [View.set_slice_whole, Rect.mem_set_unit]
  have h0 : (i 0 : Nat) < 1 := (i 0).isLt
  have h1 : (i 1 : Nat) < 128 := (i 1).isLt
  obtain ⟨-, -, -, -, -, -, -, -, -, -, -, -, e0, e1⟩ := idx_facts t8_9
  intro a
  match a with
  | ⟨0, _⟩ => show win8_6.index t8_9 0 * 1 ≤ (i 0 : Nat) ∧ (i 0 : Nat) < win8_6.index t8_9 0 * 1 + 1; rw [e0]; omega
  | ⟨1, _⟩ => show win8_6.index t8_9 1 * 128 ≤ (i 1 : Nat) ∧ (i 1 : Nat) < win8_6.index t8_9 1 * 128 + 128; rw [e1]; omega

theorem final5 (c : Dev nD) : (dat8 V c).arrAt 5 cfg8.N = G5 V c :=
  (dat8 V c).arrAt_eq_of_cover 5 (G5 V c) (flushed5 V c) cover5
theorem final6 (c : Dev nD) : (dat8 V c).arrAt 6 cfg8.N = G6 V c :=
  (dat8 V c).arrAt_eq_of_cover 6 (G6 V c) (flushed6 V c) cover6

/-! ## The three results -/

/-- Every entry of the first output array is the affine map's entry. -/
theorem valueY (c : Dev nD) (r : Fin 100000) (q : Fin 128) :
    ((dat8 V c).arrAt 4 cfg8.N : S100000x128.Idx → Ideal .f32) (ix2 r q)
      = lin (R := 100000) (K := 128) (V c (Pipeline.arrRef spec8 0)) (V c (Pipeline.arrRef spec8 1)) (V c (Pipeline.arrRef spec8 2)) (V c (Pipeline.arrRef spec8 3)) r q := by
  rw [final4 V c]
  exact (G4_apply V c (ix2 r q) q r.val rfl rfl).trans (Yn_val V c q r)

/-- Every entry of the second output array is the column sum of y over all 100000 rows. -/
theorem valueS (c : Dev nD) (q : Fin 128) :
    ((dat8 V c).arrAt 5 cfg8.N : S1x128.Idx → Ideal .f32) (ix2 (0 : Fin 1) q)
      = ∑ r : Fin 100000, lin (R := 100000) (K := 128) (V c (Pipeline.arrRef spec8 0)) (V c (Pipeline.arrRef spec8 1)) (V c (Pipeline.arrRef spec8 2)) (V c (Pipeline.arrRef spec8 3)) r q := by
  rw [final5 V c]
  show ∑ j ∈ Finset.range 10, colsum V c q j = _
  unfold colsum
  rw [sum_blocks (Yn V c q)]
  exact Finset.sum_congr rfl fun r _ => Yn_val V c q r

/-- Every entry of the third output array is the column sum of y·y over all 100000 rows. -/
theorem valueSS (c : Dev nD) (q : Fin 128) :
    ((dat8 V c).arrAt 6 cfg8.N : S1x128.Idx → Ideal .f32) (ix2 (0 : Fin 1) q)
      = ∑ r : Fin 100000, lin (R := 100000) (K := 128) (V c (Pipeline.arrRef spec8 0)) (V c (Pipeline.arrRef spec8 1)) (V c (Pipeline.arrRef spec8 2)) (V c (Pipeline.arrRef spec8 3)) r q * lin (R := 100000) (K := 128) (V c (Pipeline.arrRef spec8 0)) (V c (Pipeline.arrRef spec8 1)) (V c (Pipeline.arrRef spec8 2)) (V c (Pipeline.arrRef spec8 3)) r q := by
  rw [final6 V c]
  show ∑ j ∈ Finset.range 10, colsumsq V c q j = _
  unfold colsumsq
  rw [sum_blocks (fun i => Yn V c q i * Yn V c q i)]
  exact Finset.sum_congr rfl fun r _ => by
    show Yn V c q r.val * Yn V c q r.val = _
    rw [Yn_val V c q r]

end Cert.KernelIdeal.KGin8

end
-- ==== Proof.KBn9.lean ====
/- The value of batch normalisation followed by ReLU, region 9 of the idealized kernel program, read at the extended reals.

   The region takes a [100000,128] array y and four [1,128] rows (mean, var, gamma, beta) and writes a [100000,128] array,
   in 10 row blocks of 10000 rows each: block t is rows 10000·t … 10000·t + 9999. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn9

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x128 .f32) (v5 : Vec Ideal S10000x128 .f32) (v7 v13 v17 : Vec Ideal S1x128 .f32)
    (r : Fin 10000) (q : Fin 128) :
    k9_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k9_pay1
  simp only [shapeCast_self, maximumf_apply, addf_apply, mulf_apply, subf_apply, broadcast_apply, broadcastTo_1b_ab_apply]
  rfl

/-! ## The whole array as one function of the five input arrays -/

/-- The column of an index of the [100000,128] array, as a number below 128. -/
def col (i : S100000x128.Idx) : Fin 128 := ⟨(i 1).val, idx2_lt1 i⟩

/-- Normalise, scale, shift, clamp at zero: entry `i` from `y` at `i` and the four rows at `i`'s column. -/
def G (y : S100000x128.Idx → Elt Ideal .f32) (mean var gamma beta : S1x128.Idx → Elt Ideal .f32) :
    S100000x128.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S100000x128.Idx → Elt Ideal .f32) (mean var gamma beta : S1x128.Idx → Elt Ideal .f32)
    (r : Fin 100000) (q : Fin 128) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S10000x128 .f32) (x1 x2 x3 x4 : Vec Ideal S1x128 .f32)
    (y : S100000x128.Idx → Elt Ideal .f32) (mean var gamma beta : S1x128.Idx → Elt Ideal .f32)
    (emb : S10000x128.Idx → S100000x128.Idx)
    (hc : ∀ (p : Fin 10000) (q : Fin 128), col (emb (ix2 p q)) = q)
    (e0 : ∀ (p : Fin 10000) (q : Fin 128), x0 (ix2 p q) = y (emb (ix2 p q)))
    (e1 : ∀ q : Fin 128, x1 (ix2 (0 : Fin 1) q) = mean (ix2 (0 : Fin 1) q))
    (e2 : ∀ q : Fin 128, x2 (ix2 (0 : Fin 1) q) = var (ix2 (0 : Fin 1) q))
    (e3 : ∀ q : Fin 128, x3 (ix2 (0 : Fin 1) q) = gamma (ix2 (0 : Fin 1) q))
    (e4 : ∀ q : Fin 128, x4 (ix2 (0 : Fin 1) q) = beta (ix2 (0 : Fin 1) q)) :
    out9_5 (F := Ideal) x0 x1 x2 x3 x4 = fun j => G y mean var gamma beta (emb j) := by
  unfold out9_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Entry (p, q) of y's block at point `t` is y at row 10000·t + p, column q. -/
theorem yblk_apply (c : Dev nD) (t : Fin cfg9.N) (p : Fin 10000) (q : Fin 128) (i : S100000x128.Idx)
    (h0 : (i 0).val = t.val * 10000 + p.val) (h1 : (i 1).val = q.val) :
    (iblk9 V c 0 t : Vec Ideal S10000x128 .f32) (ix2 p q) = (V c (Pipeline.arrRef spec9 0) : S100000x128.Idx → Elt Ideal .f32) i := by
  obtain ⟨e0, e1, -⟩ := idx_facts t
  have he : (((cfg9.win 0).blk t).view.emb (ix2 p q) : S100000x128.Idx) = i := by
    funext a
    apply Fin.ext
    match a with
    | ⟨0, _⟩ => show win9_0.index t (0 : Fin 2) * 10000 + 1 * p.val = (i 0).val; rw [e0, h0]; omega
    | ⟨1, _⟩ => show win9_0.index t (1 : Fin 2) * 128 + 1 * q.val = (i 1).val; rw [e1, h1]; omega
  exact congrArg (V c (Pipeline.arrRef spec9 0) : S100000x128.Idx → Elt Ideal .f32) he

/-- Column q of the mean row's block at any point is column q of the mean row: the block is the whole row. -/
theorem row1_apply (c : Dev nD) (t : Fin cfg9.N) (q : Fin 128) :
    (iblk9 V c 1 t : Vec Ideal S1x128 .f32) (ix2 (0 : Fin 1) q)
      = (V c (Pipeline.arrRef spec9 1) : S1x128.Idx → Elt Ideal .f32) (ix2 (0 : Fin 1) q) := by
  obtain ⟨-, -, e0, e1, -⟩ := idx_facts t
  have he : (((cfg9.win 1).blk t).view.emb (ix2 (0 : Fin 1) q) : S1x128.Idx) = ix2 (0 : Fin 1) q := by
    funext a
    apply Fin.ext
    match a with
    | ⟨0, _⟩ => show win9_1.index t (0 : Fin 2) * 1 + 1 * (0 : Fin 1).val = (0 : Fin 1).val; rw [e0]; omega
    | ⟨1, _⟩ => show win9_1.index t (1 : Fin 2) * 128 + 1 * q.val = q.val; rw [e1]; omega
  exact congrArg (V c (Pipeline.arrRef spec9 1) : S1x128.Idx → Elt Ideal .f32) he

/-- Column q of the variance row's block at any point is column q of the variance row: the block is the whole row. -/
theorem row2_apply (c : Dev nD) (t : Fin cfg9.N) (q : Fin 128) :
    (iblk9 V c 2 t : Vec Ideal S1x128 .f32) (ix2 (0 : Fin 1) q)
      = (V c (Pipeline.arrRef spec9 2) : S1x128.Idx → Elt Ideal .f32) (ix2 (0 : Fin 1) q) := by
  obtain ⟨-, -, -, -, e0, e1, -⟩ := idx_facts t
  have he : (((cfg9.win 2).blk t).view.emb (ix2 (0 : Fin 1) q) : S1x128.Idx) = ix2 (0 : Fin 1) q := by
    funext a
    apply Fin.ext
    match a with
    | ⟨0, _⟩ => show win9_2.index t (0 : Fin 2) * 1 + 1 * (0 : Fin 1).val = (0 : Fin 1).val; rw [e0]; omega
    | ⟨1, _⟩ => show win9_2.index t (1 : Fin 2) * 128 + 1 * q.val = q.val; rw [e1]; omega
  exact congrArg (V c (Pipeline.arrRef spec9 2) : S1x128.Idx → Elt Ideal .f32) he

/-- Column q of the scale row's block at any point is column q of the scale row: the block is the whole row. -/
theorem row3_apply (c : Dev nD) (t : Fin cfg9.N) (q : Fin 128) :
    (iblk9 V c 3 t : Vec Ideal S1x128 .f32) (ix2 (0 : Fin 1) q)
      = (V c (Pipeline.arrRef spec9 3) : S1x128.Idx → Elt Ideal .f32) (ix2 (0 : Fin 1) q) := by
  obtain ⟨-, -, -, -, -, -, e0, e1, -⟩ := idx_facts t
  have he : (((cfg9.win 3).blk t).view.emb (ix2 (0 : Fin 1) q) : S1x128.Idx) = ix2 (0 : Fin 1) q := by
    funext a
    apply Fin.ext
    match a with
    | ⟨0, _⟩ => show win9_3.index t (0 : Fin 2) * 1 + 1 * (0 : Fin 1).val = (0 : Fin 1).val; rw [e0]; omega
    | ⟨1, _⟩ => show win9_3.index t (1 : Fin 2) * 128 + 1 * q.val = q.val; rw [e1]; omega
  exact congrArg (V c (Pipeline.arrRef spec9 3) : S1x128.Idx → Elt Ideal .f32) he

/-- Column q of the shift row's block at any point is column q of the shift row: the block is the whole row. -/
theorem row4_apply (c : Dev nD) (t : Fin cfg9.N) (q : Fin 128) :
    (iblk9 V c 4 t : Vec Ideal S1x128 .f32) (ix2 (0 : Fin 1) q)
      = (V c (Pipeline.arrRef spec9 4) : S1x128.Idx → Elt Ideal .f32) (ix2 (0 : Fin 1) q) := by
  obtain ⟨-, -, -, -, -, -, -, -, e0, e1, -⟩ := idx_facts t
  have he : (((cfg9.win 4).blk t).view.emb (ix2 (0 : Fin 1) q) : S1x128.Idx) = ix2 (0 : Fin 1) q := by
    funext a
    apply Fin.ext
    match a with
    | ⟨0, _⟩ => show win9_4.index t (0 : Fin 2) * 1 + 1 * (0 : Fin 1).val = (0 : Fin 1).val; rw [e0]; omega
    | ⟨1, _⟩ => show win9_4.index t (1 : Fin 2) * 128 + 1 * q.val = q.val; rw [e1]; omega
  exact congrArg (V c (Pipeline.arrRef spec9 4) : S1x128.Idx → Elt Ideal .f32) he

/-- Entry (p, q) of the result's block at point `t` sits in row 10000·t + p of the array … -/
theorem oblk_row (t : Fin cfg9.N) (p : Fin 10000) (q : Fin 128) :
    ((((cfg9.win 5).blk t).view.emb (ix2 p q) : S100000x128.Idx) 0).val = t.val * 10000 + p.val := by
  obtain ⟨-, -, -, -, -, -, -, -, -, -, e0, -⟩ := idx_facts t
  show win9_5.index t (0 : Fin 2) * 10000 + 1 * p.val = _
  rw [e0]; omega

/-- … and in column q. -/
theorem oblk_col (t : Fin cfg9.N) (p : Fin 10000) (q : Fin 128) :
    ((((cfg9.win 5).blk t).view.emb (ix2 p q) : S100000x128.Idx) 1).val = q.val := by
  obtain ⟨-, -, -, -, -, -, -, -, -, -, -, e1⟩ := idx_facts t
  show win9_5.index t (1 : Fin 2) * 128 + 1 * q.val = _
  rw [e1]; omega

/-! ## From the blocks to the array -/

set_option maxHeartbeats 1000000 in
/-- What point `t` writes back is block `t` of `G` of the five arrays as the region finds them. -/
theorem flushed_eq (c : Dev nD) (t : Fin cfg9.N) :
    (dat9 V c).flushed 5 t = ((cfg9.win 5).blk t).view.read (Elt Ideal)
      (G (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  exact out_fun (iblk9 V c 0 t) (iblk9 V c 1 t) (iblk9 V c 2 t) (iblk9 V c 3 t) (iblk9 V c 4 t)
    (V c (Pipeline.arrRef spec9 0)) (V c (Pipeline.arrRef spec9 1)) (V c (Pipeline.arrRef spec9 2))
    (V c (Pipeline.arrRef spec9 3)) (V c (Pipeline.arrRef spec9 4))
    (((cfg9.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg9.N) (i : S100000x128.Idx) :
    i ∈ ((cfg9.win 5).blk t).view.set ↔ ∀ a : Fin 2, win9_5.index t a * S10000x128.size a ≤ (i a).val ∧ (i a).val < win9_5.index t a * S10000x128.size a + S10000x128.size a := by
  show i ∈ ((View.whole main_v146).slice (win9_5.rect t)).set ↔ _
  rw [View.set_slice_whole, Rect.mem_set_unit]
  exact Iff.rfl

/-- Every entry is written: row r is in the block of point r / 10000. -/
theorem cover (i : S100000x128.Idx) : ∃ t : Fin cfg9.N, (cfg9.win 5).flush t = true ∧ i ∈ ((cfg9.win 5).blk t).view.set := by
  have hi0 : (i 0).val < 100000 := idx2_lt0 i
  have hi1 : (i 1).val < 128 := idx2_lt1 i
  obtain ⟨t, ht⟩ : ∃ t : Fin cfg9.N, t.val = (i 0).val / 10000 :=
    ⟨⟨(i 0).val / 10000, by rw [show cfg9.N = 10 from N_9]; omega⟩, rfl⟩
  obtain ⟨-, -, -, -, -, -, -, -, -, -, e0, e1⟩ := idx_facts t
  refine ⟨t, flush9_5 t, ?_⟩
  rw [mem_blk]
  intro a
  match a with
  | ⟨0, _⟩ =>
    show win9_5.index t (0 : Fin 2) * 10000 ≤ (i 0).val ∧ (i 0).val < win9_5.index t (0 : Fin 2) * 10000 + 10000
    rw [e0, ht]; omega
  | ⟨1, _⟩ =>
    show win9_5.index t (1 : Fin 2) * 128 ≤ (i 1).val ∧ (i 1).val < win9_5.index t (1 : Fin 2) * 128 + 128
    rw [e1]; omega

/-- The result array after the region is `G` of the five arrays the region was entered with. -/
theorem final (c : Dev nD) :
    (dat9 V c).arrAt 5 cfg9.N
      = G (V c (Pipeline.arrRef spec9 0)) (V c (Pipeline.arrRef spec9 1)) (V c (Pipeline.arrRef spec9 2))
          (V c (Pipeline.arrRef spec9 3)) (V c (Pipeline.arrRef spec9 4)) :=
  (dat9 V c).arrAt_eq_of_cover 5 _ (fun t _ => flushed_eq V c t) cover

/-- The result array after the region, entry by entry: the specification's `bnAt` of the five arrays at (r, q). -/
theorem value (c : Dev nD) (r : Fin 100000) (q : Fin 128) :
    ((dat9 V c).arrAt 5 cfg9.N : S100000x128.Idx → Elt Ideal .f32) (ix2 r q)
      = bnAt (R := 100000) (C := 128) (V c (Pipeline.arrRef spec9 0)) (V c (Pipeline.arrRef spec9 1))
          (V c (Pipeline.arrRef spec9 2)) (V c (Pipeline.arrRef spec9 3)) (V c (Pipeline.arrRef spec9 4)) r q := by
  rw [final V c]
  exact G_apply _ _ _ _ _ r q

end Cert.KernelIdeal.KBn9
end
-- ==== Proof.KChainE.lean ====
/-
  The kernel program's layer 5 read at an index: region 8 leaves the fused affine stage of layer 4's output and its
  neighbours' sums (with slab 3 of the stacked weights and row 3 of the stacked biases), its column sums and column sums of
  squares; the host forms mean and variance; region 9 normalises with row 3 of the stacked scales and shifts and rectifies.
-/
import proofs.«132586_j38087769981032_1_alg».proof.Proof.KChainD
import proofs.«132586_j38087769981032_1_alg».proof.Proof.KGin8
import proofs.«132586_j38087769981032_1_alg».proof.Proof.KBn9
import proofs.«132586_j38087769981032_1_alg».proof.Proof.KHostF
import proofs.«132586_j38087769981032_1_alg».proof.Proof.KHostB

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-! ## Layer 5: regions 8 and 9 -/

/-- Layer 5's fused affine stage, of layer 4's output and the arguments. -/
def y5 : Fin 100000 → Fin 128 → EReal :=
  linK twoW (rd2 (R := 100000) (C := 128) (x4 m ρ c)) (rd2 (R := 100000) (C := 128) (KHost.aggOf128 (x4 m ρ c) (a1 m c) (a2 m c)))
    (fun k q => rd3 (A := 4) (R := 128) (C := 128) (a8 m c) 3 k q) (fun q => twoW * rd2 (R := 4) (C := 128) (a9 m c) 3 q)

/-- Layer 5's output array. -/
def x5 : FVec Ideal S100000x128 .f32 := W20 m ρ c (Proc.devRef .tc main_v146)

theorem in8_x : (V17 m ρ c (Pipeline.arrRef spec8 0) : FVec Ideal S100000x128 .f32) = x4 m ρ c :=
  KHost.host8_keep_x (W16 m ρ c)
theorem in8_a : (V17 m ρ c (Pipeline.arrRef spec8 1) : FVec Ideal S100000x128 .f32) = KHost.aggOf128 (x4 m ρ c) (a1 m c) (a2 m c) := by
  have h := KHost.host8_agg_eq (W16 m ρ c)
  rw [KArgs.W16_arg1 m ρ c, KArgs.W16_arg2 m ρ c] at h
  exact h
theorem in8_w (k q : Fin 128) : (V17 m ρ c (Pipeline.arrRef spec8 2) : FVec Ideal S128x128 .f32) (ix2 k q) = rd3 (A := 4) (R := 128) (C := 128) (a8 m c) 3 k q :=
  (KHost.host8_w_at (W16 m ρ c) k q).trans (congrFun (KArgs.W16_arg8 m ρ c) _)
theorem in8_b (q : Fin 128) : (V17 m ρ c (Pipeline.arrRef spec8 3) : FVec Ideal S1x128 .f32) (ix2 (0 : Fin 1) q) = twoW * rd2 (R := 4) (C := 128) (a9 m c) 3 q :=
  (KHost.host8_b2_at (W16 m ρ c) q).trans (congrArg (fun v : EReal => twoW * v) (congrFun (KArgs.W16_arg9 m ρ c) _))

/-- The fused stage of region 8's inputs, entry by entry, is layer 5's. -/
theorem lin8_eq (r : Fin 100000) (q : Fin 128) :
    KGin.lin (V17 m ρ c (Pipeline.arrRef spec8 0)) (V17 m ρ c (Pipeline.arrRef spec8 1)) (V17 m ρ c (Pipeline.arrRef spec8 2))
      (V17 m ρ c (Pipeline.arrRef spec8 3)) r q = y5 m ρ c r q := by
  rw [in8_x m ρ c, in8_a m ρ c]
  unfold KGin.lin y5 linK rd2
  rw [in8_b m ρ c q]
  exact congrArg (fun v : EReal => v + twoW * rd2 (R := 4) (C := 128) (a9 m c) 3 q)
    (Finset.sum_congr rfl fun k _ => congrArg (fun w : EReal => (twoW * (x4 m ρ c) (ix2 r k) + (KHost.aggOf128 (x4 m ρ c) (a1 m c) (a2 m c)) (ix2 r k)) * w) (in8_w m ρ c k q))

theorem y5_at (r : Fin 100000) (q : Fin 128) :
    rd2 (R := 100000) (C := 128) (W18 m ρ c (Proc.devRef .tc main_v133_0)) r q = y5 m ρ c r q := by
  have e0 : (W18 m ρ c (Proc.devRef .tc main_v133_0) : FVec Ideal S100000x128 .f32) = (dat8 (V17 m ρ) c).arrAt 4 cfg8.N := W18_arr m ρ c 4
  show (W18 m ρ c (Proc.devRef .tc main_v133_0) : FVec Ideal S100000x128 .f32) (ix2 r q) = _
  rw [e0, KGin8.valueY (V17 m ρ) c r q]
  exact lin8_eq m ρ c r q

theorem s5_at (q : Fin 128) :
    rd2 (R := 1) (C := 128) (W18 m ρ c (Proc.devRef .tc main_v133_1)) 0 q = ∑ r : Fin 100000, y5 m ρ c r q := by
  have e0 : (W18 m ρ c (Proc.devRef .tc main_v133_1) : FVec Ideal S1x128 .f32) = (dat8 (V17 m ρ) c).arrAt 5 cfg8.N := W18_arr m ρ c 5
  unfold rd2
  rw [e0, KGin8.valueS (V17 m ρ) c q]
  exact Finset.sum_congr rfl fun r _ => lin8_eq m ρ c r q

theorem ss5_at (q : Fin 128) :
    rd2 (R := 1) (C := 128) (W18 m ρ c (Proc.devRef .tc main_v133_2)) 0 q = ∑ r : Fin 100000, y5 m ρ c r q * y5 m ρ c r q := by
  have e0 : (W18 m ρ c (Proc.devRef .tc main_v133_2) : FVec Ideal S1x128 .f32) = (dat8 (V17 m ρ) c).arrAt 6 cfg8.N := W18_arr m ρ c 6
  unfold rd2
  rw [e0, KGin8.valueSS (V17 m ρ) c q]
  exact Finset.sum_congr rfl fun r _ => by rw [lin8_eq m ρ c r q]

/-- LAYER 5 of the kernel program. -/
theorem layer5 (r : Fin 100000) (q : Fin 128) :
    rd2 (R := 100000) (C := 128) (x5 m ρ c) r q
      = bnrelu epsW (y5 m ρ c) (meanK nW (y5 m ρ c)) (varK nW (y5 m ρ c))
          (fun q => rd2 (R := 4) (C := 128) (a10 m c) 3 q) (fun q => rd2 (R := 4) (C := 128) (a11 m c) 3 q) r q := by
  have e0 : (W20 m ρ c (Proc.devRef .tc main_v146) : FVec Ideal S100000x128 .f32) = (dat9 (V19 m ρ) c).arrAt 5 cfg9.N := W20_arr m ρ c 5
  show (W20 m ρ c (Proc.devRef .tc main_v146) : FVec Ideal S100000x128 .f32) (ix2 r q) = _
  rw [e0, KBn9.value (V19 m ρ) c r q]
  have hy : (V19 m ρ c (Pipeline.arrRef spec9 0) : FVec Ideal S100000x128 .f32) (ix2 r q) = y5 m ρ c r q :=
    (congrFun (KHost.host9_keep_y (W18 m ρ c)) _).trans (y5_at m ρ c r q)
  have hm : (V19 m ρ c (Pipeline.arrRef spec9 1) : FVec Ideal S1x128 .f32) (ix2 (0 : Fin 1) q) = meanK nW (y5 m ρ c) q :=
    (KHost.host9_mean_at (W18 m ρ c) q).trans (congrArg (fun s : EReal => Ideal.div s nW) (s5_at m ρ c q))
  have hv : (V19 m ρ c (Pipeline.arrRef spec9 2) : FVec Ideal S1x128 .f32) (ix2 (0 : Fin 1) q) = varK nW (y5 m ρ c) q :=
    (KHost.host9_var_at (W18 m ρ c) q).trans (congrArg₂ (fun s t : EReal => Ideal.div t nW - Ideal.div s nW * Ideal.div s nW)
      (s5_at m ρ c q) (ss5_at m ρ c q))
  have hg : (V19 m ρ c (Pipeline.arrRef spec9 3) : FVec Ideal S1x128 .f32) (ix2 (0 : Fin 1) q) = rd2 (R := 4) (C := 128) (a10 m c) 3 q :=
    (KHost.host9_gamma_at (W18 m ρ c) q).trans (congrFun (KArgs.W18_arg10 m ρ c) _)
  have hb : (V19 m ρ c (Pipeline.arrRef spec9 4) : FVec Ideal S1x128 .f32) (ix2 (0 : Fin 1) q) = rd2 (R := 4) (C := 128) (a11 m c) 3 q :=
    (KHost.host9_beta_at (W18 m ρ c) q).trans (congrFun (KArgs.W18_arg11 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.KDenseAt.lean ====
/-
  A dense layer and its column sums read at an index, at the ideal values, at symbolic extents.

  For x of shape [R, K], w of shape [K, C] and a bias row b of shape [1, C]:
    * the product of x and w into a zero accumulator, plus b stretched over the R rows, at (r, q) is
      the sum over k of x (r, k) · w (k, q), plus b (0, q);
    * the sum of an [R, C] array over its rows, laid out as a [1, C] row, at (0, q) is the sum over r of the array at (r, q).
-/
import Idealize.ShloMosaic.PureOps.Ideal.Laws
import Idealize.ShloMosaic.Lib.ValueIdx
import Idealize.ShloMosaic.Lib.ValueLayout
import Idealize.ShloMosaic.Lib.Pipeline.Value
import proofs.«132586_j38087769981032_1_alg».proof.Proof.LibPlainDot

noncomputable section

namespace Cert.KernelIdeal.KDenseAt

open Idealize.ShloMosaic Idealize.ShloMosaic.ValueIdx
open scoped BigOperators

/-- The left operand's index for output (r, q) at contraction position k is (r, k). -/
theorem rowIdx_ix2 {R K C : Nat} (r : Fin R) (q : Fin C) (k : Fin K) :
    (Cert.Lib.PlainDot.rowIdx (ix2 r q) k : (⟨2, ![R, K]⟩ : Shape).Idx) = ix2 r k := by
  funext d; match d with | ⟨0, _⟩ => rfl | ⟨1, _⟩ => rfl
/-- The right operand's index for output (r, q) at contraction position k is (k, q). -/
theorem colIdx_ix2 {R K C : Nat} (r : Fin R) (q : Fin C) (k : Fin K) :
    (Cert.Lib.PlainDot.colIdx (ix2 r q) k : (⟨2, ![K, C]⟩ : Shape).Idx) = ix2 k q := by
  funext d; match d with | ⟨0, _⟩ => rfl | ⟨1, _⟩ => rfl

/-- A dense layer at an index: the product of an [R, K] array with a [K, C] array into the zero accumulator, plus a
    [1, C] bias row stretched over the rows, at (r, q) is the sum over k of x (r, k) · w (k, q), plus b (0, q). -/
theorem dense_at {R K C : Nat} {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂)
    (b : FVec Ideal ⟨2, ![1, C]⟩ .f32) (hb : (⟨2, ![1, C]⟩ : Shape).Broadcasts ⟨2, ![R, C]⟩)
    (r : Fin R) (q : Fin C) :
    FloatOps.matmul d prec x w (constant ⟨2, ![R, C]⟩ .f32 0x00000000#32) (ix2 r q)
        + broadcastTo ⟨2, ![R, C]⟩ b hb (ix2 r q)
      = (∑ k : Fin K, x (ix2 r k) * w (ix2 k q)) + b (ix2 (0 : Fin 1) q) := by
  rw [Cert.Lib.PlainDot.matmul_zero_apply d hd, broadcastTo_1b_ab_apply]
  unfold Cert.Lib.PlainDot.mm
  refine congrArg (· + _) (Finset.sum_congr rfl fun k _ => ?_)
  rw [rowIdx_ix2, colIdx_ix2]

/-- The column sums of an [R, C] array, laid out as a [1, C] row: at (0, q) the sum over the rows r of the array
    at (r, q). -/
theorem colsum_at {R C : Nat} (src : FVec Ideal ⟨2, ![R, C]⟩ .f32)
    (h : (⟨2, ![R, C]⟩ : Shape).Reduces [0] ⟨1, ![C]⟩) (hφ : FKind.Formats .f32)
    (hacc : (0x00000000#32 : BitVec 32) = FKind.add.neutral .f32 hφ)
    (hc : (⟨1, ![C]⟩ : Shape).ShapeCasts ⟨2, ![1, C]⟩) (q : Fin C) :
    shapeCast ⟨2, ![1, C]⟩ (multiReduction .add [0] ⟨1, ![C]⟩ src 0x00000000#32 h hφ hacc) hc (ix2 (0 : Fin 1) q)
      = ∑ r : Fin R, src (ix2 r q) := by
  rw [shapeCast_a_1a_apply]
  refine (Ideal.multiReduction_add_single src _ h hφ hacc (ix1 q)).trans ?_
  show ∑ k : Fin R, src (h.lift (ix1 q) k) = _
  refine Finset.sum_congr rfl fun k _ => congrArg src ?_
  funext d; match d with | ⟨0, _⟩ => rfl | ⟨1, _⟩ => rfl

/-- The dense layer's output at (r, q): row r of x against column q of w, plus bias q. -/
def denseAt {R K C : Nat} (x : (⟨2, ![R, K]⟩ : Shape).Idx → EReal) (w : (⟨2, ![K, C]⟩ : Shape).Idx → EReal)
    (b : (⟨2, ![1, C]⟩ : Shape).Idx → EReal) (r : Fin R) (q : Fin C) : EReal :=
  (∑ k : Fin K, x (ix2 r k) * w (ix2 k q)) + b (ix2 (0 : Fin 1) q)

end Cert.KernelIdeal.KDenseAt

end
-- ==== Proof.KFc14.lean ====
/-
  The last layer of the network, as the array its region leaves: a dense layer followed by the logistic function.

  The region has one grid point and every window's block is its whole array, so the block the point reads of each
  operand is the operand as the region is entered, the one store of the body covers the output's staging buffer, and
  the one write-back covers the output array.  At the ideal values the stored value at (r, q) is
  logistic ((∑ k, x (r, k) · w (k, q)) + b (0, q)).
-/
import proofs.«132586_j38087769981032_1_alg».proof.Proof.Gen.KernelIdeal.Frame
import proofs.«132586_j38087769981032_1_alg».proof.Proof.KDenseAt
import Idealize.ShloMosaic.Lib.Pipeline.Value

noncomputable section

namespace Cert.KernelIdeal.KFc14

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The stored value at an index, at the ideal values -/

/-- The body's stored value at (r, q): the logistic function of row r of x against column q of w, plus bias q. -/
theorem pay_apply (x : Vec Ideal S2048x256 .f32) (w : Vec Ideal S256x204 .f32) (b : Vec Ideal S1x204 .f32)
    (r : Fin 2048) (q : Fin 204) :
    k14_pay1 x w b (ix2 r q)
      = Ideal.logistic ((∑ k : Fin 256, x (ix2 r k) * w (ix2 k q)) + b (ix2 (0 : Fin 1) q)) := by
  unfold k14_pay1
  have hx : shapeCast S2048x256 x shapeCasts_S2048x256_S2048x256 = x := shapeCast_self _ _
  have hw : shapeCast S256x204 w shapeCasts_S256x204_S256x204 = w := shapeCast_self _ _
  have hb : shapeCast S1x204 b shapeCasts_S1x204_S1x204 = b := shapeCast_self _ _
  show Ideal.logistic (FloatOps.matmul (F := Ideal) dot_S2048x256_S256x204_S2048x204_1_0_0_1_n_n none
          (shapeCast S2048x256 x shapeCasts_S2048x256_S2048x256)
          (shapeCast S256x204 w shapeCasts_S256x204_S256x204)
          (constant (F := Ideal) S2048x204 FTy.f32 0x00000000#32) (ix2 r q)
        + broadcastTo S2048x204 (shapeCast S1x204 b shapeCasts_S1x204_S1x204) broadcasts_S1x204_S2048x204 (ix2 r q)) = _
  rw [hx, hw, hb]
  exact congrArg Ideal.logistic
    (Cert.KernelIdeal.KDenseAt.dense_at (R := 2048) (K := 256) (C := 204) dot_S2048x256_S256x204_S2048x204_1_0_0_1_n_n rfl none x w b
      broadcasts_S1x204_S2048x204 r q)

/-! ## From the blocks to the array, for any float values -/

section AnyValues

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's one store covers the output's staging buffer, and its loads read whole buffers: what the body leaves
    is its payload of the loaded buffers. -/
theorem out_eq (x0 : Vec F S2048x256 .f32) (x1 : Vec F S256x204 .f32) (x2 : Vec F S1x204 .f32) :
    out14_3 x0 x1 x2 = k14_pay1 x0 x1 x2 := by
  unfold out14_3
  rw [View.canon_unit_zero hz]
  simp only [View.ld_unit_zero (S := S2048x256) hz, View.ld_unit_zero (S := S256x204) hz,
    View.ld_unit_zero (S := S1x204) hz]

/-- Every window's block index is (0, 0) at the one grid point. -/
theorem idx_facts : ∀ t : Fin cfg14.N, win14_0.index t (0 : Fin 2) = 0 ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0 :=
  (by decide +kernel : ∀ t : Fin grid14.N, _)

/-- The block of x the point reads is x as the region is entered. -/
theorem iblk_0 (c : Dev nD) (t : Fin cfg14.N) :
    iblk14 V c 0 t = (V c (Pipeline.arrRef spec14 0) : S2048x256.Idx → Elt F .f32) := by
  obtain ⟨e0, e1, -⟩ := idx_facts t
  funext j
  show V c (Pipeline.arrRef spec14 0) (((cfg14.win 0).blk t).view.emb j) = V c (Pipeline.arrRef spec14 0) j
  refine congrArg _ (funext fun a => Fin.ext ?_)
  match a with
  | ⟨0, _⟩ => show win14_0.index t (0 : Fin 2) * 2048 + 1 * (j 0).val = (j 0).val; omega
  | ⟨1, _⟩ => show win14_0.index t (1 : Fin 2) * 256 + 1 * (j 1).val = (j 1).val; omega

/-- The block of w the point reads is w as the region is entered. -/
theorem iblk_1 (c : Dev nD) (t : Fin cfg14.N) :
    iblk14 V c 1 t = (V c (Pipeline.arrRef spec14 1) : S256x204.Idx → Elt F .f32) := by
  obtain ⟨-, -, e0, e1, -⟩ := idx_facts t
  funext j
  show V c (Pipeline.arrRef spec14 1) (((cfg14.win 1).blk t).view.emb j) = V c (Pipeline.arrRef spec14 1) j
  refine congrArg _ (funext fun a => Fin.ext ?_)
  match a with
  | ⟨0, _⟩ => show win14_1.index t (0 : Fin 2) * 256 + 1 * (j 0).val = (j 0).val; omega
  | ⟨1, _⟩ => show win14_1.index t (1 : Fin 2) * 204 + 1 * (j 1).val = (j 1).val; omega

/-- The block of the bias row the point reads is the bias row as the region is entered. -/
theorem iblk_2 (c : Dev nD) (t : Fin cfg14.N) :
    iblk14 V c 2 t = (V c (Pipeline.arrRef spec14 2) : S1x204.Idx → Elt F .f32) := by
  obtain ⟨-, -, -, -, e0, e1, -⟩ := idx_facts t
  funext j
  show V c (Pipeline.arrRef spec14 2) (((cfg14.win 2).blk t).view.emb j) = V c (Pipeline.arrRef spec14 2) j
  refine congrArg _ (funext fun a => Fin.ext ?_)
  match a with
  | ⟨0, _⟩ => show win14_2.index t (0 : Fin 2) * 1 + 1 * (j 0).val = (j 0).val; omega
  | ⟨1, _⟩ => show win14_2.index t (1 : Fin 2) * 204 + 1 * (j 1).val = (j 1).val; omega

/-- What the output array ends holding: the body's payload of the three operands as the region is entered. -/
abbrev result (c : Dev nD) : S2048x204.Idx → Elt F .f32 :=
  k14_pay1 (V c (Pipeline.arrRef spec14 0)) (V c (Pipeline.arrRef spec14 1)) (V c (Pipeline.arrRef spec14 2))

/-- What the point writes back is its block — the whole array — of `result`. -/
theorem flushed_eq (c : Dev nD) (t : Fin cfg14.N) :
    (dat14 V c).flushed 3 t = ((cfg14.win 3).blk t).view.read (Elt F) (result V c) := by
  show (cfg14.win 3).cut (grid14.coords t) ((dat14 V c).after 3 t) = _
  rw [after14_3, out_eq (iblk14 V c 0 t) (iblk14 V c 1 t) (iblk14 V c 2 t), iblk_0 V c t, iblk_1 V c t, iblk_2 V c t]
  obtain ⟨-, -, -, -, -, -, e0, e1⟩ := idx_facts t
  funext j
  show result V c j = result V c (((cfg14.win 3).blk t).view.emb j)
  refine congrArg _ (funext fun a => Fin.ext ?_)
  match a with
  | ⟨0, _⟩ => show (j 0).val = win14_3.index t (0 : Fin 2) * 2048 + 1 * (j 0).val; omega
  | ⟨1, _⟩ => show (j 1).val = win14_3.index t (1 : Fin 2) * 204 + 1 * (j 1).val; omega

/-- An index of the output array is in the point's block iff each coordinate is in the block's range on its axis. -/
theorem mem_blk (t : Fin cfg14.N) (i : S2048x204.Idx) :
    i ∈ ((cfg14.win 3).blk t).view.set ↔ ∀ a : Fin 2, win14_3.index t a * S2048x204.size a ≤ (i a).val
      ∧ (i a).val < win14_3.index t a * S2048x204.size a + S2048x204.size a := by
  show i ∈ ((View.whole main_v175).slice (win14_3.rect t)).set ↔ _
  rw [View.set_slice_whole, Rect.mem_set_unit]
  exact Iff.rfl

/-- The output array after the region is `result`: the one point's block covers it. -/
theorem final (c : Dev nD) : (dat14 V c).arrAt 3 cfg14.N = result V c :=
  (dat14 V c).arrAt_eq_of_cover 3 (result V c) (fun t _ => flushed_eq V c t) fun i =>
    ⟨t14_0, flush14_3 t14_0, by
      rw [mem_blk]
      obtain ⟨-, -, -, -, -, -, e0, e1⟩ := idx_facts t14_0
      have h0 : (i 0).val < 2048 := (i 0).isLt
      have h1 : (i 1).val < 204 := (i 1).isLt
      intro a
      match a with
      | ⟨0, _⟩ => show win14_3.index t14_0 (0 : Fin 2) * 2048 ≤ (i 0).val ∧ (i 0).val < win14_3.index t14_0 (0 : Fin 2) * 2048 + 2048; omega
      | ⟨1, _⟩ => show win14_3.index t14_0 (1 : Fin 2) * 204 ≤ (i 1).val ∧ (i 1).val < win14_3.index t14_0 (1 : Fin 2) * 204 + 204; omega⟩

end AnyValues

/-! ## The region's value at the ideal values -/

/-- After the region, the output array at (r, q) is logistic ((∑ k, x (r, k) · w (k, q)) + b (0, q)), for x, w, b the
    three operand arrays as the region is entered. -/
theorem value_of (V : (c : Dev nD) → (b : Ref sig .tc) → Buf (Elt Ideal) ((c : Thread nD τ).loc b)) (c : Dev nD)
    (x : Vec Ideal S2048x256 .f32) (w : Vec Ideal S256x204 .f32) (b : Vec Ideal S1x204 .f32)
    (hx : V c (Pipeline.arrRef spec14 0) = x) (hw : V c (Pipeline.arrRef spec14 1) = w)
    (hb : V c (Pipeline.arrRef spec14 2) = b) (r : Fin 2048) (q : Fin 204) :
    (dat14 V c).arrAt 3 cfg14.N (ix2 r q)
      = Ideal.logistic ((∑ k : Fin 256, x (ix2 r k) * w (ix2 k q)) + b (ix2 (0 : Fin 1) q)) := by
  subst hx; subst hw; subst hb
  exact (congrFun (final V c) (ix2 r q)).trans (pay_apply _ _ _ r q)

/-- The same with the operand arrays named as the region finds them. -/
theorem value (V : (c : Dev nD) → (b : Ref sig .tc) → Buf (Elt Ideal) ((c : Thread nD τ).loc b)) (c : Dev nD)
    (r : Fin 2048) (q : Fin 204) :
    (dat14 V c).arrAt 3 cfg14.N (ix2 r q)
      = Ideal.logistic (Cert.KernelIdeal.KDenseAt.denseAt (R := 2048) (K := 256) (C := 204)
          (V c (Pipeline.arrRef spec14 0)) (V c (Pipeline.arrRef spec14 1)) (V c (Pipeline.arrRef spec14 2)) r q) :=
  value_of V c _ _ _ rfl rfl rfl r q

end Cert.KernelIdeal.KFc14

end
-- ==== Proof.KHostE.lean ====
/-
  The host operations between the regions of the idealized kernel program, read at an index: the stretches before
  the two dense layers' matmul regions and before the last (dense + logistic) region.

  Every statement is generic in the valuation `W` of the buffers when the stretch starts. The sum readout into graphs
  is kept as one closed function of the node features and the graph ids; the biases are argument vectors seen as
  one-row matrices; the last region reads the upper half (columns 204 … 407) of its weight and bias arguments.
-/
import proofs.«132586_j38087769981032_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-! ## The stretch before the first dense layer's matmul region: the sum readout -/

/-- The sum readout of a `[100000, 128]` node-feature matrix into 2048 graphs: each node's row is added into the row of
an all-zero matrix named by the node's graph id. The scatter-add stays a closed operation here. -/
def readout (x : FVec Ideal S100000x128 .f32) (gids : IVec S100000 32) : FVec Ideal S2048x128 .f32 :=
  Host.scatterAdd scatter_S2048x128_S100000x1_S100000x128_1_0_0_1
    (broadcastInDim S2048x128 ![] bcast_S_S2048x128 (constant (F := Ideal) S_ .f32 0x00000000#32))
    (broadcastInDim S100000x1 ![0] bcast_S100000_S100000x1_0 gids)
    x

/-- The pooled buffer holds the sum readout of the last GIN layer's output by the graph ids. -/
theorem host10_readout_eq :
    (StableHlo.after (hostOps10 (F := Ideal)) W (Proc.devRef .tc main_v149) : FVec Ideal S2048x128 .f32)
      = readout (W (Proc.devRef .tc main_v146) : FVec Ideal S100000x128 .f32) (W (Proc.devRef .tc main_arg3)) := by
  unfold readout
  after_results

/-- The first dense layer's bias: the argument vector's entry. -/
theorem host10_bias_at (q : Fin 512) :
    (StableHlo.after (hostOps10 (F := Ideal)) W (Proc.devRef .tc main_v150) : FVec Ideal S1x512 .f32) (ix2 (0 : Fin 1) q)
      = (W (Proc.devRef .tc main_arg13) : FVec Ideal S512 .f32) (ix1 q) := by
  have e : (StableHlo.after (hostOps10 (F := Ideal)) W (Proc.devRef .tc main_v150) : FVec Ideal S1x512 .f32)
      = shapeCast S1x512 (W (Proc.devRef .tc main_arg13) : FVec Ideal S512 .f32) shapeCasts_S512_S1x512 := by
    after_results
    rfl
  rw [e]
  exact shapeCast_a_1a_apply _ _ _ _

/-- The stretch does not write the first dense layer's weights. -/
theorem host10_keep_w :
    StableHlo.after (hostOps10 (F := Ideal)) W (Proc.devRef .tc main_arg12) = W (Proc.devRef .tc main_arg12) :=
  StableHlo.after_of_forall_not_mem (b := Proc.devRef .tc main_arg12) _ _ (List.forall_iff_forall_mem.mp (by
    simp only [hostOps10, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the second dense layer's matmul region -/

/-- The second dense layer's bias: the argument vector's entry. -/
theorem host12_bias_at (q : Fin 256) :
    (StableHlo.after (hostOps12 (F := Ideal)) W (Proc.devRef .tc main_v161) : FVec Ideal S1x256 .f32) (ix2 (0 : Fin 1) q)
      = (W (Proc.devRef .tc main_arg17) : FVec Ideal S256 .f32) (ix1 q) := by
  have e : (StableHlo.after (hostOps12 (F := Ideal)) W (Proc.devRef .tc main_v161) : FVec Ideal S1x256 .f32)
      = shapeCast S1x256 (W (Proc.devRef .tc main_arg17) : FVec Ideal S256 .f32) shapeCasts_S256_S1x256 := by
    after_results
    rfl
  rw [e]
  exact shapeCast_a_1a_apply _ _ _ _

/-- The stretch does not write the second dense layer's input. -/
theorem host12_keep_x :
    StableHlo.after (hostOps12 (F := Ideal)) W (Proc.devRef .tc main_v160) = W (Proc.devRef .tc main_v160) :=
  StableHlo.after_of_forall_not_mem (b := Proc.devRef .tc main_v160) _ _ (List.forall_iff_forall_mem.mp (by
    simp only [hostOps12, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The stretch does not write the second dense layer's weights. -/
theorem host12_keep_w :
    StableHlo.after (hostOps12 (F := Ideal)) W (Proc.devRef .tc main_arg16) = W (Proc.devRef .tc main_arg16) :=
  StableHlo.after_of_forall_not_mem (b := Proc.devRef .tc main_arg16) _ _ (List.forall_iff_forall_mem.mp (by
    simp only [hostOps12, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the last region: the last 204 of the 408 output columns -/

/-- The last layer's weights: columns 204 … 407 of the weight argument. -/
theorem host14_w_at (k : Fin 256) (q : Fin 204) :
    (StableHlo.after (hostOps14 (F := Ideal)) W (Proc.devRef .tc main_v172) : FVec Ideal S256x204 .f32) (ix2 k q)
      = (W (Proc.devRef .tc main_arg20) : FVec Ideal S256x408 .f32) (ix2 k (⟨q.val + 204, by omega⟩ : Fin 408)) := by
  have e : (StableHlo.after (hostOps14 (F := Ideal)) W (Proc.devRef .tc main_v172) : FVec Ideal S256x204 .f32)
      = extractStridedSlice S256x204 ![0, 204] (W (Proc.devRef .tc main_arg20) : FVec Ideal S256x408 .f32) slices_S256x408_S256x204_0_204 := by
    after_results
  rw [e]
  exact slice2_axis1_apply 204 _ _ k q _ (Nat.add_comm _ _)

/-- The last layer's bias: entries 204 … 407 of the bias argument. -/
theorem host14_bias_at (q : Fin 204) :
    (StableHlo.after (hostOps14 (F := Ideal)) W (Proc.devRef .tc main_v174) : FVec Ideal S1x204 .f32) (ix2 (0 : Fin 1) q)
      = (W (Proc.devRef .tc main_arg21) : FVec Ideal S408 .f32) (ix1 (⟨q.val + 204, by omega⟩ : Fin 408)) := by
  have e : (StableHlo.after (hostOps14 (F := Ideal)) W (Proc.devRef .tc main_v174) : FVec Ideal S1x204 .f32)
      = shapeCast S1x204 (extractStridedSlice S204 ![204] (W (Proc.devRef .tc main_arg21) : FVec Ideal S408 .f32) slices_S408_S204_204)
          shapeCasts_S204_S1x204 := by
    after_results
    rfl
  rw [e]
  exact (shapeCast_a_1a_apply _ _ _ _).trans
    (extractStridedSlice_apply _ _ _ _ _ (fun ax => by
      match ax with
      | ⟨0, _⟩ => exact Nat.add_comm _ _))

/-- The stretch does not write the last layer's input. -/
theorem host14_keep_x :
    StableHlo.after (hostOps14 (F := Ideal)) W (Proc.devRef .tc main_v171) = W (Proc.devRef .tc main_v171) :=
  StableHlo.after_of_forall_not_mem (b := Proc.devRef .tc main_v171) _ _ (List.forall_iff_forall_mem.mp (by
    simp only [hostOps14, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KChainG.lean ====
/-
  The kernel program's last stage read at an index: region 14 multiplies layer 7's output by the upper 204 of the 408
  columns of the last weight matrix, adds the matching half of the last bias and applies the logistic. The weights and
  the bias it reads are slices the host cut from the arguments; layer 7's output reaches it untouched.
-/
import proofs.«132586_j38087769981032_1_alg».proof.Proof.KChainA
import proofs.«132586_j38087769981032_1_alg».proof.Proof.KFc14
import proofs.«132586_j38087769981032_1_alg».proof.Proof.KHostE

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-- Layer 7's output array. -/
def x7 : FVec Ideal S2048x256 .f32 := W28 m ρ c (Proc.devRef .tc main_v171)

/-! ## The last stage: region 14 -/

/-- Column q of the last layer is column q + 204 of its weights and bias. -/
abbrev hi (q : Fin 204) : Fin 408 := ⟨q.val + 204, by omega⟩

/-- The kernel program's result array. -/
def outK : FVec Ideal S2048x204 .f32 := W30 m ρ c (Proc.devRef .tc main_v175)

/-- THE RESULT of the kernel program: the logistic of the last dense layer on the upper 204 columns. -/
theorem result_at (r : Fin 2048) (q : Fin 204) :
    rd2 (R := 2048) (C := 204) (outK m ρ c) r q
      = Ideal.logistic ((∑ k : Fin 256, rd2 (R := 2048) (C := 256) (x7 m ρ c) r k * rd2 (R := 256) (C := 408) (a20 m c) k (hi q))
          + rd1 (C := 408) (a21 m c) (hi q)) := by
  have e0 : (W30 m ρ c (Proc.devRef .tc main_v175) : FVec Ideal S2048x204 .f32) = (dat14 (V29 m ρ) c).arrAt 3 cfg14.N := W30_arr m ρ c 3
  show (W30 m ρ c (Proc.devRef .tc main_v175) : FVec Ideal S2048x204 .f32) (ix2 r q) = _
  rw [e0, KFc14.value (V29 m ρ) c r q]
  have hx : (V29 m ρ c (Pipeline.arrRef spec14 0) : FVec Ideal S2048x256 .f32) = x7 m ρ c := KHost.host14_keep_x (W28 m ρ c)
  have hw : ∀ k : Fin 256, (V29 m ρ c (Pipeline.arrRef spec14 1) : FVec Ideal S256x204 .f32) (ix2 k q) = rd2 (R := 256) (C := 408) (a20 m c) k (hi q) :=
    fun k => (KHost.host14_w_at (W28 m ρ c) k q).trans (congrFun (KArgs.W28_arg20 m ρ c) _)
  have hb : (V29 m ρ c (Pipeline.arrRef spec14 2) : FVec Ideal S1x204 .f32) (ix2 (0 : Fin 1) q) = rd1 (C := 408) (a21 m c) (hi q) :=
    (KHost.host14_bias_at (W28 m ρ c) q).trans (congrFun (KArgs.W28_arg21 m ρ c) _)
  rw [hx]
  unfold KDenseAt.denseAt rd2
  rw [hb]
  exact congrArg (fun v : EReal => Ideal.logistic (v + rd1 (C := 408) (a21 m c) (hi q)))
    (Finset.sum_congr rfl fun k _ => congrArg (fun w : EReal => (x7 m ρ c) (ix2 r k) * w) (hw k))

end Cert.KernelIdeal.KChain

end
-- ==== Proof.KDense10.lean ====
/-
  A dense layer with batch statistics, as the three arrays its region leaves: the layer's output y = x · w + b, the
  column sums of y, and the column sums of y · y.

  The region has one grid point and every window's block is its whole array.  At that point the body first stores the
  zero row into both accumulators, then stores y, then adds the column sums of y (of y · y) onto what it reads back
  from the accumulators — the zero rows.  So the block the point reads of each operand is the operand as the region
  is entered, each output's staging buffer ends at one payload of those, and the one write-back covers each array.
  At the ideal values y at (r, q) is (∑ k, x (r, k) · w (k, q)) + b (0, q), and 0 + s = s.
-/
import proofs.«132586_j38087769981032_1_alg».proof.Proof.Gen.KernelIdeal.Frame
import proofs.«132586_j38087769981032_1_alg».proof.Proof.KDenseAt
import Idealize.ShloMosaic.Lib.Pipeline.Value
import Idealize.ShloMosaic.Lib.Tactic

noncomputable section

namespace Cert.KernelIdeal.KDense10

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

/-! ## The stored values at an index, at the ideal values -/

/-- The layer's output at (r, q): row r of x against column q of w, plus bias q. -/
theorem pay3_apply (x : Vec Ideal S2048x128 .f32) (w : Vec Ideal S128x512 .f32) (b : Vec Ideal S1x512 .f32)
    (r : Fin 2048) (q : Fin 512) :
    k10_pay3 x w b (ix2 r q) = (∑ k : Fin 128, x (ix2 r k) * w (ix2 k q)) + b (ix2 (0 : Fin 1) q) := by
  unfold k10_pay3
  have hx : shapeCast S2048x128 x shapeCasts_S2048x128_S2048x128 = x := shapeCast_self _ _
  have hb : shapeCast S1x512 b shapeCasts_S1x512_S1x512 = b := shapeCast_self _ _
  show FloatOps.matmul (F := Ideal) dot_S2048x128_S128x512_S2048x512_1_0_0_1_n_n none
          (shapeCast S2048x128 x shapeCasts_S2048x128_S2048x128) w
          (constant (F := Ideal) S2048x512 FTy.f32 0x00000000#32) (ix2 r q)
        + broadcastTo S2048x512 (shapeCast S1x512 b shapeCasts_S1x512_S1x512) broadcasts_S1x512_S2048x512 (ix2 r q) = _
  rw [hx, hb]
  exact Cert.KernelIdeal.KDenseAt.dense_at (R := 2048) (K := 128) (C := 512) dot_S2048x128_S128x512_S2048x512_1_0_0_1_n_n rfl none x w b
      broadcasts_S1x512_S2048x512 r q

/-- The column-sum store at (0, q): the accumulator's entry plus the sum over the rows of the layer's output. -/
theorem pay4_apply (x : Vec Ideal S2048x128 .f32) (w : Vec Ideal S128x512 .f32) (b : Vec Ideal S1x512 .f32)
    (acc : Vec Ideal S1x512 .f32) (q : Fin 512) :
    k10_pay4 x w b acc (ix2 (0 : Fin 1) q)
      = acc (ix2 (0 : Fin 1) q) + ∑ r : Fin 2048, k10_pay3 x w b (ix2 r q) := by
  unfold k10_pay4
  have ha : shapeCast S1x512 acc shapeCasts_S1x512_S1x512 = acc := shapeCast_self _ _
  exact congrArg₂ (· + ·) (congrFun ha _)
    (Cert.KernelIdeal.KDenseAt.colsum_at (R := 2048) (C := 512) (k10_pay3 x w b) reduces_S2048x512_S512 (.inl rfl) rfl
      shapeCasts_S512_S1x512 q)

/-- The column-sum-of-squares store at (0, q): the accumulator's entry plus the sum over the rows of the squared
    output. -/
theorem pay5_apply (x : Vec Ideal S2048x128 .f32) (w : Vec Ideal S128x512 .f32) (b : Vec Ideal S1x512 .f32)
    (acc : Vec Ideal S1x512 .f32) (q : Fin 512) :
    k10_pay5 x w b acc (ix2 (0 : Fin 1) q)
      = acc (ix2 (0 : Fin 1) q) + ∑ r : Fin 2048, k10_pay3 x w b (ix2 r q) * k10_pay3 x w b (ix2 r q) := by
  unfold k10_pay5
  have ha : shapeCast S1x512 acc shapeCasts_S1x512_S1x512 = acc := shapeCast_self _ _
  exact congrArg₂ (· + ·) (congrFun ha _)
    (Cert.KernelIdeal.KDenseAt.colsum_at (R := 2048) (C := 512) (mulf (k10_pay3 x w b) (k10_pay3 x w b))
      reduces_S2048x512_S512 (.inl rfl) rfl shapeCasts_S512_S1x512 q)

/-- The two rows the accumulators are reset to are zero everywhere. -/
theorem pay1_apply (i : S1x512.Idx) : k10_pay1 (F := Ideal) i = 0 := by
  unfold k10_pay1
  exact Ideal.ofBits_zero_f32
theorem pay2_apply (i : S1x512.Idx) : k10_pay2 (F := Ideal) i = 0 := by
  unfold k10_pay2
  exact Ideal.ofBits_zero_f32

/-! ## From the blocks to the arrays, for any float values -/

section AnyValues

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! The pieces the body's run leaves in each output's staging buffer, read back as values: each buffer's last store
covers it, the operands' loads read whole buffers, and the accumulators' loads read back the zero rows just stored. -/

/-- The first output's staging buffer ends at the layer's output of the loaded operands. -/
theorem out3_eq (c : Dev nD) (i : grid10.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S1x512 .f32) (harg6 : arg6.IsWhole) (hc0 : cond10_0 i)
    (x0 : Vec F S2048x128 .f32) (x1 : Vec F S128x512 .f32) (x2 : Vec F S1x512 .f32) :
    out10_A_3 c i arg1 harg1 arg2 harg2 arg3 harg3 arg4 harg4 arg5 harg5 arg6 harg6 hc0 x0 x1 x2 = k10_pay3 x0 x1 x2 := by
  unfold out10_A_3
  rw [View.read_writes_eq_canon _ _ _ (cover10_A_3 c i arg1 harg1 arg2 harg2 arg3 harg3 arg4 harg4 arg5 harg5 arg6 harg6 hc0 x0 x1 x2)]
  unfold kernelRun10_A
  dsimp only
  (try sl_unfold_words)
  rw [View.canon_unit_zero hz]
  simp only [View.readAt_eq_ld, harg1.read_unread, harg2.read_unread, harg3.read_unread, View.ld_unit_zero (S := S2048x128) hz, View.ld_unit_zero (S := S128x512) hz, View.ld_unit_zero (S := S1x512) hz]

/-- The second output's staging buffer ends at the column-sum payload over the zero row. -/
theorem out4_eq (c : Dev nD) (i : grid10.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S1x512 .f32) (harg6 : arg6.IsWhole) (hc0 : cond10_0 i)
    (x0 : Vec F S2048x128 .f32) (x1 : Vec F S128x512 .f32) (x2 : Vec F S1x512 .f32) :
    out10_A_4 c i arg1 harg1 arg2 harg2 arg3 harg3 arg4 harg4 arg5 harg5 arg6 harg6 hc0 x0 x1 x2 = k10_pay4 x0 x1 x2 k10_pay1 := by
  unfold out10_A_4
  rw [View.read_writes_eq_canon _ _ _ (cover10_A_4 c i arg1 harg1 arg2 harg2 arg3 harg3 arg4 harg4 arg5 harg5 arg6 harg6 hc0 x0 x1 x2)]
  unfold kernelRun10_A
  dsimp only
  sl_unfold_words
  rw [View.canon_cons_unit_zero (S := S1x512) hz, View.readCov_unit_zero (S := S1x512) _ hz]
  simp only [View.readAt_eq_ld, harg1.read_unread, harg2.read_unread, harg3.read_unread, View.ld_unit_zero (S := S2048x128) hz, View.ld_unit_zero (S := S128x512) hz, View.ld_unit_zero (S := S1x512) hz]

/-- The third output's staging buffer ends at the column-sum-of-squares payload over the zero row. -/
theorem out5_eq (c : Dev nD) (i : grid10.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2048x512 .f32) (harg4 : arg4.IsWhole) (arg5 : Memref sig .tc .vmem S1x512 .f32) (harg5 : arg5.IsWhole) (arg6 : Memref sig .tc .vmem S1x512 .f32) (harg6 : arg6.IsWhole) (hc0 : cond10_0 i)
    (x0 : Vec F S2048x128 .f32) (x1 : Vec F S128x512 .f32) (x2 : Vec F S1x512 .f32) :
    out10_A_5 c i arg1 harg1 arg2 harg2 arg3 harg3 arg4 harg4 arg5 harg5 arg6 harg6 hc0 x0 x1 x2 = k10_pay5 x0 x1 x2 k10_pay2 := by
  unfold out10_A_5
  rw [View.read_writes_eq_canon _ _ _ (cover10_A_5 c i arg1 harg1 arg2 harg2 arg3 harg3 arg4 harg4 arg5 harg5 arg6 harg6 hc0 x0 x1 x2)]
  unfold kernelRun10_A
  dsimp only
  sl_unfold_words
  rw [View.canon_cons_unit_zero (S := S1x512) hz, View.readCov_unit_zero (S := S1x512) _ hz]
  simp only [View.readAt_eq_ld, harg1.read_unread, harg2.read_unread, harg3.read_unread, View.ld_unit_zero (S := S2048x128) hz, View.ld_unit_zero (S := S128x512) hz, View.ld_unit_zero (S := S1x512) hz]

/-- Every window's block index is (0, 0) at the one grid point. -/
theorem idx_facts : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-! The block of each operand the point reads is the operand as the region is entered. -/

theorem iblk_0 (c : Dev nD) (t : Fin cfg10.N) :
    iblk10 V c 0 t = (V c (Pipeline.arrRef spec10 0) : S2048x128.Idx → Elt F .f32) := by
  obtain ⟨e0, e1, -, -, -, -, -, -, -, -, -, -⟩ := idx_facts t
  funext j
  show V c (Pipeline.arrRef spec10 0) (((cfg10.win 0).blk t).view.emb j) = V c (Pipeline.arrRef spec10 0) j
  refine congrArg _ (funext fun a => Fin.ext ?_)
  match a with
  | ⟨0, _⟩ => show win10_0.index t (0 : Fin 2) * 2048 + 1 * (j 0).val = (j 0).val; omega
  | ⟨1, _⟩ => show win10_0.index t (1 : Fin 2) * 128 + 1 * (j 1).val = (j 1).val; omega

theorem iblk_1 (c : Dev nD) (t : Fin cfg10.N) :
    iblk10 V c 1 t = (V c (Pipeline.arrRef spec10 1) : S128x512.Idx → Elt F .f32) := by
  obtain ⟨-, -, e0, e1, -, -, -, -, -, -, -, -⟩ := idx_facts t
  funext j
  show V c (Pipeline.arrRef spec10 1) (((cfg10.win 1).blk t).view.emb j) = V c (Pipeline.arrRef spec10 1) j
  refine congrArg _ (funext fun a => Fin.ext ?_)
  match a with
  | ⟨0, _⟩ => show win10_1.index t (0 : Fin 2) * 128 + 1 * (j 0).val = (j 0).val; omega
  | ⟨1, _⟩ => show win10_1.index t (1 : Fin 2) * 512 + 1 * (j 1).val = (j 1).val; omega

theorem iblk_2 (c : Dev nD) (t : Fin cfg10.N) :
    iblk10 V c 2 t = (V c (Pipeline.arrRef spec10 2) : S1x512.Idx → Elt F .f32) := by
  obtain ⟨-, -, -, -, e0, e1, -, -, -, -, -, -⟩ := idx_facts t
  funext j
  show V c (Pipeline.arrRef spec10 2) (((cfg10.win 2).blk t).view.emb j) = V c (Pipeline.arrRef spec10 2) j
  refine congrArg _ (funext fun a => Fin.ext ?_)
  match a with
  | ⟨0, _⟩ => show win10_2.index t (0 : Fin 2) * 1 + 1 * (j 0).val = (j 0).val; omega
  | ⟨1, _⟩ => show win10_2.index t (1 : Fin 2) * 512 + 1 * (j 1).val = (j 1).val; omega

/-- What the three output arrays end holding: the body's payloads of the operands as the region is entered, the
    accumulators read back at the zero rows. -/
abbrev resY (c : Dev nD) : S2048x512.Idx → Elt F .f32 :=
  k10_pay3 (V c (Pipeline.arrRef spec10 0)) (V c (Pipeline.arrRef spec10 1)) (V c (Pipeline.arrRef spec10 2))
abbrev resS (c : Dev nD) : S1x512.Idx → Elt F .f32 :=
  k10_pay4 (V c (Pipeline.arrRef spec10 0)) (V c (Pipeline.arrRef spec10 1)) (V c (Pipeline.arrRef spec10 2)) k10_pay1
abbrev resSS (c : Dev nD) : S1x512.Idx → Elt F .f32 :=
  k10_pay5 (V c (Pipeline.arrRef spec10 0)) (V c (Pipeline.arrRef spec10 1)) (V c (Pipeline.arrRef spec10 2)) k10_pay2

/-- What the outputs' staging buffers hold after the point: the three payloads of the operands. -/
theorem outs3 (c : Dev nD) (t : Fin cfg10.N) : (outsAt10 V c t).1 = resY V c := by
  unfold outsAt10
  dsimp only
  rw [out3_eq c (grid10.coords t) (ms10_0 t) (hs10_0 t) (ms10_1 t) (hs10_1 t) (ms10_2 t) (hs10_2 t) (ms10_3 t) (hs10_3 t) (ms10_4 t) (hs10_4 t) (ms10_5 t) (hs10_5 t) (hcond10_0 t) (iblk10 V c 0 t) (iblk10 V c 1 t) (iblk10 V c 2 t),
    iblk_0 V c t, iblk_1 V c t, iblk_2 V c t]
theorem outs4 (c : Dev nD) (t : Fin cfg10.N) : (outsAt10 V c t).2.1 = resS V c := by
  unfold outsAt10
  dsimp only
  rw [out4_eq c (grid10.coords t) (ms10_0 t) (hs10_0 t) (ms10_1 t) (hs10_1 t) (ms10_2 t) (hs10_2 t) (ms10_3 t) (hs10_3 t) (ms10_4 t) (hs10_4 t) (ms10_5 t) (hs10_5 t) (hcond10_0 t) (iblk10 V c 0 t) (iblk10 V c 1 t) (iblk10 V c 2 t),
    iblk_0 V c t, iblk_1 V c t, iblk_2 V c t]
theorem outs5 (c : Dev nD) (t : Fin cfg10.N) : (outsAt10 V c t).2.2 = resSS V c := by
  unfold outsAt10
  dsimp only
  rw [out5_eq c (grid10.coords t) (ms10_0 t) (hs10_0 t) (ms10_1 t) (hs10_1 t) (ms10_2 t) (hs10_2 t) (ms10_3 t) (hs10_3 t) (ms10_4 t) (hs10_4 t) (ms10_5 t) (hs10_5 t) (hcond10_0 t) (iblk10 V c 0 t) (iblk10 V c 1 t) (iblk10 V c 2 t),
    iblk_0 V c t, iblk_1 V c t, iblk_2 V c t]

/-- What the point writes back to output window 3 is its block — the whole array — of `resY`. -/
theorem flushed3_eq (c : Dev nD) (t : Fin cfg10.N) :
    (dat10 V c).flushed 3 t = ((cfg10.win 3).blk t).view.read (Elt F) (resY V c) := by
  show (cfg10.win 3).cut (grid10.coords t) ((dat10 V c).after 3 t) = _
  rw [after10_3, outs3]
  obtain ⟨-, -, -, -, -, -, e0, e1, -, -, -, -⟩ := idx_facts t
  funext j
  show resY V c j = resY V c (((cfg10.win 3).blk t).view.emb j)
  refine congrArg _ (funext fun a => Fin.ext ?_)
  match a with
  | ⟨0, _⟩ => show (j 0).val = win10_3.index t (0 : Fin 2) * 2048 + 1 * (j 0).val; omega
  | ⟨1, _⟩ => show (j 1).val = win10_3.index t (1 : Fin 2) * 512 + 1 * (j 1).val; omega

/-- An index of output window 3's array is in the point's block iff each coordinate is in the block's range. -/
theorem mem_blk3 (t : Fin cfg10.N) (i : S2048x512.Idx) :
    i ∈ ((cfg10.win 3).blk t).view.set ↔ ∀ a : Fin 2, win10_3.index t a * S2048x512.size a ≤ (i a).val
      ∧ (i a).val < win10_3.index t a * S2048x512.size a + S2048x512.size a := by
  show i ∈ ((View.whole main_v151_0).slice (win10_3.rect t)).set ↔ _
  rw [View.set_slice_whole, Rect.mem_set_unit]
  exact Iff.rfl

/-- Output window 3's array after the region is `resY`: the one point's block covers it. -/
theorem final3 (c : Dev nD) : (dat10 V c).arrAt 3 cfg10.N = resY V c :=
  (dat10 V c).arrAt_eq_of_cover 3 (resY V c) (fun t _ => flushed3_eq V c t) fun i =>
    ⟨t10_0, flush10_3 t10_0, by
      rw [mem_blk3]
      obtain ⟨-, -, -, -, -, -, e0, e1, -, -, -, -⟩ := idx_facts t10_0
      have h0 : (i 0).val < 2048 := (i 0).isLt
      have h1 : (i 1).val < 512 := (i 1).isLt
      intro a
      match a with
      | ⟨0, _⟩ => show win10_3.index t10_0 (0 : Fin 2) * 2048 ≤ (i 0).val ∧ (i 0).val < win10_3.index t10_0 (0 : Fin 2) * 2048 + 2048; omega
      | ⟨1, _⟩ => show win10_3.index t10_0 (1 : Fin 2) * 512 ≤ (i 1).val ∧ (i 1).val < win10_3.index t10_0 (1 : Fin 2) * 512 + 512; omega⟩

/-- What the point writes back to output window 4 is its block — the whole array — of `resS`. -/
theorem flushed4_eq (c : Dev nD) (t : Fin cfg10.N) :
    (dat10 V c).flushed 4 t = ((cfg10.win 4).blk t).view.read (Elt F) (resS V c) := by
  show (cfg10.win 4).cut (grid10.coords t) ((dat10 V c).after 4 t) = _
  rw [after10_4, outs4]
  obtain ⟨-, -, -, -, -, -, -, -, e0, e1, -, -⟩ := idx_facts t
  funext j
  show resS V c j = resS V c (((cfg10.win 4).blk t).view.emb j)
  refine congrArg _ (funext fun a => Fin.ext ?_)
  match a with
  | ⟨0, _⟩ => show (j 0).val = win10_4.index t (0 : Fin 2) * 1 + 1 * (j 0).val; omega
  | ⟨1, _⟩ => show (j 1).val = win10_4.index t (1 : Fin 2) * 512 + 1 * (j 1).val; omega

/-- An index of output window 4's array is in the point's block iff each coordinate is in the block's range. -/
theorem mem_blk4 (t : Fin cfg10.N) (i : S1x512.Idx) :
    i ∈ ((cfg10.win 4).blk t).view.set ↔ ∀ a : Fin 2, win10_4.index t a * S1x512.size a ≤ (i a).val
      ∧ (i a).val < win10_4.index t a * S1x512.size a + S1x512.size a := by
  show i ∈ ((View.whole main_v151_1).slice (win10_4.rect t)).set ↔ _
  rw [View.set_slice_whole, Rect.mem_set_unit]
  exact Iff.rfl

/-- Output window 4's array after the region is `resS`: the one point's block covers it. -/
theorem final4 (c : Dev nD) : (dat10 V c).arrAt 4 cfg10.N = resS V c :=
  (dat10 V c).arrAt_eq_of_cover 4 (resS V c) (fun t _ => flushed4_eq V c t) fun i =>
    ⟨t10_0, flush10_4 t10_0, by
      rw [mem_blk4]
      obtain ⟨-, -, -, -, -, -, -, -, e0, e1, -, -⟩ := idx_facts t10_0
      have h0 : (i 0).val < 1 := (i 0).isLt
      have h1 : (i 1).val < 512 := (i 1).isLt
      intro a
      match a with
      | ⟨0, _⟩ => show win10_4.index t10_0 (0 : Fin 2) * 1 ≤ (i 0).val ∧ (i 0).val < win10_4.index t10_0 (0 : Fin 2) * 1 + 1; omega
      | ⟨1, _⟩ => show win10_4.index t10_0 (1 : Fin 2) * 512 ≤ (i 1).val ∧ (i 1).val < win10_4.index t10_0 (1 : Fin 2) * 512 + 512; omega⟩

/-- What the point writes back to output window 5 is its block — the whole array — of `resSS`. -/
theorem flushed5_eq (c : Dev nD) (t : Fin cfg10.N) :
    (dat10 V c).flushed 5 t = ((cfg10.win 5).blk t).view.read (Elt F) (resSS V c) := by
  show (cfg10.win 5).cut (grid10.coords t) ((dat10 V c).after 5 t) = _
  rw [after10_5, outs5]
  obtain ⟨-, -, -, -, -, -, -, -, -, -, e0, e1⟩ := idx_facts t
  funext j
  show resSS V c j = resSS V c (((cfg10.win 5).blk t).view.emb j)
  refine congrArg _ (funext fun a => Fin.ext ?_)
  match a with
  | ⟨0, _⟩ => show (j 0).val = win10_5.index t (0 : Fin 2) * 1 + 1 * (j 0).val; omega
  | ⟨1, _⟩ => show (j 1).val = win10_5.index t (1 : Fin 2) * 512 + 1 * (j 1).val; omega

/-- An index of output window 5's array is in the point's block iff each coordinate is in the block's range. -/
theorem mem_blk5 (t : Fin cfg10.N) (i : S1x512.Idx) :
    i ∈ ((cfg10.win 5).blk t).view.set ↔ ∀ a : Fin 2, win10_5.index t a * S1x512.size a ≤ (i a).val
      ∧ (i a).val < win10_5.index t a * S1x512.size a + S1x512.size a := by
  show i ∈ ((View.whole main_v151_2).slice (win10_5.rect t)).set ↔ _
  rw [View.set_slice_whole, Rect.mem_set_unit]
  exact Iff.rfl

/-- Output window 5's array after the region is `resSS`: the one point's block covers it. -/
theorem final5 (c : Dev nD) : (dat10 V c).arrAt 5 cfg10.N = resSS V c :=
  (dat10 V c).arrAt_eq_of_cover 5 (resSS V c) (fun t _ => flushed5_eq V c t) fun i =>
    ⟨t10_0, flush10_5 t10_0, by
      rw [mem_blk5]
      obtain ⟨-, -, -, -, -, -, -, -, -, -, e0, e1⟩ := idx_facts t10_0
      have h0 : (i 0).val < 1 := (i 0).isLt
      have h1 : (i 1).val < 512 := (i 1).isLt
      intro a
      match a with
      | ⟨0, _⟩ => show win10_5.index t10_0 (0 : Fin 2) * 1 ≤ (i 0).val ∧ (i 0).val < win10_5.index t10_0 (0 : Fin 2) * 1 + 1; omega
      | ⟨1, _⟩ => show win10_5.index t10_0 (1 : Fin 2) * 512 ≤ (i 1).val ∧ (i 1).val < win10_5.index t10_0 (1 : Fin 2) * 512 + 512; omega⟩

end AnyValues

/-! ## The region's values at the ideal values -/

section AtIdeal

variable (V : (c : Dev nD) → (b : Ref sig .tc) → Buf (Elt Ideal) ((c : Thread nD τ).loc b))

/-- After the region, the first output array at (r, q) is the layer's output (∑ k, x (r, k) · w (k, q)) + b (0, q), for
    x, w, b the three operand arrays as the region is entered. -/
theorem valueY_of (c : Dev nD) (x : Vec Ideal S2048x128 .f32) (w : Vec Ideal S128x512 .f32) (b : Vec Ideal S1x512 .f32)
    (hx : V c (Pipeline.arrRef spec10 0) = x) (hw : V c (Pipeline.arrRef spec10 1) = w)
    (hb : V c (Pipeline.arrRef spec10 2) = b) (r : Fin 2048) (q : Fin 512) :
    (dat10 V c).arrAt 3 cfg10.N (ix2 r q) = Cert.KernelIdeal.KDenseAt.denseAt (R := 2048) (K := 128) (C := 512) x w b r q := by
  subst hx; subst hw; subst hb
  exact (congrFun (final3 V c) (ix2 r q)).trans (pay3_apply _ _ _ r q)

/-- After the region, the second output array at (0, q) is the sum over the rows of the layer's output: the accumulator
    the sums are added onto is the zero row, and 0 + s = s. -/
theorem valueS_of (c : Dev nD) (x : Vec Ideal S2048x128 .f32) (w : Vec Ideal S128x512 .f32) (b : Vec Ideal S1x512 .f32)
    (hx : V c (Pipeline.arrRef spec10 0) = x) (hw : V c (Pipeline.arrRef spec10 1) = w)
    (hb : V c (Pipeline.arrRef spec10 2) = b) (q : Fin 512) :
    (dat10 V c).arrAt 4 cfg10.N (ix2 (0 : Fin 1) q) = ∑ r : Fin 2048, Cert.KernelIdeal.KDenseAt.denseAt (R := 2048) (K := 128) (C := 512) x w b r q := by
  subst hx; subst hw; subst hb
  refine (congrFun (final4 V c) (ix2 (0 : Fin 1) q)).trans ((pay4_apply _ _ _ _ q).trans ?_)
  rw [pay1_apply, zero_add]
  exact Finset.sum_congr rfl fun r _ => pay3_apply _ _ _ r q

/-- After the region, the third output array at (0, q) is the sum over the rows of the squared output. -/
theorem valueSS_of (c : Dev nD) (x : Vec Ideal S2048x128 .f32) (w : Vec Ideal S128x512 .f32) (b : Vec Ideal S1x512 .f32)
    (hx : V c (Pipeline.arrRef spec10 0) = x) (hw : V c (Pipeline.arrRef spec10 1) = w)
    (hb : V c (Pipeline.arrRef spec10 2) = b) (q : Fin 512) :
    (dat10 V c).arrAt 5 cfg10.N (ix2 (0 : Fin 1) q)
      = ∑ r : Fin 2048, Cert.KernelIdeal.KDenseAt.denseAt (R := 2048) (K := 128) (C := 512) x w b r q * Cert.KernelIdeal.KDenseAt.denseAt (R := 2048) (K := 128) (C := 512) x w b r q := by
  subst hx; subst hw; subst hb
  refine (congrFun (final5 V c) (ix2 (0 : Fin 1) q)).trans ((pay5_apply _ _ _ _ q).trans ?_)
  rw [pay2_apply, zero_add]
  exact Finset.sum_congr rfl fun r _ => congrArg₂ (· * ·) (pay3_apply _ _ _ r q) (pay3_apply _ _ _ r q)

/-! The same with the operand arrays named as the region finds them. -/

theorem valueY (c : Dev nD) (r : Fin 2048) (q : Fin 512) :
    (dat10 V c).arrAt 3 cfg10.N (ix2 r q) = Cert.KernelIdeal.KDenseAt.denseAt (R := 2048) (K := 128) (C := 512)
        (V c (Pipeline.arrRef spec10 0)) (V c (Pipeline.arrRef spec10 1)) (V c (Pipeline.arrRef spec10 2)) r q :=
  valueY_of V c _ _ _ rfl rfl rfl r q

theorem valueS (c : Dev nD) (q : Fin 512) :
    (dat10 V c).arrAt 4 cfg10.N (ix2 (0 : Fin 1) q) = ∑ r : Fin 2048, Cert.KernelIdeal.KDenseAt.denseAt (R := 2048) (K := 128) (C := 512)
        (V c (Pipeline.arrRef spec10 0)) (V c (Pipeline.arrRef spec10 1)) (V c (Pipeline.arrRef spec10 2)) r q :=
  valueS_of V c _ _ _ rfl rfl rfl q

theorem valueSS (c : Dev nD) (q : Fin 512) :
    (dat10 V c).arrAt 5 cfg10.N (ix2 (0 : Fin 1) q)
      = ∑ r : Fin 2048, Cert.KernelIdeal.KDenseAt.denseAt (R := 2048) (K := 128) (C := 512)
        (V c (Pipeline.arrRef spec10 0)) (V c (Pipeline.arrRef spec10 1)) (V c (Pipeline.arrRef spec10 2)) r q
          * Cert.KernelIdeal.KDenseAt.denseAt (R := 2048) (K := 128) (C := 512)
        (V c (Pipeline.arrRef spec10 0)) (V c (Pipeline.arrRef spec10 1)) (V c (Pipeline.arrRef spec10 2)) r q :=
  valueSS_of V c _ _ _ rfl rfl rfl q

end AtIdeal

end Cert.KernelIdeal.KDense10

end
-- ==== Proof.KDense12.lean ====
/-
  A dense layer with batch statistics, as the three arrays its region leaves: the layer's output y = x · w + b, the
  column sums of y, and the column sums of y · y.

  The region has one grid point and every window's block is its whole array.  At that point the body first stores the
  zero row into both accumulators, then stores y, then adds the column sums of y (of y · y) onto what it reads back
  from the accumulators — the zero rows.  So the block the point reads of each operand is the operand as the region
  is entered, each output's staging buffer ends at one payload of those, and the one write-back covers each array.
  At the ideal values y at (r, q) is (∑ k, x (r, k) · w (k, q)) + b (0, q), and 0 + s = s.
-/
import proofs.«132586_j38087769981032_1_alg».proof.Proof.Gen.KernelIdeal.Frame
import proofs.«132586_j38087769981032_1_alg».proof.Proof.KDenseAt
import Idealize.ShloMosaic.Lib.Pipeline.Value
import Idealize.ShloMosaic.Lib.Tactic

noncomputable section

namespace Cert.KernelIdeal.KDense12

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

/-! ## The stored values at an index, at the ideal values -/

/-- The layer's output at (r, q): row r of x against column q of w, plus bias q. -/
theorem pay3_apply (x : Vec Ideal S2048x512 .f32) (w : Vec Ideal S512x256 .f32) (b : Vec Ideal S1x256 .f32)
    (r : Fin 2048) (q : Fin 256) :
    k12_pay3 x w b (ix2 r q) = (∑ k : Fin 512, x (ix2 r k) * w (ix2 k q)) + b (ix2 (0 : Fin 1) q) := by
  unfold k12_pay3
  have hx : shapeCast S2048x512 x shapeCasts_S2048x512_S2048x512 = x := shapeCast_self _ _
  have hb : shapeCast S1x256 b shapeCasts_S1x256_S1x256 = b := shapeCast_self _ _
  show FloatOps.matmul (F := Ideal) dot_S2048x512_S512x256_S2048x256_1_0_0_1_n_n none
          (shapeCast S2048x512 x shapeCasts_S2048x512_S2048x512) w
          (constant (F := Ideal) S2048x256 FTy.f32 0x00000000#32) (ix2 r q)
        + broadcastTo S2048x256 (shapeCast S1x256 b shapeCasts_S1x256_S1x256) broadcasts_S1x256_S2048x256 (ix2 r q) = _
  rw [hx, hb]
  exact Cert.KernelIdeal.KDenseAt.dense_at (R := 2048) (K := 512) (C := 256) dot_S2048x512_S512x256_S2048x256_1_0_0_1_n_n rfl none x w b
      broadcasts_S1x256_S2048x256 r q

/-- The column-sum store at (0, q): the accumulator's entry plus the sum over the rows of the layer's output. -/
theorem pay4_apply (x : Vec Ideal S2048x512 .f32) (w : Vec Ideal S512x256 .f32) (b : Vec Ideal S1x256 .f32)
    (acc : Vec Ideal S1x256 .f32) (q : Fin 256) :
    k12_pay4 x w b acc (ix2 (0 : Fin 1) q)
      = acc (ix2 (0 : Fin 1) q) + ∑ r : Fin 2048, k12_pay3 x w b (ix2 r q) := by
  unfold k12_pay4
  have ha : shapeCast S1x256 acc shapeCasts_S1x256_S1x256 = acc := shapeCast_self _ _
  exact congrArg₂ (· + ·) (congrFun ha _)
    (Cert.KernelIdeal.KDenseAt.colsum_at (R := 2048) (C := 256) (k12_pay3 x w b) reduces_S2048x256_S256 (.inl rfl) rfl
      shapeCasts_S256_S1x256 q)

/-- The column-sum-of-squares store at (0, q): the accumulator's entry plus the sum over the rows of the squared
    output. -/
theorem pay5_apply (x : Vec Ideal S2048x512 .f32) (w : Vec Ideal S512x256 .f32) (b : Vec Ideal S1x256 .f32)
    (acc : Vec Ideal S1x256 .f32) (q : Fin 256) :
    k12_pay5 x w b acc (ix2 (0 : Fin 1) q)
      = acc (ix2 (0 : Fin 1) q) + ∑ r : Fin 2048, k12_pay3 x w b (ix2 r q) * k12_pay3 x w b (ix2 r q) := by
  unfold k12_pay5
  have ha : shapeCast S1x256 acc shapeCasts_S1x256_S1x256 = acc := shapeCast_self _ _
  exact congrArg₂ (· + ·) (congrFun ha _)
    (Cert.KernelIdeal.KDenseAt.colsum_at (R := 2048) (C := 256) (mulf (k12_pay3 x w b) (k12_pay3 x w b))
      reduces_S2048x256_S256 (.inl rfl) rfl shapeCasts_S256_S1x256 q)

/-- The two rows the accumulators are reset to are zero everywhere. -/
theorem pay1_apply (i : S1x256.Idx) : k12_pay1 (F := Ideal) i = 0 := by
  unfold k12_pay1
  exact Ideal.ofBits_zero_f32
theorem pay2_apply (i : S1x256.Idx) : k12_pay2 (F := Ideal) i = 0 := by
  unfold k12_pay2
  exact Ideal.ofBits_zero_f32

/-! ## From the blocks to the arrays, for any float values -/

section AnyValues

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! The pieces the body's run leaves in each output's staging buffer, read back as values: each buffer's last store
covers it, the operands' loads read whole buffers, and the accumulators' loads read back the zero rows just stored. -/

/-- The first output's staging buffer ends at the layer's output of the loaded operands. -/
theorem out3_eq (c : Dev nD) (i : grid12.Coords) (arg1 : Memref sig .tc .vmem S2048x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (hc0 : cond12_0 i)
    (x0 : Vec F S2048x512 .f32) (x1 : Vec F S512x256 .f32) (x2 : Vec F S1x256 .f32) :
    out12_A_3 c i arg1 harg1 arg2 harg2 arg3 harg3 arg4 harg4 arg5 harg5 arg6 harg6 hc0 x0 x1 x2 = k12_pay3 x0 x1 x2 := by
  unfold out12_A_3
  rw [View.read_writes_eq_canon _ _ _ (cover12_A_3 c i arg1 harg1 arg2 harg2 arg3 harg3 arg4 harg4 arg5 harg5 arg6 harg6 hc0 x0 x1 x2)]
  unfold kernelRun12_A
  dsimp only
  (try sl_unfold_words)
  rw [View.canon_unit_zero hz]
  simp only [View.readAt_eq_ld, harg1.read_unread, harg2.read_unread, harg3.read_unread, View.ld_unit_zero (S := S2048x512) hz, View.ld_unit_zero (S := S512x256) hz, View.ld_unit_zero (S := S1x256) hz]

/-- The second output's staging buffer ends at the column-sum payload over the zero row. -/
theorem out4_eq (c : Dev nD) (i : grid12.Coords) (arg1 : Memref sig .tc .vmem S2048x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (hc0 : cond12_0 i)
    (x0 : Vec F S2048x512 .f32) (x1 : Vec F S512x256 .f32) (x2 : Vec F S1x256 .f32) :
    out12_A_4 c i arg1 harg1 arg2 harg2 arg3 harg3 arg4 harg4 arg5 harg5 arg6 harg6 hc0 x0 x1 x2 = k12_pay4 x0 x1 x2 k12_pay1 := by
  unfold out12_A_4
  rw [View.read_writes_eq_canon _ _ _ (cover12_A_4 c i arg1 harg1 arg2 harg2 arg3 harg3 arg4 harg4 arg5 harg5 arg6 harg6 hc0 x0 x1 x2)]
  unfold kernelRun12_A
  dsimp only
  sl_unfold_words
  rw [View.canon_cons_unit_zero (S := S1x256) hz, View.readCov_unit_zero (S := S1x256) _ hz]
  simp only [View.readAt_eq_ld, harg1.read_unread, harg2.read_unread, harg3.read_unread, View.ld_unit_zero (S := S2048x512) hz, View.ld_unit_zero (S := S512x256) hz, View.ld_unit_zero (S := S1x256) hz]

/-- The third output's staging buffer ends at the column-sum-of-squares payload over the zero row. -/
theorem out5_eq (c : Dev nD) (i : grid12.Coords) (arg1 : Memref sig .tc .vmem S2048x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S1x256 .f32) (harg6 : arg6.IsWhole) (hc0 : cond12_0 i)
    (x0 : Vec F S2048x512 .f32) (x1 : Vec F S512x256 .f32) (x2 : Vec F S1x256 .f32) :
    out12_A_5 c i arg1 harg1 arg2 harg2 arg3 harg3 arg4 harg4 arg5 harg5 arg6 harg6 hc0 x0 x1 x2 = k12_pay5 x0 x1 x2 k12_pay2 := by
  unfold out12_A_5
  rw [View.read_writes_eq_canon _ _ _ (cover12_A_5 c i arg1 harg1 arg2 harg2 arg3 harg3 arg4 harg4 arg5 harg5 arg6 harg6 hc0 x0 x1 x2)]
  unfold kernelRun12_A
  dsimp only
  sl_unfold_words
  rw [View.canon_cons_unit_zero (S := S1x256) hz, View.readCov_unit_zero (S := S1x256) _ hz]
  simp only [View.readAt_eq_ld, harg1.read_unread, harg2.read_unread, harg3.read_unread, View.ld_unit_zero (S := S2048x512) hz, View.ld_unit_zero (S := S512x256) hz, View.ld_unit_zero (S := S1x256) hz]

/-- Every window's block index is (0, 0) at the one grid point. -/
theorem idx_facts : ∀ t : Fin cfg12.N, win12_0.index t (0 : Fin 2) = 0 ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0 :=
  (by decide +kernel : ∀ t : Fin grid12.N, _)

/-! The block of each operand the point reads is the operand as the region is entered. -/

theorem iblk_0 (c : Dev nD) (t : Fin cfg12.N) :
    iblk12 V c 0 t = (V c (Pipeline.arrRef spec12 0) : S2048x512.Idx → Elt F .f32) := by
  obtain ⟨e0, e1, -, -, -, -, -, -, -, -, -, -⟩ := idx_facts t
  funext j
  show V c (Pipeline.arrRef spec12 0) (((cfg12.win 0).blk t).view.emb j) = V c (Pipeline.arrRef spec12 0) j
  refine congrArg _ (funext fun a => Fin.ext ?_)
  match a with
  | ⟨0, _⟩ => show win12_0.index t (0 : Fin 2) * 2048 + 1 * (j 0).val = (j 0).val; omega
  | ⟨1, _⟩ => show win12_0.index t (1 : Fin 2) * 512 + 1 * (j 1).val = (j 1).val; omega

theorem iblk_1 (c : Dev nD) (t : Fin cfg12.N) :
    iblk12 V c 1 t = (V c (Pipeline.arrRef spec12 1) : S512x256.Idx → Elt F .f32) := by
  obtain ⟨-, -, e0, e1, -, -, -, -, -, -, -, -⟩ := idx_facts t
  funext j
  show V c (Pipeline.arrRef spec12 1) (((cfg12.win 1).blk t).view.emb j) = V c (Pipeline.arrRef spec12 1) j
  refine congrArg _ (funext fun a => Fin.ext ?_)
  match a with
  | ⟨0, _⟩ => show win12_1.index t (0 : Fin 2) * 512 + 1 * (j 0).val = (j 0).val; omega
  | ⟨1, _⟩ => show win12_1.index t (1 : Fin 2) * 256 + 1 * (j 1).val = (j 1).val; omega

theorem iblk_2 (c : Dev nD) (t : Fin cfg12.N) :
    iblk12 V c 2 t = (V c (Pipeline.arrRef spec12 2) : S1x256.Idx → Elt F .f32) := by
  obtain ⟨-, -, -, -, e0, e1, -, -, -, -, -, -⟩ := idx_facts t
  funext j
  show V c (Pipeline.arrRef spec12 2) (((cfg12.win 2).blk t).view.emb j) = V c (Pipeline.arrRef spec12 2) j
  refine congrArg _ (funext fun a => Fin.ext ?_)
  match a with
  | ⟨0, _⟩ => show win12_2.index t (0 : Fin 2) * 1 + 1 * (j 0).val = (j 0).val; omega
  | ⟨1, _⟩ => show win12_2.index t (1 : Fin 2) * 256 + 1 * (j 1).val = (j 1).val; omega

/-- What the three output arrays end holding: the body's payloads of the operands as the region is entered, the
    accumulators read back at the zero rows. -/
abbrev resY (c : Dev nD) : S2048x256.Idx → Elt F .f32 :=
  k12_pay3 (V c (Pipeline.arrRef spec12 0)) (V c (Pipeline.arrRef spec12 1)) (V c (Pipeline.arrRef spec12 2))
abbrev resS (c : Dev nD) : S1x256.Idx → Elt F .f32 :=
  k12_pay4 (V c (Pipeline.arrRef spec12 0)) (V c (Pipeline.arrRef spec12 1)) (V c (Pipeline.arrRef spec12 2)) k12_pay1
abbrev resSS (c : Dev nD) : S1x256.Idx → Elt F .f32 :=
  k12_pay5 (V c (Pipeline.arrRef spec12 0)) (V c (Pipeline.arrRef spec12 1)) (V c (Pipeline.arrRef spec12 2)) k12_pay2

/-- What the outputs' staging buffers hold after the point: the three payloads of the operands. -/
theorem outs3 (c : Dev nD) (t : Fin cfg12.N) : (outsAt12 V c t).1 = resY V c := by
  unfold outsAt12
  dsimp only
  rw [out3_eq c (grid12.coords t) (ms12_0 t) (hs12_0 t) (ms12_1 t) (hs12_1 t) (ms12_2 t) (hs12_2 t) (ms12_3 t) (hs12_3 t) (ms12_4 t) (hs12_4 t) (ms12_5 t) (hs12_5 t) (hcond12_0 t) (iblk12 V c 0 t) (iblk12 V c 1 t) (iblk12 V c 2 t),
    iblk_0 V c t, iblk_1 V c t, iblk_2 V c t]
theorem outs4 (c : Dev nD) (t : Fin cfg12.N) : (outsAt12 V c t).2.1 = resS V c := by
  unfold outsAt12
  dsimp only
  rw [out4_eq c (grid12.coords t) (ms12_0 t) (hs12_0 t) (ms12_1 t) (hs12_1 t) (ms12_2 t) (hs12_2 t) (ms12_3 t) (hs12_3 t) (ms12_4 t) (hs12_4 t) (ms12_5 t) (hs12_5 t) (hcond12_0 t) (iblk12 V c 0 t) (iblk12 V c 1 t) (iblk12 V c 2 t),
    iblk_0 V c t, iblk_1 V c t, iblk_2 V c t]
theorem outs5 (c : Dev nD) (t : Fin cfg12.N) : (outsAt12 V c t).2.2 = resSS V c := by
  unfold outsAt12
  dsimp only
  rw [out5_eq c (grid12.coords t) (ms12_0 t) (hs12_0 t) (ms12_1 t) (hs12_1 t) (ms12_2 t) (hs12_2 t) (ms12_3 t) (hs12_3 t) (ms12_4 t) (hs12_4 t) (ms12_5 t) (hs12_5 t) (hcond12_0 t) (iblk12 V c 0 t) (iblk12 V c 1 t) (iblk12 V c 2 t),
    iblk_0 V c t, iblk_1 V c t, iblk_2 V c t]

/-- What the point writes back to output window 3 is its block — the whole array — of `resY`. -/
theorem flushed3_eq (c : Dev nD) (t : Fin cfg12.N) :
    (dat12 V c).flushed 3 t = ((cfg12.win 3).blk t).view.read (Elt F) (resY V c) := by
  show (cfg12.win 3).cut (grid12.coords t) ((dat12 V c).after 3 t) = _
  rw [after12_3, outs3]
  obtain ⟨-, -, -, -, -, -, e0, e1, -, -, -, -⟩ := idx_facts t
  funext j
  show resY V c j = resY V c (((cfg12.win 3).blk t).view.emb j)
  refine congrArg _ (funext fun a => Fin.ext ?_)
  match a with
  | ⟨0, _⟩ => show (j 0).val = win12_3.index t (0 : Fin 2) * 2048 + 1 * (j 0).val; omega
  | ⟨1, _⟩ => show (j 1).val = win12_3.index t (1 : Fin 2) * 256 + 1 * (j 1).val; omega

/-- An index of output window 3's array is in the point's block iff each coordinate is in the block's range. -/
theorem mem_blk3 (t : Fin cfg12.N) (i : S2048x256.Idx) :
    i ∈ ((cfg12.win 3).blk t).view.set ↔ ∀ a : Fin 2, win12_3.index t a * S2048x256.size a ≤ (i a).val
      ∧ (i a).val < win12_3.index t a * S2048x256.size a + S2048x256.size a := by
  show i ∈ ((View.whole main_v162_0).slice (win12_3.rect t)).set ↔ _
  rw [View.set_slice_whole, Rect.mem_set_unit]
  exact Iff.rfl

/-- Output window 3's array after the region is `resY`: the one point's block covers it. -/
theorem final3 (c : Dev nD) : (dat12 V c).arrAt 3 cfg12.N = resY V c :=
  (dat12 V c).arrAt_eq_of_cover 3 (resY V c) (fun t _ => flushed3_eq V c t) fun i =>
    ⟨t12_0, flush12_3 t12_0, by
      rw [mem_blk3]
      obtain ⟨-, -, -, -, -, -, e0, e1, -, -, -, -⟩ := idx_facts t12_0
      have h0 : (i 0).val < 2048 := (i 0).isLt
      have h1 : (i 1).val < 256 := (i 1).isLt
      intro a
      match a with
      | ⟨0, _⟩ => show win12_3.index t12_0 (0 : Fin 2) * 2048 ≤ (i 0).val ∧ (i 0).val < win12_3.index t12_0 (0 : Fin 2) * 2048 + 2048; omega
      | ⟨1, _⟩ => show win12_3.index t12_0 (1 : Fin 2) * 256 ≤ (i 1).val ∧ (i 1).val < win12_3.index t12_0 (1 : Fin 2) * 256 + 256; omega⟩

/-- What the point writes back to output window 4 is its block — the whole array — of `resS`. -/
theorem flushed4_eq (c : Dev nD) (t : Fin cfg12.N) :
    (dat12 V c).flushed 4 t = ((cfg12.win 4).blk t).view.read (Elt F) (resS V c) := by
  show (cfg12.win 4).cut (grid12.coords t) ((dat12 V c).after 4 t) = _
  rw [after12_4, outs4]
  obtain ⟨-, -, -, -, -, -, -, -, e0, e1, -, -⟩ := idx_facts t
  funext j
  show resS V c j = resS V c (((cfg12.win 4).blk t).view.emb j)
  refine congrArg _ (funext fun a => Fin.ext ?_)
  match a with
  | ⟨0, _⟩ => show (j 0).val = win12_4.index t (0 : Fin 2) * 1 + 1 * (j 0).val; omega
  | ⟨1, _⟩ => show (j 1).val = win12_4.index t (1 : Fin 2) * 256 + 1 * (j 1).val; omega

/-- An index of output window 4's array is in the point's block iff each coordinate is in the block's range. -/
theorem mem_blk4 (t : Fin cfg12.N) (i : S1x256.Idx) :
    i ∈ ((cfg12.win 4).blk t).view.set ↔ ∀ a : Fin 2, win12_4.index t a * S1x256.size a ≤ (i a).val
      ∧ (i a).val < win12_4.index t a * S1x256.size a + S1x256.size a := by
  show i ∈ ((View.whole main_v162_1).slice (win12_4.rect t)).set ↔ _
  rw [View.set_slice_whole, Rect.mem_set_unit]
  exact Iff.rfl

/-- Output window 4's array after the region is `resS`: the one point's block covers it. -/
theorem final4 (c : Dev nD) : (dat12 V c).arrAt 4 cfg12.N = resS V c :=
  (dat12 V c).arrAt_eq_of_cover 4 (resS V c) (fun t _ => flushed4_eq V c t) fun i =>
    ⟨t12_0, flush12_4 t12_0, by
      rw [mem_blk4]
      obtain ⟨-, -, -, -, -, -, -, -, e0, e1, -, -⟩ := idx_facts t12_0
      have h0 : (i 0).val < 1 := (i 0).isLt
      have h1 : (i 1).val < 256 := (i 1).isLt
      intro a
      match a with
      | ⟨0, _⟩ => show win12_4.index t12_0 (0 : Fin 2) * 1 ≤ (i 0).val ∧ (i 0).val < win12_4.index t12_0 (0 : Fin 2) * 1 + 1; omega
      | ⟨1, _⟩ => show win12_4.index t12_0 (1 : Fin 2) * 256 ≤ (i 1).val ∧ (i 1).val < win12_4.index t12_0 (1 : Fin 2) * 256 + 256; omega⟩

/-- What the point writes back to output window 5 is its block — the whole array — of `resSS`. -/
theorem flushed5_eq (c : Dev nD) (t : Fin cfg12.N) :
    (dat12 V c).flushed 5 t = ((cfg12.win 5).blk t).view.read (Elt F) (resSS V c) := by
  show (cfg12.win 5).cut (grid12.coords t) ((dat12 V c).after 5 t) = _
  rw [after12_5, outs5]
  obtain ⟨-, -, -, -, -, -, -, -, -, -, e0, e1⟩ := idx_facts t
  funext j
  show resSS V c j = resSS V c (((cfg12.win 5).blk t).view.emb j)
  refine congrArg _ (funext fun a => Fin.ext ?_)
  match a with
  | ⟨0, _⟩ => show (j 0).val = win12_5.index t (0 : Fin 2) * 1 + 1 * (j 0).val; omega
  | ⟨1, _⟩ => show (j 1).val = win12_5.index t (1 : Fin 2) * 256 + 1 * (j 1).val; omega

/-- An index of output window 5's array is in the point's block iff each coordinate is in the block's range. -/
theorem mem_blk5 (t : Fin cfg12.N) (i : S1x256.Idx) :
    i ∈ ((cfg12.win 5).blk t).view.set ↔ ∀ a : Fin 2, win12_5.index t a * S1x256.size a ≤ (i a).val
      ∧ (i a).val < win12_5.index t a * S1x256.size a + S1x256.size a := by
  show i ∈ ((View.whole main_v162_2).slice (win12_5.rect t)).set ↔ _
  rw [View.set_slice_whole, Rect.mem_set_unit]
  exact Iff.rfl

/-- Output window 5's array after the region is `resSS`: the one point's block covers it. -/
theorem final5 (c : Dev nD) : (dat12 V c).arrAt 5 cfg12.N = resSS V c :=
  (dat12 V c).arrAt_eq_of_cover 5 (resSS V c) (fun t _ => flushed5_eq V c t) fun i =>
    ⟨t12_0, flush12_5 t12_0, by
      rw [mem_blk5]
      obtain ⟨-, -, -, -, -, -, -, -, -, -, e0, e1⟩ := idx_facts t12_0
      have h0 : (i 0).val < 1 := (i 0).isLt
      have h1 : (i 1).val < 256 := (i 1).isLt
      intro a
      match a with
      | ⟨0, _⟩ => show win12_5.index t12_0 (0 : Fin 2) * 1 ≤ (i 0).val ∧ (i 0).val < win12_5.index t12_0 (0 : Fin 2) * 1 + 1; omega
      | ⟨1, _⟩ => show win12_5.index t12_0 (1 : Fin 2) * 256 ≤ (i 1).val ∧ (i 1).val < win12_5.index t12_0 (1 : Fin 2) * 256 + 256; omega⟩

end AnyValues

/-! ## The region's values at the ideal values -/

section AtIdeal

variable (V : (c : Dev nD) → (b : Ref sig .tc) → Buf (Elt Ideal) ((c : Thread nD τ).loc b))

/-- After the region, the first output array at (r, q) is the layer's output (∑ k, x (r, k) · w (k, q)) + b (0, q), for
    x, w, b the three operand arrays as the region is entered. -/
theorem valueY_of (c : Dev nD) (x : Vec Ideal S2048x512 .f32) (w : Vec Ideal S512x256 .f32) (b : Vec Ideal S1x256 .f32)
    (hx : V c (Pipeline.arrRef spec12 0) = x) (hw : V c (Pipeline.arrRef spec12 1) = w)
    (hb : V c (Pipeline.arrRef spec12 2) = b) (r : Fin 2048) (q : Fin 256) :
    (dat12 V c).arrAt 3 cfg12.N (ix2 r q) = Cert.KernelIdeal.KDenseAt.denseAt (R := 2048) (K := 512) (C := 256) x w b r q := by
  subst hx; subst hw; subst hb
  exact (congrFun (final3 V c) (ix2 r q)).trans (pay3_apply _ _ _ r q)

/-- After the region, the second output array at (0, q) is the sum over the rows of the layer's output: the accumulator
    the sums are added onto is the zero row, and 0 + s = s. -/
theorem valueS_of (c : Dev nD) (x : Vec Ideal S2048x512 .f32) (w : Vec Ideal S512x256 .f32) (b : Vec Ideal S1x256 .f32)
    (hx : V c (Pipeline.arrRef spec12 0) = x) (hw : V c (Pipeline.arrRef spec12 1) = w)
    (hb : V c (Pipeline.arrRef spec12 2) = b) (q : Fin 256) :
    (dat12 V c).arrAt 4 cfg12.N (ix2 (0 : Fin 1) q) = ∑ r : Fin 2048, Cert.KernelIdeal.KDenseAt.denseAt (R := 2048) (K := 512) (C := 256) x w b r q := by
  subst hx; subst hw; subst hb
  refine (congrFun (final4 V c) (ix2 (0 : Fin 1) q)).trans ((pay4_apply _ _ _ _ q).trans ?_)
  rw [pay1_apply, zero_add]
  exact Finset.sum_congr rfl fun r _ => pay3_apply _ _ _ r q

/-- After the region, the third output array at (0, q) is the sum over the rows of the squared output. -/
theorem valueSS_of (c : Dev nD) (x : Vec Ideal S2048x512 .f32) (w : Vec Ideal S512x256 .f32) (b : Vec Ideal S1x256 .f32)
    (hx : V c (Pipeline.arrRef spec12 0) = x) (hw : V c (Pipeline.arrRef spec12 1) = w)
    (hb : V c (Pipeline.arrRef spec12 2) = b) (q : Fin 256) :
    (dat12 V c).arrAt 5 cfg12.N (ix2 (0 : Fin 1) q)
      = ∑ r : Fin 2048, Cert.KernelIdeal.KDenseAt.denseAt (R := 2048) (K := 512) (C := 256) x w b r q * Cert.KernelIdeal.KDenseAt.denseAt (R := 2048) (K := 512) (C := 256) x w b r q := by
  subst hx; subst hw; subst hb
  refine (congrFun (final5 V c) (ix2 (0 : Fin 1) q)).trans ((pay5_apply _ _ _ _ q).trans ?_)
  rw [pay2_apply, zero_add]
  exact Finset.sum_congr rfl fun r _ => congrArg₂ (· * ·) (pay3_apply _ _ _ r q) (pay3_apply _ _ _ r q)

/-! The same with the operand arrays named as the region finds them. -/

theorem valueY (c : Dev nD) (r : Fin 2048) (q : Fin 256) :
    (dat12 V c).arrAt 3 cfg12.N (ix2 r q) = Cert.KernelIdeal.KDenseAt.denseAt (R := 2048) (K := 512) (C := 256)
        (V c (Pipeline.arrRef spec12 0)) (V c (Pipeline.arrRef spec12 1)) (V c (Pipeline.arrRef spec12 2)) r q :=
  valueY_of V c _ _ _ rfl rfl rfl r q

theorem valueS (c : Dev nD) (q : Fin 256) :
    (dat12 V c).arrAt 4 cfg12.N (ix2 (0 : Fin 1) q) = ∑ r : Fin 2048, Cert.KernelIdeal.KDenseAt.denseAt (R := 2048) (K := 512) (C := 256)
        (V c (Pipeline.arrRef spec12 0)) (V c (Pipeline.arrRef spec12 1)) (V c (Pipeline.arrRef spec12 2)) r q :=
  valueS_of V c _ _ _ rfl rfl rfl q

theorem valueSS (c : Dev nD) (q : Fin 256) :
    (dat12 V c).arrAt 5 cfg12.N (ix2 (0 : Fin 1) q)
      = ∑ r : Fin 2048, Cert.KernelIdeal.KDenseAt.denseAt (R := 2048) (K := 512) (C := 256)
        (V c (Pipeline.arrRef spec12 0)) (V c (Pipeline.arrRef spec12 1)) (V c (Pipeline.arrRef spec12 2)) r q
          * Cert.KernelIdeal.KDenseAt.denseAt (R := 2048) (K := 512) (C := 256)
        (V c (Pipeline.arrRef spec12 0)) (V c (Pipeline.arrRef spec12 1)) (V c (Pipeline.arrRef spec12 2)) r q :=
  valueSS_of V c _ _ _ rfl rfl rfl q

end AtIdeal

end Cert.KernelIdeal.KDense12

end
-- ==== Proof.KBn11.lean ====
/- The value of batch normalisation followed by ReLU, region 11 of the idealized kernel program, read at the extended reals.

   The region takes a [2048,512] array y and four [1,512] rows (mean, var, gamma, beta) and writes a [2048,512] array,
   in one block: the whole array. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn11

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x512 .f32) (v5 : Vec Ideal S2048x512 .f32) (v7 v13 v17 : Vec Ideal S1x512 .f32)
    (r : Fin 2048) (q : Fin 512) :
    k11_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k11_pay1
  simp only [shapeCast_self, maximumf_apply, addf_apply, mulf_apply, subf_apply, broadcast_apply, broadcastTo_1b_ab_apply]
  rfl

/-! ## The whole array as one function of the five input arrays -/

/-- The column of an index of the [2048,512] array, as a number below 512. -/
def col (i : S2048x512.Idx) : Fin 512 := ⟨(i 1).val, idx2_lt1 i⟩

/-- Normalise, scale, shift, clamp at zero: entry `i` from `y` at `i` and the four rows at `i`'s column. -/
def G (y : S2048x512.Idx → Elt Ideal .f32) (mean var gamma beta : S1x512.Idx → Elt Ideal .f32) :
    S2048x512.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S2048x512.Idx → Elt Ideal .f32) (mean var gamma beta : S1x512.Idx → Elt Ideal .f32)
    (r : Fin 2048) (q : Fin 512) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S2048x512 .f32) (x1 x2 x3 x4 : Vec Ideal S1x512 .f32)
    (y : S2048x512.Idx → Elt Ideal .f32) (mean var gamma beta : S1x512.Idx → Elt Ideal .f32)
    (emb : S2048x512.Idx → S2048x512.Idx)
    (hc : ∀ (p : Fin 2048) (q : Fin 512), col (emb (ix2 p q)) = q)
    (e0 : ∀ (p : Fin 2048) (q : Fin 512), x0 (ix2 p q) = y (emb (ix2 p q)))
    (e1 : ∀ q : Fin 512, x1 (ix2 (0 : Fin 1) q) = mean (ix2 (0 : Fin 1) q))
    (e2 : ∀ q : Fin 512, x2 (ix2 (0 : Fin 1) q) = var (ix2 (0 : Fin 1) q))
    (e3 : ∀ q : Fin 512, x3 (ix2 (0 : Fin 1) q) = gamma (ix2 (0 : Fin 1) q))
    (e4 : ∀ q : Fin 512, x4 (ix2 (0 : Fin 1) q) = beta (ix2 (0 : Fin 1) q)) :
    out11_5 (F := Ideal) x0 x1 x2 x3 x4 = fun j => G y mean var gamma beta (emb j) := by
  unfold out11_5
  rw [View.canon_unit_zero hz]
  simp only [View.ld_unit_zero (S := S2048x512) hz, View.ld_unit_zero (S := S1x512) hz]
  funext j
  obtain ⟨p, q, rfl⟩ : ∃ (p : Fin 2048) (q : Fin 512), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Entry (p, q) of y's block at point `t` is y at row 2048·t + p, column q. -/
theorem yblk_apply (c : Dev nD) (t : Fin cfg11.N) (p : Fin 2048) (q : Fin 512) (i : S2048x512.Idx)
    (h0 : (i 0).val = t.val * 2048 + p.val) (h1 : (i 1).val = q.val) :
    (iblk11 V c 0 t : Vec Ideal S2048x512 .f32) (ix2 p q) = (V c (Pipeline.arrRef spec11 0) : S2048x512.Idx → Elt Ideal .f32) i := by
  obtain ⟨e0, e1, -⟩ := idx_facts t
  have he : (((cfg11.win 0).blk t).view.emb (ix2 p q) : S2048x512.Idx) = i := by
    funext a
    apply Fin.ext
    match a with
    | ⟨0, _⟩ => show win11_0.index t (0 : Fin 2) * 2048 + 1 * p.val = (i 0).val; rw [e0, h0]; omega
    | ⟨1, _⟩ => show win11_0.index t (1 : Fin 2) * 512 + 1 * q.val = (i 1).val; rw [e1, h1]; omega
  exact congrArg (V c (Pipeline.arrRef spec11 0) : S2048x512.Idx → Elt Ideal .f32) he

/-- Column q of the mean row's block at any point is column q of the mean row: the block is the whole row. -/
theorem row1_apply (c : Dev nD) (t : Fin cfg11.N) (q : Fin 512) :
    (iblk11 V c 1 t : Vec Ideal S1x512 .f32) (ix2 (0 : Fin 1) q)
      = (V c (Pipeline.arrRef spec11 1) : S1x512.Idx → Elt Ideal .f32) (ix2 (0 : Fin 1) q) := by
  obtain ⟨-, -, e0, e1, -⟩ := idx_facts t
  have he : (((cfg11.win 1).blk t).view.emb (ix2 (0 : Fin 1) q) : S1x512.Idx) = ix2 (0 : Fin 1) q := by
    funext a
    apply Fin.ext
    match a with
    | ⟨0, _⟩ => show win11_1.index t (0 : Fin 2) * 1 + 1 * (0 : Fin 1).val = (0 : Fin 1).val; rw [e0]; omega
    | ⟨1, _⟩ => show win11_1.index t (1 : Fin 2) * 512 + 1 * q.val = q.val; rw [e1]; omega
  exact congrArg (V c (Pipeline.arrRef spec11 1) : S1x512.Idx → Elt Ideal .f32) he

/-- Column q of the variance row's block at any point is column q of the variance row: the block is the whole row. -/
theorem row2_apply (c : Dev nD) (t : Fin cfg11.N) (q : Fin 512) :
    (iblk11 V c 2 t : Vec Ideal S1x512 .f32) (ix2 (0 : Fin 1) q)
      = (V c (Pipeline.arrRef spec11 2) : S1x512.Idx → Elt Ideal .f32) (ix2 (0 : Fin 1) q) := by
  obtain ⟨-, -, -, -, e0, e1, -⟩ := idx_facts t
  have he : (((cfg11.win 2).blk t).view.emb (ix2 (0 : Fin 1) q) : S1x512.Idx) = ix2 (0 : Fin 1) q := by
    funext a
    apply Fin.ext
    match a with
    | ⟨0, _⟩ => show win11_2.index t (0 : Fin 2) * 1 + 1 * (0 : Fin 1).val = (0 : Fin 1).val; rw [e0]; omega
    | ⟨1, _⟩ => show win11_2.index t (1 : Fin 2) * 512 + 1 * q.val = q.val; rw [e1]; omega
  exact congrArg (V c (Pipeline.arrRef spec11 2) : S1x512.Idx → Elt Ideal .f32) he

/-- Column q of the scale row's block at any point is column q of the scale row: the block is the whole row. -/
theorem row3_apply (c : Dev nD) (t : Fin cfg11.N) (q : Fin 512) :
    (iblk11 V c 3 t : Vec Ideal S1x512 .f32) (ix2 (0 : Fin 1) q)
      = (V c (Pipeline.arrRef spec11 3) : S1x512.Idx → Elt Ideal .f32) (ix2 (0 : Fin 1) q) := by
  obtain ⟨-, -, -, -, -, -, e0, e1, -⟩ := idx_facts t
  have he : (((cfg11.win 3).blk t).view.emb (ix2 (0 : Fin 1) q) : S1x512.Idx) = ix2 (0 : Fin 1) q := by
    funext a
    apply Fin.ext
    match a with
    | ⟨0, _⟩ => show win11_3.index t (0 : Fin 2) * 1 + 1 * (0 : Fin 1).val = (0 : Fin 1).val; rw [e0]; omega
    | ⟨1, _⟩ => show win11_3.index t (1 : Fin 2) * 512 + 1 * q.val = q.val; rw [e1]; omega
  exact congrArg (V c (Pipeline.arrRef spec11 3) : S1x512.Idx → Elt Ideal .f32) he

/-- Column q of the shift row's block at any point is column q of the shift row: the block is the whole row. -/
theorem row4_apply (c : Dev nD) (t : Fin cfg11.N) (q : Fin 512) :
    (iblk11 V c 4 t : Vec Ideal S1x512 .f32) (ix2 (0 : Fin 1) q)
      = (V c (Pipeline.arrRef spec11 4) : S1x512.Idx → Elt Ideal .f32) (ix2 (0 : Fin 1) q) := by
  obtain ⟨-, -, -, -, -, -, -, -, e0, e1, -⟩ := idx_facts t
  have he : (((cfg11.win 4).blk t).view.emb (ix2 (0 : Fin 1) q) : S1x512.Idx) = ix2 (0 : Fin 1) q := by
    funext a
    apply Fin.ext
    match a with
    | ⟨0, _⟩ => show win11_4.index t (0 : Fin 2) * 1 + 1 * (0 : Fin 1).val = (0 : Fin 1).val; rw [e0]; omega
    | ⟨1, _⟩ => show win11_4.index t (1 : Fin 2) * 512 + 1 * q.val = q.val; rw [e1]; omega
  exact congrArg (V c (Pipeline.arrRef spec11 4) : S1x512.Idx → Elt Ideal .f32) he

/-- Entry (p, q) of the result's block at point `t` sits in row 2048·t + p of the array … -/
theorem oblk_row (t : Fin cfg11.N) (p : Fin 2048) (q : Fin 512) :
    ((((cfg11.win 5).blk t).view.emb (ix2 p q) : S2048x512.Idx) 0).val = t.val * 2048 + p.val := by
  obtain ⟨-, -, -, -, -, -, -, -, -, -, e0, -⟩ := idx_facts t
  show win11_5.index t (0 : Fin 2) * 2048 + 1 * p.val = _
  rw [e0]; omega

/-- … and in column q. -/
theorem oblk_col (t : Fin cfg11.N) (p : Fin 2048) (q : Fin 512) :
    ((((cfg11.win 5).blk t).view.emb (ix2 p q) : S2048x512.Idx) 1).val = q.val := by
  obtain ⟨-, -, -, -, -, -, -, -, -, -, -, e1⟩ := idx_facts t
  show win11_5.index t (1 : Fin 2) * 512 + 1 * q.val = _
  rw [e1]; omega

/-! ## From the blocks to the array -/

set_option maxHeartbeats 1000000 in
/-- What point `t` writes back is block `t` of `G` of the five arrays as the region finds them. -/
theorem flushed_eq (c : Dev nD) (t : Fin cfg11.N) :
    (dat11 V c).flushed 5 t = ((cfg11.win 5).blk t).view.read (Elt Ideal)
      (G (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  exact out_fun (iblk11 V c 0 t) (iblk11 V c 1 t) (iblk11 V c 2 t) (iblk11 V c 3 t) (iblk11 V c 4 t)
    (V c (Pipeline.arrRef spec11 0)) (V c (Pipeline.arrRef spec11 1)) (V c (Pipeline.arrRef spec11 2))
    (V c (Pipeline.arrRef spec11 3)) (V c (Pipeline.arrRef spec11 4))
    (((cfg11.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg11.N) (i : S2048x512.Idx) :
    i ∈ ((cfg11.win 5).blk t).view.set ↔ ∀ a : Fin 2, win11_5.index t a * S2048x512.size a ≤ (i a).val ∧ (i a).val < win11_5.index t a * S2048x512.size a + S2048x512.size a := by
  show i ∈ ((View.whole main_v160).slice (win11_5.rect t)).set ↔ _
  rw [View.set_slice_whole, Rect.mem_set_unit]
  exact Iff.rfl

/-- Every entry is written: row r is in the block of point r / 2048. -/
theorem cover (i : S2048x512.Idx) : ∃ t : Fin cfg11.N, (cfg11.win 5).flush t = true ∧ i ∈ ((cfg11.win 5).blk t).view.set := by
  have hi0 : (i 0).val < 2048 := idx2_lt0 i
  have hi1 : (i 1).val < 512 := idx2_lt1 i
  obtain ⟨t, ht⟩ : ∃ t : Fin cfg11.N, t.val = (i 0).val / 2048 :=
    ⟨⟨(i 0).val / 2048, by rw [show cfg11.N = 1 from N_11]; omega⟩, rfl⟩
  obtain ⟨-, -, -, -, -, -, -, -, -, -, e0, e1⟩ := idx_facts t
  refine ⟨t, flush11_5 t, ?_⟩
  rw [mem_blk]
  intro a
  match a with
  | ⟨0, _⟩ =>
    show win11_5.index t (0 : Fin 2) * 2048 ≤ (i 0).val ∧ (i 0).val < win11_5.index t (0 : Fin 2) * 2048 + 2048
    rw [e0, ht]; omega
  | ⟨1, _⟩ =>
    show win11_5.index t (1 : Fin 2) * 512 ≤ (i 1).val ∧ (i 1).val < win11_5.index t (1 : Fin 2) * 512 + 512
    rw [e1]; omega

/-- The result array after the region is `G` of the five arrays the region was entered with. -/
theorem final (c : Dev nD) :
    (dat11 V c).arrAt 5 cfg11.N
      = G (V c (Pipeline.arrRef spec11 0)) (V c (Pipeline.arrRef spec11 1)) (V c (Pipeline.arrRef spec11 2))
          (V c (Pipeline.arrRef spec11 3)) (V c (Pipeline.arrRef spec11 4)) :=
  (dat11 V c).arrAt_eq_of_cover 5 _ (fun t _ => flushed_eq V c t) cover

/-- The result array after the region, entry by entry: the specification's `bnAt` of the five arrays at (r, q). -/
theorem value (c : Dev nD) (r : Fin 2048) (q : Fin 512) :
    ((dat11 V c).arrAt 5 cfg11.N : S2048x512.Idx → Elt Ideal .f32) (ix2 r q)
      = bnAt (R := 2048) (C := 512) (V c (Pipeline.arrRef spec11 0)) (V c (Pipeline.arrRef spec11 1))
          (V c (Pipeline.arrRef spec11 2)) (V c (Pipeline.arrRef spec11 3)) (V c (Pipeline.arrRef spec11 4)) r q := by
  rw [final V c]
  exact G_apply _ _ _ _ _ r q

end Cert.KernelIdeal.KBn11
end
-- ==== Proof.KBn13.lean ====
/- The value of batch normalisation followed by ReLU, region 13 of the idealized kernel program, read at the extended reals.

   The region takes a [2048,256] array y and four [1,256] rows (mean, var, gamma, beta) and writes a [2048,256] array,
   in one block: the whole array. The body is pointwise along the rows:
   entry (r, q) of the result depends on y (r, q) and on column q of the four rows only,

       out (r, q) = max (((y (r, q) − mean q) · rsqrt (var q + eps)) · gamma q + beta q) 0,

   eps the single-precision word 0x3727C5AC (about 1e-5) and 0 the zero word, both kept as words.
   Every statement is at the buffer contents `V` the region is entered with, whatever they are. -/
import proofs.«132586_j38087769981032_1_alg».proof.Proof.Gen.KernelIdeal.Frame
import proofs.«132586_j38087769981032_1_alg».proof.Proof.KBnSpec
import Idealize.ShloMosaic.Lib.Pipeline.Value
import Idealize.ShloMosaic.Lib.ValueLayout

noncomputable section

namespace Cert.KernelIdeal.KBn13

open Cert.KernelIdeal Cert.KernelIdeal.Gen Cert.KernelIdeal.KBn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body at one entry -/

/-- The stored vector at (r, q): the four rows are broadcast over the block's rows, so only their column q is read. -/
theorem pay_apply (v0 : Vec Ideal S1x256 .f32) (v5 : Vec Ideal S2048x256 .f32) (v7 v13 v17 : Vec Ideal S1x256 .f32)
    (r : Fin 2048) (q : Fin 256) :
    k13_pay1 (F := Ideal) v0 v5 v7 v13 v17 (ix2 r q)
      = max (((v5 (ix2 r q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k13_pay1
  simp only [shapeCast_self, maximumf_apply, addf_apply, mulf_apply, subf_apply, broadcast_apply, broadcastTo_1b_ab_apply]
  rfl

/-! ## The whole array as one function of the five input arrays -/

/-- The column of an index of the [2048,256] array, as a number below 256. -/
def col (i : S2048x256.Idx) : Fin 256 := ⟨(i 1).val, idx2_lt1 i⟩

/-- Normalise, scale, shift, clamp at zero: entry `i` from `y` at `i` and the four rows at `i`'s column. -/
def G (y : S2048x256.Idx → Elt Ideal .f32) (mean var gamma beta : S1x256.Idx → Elt Ideal .f32) :
    S2048x256.Idx → Elt Ideal .f32 := fun i =>
  max (((y i - mean (ix2 (0 : Fin 1) (col i))) * Ideal.rsqrt (var (ix2 (0 : Fin 1) (col i)) + Ideal.ofBits .f32 0x3727C5AC#32))
        * gamma (ix2 (0 : Fin 1) (col i)) + beta (ix2 (0 : Fin 1) (col i))) (Ideal.ofBits .f32 0x00000000#32)

/-- `G` at the entry (r, q) is the specification's `bnAt` there. -/
theorem G_apply (y : S2048x256.Idx → Elt Ideal .f32) (mean var gamma beta : S1x256.Idx → Elt Ideal .f32)
    (r : Fin 2048) (q : Fin 256) : G y mean var gamma beta (ix2 r q) = bnAt y mean var gamma beta r q := rfl

theorem hz : (![0, 0] : Fin 2 → Nat) = fun _ => 0 := funext fun a => by fin_cases a <;> rfl

/-- What the body leaves in the result's buffer, as a function of the block's index: `G` of five arrays at the place
    `emb` puts the index, once each loaded block's entries are those arrays' (`e0` … `e4`) and `emb` keeps the column
    (`hc`). Stated over plain vectors; used at the windows' blocks. -/
theorem out_fun (x0 : Vec Ideal S2048x256 .f32) (x1 x2 x3 x4 : Vec Ideal S1x256 .f32)
    (y : S2048x256.Idx → Elt Ideal .f32) (mean var gamma beta : S1x256.Idx → Elt Ideal .f32)
    (emb : S2048x256.Idx → S2048x256.Idx)
    (hc : ∀ (p : Fin 2048) (q : Fin 256), col (emb (ix2 p q)) = q)
    (e0 : ∀ (p : Fin 2048) (q : Fin 256), x0 (ix2 p q) = y (emb (ix2 p q)))
    (e1 : ∀ q : Fin 256, x1 (ix2 (0 : Fin 1) q) = mean (ix2 (0 : Fin 1) q))
    (e2 : ∀ q : Fin 256, x2 (ix2 (0 : Fin 1) q) = var (ix2 (0 : Fin 1) q))
    (e3 : ∀ q : Fin 256, x3 (ix2 (0 : Fin 1) q) = gamma (ix2 (0 : Fin 1) q))
    (e4 : ∀ q : Fin 256, x4 (ix2 (0 : Fin 1) q) = beta (ix2 (0 : Fin 1) q)) :
    out13_5 (F := Ideal) x0 x1 x2 x3 x4 = fun j => G y mean var gamma beta (emb j) := by
  unfold out13_5
  rw [View.canon_unit_zero hz]
  simp only [View.ld_unit_zero (S := S2048x256) hz, View.ld_unit_zero (S := S1x256) hz]
  funext j
  obtain ⟨p, q, rfl⟩ : ∃ (p : Fin 2048) (q : Fin 256), j = ix2 p q := ⟨j 0, j 1, eq_ix2 j⟩
  rw [pay_apply, e0, e1, e2, e3, e4]
  unfold G
  rw [hc]

/-- Where each window's block sits at point `t`: the array y and the result move down one block of rows per point, the
    four rows stay (decided over the grid). -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Entry (p, q) of y's block at point `t` is y at row 2048·t + p, column q. -/
theorem yblk_apply (c : Dev nD) (t : Fin cfg13.N) (p : Fin 2048) (q : Fin 256) (i : S2048x256.Idx)
    (h0 : (i 0).val = t.val * 2048 + p.val) (h1 : (i 1).val = q.val) :
    (iblk13 V c 0 t : Vec Ideal S2048x256 .f32) (ix2 p q) = (V c (Pipeline.arrRef spec13 0) : S2048x256.Idx → Elt Ideal .f32) i := by
  obtain ⟨e0, e1, -⟩ := idx_facts t
  have he : (((cfg13.win 0).blk t).view.emb (ix2 p q) : S2048x256.Idx) = i := by
    funext a
    apply Fin.ext
    match a with
    | ⟨0, _⟩ => show win13_0.index t (0 : Fin 2) * 2048 + 1 * p.val = (i 0).val; rw [e0, h0]; omega
    | ⟨1, _⟩ => show win13_0.index t (1 : Fin 2) * 256 + 1 * q.val = (i 1).val; rw [e1, h1]; omega
  exact congrArg (V c (Pipeline.arrRef spec13 0) : S2048x256.Idx → Elt Ideal .f32) he

/-- Column q of the mean row's block at any point is column q of the mean row: the block is the whole row. -/
theorem row1_apply (c : Dev nD) (t : Fin cfg13.N) (q : Fin 256) :
    (iblk13 V c 1 t : Vec Ideal S1x256 .f32) (ix2 (0 : Fin 1) q)
      = (V c (Pipeline.arrRef spec13 1) : S1x256.Idx → Elt Ideal .f32) (ix2 (0 : Fin 1) q) := by
  obtain ⟨-, -, e0, e1, -⟩ := idx_facts t
  have he : (((cfg13.win 1).blk t).view.emb (ix2 (0 : Fin 1) q) : S1x256.Idx) = ix2 (0 : Fin 1) q := by
    funext a
    apply Fin.ext
    match a with
    | ⟨0, _⟩ => show win13_1.index t (0 : Fin 2) * 1 + 1 * (0 : Fin 1).val = (0 : Fin 1).val; rw [e0]; omega
    | ⟨1, _⟩ => show win13_1.index t (1 : Fin 2) * 256 + 1 * q.val = q.val; rw [e1]; omega
  exact congrArg (V c (Pipeline.arrRef spec13 1) : S1x256.Idx → Elt Ideal .f32) he

/-- Column q of the variance row's block at any point is column q of the variance row: the block is the whole row. -/
theorem row2_apply (c : Dev nD) (t : Fin cfg13.N) (q : Fin 256) :
    (iblk13 V c 2 t : Vec Ideal S1x256 .f32) (ix2 (0 : Fin 1) q)
      = (V c (Pipeline.arrRef spec13 2) : S1x256.Idx → Elt Ideal .f32) (ix2 (0 : Fin 1) q) := by
  obtain ⟨-, -, -, -, e0, e1, -⟩ := idx_facts t
  have he : (((cfg13.win 2).blk t).view.emb (ix2 (0 : Fin 1) q) : S1x256.Idx) = ix2 (0 : Fin 1) q := by
    funext a
    apply Fin.ext
    match a with
    | ⟨0, _⟩ => show win13_2.index t (0 : Fin 2) * 1 + 1 * (0 : Fin 1).val = (0 : Fin 1).val; rw [e0]; omega
    | ⟨1, _⟩ => show win13_2.index t (1 : Fin 2) * 256 + 1 * q.val = q.val; rw [e1]; omega
  exact congrArg (V c (Pipeline.arrRef spec13 2) : S1x256.Idx → Elt Ideal .f32) he

/-- Column q of the scale row's block at any point is column q of the scale row: the block is the whole row. -/
theorem row3_apply (c : Dev nD) (t : Fin cfg13.N) (q : Fin 256) :
    (iblk13 V c 3 t : Vec Ideal S1x256 .f32) (ix2 (0 : Fin 1) q)
      = (V c (Pipeline.arrRef spec13 3) : S1x256.Idx → Elt Ideal .f32) (ix2 (0 : Fin 1) q) := by
  obtain ⟨-, -, -, -, -, -, e0, e1, -⟩ := idx_facts t
  have he : (((cfg13.win 3).blk t).view.emb (ix2 (0 : Fin 1) q) : S1x256.Idx) = ix2 (0 : Fin 1) q := by
    funext a
    apply Fin.ext
    match a with
    | ⟨0, _⟩ => show win13_3.index t (0 : Fin 2) * 1 + 1 * (0 : Fin 1).val = (0 : Fin 1).val; rw [e0]; omega
    | ⟨1, _⟩ => show win13_3.index t (1 : Fin 2) * 256 + 1 * q.val = q.val; rw [e1]; omega
  exact congrArg (V c (Pipeline.arrRef spec13 3) : S1x256.Idx → Elt Ideal .f32) he

/-- Column q of the shift row's block at any point is column q of the shift row: the block is the whole row. -/
theorem row4_apply (c : Dev nD) (t : Fin cfg13.N) (q : Fin 256) :
    (iblk13 V c 4 t : Vec Ideal S1x256 .f32) (ix2 (0 : Fin 1) q)
      = (V c (Pipeline.arrRef spec13 4) : S1x256.Idx → Elt Ideal .f32) (ix2 (0 : Fin 1) q) := by
  obtain ⟨-, -, -, -, -, -, -, -, e0, e1, -⟩ := idx_facts t
  have he : (((cfg13.win 4).blk t).view.emb (ix2 (0 : Fin 1) q) : S1x256.Idx) = ix2 (0 : Fin 1) q := by
    funext a
    apply Fin.ext
    match a with
    | ⟨0, _⟩ => show win13_4.index t (0 : Fin 2) * 1 + 1 * (0 : Fin 1).val = (0 : Fin 1).val; rw [e0]; omega
    | ⟨1, _⟩ => show win13_4.index t (1 : Fin 2) * 256 + 1 * q.val = q.val; rw [e1]; omega
  exact congrArg (V c (Pipeline.arrRef spec13 4) : S1x256.Idx → Elt Ideal .f32) he

/-- Entry (p, q) of the result's block at point `t` sits in row 2048·t + p of the array … -/
theorem oblk_row (t : Fin cfg13.N) (p : Fin 2048) (q : Fin 256) :
    ((((cfg13.win 5).blk t).view.emb (ix2 p q) : S2048x256.Idx) 0).val = t.val * 2048 + p.val := by
  obtain ⟨-, -, -, -, -, -, -, -, -, -, e0, -⟩ := idx_facts t
  show win13_5.index t (0 : Fin 2) * 2048 + 1 * p.val = _
  rw [e0]; omega

/-- … and in column q. -/
theorem oblk_col (t : Fin cfg13.N) (p : Fin 2048) (q : Fin 256) :
    ((((cfg13.win 5).blk t).view.emb (ix2 p q) : S2048x256.Idx) 1).val = q.val := by
  obtain ⟨-, -, -, -, -, -, -, -, -, -, -, e1⟩ := idx_facts t
  show win13_5.index t (1 : Fin 2) * 256 + 1 * q.val = _
  rw [e1]; omega

/-! ## From the blocks to the array -/

set_option maxHeartbeats 1000000 in
/-- What point `t` writes back is block `t` of `G` of the five arrays as the region finds them. -/
theorem flushed_eq (c : Dev nD) (t : Fin cfg13.N) :
    (dat13 V c).flushed 5 t = ((cfg13.win 5).blk t).view.read (Elt Ideal)
      (G (V c (Pipeline.arrRef spec13 0)) (V c (Pipeline.arrRef spec13 1)) (V c (Pipeline.arrRef spec13 2))
        (V c (Pipeline.arrRef spec13 3)) (V c (Pipeline.arrRef spec13 4))) := by
  show (cfg13.win 5).cut (grid13.coords t) ((dat13 V c).after 5 t) = _
  rw [after13_5]
  exact out_fun (iblk13 V c 0 t) (iblk13 V c 1 t) (iblk13 V c 2 t) (iblk13 V c 3 t) (iblk13 V c 4 t)
    (V c (Pipeline.arrRef spec13 0)) (V c (Pipeline.arrRef spec13 1)) (V c (Pipeline.arrRef spec13 2))
    (V c (Pipeline.arrRef spec13 3)) (V c (Pipeline.arrRef spec13 4))
    (((cfg13.win 5).blk t).view.emb)
    (fun p q => Fin.ext (oblk_col t p q))
    (fun p q => yblk_apply V c t p q _ (oblk_row t p q) (oblk_col t p q))
    (row1_apply V c t) (row2_apply V c t) (row3_apply V c t) (row4_apply V c t)

/-- An index of the array is in point `t`'s block iff each coordinate is in the block's range on its axis. -/
theorem mem_blk (t : Fin cfg13.N) (i : S2048x256.Idx) :
    i ∈ ((cfg13.win 5).blk t).view.set ↔ ∀ a : Fin 2, win13_5.index t a * S2048x256.size a ≤ (i a).val ∧ (i a).val < win13_5.index t a * S2048x256.size a + S2048x256.size a := by
  show i ∈ ((View.whole main_v171).slice (win13_5.rect t)).set ↔ _
  rw [View.set_slice_whole, Rect.mem_set_unit]
  exact Iff.rfl

/-- Every entry is written: row r is in the block of point r / 2048. -/
theorem cover (i : S2048x256.Idx) : ∃ t : Fin cfg13.N, (cfg13.win 5).flush t = true ∧ i ∈ ((cfg13.win 5).blk t).view.set := by
  have hi0 : (i 0).val < 2048 := idx2_lt0 i
  have hi1 : (i 1).val < 256 := idx2_lt1 i
  obtain ⟨t, ht⟩ : ∃ t : Fin cfg13.N, t.val = (i 0).val / 2048 :=
    ⟨⟨(i 0).val / 2048, by rw [show cfg13.N = 1 from N_13]; omega⟩, rfl⟩
  obtain ⟨-, -, -, -, -, -, -, -, -, -, e0, e1⟩ := idx_facts t
  refine ⟨t, flush13_5 t, ?_⟩
  rw [mem_blk]
  intro a
  match a with
  | ⟨0, _⟩ =>
    show win13_5.index t (0 : Fin 2) * 2048 ≤ (i 0).val ∧ (i 0).val < win13_5.index t (0 : Fin 2) * 2048 + 2048
    rw [e0, ht]; omega
  | ⟨1, _⟩ =>
    show win13_5.index t (1 : Fin 2) * 256 ≤ (i 1).val ∧ (i 1).val < win13_5.index t (1 : Fin 2) * 256 + 256
    rw [e1]; omega

/-- The result array after the region is `G` of the five arrays the region was entered with. -/
theorem final (c : Dev nD) :
    (dat13 V c).arrAt 5 cfg13.N
      = G (V c (Pipeline.arrRef spec13 0)) (V c (Pipeline.arrRef spec13 1)) (V c (Pipeline.arrRef spec13 2))
          (V c (Pipeline.arrRef spec13 3)) (V c (Pipeline.arrRef spec13 4)) :=
  (dat13 V c).arrAt_eq_of_cover 5 _ (fun t _ => flushed_eq V c t) cover

/-- The result array after the region, entry by entry: the specification's `bnAt` of the five arrays at (r, q). -/
theorem value (c : Dev nD) (r : Fin 2048) (q : Fin 256) :
    ((dat13 V c).arrAt 5 cfg13.N : S2048x256.Idx → Elt Ideal .f32) (ix2 r q)
      = bnAt (R := 2048) (C := 256) (V c (Pipeline.arrRef spec13 0)) (V c (Pipeline.arrRef spec13 1))
          (V c (Pipeline.arrRef spec13 2)) (V c (Pipeline.arrRef spec13 3)) (V c (Pipeline.arrRef spec13 4)) r q := by
  rw [final V c]
  exact G_apply _ _ _ _ _ r q

end Cert.KernelIdeal.KBn13
end
-- ==== Proof.KHostC.lean ====
/-
  The host operations between the regions of the idealized kernel program, read at an index: the stretches before the batch-norm regions of the two dense layers.

  Every statement is generic in the valuation `W` of the buffers when the stretch starts: it says what the stretch
  leaves, at a column `q`, in each buffer the next region reads, as extended-real arithmetic over `W`'s entries.
  The count (100000 nodes, or 2048 graphs) stays the float word it is printed as; nothing is evaluated.
-/
import proofs.«132586_j38087769981032_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section
namespace Cert.KernelIdeal.KHost

open Idealize.ShloMosaic Idealize.ShloMosaic.TcCoe Idealize.SL.Sem Idealize.ShloMosaic.ValueIdx
open Cert.KernelIdeal Cert.KernelIdeal.Gen

variable (W : Valuation τ sig (Elt Ideal))

/-! ## The stretch before the batch-norm region of the first dense layer

The column sums `s` and the column sums of squares `t` of the layer's pre-activation are divided by the row count
`n` (kept as its float word): the mean is `s / n` and the variance `t / n - (s / n) * (s / n)`. The scale and the shift
are the argument vectors seen as one-row matrices. -/

/-- The mean: the column sum over the row count. -/
theorem host11_mean_at (q : Fin 512) :
    (StableHlo.after (hostOps11 (F := Ideal)) W (Proc.devRef .tc main_v153) : FVec Ideal S1x512 .f32) (ix2 (0 : Fin 1) q)
      = Ideal.div ((W (Proc.devRef .tc main_v151_1) : FVec Ideal S1x512 .f32) (ix2 (0 : Fin 1) q)) (Ideal.ofBits .f32 0x45000000#32) := by
  have e : (StableHlo.after (hostOps11 (F := Ideal)) W (Proc.devRef .tc main_v153) : FVec Ideal S1x512 .f32)
      = Host.divf (W (Proc.devRef .tc main_v151_1)) (broadcastInDim S1x512 ![] bcast_S_S1x512 (constant (F := Ideal) S_ .f32 0x45000000#32)) := by
    after_results
  rw [e]
  rfl

/-- The variance: the mean of the squares less the square of the mean. -/
theorem host11_var_at (q : Fin 512) :
    (StableHlo.after (hostOps11 (F := Ideal)) W (Proc.devRef .tc main_v157) : FVec Ideal S1x512 .f32) (ix2 (0 : Fin 1) q)
      = Ideal.div ((W (Proc.devRef .tc main_v151_2) : FVec Ideal S1x512 .f32) (ix2 (0 : Fin 1) q)) (Ideal.ofBits .f32 0x45000000#32)
        - Ideal.div ((W (Proc.devRef .tc main_v151_1) : FVec Ideal S1x512 .f32) (ix2 (0 : Fin 1) q)) (Ideal.ofBits .f32 0x45000000#32)
          * Ideal.div ((W (Proc.devRef .tc main_v151_1) : FVec Ideal S1x512 .f32) (ix2 (0 : Fin 1) q)) (Ideal.ofBits .f32 0x45000000#32) := by
  have e : (StableHlo.after (hostOps11 (F := Ideal)) W (Proc.devRef .tc main_v157) : FVec Ideal S1x512 .f32)
      = subf (Host.divf (W (Proc.devRef .tc main_v151_2)) (broadcastInDim S1x512 ![] bcast_S_S1x512 (constant (F := Ideal) S_ .f32 0x45000000#32)))
          (mulf (Host.divf (W (Proc.devRef .tc main_v151_1)) (broadcastInDim S1x512 ![] bcast_S_S1x512 (constant (F := Ideal) S_ .f32 0x45000000#32)))
            (Host.divf (W (Proc.devRef .tc main_v151_1)) (broadcastInDim S1x512 ![] bcast_S_S1x512 (constant (F := Ideal) S_ .f32 0x45000000#32)))) := by
    after_results
  rw [e]
  rfl

/-- The scale: the argument vector's entry. -/
theorem host11_gamma_at (q : Fin 512) :
    (StableHlo.after (hostOps11 (F := Ideal)) W (Proc.devRef .tc main_v158) : FVec Ideal S1x512 .f32) (ix2 (0 : Fin 1) q)
      = (W (Proc.devRef .tc main_arg14) : FVec Ideal S512 .f32) (ix1 q) := by
  have e : (StableHlo.after (hostOps11 (F := Ideal)) W (Proc.devRef .tc main_v158) : FVec Ideal S1x512 .f32)
      = shapeCast S1x512 (W (Proc.devRef .tc main_arg14) : FVec Ideal S512 .f32) shapeCasts_S512_S1x512 := by
    after_results
    rfl
  rw [e]
  exact shapeCast_a_1a_apply _ _ _ _

/-- The shift: the argument vector's entry. -/
theorem host11_beta_at (q : Fin 512) :
    (StableHlo.after (hostOps11 (F := Ideal)) W (Proc.devRef .tc main_v159) : FVec Ideal S1x512 .f32) (ix2 (0 : Fin 1) q)
      = (W (Proc.devRef .tc main_arg15) : FVec Ideal S512 .f32) (ix1 q) := by
  have e : (StableHlo.after (hostOps11 (F := Ideal)) W (Proc.devRef .tc main_v159) : FVec Ideal S1x512 .f32)
      = shapeCast S1x512 (W (Proc.devRef .tc main_arg15) : FVec Ideal S512 .f32) shapeCasts_S512_S1x512 := by
    after_results
    rfl
  rw [e]
  exact shapeCast_a_1a_apply _ _ _ _

/-- The stretch does not write the pre-activation. -/
theorem host11_keep_y :
    StableHlo.after (hostOps11 (F := Ideal)) W (Proc.devRef .tc main_v151_0) = W (Proc.devRef .tc main_v151_0) :=
  StableHlo.after_of_forall_not_mem (b := Proc.devRef .tc main_v151_0) _ _ (List.forall_iff_forall_mem.mp (by
    simp only [hostOps11, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The stretch before the batch-norm region of the second dense layer

The column sums `s` and the column sums of squares `t` of the layer's pre-activation are divided by the row count
`n` (kept as its float word): the mean is `s / n` and the variance `t / n - (s / n) * (s / n)`. The scale and the shift
are the argument vectors seen as one-row matrices. -/

/-- The mean: the column sum over the row count. -/
theorem host13_mean_at (q : Fin 256) :
    (StableHlo.after (hostOps13 (F := Ideal)) W (Proc.devRef .tc main_v164) : FVec Ideal S1x256 .f32) (ix2 (0 : Fin 1) q)
      = Ideal.div ((W (Proc.devRef .tc main_v162_1) : FVec Ideal S1x256 .f32) (ix2 (0 : Fin 1) q)) (Ideal.ofBits .f32 0x45000000#32) := by
  have e : (StableHlo.after (hostOps13 (F := Ideal)) W (Proc.devRef .tc main_v164) : FVec Ideal S1x256 .f32)
      = Host.divf (W (Proc.devRef .tc main_v162_1)) (broadcastInDim S1x256 ![] bcast_S_S1x256 (constant (F := Ideal) S_ .f32 0x45000000#32)) := by
    after_results
  rw [e]
  rfl

/-- The variance: the mean of the squares less the square of the mean. -/
theorem host13_var_at (q : Fin 256) :
    (StableHlo.after (hostOps13 (F := Ideal)) W (Proc.devRef .tc main_v168) : FVec Ideal S1x256 .f32) (ix2 (0 : Fin 1) q)
      = Ideal.div ((W (Proc.devRef .tc main_v162_2) : FVec Ideal S1x256 .f32) (ix2 (0 : Fin 1) q)) (Ideal.ofBits .f32 0x45000000#32)
        - Ideal.div ((W (Proc.devRef .tc main_v162_1) : FVec Ideal S1x256 .f32) (ix2 (0 : Fin 1) q)) (Ideal.ofBits .f32 0x45000000#32)
          * Ideal.div ((W (Proc.devRef .tc main_v162_1) : FVec Ideal S1x256 .f32) (ix2 (0 : Fin 1) q)) (Ideal.ofBits .f32 0x45000000#32) := by
  have e : (StableHlo.after (hostOps13 (F := Ideal)) W (Proc.devRef .tc main_v168) : FVec Ideal S1x256 .f32)
      = subf (Host.divf (W (Proc.devRef .tc main_v162_2)) (broadcastInDim S1x256 ![] bcast_S_S1x256 (constant (F := Ideal) S_ .f32 0x45000000#32)))
          (mulf (Host.divf (W (Proc.devRef .tc main_v162_1)) (broadcastInDim S1x256 ![] bcast_S_S1x256 (constant (F := Ideal) S_ .f32 0x45000000#32)))
            (Host.divf (W (Proc.devRef .tc main_v162_1)) (broadcastInDim S1x256 ![] bcast_S_S1x256 (constant (F := Ideal) S_ .f32 0x45000000#32)))) := by
    after_results
  rw [e]
  rfl

/-- The scale: the argument vector's entry. -/
theorem host13_gamma_at (q : Fin 256) :
    (StableHlo.after (hostOps13 (F := Ideal)) W (Proc.devRef .tc main_v169) : FVec Ideal S1x256 .f32) (ix2 (0 : Fin 1) q)
      = (W (Proc.devRef .tc main_arg18) : FVec Ideal S256 .f32) (ix1 q) := by
  have e : (StableHlo.after (hostOps13 (F := Ideal)) W (Proc.devRef .tc main_v169) : FVec Ideal S1x256 .f32)
      = shapeCast S1x256 (W (Proc.devRef .tc main_arg18) : FVec Ideal S256 .f32) shapeCasts_S256_S1x256 := by
    after_results
    rfl
  rw [e]
  exact shapeCast_a_1a_apply _ _ _ _

/-- The shift: the argument vector's entry. -/
theorem host13_beta_at (q : Fin 256) :
    (StableHlo.after (hostOps13 (F := Ideal)) W (Proc.devRef .tc main_v170) : FVec Ideal S1x256 .f32) (ix2 (0 : Fin 1) q)
      = (W (Proc.devRef .tc main_arg19) : FVec Ideal S256 .f32) (ix1 q) := by
  have e : (StableHlo.after (hostOps13 (F := Ideal)) W (Proc.devRef .tc main_v170) : FVec Ideal S1x256 .f32)
      = shapeCast S1x256 (W (Proc.devRef .tc main_arg19) : FVec Ideal S256 .f32) shapeCasts_S256_S1x256 := by
    after_results
    rfl
  rw [e]
  exact shapeCast_a_1a_apply _ _ _ _

/-- The stretch does not write the pre-activation. -/
theorem host13_keep_y :
    StableHlo.after (hostOps13 (F := Ideal)) W (Proc.devRef .tc main_v162_0) = W (Proc.devRef .tc main_v162_0) :=
  StableHlo.after_of_forall_not_mem (b := Proc.devRef .tc main_v162_0) _ _ (List.forall_iff_forall_mem.mp (by
    simp only [hostOps13, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.KHost
end
-- ==== Proof.KChainF.lean ====
/-
  The kernel program's two dense layers read at an index: the graphs' sums of the node outputs (a scatter-add kept as the
  host operation it is), then two dense layers each followed by the normalisation and the rectifier. (The last stage,
  region 14, is read in its own module, which also names layer 7's output array.)
-/
import proofs.«132586_j38087769981032_1_alg».proof.Proof.KChainE
import proofs.«132586_j38087769981032_1_alg».proof.Proof.KChainG
import proofs.«132586_j38087769981032_1_alg».proof.Proof.KDense10
import proofs.«132586_j38087769981032_1_alg».proof.Proof.KDense12
import proofs.«132586_j38087769981032_1_alg».proof.Proof.KBn11
import proofs.«132586_j38087769981032_1_alg».proof.Proof.KBn13
import proofs.«132586_j38087769981032_1_alg».proof.Proof.KHostC
import proofs.«132586_j38087769981032_1_alg».proof.Proof.KHostE

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.GinSpec Cert.Words

variable (m : (ℓ : Loc nD τ sig) → Buf (Elt Ideal) ℓ) (ρ : Dev nD → PrngReg) (c : Dev nD)

/-- The graphs' sums of layer 5's node outputs. -/
def xg : FVec Ideal S2048x128 .f32 := KHost.readout (x5 m ρ c) (a3 m c)

/-! ## Layer 6: regions 10 and 11 -/

/-- Layer 6's affine stage. -/
def y6 : Fin 2048 → Fin 512 → EReal :=
  dense (rd2 (R := 2048) (C := 128) (xg m ρ c)) (rd2 (R := 128) (C := 512) (a12 m c)) (rd1 (C := 512) (a13 m c))

/-- Layer 6's output array. -/
def x6 : FVec Ideal S2048x512 .f32 := W24 m ρ c (Proc.devRef .tc main_v160)

theorem in10_x : (V21 m ρ c (Pipeline.arrRef spec10 0) : FVec Ideal S2048x128 .f32) = xg m ρ c := by
  have h := KHost.host10_readout_eq (W20 m ρ c)
  rw [KArgs.W20_arg3 m ρ c] at h
  exact h
theorem in10_w : (V21 m ρ c (Pipeline.arrRef spec10 1) : FVec Ideal S128x512 .f32) = a12 m c := KArgs.W21_arg12 m ρ c
theorem in10_b (q : Fin 512) : (V21 m ρ c (Pipeline.arrRef spec10 2) : FVec Ideal S1x512 .f32) (ix2 (0 : Fin 1) q) = rd1 (C := 512) (a13 m c) q :=
  (KHost.host10_bias_at (W20 m ρ c) q).trans (congrFun (KArgs.W20_arg13 m ρ c) _)

theorem dense10_eq (r : Fin 2048) (q : Fin 512) :
    KDenseAt.denseAt (R := 2048) (K := 128) (C := 512) (V21 m ρ c (Pipeline.arrRef spec10 0)) (V21 m ρ c (Pipeline.arrRef spec10 1))
      (V21 m ρ c (Pipeline.arrRef spec10 2)) r q = y6 m ρ c r q := by
  rw [in10_x m ρ c, in10_w m ρ c]
  unfold KDenseAt.denseAt y6 dense rd2
  rw [in10_b m ρ c q]

theorem y6_at (r : Fin 2048) (q : Fin 512) :
    rd2 (R := 2048) (C := 512) (W22 m ρ c (Proc.devRef .tc main_v151_0)) r q = y6 m ρ c r q := by
  have e0 : (W22 m ρ c (Proc.devRef .tc main_v151_0) : FVec Ideal S2048x512 .f32) = (dat10 (V21 m ρ) c).arrAt 3 cfg10.N := W22_arr m ρ c 3
  show (W22 m ρ c (Proc.devRef .tc main_v151_0) : FVec Ideal S2048x512 .f32) (ix2 r q) = _
  rw [e0, KDense10.valueY (V21 m ρ) c r q]
  exact dense10_eq m ρ c r q

theorem s6_at (q : Fin 512) :
    rd2 (R := 1) (C := 512) (W22 m ρ c (Proc.devRef .tc main_v151_1)) 0 q = ∑ r : Fin 2048, y6 m ρ c r q := by
  have e0 : (W22 m ρ c (Proc.devRef .tc main_v151_1) : FVec Ideal S1x512 .f32) = (dat10 (V21 m ρ) c).arrAt 4 cfg10.N := W22_arr m ρ c 4
  unfold rd2
  rw [e0, KDense10.valueS (V21 m ρ) c q]
  exact Finset.sum_congr rfl fun r _ => dense10_eq m ρ c r q

theorem ss6_at (q : Fin 512) :
    rd2 (R := 1) (C := 512) (W22 m ρ c (Proc.devRef .tc main_v151_2)) 0 q = ∑ r : Fin 2048, y6 m ρ c r q * y6 m ρ c r q := by
  have e0 : (W22 m ρ c (Proc.devRef .tc main_v151_2) : FVec Ideal S1x512 .f32) = (dat10 (V21 m ρ) c).arrAt 5 cfg10.N := W22_arr m ρ c 5
  unfold rd2
  rw [e0, KDense10.valueSS (V21 m ρ) c q]
  exact Finset.sum_congr rfl fun r _ => by rw [dense10_eq m ρ c r q]

/-- LAYER 6 of the kernel program. -/
theorem layer6 (r : Fin 2048) (q : Fin 512) :
    rd2 (R := 2048) (C := 512) (x6 m ρ c) r q
      = bnrelu epsW (y6 m ρ c) (meanK gW (y6 m ρ c)) (varK gW (y6 m ρ c)) (rd1 (C := 512) (a14 m c)) (rd1 (C := 512) (a15 m c)) r q := by
  have e0 : (W24 m ρ c (Proc.devRef .tc main_v160) : FVec Ideal S2048x512 .f32) = (dat11 (V23 m ρ) c).arrAt 5 cfg11.N := W24_arr m ρ c 5
  show (W24 m ρ c (Proc.devRef .tc main_v160) : FVec Ideal S2048x512 .f32) (ix2 r q) = _
  rw [e0, KBn11.value (V23 m ρ) c r q]
  have hy : (V23 m ρ c (Pipeline.arrRef spec11 0) : FVec Ideal S2048x512 .f32) (ix2 r q) = y6 m ρ c r q :=
    (congrFun (KHost.host11_keep_y (W22 m ρ c)) _).trans (y6_at m ρ c r q)
  have hm : (V23 m ρ c (Pipeline.arrRef spec11 1) : FVec Ideal S1x512 .f32) (ix2 (0 : Fin 1) q) = meanK gW (y6 m ρ c) q :=
    (KHost.host11_mean_at (W22 m ρ c) q).trans (congrArg (fun s : EReal => Ideal.div s gW) (s6_at m ρ c q))
  have hv : (V23 m ρ c (Pipeline.arrRef spec11 2) : FVec Ideal S1x512 .f32) (ix2 (0 : Fin 1) q) = varK gW (y6 m ρ c) q :=
    (KHost.host11_var_at (W22 m ρ c) q).trans (congrArg₂ (fun s t : EReal => Ideal.div t gW - Ideal.div s gW * Ideal.div s gW)
      (s6_at m ρ c q) (ss6_at m ρ c q))
  have hg : (V23 m ρ c (Pipeline.arrRef spec11 3) : FVec Ideal S1x512 .f32) (ix2 (0 : Fin 1) q) = rd1 (C := 512) (a14 m c) q :=
    (KHost.host11_gamma_at (W22 m ρ c) q).trans (congrFun (KArgs.W22_arg14 m ρ c) _)
  have hb : (V23 m ρ c (Pipeline.arrRef spec11 4) : FVec Ideal S1x512 .f32) (ix2 (0 : Fin 1) q) = rd1 (C := 512) (a15 m c) q :=
    (KHost.host11_beta_at (W22 m ρ c) q).trans (congrFun (KArgs.W22_arg15 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

/-! ## Layer 7: regions 12 and 13 -/

/-- Layer 7's affine stage. -/
def y7 : Fin 2048 → Fin 256 → EReal :=
  dense (rd2 (R := 2048) (C := 512) (x6 m ρ c)) (rd2 (R := 512) (C := 256) (a16 m c)) (rd1 (C := 256) (a17 m c))

theorem in12_x : (V25 m ρ c (Pipeline.arrRef spec12 0) : FVec Ideal S2048x512 .f32) = x6 m ρ c := KHost.host12_keep_x (W24 m ρ c)
theorem in12_w : (V25 m ρ c (Pipeline.arrRef spec12 1) : FVec Ideal S512x256 .f32) = a16 m c := KArgs.W25_arg16 m ρ c
theorem in12_b (q : Fin 256) : (V25 m ρ c (Pipeline.arrRef spec12 2) : FVec Ideal S1x256 .f32) (ix2 (0 : Fin 1) q) = rd1 (C := 256) (a17 m c) q :=
  (KHost.host12_bias_at (W24 m ρ c) q).trans (congrFun (KArgs.W24_arg17 m ρ c) _)

theorem dense12_eq (r : Fin 2048) (q : Fin 256) :
    KDenseAt.denseAt (R := 2048) (K := 512) (C := 256) (V25 m ρ c (Pipeline.arrRef spec12 0)) (V25 m ρ c (Pipeline.arrRef spec12 1))
      (V25 m ρ c (Pipeline.arrRef spec12 2)) r q = y7 m ρ c r q := by
  rw [in12_x m ρ c, in12_w m ρ c]
  unfold KDenseAt.denseAt y7 dense rd2
  rw [in12_b m ρ c q]

theorem y7_at (r : Fin 2048) (q : Fin 256) :
    rd2 (R := 2048) (C := 256) (W26 m ρ c (Proc.devRef .tc main_v162_0)) r q = y7 m ρ c r q := by
  have e0 : (W26 m ρ c (Proc.devRef .tc main_v162_0) : FVec Ideal S2048x256 .f32) = (dat12 (V25 m ρ) c).arrAt 3 cfg12.N := W26_arr m ρ c 3
  show (W26 m ρ c (Proc.devRef .tc main_v162_0) : FVec Ideal S2048x256 .f32) (ix2 r q) = _
  rw [e0, KDense12.valueY (V25 m ρ) c r q]
  exact dense12_eq m ρ c r q

theorem s7_at (q : Fin 256) :
    rd2 (R := 1) (C := 256) (W26 m ρ c (Proc.devRef .tc main_v162_1)) 0 q = ∑ r : Fin 2048, y7 m ρ c r q := by
  have e0 : (W26 m ρ c (Proc.devRef .tc main_v162_1) : FVec Ideal S1x256 .f32) = (dat12 (V25 m ρ) c).arrAt 4 cfg12.N := W26_arr m ρ c 4
  unfold rd2
  rw [e0, KDense12.valueS (V25 m ρ) c q]
  exact Finset.sum_congr rfl fun r _ => dense12_eq m ρ c r q

theorem ss7_at (q : Fin 256) :
    rd2 (R := 1) (C := 256) (W26 m ρ c (Proc.devRef .tc main_v162_2)) 0 q = ∑ r : Fin 2048, y7 m ρ c r q * y7 m ρ c r q := by
  have e0 : (W26 m ρ c (Proc.devRef .tc main_v162_2) : FVec Ideal S1x256 .f32) = (dat12 (V25 m ρ) c).arrAt 5 cfg12.N := W26_arr m ρ c 5
  unfold rd2
  rw [e0, KDense12.valueSS (V25 m ρ) c q]
  exact Finset.sum_congr rfl fun r _ => by rw [dense12_eq m ρ c r q]

/-- LAYER 7 of the kernel program. -/
theorem layer7 (r : Fin 2048) (q : Fin 256) :
    rd2 (R := 2048) (C := 256) (x7 m ρ c) r q
      = bnrelu epsW (y7 m ρ c) (meanK gW (y7 m ρ c)) (varK gW (y7 m ρ c)) (rd1 (C := 256) (a18 m c)) (rd1 (C := 256) (a19 m c)) r q := by
  have e0 : (W28 m ρ c (Proc.devRef .tc main_v171) : FVec Ideal S2048x256 .f32) = (dat13 (V27 m ρ) c).arrAt 5 cfg13.N := W28_arr m ρ c 5
  show (W28 m ρ c (Proc.devRef .tc main_v171) : FVec Ideal S2048x256 .f32) (ix2 r q) = _
  rw [e0, KBn13.value (V27 m ρ) c r q]
  have hy : (V27 m ρ c (Pipeline.arrRef spec13 0) : FVec Ideal S2048x256 .f32) (ix2 r q) = y7 m ρ c r q :=
    (congrFun (KHost.host13_keep_y (W26 m ρ c)) _).trans (y7_at m ρ c r q)
  have hm : (V27 m ρ c (Pipeline.arrRef spec13 1) : FVec Ideal S1x256 .f32) (ix2 (0 : Fin 1) q) = meanK gW (y7 m ρ c) q :=
    (KHost.host13_mean_at (W26 m ρ c) q).trans (congrArg (fun s : EReal => Ideal.div s gW) (s7_at m ρ c q))
  have hv : (V27 m ρ c (Pipeline.arrRef spec13 2) : FVec Ideal S1x256 .f32) (ix2 (0 : Fin 1) q) = varK gW (y7 m ρ c) q :=
    (KHost.host13_var_at (W26 m ρ c) q).trans (congrArg₂ (fun s t : EReal => Ideal.div t gW - Ideal.div s gW * Ideal.div s gW)
      (s7_at m ρ c q) (ss7_at m ρ c q))
  have hg : (V27 m ρ c (Pipeline.arrRef spec13 3) : FVec Ideal S1x256 .f32) (ix2 (0 : Fin 1) q) = rd1 (C := 256) (a18 m c) q :=
    (KHost.host13_gamma_at (W26 m ρ c) q).trans (congrFun (KArgs.W26_arg18 m ρ c) _)
  have hb : (V27 m ρ c (Pipeline.arrRef spec13 4) : FVec Ideal S1x256 .f32) (ix2 (0 : Fin 1) q) = rd1 (C := 256) (a19 m c) q :=
    (KHost.host13_beta_at (W26 m ρ c) q).trans (congrFun (KArgs.W26_arg19 m ρ c) _)
  unfold KBn.bnAt bnrelu
  rw [Ideal.ofBits_zero_f32]
  exact congrArg₂ (fun a b : EReal => max a b) (congrArg₂ (fun a b : EReal => a + b) (congrArg₂ (fun a b : EReal => a * b)
    (congrArg₂ (fun a b : EReal => a * b) (congrArg₂ (fun a b : EReal => a - b) hy hm)
      (congrArg (fun v : EReal => Ideal.rsqrt (v + epsW)) hv)) hg) hb) rfl

end Cert.KernelIdeal.KChain

end
-- ==== Proof.RefValueFns.lean ====
/-
  The reference's layers as functions of whole arrays, for any float values: the sum of each node's neighbours (a gather
  of rows by source node and a scatter-add by destination node), the graph-isomorphism layer
  (x + agg)·W + b + (x·W + b), batch normalisation over the rows followed by the rectifier, the sum of each graph's
  nodes, the dense layers, and the logistic of the last 204 of 408 columns. Each is the term the reference's operations
  compose to, with the gather and the scatter-add kept as the host operations they are.
-/
import proofs.«132586_j38087769981032_1_alg».proof.Proof.Gen.ReferenceIdeal

noncomputable section

namespace Cert.ReferenceIdeal.RefValue

open Cert.ReferenceIdeal Cert.ReferenceIdeal.Gen Idealize.ShloMosaic

variable {F : FTy → Type} [FloatOps F]

/-! ### Neighbour sums -/

/-- The source nodes as gather indices: a negative index counts from the end (jnp's indexing), one index per edge. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destination nodes as scatter indices, one per edge. -/
def dstIdx (dst : IVec S1600000 32) : IVec S1600000x1 32 :=
  broadcastInDim S1600000x1 ![0] bcast_S1600000_S1600000x1_0 dst

/-- Each node's sum of its in-neighbours' rows, 78 columns: rows gathered by source, added into zero by destination. -/
def agg78 (x : FVec F S100000x78 .f32) (src dst : IVec S1600000 32) : FVec F S100000x78 .f32 :=
  Host.scatterAdd scatter_S100000x78_S1600000x1_S1600000x78_1_0_0_1
    (broadcastInDim S100000x78 ![] bcast_S_S100000x78 (constant S_ .f32 0x00000000#32)) (dstIdx dst)
    (Host.gather gather_S100000x78_S1600000x1_S1600000x78_1_0_n_n_0_1_178 x (srcIdx src))

/-- The same over 128 columns. -/
def agg128 (x : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32)) (dstIdx dst)
    (Host.gather gather_S100000x128_S1600000x1_S1600000x128_1_0_n_n_0_1_1128 x (srcIdx src))

/-- Each graph's sum of its nodes' rows: added into zero by graph id. -/
def readout (x : FVec F S100000x128 .f32) (gid : IVec S100000 32) : FVec F S2048x128 .f32 :=
  Host.scatterAdd scatter_S2048x128_S100000x1_S100000x128_1_0_0_1
    (broadcastInDim S2048x128 ![] bcast_S_S2048x128 (constant S_ .f32 0x00000000#32))
    (broadcastInDim S100000x1 ![0] bcast_S100000_S100000x1_0 gid) x

/-! ### Batch normalisation and the rectifier over 100000 rows of 128 columns -/

namespace BnN

/-- A vector of 128 entries repeated down the 100000 rows. -/
def rowsOf (v : FVec F S128 .f32) : FVec F S100000x128 .f32 :=
  broadcastInDim S100000x128 ![0, 1] bcast_S1x128_S100000x128_0_1 (broadcastInDim S1x128 ![1] bcast_S128_S1x128_1 v)

/-- The column sums, from zero. -/
def colSum (y : FVec F S100000x128 .f32) : FVec F S128 .f32 :=
  Host.reduceAdd y (constant S_ .f32 0x00000000#32) reducesTo_S100000x128_S128_d0 h_S_

/-- The column means: the sums over the row count. -/
def mean (y : FVec F S100000x128 .f32) : FVec F S128 .f32 :=
  Host.divf (colSum y) (broadcastInDim S128 ![] bcast_S_S128 (constant S_ .f32 0x47C35000#32))

/-- The variance's divisor: the row count less the correction, here the integer zero. -/
def cnt : FVec F S_ .f32 :=
  subf (constant S_ .f32 0x47C35000#32) (sitofp .f32 (constantI S_ 32 0#32))

/-- Each entry less its column's mean (the mean taken inside the variance: the sums' row divided entry by entry). -/
def centred (y : FVec F S100000x128 .f32) : FVec F S100000x128 .f32 :=
  subf y (broadcastInDim S100000x128 ![0, 1] bcast_S1x128_S100000x128_0_1
    (Host.divf (broadcastInDim S1x128 ![1] bcast_S128_S1x128_1 (colSum y))
      (broadcastInDim S1x128 ![] bcast_S_S1x128 (constant S_ .f32 0x47C35000#32))))

/-- The column variances as the reference takes them: the sums of squared centred entries over the divisor where the
    divisor is positive, the quiet not-a-number pattern elsewhere. -/
def var (y : FVec F S100000x128 .f32) : FVec F S128 .f32 :=
  select (broadcastInDim S128 ![] bcast_S_S128 (cmpf .ogt (cnt (F := F)) (constant S_ .f32 0x00000000#32)))
    (Host.divf (Host.reduceAdd (mulf (centred y) (centred y)) (constant S_ .f32 0x00000000#32) reducesTo_S100000x128_S128_d0 h_S_)
      (broadcastInDim S128 ![] bcast_S_S128 (cnt (F := F))))
    (broadcastInDim S128 ![] bcast_S_S128 (id (constant S_ .f32 0x7FC00000#32)))

/-- Normalise each column, scale, shift, and keep the positive part. -/
def bnRelu (y : FVec F S100000x128 .f32) (gamma beta : FVec F S128 .f32) : FVec F S100000x128 .f32 :=
  maximumf
    (addf (mulf (mulf (subf y (rowsOf (mean y)))
        (rowsOf (Host.rsqrt (addf (var y) (broadcastInDim S128 ![] bcast_S_S128 (constant S_ .f32 0x3727C5AC#32))))))
      (rowsOf gamma)) (rowsOf beta))
    (broadcastInDim S100000x128 ![] bcast_S_S100000x128 (constant S_ .f32 0x00000000#32))

end BnN

/-! ### Batch normalisation and the rectifier over 2048 rows of 512 columns -/

namespace Bn512

/-- A vector of 512 entries repeated down the 2048 rows. -/
def rowsOf (v : FVec F S512 .f32) : FVec F S2048x512 .f32 :=
  broadcastInDim S2048x512 ![0, 1] bcast_S1x512_S2048x512_0_1 (broadcastInDim S1x512 ![1] bcast_S512_S1x512_1 v)

/-- The column sums, from zero. -/
def colSum (y : FVec F S2048x512 .f32) : FVec F S512 .f32 :=
  Host.reduceAdd y (constant S_ .f32 0x00000000#32) reducesTo_S2048x512_S512_d0 h_S_

/-- The column means: the sums over the row count. -/
def mean (y : FVec F S2048x512 .f32) : FVec F S512 .f32 :=
  Host.divf (colSum y) (broadcastInDim S512 ![] bcast_S_S512 (constant S_ .f32 0x45000000#32))

/-- The variance's divisor: the row count less the correction, here the integer zero. -/
def cnt : FVec F S_ .f32 :=
  subf (constant S_ .f32 0x45000000#32) (sitofp .f32 (constantI S_ 32 0#32))

/-- Each entry less its column's mean (the mean taken inside the variance: the sums' row divided entry by entry). -/
def centred (y : FVec F S2048x512 .f32) : FVec F S2048x512 .f32 :=
  subf y (broadcastInDim S2048x512 ![0, 1] bcast_S1x512_S2048x512_0_1
    (Host.divf (broadcastInDim S1x512 ![1] bcast_S512_S1x512_1 (colSum y))
      (broadcastInDim S1x512 ![] bcast_S_S1x512 (constant S_ .f32 0x45000000#32))))

/-- The column variances as the reference takes them: the sums of squared centred entries over the divisor where the
    divisor is positive, the quiet not-a-number pattern elsewhere. -/
def var (y : FVec F S2048x512 .f32) : FVec F S512 .f32 :=
  select (broadcastInDim S512 ![] bcast_S_S512 (cmpf .ogt (cnt (F := F)) (constant S_ .f32 0x00000000#32)))
    (Host.divf (Host.reduceAdd (mulf (centred y) (centred y)) (constant S_ .f32 0x00000000#32) reducesTo_S2048x512_S512_d0 h_S_)
      (broadcastInDim S512 ![] bcast_S_S512 (cnt (F := F))))
    (broadcastInDim S512 ![] bcast_S_S512 (id (constant S_ .f32 0x7FC00000#32)))

/-- Normalise each column, scale, shift, and keep the positive part. -/
def bnRelu (y : FVec F S2048x512 .f32) (gamma beta : FVec F S512 .f32) : FVec F S2048x512 .f32 :=
  maximumf
    (addf (mulf (mulf (subf y (rowsOf (mean y)))
        (rowsOf (Host.rsqrt (addf (var y) (broadcastInDim S512 ![] bcast_S_S512 (constant S_ .f32 0x3727C5AC#32))))))
      (rowsOf gamma)) (rowsOf beta))
    (broadcastInDim S2048x512 ![] bcast_S_S2048x512 (constant S_ .f32 0x00000000#32))

end Bn512

/-! ### Batch normalisation and the rectifier over 2048 rows of 256 columns -/

namespace Bn256

/-- A vector of 256 entries repeated down the 2048 rows. -/
def rowsOf (v : FVec F S256 .f32) : FVec F S2048x256 .f32 :=
  broadcastInDim S2048x256 ![0, 1] bcast_S1x256_S2048x256_0_1 (broadcastInDim S1x256 ![1] bcast_S256_S1x256_1 v)

/-- The column sums, from zero. -/
def colSum (y : FVec F S2048x256 .f32) : FVec F S256 .f32 :=
  Host.reduceAdd y (constant S_ .f32 0x00000000#32) reducesTo_S2048x256_S256_d0 h_S_

/-- The column means: the sums over the row count. -/
def mean (y : FVec F S2048x256 .f32) : FVec F S256 .f32 :=
  Host.divf (colSum y) (broadcastInDim S256 ![] bcast_S_S256 (constant S_ .f32 0x45000000#32))

/-- The variance's divisor: the row count less the correction, here the integer zero. -/
def cnt : FVec F S_ .f32 :=
  subf (constant S_ .f32 0x45000000#32) (sitofp .f32 (constantI S_ 32 0#32))

/-- Each entry less its column's mean (the mean taken inside the variance: the sums' row divided entry by entry). -/
def centred (y : FVec F S2048x256 .f32) : FVec F S2048x256 .f32 :=
  subf y (broadcastInDim S2048x256 ![0, 1] bcast_S1x256_S2048x256_0_1
    (Host.divf (broadcastInDim S1x256 ![1] bcast_S256_S1x256_1 (colSum y))
      (broadcastInDim S1x256 ![] bcast_S_S1x256 (constant S_ .f32 0x45000000#32))))

/-- The column variances as the reference takes them: the sums of squared centred entries over the divisor where the
    divisor is positive, the quiet not-a-number pattern elsewhere. -/
def var (y : FVec F S2048x256 .f32) : FVec F S256 .f32 :=
  select (broadcastInDim S256 ![] bcast_S_S256 (cmpf .ogt (cnt (F := F)) (constant S_ .f32 0x00000000#32)))
    (Host.divf (Host.reduceAdd (mulf (centred y) (centred y)) (constant S_ .f32 0x00000000#32) reducesTo_S2048x256_S256_d0 h_S_)
      (broadcastInDim S256 ![] bcast_S_S256 (cnt (F := F))))
    (broadcastInDim S256 ![] bcast_S_S256 (id (constant S_ .f32 0x7FC00000#32)))

/-- Normalise each column, scale, shift, and keep the positive part. -/
def bnRelu (y : FVec F S2048x256 .f32) (gamma beta : FVec F S256 .f32) : FVec F S2048x256 .f32 :=
  maximumf
    (addf (mulf (mulf (subf y (rowsOf (mean y)))
        (rowsOf (Host.rsqrt (addf (var y) (broadcastInDim S256 ![] bcast_S_S256 (constant S_ .f32 0x3727C5AC#32))))))
      (rowsOf gamma)) (rowsOf beta))
    (broadcastInDim S2048x256 ![] bcast_S_S2048x256 (constant S_ .f32 0x00000000#32))

end Bn256

/-! ### The layers' linear parts -/

/-- The first graph layer, 78 columns in: (x + agg)·W + b + (x·W + b). -/
def gin78 (x agg : FVec F S100000x78 .f32) (Wm : FVec F S78x128 .f32) (b : FVec F S128 .f32) : FVec F S100000x128 .f32 :=
  addf (addf (Host.dotGeneral dot_S100000x78_S78x128_S100000x128_1_0_0_1_n_n none (addf x agg) Wm) (BnN.rowsOf b))
    (addf (Host.dotGeneral dot_S100000x78_S78x128_S100000x128_1_0_0_1_n_n none x Wm) (BnN.rowsOf b))

/-- A later graph layer, 128 columns in. -/
def gin128 (x agg : FVec F S100000x128 .f32) (Wm : FVec F S128x128 .f32) (b : FVec F S128 .f32) : FVec F S100000x128 .f32 :=
  addf (addf (Host.dotGeneral dot_S100000x128_S128x128_S100000x128_1_0_0_1_n_n none (addf x agg) Wm) (BnN.rowsOf b))
    (addf (Host.dotGeneral dot_S100000x128_S128x128_S100000x128_1_0_0_1_n_n none x Wm) (BnN.rowsOf b))

/-- The first dense layer: x·W + b, 128 columns to 512. -/
def dense512 (x : FVec F S2048x128 .f32) (Wm : FVec F S128x512 .f32) (b : FVec F S512 .f32) : FVec F S2048x512 .f32 :=
  addf (Host.dotGeneral dot_S2048x128_S128x512_S2048x512_1_0_0_1_n_n none x Wm) (Bn512.rowsOf b)

/-- The second dense layer, 512 columns to 256. -/
def dense256 (x : FVec F S2048x512 .f32) (Wm : FVec F S512x256 .f32) (b : FVec F S256 .f32) : FVec F S2048x256 .f32 :=
  addf (Host.dotGeneral dot_S2048x512_S512x256_S2048x256_1_0_0_1_n_n none x Wm) (Bn256.rowsOf b)

/-- The last stage: x·W + b over 408 columns, columns 204 … 407 of it, and 1 / (1 + exp (−·)) of each. -/
def head (x : FVec F S2048x256 .f32) (Wm : FVec F S256x408 .f32) (b : FVec F S408 .f32) : FVec F S2048x204 .f32 :=
  Host.divf (broadcastInDim S2048x204 ![] bcast_S_S2048x204 (constant S_ .f32 0x3F800000#32))
    (addf (broadcastInDim S2048x204 ![] bcast_S_S2048x204 (constant S_ .f32 0x3F800000#32))
      (Host.exp (Host.negf (extractStridedSlice S2048x204 ![0, 204]
        (addf (Host.dotGeneral dot_S2048x256_S256x408_S2048x408_1_0_0_1_n_n none x Wm)
          (broadcastInDim S2048x408 ![0, 1] bcast_S1x408_S2048x408_0_1 (broadcastInDim S1x408 ![1] bcast_S408_S1x408_1 b)))
        slices_S2048x408_S2048x204_0_204))))

/-! ### The later layers' weights: slice `i` of a stack of four -/

/-- Matrix `i` of four stacked 128 × 128 matrices (the slice, with its unit axis dropped). -/
def mat0 (w : FVec F S4x128x128 .f32) : FVec F S128x128 .f32 :=
  shapeCast S128x128 (extractStridedSlice S1x128x128 ![0, 0, 0] w slices_S4x128x128_S1x128x128_0_0_0) shapeCasts_S1x128x128_S128x128
def mat1 (w : FVec F S4x128x128 .f32) : FVec F S128x128 .f32 :=
  shapeCast S128x128 (extractStridedSlice S1x128x128 ![1, 0, 0] w slices_S4x128x128_S1x128x128_1_0_0) shapeCasts_S1x128x128_S128x128
def mat2 (w : FVec F S4x128x128 .f32) : FVec F S128x128 .f32 :=
  shapeCast S128x128 (extractStridedSlice S1x128x128 ![2, 0, 0] w slices_S4x128x128_S1x128x128_2_0_0) shapeCasts_S1x128x128_S128x128
def mat3 (w : FVec F S4x128x128 .f32) : FVec F S128x128 .f32 :=
  shapeCast S128x128 (extractStridedSlice S1x128x128 ![3, 0, 0] w slices_S4x128x128_S1x128x128_3_0_0) shapeCasts_S1x128x128_S128x128

/-- Row `i` of four stacked 128-vectors. -/
def vec0 (v : FVec F S4x128 .f32) : FVec F S128 .f32 :=
  shapeCast S128 (extractStridedSlice S1x128 ![0, 0] v slices_S4x128_S1x128_0_0) shapeCasts_S1x128_S128
def vec1 (v : FVec F S4x128 .f32) : FVec F S128 .f32 :=
  shapeCast S128 (extractStridedSlice S1x128 ![1, 0] v slices_S4x128_S1x128_1_0) shapeCasts_S1x128_S128
def vec2 (v : FVec F S4x128 .f32) : FVec F S128 .f32 :=
  shapeCast S128 (extractStridedSlice S1x128 ![2, 0] v slices_S4x128_S1x128_2_0) shapeCasts_S1x128_S128
def vec3 (v : FVec F S4x128 .f32) : FVec F S128 .f32 :=
  shapeCast S128 (extractStridedSlice S1x128 ![3, 0] v slices_S4x128_S1x128_3_0) shapeCasts_S1x128_S128

end Cert.ReferenceIdeal.RefValue

end
-- ==== Proof.RefValueStagesA.lean ====
/-
  (Part one: the first three graph layers.) What each stage of the reference's line of operations leaves in the buffer it is there to write, as one of the layer
  functions of what the buffers it reads held before it — whatever those were: the contents before the stage are a
  variable. A stage is one or two consecutive segments of the line; each equation is the fold of its operations read
  back, the called functions' bodies included.
-/
import proofs.«132586_j38087769981032_1_alg».proof.Proof.RefRunOps
import proofs.«132586_j38087769981032_1_alg».proof.Proof.RefValueFns

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- The first layer's neighbour sums. -/
theorem stage_agg1 (W : Valuation τ sig (Elt F)) :
    after seg0 W (Proc.devRef .tc main_v9) = agg78 (W (Proc.devRef .tc main_arg0)) (W (Proc.devRef .tc main_arg1)) (W (Proc.devRef .tc main_arg2)) := by
  simp only [seg0]
  after_results_simp
  rfl

set_option maxRecDepth 16384 in
set_option maxHeartbeats 4000000 in
/-- The first layer. -/
theorem stage_bn1 (W : Valuation τ sig (Elt F)) :
    after seg1 W (Proc.devRef .tc main_v39) = BnN.bnRelu (gin78 (W (Proc.devRef .tc main_arg0)) (W (Proc.devRef .tc main_v9)) (W (Proc.devRef .tc main_arg4)) (W (Proc.devRef .tc main_arg5))) (W (Proc.devRef .tc main_arg6)) (W (Proc.devRef .tc main_arg7)) := by
  simp only [seg1]
  after_results_simp
  rfl

set_option maxRecDepth 16384 in
set_option maxHeartbeats 4000000 in
/-- Layer 2's neighbour sums. -/
theorem stage_agg2 (W : Valuation τ sig (Elt F)) :
    after (seg2 ++ seg3) W (Proc.devRef .tc main_v53) = agg128 (W (Proc.devRef .tc main_v39)) (W (Proc.devRef .tc main_arg1)) (W (Proc.devRef .tc main_arg2)) := by
  simp only [seg2, seg3, List.cons_append, List.nil_append]
  after_results_simp
  rfl

set_option maxRecDepth 16384 in
set_option maxHeartbeats 4000000 in
/-- Layer 2's weight matrix. -/
theorem stage_wm2 (W : Valuation τ sig (Elt F)) :
    after seg2 W (Proc.devRef .tc main_v41) = mat0 (W (Proc.devRef .tc main_arg8)) := by
  simp only [seg2]
  after_results_simp
  rfl

set_option maxRecDepth 16384 in
set_option maxHeartbeats 4000000 in
/-- Layer 2's bias. -/
theorem stage_wb2 (W : Valuation τ sig (Elt F)) :
    after seg2 W (Proc.devRef .tc main_v43) = vec0 (W (Proc.devRef .tc main_arg9)) := by
  simp only [seg2]
  after_results_simp
  rfl

set_option maxRecDepth 16384 in
set_option maxHeartbeats 4000000 in
/-- Layer 2. -/
theorem stage_bn2 (W : Valuation τ sig (Elt F)) :
    after seg4 W (Proc.devRef .tc main_v87) = BnN.bnRelu (gin128 (W (Proc.devRef .tc main_v39)) (W (Proc.devRef .tc main_v53)) (W (Proc.devRef .tc main_v41)) (W (Proc.devRef .tc main_v43))) (vec0 (W (Proc.devRef .tc main_arg10))) (vec0 (W (Proc.devRef .tc main_arg11))) := by
  simp only [seg4]
  after_results_simp
  rfl

set_option maxRecDepth 16384 in
set_option maxHeartbeats 4000000 in
/-- Layer 3's neighbour sums. -/
theorem stage_agg3 (W : Valuation τ sig (Elt F)) :
    after seg5 W (Proc.devRef .tc main_v101) = agg128 (W (Proc.devRef .tc main_v87)) (W (Proc.devRef .tc main_arg1)) (W (Proc.devRef .tc main_arg2)) := by
  simp only [seg5]
  after_results_simp
  rfl

set_option maxRecDepth 16384 in
set_option maxHeartbeats 4000000 in
/-- Layer 3's weight matrix. -/
theorem stage_wm3 (W : Valuation τ sig (Elt F)) :
    after seg5 W (Proc.devRef .tc main_v89) = mat1 (W (Proc.devRef .tc main_arg8)) := by
  simp only [seg5]
  after_results_simp
  rfl

set_option maxRecDepth 16384 in
set_option maxHeartbeats 4000000 in
/-- Layer 3's bias. -/
theorem stage_wb3 (W : Valuation τ sig (Elt F)) :
    after seg5 W (Proc.devRef .tc main_v91) = vec1 (W (Proc.devRef .tc main_arg9)) := by
  simp only [seg5]
  after_results_simp
  rfl

set_option maxRecDepth 16384 in
set_option maxHeartbeats 4000000 in
/-- Layer 3. -/
theorem stage_bn3 (W : Valuation τ sig (Elt F)) :
    after (seg6 ++ seg7) W (Proc.devRef .tc main_v135) = BnN.bnRelu (gin128 (W (Proc.devRef .tc main_v87)) (W (Proc.devRef .tc main_v101)) (W (Proc.devRef .tc main_v89)) (W (Proc.devRef .tc main_v91))) (vec1 (W (Proc.devRef .tc main_arg10))) (vec1 (W (Proc.devRef .tc main_arg11))) := by
  simp only [seg6, seg7, List.cons_append, List.nil_append]
  after_results_simp
  rfl

end Cert.ReferenceIdeal.RefValue

end
-- ==== Proof.RefValueStagesB.lean ====
/-
  (Part two: the last two graph layers, the readout, the dense layers and the last stage.) What each stage of the reference's line of operations leaves in the buffer it is there to write, as one of the layer
  functions of what the buffers it reads held before it — whatever those were: the contents before the stage are a
  variable. A stage is one or two consecutive segments of the line; each equation is the fold of its operations read
  back, the called functions' bodies included.
-/
import proofs.«132586_j38087769981032_1_alg».proof.Proof.RefRunOps
import proofs.«132586_j38087769981032_1_alg».proof.Proof.RefValueFns

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- Layer 4's neighbour sums. -/
theorem stage_agg4 (W : Valuation τ sig (Elt F)) :
    after seg8 W (Proc.devRef .tc main_v149) = agg128 (W (Proc.devRef .tc main_v135)) (W (Proc.devRef .tc main_arg1)) (W (Proc.devRef .tc main_arg2)) := by
  simp only [seg8]
  after_results_simp
  rfl

set_option maxRecDepth 16384 in
set_option maxHeartbeats 4000000 in
/-- Layer 4's weight matrix. -/
theorem stage_wm4 (W : Valuation τ sig (Elt F)) :
    after seg8 W (Proc.devRef .tc main_v137) = mat2 (W (Proc.devRef .tc main_arg8)) := by
  simp only [seg8]
  after_results_simp
  rfl

set_option maxRecDepth 16384 in
set_option maxHeartbeats 4000000 in
/-- Layer 4's bias. -/
theorem stage_wb4 (W : Valuation τ sig (Elt F)) :
    after seg8 W (Proc.devRef .tc main_v139) = vec2 (W (Proc.devRef .tc main_arg9)) := by
  simp only [seg8]
  after_results_simp
  rfl

set_option maxRecDepth 16384 in
set_option maxHeartbeats 4000000 in
/-- Layer 4. -/
theorem stage_bn4 (W : Valuation τ sig (Elt F)) :
    after (seg9 ++ seg10) W (Proc.devRef .tc main_v183) = BnN.bnRelu (gin128 (W (Proc.devRef .tc main_v135)) (W (Proc.devRef .tc main_v149)) (W (Proc.devRef .tc main_v137)) (W (Proc.devRef .tc main_v139))) (vec2 (W (Proc.devRef .tc main_arg10))) (vec2 (W (Proc.devRef .tc main_arg11))) := by
  simp only [seg9, seg10, List.cons_append, List.nil_append]
  after_results_simp
  rfl

set_option maxRecDepth 16384 in
set_option maxHeartbeats 4000000 in
/-- Layer 5's neighbour sums. -/
theorem stage_agg5 (W : Valuation τ sig (Elt F)) :
    after seg11 W (Proc.devRef .tc main_v197) = agg128 (W (Proc.devRef .tc main_v183)) (W (Proc.devRef .tc main_arg1)) (W (Proc.devRef .tc main_arg2)) := by
  simp only [seg11]
  after_results_simp
  rfl

set_option maxRecDepth 16384 in
set_option maxHeartbeats 4000000 in
/-- Layer 5's weight matrix. -/
theorem stage_wm5 (W : Valuation τ sig (Elt F)) :
    after seg11 W (Proc.devRef .tc main_v185) = mat3 (W (Proc.devRef .tc main_arg8)) := by
  simp only [seg11]
  after_results_simp
  rfl

set_option maxRecDepth 16384 in
set_option maxHeartbeats 4000000 in
/-- Layer 5's bias. -/
theorem stage_wb5 (W : Valuation τ sig (Elt F)) :
    after seg11 W (Proc.devRef .tc main_v187) = vec3 (W (Proc.devRef .tc main_arg9)) := by
  simp only [seg11]
  after_results_simp
  rfl

set_option maxRecDepth 16384 in
set_option maxHeartbeats 4000000 in
/-- Layer 5. -/
theorem stage_bn5 (W : Valuation τ sig (Elt F)) :
    after (seg12 ++ seg13) W (Proc.devRef .tc main_v231) = BnN.bnRelu (gin128 (W (Proc.devRef .tc main_v183)) (W (Proc.devRef .tc main_v197)) (W (Proc.devRef .tc main_v185)) (W (Proc.devRef .tc main_v187))) (vec3 (W (Proc.devRef .tc main_arg10))) (vec3 (W (Proc.devRef .tc main_arg11))) := by
  simp only [seg12, seg13, List.cons_append, List.nil_append]
  after_results_simp
  rfl

set_option maxRecDepth 16384 in
set_option maxHeartbeats 4000000 in
/-- The sum of each graph's nodes. -/
theorem stage_readout (W : Valuation τ sig (Elt F)) :
    after seg14 W (Proc.devRef .tc main_v234) = readout (W (Proc.devRef .tc main_v231)) (W (Proc.devRef .tc main_arg3)) := by
  simp only [seg14]
  after_results_simp
  rfl

set_option maxRecDepth 16384 in
set_option maxHeartbeats 4000000 in
/-- The first dense layer. -/
theorem stage_dense1 (W : Valuation τ sig (Elt F)) :
    after seg15 W (Proc.devRef .tc main_v258) = Bn512.bnRelu (dense512 (W (Proc.devRef .tc main_v234)) (W (Proc.devRef .tc main_arg12)) (W (Proc.devRef .tc main_arg13))) (W (Proc.devRef .tc main_arg14)) (W (Proc.devRef .tc main_arg15)) := by
  simp only [seg15]
  after_results_simp
  rfl

set_option maxRecDepth 16384 in
set_option maxHeartbeats 4000000 in
/-- The second dense layer. -/
theorem stage_dense2 (W : Valuation τ sig (Elt F)) :
    after (seg16 ++ seg17) W (Proc.devRef .tc main_v282) = Bn256.bnRelu (dense256 (W (Proc.devRef .tc main_v258)) (W (Proc.devRef .tc main_arg16)) (W (Proc.devRef .tc main_arg17))) (W (Proc.devRef .tc main_arg18)) (W (Proc.devRef .tc main_arg19)) := by
  simp only [seg16, seg17, List.cons_append, List.nil_append]
  after_results_simp
  rfl

set_option maxRecDepth 16384 in
set_option maxHeartbeats 4000000 in
/-- The last stage. -/
theorem stage_head (W : Valuation τ sig (Elt F)) :
    after seg18 W (Proc.devRef .tc main_v293) = head (W (Proc.devRef .tc main_v282)) (W (Proc.devRef .tc main_arg20)) (W (Proc.devRef .tc main_arg21)) := by
  simp only [seg18]
  after_results_simp
  rfl

end Cert.ReferenceIdeal.RefValue

end
-- ==== Proof.RefValueSteps.lean ====
/-
  The reference's value, layer by layer. What the line of operations leaves in each layer's output buffer is the layer's
  function of what it leaves in the layer's input buffers and of the arguments: the stage that writes the buffer, run from
  what the stages before it left (`stage`), reads buffers no later stage writes (`keep`), and the arguments are never
  written. The neighbour sums and the graph sums stay the host's gather and scatter-add of the arrays they read.
-/
import proofs.«132586_j38087769981032_1_alg».proof.Proof.RefRun
import proofs.«132586_j38087769981032_1_alg».proof.Proof.RefValueStagesA
import proofs.«132586_j38087769981032_1_alg».proof.Proof.RefValueStagesB

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The first layer's neighbour sums, of the node features. -/
theorem agg1_eq (V : Valuation τ sig (Elt F)) :
    after ops V (Proc.devRef .tc main_v9) = agg78 (V (Proc.devRef .tc main_arg0)) (V (Proc.devRef .tc main_arg1)) (V (Proc.devRef .tc main_arg2)) := by
  rw [stage 0 1 V main_v9 (by decide)]
  show after (seg0 ++ []) (after ((segs (F := F)).take 0).flatten V) _ = _
  rw [List.append_nil]
  exact stage_agg1 V

/-- The first layer's output, of the node features and their neighbour sums. -/
theorem x1_eq (V : Valuation τ sig (Elt F)) :
    after ops V (Proc.devRef .tc main_v39) = BnN.bnRelu (gin78 (V (Proc.devRef .tc main_arg0)) (after ops V (Proc.devRef .tc main_v9)) (V (Proc.devRef .tc main_arg4)) (V (Proc.devRef .tc main_arg5))) (V (Proc.devRef .tc main_arg6)) (V (Proc.devRef .tc main_arg7)) := by
  rw [stage 1 1 V main_v39 (by decide)]
  show after (seg1 ++ []) (after ((segs (F := F)).take 1).flatten V) _ = _
  rw [List.append_nil, stage_bn1, ← keep 1 V main_arg0 (by decide),
    ← keep 1 V main_v9 (by decide),
    ← keep 1 V main_arg4 (by decide),
    ← keep 1 V main_arg5 (by decide),
    ← keep 1 V main_arg6 (by decide),
    ← keep 1 V main_arg7 (by decide),
    show after ops V (Proc.devRef .tc main_arg0) = V (Proc.devRef .tc main_arg0) from arg0_eq V,
    show after ops V (Proc.devRef .tc main_arg4) = V (Proc.devRef .tc main_arg4) from arg4_eq V,
    show after ops V (Proc.devRef .tc main_arg5) = V (Proc.devRef .tc main_arg5) from arg5_eq V,
    show after ops V (Proc.devRef .tc main_arg6) = V (Proc.devRef .tc main_arg6) from arg6_eq V,
    show after ops V (Proc.devRef .tc main_arg7) = V (Proc.devRef .tc main_arg7) from arg7_eq V]

/-- Layer 2's weights: matrix 0 of the stack. -/
theorem wm2_eq (V : Valuation τ sig (Elt F)) :
    after ops V (Proc.devRef .tc main_v41) = mat0 (V (Proc.devRef .tc main_arg8)) := by
  rw [stage 2 1 V main_v41 (by decide)]
  show after (seg2 ++ []) (after ((segs (F := F)).take 2).flatten V) _ = _
  rw [List.append_nil, stage_wm2, ← keep 2 V main_arg8 (by decide),
    show after ops V (Proc.devRef .tc main_arg8) = V (Proc.devRef .tc main_arg8) from arg8_eq V]

/-- Layer 2's bias: row 0 of the stack. -/
theorem wb2_eq (V : Valuation τ sig (Elt F)) :
    after ops V (Proc.devRef .tc main_v43) = vec0 (V (Proc.devRef .tc main_arg9)) := by
  rw [stage 2 1 V main_v43 (by decide)]
  show after (seg2 ++ []) (after ((segs (F := F)).take 2).flatten V) _ = _
  rw [List.append_nil, stage_wb2, ← keep 2 V main_arg9 (by decide),
    show after ops V (Proc.devRef .tc main_arg9) = V (Proc.devRef .tc main_arg9) from arg9_eq V]

/-- Layer 2's neighbour sums, of the layer before's output. -/
theorem agg2_eq (V : Valuation τ sig (Elt F)) :
    after ops V (Proc.devRef .tc main_v53) = agg128 (after ops V (Proc.devRef .tc main_v39)) (V (Proc.devRef .tc main_arg1)) (V (Proc.devRef .tc main_arg2)) := by
  rw [stage 2 2 V main_v53 (by decide)]
  show after (seg2 ++ (seg3 ++ [])) (after ((segs (F := F)).take 2).flatten V) _ = _
  rw [List.append_nil, stage_agg2, ← keep 2 V main_v39 (by decide),
    ← keep 2 V main_arg1 (by decide),
    ← keep 2 V main_arg2 (by decide),
    show after ops V (Proc.devRef .tc main_arg1) = V (Proc.devRef .tc main_arg1) from arg1_eq V,
    show after ops V (Proc.devRef .tc main_arg2) = V (Proc.devRef .tc main_arg2) from arg2_eq V]

/-- Layer 2's output, of the layer before's output and its neighbour sums. -/
theorem x2_eq (V : Valuation τ sig (Elt F)) :
    after ops V (Proc.devRef .tc main_v87) = BnN.bnRelu (gin128 (after ops V (Proc.devRef .tc main_v39)) (after ops V (Proc.devRef .tc main_v53)) (mat0 (V (Proc.devRef .tc main_arg8))) (vec0 (V (Proc.devRef .tc main_arg9)))) (vec0 (V (Proc.devRef .tc main_arg10))) (vec0 (V (Proc.devRef .tc main_arg11))) := by
  rw [stage 4 1 V main_v87 (by decide)]
  show after (seg4 ++ []) (after ((segs (F := F)).take 4).flatten V) _ = _
  rw [List.append_nil, stage_bn2, ← keep 4 V main_v39 (by decide),
    ← keep 4 V main_v53 (by decide),
    ← keep 4 V main_v41 (by decide),
    ← keep 4 V main_v43 (by decide),
    ← keep 4 V main_arg10 (by decide),
    ← keep 4 V main_arg11 (by decide),
    show after ops V (Proc.devRef .tc main_arg10) = V (Proc.devRef .tc main_arg10) from arg10_eq V,
    show after ops V (Proc.devRef .tc main_arg11) = V (Proc.devRef .tc main_arg11) from arg11_eq V,
    wm2_eq V, wb2_eq V]

/-- Layer 3's weights: matrix 1 of the stack. -/
theorem wm3_eq (V : Valuation τ sig (Elt F)) :
    after ops V (Proc.devRef .tc main_v89) = mat1 (V (Proc.devRef .tc main_arg8)) := by
  rw [stage 5 1 V main_v89 (by decide)]
  show after (seg5 ++ []) (after ((segs (F := F)).take 5).flatten V) _ = _
  rw [List.append_nil, stage_wm3, ← keep 5 V main_arg8 (by decide),
    show after ops V (Proc.devRef .tc main_arg8) = V (Proc.devRef .tc main_arg8) from arg8_eq V]

/-- Layer 3's bias: row 1 of the stack. -/
theorem wb3_eq (V : Valuation τ sig (Elt F)) :
    after ops V (Proc.devRef .tc main_v91) = vec1 (V (Proc.devRef .tc main_arg9)) := by
  rw [stage 5 1 V main_v91 (by decide)]
  show after (seg5 ++ []) (after ((segs (F := F)).take 5).flatten V) _ = _
  rw [List.append_nil, stage_wb3, ← keep 5 V main_arg9 (by decide),
    show after ops V (Proc.devRef .tc main_arg9) = V (Proc.devRef .tc main_arg9) from arg9_eq V]

/-- Layer 3's neighbour sums, of the layer before's output. -/
theorem agg3_eq (V : Valuation τ sig (Elt F)) :
    after ops V (Proc.devRef .tc main_v101) = agg128 (after ops V (Proc.devRef .tc main_v87)) (V (Proc.devRef .tc main_arg1)) (V (Proc.devRef .tc main_arg2)) := by
  rw [stage 5 1 V main_v101 (by decide)]
  show after (seg5 ++ []) (after ((segs (F := F)).take 5).flatten V) _ = _
  rw [List.append_nil, stage_agg3, ← keep 5 V main_v87 (by decide),
    ← keep 5 V main_arg1 (by decide),
    ← keep 5 V main_arg2 (by decide),
    show after ops V (Proc.devRef .tc main_arg1) = V (Proc.devRef .tc main_arg1) from arg1_eq V,
    show after ops V (Proc.devRef .tc main_arg2) = V (Proc.devRef .tc main_arg2) from arg2_eq V]

/-- Layer 3's output, of the layer before's output and its neighbour sums. -/
theorem x3_eq (V : Valuation τ sig (Elt F)) :
    after ops V (Proc.devRef .tc main_v135) = BnN.bnRelu (gin128 (after ops V (Proc.devRef .tc main_v87)) (after ops V (Proc.devRef .tc main_v101)) (mat1 (V (Proc.devRef .tc main_arg8))) (vec1 (V (Proc.devRef .tc main_arg9)))) (vec1 (V (Proc.devRef .tc main_arg10))) (vec1 (V (Proc.devRef .tc main_arg11))) := by
  rw [stage 6 2 V main_v135 (by decide)]
  show after (seg6 ++ (seg7 ++ [])) (after ((segs (F := F)).take 6).flatten V) _ = _
  rw [List.append_nil, stage_bn3, ← keep 6 V main_v87 (by decide),
    ← keep 6 V main_v101 (by decide),
    ← keep 6 V main_v89 (by decide),
    ← keep 6 V main_v91 (by decide),
    ← keep 6 V main_arg10 (by decide),
    ← keep 6 V main_arg11 (by decide),
    show after ops V (Proc.devRef .tc main_arg10) = V (Proc.devRef .tc main_arg10) from arg10_eq V,
    show after ops V (Proc.devRef .tc main_arg11) = V (Proc.devRef .tc main_arg11) from arg11_eq V,
    wm3_eq V, wb3_eq V]

/-- Layer 4's weights: matrix 2 of the stack. -/
theorem wm4_eq (V : Valuation τ sig (Elt F)) :
    after ops V (Proc.devRef .tc main_v137) = mat2 (V (Proc.devRef .tc main_arg8)) := by
  rw [stage 8 1 V main_v137 (by decide)]
  show after (seg8 ++ []) (after ((segs (F := F)).take 8).flatten V) _ = _
  rw [List.append_nil, stage_wm4, ← keep 8 V main_arg8 (by decide),
    show after ops V (Proc.devRef .tc main_arg8) = V (Proc.devRef .tc main_arg8) from arg8_eq V]

/-- Layer 4's bias: row 2 of the stack. -/
theorem wb4_eq (V : Valuation τ sig (Elt F)) :
    after ops V (Proc.devRef .tc main_v139) = vec2 (V (Proc.devRef .tc main_arg9)) := by
  rw [stage 8 1 V main_v139 (by decide)]
  show after (seg8 ++ []) (after ((segs (F := F)).take 8).flatten V) _ = _
  rw [List.append_nil, stage_wb4, ← keep 8 V main_arg9 (by decide),
    show after ops V (Proc.devRef .tc main_arg9) = V (Proc.devRef .tc main_arg9) from arg9_eq V]

/-- Layer 4's neighbour sums, of the layer before's output. -/
theorem agg4_eq (V : Valuation τ sig (Elt F)) :
    after ops V (Proc.devRef .tc main_v149) = agg128 (after ops V (Proc.devRef .tc main_v135)) (V (Proc.devRef .tc main_arg1)) (V (Proc.devRef .tc main_arg2)) := by
  rw [stage 8 1 V main_v149 (by decide)]
  show after (seg8 ++ []) (after ((segs (F := F)).take 8).flatten V) _ = _
  rw [List.append_nil, stage_agg4, ← keep 8 V main_v135 (by decide),
    ← keep 8 V main_arg1 (by decide),
    ← keep 8 V main_arg2 (by decide),
    show after ops V (Proc.devRef .tc main_arg1) = V (Proc.devRef .tc main_arg1) from arg1_eq V,
    show after ops V (Proc.devRef .tc main_arg2) = V (Proc.devRef .tc main_arg2) from arg2_eq V]

/-- Layer 4's output, of the layer before's output and its neighbour sums. -/
theorem x4_eq (V : Valuation τ sig (Elt F)) :
    after ops V (Proc.devRef .tc main_v183) = BnN.bnRelu (gin128 (after ops V (Proc.devRef .tc main_v135)) (after ops V (Proc.devRef .tc main_v149)) (mat2 (V (Proc.devRef .tc main_arg8))) (vec2 (V (Proc.devRef .tc main_arg9)))) (vec2 (V (Proc.devRef .tc main_arg10))) (vec2 (V (Proc.devRef .tc main_arg11))) := by
  rw [stage 9 2 V main_v183 (by decide)]
  show after (seg9 ++ (seg10 ++ [])) (after ((segs (F := F)).take 9).flatten V) _ = _
  rw [List.append_nil, stage_bn4, ← keep 9 V main_v135 (by decide),
    ← keep 9 V main_v149 (by decide),
    ← keep 9 V main_v137 (by decide),
    ← keep 9 V main_v139 (by decide),
    ← keep 9 V main_arg10 (by decide),
    ← keep 9 V main_arg11 (by decide),
    show after ops V (Proc.devRef .tc main_arg10) = V (Proc.devRef .tc main_arg10) from arg10_eq V,
    show after ops V (Proc.devRef .tc main_arg11) = V (Proc.devRef .tc main_arg11) from arg11_eq V,
    wm4_eq V, wb4_eq V]

/-- Layer 5's weights: matrix 3 of the stack. -/
theorem wm5_eq (V : Valuation τ sig (Elt F)) :
    after ops V (Proc.devRef .tc main_v185) = mat3 (V (Proc.devRef .tc main_arg8)) := by
  rw [stage 11 1 V main_v185 (by decide)]
  show after (seg11 ++ []) (after ((segs (F := F)).take 11).flatten V) _ = _
  rw [List.append_nil, stage_wm5, ← keep 11 V main_arg8 (by decide),
    show after ops V (Proc.devRef .tc main_arg8) = V (Proc.devRef .tc main_arg8) from arg8_eq V]

/-- Layer 5's bias: row 3 of the stack. -/
theorem wb5_eq (V : Valuation τ sig (Elt F)) :
    after ops V (Proc.devRef .tc main_v187) = vec3 (V (Proc.devRef .tc main_arg9)) := by
  rw [stage 11 1 V main_v187 (by decide)]
  show after (seg11 ++ []) (after ((segs (F := F)).take 11).flatten V) _ = _
  rw [List.append_nil, stage_wb5, ← keep 11 V main_arg9 (by decide),
    show after ops V (Proc.devRef .tc main_arg9) = V (Proc.devRef .tc main_arg9) from arg9_eq V]

/-- Layer 5's neighbour sums, of the layer before's output. -/
theorem agg5_eq (V : Valuation τ sig (Elt F)) :
    after ops V (Proc.devRef .tc main_v197) = agg128 (after ops V (Proc.devRef .tc main_v183)) (V (Proc.devRef .tc main_arg1)) (V (Proc.devRef .tc main_arg2)) := by
  rw [stage 11 1 V main_v197 (by decide)]
  show after (seg11 ++ []) (after ((segs (F := F)).take 11).flatten V) _ = _
  rw [List.append_nil, stage_agg5, ← keep 11 V main_v183 (by decide),
    ← keep 11 V main_arg1 (by decide),
    ← keep 11 V main_arg2 (by decide),
    show after ops V (Proc.devRef .tc main_arg1) = V (Proc.devRef .tc main_arg1) from arg1_eq V,
    show after ops V (Proc.devRef .tc main_arg2) = V (Proc.devRef .tc main_arg2) from arg2_eq V]

/-- Layer 5's output, of the layer before's output and its neighbour sums. -/
theorem x5_eq (V : Valuation τ sig (Elt F)) :
    after ops V (Proc.devRef .tc main_v231) = BnN.bnRelu (gin128 (after ops V (Proc.devRef .tc main_v183)) (after ops V (Proc.devRef .tc main_v197)) (mat3 (V (Proc.devRef .tc main_arg8))) (vec3 (V (Proc.devRef .tc main_arg9)))) (vec3 (V (Proc.devRef .tc main_arg10))) (vec3 (V (Proc.devRef .tc main_arg11))) := by
  rw [stage 12 2 V main_v231 (by decide)]
  show after (seg12 ++ (seg13 ++ [])) (after ((segs (F := F)).take 12).flatten V) _ = _
  rw [List.append_nil, stage_bn5, ← keep 12 V main_v183 (by decide),
    ← keep 12 V main_v197 (by decide),
    ← keep 12 V main_v185 (by decide),
    ← keep 12 V main_v187 (by decide),
    ← keep 12 V main_arg10 (by decide),
    ← keep 12 V main_arg11 (by decide),
    show after ops V (Proc.devRef .tc main_arg10) = V (Proc.devRef .tc main_arg10) from arg10_eq V,
    show after ops V (Proc.devRef .tc main_arg11) = V (Proc.devRef .tc main_arg11) from arg11_eq V,
    wm5_eq V, wb5_eq V]

/-- Each graph's sum of the last graph layer's rows. -/
theorem readout_eq (V : Valuation τ sig (Elt F)) :
    after ops V (Proc.devRef .tc main_v234) = readout (after ops V (Proc.devRef .tc main_v231)) (V (Proc.devRef .tc main_arg3)) := by
  rw [stage 14 1 V main_v234 (by decide)]
  show after (seg14 ++ []) (after ((segs (F := F)).take 14).flatten V) _ = _
  rw [List.append_nil, stage_readout, ← keep 14 V main_v231 (by decide),
    ← keep 14 V main_arg3 (by decide),
    show after ops V (Proc.devRef .tc main_arg3) = V (Proc.devRef .tc main_arg3) from arg3_eq V]

/-- The first dense layer's output. -/
theorem dense1_eq (V : Valuation τ sig (Elt F)) :
    after ops V (Proc.devRef .tc main_v258) = Bn512.bnRelu (dense512 (after ops V (Proc.devRef .tc main_v234)) (V (Proc.devRef .tc main_arg12)) (V (Proc.devRef .tc main_arg13))) (V (Proc.devRef .tc main_arg14)) (V (Proc.devRef .tc main_arg15)) := by
  rw [stage 15 1 V main_v258 (by decide)]
  show after (seg15 ++ []) (after ((segs (F := F)).take 15).flatten V) _ = _
  rw [List.append_nil, stage_dense1, ← keep 15 V main_v234 (by decide),
    ← keep 15 V main_arg12 (by decide),
    ← keep 15 V main_arg13 (by decide),
    ← keep 15 V main_arg14 (by decide),
    ← keep 15 V main_arg15 (by decide),
    show after ops V (Proc.devRef .tc main_arg12) = V (Proc.devRef .tc main_arg12) from arg12_eq V,
    show after ops V (Proc.devRef .tc main_arg13) = V (Proc.devRef .tc main_arg13) from arg13_eq V,
    show after ops V (Proc.devRef .tc main_arg14) = V (Proc.devRef .tc main_arg14) from arg14_eq V,
    show after ops V (Proc.devRef .tc main_arg15) = V (Proc.devRef .tc main_arg15) from arg15_eq V]

/-- The second dense layer's output. -/
theorem dense2_eq (V : Valuation τ sig (Elt F)) :
    after ops V (Proc.devRef .tc main_v282) = Bn256.bnRelu (dense256 (after ops V (Proc.devRef .tc main_v258)) (V (Proc.devRef .tc main_arg16)) (V (Proc.devRef .tc main_arg17))) (V (Proc.devRef .tc main_arg18)) (V (Proc.devRef .tc main_arg19)) := by
  rw [stage 16 2 V main_v282 (by decide)]
  show after (seg16 ++ (seg17 ++ [])) (after ((segs (F := F)).take 16).flatten V) _ = _
  rw [List.append_nil, stage_dense2, ← keep 16 V main_v258 (by decide),
    ← keep 16 V main_arg16 (by decide),
    ← keep 16 V main_arg17 (by decide),
    ← keep 16 V main_arg18 (by decide),
    ← keep 16 V main_arg19 (by decide),
    show after ops V (Proc.devRef .tc main_arg16) = V (Proc.devRef .tc main_arg16) from arg16_eq V,
    show after ops V (Proc.devRef .tc main_arg17) = V (Proc.devRef .tc main_arg17) from arg17_eq V,
    show after ops V (Proc.devRef .tc main_arg18) = V (Proc.devRef .tc main_arg18) from arg18_eq V,
    show after ops V (Proc.devRef .tc main_arg19) = V (Proc.devRef .tc main_arg19) from arg19_eq V]

/-- The result: the last stage of the second dense layer's output. -/
theorem out_eq (V : Valuation τ sig (Elt F)) :
    after ops V (Proc.devRef .tc main_v293) = head (after ops V (Proc.devRef .tc main_v282)) (V (Proc.devRef .tc main_arg20)) (V (Proc.devRef .tc main_arg21)) := by
  rw [stage 18 1 V main_v293 (by decide)]
  show after (seg18 ++ []) (after ((segs (F := F)).take 18).flatten V) _ = _
  rw [List.append_nil, stage_head, ← keep 18 V main_v282 (by decide),
    ← keep 18 V main_arg20 (by decide),
    ← keep 18 V main_arg21 (by decide),
    show after ops V (Proc.devRef .tc main_arg20) = V (Proc.devRef .tc main_arg20) from arg20_eq V,
    show after ops V (Proc.devRef .tc main_arg21) = V (Proc.devRef .tc main_arg21) from arg21_eq V]

end Cert.ReferenceIdeal.RefValue

end
-- ==== Proof.RefValueAt.lean ====
/-
  The reference's layer functions read at an index, at the ideal values (a float an extended real). A vector repeated down
  the rows reads its own entry; a column sum from zero is zero plus the sum over the rows; the mean is that over the row
  count; the variance's guard holds (the divisor is the row count, a positive number), so the variance is the sum of squared
  deviations over the row count; the host's matrix product is the sum over the shared index. In the specification's words
  (GinSpec) a layer's output is `bnrelu` of `linR` (or `dense`) with `meanR` and `varR`. Last, a gather of a real array
  and a scatter-add of real updates onto a real array have real entries, whatever the indices.
-/
import proofs.«132586_j38087769981032_1_alg».proof.Proof.RefValueFns
import proofs.«132586_j38087769981032_1_alg».proof.Proof.GinSpec
import proofs.«132586_j38087769981032_1_alg».proof.Proof.LibPlainDot
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-! ### Two broadcasts and a plain product, read at an index -/

section Generic

variable {α : Type} {R C : ℕ}

/-- A [1, C] row repeated down R rows reads, at (r, q), the row's entry q. -/
theorem bcRows_apply (h : (⟨2, ![1, C]⟩ : Shape).BroadcastsInDim ⟨2, ![R, C]⟩ ![0, 1]) (v : (⟨2, ![1, C]⟩ : Shape).Idx → α)
    (r : Fin R) (q : Fin C) : broadcastInDim ⟨2, ![R, C]⟩ ![0, 1] h v (ix2 r q) = v (ix2 (0 : Fin 1) q) :=
  broadcastInDim_apply ![0, 1] h v _ _ (fun a => match a with
    | ⟨0, _⟩ => by show (0 : ℕ) = if (1 : ℕ) = 1 then 0 else _; rw [if_pos rfl]
    | ⟨1, _⟩ => by show q.val = if C = 1 then 0 else q.val; have := q.isLt; split <;> omega)

/-- A C-vector laid out as a [1, C] row reads, at (0, q), its entry q. -/
theorem bcLift_apply (h : (⟨1, ![C]⟩ : Shape).BroadcastsInDim ⟨2, ![1, C]⟩ ![1]) (v : (⟨1, ![C]⟩ : Shape).Idx → α) (q : Fin C) :
    broadcastInDim ⟨2, ![1, C]⟩ ![1] h v (ix2 (0 : Fin 1) q) = v (ix1 q) :=
  broadcastInDim_apply ![1] h v _ _ (fun a => match a with
    | ⟨0, _⟩ => by show q.val = if C = 1 then 0 else q.val; have := q.isLt; split <;> omega)

/-- The host's product of an [R, K] array and a [K, C] array at (r, q): the sum over k of left (r, k) · right (k, q). -/
theorem plainDot_apply {K : ℕ} (d : DotDims ⟨2, ![R, K]⟩ ⟨2, ![K, C]⟩ ⟨2, ![R, C]⟩) (hd : d = DotDims.plain R K C)
    (l : FVec Ideal ⟨2, ![R, K]⟩ .f32) (w : FVec Ideal ⟨2, ![K, C]⟩ .f32) (r : Fin R) (q : Fin C) :
    Host.dotGeneral d none l w (ix2 r q) = ∑ k : Fin K, l (ix2 r k) * w (ix2 k q) := by
  simp only [Host.dotGeneral]
  rw [Cert.Lib.PlainDot.dotGeneral_apply d hd]
  unfold Cert.Lib.PlainDot.mm
  refine Finset.sum_congr rfl fun k _ => congrArg₂ (· * ·) (congrArg l ?_) (congrArg w ?_)
  · funext a; match a with | ⟨0, _⟩ => rfl | ⟨1, _⟩ => rfl
  · funext a; match a with | ⟨0, _⟩ => rfl | ⟨1, _⟩ => rfl

end Generic

/-! ### Over 100000 rows of 128 columns -/

namespace BnN

/-- The row count as the reference's float word. -/
abbrev nW : EReal := Ideal.ofBits .f32 0x47C35000#32

/-- That word is the number 100000. -/
theorem nW_eq : nW = ((100000 : ℝ) : EReal) := by
  show Ideal.ofBits .f32 0x47C35000#32 = _
  simp [Ideal.ofBits, Ideal.ieee, -EReal.coe_mul]; norm_num

theorem rowsOf_apply (v : FVec Ideal S128 .f32) (r : Fin 100000) (q : Fin 128) : rowsOf v (ix2 r q) = v (ix1 q) :=
  (bcRows_apply _ _ r q).trans (bcLift_apply _ v q)

/-- A column's sum from zero, entry by entry. -/
theorem colSum_apply (y : FVec Ideal S100000x128 .f32) (q : Fin 128) :
    colSum y (ix1 q) = 0 + ∑ r : Fin 100000, y (ix2 r q) := by
  have hR : S100000x128.Reduces [0] S128 := by decide
  unfold colSum
  rw [hostReduceAdd_apply, Ideal.hostReduceAdd_single reducesTo_S100000x128_S128_d0 hR]
  refine congrArg₂ (· + ·) Ideal.ofBits_zero_f32 (Finset.sum_congr rfl fun k _ => congrArg y ?_)
  funext a; match a with | ⟨0, _⟩ => rfl | ⟨1, _⟩ => rfl

theorem mean_apply (y : FVec Ideal S100000x128 .f32) (q : Fin 128) :
    mean y (ix1 q) = Ideal.div (0 + ∑ r : Fin 100000, y (ix2 r q)) nW := by
  unfold mean
  rw [hostDivf_apply, colSum_apply, broadcastInDim_scalar_apply]
  rfl

theorem centred_apply (y : FVec Ideal S100000x128 .f32) (r : Fin 100000) (q : Fin 128) :
    centred y (ix2 r q) = y (ix2 r q) - Ideal.div (0 + ∑ r' : Fin 100000, y (ix2 r' q)) nW := by
  unfold centred
  rw [subf_apply, bcRows_apply, hostDivf_apply, bcLift_apply, colSum_apply, broadcastInDim_scalar_apply]
  rfl

/-- The variance's divisor is the row count: the correction is the integer zero. -/
theorem cnt_apply : (cnt (F := Ideal)) ix0 = nW := by
  show Ideal.ofBits .f32 0x47C35000#32 - (((0#32 : BitVec 32).toInt : ℝ) : EReal) = _
  rw [show (0#32 : BitVec 32).toInt = 0 from by decide, Int.cast_zero, EReal.coe_zero, sub_zero]

/-- … and it is positive, so the reference's guard selects the quotient. -/
theorem guard_apply : (cmpf .ogt (cnt (F := Ideal)) (constant S_ .f32 0x00000000#32)) ix0 = 1#1 := by
  show Ideal.cmp .ogt ((cnt (F := Ideal)) ix0) (Ideal.ofBits .f32 0x00000000#32) = 1#1
  rw [cnt_apply, Ideal.ofBits_zero_f32, nW_eq]
  have h : (0 : EReal) < ((100000 : ℝ) : EReal) := by exact_mod_cast (by norm_num : (0 : ℝ) < 100000)
  simp [Ideal.cmp, h]

theorem var_apply (y : FVec Ideal S100000x128 .f32) (q : Fin 128) :
    var y (ix1 q) = Ideal.div (0 + ∑ r : Fin 100000, centred y (ix2 r q) * centred y (ix2 r q)) nW := by
  unfold var
  rw [select_apply, broadcastInDim_scalar_apply, guard_apply, select_one, hostDivf_apply,
    show Host.reduceAdd (mulf (centred y) (centred y)) (constant S_ .f32 0x00000000#32) reducesTo_S100000x128_S128_d0 h_S_
      = colSum (mulf (centred y) (centred y)) from rfl,
    colSum_apply, broadcastInDim_scalar_apply, cnt_apply]
  rfl

/-- The small positive word added to the variance. -/
abbrev epsW : EReal := Ideal.ofBits .f32 0x3727C5AC#32

theorem bnRelu_apply (y : FVec Ideal S100000x128 .f32) (g b : FVec Ideal S128 .f32) (r : Fin 100000) (q : Fin 128) :
    bnRelu y g b (ix2 r q)
      = max (((y (ix2 r q) - mean y (ix1 q)) * Ideal.rsqrt (var y (ix1 q) + epsW)) * g (ix1 q) + b (ix1 q)) 0 := by
  unfold bnRelu
  rw [maximumf_apply, addf_apply, mulf_apply, mulf_apply, subf_apply, rowsOf_apply, rowsOf_apply, rowsOf_apply, rowsOf_apply,
    broadcastInDim_scalar_apply,
    show (constant (F := Ideal) S_ .f32 0x00000000#32) ix0 = 0 from Ideal.ofBits_zero_f32,
    show Host.rsqrt (addf (var y) (broadcastInDim S128 ![] bcast_S_S128 (constant S_ .f32 0x3727C5AC#32))) (ix1 q)
      = Ideal.rsqrt (var y (ix1 q) + (broadcastInDim S128 ![] bcast_S_S128 (constant (F := Ideal) S_ .f32 0x3727C5AC#32)) (ix1 q)) from rfl,
    broadcastInDim_scalar_apply]
  rfl

/-- The layer in the specification's words: the mean and the variance of the columns of `y` and the normalised,
    scaled, shifted, rectified entry. -/
theorem mean_spec (y : FVec Ideal S100000x128 .f32) :
    (fun q : Fin 128 => mean y (ix1 q)) = Cert.GinSpec.meanR nW (fun r q => y (ix2 r q)) :=
  funext fun q => mean_apply y q

theorem var_spec (y : FVec Ideal S100000x128 .f32) :
    (fun q : Fin 128 => var y (ix1 q)) = Cert.GinSpec.varR nW (fun r q => y (ix2 r q)) :=
  funext fun q => by
    rw [var_apply]
    simp only [centred_apply]
    rfl

theorem bnRelu_spec (y : FVec Ideal S100000x128 .f32) (g b : FVec Ideal S128 .f32) (r : Fin 100000) (q : Fin 128) :
    bnRelu y g b (ix2 r q)
      = Cert.GinSpec.bnrelu epsW (fun r q => y (ix2 r q)) (Cert.GinSpec.meanR nW (fun r q => y (ix2 r q)))
          (Cert.GinSpec.varR nW (fun r q => y (ix2 r q))) (fun q => g (ix1 q)) (fun q => b (ix1 q)) r q := by
  rw [bnRelu_apply, ← mean_spec, ← var_spec]
  rfl

end BnN

/-! ### Over 2048 rows of 512 columns -/

namespace Bn512

/-- The row count as the reference's float word. -/
abbrev nW : EReal := Ideal.ofBits .f32 0x45000000#32

/-- That word is the number 2048. -/
theorem nW_eq : nW = ((2048 : ℝ) : EReal) := by
  show Ideal.ofBits .f32 0x45000000#32 = _
  simp [Ideal.ofBits, Ideal.ieee, -EReal.coe_mul]; norm_num

theorem rowsOf_apply (v : FVec Ideal S512 .f32) (r : Fin 2048) (q : Fin 512) : rowsOf v (ix2 r q) = v (ix1 q) :=
  (bcRows_apply _ _ r q).trans (bcLift_apply _ v q)

/-- A column's sum from zero, entry by entry. -/
theorem colSum_apply (y : FVec Ideal S2048x512 .f32) (q : Fin 512) :
    colSum y (ix1 q) = 0 + ∑ r : Fin 2048, y (ix2 r q) := by
  have hR : S2048x512.Reduces [0] S512 := by decide
  unfold colSum
  rw [hostReduceAdd_apply, Ideal.hostReduceAdd_single reducesTo_S2048x512_S512_d0 hR]
  refine congrArg₂ (· + ·) Ideal.ofBits_zero_f32 (Finset.sum_congr rfl fun k _ => congrArg y ?_)
  funext a; match a with | ⟨0, _⟩ => rfl | ⟨1, _⟩ => rfl

theorem mean_apply (y : FVec Ideal S2048x512 .f32) (q : Fin 512) :
    mean y (ix1 q) = Ideal.div (0 + ∑ r : Fin 2048, y (ix2 r q)) nW := by
  unfold mean
  rw [hostDivf_apply, colSum_apply, broadcastInDim_scalar_apply]
  rfl

theorem centred_apply (y : FVec Ideal S2048x512 .f32) (r : Fin 2048) (q : Fin 512) :
    centred y (ix2 r q) = y (ix2 r q) - Ideal.div (0 + ∑ r' : Fin 2048, y (ix2 r' q)) nW := by
  unfold centred
  rw [subf_apply, bcRows_apply, hostDivf_apply, bcLift_apply, colSum_apply, broadcastInDim_scalar_apply]
  rfl

/-- The variance's divisor is the row count: the correction is the integer zero. -/
theorem cnt_apply : (cnt (F := Ideal)) ix0 = nW := by
  show Ideal.ofBits .f32 0x45000000#32 - (((0#32 : BitVec 32).toInt : ℝ) : EReal) = _
  rw [show (0#32 : BitVec 32).toInt = 0 from by decide, Int.cast_zero, EReal.coe_zero, sub_zero]

/-- … and it is positive, so the reference's guard selects the quotient. -/
theorem guard_apply : (cmpf .ogt (cnt (F := Ideal)) (constant S_ .f32 0x00000000#32)) ix0 = 1#1 := by
  show Ideal.cmp .ogt ((cnt (F := Ideal)) ix0) (Ideal.ofBits .f32 0x00000000#32) = 1#1
  rw [cnt_apply, Ideal.ofBits_zero_f32, nW_eq]
  have h : (0 : EReal) < ((2048 : ℝ) : EReal) := by exact_mod_cast (by norm_num : (0 : ℝ) < 2048)
  simp [Ideal.cmp, h]

theorem var_apply (y : FVec Ideal S2048x512 .f32) (q : Fin 512) :
    var y (ix1 q) = Ideal.div (0 + ∑ r : Fin 2048, centred y (ix2 r q) * centred y (ix2 r q)) nW := by
  unfold var
  rw [select_apply, broadcastInDim_scalar_apply, guard_apply, select_one, hostDivf_apply,
    show Host.reduceAdd (mulf (centred y) (centred y)) (constant S_ .f32 0x00000000#32) reducesTo_S2048x512_S512_d0 h_S_
      = colSum (mulf (centred y) (centred y)) from rfl,
    colSum_apply, broadcastInDim_scalar_apply, cnt_apply]
  rfl

/-- The small positive word added to the variance. -/
abbrev epsW : EReal := Ideal.ofBits .f32 0x3727C5AC#32

theorem bnRelu_apply (y : FVec Ideal S2048x512 .f32) (g b : FVec Ideal S512 .f32) (r : Fin 2048) (q : Fin 512) :
    bnRelu y g b (ix2 r q)
      = max (((y (ix2 r q) - mean y (ix1 q)) * Ideal.rsqrt (var y (ix1 q) + epsW)) * g (ix1 q) + b (ix1 q)) 0 := by
  unfold bnRelu
  rw [maximumf_apply, addf_apply, mulf_apply, mulf_apply, subf_apply, rowsOf_apply, rowsOf_apply, rowsOf_apply, rowsOf_apply,
    broadcastInDim_scalar_apply,
    show (constant (F := Ideal) S_ .f32 0x00000000#32) ix0 = 0 from Ideal.ofBits_zero_f32,
    show Host.rsqrt (addf (var y) (broadcastInDim S512 ![] bcast_S_S512 (constant S_ .f32 0x3727C5AC#32))) (ix1 q)
      = Ideal.rsqrt (var y (ix1 q) + (broadcastInDim S512 ![] bcast_S_S512 (constant (F := Ideal) S_ .f32 0x3727C5AC#32)) (ix1 q)) from rfl,
    broadcastInDim_scalar_apply]
  rfl

/-- The layer in the specification's words: the mean and the variance of the columns of `y` and the normalised,
    scaled, shifted, rectified entry. -/
theorem mean_spec (y : FVec Ideal S2048x512 .f32) :
    (fun q : Fin 512 => mean y (ix1 q)) = Cert.GinSpec.meanR nW (fun r q => y (ix2 r q)) :=
  funext fun q => mean_apply y q

theorem var_spec (y : FVec Ideal S2048x512 .f32) :
    (fun q : Fin 512 => var y (ix1 q)) = Cert.GinSpec.varR nW (fun r q => y (ix2 r q)) :=
  funext fun q => by
    rw [var_apply]
    simp only [centred_apply]
    rfl

theorem bnRelu_spec (y : FVec Ideal S2048x512 .f32) (g b : FVec Ideal S512 .f32) (r : Fin 2048) (q : Fin 512) :
    bnRelu y g b (ix2 r q)
      = Cert.GinSpec.bnrelu epsW (fun r q => y (ix2 r q)) (Cert.GinSpec.meanR nW (fun r q => y (ix2 r q)))
          (Cert.GinSpec.varR nW (fun r q => y (ix2 r q))) (fun q => g (ix1 q)) (fun q => b (ix1 q)) r q := by
  rw [bnRelu_apply, ← mean_spec, ← var_spec]
  rfl

end Bn512

/-! ### Over 2048 rows of 256 columns -/

namespace Bn256

/-- The row count as the reference's float word. -/
abbrev nW : EReal := Ideal.ofBits .f32 0x45000000#32

/-- That word is the number 2048. -/
theorem nW_eq : nW = ((2048 : ℝ) : EReal) := by
  show Ideal.ofBits .f32 0x45000000#32 = _
  simp [Ideal.ofBits, Ideal.ieee, -EReal.coe_mul]; norm_num

theorem rowsOf_apply (v : FVec Ideal S256 .f32) (r : Fin 2048) (q : Fin 256) : rowsOf v (ix2 r q) = v (ix1 q) :=
  (bcRows_apply _ _ r q).trans (bcLift_apply _ v q)

/-- A column's sum from zero, entry by entry. -/
theorem colSum_apply (y : FVec Ideal S2048x256 .f32) (q : Fin 256) :
    colSum y (ix1 q) = 0 + ∑ r : Fin 2048, y (ix2 r q) := by
  have hR : S2048x256.Reduces [0] S256 := by decide
  unfold colSum
  rw [hostReduceAdd_apply, Ideal.hostReduceAdd_single reducesTo_S2048x256_S256_d0 hR]
  refine congrArg₂ (· + ·) Ideal.ofBits_zero_f32 (Finset.sum_congr rfl fun k _ => congrArg y ?_)
  funext a; match a with | ⟨0, _⟩ => rfl | ⟨1, _⟩ => rfl

theorem mean_apply (y : FVec Ideal S2048x256 .f32) (q : Fin 256) :
    mean y (ix1 q) = Ideal.div (0 + ∑ r : Fin 2048, y (ix2 r q)) nW := by
  unfold mean
  rw [hostDivf_apply, colSum_apply, broadcastInDim_scalar_apply]
  rfl

theorem centred_apply (y : FVec Ideal S2048x256 .f32) (r : Fin 2048) (q : Fin 256) :
    centred y (ix2 r q) = y (ix2 r q) - Ideal.div (0 + ∑ r' : Fin 2048, y (ix2 r' q)) nW := by
  unfold centred
  rw [subf_apply, bcRows_apply, hostDivf_apply, bcLift_apply, colSum_apply, broadcastInDim_scalar_apply]
  rfl

/-- The variance's divisor is the row count: the correction is the integer zero. -/
theorem cnt_apply : (cnt (F := Ideal)) ix0 = nW := by
  show Ideal.ofBits .f32 0x45000000#32 - (((0#32 : BitVec 32).toInt : ℝ) : EReal) = _
  rw [show (0#32 : BitVec 32).toInt = 0 from by decide, Int.cast_zero, EReal.coe_zero, sub_zero]

/-- … and it is positive, so the reference's guard selects the quotient. -/
theorem guard_apply : (cmpf .ogt (cnt (F := Ideal)) (constant S_ .f32 0x00000000#32)) ix0 = 1#1 := by
  show Ideal.cmp .ogt ((cnt (F := Ideal)) ix0) (Ideal.ofBits .f32 0x00000000#32) = 1#1
  rw [cnt_apply, Ideal.ofBits_zero_f32, nW_eq]
  have h : (0 : EReal) < ((2048 : ℝ) : EReal) := by exact_mod_cast (by norm_num : (0 : ℝ) < 2048)
  simp [Ideal.cmp, h]

theorem var_apply (y : FVec Ideal S2048x256 .f32) (q : Fin 256) :
    var y (ix1 q) = Ideal.div (0 + ∑ r : Fin 2048, centred y (ix2 r q) * centred y (ix2 r q)) nW := by
  unfold var
  rw [select_apply, broadcastInDim_scalar_apply, guard_apply, select_one, hostDivf_apply,
    show Host.reduceAdd (mulf (centred y) (centred y)) (constant S_ .f32 0x00000000#32) reducesTo_S2048x256_S256_d0 h_S_
      = colSum (mulf (centred y) (centred y)) from rfl,
    colSum_apply, broadcastInDim_scalar_apply, cnt_apply]
  rfl

/-- The small positive word added to the variance. -/
abbrev epsW : EReal := Ideal.ofBits .f32 0x3727C5AC#32

theorem bnRelu_apply (y : FVec Ideal S2048x256 .f32) (g b : FVec Ideal S256 .f32) (r : Fin 2048) (q : Fin 256) :
    bnRelu y g b (ix2 r q)
      = max (((y (ix2 r q) - mean y (ix1 q)) * Ideal.rsqrt (var y (ix1 q) + epsW)) * g (ix1 q) + b (ix1 q)) 0 := by
  unfold bnRelu
  rw [maximumf_apply, addf_apply, mulf_apply, mulf_apply, subf_apply, rowsOf_apply, rowsOf_apply, rowsOf_apply, rowsOf_apply,
    broadcastInDim_scalar_apply,
    show (constant (F := Ideal) S_ .f32 0x00000000#32) ix0 = 0 from Ideal.ofBits_zero_f32,
    show Host.rsqrt (addf (var y) (broadcastInDim S256 ![] bcast_S_S256 (constant S_ .f32 0x3727C5AC#32))) (ix1 q)
      = Ideal.rsqrt (var y (ix1 q) + (broadcastInDim S256 ![] bcast_S_S256 (constant (F := Ideal) S_ .f32 0x3727C5AC#32)) (ix1 q)) from rfl,
    broadcastInDim_scalar_apply]
  rfl

/-- The layer in the specification's words: the mean and the variance of the columns of `y` and the normalised,
    scaled, shifted, rectified entry. -/
theorem mean_spec (y : FVec Ideal S2048x256 .f32) :
    (fun q : Fin 256 => mean y (ix1 q)) = Cert.GinSpec.meanR nW (fun r q => y (ix2 r q)) :=
  funext fun q => mean_apply y q

theorem var_spec (y : FVec Ideal S2048x256 .f32) :
    (fun q : Fin 256 => var y (ix1 q)) = Cert.GinSpec.varR nW (fun r q => y (ix2 r q)) :=
  funext fun q => by
    rw [var_apply]
    simp only [centred_apply]
    rfl

theorem bnRelu_spec (y : FVec Ideal S2048x256 .f32) (g b : FVec Ideal S256 .f32) (r : Fin 2048) (q : Fin 256) :
    bnRelu y g b (ix2 r q)
      = Cert.GinSpec.bnrelu epsW (fun r q => y (ix2 r q)) (Cert.GinSpec.meanR nW (fun r q => y (ix2 r q)))
          (Cert.GinSpec.varR nW (fun r q => y (ix2 r q))) (fun q => g (ix1 q)) (fun q => b (ix1 q)) r q := by
  rw [bnRelu_apply, ← mean_spec, ← var_spec]
  rfl

end Bn256

/-! ### The layers' linear parts, the weight slices and the last stage, read at an index -/

theorem gin78_apply (x a : FVec Ideal S100000x78 .f32) (Wm : FVec Ideal S78x128 .f32) (b : FVec Ideal S128 .f32)
    (r : Fin 100000) (q : Fin 128) :
    gin78 x a Wm b (ix2 r q)
      = Cert.GinSpec.linR (fun r k => x (ix2 r k)) (fun r k => a (ix2 r k)) (fun k q => Wm (ix2 k q)) (fun q => b (ix1 q)) r q := by
  unfold gin78
  rw [addf_apply, addf_apply, addf_apply, plainDot_apply dot_S100000x78_S78x128_S100000x128_1_0_0_1_n_n rfl, plainDot_apply dot_S100000x78_S78x128_S100000x128_1_0_0_1_n_n rfl, BnN.rowsOf_apply]
  rfl

theorem gin128_apply (x a : FVec Ideal S100000x128 .f32) (Wm : FVec Ideal S128x128 .f32) (b : FVec Ideal S128 .f32)
    (r : Fin 100000) (q : Fin 128) :
    gin128 x a Wm b (ix2 r q)
      = Cert.GinSpec.linR (fun r k => x (ix2 r k)) (fun r k => a (ix2 r k)) (fun k q => Wm (ix2 k q)) (fun q => b (ix1 q)) r q := by
  unfold gin128
  rw [addf_apply, addf_apply, addf_apply, plainDot_apply dot_S100000x128_S128x128_S100000x128_1_0_0_1_n_n rfl, plainDot_apply dot_S100000x128_S128x128_S100000x128_1_0_0_1_n_n rfl, BnN.rowsOf_apply]
  rfl

theorem dense512_apply (x : FVec Ideal S2048x128 .f32) (Wm : FVec Ideal S128x512 .f32) (b : FVec Ideal S512 .f32)
    (r : Fin 2048) (q : Fin 512) :
    dense512 x Wm b (ix2 r q) = Cert.GinSpec.dense (fun r k => x (ix2 r k)) (fun k q => Wm (ix2 k q)) (fun q => b (ix1 q)) r q := by
  unfold dense512
  rw [addf_apply, plainDot_apply dot_S2048x128_S128x512_S2048x512_1_0_0_1_n_n rfl, Bn512.rowsOf_apply]
  rfl

theorem dense256_apply (x : FVec Ideal S2048x512 .f32) (Wm : FVec Ideal S512x256 .f32) (b : FVec Ideal S256 .f32)
    (r : Fin 2048) (q : Fin 256) :
    dense256 x Wm b (ix2 r q) = Cert.GinSpec.dense (fun r k => x (ix2 r k)) (fun k q => Wm (ix2 k q)) (fun q => b (ix1 q)) r q := by
  unfold dense256
  rw [addf_apply, plainDot_apply dot_S2048x512_S512x256_S2048x256_1_0_0_1_n_n rfl, Bn256.rowsOf_apply]
  rfl

/-- Column `c` of the last 204 columns is column 204 + c of the 408. -/
abbrev hi (c : Fin 204) : Fin 408 := ⟨204 + c.val, by have := c.isLt; omega⟩

/-- The last stage at (r, c): the logistic of the logit in column 204 + c. -/
theorem head_apply (x : FVec Ideal S2048x256 .f32) (Wm : FVec Ideal S256x408 .f32) (b : FVec Ideal S408 .f32)
    (r : Fin 2048) (c : Fin 204) :
    head x Wm b (ix2 r c) = Ideal.logistic ((∑ k : Fin 256, x (ix2 r k) * Wm (ix2 k (hi c))) + b (ix1 (hi c))) := by
  unfold head
  rw [hostDivf_apply, broadcastInDim_scalar_apply, addf_apply, broadcastInDim_scalar_apply,
    show (constant (F := Ideal) S_ .f32 0x3F800000#32) ix0 = 1 from Ideal.ofBits_one_f32,
    show ∀ v : FVec Ideal S2048x204 .f32, Host.exp (Host.negf v) (ix2 r c) = Ideal.exp (-(v (ix2 r c))) from fun _ => rfl,
    slice2_axis1_apply 204 _ _ r c (hi c) rfl, addf_apply, plainDot_apply dot_S2048x256_S256x408_S2048x408_1_0_0_1_n_n rfl, bcRows_apply, bcLift_apply]
  rfl

theorem mat0_apply (w : FVec Ideal S4x128x128 .f32) (k q : Fin 128) : mat0 w (ix2 k q) = w (ix3 (0 : Fin 4) k q) := by
  unfold mat0
  rw [shapeCast_1ab_ab_apply]
  exact extractStridedSlice_apply _ w _ _ _ (fun a => match a with | ⟨0, _⟩ => rfl | ⟨1, _⟩ => (Nat.zero_add _).symm | ⟨2, _⟩ => (Nat.zero_add _).symm)
theorem mat1_apply (w : FVec Ideal S4x128x128 .f32) (k q : Fin 128) : mat1 w (ix2 k q) = w (ix3 (1 : Fin 4) k q) := by
  unfold mat1
  rw [shapeCast_1ab_ab_apply]
  exact extractStridedSlice_apply _ w _ _ _ (fun a => match a with | ⟨0, _⟩ => rfl | ⟨1, _⟩ => (Nat.zero_add _).symm | ⟨2, _⟩ => (Nat.zero_add _).symm)
theorem mat2_apply (w : FVec Ideal S4x128x128 .f32) (k q : Fin 128) : mat2 w (ix2 k q) = w (ix3 (2 : Fin 4) k q) := by
  unfold mat2
  rw [shapeCast_1ab_ab_apply]
  exact extractStridedSlice_apply _ w _ _ _ (fun a => match a with | ⟨0, _⟩ => rfl | ⟨1, _⟩ => (Nat.zero_add _).symm | ⟨2, _⟩ => (Nat.zero_add _).symm)
theorem mat3_apply (w : FVec Ideal S4x128x128 .f32) (k q : Fin 128) : mat3 w (ix2 k q) = w (ix3 (3 : Fin 4) k q) := by
  unfold mat3
  rw [shapeCast_1ab_ab_apply]
  exact extractStridedSlice_apply _ w _ _ _ (fun a => match a with | ⟨0, _⟩ => rfl | ⟨1, _⟩ => (Nat.zero_add _).symm | ⟨2, _⟩ => (Nat.zero_add _).symm)

theorem vec0_apply (v : FVec Ideal S4x128 .f32) (q : Fin 128) : vec0 v (ix1 q) = v (ix2 (0 : Fin 4) q) := by
  unfold vec0
  rw [shapeCast_1a_a_apply]
  exact slice2_axis0_apply 0 v _ (0 : Fin 1) q (0 : Fin 4) rfl
theorem vec1_apply (v : FVec Ideal S4x128 .f32) (q : Fin 128) : vec1 v (ix1 q) = v (ix2 (1 : Fin 4) q) := by
  unfold vec1
  rw [shapeCast_1a_a_apply]
  exact slice2_axis0_apply 1 v _ (0 : Fin 1) q (1 : Fin 4) rfl
theorem vec2_apply (v : FVec Ideal S4x128 .f32) (q : Fin 128) : vec2 v (ix1 q) = v (ix2 (2 : Fin 4) q) := by
  unfold vec2
  rw [shapeCast_1a_a_apply]
  exact slice2_axis0_apply 2 v _ (0 : Fin 1) q (2 : Fin 4) rfl
theorem vec3_apply (v : FVec Ideal S4x128 .f32) (q : Fin 128) : vec3 v (ix1 q) = v (ix2 (3 : Fin 4) q) := by
  unfold vec3
  rw [shapeCast_1a_a_apply]
  exact slice2_axis0_apply 3 v _ (0 : Fin 1) q (3 : Fin 4) rfl

/-! ### Real entries stay real through the gather and the scatter-add -/

/-- A gather reads entries of its operand: of a real array it is real, whatever the indices. -/
theorem gather_real {s si t : Shape} {w : ℕ} (d : GatherDims s si t) (x : s.Idx → EReal) (idx : IVec si w)
    (hx : ∀ i, ∃ a : ℝ, x i = (a : EReal)) (j : t.Idx) : ∃ a : ℝ, Host.gather d x idx j = (a : EReal) := hx _

/-- A finite sum of reals is real. -/
theorem sum_real {ι : Type} (s : Finset ι) (f : ι → EReal) (hf : ∀ i ∈ s, ∃ a : ℝ, f i = (a : EReal)) :
    ∃ a : ℝ, ∑ i ∈ s, f i = (a : EReal) := by
  classical
  induction s using Finset.induction_on with
  | empty => exact ⟨0, by rw [Finset.sum_empty, EReal.coe_zero]⟩
  | insert i s hi ih =>
    obtain ⟨a, ha⟩ := hf i (Finset.mem_insert_self i s)
    obtain ⟨b, hb⟩ := ih fun j hj => hf j (Finset.mem_insert_of_mem hj)
    exact ⟨a + b, by rw [Finset.sum_insert hi, ha, hb, EReal.coe_add]⟩

/-- A scatter-add of real updates onto a real array is real: each entry is the array's plus the sum of the updates sent there. -/
theorem scatterAdd_real {s si u : Shape} {w : ℕ} {φ : FTy} (d : ScatterDims s si u) (x : FVec Ideal s φ) (idx : IVec si w)
    (upd : FVec Ideal u φ) (hx : ∀ i, ∃ a : ℝ, x i = (a : EReal)) (hu : ∀ j, ∃ a : ℝ, upd j = (a : EReal)) (i : s.Idx) :
    ∃ a : ℝ, Host.scatterAdd d x idx upd i = (a : EReal) := by
  obtain ⟨a, ha⟩ := hx i
  obtain ⟨b, hb⟩ := sum_real (Finset.univ.filter fun j => d.resultIdx? j idx = some i) upd fun j _ => hu j
  refine ⟨a + b, ?_⟩
  show x i + ∑ j ∈ Finset.univ.filter (fun j => d.resultIdx? j idx = some i), upd j = _
  rw [ha, hb, EReal.coe_add]

/-- The zero array is real. -/
theorem zeros_real {T : Shape} (h : (⟨0, ![]⟩ : Shape).BroadcastsInDim T ![]) (i : T.Idx) :
    ∃ a : ℝ, broadcastInDim T ![] h (constant (F := Ideal) S_ .f32 0x00000000#32) i = (a : EReal) :=
  ⟨0, by rw [broadcastInDim_scalar_apply]; exact Ideal.ofBits_zero_f32.trans EReal.coe_zero.symm⟩

/-- So the neighbour sums and the graph sums of a real array are real. -/
theorem agg78_real (x : FVec Ideal S100000x78 .f32) (src dst : IVec S1600000 32) (hx : ∀ i, ∃ a : ℝ, x i = (a : EReal))
    (i : S100000x78.Idx) : ∃ a : ℝ, agg78 x src dst i = (a : EReal) :=
  scatterAdd_real _ _ _ _ (zeros_real _) (gather_real _ x _ hx) i
theorem agg128_real (x : FVec Ideal S100000x128 .f32) (src dst : IVec S1600000 32) (hx : ∀ i, ∃ a : ℝ, x i = (a : EReal))
    (i : S100000x128.Idx) : ∃ a : ℝ, agg128 x src dst i = (a : EReal) :=
  scatterAdd_real _ _ _ _ (zeros_real _) (gather_real _ x _ hx) i
theorem readout_real (x : FVec Ideal S100000x128 .f32) (gid : IVec S100000 32) (hx : ∀ i, ∃ a : ℝ, x i = (a : EReal))
    (i : S2048x128.Idx) : ∃ a : ℝ, readout x gid i = (a : EReal) :=
  scatterAdd_real _ _ _ _ (zeros_real _) hx i

end Cert.ReferenceIdeal.RefValue

end
-- ==== Proof.RefValueLayers.lean ====
/-
  The reference's value at the ideal values, one entry at a time, in the specification's words: each batch-normalised layer's
  output at (r, q) is `bnrelu` of the layer's affine stage (`linR` of the input activations, their neighbour sums, the
  weights and the bias for a graph layer; `dense` for a dense layer) with the columns' `meanR` and `varR`, the row count
  and the small constant being the reference's own float words; the result at (r, c) is the logistic of the last dense
  stage's column 204 + c. The neighbour sums and the graph sums are the buffers the gather and scatter-add wrote
  (RefValueSteps states them as whole arrays).
-/
import proofs.«132586_j38087769981032_1_alg».proof.Proof.RefValueSteps
import proofs.«132586_j38087769981032_1_alg».proof.Proof.RefValueAt

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx
open scoped BigOperators

/-- The first graph layer's output entry (r, q). -/
theorem layer1_at (V : Valuation τ sig (Elt Ideal)) (r : Fin 100000) (q : Fin 128) :
    (after ops V (Proc.devRef .tc main_v39) : FVec Ideal S100000x128 .f32) (ix2 r q)
      = Cert.GinSpec.bnrelu BnN.epsW (Cert.GinSpec.linR (fun r k => (V (Proc.devRef .tc main_arg0) : FVec Ideal S100000x78 .f32) (ix2 r k)) (fun r k => (after ops V (Proc.devRef .tc main_v9) : FVec Ideal S100000x78 .f32) (ix2 r k)) (fun k q => (V (Proc.devRef .tc main_arg4) : FVec Ideal S78x128 .f32) (ix2 k q)) (fun q => (V (Proc.devRef .tc main_arg5) : FVec Ideal S128 .f32) (ix1 q)))
        (Cert.GinSpec.meanR BnN.nW (Cert.GinSpec.linR (fun r k => (V (Proc.devRef .tc main_arg0) : FVec Ideal S100000x78 .f32) (ix2 r k)) (fun r k => (after ops V (Proc.devRef .tc main_v9) : FVec Ideal S100000x78 .f32) (ix2 r k)) (fun k q => (V (Proc.devRef .tc main_arg4) : FVec Ideal S78x128 .f32) (ix2 k q)) (fun q => (V (Proc.devRef .tc main_arg5) : FVec Ideal S128 .f32) (ix1 q))))
        (Cert.GinSpec.varR BnN.nW (Cert.GinSpec.linR (fun r k => (V (Proc.devRef .tc main_arg0) : FVec Ideal S100000x78 .f32) (ix2 r k)) (fun r k => (after ops V (Proc.devRef .tc main_v9) : FVec Ideal S100000x78 .f32) (ix2 r k)) (fun k q => (V (Proc.devRef .tc main_arg4) : FVec Ideal S78x128 .f32) (ix2 k q)) (fun q => (V (Proc.devRef .tc main_arg5) : FVec Ideal S128 .f32) (ix1 q))))
        (fun q => (V (Proc.devRef .tc main_arg6) : FVec Ideal S128 .f32) (ix1 q)) (fun q => (V (Proc.devRef .tc main_arg7) : FVec Ideal S128 .f32) (ix1 q)) r q := by
  rw [x1_eq V, BnN.bnRelu_spec]
  simp only [gin78_apply]

/-- Graph layer 2's output entry (r, q). -/
theorem layer2_at (V : Valuation τ sig (Elt Ideal)) (r : Fin 100000) (q : Fin 128) :
    (after ops V (Proc.devRef .tc main_v87) : FVec Ideal S100000x128 .f32) (ix2 r q)
      = Cert.GinSpec.bnrelu BnN.epsW (Cert.GinSpec.linR (fun r k => (after ops V (Proc.devRef .tc main_v39) : FVec Ideal S100000x128 .f32) (ix2 r k)) (fun r k => (after ops V (Proc.devRef .tc main_v53) : FVec Ideal S100000x128 .f32) (ix2 r k)) (fun k q => (V (Proc.devRef .tc main_arg8) : FVec Ideal S4x128x128 .f32) (ix3 (0 : Fin 4) k q)) (fun q => (V (Proc.devRef .tc main_arg9) : FVec Ideal S4x128 .f32) (ix2 (0 : Fin 4) q)))
        (Cert.GinSpec.meanR BnN.nW (Cert.GinSpec.linR (fun r k => (after ops V (Proc.devRef .tc main_v39) : FVec Ideal S100000x128 .f32) (ix2 r k)) (fun r k => (after ops V (Proc.devRef .tc main_v53) : FVec Ideal S100000x128 .f32) (ix2 r k)) (fun k q => (V (Proc.devRef .tc main_arg8) : FVec Ideal S4x128x128 .f32) (ix3 (0 : Fin 4) k q)) (fun q => (V (Proc.devRef .tc main_arg9) : FVec Ideal S4x128 .f32) (ix2 (0 : Fin 4) q))))
        (Cert.GinSpec.varR BnN.nW (Cert.GinSpec.linR (fun r k => (after ops V (Proc.devRef .tc main_v39) : FVec Ideal S100000x128 .f32) (ix2 r k)) (fun r k => (after ops V (Proc.devRef .tc main_v53) : FVec Ideal S100000x128 .f32) (ix2 r k)) (fun k q => (V (Proc.devRef .tc main_arg8) : FVec Ideal S4x128x128 .f32) (ix3 (0 : Fin 4) k q)) (fun q => (V (Proc.devRef .tc main_arg9) : FVec Ideal S4x128 .f32) (ix2 (0 : Fin 4) q))))
        (fun q => (V (Proc.devRef .tc main_arg10) : FVec Ideal S4x128 .f32) (ix2 (0 : Fin 4) q)) (fun q => (V (Proc.devRef .tc main_arg11) : FVec Ideal S4x128 .f32) (ix2 (0 : Fin 4) q)) r q := by
  rw [x2_eq V, BnN.bnRelu_spec]
  simp only [gin128_apply, mat0_apply, vec0_apply]

/-- Graph layer 3's output entry (r, q). -/
theorem layer3_at (V : Valuation τ sig (Elt Ideal)) (r : Fin 100000) (q : Fin 128) :
    (after ops V (Proc.devRef .tc main_v135) : FVec Ideal S100000x128 .f32) (ix2 r q)
      = Cert.GinSpec.bnrelu BnN.epsW (Cert.GinSpec.linR (fun r k => (after ops V (Proc.devRef .tc main_v87) : FVec Ideal S100000x128 .f32) (ix2 r k)) (fun r k => (after ops V (Proc.devRef .tc main_v101) : FVec Ideal S100000x128 .f32) (ix2 r k)) (fun k q => (V (Proc.devRef .tc main_arg8) : FVec Ideal S4x128x128 .f32) (ix3 (1 : Fin 4) k q)) (fun q => (V (Proc.devRef .tc main_arg9) : FVec Ideal S4x128 .f32) (ix2 (1 : Fin 4) q)))
        (Cert.GinSpec.meanR BnN.nW (Cert.GinSpec.linR (fun r k => (after ops V (Proc.devRef .tc main_v87) : FVec Ideal S100000x128 .f32) (ix2 r k)) (fun r k => (after ops V (Proc.devRef .tc main_v101) : FVec Ideal S100000x128 .f32) (ix2 r k)) (fun k q => (V (Proc.devRef .tc main_arg8) : FVec Ideal S4x128x128 .f32) (ix3 (1 : Fin 4) k q)) (fun q => (V (Proc.devRef .tc main_arg9) : FVec Ideal S4x128 .f32) (ix2 (1 : Fin 4) q))))
        (Cert.GinSpec.varR BnN.nW (Cert.GinSpec.linR (fun r k => (after ops V (Proc.devRef .tc main_v87) : FVec Ideal S100000x128 .f32) (ix2 r k)) (fun r k => (after ops V (Proc.devRef .tc main_v101) : FVec Ideal S100000x128 .f32) (ix2 r k)) (fun k q => (V (Proc.devRef .tc main_arg8) : FVec Ideal S4x128x128 .f32) (ix3 (1 : Fin 4) k q)) (fun q => (V (Proc.devRef .tc main_arg9) : FVec Ideal S4x128 .f32) (ix2 (1 : Fin 4) q))))
        (fun q => (V (Proc.devRef .tc main_arg10) : FVec Ideal S4x128 .f32) (ix2 (1 : Fin 4) q)) (fun q => (V (Proc.devRef .tc main_arg11) : FVec Ideal S4x128 .f32) (ix2 (1 : Fin 4) q)) r q := by
  rw [x3_eq V, BnN.bnRelu_spec]
  simp only [gin128_apply, mat1_apply, vec1_apply]

/-- Graph layer 4's output entry (r, q). -/
theorem layer4_at (V : Valuation τ sig (Elt Ideal)) (r : Fin 100000) (q : Fin 128) :
    (after ops V (Proc.devRef .tc main_v183) : FVec Ideal S100000x128 .f32) (ix2 r q)
      = Cert.GinSpec.bnrelu BnN.epsW (Cert.GinSpec.linR (fun r k => (after ops V (Proc.devRef .tc main_v135) : FVec Ideal S100000x128 .f32) (ix2 r k)) (fun r k => (after ops V (Proc.devRef .tc main_v149) : FVec Ideal S100000x128 .f32) (ix2 r k)) (fun k q => (V (Proc.devRef .tc main_arg8) : FVec Ideal S4x128x128 .f32) (ix3 (2 : Fin 4) k q)) (fun q => (V (Proc.devRef .tc main_arg9) : FVec Ideal S4x128 .f32) (ix2 (2 : Fin 4) q)))
        (Cert.GinSpec.meanR BnN.nW (Cert.GinSpec.linR (fun r k => (after ops V (Proc.devRef .tc main_v135) : FVec Ideal S100000x128 .f32) (ix2 r k)) (fun r k => (after ops V (Proc.devRef .tc main_v149) : FVec Ideal S100000x128 .f32) (ix2 r k)) (fun k q => (V (Proc.devRef .tc main_arg8) : FVec Ideal S4x128x128 .f32) (ix3 (2 : Fin 4) k q)) (fun q => (V (Proc.devRef .tc main_arg9) : FVec Ideal S4x128 .f32) (ix2 (2 : Fin 4) q))))
        (Cert.GinSpec.varR BnN.nW (Cert.GinSpec.linR (fun r k => (after ops V (Proc.devRef .tc main_v135) : FVec Ideal S100000x128 .f32) (ix2 r k)) (fun r k => (after ops V (Proc.devRef .tc main_v149) : FVec Ideal S100000x128 .f32) (ix2 r k)) (fun k q => (V (Proc.devRef .tc main_arg8) : FVec Ideal S4x128x128 .f32) (ix3 (2 : Fin 4) k q)) (fun q => (V (Proc.devRef .tc main_arg9) : FVec Ideal S4x128 .f32) (ix2 (2 : Fin 4) q))))
        (fun q => (V (Proc.devRef .tc main_arg10) : FVec Ideal S4x128 .f32) (ix2 (2 : Fin 4) q)) (fun q => (V (Proc.devRef .tc main_arg11) : FVec Ideal S4x128 .f32) (ix2 (2 : Fin 4) q)) r q := by
  rw [x4_eq V, BnN.bnRelu_spec]
  simp only [gin128_apply, mat2_apply, vec2_apply]

/-- Graph layer 5's output entry (r, q). -/
theorem layer5_at (V : Valuation τ sig (Elt Ideal)) (r : Fin 100000) (q : Fin 128) :
    (after ops V (Proc.devRef .tc main_v231) : FVec Ideal S100000x128 .f32) (ix2 r q)
      = Cert.GinSpec.bnrelu BnN.epsW (Cert.GinSpec.linR (fun r k => (after ops V (Proc.devRef .tc main_v183) : FVec Ideal S100000x128 .f32) (ix2 r k)) (fun r k => (after ops V (Proc.devRef .tc main_v197) : FVec Ideal S100000x128 .f32) (ix2 r k)) (fun k q => (V (Proc.devRef .tc main_arg8) : FVec Ideal S4x128x128 .f32) (ix3 (3 : Fin 4) k q)) (fun q => (V (Proc.devRef .tc main_arg9) : FVec Ideal S4x128 .f32) (ix2 (3 : Fin 4) q)))
        (Cert.GinSpec.meanR BnN.nW (Cert.GinSpec.linR (fun r k => (after ops V (Proc.devRef .tc main_v183) : FVec Ideal S100000x128 .f32) (ix2 r k)) (fun r k => (after ops V (Proc.devRef .tc main_v197) : FVec Ideal S100000x128 .f32) (ix2 r k)) (fun k q => (V (Proc.devRef .tc main_arg8) : FVec Ideal S4x128x128 .f32) (ix3 (3 : Fin 4) k q)) (fun q => (V (Proc.devRef .tc main_arg9) : FVec Ideal S4x128 .f32) (ix2 (3 : Fin 4) q))))
        (Cert.GinSpec.varR BnN.nW (Cert.GinSpec.linR (fun r k => (after ops V (Proc.devRef .tc main_v183) : FVec Ideal S100000x128 .f32) (ix2 r k)) (fun r k => (after ops V (Proc.devRef .tc main_v197) : FVec Ideal S100000x128 .f32) (ix2 r k)) (fun k q => (V (Proc.devRef .tc main_arg8) : FVec Ideal S4x128x128 .f32) (ix3 (3 : Fin 4) k q)) (fun q => (V (Proc.devRef .tc main_arg9) : FVec Ideal S4x128 .f32) (ix2 (3 : Fin 4) q))))
        (fun q => (V (Proc.devRef .tc main_arg10) : FVec Ideal S4x128 .f32) (ix2 (3 : Fin 4) q)) (fun q => (V (Proc.devRef .tc main_arg11) : FVec Ideal S4x128 .f32) (ix2 (3 : Fin 4) q)) r q := by
  rw [x5_eq V, BnN.bnRelu_spec]
  simp only [gin128_apply, mat3_apply, vec3_apply]

/-- The first dense layer's output entry (r, q). -/
theorem dense1_at (V : Valuation τ sig (Elt Ideal)) (r : Fin 2048) (q : Fin 512) :
    (after ops V (Proc.devRef .tc main_v258) : FVec Ideal S2048x512 .f32) (ix2 r q)
      = Cert.GinSpec.bnrelu Bn512.epsW (Cert.GinSpec.dense (fun r k => (after ops V (Proc.devRef .tc main_v234) : FVec Ideal S2048x128 .f32) (ix2 r k)) (fun k q => (V (Proc.devRef .tc main_arg12) : FVec Ideal S128x512 .f32) (ix2 k q)) (fun q => (V (Proc.devRef .tc main_arg13) : FVec Ideal S512 .f32) (ix1 q)))
        (Cert.GinSpec.meanR Bn512.nW (Cert.GinSpec.dense (fun r k => (after ops V (Proc.devRef .tc main_v234) : FVec Ideal S2048x128 .f32) (ix2 r k)) (fun k q => (V (Proc.devRef .tc main_arg12) : FVec Ideal S128x512 .f32) (ix2 k q)) (fun q => (V (Proc.devRef .tc main_arg13) : FVec Ideal S512 .f32) (ix1 q))))
        (Cert.GinSpec.varR Bn512.nW (Cert.GinSpec.dense (fun r k => (after ops V (Proc.devRef .tc main_v234) : FVec Ideal S2048x128 .f32) (ix2 r k)) (fun k q => (V (Proc.devRef .tc main_arg12) : FVec Ideal S128x512 .f32) (ix2 k q)) (fun q => (V (Proc.devRef .tc main_arg13) : FVec Ideal S512 .f32) (ix1 q))))
        (fun q => (V (Proc.devRef .tc main_arg14) : FVec Ideal S512 .f32) (ix1 q)) (fun q => (V (Proc.devRef .tc main_arg15) : FVec Ideal S512 .f32) (ix1 q)) r q := by
  rw [dense1_eq V, Bn512.bnRelu_spec]
  simp only [dense512_apply]

/-- The second dense layer's output entry (r, q). -/
theorem dense2_at (V : Valuation τ sig (Elt Ideal)) (r : Fin 2048) (q : Fin 256) :
    (after ops V (Proc.devRef .tc main_v282) : FVec Ideal S2048x256 .f32) (ix2 r q)
      = Cert.GinSpec.bnrelu Bn256.epsW (Cert.GinSpec.dense (fun r k => (after ops V (Proc.devRef .tc main_v258) : FVec Ideal S2048x512 .f32) (ix2 r k)) (fun k q => (V (Proc.devRef .tc main_arg16) : FVec Ideal S512x256 .f32) (ix2 k q)) (fun q => (V (Proc.devRef .tc main_arg17) : FVec Ideal S256 .f32) (ix1 q)))
        (Cert.GinSpec.meanR Bn256.nW (Cert.GinSpec.dense (fun r k => (after ops V (Proc.devRef .tc main_v258) : FVec Ideal S2048x512 .f32) (ix2 r k)) (fun k q => (V (Proc.devRef .tc main_arg16) : FVec Ideal S512x256 .f32) (ix2 k q)) (fun q => (V (Proc.devRef .tc main_arg17) : FVec Ideal S256 .f32) (ix1 q))))
        (Cert.GinSpec.varR Bn256.nW (Cert.GinSpec.dense (fun r k => (after ops V (Proc.devRef .tc main_v258) : FVec Ideal S2048x512 .f32) (ix2 r k)) (fun k q => (V (Proc.devRef .tc main_arg16) : FVec Ideal S512x256 .f32) (ix2 k q)) (fun q => (V (Proc.devRef .tc main_arg17) : FVec Ideal S256 .f32) (ix1 q))))
        (fun q => (V (Proc.devRef .tc main_arg18) : FVec Ideal S256 .f32) (ix1 q)) (fun q => (V (Proc.devRef .tc main_arg19) : FVec Ideal S256 .f32) (ix1 q)) r q := by
  rw [dense2_eq V, Bn256.bnRelu_spec]
  simp only [dense256_apply]

/-- An entry of a rank-2 array by its coordinates, as an extended real. -/
abbrev ent2 {R C : ℕ} (x : FVec Ideal ⟨2, ![R, C]⟩ .f32) (r : Fin R) (q : Fin C) : EReal := x (ix2 r q)
/-- An entry of a vector, as an extended real. -/
abbrev ent1 {C : ℕ} (x : FVec Ideal ⟨1, ![C]⟩ .f32) (q : Fin C) : EReal := x (ix1 q)

/-- The result's entry (r, c): the logistic of the logit in column 204 + c. -/
theorem out_at (V : Valuation τ sig (Elt Ideal)) (r : Fin 2048) (c : Fin 204) :
    ent2 (R := 2048) (C := 204) (after ops V (Proc.devRef .tc main_v293)) r c
      = Ideal.logistic ((∑ k : Fin 256, ent2 (R := 2048) (C := 256) (after ops V (Proc.devRef .tc main_v282)) r k * ent2 (R := 256) (C := 408) (V (Proc.devRef .tc main_arg20)) k (hi c))
          + ent1 (C := 408) (V (Proc.devRef .tc main_arg21)) (hi c)) := by
  show (after ops V (Proc.devRef .tc main_v293) : FVec Ideal S2048x204 .f32) (ix2 r c) = _
  rw [out_eq V]
  exact head_apply _ _ _ r c

end Cert.ReferenceIdeal.RefValue

end
-- ==== Proof.BridgeStep.lean ====
/-
  One layer on both sides, as arrays: if the two programs' layer outputs are the fused / plain (or the common dense) affine
  stage followed by the normalisation, each written with its own way of mean and variance, over inputs that agree and are
  real, then the two outputs are one array of reals.
-/
import proofs.«132586_j38087769981032_1_alg».proof.Proof.GinSpec
import Idealize.ShloMosaic.Lib.ValueIdx

noncomputable section

namespace Cert.BridgeStep

open Finset Idealize.ShloMosaic Idealize.ShloMosaic.ValueIdx Cert.Lib.Cheb Cert.GinSpec

variable {N K C : ℕ}

/-- A rank-2 array as a function of its two coordinates. -/
abbrev cur (x : (⟨2, ![N, C]⟩ : Shape).Idx → EReal) : Fin N → Fin C → EReal := fun r q => x (ix2 r q)

/-- Two rank-2 arrays that agree at every pair of coordinates are one array. -/
theorem ext2 (x y : (⟨2, ![N, C]⟩ : Shape).Idx → EReal) (h : ∀ r q, x (ix2 r q) = y (ix2 r q)) : x = y := by
  funext i
  obtain ⟨r, q, rfl⟩ : ∃ (r : Fin N) (q : Fin C), i = ix2 r q := ⟨i 0, i 1, eq_ix2 i⟩
  exact h r q

/-- Every entry of a rank-2 array is real when it is at every pair of coordinates. -/
theorem real2_all (x : (⟨2, ![N, C]⟩ : Shape).Idx → EReal) (h : Real2 (cur x)) : ∀ i, IsReal (x i) := by
  intro i
  obtain ⟨r, q, rfl⟩ : ∃ (r : Fin N) (q : Fin C), i = ix2 r q := ⟨i 0, i 1, eq_ix2 i⟩
  exact h r q

/-- ONE GRAPH LAYER ON BOTH SIDES. -/
theorem gin_step (hN : 0 < N) (xK xR aK aR : (⟨2, ![N, K]⟩ : Shape).Idx → EReal) (outK outR : (⟨2, ![N, C]⟩ : Shape).Idx → EReal)
    (w : Fin K → Fin C → EReal) (b g bt : Fin C → EReal) (n eps two : EReal)
    (hK : ∀ r q, outK (ix2 r q) = bnrelu eps (linK two (cur xK) (cur aK) w (fun q => two * b q))
      (meanK n (linK two (cur xK) (cur aK) w (fun q => two * b q))) (varK n (linK two (cur xK) (cur aK) w (fun q => two * b q))) g bt r q)
    (hR : ∀ r q, outR (ix2 r q) = bnrelu eps (linR (cur xR) (cur aR) w b) (meanR n (linR (cur xR) (cur aR) w b))
      (varR n (linR (cur xR) (cur aR) w b)) g bt r q)
    (hx : xK = xR) (ha : aK = aR) (hxr : ∀ i, IsReal (xK i)) (har : ∀ i, IsReal (aK i))
    (hw : Real2 w) (hb : Real1 b) (hg : Real1 g) (hbt : Real1 bt)
    (htwo : two = (2 : EReal)) (hn : n = ((N : ℝ) : EReal)) (heps : ∃ e : ℝ, 0 < e ∧ eps = (e : EReal)) :
    outK = outR ∧ ∀ i, IsReal (outK i) := by
  subst hx ha
  obtain ⟨e, hr⟩ := gin_layer hN (cur xK) (cur aK) w b g bt n eps two htwo hn heps (fun r k => hxr _) (fun r k => har _) hw hb hg hbt
  refine ⟨ext2 _ _ fun r q => ?_, real2_all _ fun r q => ?_⟩
  · rw [hK r q, hR r q, e]
  · show IsReal (outK (ix2 r q))
    rw [hK r q, e]
    exact hr r q

/-- ONE DENSE LAYER ON BOTH SIDES. -/
theorem dense_step (hN : 0 < N) (xK xR : (⟨2, ![N, K]⟩ : Shape).Idx → EReal) (outK outR : (⟨2, ![N, C]⟩ : Shape).Idx → EReal)
    (w : Fin K → Fin C → EReal) (b g bt : Fin C → EReal) (n eps : EReal)
    (hK : ∀ r q, outK (ix2 r q) = bnrelu eps (dense (cur xK) w b) (meanK n (dense (cur xK) w b)) (varK n (dense (cur xK) w b)) g bt r q)
    (hR : ∀ r q, outR (ix2 r q) = bnrelu eps (dense (cur xR) w b) (meanR n (dense (cur xR) w b)) (varR n (dense (cur xR) w b)) g bt r q)
    (hx : xK = xR) (hxr : ∀ i, IsReal (xK i)) (hw : Real2 w) (hb : Real1 b) (hg : Real1 g) (hbt : Real1 bt)
    (hn : n = ((N : ℝ) : EReal)) (heps : ∃ e : ℝ, 0 < e ∧ eps = (e : EReal)) :
    outK = outR ∧ ∀ i, IsReal (outK i) := by
  subst hx
  obtain ⟨e, hr⟩ := dense_layer hN (cur xK) w b g bt n eps hn heps (fun r k => hxr _) hw hb hg hbt
  refine ⟨ext2 _ _ fun r q => ?_, real2_all _ fun r q => ?_⟩
  · rw [hK r q, hR r q, e]
  · show IsReal (outK (ix2 r q))
    rw [hK r q, e]
    exact hr r q

end Cert.BridgeStep

end
-- ==== Proof.Pre.lean ====
/-
  What the precondition gives: every entry of every float argument is real.

  The precondition is one word: the conjunction, over the nineteen float arguments, of "every entry's absolute value is
  below +∞". A conjunction of bits that is 1 has every conjunct 1; a reduction by "and" over all axes that is 1 has every
  element 1; and an extended real whose absolute value max x (−x) lies strictly below +∞ is neither infinity, hence the
  image of a real number.
-/
import proofs.«132586_j38087769981032_1_alg».proof.Defs
import proofs.«132586_j38087769981032_1_alg».proof.Proof.LibChebAlgebra
import Idealize.ShloMosaic.Lib.ReduceAll
import Idealize.ShloMosaic.Lib.Affine

noncomputable section

namespace Cert.KernelIdeal.Pre

open Idealize.ShloMosaic Idealize.ShloMosaic.TcCoe Idealize.SL.Sem Cert.Lib.Cheb Cert.KernelIdeal

instance : Subsingleton Cert.Pre_finite_inputs.S_.Idx := ⟨fun a b => funext fun d => d.elim0⟩

/-- An extended real whose absolute value is strictly below +∞ is real. -/
theorem real_of_abs_lt_inf (x : EReal)
    (h : FloatOps.cmpf (F := Ideal) (φ := .f32) .olt (FloatOps.hostAbsf (F := Ideal) (φ := .f32) x) (Ideal.ofBits .f32 0x7F800000#32) = 1#1) :
    IsReal x := by
  induction x using EReal.rec with
  | bot =>
    exfalso
    have h' : Ideal.cmp .olt (max (⊥ : EReal) (-⊥)) (Ideal.ofBits .f32 0x7F800000#32) = 1#1 := h
    simp [Ideal.ofBits, Ideal.ieee, Ideal.cmp] at h'
  | coe r => exact ⟨r, rfl⟩
  | top =>
    exfalso
    have h' : Ideal.cmp .olt (max (⊤ : EReal) (-⊤)) (Ideal.ofBits .f32 0x7F800000#32) = 1#1 := h
    simp [Ideal.ofBits, Ideal.ieee, Ideal.cmp] at h'

/-- An array all of whose entries pass "absolute value below +∞" has real entries. -/
theorem real_of_all {S : Shape} {axes : List (Fin S.rank)} (x : FVec Ideal S .f32) (bc) (red : S.ReducesTo axes Cert.Pre_finite_inputs.S_)
    (hu : 0 < Cert.Pre_finite_inputs.S_.numel)
    (h : Host.reduce IntOp.andi (cmpf .olt (Host.absf x) (broadcastInDim S ![] bc (constant Cert.Pre_finite_inputs.S_ .f32 0x7F800000#32)))
      (constantI Cert.Pre_finite_inputs.S_ 1 1#1) red hu (fun d => d.elim0) = 1#1) (i : S.Idx) : IsReal (x i) := by
  have e := Host.reduce_andi_all _ _ red hu _ h i
  apply real_of_abs_lt_inf
  simpa [cmpf, Host.absf, broadcastInDim, constant] using e

/-- Every entry of every float argument of core c is real. -/
structure RealArgs (m : (ℓ : Loc nD τ sig) → Buf (Elt Ideal) ℓ) (c : Dev nD) : Prop where
  /-- every entry of argument 0 is real -/
  a0 : ∀ i : S100000x78.Idx, IsReal ((m ((c.tc : Thread nD τ).loc main_arg0) : FVec Ideal S100000x78 .f32) i)
  /-- every entry of argument 4 is real -/
  a4 : ∀ i : S78x128.Idx, IsReal ((m ((c.tc : Thread nD τ).loc main_arg4) : FVec Ideal S78x128 .f32) i)
  /-- every entry of argument 5 is real -/
  a5 : ∀ i : S128.Idx, IsReal ((m ((c.tc : Thread nD τ).loc main_arg5) : FVec Ideal S128 .f32) i)
  /-- every entry of argument 6 is real -/
  a6 : ∀ i : S128.Idx, IsReal ((m ((c.tc : Thread nD τ).loc main_arg6) : FVec Ideal S128 .f32) i)
  /-- every entry of argument 7 is real -/
  a7 : ∀ i : S128.Idx, IsReal ((m ((c.tc : Thread nD τ).loc main_arg7) : FVec Ideal S128 .f32) i)
  /-- every entry of argument 8 is real -/
  a8 : ∀ i : S4x128x128.Idx, IsReal ((m ((c.tc : Thread nD τ).loc main_arg8) : FVec Ideal S4x128x128 .f32) i)
  /-- every entry of argument 9 is real -/
  a9 : ∀ i : S4x128.Idx, IsReal ((m ((c.tc : Thread nD τ).loc main_arg9) : FVec Ideal S4x128 .f32) i)
  /-- every entry of argument 10 is real -/
  a10 : ∀ i : S4x128.Idx, IsReal ((m ((c.tc : Thread nD τ).loc main_arg10) : FVec Ideal S4x128 .f32) i)
  /-- every entry of argument 11 is real -/
  a11 : ∀ i : S4x128.Idx, IsReal ((m ((c.tc : Thread nD τ).loc main_arg11) : FVec Ideal S4x128 .f32) i)
  /-- every entry of argument 12 is real -/
  a12 : ∀ i : S128x512.Idx, IsReal ((m ((c.tc : Thread nD τ).loc main_arg12) : FVec Ideal S128x512 .f32) i)
  /-- every entry of argument 13 is real -/
  a13 : ∀ i : S512.Idx, IsReal ((m ((c.tc : Thread nD τ).loc main_arg13) : FVec Ideal S512 .f32) i)
  /-- every entry of argument 14 is real -/
  a14 : ∀ i : S512.Idx, IsReal ((m ((c.tc : Thread nD τ).loc main_arg14) : FVec Ideal S512 .f32) i)
  /-- every entry of argument 15 is real -/
  a15 : ∀ i : S512.Idx, IsReal ((m ((c.tc : Thread nD τ).loc main_arg15) : FVec Ideal S512 .f32) i)
  /-- every entry of argument 16 is real -/
  a16 : ∀ i : S512x256.Idx, IsReal ((m ((c.tc : Thread nD τ).loc main_arg16) : FVec Ideal S512x256 .f32) i)
  /-- every entry of argument 17 is real -/
  a17 : ∀ i : S256.Idx, IsReal ((m ((c.tc : Thread nD τ).loc main_arg17) : FVec Ideal S256 .f32) i)
  /-- every entry of argument 18 is real -/
  a18 : ∀ i : S256.Idx, IsReal ((m ((c.tc : Thread nD τ).loc main_arg18) : FVec Ideal S256 .f32) i)
  /-- every entry of argument 19 is real -/
  a19 : ∀ i : S256.Idx, IsReal ((m ((c.tc : Thread nD τ).loc main_arg19) : FVec Ideal S256 .f32) i)
  /-- every entry of argument 20 is real -/
  a20 : ∀ i : S256x408.Idx, IsReal ((m ((c.tc : Thread nD τ).loc main_arg20) : FVec Ideal S256x408 .f32) i)
  /-- every entry of argument 21 is real -/
  a21 : ∀ i : S408.Idx, IsReal ((m ((c.tc : Thread nD τ).loc main_arg21) : FVec Ideal S408 .f32) i)

/-- The precondition makes every float argument real. -/
theorem realArgs [Cert.Pre_finite_inputs.Facts] (m : (ℓ : Loc nD τ sig) → Buf (Elt Ideal) ℓ) (hpre : Cert.Pre_KernelIdeal m) (c : Dev nD) :
    RealArgs m c := by
  have h := congrFun (hpre c) (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  obtain ⟨h, h21⟩ := IntOp.andi_eq_one.1 h
  obtain ⟨h, h20⟩ := IntOp.andi_eq_one.1 h
  obtain ⟨h, h19⟩ := IntOp.andi_eq_one.1 h
  obtain ⟨h, h18⟩ := IntOp.andi_eq_one.1 h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h0, h4⟩ := IntOp.andi_eq_one.1 h
  exact {
    a0 := fun i => real_of_all (S := Cert.Pre_finite_inputs.S100000x78) (m ((c.tc : Thread nD τ).loc main_arg0)) _ _ _ h0 i
    a4 := fun i => real_of_all (S := Cert.Pre_finite_inputs.S78x128) (m ((c.tc : Thread nD τ).loc main_arg4)) _ _ _ h4 i
    a5 := fun i => real_of_all (S := Cert.Pre_finite_inputs.S128) (m ((c.tc : Thread nD τ).loc main_arg5)) _ _ _ h5 i
    a6 := fun i => real_of_all (S := Cert.Pre_finite_inputs.S128) (m ((c.tc : Thread nD τ).loc main_arg6)) _ _ _ h6 i
    a7 := fun i => real_of_all (S := Cert.Pre_finite_inputs.S128) (m ((c.tc : Thread nD τ).loc main_arg7)) _ _ _ h7 i
    a8 := fun i => real_of_all (S := Cert.Pre_finite_inputs.S4x128x128) (m ((c.tc : Thread nD τ).loc main_arg8)) _ _ _ h8 i
    a9 := fun i => real_of_all (S := Cert.Pre_finite_inputs.S4x128) (m ((c.tc : Thread nD τ).loc main_arg9)) _ _ _ h9 i
    a10 := fun i => real_of_all (S := Cert.Pre_finite_inputs.S4x128) (m ((c.tc : Thread nD τ).loc main_arg10)) _ _ _ h10 i
    a11 := fun i => real_of_all (S := Cert.Pre_finite_inputs.S4x128) (m ((c.tc : Thread nD τ).loc main_arg11)) _ _ _ h11 i
    a12 := fun i => real_of_all (S := Cert.Pre_finite_inputs.S128x512) (m ((c.tc : Thread nD τ).loc main_arg12)) _ _ _ h12 i
    a13 := fun i => real_of_all (S := Cert.Pre_finite_inputs.S512) (m ((c.tc : Thread nD τ).loc main_arg13)) _ _ _ h13 i
    a14 := fun i => real_of_all (S := Cert.Pre_finite_inputs.S512) (m ((c.tc : Thread nD τ).loc main_arg14)) _ _ _ h14 i
    a15 := fun i => real_of_all (S := Cert.Pre_finite_inputs.S512) (m ((c.tc : Thread nD τ).loc main_arg15)) _ _ _ h15 i
    a16 := fun i => real_of_all (S := Cert.Pre_finite_inputs.S512x256) (m ((c.tc : Thread nD τ).loc main_arg16)) _ _ _ h16 i
    a17 := fun i => real_of_all (S := Cert.Pre_finite_inputs.S256) (m ((c.tc : Thread nD τ).loc main_arg17)) _ _ _ h17 i
    a18 := fun i => real_of_all (S := Cert.Pre_finite_inputs.S256) (m ((c.tc : Thread nD τ).loc main_arg18)) _ _ _ h18 i
    a19 := fun i => real_of_all (S := Cert.Pre_finite_inputs.S256) (m ((c.tc : Thread nD τ).loc main_arg19)) _ _ _ h19 i
    a20 := fun i => real_of_all (S := Cert.Pre_finite_inputs.S256x408) (m ((c.tc : Thread nD τ).loc main_arg20)) _ _ _ h20 i
    a21 := fun i => real_of_all (S := Cert.Pre_finite_inputs.S408) (m ((c.tc : Thread nD τ).loc main_arg21)) _ _ _ h21 i }

end Cert.KernelIdeal.Pre

end
-- ==== Proof.LibAggReal.lean ====
/-
  Gathers and scatter-adds of real data are real.

  On the extended reals a gather's entry IS an entry of its operand, whatever the start indices say (they are clamped into
  range), and an accumulating scatter's entry is the operand's entry plus the finite sum of the updates that land on it
  (an update landing outside contributes nothing). So a gather of an array of reals is an array of reals, and a
  scatter-add of real updates onto a real operand — the zero array in particular — is an array of reals. A scalar
  constant spread over a shape is that constant everywhere.
-/
import proofs.«132586_j38087769981032_1_alg».proof.Proof.LibChebReal
import Idealize.ShloMosaic.PureOps.Contract
import Idealize.ShloMosaic.PureOps.Ideal.Laws

namespace Cert.Lib.AggReal

open Finset Idealize.ShloMosaic Cert.Lib.Cheb

/-- Every entry of a gather is an entry of the operand: real when the operand's entries are. -/
theorem gather_real {s si t : Shape} {w : ℕ} (d : GatherDims s si t) (x : s.Idx → EReal) (idx : IVec si w)
    (hx : ∀ i, IsReal (x i)) (j : t.Idx) : IsReal (Host.gather d x idx j) := hx _

/-- An entry of a scatter-add is the operand's entry plus a finite sum of update entries: real when both arrays' entries
    are. -/
theorem scatterAdd_real {s si su : Shape} {w : ℕ} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) (φ := .f32) d x idx upd i) := by
  show IsReal (x i + ∑ j ∈ Finset.univ.filter (fun j => d.resultIdx? j idx = some i), upd j)
  exact (hx i).add (IsReal.sum _ _ fun j _ => hu j)

/-- The zero word spread over a shape is zero everywhere, hence real. -/
theorem zeros_real {s0 s : Shape} (dims : Fin s0.rank → Fin s.rank) (bc) (i : s.Idx) :
    IsReal ((broadcastInDim s dims bc (constant (F := Ideal) s0 .f32 0x00000000#32) : FVec Ideal s .f32) i) := by
  show IsReal (Ideal.ofBits .f32 0x00000000#32)
  rw [Ideal.ofBits_zero_f32]
  exact IsReal.zero

end Cert.Lib.AggReal
-- ==== Proof.Bridge.lean ====
/-
  The two programs' results are one array.

  Layer by layer, from the arguments: if the two programs' layer inputs are one real array, then so are the neighbours'
  sums (one function of equal arrays; a scatter-add of gathered reals onto zeros is real), the fused affine stage is the
  plain one, the two ways of mean and variance agree, and the normalised outputs are one real array again. After five
  graph layers the graphs' sums are one real array, two dense layers follow in the same way, and the last stage is the
  same sum on both sides: the last 204 columns of the product are the product with the last 204 columns.
-/
import proofs.«132586_j38087769981032_1_alg».proof.Proof.KChainF
import proofs.«132586_j38087769981032_1_alg».proof.Proof.RefValueLayers
import proofs.«132586_j38087769981032_1_alg».proof.Proof.BridgeStep
import proofs.«132586_j38087769981032_1_alg».proof.Proof.Pre
import proofs.«132586_j38087769981032_1_alg».proof.Proof.Words
import proofs.«132586_j38087769981032_1_alg».proof.Proof.LibAggReal

set_option maxRecDepth 16384

noncomputable section

namespace Cert.Bridge

open Idealize.ShloMosaic Idealize.ShloMosaic.TcCoe Idealize.SL.Sem Idealize.ShloMosaic.ValueIdx Idealize.ShloMosaic.StableHlo
open Cert.Lib.Cheb Cert.GinSpec Cert.Words Cert.BridgeStep
open Cert.KernelIdeal Cert.KernelIdeal.Gen Cert.KernelIdeal.KChain

variable (m : (ℓ : Loc nD τ sig) → Buf (Elt Ideal) ℓ) (ρ : Dev nD → PrngReg) (c : Dev nD)
variable (V' : Valuation Cert.ReferenceIdeal.τ Cert.ReferenceIdeal.sig (Elt Ideal))

-- what the reference's buffer holds after its operations, from the contents V'
set_option quotPrecheck false in
local notation "RA" b:max => after (Cert.ReferenceIdeal.RefRun.ops (F := Ideal)) V' (Proc.devRef .tc b)

/-- The reference starts from the kernel program's argument arrays. -/
structure Agrees : Prop where
  e0 : (V' (Proc.devRef .tc Cert.ReferenceIdeal.main_arg0) : FVec Ideal S100000x78 .f32) = a0 m c
  e1 : (V' (Proc.devRef .tc Cert.ReferenceIdeal.main_arg1) : IVec S1600000 32) = a1 m c
  e2 : (V' (Proc.devRef .tc Cert.ReferenceIdeal.main_arg2) : IVec S1600000 32) = a2 m c
  e3 : (V' (Proc.devRef .tc Cert.ReferenceIdeal.main_arg3) : IVec S100000 32) = a3 m c
  e4 : (V' (Proc.devRef .tc Cert.ReferenceIdeal.main_arg4) : FVec Ideal S78x128 .f32) = a4 m c
  e5 : (V' (Proc.devRef .tc Cert.ReferenceIdeal.main_arg5) : FVec Ideal S128 .f32) = a5 m c
  e6 : (V' (Proc.devRef .tc Cert.ReferenceIdeal.main_arg6) : FVec Ideal S128 .f32) = a6 m c
  e7 : (V' (Proc.devRef .tc Cert.ReferenceIdeal.main_arg7) : FVec Ideal S128 .f32) = a7 m c
  e8 : (V' (Proc.devRef .tc Cert.ReferenceIdeal.main_arg8) : FVec Ideal S4x128x128 .f32) = a8 m c
  e9 : (V' (Proc.devRef .tc Cert.ReferenceIdeal.main_arg9) : FVec Ideal S4x128 .f32) = a9 m c
  e10 : (V' (Proc.devRef .tc Cert.ReferenceIdeal.main_arg10) : FVec Ideal S4x128 .f32) = a10 m c
  e11 : (V' (Proc.devRef .tc Cert.ReferenceIdeal.main_arg11) : FVec Ideal S4x128 .f32) = a11 m c
  e12 : (V' (Proc.devRef .tc Cert.ReferenceIdeal.main_arg12) : FVec Ideal S128x512 .f32) = a12 m c
  e13 : (V' (Proc.devRef .tc Cert.ReferenceIdeal.main_arg13) : FVec Ideal S512 .f32) = a13 m c
  e14 : (V' (Proc.devRef .tc Cert.ReferenceIdeal.main_arg14) : FVec Ideal S512 .f32) = a14 m c
  e15 : (V' (Proc.devRef .tc Cert.ReferenceIdeal.main_arg15) : FVec Ideal S512 .f32) = a15 m c
  e16 : (V' (Proc.devRef .tc Cert.ReferenceIdeal.main_arg16) : FVec Ideal S512x256 .f32) = a16 m c
  e17 : (V' (Proc.devRef .tc Cert.ReferenceIdeal.main_arg17) : FVec Ideal S256 .f32) = a17 m c
  e18 : (V' (Proc.devRef .tc Cert.ReferenceIdeal.main_arg18) : FVec Ideal S256 .f32) = a18 m c
  e19 : (V' (Proc.devRef .tc Cert.ReferenceIdeal.main_arg19) : FVec Ideal S256 .f32) = a19 m c
  e20 : (V' (Proc.devRef .tc Cert.ReferenceIdeal.main_arg20) : FVec Ideal S256x408 .f32) = a20 m c
  e21 : (V' (Proc.devRef .tc Cert.ReferenceIdeal.main_arg21) : FVec Ideal S408 .f32) = a21 m c

/-- Layer 1: the two programs' outputs are one real array. -/
theorem step1 (hA : Agrees m c V') (hP : Pre.RealArgs m c) :
    (x1 m ρ c : FVec Ideal S100000x128 .f32) = RA Cert.ReferenceIdeal.main_v39 ∧ ∀ i, IsReal (x1 m ρ c i) := by
  have hagg : (RA Cert.ReferenceIdeal.main_v9 : FVec Ideal S100000x78 .f32) = KHost.aggOf78 (a0 m c) (a1 m c) (a2 m c) := by
    have h' := Cert.ReferenceIdeal.RefValue.agg1_eq (F := Ideal) V'
    rw [hA.e0, hA.e1, hA.e2] at h'
    exact h'
  refine gin_step (N := 100000) (K := 78) (C := 128) (by norm_num) (a0 m c) (a0 m c)
    (KHost.aggOf78 (a0 m c) (a1 m c) (a2 m c)) (KHost.aggOf78 (a0 m c) (a1 m c) (a2 m c)) (x1 m ρ c) (RA Cert.ReferenceIdeal.main_v39)
    (rd2 (R := 78) (C := 128) (a4 m c)) (rd1 (C := 128) (a5 m c)) (rd1 (C := 128) (a6 m c)) (rd1 (C := 128) (a7 m c)) nW epsW twoW
    (fun r q => layer1 m ρ c r q) ?_ rfl rfl hP.a0 (fun i => Cert.ReferenceIdeal.RefValue.agg78_real _ _ _ hP.a0 i)
    (fun k q => hP.a4 _) (fun q => hP.a5 _) (fun q => hP.a6 _) (fun q => hP.a7 _) twoW_eq nW_eq' epsW_pos
  intro r q
  have h' := Cert.ReferenceIdeal.RefValue.layer1_at V' r q
  rw [hA.e0, hagg, hA.e4, hA.e5, hA.e6, hA.e7] at h'
  exact h'

/-- Layer 2: the two programs' outputs are one real array. -/
theorem step2 (hA : Agrees m c V') (hP : Pre.RealArgs m c)
    (h : (x1 m ρ c : FVec Ideal S100000x128 .f32) = RA Cert.ReferenceIdeal.main_v39 ∧ ∀ i, IsReal (x1 m ρ c i)) :
    (x2 m ρ c : FVec Ideal S100000x128 .f32) = RA Cert.ReferenceIdeal.main_v87 ∧ ∀ i, IsReal (x2 m ρ c i) := by
  obtain ⟨e, hr⟩ := h
  have hagg : (RA Cert.ReferenceIdeal.main_v53 : FVec Ideal S100000x128 .f32) = KHost.aggOf128 (x1 m ρ c) (a1 m c) (a2 m c) := by
    have h' := Cert.ReferenceIdeal.RefValue.agg2_eq (F := Ideal) V'
    rw [← e, hA.e1, hA.e2] at h'
    exact h'
  refine gin_step (N := 100000) (K := 128) (C := 128) (by norm_num) (x1 m ρ c) (x1 m ρ c)
    (KHost.aggOf128 (x1 m ρ c) (a1 m c) (a2 m c)) (KHost.aggOf128 (x1 m ρ c) (a1 m c) (a2 m c)) (x2 m ρ c) (RA Cert.ReferenceIdeal.main_v87)
    (fun k q => rd3 (A := 4) (R := 128) (C := 128) (a8 m c) 0 k q) (fun q => rd2 (R := 4) (C := 128) (a9 m c) 0 q)
    (fun q => rd2 (R := 4) (C := 128) (a10 m c) 0 q) (fun q => rd2 (R := 4) (C := 128) (a11 m c) 0 q) nW epsW twoW
    (fun r q => layer2 m ρ c r q) ?_ rfl rfl hr (fun i => Cert.ReferenceIdeal.RefValue.agg128_real _ _ _ hr i)
    (fun k q => hP.a8 _) (fun q => hP.a9 _) (fun q => hP.a10 _) (fun q => hP.a11 _) twoW_eq nW_eq' epsW_pos
  intro r q
  have h' := Cert.ReferenceIdeal.RefValue.layer2_at V' r q
  rw [← e, hagg, hA.e8, hA.e9, hA.e10, hA.e11] at h'
  exact h'

/-- Layer 3: the two programs' outputs are one real array. -/
theorem step3 (hA : Agrees m c V') (hP : Pre.RealArgs m c)
    (h : (x2 m ρ c : FVec Ideal S100000x128 .f32) = RA Cert.ReferenceIdeal.main_v87 ∧ ∀ i, IsReal (x2 m ρ c i)) :
    (x3 m ρ c : FVec Ideal S100000x128 .f32) = RA Cert.ReferenceIdeal.main_v135 ∧ ∀ i, IsReal (x3 m ρ c i) := by
  obtain ⟨e, hr⟩ := h
  have hagg : (RA Cert.ReferenceIdeal.main_v101 : FVec Ideal S100000x128 .f32) = KHost.aggOf128 (x2 m ρ c) (a1 m c) (a2 m c) := by
    have h' := Cert.ReferenceIdeal.RefValue.agg3_eq (F := Ideal) V'
    rw [← e, hA.e1, hA.e2] at h'
    exact h'
  refine gin_step (N := 100000) (K := 128) (C := 128) (by norm_num) (x2 m ρ c) (x2 m ρ c)
    (KHost.aggOf128 (x2 m ρ c) (a1 m c) (a2 m c)) (KHost.aggOf128 (x2 m ρ c) (a1 m c) (a2 m c)) (x3 m ρ c) (RA Cert.ReferenceIdeal.main_v135)
    (fun k q => rd3 (A := 4) (R := 128) (C := 128) (a8 m c) 1 k q) (fun q => rd2 (R := 4) (C := 128) (a9 m c) 1 q)
    (fun q => rd2 (R := 4) (C := 128) (a10 m c) 1 q) (fun q => rd2 (R := 4) (C := 128) (a11 m c) 1 q) nW epsW twoW
    (fun r q => layer3 m ρ c r q) ?_ rfl rfl hr (fun i => Cert.ReferenceIdeal.RefValue.agg128_real _ _ _ hr i)
    (fun k q => hP.a8 _) (fun q => hP.a9 _) (fun q => hP.a10 _) (fun q => hP.a11 _) twoW_eq nW_eq' epsW_pos
  intro r q
  have h' := Cert.ReferenceIdeal.RefValue.layer3_at V' r q
  rw [← e, hagg, hA.e8, hA.e9, hA.e10, hA.e11] at h'
  exact h'

/-- Layer 4: the two programs' outputs are one real array. -/
theorem step4 (hA : Agrees m c V') (hP : Pre.RealArgs m c)
    (h : (x3 m ρ c : FVec Ideal S100000x128 .f32) = RA Cert.ReferenceIdeal.main_v135 ∧ ∀ i, IsReal (x3 m ρ c i)) :
    (x4 m ρ c : FVec Ideal S100000x128 .f32) = RA Cert.ReferenceIdeal.main_v183 ∧ ∀ i, IsReal (x4 m ρ c i) := by
  obtain ⟨e, hr⟩ := h
  have hagg : (RA Cert.ReferenceIdeal.main_v149 : FVec Ideal S100000x128 .f32) = KHost.aggOf128 (x3 m ρ c) (a1 m c) (a2 m c) := by
    have h' := Cert.ReferenceIdeal.RefValue.agg4_eq (F := Ideal) V'
    rw [← e, hA.e1, hA.e2] at h'
    exact h'
  refine gin_step (N := 100000) (K := 128) (C := 128) (by norm_num) (x3 m ρ c) (x3 m ρ c)
    (KHost.aggOf128 (x3 m ρ c) (a1 m c) (a2 m c)) (KHost.aggOf128 (x3 m ρ c) (a1 m c) (a2 m c)) (x4 m ρ c) (RA Cert.ReferenceIdeal.main_v183)
    (fun k q => rd3 (A := 4) (R := 128) (C := 128) (a8 m c) 2 k q) (fun q => rd2 (R := 4) (C := 128) (a9 m c) 2 q)
    (fun q => rd2 (R := 4) (C := 128) (a10 m c) 2 q) (fun q => rd2 (R := 4) (C := 128) (a11 m c) 2 q) nW epsW twoW
    (fun r q => layer4 m ρ c r q) ?_ rfl rfl hr (fun i => Cert.ReferenceIdeal.RefValue.agg128_real _ _ _ hr i)
    (fun k q => hP.a8 _) (fun q => hP.a9 _) (fun q => hP.a10 _) (fun q => hP.a11 _) twoW_eq nW_eq' epsW_pos
  intro r q
  have h' := Cert.ReferenceIdeal.RefValue.layer4_at V' r q
  rw [← e, hagg, hA.e8, hA.e9, hA.e10, hA.e11] at h'
  exact h'

/-- Layer 5: the two programs' outputs are one real array. -/
theorem step5 (hA : Agrees m c V') (hP : Pre.RealArgs m c)
    (h : (x4 m ρ c : FVec Ideal S100000x128 .f32) = RA Cert.ReferenceIdeal.main_v183 ∧ ∀ i, IsReal (x4 m ρ c i)) :
    (x5 m ρ c : FVec Ideal S100000x128 .f32) = RA Cert.ReferenceIdeal.main_v231 ∧ ∀ i, IsReal (x5 m ρ c i) := by
  obtain ⟨e, hr⟩ := h
  have hagg : (RA Cert.ReferenceIdeal.main_v197 : FVec Ideal S100000x128 .f32) = KHost.aggOf128 (x4 m ρ c) (a1 m c) (a2 m c) := by
    have h' := Cert.ReferenceIdeal.RefValue.agg5_eq (F := Ideal) V'
    rw [← e, hA.e1, hA.e2] at h'
    exact h'
  refine gin_step (N := 100000) (K := 128) (C := 128) (by norm_num) (x4 m ρ c) (x4 m ρ c)
    (KHost.aggOf128 (x4 m ρ c) (a1 m c) (a2 m c)) (KHost.aggOf128 (x4 m ρ c) (a1 m c) (a2 m c)) (x5 m ρ c) (RA Cert.ReferenceIdeal.main_v231)
    (fun k q => rd3 (A := 4) (R := 128) (C := 128) (a8 m c) 3 k q) (fun q => rd2 (R := 4) (C := 128) (a9 m c) 3 q)
    (fun q => rd2 (R := 4) (C := 128) (a10 m c) 3 q) (fun q => rd2 (R := 4) (C := 128) (a11 m c) 3 q) nW epsW twoW
    (fun r q => layer5 m ρ c r q) ?_ rfl rfl hr (fun i => Cert.ReferenceIdeal.RefValue.agg128_real _ _ _ hr i)
    (fun k q => hP.a8 _) (fun q => hP.a9 _) (fun q => hP.a10 _) (fun q => hP.a11 _) twoW_eq nW_eq' epsW_pos
  intro r q
  have h' := Cert.ReferenceIdeal.RefValue.layer5_at V' r q
  rw [← e, hagg, hA.e8, hA.e9, hA.e10, hA.e11] at h'
  exact h'

/-- Layer 6: the graphs' sums are one real array, and so is the first dense layer's output. -/
theorem step6 (hA : Agrees m c V') (hP : Pre.RealArgs m c)
    (h : (x5 m ρ c : FVec Ideal S100000x128 .f32) = RA Cert.ReferenceIdeal.main_v231 ∧ ∀ i, IsReal (x5 m ρ c i)) :
    (x6 m ρ c : FVec Ideal S2048x512 .f32) = RA Cert.ReferenceIdeal.main_v258 ∧ ∀ i, IsReal (x6 m ρ c i) := by
  obtain ⟨e, hr⟩ := h
  have hxg : (RA Cert.ReferenceIdeal.main_v234 : FVec Ideal S2048x128 .f32) = xg m ρ c := by
    have h' := Cert.ReferenceIdeal.RefValue.readout_eq (F := Ideal) V'
    rw [← e, hA.e3] at h'
    exact h'
  refine dense_step (N := 2048) (K := 128) (C := 512) (by norm_num) (xg m ρ c) (xg m ρ c) (x6 m ρ c) (RA Cert.ReferenceIdeal.main_v258)
    (rd2 (R := 128) (C := 512) (a12 m c)) (rd1 (C := 512) (a13 m c)) (rd1 (C := 512) (a14 m c)) (rd1 (C := 512) (a15 m c)) gW epsW
    (fun r q => layer6 m ρ c r q) ?_ rfl (fun i => Cert.ReferenceIdeal.RefValue.readout_real _ _ hr i)
    (fun k q => hP.a12 _) (fun q => hP.a13 _) (fun q => hP.a14 _) (fun q => hP.a15 _) gW_eq' epsW_pos
  intro r q
  have h' := Cert.ReferenceIdeal.RefValue.dense1_at V' r q
  rw [hxg, hA.e12, hA.e13, hA.e14, hA.e15] at h'
  exact h'

/-- Layer 7: the second dense layer's outputs are one real array. -/
theorem step7 (hA : Agrees m c V') (hP : Pre.RealArgs m c)
    (h : (x6 m ρ c : FVec Ideal S2048x512 .f32) = RA Cert.ReferenceIdeal.main_v258 ∧ ∀ i, IsReal (x6 m ρ c i)) :
    (x7 m ρ c : FVec Ideal S2048x256 .f32) = RA Cert.ReferenceIdeal.main_v282 ∧ ∀ i, IsReal (x7 m ρ c i) := by
  obtain ⟨e, hr⟩ := h
  refine dense_step (N := 2048) (K := 512) (C := 256) (by norm_num) (x6 m ρ c) (x6 m ρ c) (x7 m ρ c) (RA Cert.ReferenceIdeal.main_v282)
    (rd2 (R := 512) (C := 256) (a16 m c)) (rd1 (C := 256) (a17 m c)) (rd1 (C := 256) (a18 m c)) (rd1 (C := 256) (a19 m c)) gW epsW
    (fun r q => layer7 m ρ c r q) ?_ rfl hr
    (fun k q => hP.a16 _) (fun q => hP.a17 _) (fun q => hP.a18 _) (fun q => hP.a19 _) gW_eq' epsW_pos
  intro r q
  have h' := Cert.ReferenceIdeal.RefValue.dense2_at V' r q
  rw [← e, hA.e16, hA.e17, hA.e18, hA.e19] at h'
  exact h'

/-- The last stage: the same sum on both sides. -/
theorem stepOut (hA : Agrees m c V')
    (h : (x7 m ρ c : FVec Ideal S2048x256 .f32) = RA Cert.ReferenceIdeal.main_v282) :
    (outK m ρ c : FVec Ideal S2048x204 .f32) = RA Cert.ReferenceIdeal.main_v293 := by
  refine ext2 (N := 2048) (C := 204) _ _ fun r q => ?_
  have hK := result_at m ρ c r q
  have hR := Cert.ReferenceIdeal.RefValue.out_at V' r q
  rw [← h, hA.e20, hA.e21] at hR
  have hh : Cert.ReferenceIdeal.RefValue.hi q = KChain.hi q := Fin.ext (Nat.add_comm _ _)
  rw [hh] at hR
  exact hK.trans hR.symm

/-- THE RESULTS AGREE, from any contents of the reference's buffers that hold the kernel program's arguments. -/
theorem result_of (hA : Agrees m c V') (hP : Pre.RealArgs m c) :
    (RA Cert.ReferenceIdeal.main_v293 : FVec Ideal S2048x204 .f32) = W30 m ρ c (Proc.devRef .tc main_v175) :=
  (stepOut m ρ c V' hA (step7 m ρ c V' hA hP (step6 m ρ c V' hA hP (step5 m ρ c V' hA hP (step4 m ρ c V' hA hP
    (step3 m ρ c V' hA hP (step2 m ρ c V' hA hP (step1 m ρ c V' hA hP))))))).1).symm

/-- THE RESULTS AGREE: the reference run from a memory that agrees with the kernel program's on the arguments ends with
    the kernel program's result, under the precondition. -/
theorem result_eq [Cert.Pre_finite_inputs.Facts] (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (c : Dev nD) :
    after (Cert.ReferenceIdeal.RefRun.ops (F := Ideal)) (launchContents m' c) (Cert.ReferenceIdeal.main_v293 : DevRef Cert.ReferenceIdeal.τ Cert.ReferenceIdeal.sig)
      = W30 m ρ c (Proc.devRef .tc main_v175) :=
  result_of m ρ c (launchContents m' c)
    ⟨(hagree c).1,
     (hagree c).2.1,
     (hagree c).2.2.1,
     (hagree c).2.2.2.1,
     (hagree c).2.2.2.2.1,
     (hagree c).2.2.2.2.2.1,
     (hagree c).2.2.2.2.2.2.1,
     (hagree c).2.2.2.2.2.2.2.1,
     (hagree c).2.2.2.2.2.2.2.2.1,
     (hagree c).2.2.2.2.2.2.2.2.2.1,
     (hagree c).2.2.2.2.2.2.2.2.2.2.1,
     (hagree c).2.2.2.2.2.2.2.2.2.2.2.1,
     (hagree c).2.2.2.2.2.2.2.2.2.2.2.2.1,
     (hagree c).2.2.2.2.2.2.2.2.2.2.2.2.2.1,
     (hagree c).2.2.2.2.2.2.2.2.2.2.2.2.2.2.1,
     (hagree c).2.2.2.2.2.2.2.2.2.2.2.2.2.2.2.1,
     (hagree c).2.2.2.2.2.2.2.2.2.2.2.2.2.2.2.2.1,
     (hagree c).2.2.2.2.2.2.2.2.2.2.2.2.2.2.2.2.2.1,
     (hagree c).2.2.2.2.2.2.2.2.2.2.2.2.2.2.2.2.2.2.1,
     (hagree c).2.2.2.2.2.2.2.2.2.2.2.2.2.2.2.2.2.2.2.1,
     (hagree c).2.2.2.2.2.2.2.2.2.2.2.2.2.2.2.2.2.2.2.2.1,
     (hagree c).2.2.2.2.2.2.2.2.2.2.2.2.2.2.2.2.2.2.2.2.2⟩
    (Pre.realArgs m hpre c)

end Cert.Bridge

end
-- ==== Proof.lean ====
/-
  The certificate's claim assembled. The two kernel programs' frames are the generated launch theorems; the reference's
  frame is its run with the buffers' contents forgotten; nothing was rewritten between the kernel and its idealization, so
  that conjunct is trivial; and the two idealized programs end with equal results because the kernel program's result
  array, read back through its thirty segments, and the reference's result array, read back through its operations, are
  one function of the arguments on real data (Proof/Bridge.lean), which the precondition supplies (Proof/Pre.lean).
-/
import proofs.«132586_j38087769981032_1_alg».proof.Defs
import proofs.«132586_j38087769981032_1_alg».proof.Proof.Gen.Kernel
import proofs.«132586_j38087769981032_1_alg».proof.Proof.Gen.Kernel.Frame
import proofs.«132586_j38087769981032_1_alg».proof.Proof.Gen.KernelIdeal
import proofs.«132586_j38087769981032_1_alg».proof.Proof.Gen.KernelIdeal.Frame
import proofs.«132586_j38087769981032_1_alg».proof.Proof.Gen.ReferenceIdeal
import proofs.«132586_j38087769981032_1_alg».proof.Proof.Gen.Pre_finite_inputs
import proofs.«132586_j38087769981032_1_alg».proof.Proof.KRun
import proofs.«132586_j38087769981032_1_alg».proof.Proof.RefRun
import proofs.«132586_j38087769981032_1_alg».proof.Proof.Bridge
import Idealize.ShloMosaic.Adequacy
import Idealize.ShloMosaic.Init

noncomputable section

namespace Cert.Proof

open Idealize.ShloMosaic Idealize.SL.Sem

/-- The word-level kernel program's frame: the generated launch theorem. -/
theorem frame_k : Cert.frame_Kernel := fun m ρ _ => Cert.Kernel.Gen.frame m ρ

/-- The idealized kernel program's frame: the generated launch theorem. -/
theorem frame_ki : Cert.frame_KernelIdeal := fun m ρ _ => Cert.KernelIdeal.Gen.frame m ρ

/-- The reference's frame: its run, every buffer at the operations' fold over the launch contents, read at the
    arguments, which no operation writes. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _),
     (h c Cert.ReferenceIdeal.main_arg15).trans (Cert.ReferenceIdeal.RefRun.arg15_eq _),
     (h c Cert.ReferenceIdeal.main_arg16).trans (Cert.ReferenceIdeal.RefRun.arg16_eq _),
     (h c Cert.ReferenceIdeal.main_arg17).trans (Cert.ReferenceIdeal.RefRun.arg17_eq _),
     (h c Cert.ReferenceIdeal.main_arg18).trans (Cert.ReferenceIdeal.RefRun.arg18_eq _),
     (h c Cert.ReferenceIdeal.main_arg19).trans (Cert.ReferenceIdeal.RefRun.arg19_eq _),
     (h c Cert.ReferenceIdeal.main_arg20).trans (Cert.ReferenceIdeal.RefRun.arg20_eq _),
     (h c Cert.ReferenceIdeal.main_arg21).trans (Cert.ReferenceIdeal.RefRun.arg21_eq _)⟩)
    (Cert.ReferenceIdeal.RefRun.run_main (F := Ideal) m ρ)

/-- Nothing was rewritten between the kernel and its idealization. -/
theorem preserves : Cert.preserves_Kernel_KernelIdeal := trivial

/-- The two idealized programs, run from memories that agree on the arguments, end with equal results: the kernel
    program's result is the fold through its segments at the result buffer, the reference's the fold through its
    operations, and on real data the two are one array. -/
theorem algebraic : Cert.algebraic_KernelIdeal_ReferenceIdeal := by
  intro m ρ m' ρ' hpre hagree
  refine ⟨fun c => Cert.KernelIdeal.Gen.W30 m ρ c (Proc.devRef .tc Cert.KernelIdeal.main_v175),
    Cert.KernelIdeal.KRun.run_result (F := Ideal) m ρ, ?_⟩
  refine (θ_run Cert.ReferenceIdeal.defs _ _).mono (fun _ h c =>
    ⟨(h c Cert.ReferenceIdeal.main_v293).trans (Cert.Bridge.result_eq m ρ m' hpre hagree c),
     (h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _),
     (h c Cert.ReferenceIdeal.main_arg15).trans (Cert.ReferenceIdeal.RefRun.arg15_eq _),
     (h c Cert.ReferenceIdeal.main_arg16).trans (Cert.ReferenceIdeal.RefRun.arg16_eq _),
     (h c Cert.ReferenceIdeal.main_arg17).trans (Cert.ReferenceIdeal.RefRun.arg17_eq _),
     (h c Cert.ReferenceIdeal.main_arg18).trans (Cert.ReferenceIdeal.RefRun.arg18_eq _),
     (h c Cert.ReferenceIdeal.main_arg19).trans (Cert.ReferenceIdeal.RefRun.arg19_eq _),
     (h c Cert.ReferenceIdeal.main_arg20).trans (Cert.ReferenceIdeal.RefRun.arg20_eq _),
     (h c Cert.ReferenceIdeal.main_arg21).trans (Cert.ReferenceIdeal.RefRun.arg21_eq _)⟩)
    (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
